-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v944) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S32x16x100 : Shape := ⟨3, ![32, 16, 100]⟩
abbrev S32x100 : Shape := ⟨2, ![32, 100]⟩
abbrev S32x100x100 : Shape := ⟨3, ![32, 100, 100]⟩
abbrev S32x100x64 : Shape := ⟨3, ![32, 100, 64]⟩
abbrev S32x64 : Shape := ⟨2, ![32, 64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S32x16x100 : S_.BroadcastsInDim S32x16x100 (![] : Fin 0 → Fin S32x16x100.rank)
  reducesTo_S32x16x100_S_d0_1_2 : S32x16x100.ReducesTo [0, 1, 2] S_
  bcast_S_S32x100 : S_.BroadcastsInDim S32x100 (![] : Fin 0 → Fin S32x100.rank)
  reducesTo_S32x100_S_d0_1 : S32x100.ReducesTo [0, 1] S_
  bcast_S_S32x100x100 : S_.BroadcastsInDim S32x100x100 (![] : Fin 0 → Fin S32x100x100.rank)
  reducesTo_S32x100x100_S_d0_1_2 : S32x100x100.ReducesTo [0, 1, 2] S_
  bcast_S_S32x100x64 : S_.BroadcastsInDim S32x100x64 (![] : Fin 0 → Fin S32x100x64.rank)
  reducesTo_S32x100x64_S_d0_1_2 : S32x100x64.ReducesTo [0, 1, 2] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_arg4 : FVec F S32x100 .f32) (main_arg5 : FVec F S32x100x64 .f32) (main_arg6 : FVec F S32x64 .f32) (main_v13 : IVec S_ 1) (main_v16 : IVec S32x100x100 1) : IVec S_ 1 :=
  let main_c_5 : IVec S_ 1 := constantI S_ 1 1#1
  let main_v17 : IVec S_ 1 := (fun x v => Host.reduce IntOp.andi x v reducesTo_S32x100x100_S_d0_1_2 h_S_) main_v16 main_c_5
  let main_v18 : IVec S_ 1 := andi main_v13 main_v17
  let main_v19 : FVec F S32x100 .f32 := Host.absf main_arg4
  let main_cst_6 : FVec F S_ .f32 := constant S_ .f32 0x7F800000#32
  let main_v20 : FVec F S32x100 .f32 := broadcastInDim S32x100 ![] bcast_S_S32x100 main_cst_6
  let main_v21 : IVec S32x100 1 := cmpf .olt main_v19 main_v20
  let main_c_7 : IVec S_ 1 := constantI S_ 1 1#1
  let main_v22 : IVec S_ 1 := (fun x v => Host.reduce IntOp.andi x v reducesTo_S32x100_S_d0_1 h_S_) main_v21 main_c_7
  let main_v23 : IVec S_ 1 := andi main_v18 main_v22
  let main_v24 : FVec F S32x100x64 .f32 := Host.absf main_arg5
  let main_cst_8 : FVec F S_ .f32 := constant S_ .f32 0x7F800000#32
  let main_v25 : FVec F S32x100x64 .f32 := broadcastInDim S32x100x64 ![] bcast_S_S32x100x64 main_cst_8
  let main_v26 : IVec S32x100x64 1 := cmpf .olt main_v24 main_v25
  let main_c_9 : IVec S_ 1 := constantI S_ 1 1#1
  let main_v27 : IVec S_ 1 := (fun x v => Host.reduce IntOp.andi x v reducesTo_S32x100x64_S_d0_1_2 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  main_v33

def fn {F : FTy → Type} [FloatOps F] (main_arg0 : FVec F S65536x512 .f32) (main_arg1 : FVec F S32x16x100 .f32) (main_arg2 : FVec F S32x100 .f32) (main_arg3 : FVec F S32x100x100 .f32) (main_arg4 : FVec F S32x100 .f32) (main_arg5 : FVec F S32x100x64 .f32) (main_arg6 : FVec F S32x64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S32x16x100 .f32 := Host.absf main_arg1
  let main_cst_0 : FVec F S_ .f32 := constant S_ .f32 0x7F800000#32
  let main_v5 : FVec F S32x16x100 .f32 := broadcastInDim S32x16x100 ![] bcast_S_S32x16x100 main_cst_0
  let main_v6 : IVec S32x16x100 1 := cmpf .olt main_v4 main_v5
  let main_c_1 : IVec S_ 1 := constantI S_ 1 1#1
  let main_v7 : IVec S_ 1 := (fun x v => Host.reduce IntOp.andi x v reducesTo_S32x16x100_S_d0_1_2 h_S_) main_v6 main_c_1
  let main_v8 : IVec S_ 1 := andi main_v3 main_v7
  let main_v9 : FVec F S32x100 .f32 := Host.absf main_arg2
  let main_cst_2 : FVec F S_ .f32 := constant S_ .f32 0x7F800000#32
  let main_v10 : FVec F S32x100 .f32 := broadcastInDim S32x100 ![] bcast_S_S32x100 main_cst_2
  let main_v11 : IVec S32x100 1 := cmpf .olt main_v9 main_v10
  let main_c_3 : IVec S_ 1 := constantI S_ 1 1#1
  let main_v12 : IVec S_ 1 := (fun x v => Host.reduce IntOp.andi x v reducesTo_S32x100_S_d0_1 h_S_) main_v11 main_c_3
  let main_v13 : IVec S_ 1 := andi main_v8 main_v12
  let main_v14 : FVec F S32x100x100 .f32 := Host.absf main_arg3
  let main_cst_4 : FVec F S_ .f32 := constant S_ .f32 0x7F800000#32
  let main_v15 : FVec F S32x100x100 .f32 := broadcastInDim S32x100x100 ![] bcast_S_S32x100x100 main_cst_4
  let main_v16 : IVec S32x100x100 1 := cmpf .olt main_v14 main_v15
  fn_part1 (F := F) main_arg4 main_arg5 main_arg6 main_v13 main_v16
-- ==== Kernel.lean ====
abbrev S65536x512 : Shape := ⟨2, ![65536, 512]⟩
abbrev S32x16x100 : Shape := ⟨3, ![32, 16, 100]⟩
abbrev S32x100 : Shape := ⟨2, ![32, 100]⟩
abbrev S32x100x100 : Shape := ⟨3, ![32, 100, 100]⟩
abbrev S32x100x64 : Shape := ⟨3, ![32, 100, 64]⟩
abbrev S32x64 : Shape := ⟨2, ![32, 64]⟩
abbrev S65536x1 : Shape := ⟨2, ![65536, 1]⟩
abbrev S2048x512 : Shape := ⟨2, ![2048, 512]⟩
abbrev S2048x1 : Shape := ⟨2, ![2048, 1]⟩
abbrev S2048x16 : Shape := ⟨2, ![2048, 16]⟩
abbrev S1x16x100 : Shape := ⟨3, ![1, 16, 100]⟩
abbrev S16x100 : Shape := ⟨2, ![16, 100]⟩
abbrev S1x100 : Shape := ⟨2, ![1, 100]⟩
abbrev S100 : Shape := ⟨1, ![100]⟩
abbrev S2048x100 : Shape := ⟨2, ![2048, 100]⟩
abbrev S1x100x100 : Shape := ⟨3, ![1, 100, 100]⟩
abbrev S100x100 : Shape := ⟨2, ![100, 100]⟩
abbrev S1x100x64 : Shape := ⟨3, ![1, 100, 64]⟩
abbrev S100x64 : Shape := ⟨2, ![100, 64]⟩
abbrev S100x8 : Shape := ⟨2, ![100, 8]⟩
abbrev S1x64 : Shape := ⟨2, ![1, 64]⟩
abbrev S64 : Shape := ⟨1, ![64]⟩
abbrev S8 : Shape := ⟨1, ![8]⟩
abbrev S2048x8 : Shape := ⟨2, ![2048, 8]⟩
abbrev S1x8 : Shape := ⟨2, ![1, 8]⟩
abbrev S2048 : Shape := ⟨1, ![2048]⟩
abbrev S2048x1x8 : Shape := ⟨3, ![2048, 1, 8]⟩
abbrev S2048x1x1 : Shape := ⟨3, ![2048, 1, 1]⟩
abbrev S2048x64 : Shape := ⟨2, ![2048, 64]⟩
abbrev S2048x8x8 : Shape := ⟨3, ![2048, 8, 8]⟩
abbrev S2048x8x1 : Shape := ⟨3, ![2048, 8, 1]⟩

abbrev nBuf : Space → Nat
  | .hbm => 8
  | .vmem => 10
  | .smem => 0
  | _ => 0

abbrev bufTy : (tb : Table) → Fin (tcTables nBuf tb) → BufTy
  | .hbm, ⟨0, _⟩ => ⟨S65536x512, .f32⟩
  | .hbm, ⟨1, _⟩ => ⟨S32x16x100, .f32⟩
  | .hbm, ⟨2, _⟩ => ⟨S32x100, .f32⟩
  | .hbm, ⟨3, _⟩ => ⟨S32x100x100, .f32⟩
  | .hbm, ⟨4, _⟩ => ⟨S32x100, .f32⟩
  | .hbm, ⟨5, _⟩ => ⟨S32x100x64, .f32⟩
  | .hbm, ⟨6, _⟩ => ⟨S32x64, .f32⟩
  | .hbm, ⟨7, _⟩ => ⟨S65536x1, .f32⟩
  | .local _ .vmem, ⟨0, _⟩ => ⟨S2048x512, .f32⟩
  | .local _ .vmem, ⟨1, _⟩ => ⟨S2048x512, .f32⟩
  | .local _ .vmem, ⟨2, _⟩ => ⟨S32x16x100, .f32⟩
  | .local _ .vmem, ⟨3, _⟩ => ⟨S32x100, .f32⟩
  | .local _ .vmem, ⟨4, _⟩ => ⟨S32x100x100, .f32⟩
  | .local _ .vmem, ⟨5, _⟩ => ⟨S32x100, .f32⟩
  | .local _ .vmem, ⟨6, _⟩ => ⟨S32x100x64, .f32⟩
  | .local _ .vmem, ⟨7, _⟩ => ⟨S32x64, .f32⟩
  | .local _ .vmem, ⟨8, _⟩ => ⟨S2048x1, .f32⟩
  | .local _ .vmem, ⟨9, _⟩ => ⟨S2048x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x100x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S2048x512_S2048x16_0_0 : ∀ a, (![0, 0] : Fin 2 → Nat) a + S2048x16.size a ≤ S2048x512.size a
  h_S2048x16 : 0 < S2048x16.numel
  inb_S32x16x100_S1x16x100_0_0_0 : ∀ a, (![0, 0, 0] : Fin 3 → Nat) a + S1x16x100.size a ≤ S32x16x100.size a
  h_S1x16x100 : 0 < S1x16x100.numel
  shapeCasts_S1x16x100_S16x100 : S1x16x100.ShapeCasts S16x100
  bitsLt_bf16_f32 : FTy.bits .bf16 < FTy.bits .f32
  inb_S32x100_S1x100_0_0 : ∀ a, (![0, 0] : Fin 2 → Nat) a + S1x100.size a ≤ S32x100.size a
  h_S1x100 : 0 < S1x100.numel
  shapeCasts_S1x100_S100 : S1x100.ShapeCasts S100
  shapeCasts_S100_S1x100 : S100.ShapeCasts S1x100
  broadcasts_S1x100_S2048x100 : S1x100.Broadcasts S2048x100
  inb_S32x100x100_S1x100x100_0_0_0 : ∀ a, (![0, 0, 0] : Fin 3 → Nat) a + S1x100x100.size a ≤ S32x100x100.size a
  h_S1x100x100 : 0 < S1x100x100.numel
  shapeCasts_S1x100x100_S100x100 : S1x100x100.ShapeCasts S100x100
  inb_S32x100x64_S1x100x64_0_0_0 : ∀ a, (![0, 0, 0] : Fin 3 → Nat) a + S1x100x64.size a ≤ S32x100x64.size a
  h_S1x100x64 : 0 < S1x100x64.numel
  shapeCasts_S1x100x64_S100x64 : S1x100x64.ShapeCasts S100x64
  slices_S100x64_o0_0_S100x8 : S100x64.Slices ![0, 0] S100x8
  inb_S32x64_S1x64_0_0 : ∀ a, (![0, 0] : Fin 2 → Nat) a + S1x64.size a ≤ S32x64.size a
  h_S1x64 : 0 < S1x64.numel
  shapeCasts_S1x64_S64 : S1x64.ShapeCasts S64
  slices_S64_o0_S8 : S64.Slices ![0] S8
  shapeCasts_S8_S1x8 : S8.ShapeCasts S1x8
  broadcasts_S1x8_S2048x8 : S1x8.Broadcasts S2048x8
  reduces_S2048x8_S2048 : S2048x8.Reduces [1] S2048
  shapeCasts_S2048_S2048x1 : S2048.ShapeCasts S2048x1
  broadcasts_S2048x1_S2048x8 : S2048x1.Broadcasts S2048x8
  shapeCasts_S2048x8_S2048x1x8 : S2048x8.ShapeCasts S2048x1x8
  shapeCasts_S2048x1_S2048x1x1 : S2048x1.ShapeCasts S2048x1x1
  broadcasts_S2048x1x1_S2048x1x8 : S2048x1x1.Broadcasts S2048x1x8
  reduces_S2048x1x8_S2048x8 : S2048x1x8.Reduces [1] S2048x8
  inb_S2048x512_S2048x16_0_16 : ∀ a, (![0, 16] : Fin 2 → Nat) a + S2048x16.size a ≤ S2048x512.size a
  inb_S32x16x100_S1x16x100_1_0_0 : ∀ a, (![1, 0, 0] : Fin 3 → Nat) a + S1x16x100.size a ≤ S32x16x100.size a
  inb_S32x100_S1x100_1_0 : ∀ a, (![1, 0] : Fin 2 → Nat) a + S1x100.size a ≤ S32x100.size a
  inb_S32x100x100_S1x100x100_1_0_0 : ∀ a, (![1, 0, 0] : Fin 3 → Nat) a + S1x100x100.size a ≤ S32x100x100.size a
  inb_S32x100x64_S1x100x64_1_0_0 : ∀ a, (![1, 0, 0] : Fin 3 → Nat) a + S1x100x64.size a ≤ S32x100x64.size a
  inb_S32x64_S1x64_1_0 : ∀ a, (![1, 0] : Fin 2 → Nat) a + S1x64.size a ≤ S32x64.size a
  shapeCasts_S64_S1x64 : S64.ShapeCasts S1x64
  broadcasts_S1x64_S2048x64 : S1x64.Broadcasts S2048x64
  shapeCasts_S2048x64_S2048x8x8 : S2048x64.ShapeCasts S2048x8x8
  shapeCasts_S2048x8_S2048x8x1 : S2048x8.ShapeCasts S2048x8x1
  broadcasts_S2048x8x1_S2048x8x8 : S2048x8x1.Broadcasts S2048x8x8
  reduces_S2048x8x8_S2048x8 : S2048x8x8.Reduces [1] S2048x8
  inb_S2048x512_S2048x16_0_32 : ∀ a, (![0, 32] : Fin 2 → Nat) a + S2048x16.size a ≤ S2048x512.size a
  inb_S32x16x100_S1x16x100_2_0_0 : ∀ a, (![2, 0, 0] : Fin 3 → Nat) a + S1x16x100.size a ≤ S32x16x100.size a
  inb_S32x100_S1x100_2_0 : ∀ a, (![2, 0] : Fin 2 → Nat) a + S1x100.size a ≤ S32x100.size a
  inb_S32x100x100_S1x100x100_2_0_0 : ∀ a, (![2, 0, 0] : Fin 3 → Nat) a + S1x100x100.size a ≤ S32x100x100.size a
  inb_S32x100x64_S1x100x64_2_0_0 : ∀ a, (![2, 0, 0] : Fin 3 → Nat) a + S1x100x64.size a ≤ S32x100x64.size a
  inb_S32x64_S1x64_2_0 : ∀ a, (![2, 0] : Fin 2 → Nat) a + S1x64.size a ≤ S32x64.size a
  inb_S2048x512_S2048x16_0_48 : ∀ a, (![0, 48] : Fin 2 → Nat) a + S2048x16.size a ≤ S2048x512.size a
  inb_S32x16x100_S1x16x100_3_0_0 : ∀ a, (![3, 0, 0] : Fin 3 → Nat) a + S1x16x100.size a ≤ S32x16x100.size a
  inb_S32x100_S1x100_3_0 : ∀ a, (![3, 0] : Fin 2 → Nat) a + S1x100.size a ≤ S32x100.size a
  inb_S32x100x100_S1x100x100_3_0_0 : ∀ a, (![3, 0, 0] : Fin 3 → Nat) a + S1x100x100.size a ≤ S32x100x100.size a
  inb_S32x100x64_S1x100x64_3_0_0 : ∀ a, (![3, 0, 0] : Fin 3 → Nat) a + S1x100x64.size a ≤ S32x100x64.size a
  inb_S32x64_S1x64_3_0 : ∀ a, (![3, 0] : Fin 2 → Nat) a + S1x64.size a ≤ S32x64.size a
  inb_S2048x512_S2048x16_0_64 : ∀ a, (![0, 64] : Fin 2 → Nat) a + S2048x16.size a ≤ S2048x512.size a
  inb_S32x16x100_S1x16x100_4_0_0 : ∀ a, (![4, 0, 0] : Fin 3 → Nat) a + S1x16x100.size a ≤ S32x16x100.size a
  inb_S32x100_S1x100_4_0 : ∀ a, (![4, 0] : Fin 2 → Nat) a + S1x100.size a ≤ S32x100.size a
  inb_S32x100x100_S1x100x100_4_0_0 : ∀ a, (![4, 0, 0] : Fin 3 → Nat) a + S1x100x100.size a ≤ S32x100x100.size a
  inb_S32x100x64_S1x100x64_4_0_0 : ∀ a, (![4, 0, 0] : Fin 3 → Nat) a + S1x100x64.size a ≤ S32x100x64.size a
  inb_S32x64_S1x64_4_0 : ∀ a, (![4, 0] : Fin 2 → Nat) a + S1x64.size a ≤ S32x64.size a
  inb_S2048x512_S2048x16_0_80 : ∀ a, (![0, 80] : Fin 2 → Nat) a + S2048x16.size a ≤ S2048x512.size a
  inb_S32x16x100_S1x16x100_5_0_0 : ∀ a, (![5, 0, 0] : Fin 3 → Nat) a + S1x16x100.size a ≤ S32x16x100.size a
  inb_S32x100_S1x100_5_0 : ∀ a, (![5, 0] : Fin 2 → Nat) a + S1x100.size a ≤ S32x100.size a
  inb_S32x100x100_S1x100x100_5_0_0 : ∀ a, (![5, 0, 0] : Fin 3 → Nat) a + S1x100x100.size a ≤ S32x100x100.size a
  inb_S32x100x64_S1x100x64_5_0_0 : ∀ a, (![5, 0, 0] : Fin 3 → Nat) a + S1x100x64.size a ≤ S32x100x64.size a
  inb_S32x64_S1x64_5_0 : ∀ a, (![5, 0] : Fin 2 → Nat) a + S1x64.size a ≤ S32x64.size a
  inb_S2048x512_S2048x16_0_96 : ∀ a, (![0, 96] : Fin 2 → Nat) a + S2048x16.size a ≤ S2048x512.size a
  inb_S32x16x100_S1x16x100_6_0_0 : ∀ a, (![6, 0, 0] : Fin 3 → Nat) a + S1x16x100.size a ≤ S32x16x100.size a
  inb_S32x100_S1x100_6_0 : ∀ a, (![6, 0] : Fin 2 → Nat) a + S1x100.size a ≤ S32x100.size a
  inb_S32x100x100_S1x100x100_6_0_0 : ∀ a, (![6, 0, 0] : Fin 3 → Nat) a + S1x100x100.size a ≤ S32x100x100.size a
  inb_S32x100x64_S1x100x64_6_0_0 : ∀ a, (![6, 0, 0] : Fin 3 → Nat) a + S1x100x64.size a ≤ S32x100x64.size a
  inb_S32x64_S1x64_6_0 : ∀ a, (![6, 0] : Fin 2 → Nat) a + S1x64.size a ≤ S32x64.size a
  inb_S2048x512_S2048x16_0_112 : ∀ a, (![0, 112] : Fin 2 → Nat) a + S2048x16.size a ≤ S2048x512.size a
  inb_S32x16x100_S1x16x100_7_0_0 : ∀ a, (![7, 0, 0] : Fin 3 → Nat) a + S1x16x100.size a ≤ S32x16x100.size a
  inb_S32x100_S1x100_7_0 : ∀ a, (![7, 0] : Fin 2 → Nat) a + S1x100.size a ≤ S32x100.size a
  inb_S32x100x100_S1x100x100_7_0_0 : ∀ a, (![7, 0, 0] : Fin 3 → Nat) a + S1x100x100.size a ≤ S32x100x100.size a
  inb_S32x100x64_S1x100x64_7_0_0 : ∀ a, (![7, 0, 0] : Fin 3 → Nat) a + S1x100x64.size a ≤ S32x100x64.size a
  inb_S32x64_S1x64_7_0 : ∀ a, (![7, 0] : Fin 2 → Nat) a + S1x64.size a ≤ S32x64.size a
  inb_S2048x512_S2048x16_0_128 : ∀ a, (![0, 128] : Fin 2 → Nat) a + S2048x16.size a ≤ S2048x512.size a
  inb_S32x16x100_S1x16x100_8_0_0 : ∀ a, (![8, 0, 0] : Fin 3 → Nat) a + S1x16x100.size a ≤ S32x16x100.size a
  inb_S32x100_S1x100_8_0 : ∀ a, (![8, 0] : Fin 2 → Nat) a + S1x100.size a ≤ S32x100.size a
  inb_S32x100x100_S1x100x100_8_0_0 : ∀ a, (![8, 0, 0] : Fin 3 → Nat) a + S1x100x100.size a ≤ S32x100x100.size a
  inb_S32x100x64_S1x100x64_8_0_0 : ∀ a, (![8, 0, 0] : Fin 3 → Nat) a + S1x100x64.size a ≤ S32x100x64.size a
  inb_S32x64_S1x64_8_0 : ∀ a, (![8, 0] : Fin 2 → Nat) a + S1x64.size a ≤ S32x64.size a
  inb_S2048x512_S2048x16_0_144 : ∀ a, (![0, 144] : Fin 2 → Nat) a + S2048x16.size a ≤ S2048x512.size a
  inb_S32x16x100_S1x16x100_9_0_0 : ∀ a, (![9, 0, 0] : Fin 3 → Nat) a + S1x16x100.size a ≤ S32x16x100.size a
  inb_S32x100_S1x100_9_0 : ∀ a, (![9, 0] : Fin 2 → Nat) a + S1x100.size a ≤ S32x100.size a
  inb_S32x100x100_S1x100x100_9_0_0 : ∀ a, (![9, 0, 0] : Fin 3 → Nat) a + S1x100x100.size a ≤ S32x100x100.size a
  inb_S32x100x64_S1x100x64_9_0_0 : ∀ a, (![9, 0, 0] : Fin 3 → Nat) a + S1x100x64.size a ≤ S32x100x64.size a
  inb_S32x64_S1x64_9_0 : ∀ a, (![9, 0] : Fin 2 → Nat) a + S1x64.size a ≤ S32x64.size a
  inb_S2048x512_S2048x16_0_160 : ∀ a, (![0, 160] : Fin 2 → Nat) a + S2048x16.size a ≤ S2048x512.size a
  inb_S32x16x100_S1x16x100_10_0_0 : ∀ a, (![10, 0, 0] : Fin 3 → Nat) a + S1x16x100.size a ≤ S32x16x100.size a
  inb_S32x100_S1x100_10_0 : ∀ a, (![10, 0] : Fin 2 → Nat) a + S1x100.size a ≤ S32x100.size a
  inb_S32x100x100_S1x100x100_10_0_0 : ∀ a, (![10, 0, 0] : Fin 3 → Nat) a + S1x100x100.size a ≤ S32x100x100.size a
  inb_S32x100x64_S1x100x64_10_0_0 : ∀ a, (![10, 0, 0] : Fin 3 → Nat) a + S1x100x64.size a ≤ S32x100x64.size a
  inb_S32x64_S1x64_10_0 : ∀ a, (![10, 0] : Fin 2 → Nat) a + S1x64.size a ≤ S32x64.size a
  inb_S2048x512_S2048x16_0_176 : ∀ a, (![0, 176] : Fin 2 → Nat) a + S2048x16.size a ≤ S2048x512.size a
  inb_S32x16x100_S1x16x100_11_0_0 : ∀ a, (![11, 0, 0] : Fin 3 → Nat) a + S1x16x100.size a ≤ S32x16x100.size a
  inb_S32x100_S1x100_11_0 : ∀ a, (![11, 0] : Fin 2 → Nat) a + S1x100.size a ≤ S32x100.size a
  inb_S32x100x100_S1x100x100_11_0_0 : ∀ a, (![11, 0, 0] : Fin 3 → Nat) a + S1x100x100.size a ≤ S32x100x100.size a
  inb_S32x100x64_S1x100x64_11_0_0 : ∀ a, (![11, 0, 0] : Fin 3 → Nat) a + S1x100x64.size a ≤ S32x100x64.size a
  inb_S32x64_S1x64_11_0 : ∀ a, (![11, 0] : Fin 2 → Nat) a + S1x64.size a ≤ S32x64.size a
  inb_S2048x512_S2048x16_0_192 : ∀ a, (![0, 192] : Fin 2 → Nat) a + S2048x16.size a ≤ S2048x512.size a
  inb_S32x16x100_S1x16x100_12_0_0 : ∀ a, (![12, 0, 0] : Fin 3 → Nat) a + S1x16x100.size a ≤ S32x16x100.size a
  inb_S32x100_S1x100_12_0 : ∀ a, (![12, 0] : Fin 2 → Nat) a + S1x100.size a ≤ S32x100.size a
  inb_S32x100x100_S1x100x100_12_0_0 : ∀ a, (![12, 0, 0] : Fin 3 → Nat) a + S1x100x100.size a ≤ S32x100x100.size a
  inb_S32x100x64_S1x100x64_12_0_0 : ∀ a, (![12, 0, 0] : Fin 3 → Nat) a + S1x100x64.size a ≤ S32x100x64.size a
  inb_S32x64_S1x64_12_0 : ∀ a, (![12, 0] : Fin 2 → Nat) a + S1x64.size a ≤ S32x64.size a
  inb_S2048x512_S2048x16_0_208 : ∀ a, (![0, 208] : Fin 2 → Nat) a + S2048x16.size a ≤ S2048x512.size a
  inb_S32x16x100_S1x16x100_13_0_0 : ∀ a, (![13, 0, 0] : Fin 3 → Nat) a + S1x16x100.size a ≤ S32x16x100.size a
  inb_S32x100_S1x100_13_0 : ∀ a, (![13, 0] : Fin 2 → Nat) a + S1x100.size a ≤ S32x100.size a
  inb_S32x100x100_S1x100x100_13_0_0 : ∀ a, (![13, 0, 0] : Fin 3 → Nat) a + S1x100x100.size a ≤ S32x100x100.size a
  inb_S32x100x64_S1x100x64_13_0_0 : ∀ a, (![13, 0, 0] : Fin 3 → Nat) a + S1x100x64.size a ≤ S32x100x64.size a
  inb_S32x64_S1x64_13_0 : ∀ a, (![13, 0] : Fin 2 → Nat) a + S1x64.size a ≤ S32x64.size a
  inb_S2048x512_S2048x16_0_224 : ∀ a, (![0, 224] : Fin 2 → Nat) a + S2048x16.size a ≤ S2048x512.size a
  inb_S32x16x100_S1x16x100_14_0_0 : ∀ a, (![14, 0, 0] : Fin 3 → Nat) a + S1x16x100.size a ≤ S32x16x100.size a
  inb_S32x100_S1x100_14_0 : ∀ a, (![14, 0] : Fin 2 → Nat) a + S1x100.size a ≤ S32x100.size a
  inb_S32x100x100_S1x100x100_14_0_0 : ∀ a, (![14, 0, 0] : Fin 3 → Nat) a + S1x100x100.size a ≤ S32x100x100.size a
  inb_S32x100x64_S1x100x64_14_0_0 : ∀ a, (![14, 0, 0] : Fin 3 → Nat) a + S1x100x64.size a ≤ S32x100x64.size a
  inb_S32x64_S1x64_14_0 : ∀ a, (![14, 0] : Fin 2 → Nat) a + S1x64.size a ≤ S32x64.size a
  inb_S2048x512_S2048x16_0_240 : ∀ a, (![0, 240] : Fin 2 → Nat) a + S2048x16.size a ≤ S2048x512.size a
  inb_S32x16x100_S1x16x100_15_0_0 : ∀ a, (![15, 0, 0] : Fin 3 → Nat) a + S1x16x100.size a ≤ S32x16x100.size a
  inb_S32x100_S1x100_15_0 : ∀ a, (![15, 0] : Fin 2 → Nat) a + S1x100.size a ≤ S32x100.size a
  inb_S32x100x100_S1x100x100_15_0_0 : ∀ a, (![15, 0, 0] : Fin 3 → Nat) a + S1x100x100.size a ≤ S32x100x100.size a
  inb_S32x100x64_S1x100x64_15_0_0 : ∀ a, (![15, 0, 0] : Fin 3 → Nat) a + S1x100x64.size a ≤ S32x100x64.size a
  inb_S32x64_S1x64_15_0 : ∀ a, (![15, 0] : Fin 2 → Nat) a + S1x64.size a ≤ S32x64.size a
  inb_S2048x512_S2048x16_0_256 : ∀ a, (![0, 256] : Fin 2 → Nat) a + S2048x16.size a ≤ S2048x512.size a
  inb_S32x16x100_S1x16x100_16_0_0 : ∀ a, (![16, 0, 0] : Fin 3 → Nat) a + S1x16x100.size a ≤ S32x16x100.size a
  inb_S32x100_S1x100_16_0 : ∀ a, (![16, 0] : Fin 2 → Nat) a + S1x100.size a ≤ S32x100.size a
  inb_S32x100x100_S1x100x100_16_0_0 : ∀ a, (![16, 0, 0] : Fin 3 → Nat) a + S1x100x100.size a ≤ S32x100x100.size a
  inb_S32x100x64_S1x100x64_16_0_0 : ∀ a, (![16, 0, 0] : Fin 3 → Nat) a + S1x100x64.size a ≤ S32x100x64.size a
  inb_S32x64_S1x64_16_0 : ∀ a, (![16, 0] : Fin 2 → Nat) a + S1x64.size a ≤ S32x64.size a
  inb_S2048x512_S2048x16_0_272 : ∀ a, (![0, 272] : Fin 2 → Nat) a + S2048x16.size a ≤ S2048x512.size a
  inb_S32x16x100_S1x16x100_17_0_0 : ∀ a, (![17, 0, 0] : Fin 3 → Nat) a + S1x16x100.size a ≤ S32x16x100.size a
  inb_S32x100_S1x100_17_0 : ∀ a, (![17, 0] : Fin 2 → Nat) a + S1x100.size a ≤ S32x100.size a
  inb_S32x100x100_S1x100x100_17_0_0 : ∀ a, (![17, 0, 0] : Fin 3 → Nat) a + S1x100x100.size a ≤ S32x100x100.size a
  inb_S32x100x64_S1x100x64_17_0_0 : ∀ a, (![17, 0, 0] : Fin 3 → Nat) a + S1x100x64.size a ≤ S32x100x64.size a
  inb_S32x64_S1x64_17_0 : ∀ a, (![17, 0] : Fin 2 → Nat) a + S1x64.size a ≤ S32x64.size a
  inb_S2048x512_S2048x16_0_288 : ∀ a, (![0, 288] : Fin 2 → Nat) a + S2048x16.size a ≤ S2048x512.size a
  inb_S32x16x100_S1x16x100_18_0_0 : ∀ a, (![18, 0, 0] : Fin 3 → Nat) a + S1x16x100.size a ≤ S32x16x100.size a
  inb_S32x100_S1x100_18_0 : ∀ a, (![18, 0] : Fin 2 → Nat) a + S1x100.size a ≤ S32x100.size a
  inb_S32x100x100_S1x100x100_18_0_0 : ∀ a, (![18, 0, 0] : Fin 3 → Nat) a + S1x100x100.size a ≤ S32x100x100.size a
  inb_S32x100x64_S1x100x64_18_0_0 : ∀ a, (![18, 0, 0] : Fin 3 → Nat) a + S1x100x64.size a ≤ S32x100x64.size a
  inb_S32x64_S1x64_18_0 : ∀ a, (![18, 0] : Fin 2 → Nat) a + S1x64.size a ≤ S32x64.size a
  inb_S2048x512_S2048x16_0_304 : ∀ a, (![0, 304] : Fin 2 → Nat) a + S2048x16.size a ≤ S2048x512.size a
  inb_S32x16x100_S1x16x100_19_0_0 : ∀ a, (![19, 0, 0] : Fin 3 → Nat) a + S1x16x100.size a ≤ S32x16x100.size a
  inb_S32x100_S1x100_19_0 : ∀ a, (![19, 0] : Fin 2 → Nat) a + S1x100.size a ≤ S32x100.size a
  inb_S32x100x100_S1x100x100_19_0_0 : ∀ a, (![19, 0, 0] : Fin 3 → Nat) a + S1x100x100.size a ≤ S32x100x100.size a
  inb_S32x100x64_S1x100x64_19_0_0 : ∀ a, (![19, 0, 0] : Fin 3 → Nat) a + S1x100x64.size a ≤ S32x100x64.size a
  inb_S32x64_S1x64_19_0 : ∀ a, (![19, 0] : Fin 2 → Nat) a + S1x64.size a ≤ S32x64.size a
  inb_S2048x512_S2048x16_0_320 : ∀ a, (![0, 320] : Fin 2 → Nat) a + S2048x16.size a ≤ S2048x512.size a
  inb_S32x16x100_S1x16x100_20_0_0 : ∀ a, (![20, 0, 0] : Fin 3 → Nat) a + S1x16x100.size a ≤ S32x16x100.size a
  inb_S32x100_S1x100_20_0 : ∀ a, (![20, 0] : Fin 2 → Nat) a + S1x100.size a ≤ S32x100.size a
  inb_S32x100x100_S1x100x100_20_0_0 : ∀ a, (![20, 0, 0] : Fin 3 → Nat) a + S1x100x100.size a ≤ S32x100x100.size a
  inb_S32x100x64_S1x100x64_20_0_0 : ∀ a, (![20, 0, 0] : Fin 3 → Nat) a + S1x100x64.size a ≤ S32x100x64.size a
  inb_S32x64_S1x64_20_0 : ∀ a, (![20, 0] : Fin 2 → Nat) a + S1x64.size a ≤ S32x64.size a
  inb_S2048x512_S2048x16_0_336 : ∀ a, (![0, 336] : Fin 2 → Nat) a + S2048x16.size a ≤ S2048x512.size a
  inb_S32x16x100_S1x16x100_21_0_0 : ∀ a, (![21, 0, 0] : Fin 3 → Nat) a + S1x16x100.size a ≤ S32x16x100.size a
  inb_S32x100_S1x100_21_0 : ∀ a, (![21, 0] : Fin 2 → Nat) a + S1x100.size a ≤ S32x100.size a
  inb_S32x100x100_S1x100x100_21_0_0 : ∀ a, (![21, 0, 0] : Fin 3 → Nat) a + S1x100x100.size a ≤ S32x100x100.size a
  inb_S32x100x64_S1x100x64_21_0_0 : ∀ a, (![21, 0, 0] : Fin 3 → Nat) a + S1x100x64.size a ≤ S32x100x64.size a
  inb_S32x64_S1x64_21_0 : ∀ a, (![21, 0] : Fin 2 → Nat) a + S1x64.size a ≤ S32x64.size a
  inb_S2048x512_S2048x16_0_352 : ∀ a, (![0, 352] : Fin 2 → Nat) a + S2048x16.size a ≤ S2048x512.size a
  inb_S32x16x100_S1x16x100_22_0_0 : ∀ a, (![22, 0, 0] : Fin 3 → Nat) a + S1x16x100.size a ≤ S32x16x100.size a
  inb_S32x100_S1x100_22_0 : ∀ a, (![22, 0] : Fin 2 → Nat) a + S1x100.size a ≤ S32x100.size a
  inb_S32x100x100_S1x100x100_22_0_0 : ∀ a, (![22, 0, 0] : Fin 3 → Nat) a + S1x100x100.size a ≤ S32x100x100.size a
  inb_S32x100x64_S1x100x64_22_0_0 : ∀ a, (![22, 0, 0] : Fin 3 → Nat) a + S1x100x64.size a ≤ S32x100x64.size a
  inb_S32x64_S1x64_22_0 : ∀ a, (![22, 0] : Fin 2 → Nat) a + S1x64.size a ≤ S32x64.size a
  inb_S2048x512_S2048x16_0_368 : ∀ a, (![0, 368] : Fin 2 → Nat) a + S2048x16.size a ≤ S2048x512.size a
  inb_S32x16x100_S1x16x100_23_0_0 : ∀ a, (![23, 0, 0] : Fin 3 → Nat) a + S1x16x100.size a ≤ S32x16x100.size a
  inb_S32x100_S1x100_23_0 : ∀ a, (![23, 0] : Fin 2 → Nat) a + S1x100.size a ≤ S32x100.size a
  inb_S32x100x100_S1x100x100_23_0_0 : ∀ a, (![23, 0, 0] : Fin 3 → Nat) a + S1x100x100.size a ≤ S32x100x100.size a
  inb_S32x100x64_S1x100x64_23_0_0 : ∀ a, (![23, 0, 0] : Fin 3 → Nat) a + S1x100x64.size a ≤ S32x100x64.size a
  inb_S32x64_S1x64_23_0 : ∀ a, (![23, 0] : Fin 2 → Nat) a + S1x64.size a ≤ S32x64.size a
  inb_S2048x512_S2048x16_0_384 : ∀ a, (![0, 384] : Fin 2 → Nat) a + S2048x16.size a ≤ S2048x512.size a
  inb_S32x16x100_S1x16x100_24_0_0 : ∀ a, (![24, 0, 0] : Fin 3 → Nat) a + S1x16x100.size a ≤ S32x16x100.size a
  inb_S32x100_S1x100_24_0 : ∀ a, (![24, 0] : Fin 2 → Nat) a + S1x100.size a ≤ S32x100.size a
  inb_S32x100x100_S1x100x100_24_0_0 : ∀ a, (![24, 0, 0] : Fin 3 → Nat) a + S1x100x100.size a ≤ S32x100x100.size a
  inb_S32x100x64_S1x100x64_24_0_0 : ∀ a, (![24, 0, 0] : Fin 3 → Nat) a + S1x100x64.size a ≤ S32x100x64.size a
  inb_S32x64_S1x64_24_0 : ∀ a, (![24, 0] : Fin 2 → Nat) a + S1x64.size a ≤ S32x64.size a
  inb_S2048x512_S2048x16_0_400 : ∀ a, (![0, 400] : Fin 2 → Nat) a + S2048x16.size a ≤ S2048x512.size a
  inb_S32x16x100_S1x16x100_25_0_0 : ∀ a, (![25, 0, 0] : Fin 3 → Nat) a + S1x16x100.size a ≤ S32x16x100.size a
  inb_S32x100_S1x100_25_0 : ∀ a, (![25, 0] : Fin 2 → Nat) a + S1x100.size a ≤ S32x100.size a
  inb_S32x100x100_S1x100x100_25_0_0 : ∀ a, (![25, 0, 0] : Fin 3 → Nat) a + S1x100x100.size a ≤ S32x100x100.size a
  inb_S32x100x64_S1x100x64_25_0_0 : ∀ a, (![25, 0, 0] : Fin 3 → Nat) a + S1x100x64.size a ≤ S32x100x64.size a
  inb_S32x64_S1x64_25_0 : ∀ a, (![25, 0] : Fin 2 → Nat) a + S1x64.size a ≤ S32x64.size a
  inb_S2048x512_S2048x16_0_416 : ∀ a, (![0, 416] : Fin 2 → Nat) a + S2048x16.size a ≤ S2048x512.size a
  inb_S32x16x100_S1x16x100_26_0_0 : ∀ a, (![26, 0, 0] : Fin 3 → Nat) a + S1x16x100.size a ≤ S32x16x100.size a
  inb_S32x100_S1x100_26_0 : ∀ a, (![26, 0] : Fin 2 → Nat) a + S1x100.size a ≤ S32x100.size a
  inb_S32x100x100_S1x100x100_26_0_0 : ∀ a, (![26, 0, 0] : Fin 3 → Nat) a + S1x100x100.size a ≤ S32x100x100.size a
  inb_S32x100x64_S1x100x64_26_0_0 : ∀ a, (![26, 0, 0] : Fin 3 → Nat) a + S1x100x64.size a ≤ S32x100x64.size a
  inb_S32x64_S1x64_26_0 : ∀ a, (![26, 0] : Fin 2 → Nat) a + S1x64.size a ≤ S32x64.size a
  inb_S2048x512_S2048x16_0_432 : ∀ a, (![0, 432] : Fin 2 → Nat) a + S2048x16.size a ≤ S2048x512.size a
  inb_S32x16x100_S1x16x100_27_0_0 : ∀ a, (![27, 0, 0] : Fin 3 → Nat) a + S1x16x100.size a ≤ S32x16x100.size a
  inb_S32x100_S1x100_27_0 : ∀ a, (![27, 0] : Fin 2 → Nat) a + S1x100.size a ≤ S32x100.size a
  inb_S32x100x100_S1x100x100_27_0_0 : ∀ a, (![27, 0, 0] : Fin 3 → Nat) a + S1x100x100.size a ≤ S32x100x100.size a
  inb_S32x100x64_S1x100x64_27_0_0 : ∀ a, (![27, 0, 0] : Fin 3 → Nat) a + S1x100x64.size a ≤ S32x100x64.size a
  inb_S32x64_S1x64_27_0 : ∀ a, (![27, 0] : Fin 2 → Nat) a + S1x64.size a ≤ S32x64.size a
  inb_S2048x512_S2048x16_0_448 : ∀ a, (![0, 448] : Fin 2 → Nat) a + S2048x16.size a ≤ S2048x512.size a
  inb_S32x16x100_S1x16x100_28_0_0 : ∀ a, (![28, 0, 0] : Fin 3 → Nat) a + S1x16x100.size a ≤ S32x16x100.size a
  inb_S32x100_S1x100_28_0 : ∀ a, (![28, 0] : Fin 2 → Nat) a + S1x100.size a ≤ S32x100.size a
  inb_S32x100x100_S1x100x100_28_0_0 : ∀ a, (![28, 0, 0] : Fin 3 → Nat) a + S1x100x100.size a ≤ S32x100x100.size a
  inb_S32x100x64_S1x100x64_28_0_0 : ∀ a, (![28, 0, 0] : Fin 3 → Nat) a + S1x100x64.size a ≤ S32x100x64.size a
  inb_S32x64_S1x64_28_0 : ∀ a, (![28, 0] : Fin 2 → Nat) a + S1x64.size a ≤ S32x64.size a
  inb_S2048x512_S2048x16_0_464 : ∀ a, (![0, 464] : Fin 2 → Nat) a + S2048x16.size a ≤ S2048x512.size a
  inb_S32x16x100_S1x16x100_29_0_0 : ∀ a, (![29, 0, 0] : Fin 3 → Nat) a + S1x16x100.size a ≤ S32x16x100.size a
  inb_S32x100_S1x100_29_0 : ∀ a, (![29, 0] : Fin 2 → Nat) a + S1x100.size a ≤ S32x100.size a
  inb_S32x100x100_S1x100x100_29_0_0 : ∀ a, (![29, 0, 0] : Fin 3 → Nat) a + S1x100x100.size a ≤ S32x100x100.size a
  inb_S32x100x64_S1x100x64_29_0_0 : ∀ a, (![29, 0, 0] : Fin 3 → Nat) a + S1x100x64.size a ≤ S32x100x64.size a
  inb_S32x64_S1x64_29_0 : ∀ a, (![29, 0] : Fin 2 → Nat) a + S1x64.size a ≤ S32x64.size a
  inb_S2048x512_S2048x16_0_480 : ∀ a, (![0, 480] : Fin 2 → Nat) a + S2048x16.size a ≤ S2048x512.size a
  inb_S32x16x100_S1x16x100_30_0_0 : ∀ a, (![30, 0, 0] : Fin 3 → Nat) a + S1x16x100.size a ≤ S32x16x100.size a
  inb_S32x100_S1x100_30_0 : ∀ a, (![30, 0] : Fin 2 → Nat) a + S1x100.size a ≤ S32x100.size a
  inb_S32x100x100_S1x100x100_30_0_0 : ∀ a, (![30, 0, 0] : Fin 3 → Nat) a + S1x100x100.size a ≤ S32x100x100.size a
  inb_S32x100x64_S1x100x64_30_0_0 : ∀ a, (![30, 0, 0] : Fin 3 → Nat) a + S1x100x64.size a ≤ S32x100x64.size a
  inb_S32x64_S1x64_30_0 : ∀ a, (![30, 0] : Fin 2 → Nat) a + S1x64.size a ≤ S32x64.size a
  inb_S2048x512_S2048x16_0_496 : ∀ a, (![0, 496] : Fin 2 → Nat) a + S2048x16.size a ≤ S2048x512.size a
  inb_S32x16x100_S1x16x100_31_0_0 : ∀ a, (![31, 0, 0] : Fin 3 → Nat) a + S1x16x100.size a ≤ S32x16x100.size a
  inb_S32x100_S1x100_31_0 : ∀ a, (![31, 0] : Fin 2 → Nat) a + S1x100.size a ≤ S32x100.size a
  inb_S32x100x100_S1x100x100_31_0_0 : ∀ a, (![31, 0, 0] : Fin 3 → Nat) a + S1x100x100.size a ≤ S32x100x100.size a
  inb_S32x100x64_S1x100x64_31_0_0 : ∀ a, (![31, 0, 0] : Fin 3 → Nat) a + S1x100x64.size a ≤ S32x100x64.size a
  inb_S32x64_S1x64_31_0 : ∀ a, (![31, 0] : Fin 2 → Nat) a + S1x64.size a ≤ S32x64.size a
  reduces_S2048x8x1_S2048x1 : S2048x8x1.Reduces [1] S2048x1
  inb_S2048x1_S2048x1_0_0 : ∀ a, (![0, 0] : Fin 2 → Nat) a + S2048x1.size a ≤ S2048x1.size a
  h_S2048x1 : 0 < S2048x1.numel
  dot_S2048x16_S16x100_S2048x100_1_0_0_1_n_n_wf : DotDims.WF S2048x16 S16x100 S2048x100 [1] [0] [0] [1] [] []
  dot_S2048x100_S100x100_S2048x100_1_0_0_1_n_n_wf : DotDims.WF S2048x100 S100x100 S2048x100 [1] [0] [0] [1] [] []
  dot_S2048x100_S100x8_S2048x8_1_0_0_1_n_n_wf : DotDims.WF S2048x100 S100x8 S2048x8 [1] [0] [0] [1] [] []
  dot_S2048x100_S100x64_S2048x64_1_0_0_1_n_n_wf : DotDims.WF S2048x100 S100x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16x100.size a ≤ S32x16x100.size a
  hwx0_1 : ∀ i : grid0.Coords, EltTy.bits .f32 = 32 ∨ (Rect.block (s := S32x16x100) S32x16x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x100.size a ≤ S32x100.size a
  hwx0_2 : ∀ i : grid0.Coords, EltTy.bits .f32 = 32 ∨ (Rect.block (s := S32x100) S32x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x100x100.size a ≤ S32x100x100.size a
  hwx0_3 : ∀ i : grid0.Coords, EltTy.bits .f32 = 32 ∨ (Rect.block (s := S32x100x100) S32x100x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x100.size a ≤ S32x100.size a
  hwx0_4 : ∀ i : grid0.Coords, EltTy.bits .f32 = 32 ∨ (Rect.block (s := S32x100) S32x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x100x64.size a ≤ S32x100x64.size a
  hwx0_5 : ∀ i : grid0.Coords, EltTy.bits .f32 = 32 ∨ (Rect.block (s := S32x100x64) S32x100x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S65536x1.size a
  hwx0_7 : ∀ i : grid0.Coords, EltTy.bits .f32 = 32 ∨ (Rect.block (s := S65536x1) S2048x1.size (cc0_transform_7 i) (hinb0_7 i)).WholeWords (EltTy.packing .f32)

variable [Facts₀]

def dot_S2048x16_S16x100_S2048x100_1_0_0_1_n_n : DotDims S2048x16 S16x100 S2048x100 where
  lhsContracting := [1]
  rhsContracting := [0]
  lhsNonContracting := [0]
  rhsNonContracting := [1]
  lhsBatch := []
  rhsBatch := []
  wf := dot_S2048x16_S16x100_S2048x100_1_0_0_1_n_n_wf
def dot_S2048x100_S100x100_S2048x100_1_0_0_1_n_n : DotDims S2048x100 S100x100 S2048x100 where
  lhsContracting := [1]
  rhsContracting := [0]
  lhsNonContracting := [0]
  rhsNonContracting := [1]
  lhsBatch := []
  rhsBatch := []
  wf := dot_S2048x100_S100x100_S2048x100_1_0_0_1_n_n_wf
def dot_S2048x100_S100x8_S2048x8_1_0_0_1_n_n : DotDims S2048x100 S100x8 S2048x8 where
  lhsContracting := [1]
  rhsContracting := [0]
  lhsNonContracting := [0]
  rhsNonContracting := [1]
  lhsBatch := []
  rhsBatch := []
  wf := dot_S2048x100_S100x8_S2048x8_1_0_0_1_n_n_wf
def dot_S2048x100_S100x64_S2048x64_1_0_0_1_n_n : DotDims S2048x100 S100x64 S2048x64 where
  lhsContracting := [1]
  rhsContracting := [0]
  lhsNonContracting := [0]
  rhsNonContracting := [1]
  lhsBatch := []
  rhsBatch := []
  wf := dot_S2048x100_S100x64_S2048x64_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x100x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x512 : Shape := ⟨2, ![65536, 512]⟩
abbrev S32x16x100 : Shape := ⟨3, ![32, 16, 100]⟩
abbrev S32x100 : Shape := ⟨2, ![32, 100]⟩
abbrev S32x100x100 : Shape := ⟨3, ![32, 100, 100]⟩
abbrev S32x100x64 : Shape := ⟨3, ![32, 100, 64]⟩
abbrev S32x64 : Shape := ⟨2, ![32, 64]⟩
abbrev S_ : Shape := ⟨0, ![]⟩
abbrev S65536x1x1 : Shape := ⟨3, ![65536, 1, 1]⟩
abbrev S65536x16 : Shape := ⟨2, ![65536, 16]⟩
abbrev S1x16x100 : Shape := ⟨3, ![1, 16, 100]⟩
abbrev S16x100 : Shape := ⟨2, ![16, 100]⟩
abbrev S65536x100 : Shape := ⟨2, ![65536, 100]⟩
abbrev S1x100 : Shape := ⟨2, ![1, 100]⟩
abbrev S100 : Shape := ⟨1, ![100]⟩
abbrev S1x100x100 : Shape := ⟨3, ![1, 100, 100]⟩
abbrev S100x100 : Shape := ⟨2, ![100, 100]⟩
abbrev S1x100x64 : Shape := ⟨3, ![1, 100, 64]⟩
abbrev S100x64 : Shape := ⟨2, ![100, 64]⟩
abbrev S100x8 : Shape := ⟨2, ![100, 8]⟩
abbrev S65536x8 : Shape := ⟨2, ![65536, 8]⟩
abbrev S1x64 : Shape := ⟨2, ![1, 64]⟩
abbrev S64 : Shape := ⟨1, ![64]⟩
abbrev S8 : Shape := ⟨1, ![8]⟩
abbrev S1x8 : Shape := ⟨2, ![1, 8]⟩
abbrev S65536 : Shape := ⟨1, ![65536]⟩
abbrev S65536x1 : Shape := ⟨2, ![65536, 1]⟩
abbrev S65536x1x8 : Shape := ⟨3, ![65536, 1, 8]⟩
abbrev S65536x64 : Shape := ⟨2, ![65536, 64]⟩
abbrev S65536x8x8 : Shape := ⟨3, ![65536, 8, 8]⟩
abbrev S65536x8x1 : Shape := ⟨3, ![65536, 8, 1]⟩

abbrev nBuf : Space → Nat
  | .hbm => 1084
  | .vmem => 0
  | .smem => 0
  | _ => 0

abbrev hbmTy0_0 (i : Nat) : BufTy := match i % 128 with
  | 0 => ⟨S65536x512, .f32⟩
  | 1 => ⟨S32x16x100, .f32⟩
  | 2 => ⟨S32x100, .f32⟩
  | 3 => ⟨S32x100x100, .f32⟩
  | 4 => ⟨S32x100, .f32⟩
  | 5 => ⟨S32x100x64, .f32⟩
  | 6 => ⟨S32x64, .f32⟩
  | 7 => ⟨S_, .f32⟩
  | 8 => ⟨S65536x1x1, .f32⟩
  | 9 => ⟨S65536x16, .f32⟩
  | 10 => ⟨S1x16x100, .f32⟩
  | 11 => ⟨S16x100, .f32⟩
  | 12 => ⟨S65536x100, .f32⟩
  | 13 => ⟨S1x100, .f32⟩
  | 14 => ⟨S100, .f32⟩
  | 15 => ⟨S1x100, .f32⟩
  | 16 => ⟨S65536x100, .f32⟩
  | 17 => ⟨S65536x100, .f32⟩
  | 18 => ⟨S_, .f32⟩
  | 19 => ⟨S65536x100, .f32⟩
  | 20 => ⟨S65536x100, .f32⟩
  | 21 => ⟨S1x100x100, .f32⟩
  | 22 => ⟨S100x100, .f32⟩
  | 23 => ⟨S65536x100, .f32⟩
  | 24 => ⟨S1x100, .f32⟩
  | 25 => ⟨S100, .f32⟩
  | 26 => ⟨S1x100, .f32⟩
  | 27 => ⟨S65536x100, .f32⟩
  | 28 => ⟨S65536x100, .f32⟩
  | 29 => ⟨S_, .f32⟩
  | 30 => ⟨S65536x100, .f32⟩
  | 31 => ⟨S65536x100, .f32⟩
  | 32 => ⟨S1x100x64, .f32⟩
  | 33 => ⟨S100x64, .f32⟩
  | 34 => ⟨S100x8, .f32⟩
  | 35 => ⟨S65536x8, .f32⟩
  | 36 => ⟨S1x64, .f32⟩
  | 37 => ⟨S64, .f32⟩
  | 38 => ⟨S8, .f32⟩
  | 39 => ⟨S1x8, .f32⟩
  | 40 => ⟨S65536x8, .f32⟩
  | 41 => ⟨S65536x8, .f32⟩
  | 42 => ⟨S_, .f32⟩
  | 43 => ⟨S65536, .f32⟩
  | 44 => ⟨S_, .f32⟩
  | 45 => ⟨S65536, .f32⟩
  | 46 => ⟨S65536, .f32⟩
  | 47 => ⟨S65536x1, .f32⟩
  | 48 => ⟨S65536x8, .f32⟩
  | 49 => ⟨S65536x8, .f32⟩
  | 50 => ⟨S65536x8, .f32⟩
  | 51 => ⟨S_, .f32⟩
  | 52 => ⟨S65536, .f32⟩
  | 53 => ⟨S65536x1, .f32⟩
  | 54 => ⟨S65536x8, .f32⟩
  | 55 => ⟨S65536x8, .f32⟩
  | 56 => ⟨S65536x1x8, .f32⟩
  | 57 => ⟨S65536x1x8, .f32⟩
  | 58 => ⟨S65536x16, .f32⟩
  | 59 => ⟨S1x16x100, .f32⟩
  | 60 => ⟨S16x100, .f32⟩
  | 61 => ⟨S65536x100, .f32⟩
  | 62 => ⟨S1x100, .f32⟩
  | 63 => ⟨S100, .f32⟩
  | 64 => ⟨S1x100, .f32⟩
  | 65 => ⟨S65536x100, .f32⟩
  | 66 => ⟨S65536x100, .f32⟩
  | 67 => ⟨S_, .f32⟩
  | 68 => ⟨S65536x100, .f32⟩
  | 69 => ⟨S65536x100, .f32⟩
  | 70 => ⟨S1x100x100, .f32⟩
  | 71 => ⟨S100x100, .f32⟩
  | 72 => ⟨S65536x100, .f32⟩
  | 73 => ⟨S1x100, .f32⟩
  | 74 => ⟨S100, .f32⟩
  | 75 => ⟨S1x100, .f32⟩
  | 76 => ⟨S65536x100, .f32⟩
  | 77 => ⟨S65536x100, .f32⟩
  | 78 => ⟨S_, .f32⟩
  | 79 => ⟨S65536x100, .f32⟩
  | 80 => ⟨S65536x100, .f32⟩
  | 81 => ⟨S1x100x64, .f32⟩
  | 82 => ⟨S100x64, .f32⟩
  | 83 => ⟨S65536x64, .f32⟩
  | 84 => ⟨S1x64, .f32⟩
  | 85 => ⟨S64, .f32⟩
  | 86 => ⟨S1x64, .f32⟩
  | 87 => ⟨S65536x64, .f32⟩
  | 88 => ⟨S65536x64, .f32⟩
  | 89 => ⟨S65536x8x8, .f32⟩
  | 90 => ⟨S65536x1x8, .f32⟩
  | 91 => ⟨S65536x16, .f32⟩
  | 92 => ⟨S1x16x100, .f32⟩
  | 93 => ⟨S16x100, .f32⟩
  | 94 => ⟨S65536x100, .f32⟩
  | 95 => ⟨S1x100, .f32⟩
  | 96 => ⟨S100, .f32⟩
  | 97 => ⟨S1x100, .f32⟩
  | 98 => ⟨S65536x100, .f32⟩
  | 99 => ⟨S65536x100, .f32⟩
  | 100 => ⟨S_, .f32⟩
  | 101 => ⟨S65536x100, .f32⟩
  | 102 => ⟨S65536x100, .f32⟩
  | 103 => ⟨S1x100x100, .f32⟩
  | 104 => ⟨S100x100, .f32⟩
  | 105 => ⟨S65536x100, .f32⟩
  | 106 => ⟨S1x100, .f32⟩
  | 107 => ⟨S100, .f32⟩
  | 108 => ⟨S1x100, .f32⟩
  | 109 => ⟨S65536x100, .f32⟩
  | 110 => ⟨S65536x100, .f32⟩
  | 111 => ⟨S_, .f32⟩
  | 112 => ⟨S65536x100, .f32⟩
  | 113 => ⟨S65536x100, .f32⟩
  | 114 => ⟨S1x100x64, .f32⟩
  | 115 => ⟨S100x64, .f32⟩
  | 116 => ⟨S65536x64, .f32⟩
  | 117 => ⟨S1x64, .f32⟩
  | 118 => ⟨S64, .f32⟩
  | 119 => ⟨S1x64, .f32⟩
  | 120 => ⟨S65536x64, .f32⟩
  | 121 => ⟨S65536x64, .f32⟩
  | 122 => ⟨S65536x8x8, .f32⟩
  | 123 => ⟨S65536x1x8, .f32⟩
  | 124 => ⟨S65536x16, .f32⟩
  | 125 => ⟨S1x16x100, .f32⟩
  | 126 => ⟨S16x100, .f32⟩
  | 127 => ⟨S65536x100, .f32⟩
  | _ => ⟨S65536x512, .f32⟩

abbrev hbmTy0_1 (i : Nat) : BufTy := match i % 128 with
  | 0 => ⟨S1x100, .f32⟩
  | 1 => ⟨S100, .f32⟩
  | 2 => ⟨S1x100, .f32⟩
  | 3 => ⟨S65536x100, .f32⟩
  | 4 => ⟨S65536x100, .f32⟩
  | 5 => ⟨S_, .f32⟩
  | 6 => ⟨S65536x100, .f32⟩
  | 7 => ⟨S65536x100, .f32⟩
  | 8 => ⟨S1x100x100, .f32⟩
  | 9 => ⟨S100x100, .f32⟩
  | 10 => ⟨S65536x100, .f32⟩
  | 11 => ⟨S1x100, .f32⟩
  | 12 => ⟨S100, .f32⟩
  | 13 => ⟨S1x100, .f32⟩
  | 14 => ⟨S65536x100, .f32⟩
  | 15 => ⟨S65536x100, .f32⟩
  | 16 => ⟨S_, .f32⟩
  | 17 => ⟨S65536x100, .f32⟩
  | 18 => ⟨S65536x100, .f32⟩
  | 19 => ⟨S1x100x64, .f32⟩
  | 20 => ⟨S100x64, .f32⟩
  | 21 => ⟨S65536x64, .f32⟩
  | 22 => ⟨S1x64, .f32⟩
  | 23 => ⟨S64, .f32⟩
  | 24 => ⟨S1x64, .f32⟩
  | 25 => ⟨S65536x64, .f32⟩
  | 26 => ⟨S65536x64, .f32⟩
  | 27 => ⟨S65536x8x8, .f32⟩
  | 28 => ⟨S65536x1x8, .f32⟩
  | 29 => ⟨S65536x16, .f32⟩
  | 30 => ⟨S1x16x100, .f32⟩
  | 31 => ⟨S16x100, .f32⟩
  | 32 => ⟨S65536x100, .f32⟩
  | 33 => ⟨S1x100, .f32⟩
  | 34 => ⟨S100, .f32⟩
  | 35 => ⟨S1x100, .f32⟩
  | 36 => ⟨S65536x100, .f32⟩
  | 37 => ⟨S65536x100, .f32⟩
  | 38 => ⟨S_, .f32⟩
  | 39 => ⟨S65536x100, .f32⟩
  | 40 => ⟨S65536x100, .f32⟩
  | 41 => ⟨S1x100x100, .f32⟩
  | 42 => ⟨S100x100, .f32⟩
  | 43 => ⟨S65536x100, .f32⟩
  | 44 => ⟨S1x100, .f32⟩
  | 45 => ⟨S100, .f32⟩
  | 46 => ⟨S1x100, .f32⟩
  | 47 => ⟨S65536x100, .f32⟩
  | 48 => ⟨S65536x100, .f32⟩
  | 49 => ⟨S_, .f32⟩
  | 50 => ⟨S65536x100, .f32⟩
  | 51 => ⟨S65536x100, .f32⟩
  | 52 => ⟨S1x100x64, .f32⟩
  | 53 => ⟨S100x64, .f32⟩
  | 54 => ⟨S65536x64, .f32⟩
  | 55 => ⟨S1x64, .f32⟩
  | 56 => ⟨S64, .f32⟩
  | 57 => ⟨S1x64, .f32⟩
  | 58 => ⟨S65536x64, .f32⟩
  | 59 => ⟨S65536x64, .f32⟩
  | 60 => ⟨S65536x8x8, .f32⟩
  | 61 => ⟨S65536x1x8, .f32⟩
  | 62 => ⟨S65536x16, .f32⟩
  | 63 => ⟨S1x16x100, .f32⟩
  | 64 => ⟨S16x100, .f32⟩
  | 65 => ⟨S65536x100, .f32⟩
  | 66 => ⟨S1x100, .f32⟩
  | 67 => ⟨S100, .f32⟩
  | 68 => ⟨S1x100, .f32⟩
  | 69 => ⟨S65536x100, .f32⟩
  | 70 => ⟨S65536x100, .f32⟩
  | 71 => ⟨S_, .f32⟩
  | 72 => ⟨S65536x100, .f32⟩
  | 73 => ⟨S65536x100, .f32⟩
  | 74 => ⟨S1x100x100, .f32⟩
  | 75 => ⟨S100x100, .f32⟩
  | 76 => ⟨S65536x100, .f32⟩
  | 77 => ⟨S1x100, .f32⟩
  | 78 => ⟨S100, .f32⟩
  | 79 => ⟨S1x100, .f32⟩
  | 80 => ⟨S65536x100, .f32⟩
  | 81 => ⟨S65536x100, .f32⟩
  | 82 => ⟨S_, .f32⟩
  | 83 => ⟨S65536x100, .f32⟩
  | 84 => ⟨S65536x100, .f32⟩
  | 85 => ⟨S1x100x64, .f32⟩
  | 86 => ⟨S100x64, .f32⟩
  | 87 => ⟨S65536x64, .f32⟩
  | 88 => ⟨S1x64, .f32⟩
  | 89 => ⟨S64, .f32⟩
  | 90 => ⟨S1x64, .f32⟩
  | 91 => ⟨S65536x64, .f32⟩
  | 92 => ⟨S65536x64, .f32⟩
  | 93 => ⟨S65536x8x8, .f32⟩
  | 94 => ⟨S65536x1x8, .f32⟩
  | 95 => ⟨S65536x16, .f32⟩
  | 96 => ⟨S1x16x100, .f32⟩
  | 97 => ⟨S16x100, .f32⟩
  | 98 => ⟨S65536x100, .f32⟩
  | 99 => ⟨S1x100, .f32⟩
  | 100 => ⟨S100, .f32⟩
  | 101 => ⟨S1x100, .f32⟩
  | 102 => ⟨S65536x100, .f32⟩
  | 103 => ⟨S65536x100, .f32⟩
  | 104 => ⟨S_, .f32⟩
  | 105 => ⟨S65536x100, .f32⟩
  | 106 => ⟨S65536x100, .f32⟩
  | 107 => ⟨S1x100x100, .f32⟩
  | 108 => ⟨S100x100, .f32⟩
  | 109 => ⟨S65536x100, .f32⟩
  | 110 => ⟨S1x100, .f32⟩
  | 111 => ⟨S100, .f32⟩
  | 112 => ⟨S1x100, .f32⟩
  | 113 => ⟨S65536x100, .f32⟩
  | 114 => ⟨S65536x100, .f32⟩
  | 115 => ⟨S_, .f32⟩
  | 116 => ⟨S65536x100, .f32⟩
  | 117 => ⟨S65536x100, .f32⟩
  | 118 => ⟨S1x100x64, .f32⟩
  | 119 => ⟨S100x64, .f32⟩
  | 120 => ⟨S65536x64, .f32⟩
  | 121 => ⟨S1x64, .f32⟩
  | 122 => ⟨S64, .f32⟩
  | 123 => ⟨S1x64, .f32⟩
  | 124 => ⟨S65536x64, .f32⟩
  | 125 => ⟨S65536x64, .f32⟩
  | 126 => ⟨S65536x8x8, .f32⟩
  | 127 => ⟨S65536x1x8, .f32⟩
  | _ => ⟨S65536x512, .f32⟩

abbrev hbmTy0_2 (i : Nat) : BufTy := match i % 128 with
  | 0 => ⟨S65536x16, .f32⟩
  | 1 => ⟨S1x16x100, .f32⟩
  | 2 => ⟨S16x100, .f32⟩
  | 3 => ⟨S65536x100, .f32⟩
  | 4 => ⟨S1x100, .f32⟩
  | 5 => ⟨S100, .f32⟩
  | 6 => ⟨S1x100, .f32⟩
  | 7 => ⟨S65536x100, .f32⟩
  | 8 => ⟨S65536x100, .f32⟩
  | 9 => ⟨S_, .f32⟩
  | 10 => ⟨S65536x100, .f32⟩
  | 11 => ⟨S65536x100, .f32⟩
  | 12 => ⟨S1x100x100, .f32⟩
  | 13 => ⟨S100x100, .f32⟩
  | 14 => ⟨S65536x100, .f32⟩
  | 15 => ⟨S1x100, .f32⟩
  | 16 => ⟨S100, .f32⟩
  | 17 => ⟨S1x100, .f32⟩
  | 18 => ⟨S65536x100, .f32⟩
  | 19 => ⟨S65536x100, .f32⟩
  | 20 => ⟨S_, .f32⟩
  | 21 => ⟨S65536x100, .f32⟩
  | 22 => ⟨S65536x100, .f32⟩
  | 23 => ⟨S1x100x64, .f32⟩
  | 24 => ⟨S100x64, .f32⟩
  | 25 => ⟨S65536x64, .f32⟩
  | 26 => ⟨S1x64, .f32⟩
  | 27 => ⟨S64, .f32⟩
  | 28 => ⟨S1x64, .f32⟩
  | 29 => ⟨S65536x64, .f32⟩
  | 30 => ⟨S65536x64, .f32⟩
  | 31 => ⟨S65536x8x8, .f32⟩
  | 32 => ⟨S65536x1x8, .f32⟩
  | 33 => ⟨S65536x16, .f32⟩
  | 34 => ⟨S1x16x100, .f32⟩
  | 35 => ⟨S16x100, .f32⟩
  | 36 => ⟨S65536x100, .f32⟩
  | 37 => ⟨S1x100, .f32⟩
  | 38 => ⟨S100, .f32⟩
  | 39 => ⟨S1x100, .f32⟩
  | 40 => ⟨S65536x100, .f32⟩
  | 41 => ⟨S65536x100, .f32⟩
  | 42 => ⟨S_, .f32⟩
  | 43 => ⟨S65536x100, .f32⟩
  | 44 => ⟨S65536x100, .f32⟩
  | 45 => ⟨S1x100x100, .f32⟩
  | 46 => ⟨S100x100, .f32⟩
  | 47 => ⟨S65536x100, .f32⟩
  | 48 => ⟨S1x100, .f32⟩
  | 49 => ⟨S100, .f32⟩
  | 50 => ⟨S1x100, .f32⟩
  | 51 => ⟨S65536x100, .f32⟩
  | 52 => ⟨S65536x100, .f32⟩
  | 53 => ⟨S_, .f32⟩
  | 54 => ⟨S65536x100, .f32⟩
  | 55 => ⟨S65536x100, .f32⟩
  | 56 => ⟨S1x100x64, .f32⟩
  | 57 => ⟨S100x64, .f32⟩
  | 58 => ⟨S65536x64, .f32⟩
  | 59 => ⟨S1x64, .f32⟩
  | 60 => ⟨S64, .f32⟩
  | 61 => ⟨S1x64, .f32⟩
  | 62 => ⟨S65536x64, .f32⟩
  | 63 => ⟨S65536x64, .f32⟩
  | 64 => ⟨S65536x8x8, .f32⟩
  | 65 => ⟨S65536x1x8, .f32⟩
  | 66 => ⟨S65536x16, .f32⟩
  | 67 => ⟨S1x16x100, .f32⟩
  | 68 => ⟨S16x100, .f32⟩
  | 69 => ⟨S65536x100, .f32⟩
  | 70 => ⟨S1x100, .f32⟩
  | 71 => ⟨S100, .f32⟩
  | 72 => ⟨S1x100, .f32⟩
  | 73 => ⟨S65536x100, .f32⟩
  | 74 => ⟨S65536x100, .f32⟩
  | 75 => ⟨S_, .f32⟩
  | 76 => ⟨S65536x100, .f32⟩
  | 77 => ⟨S65536x100, .f32⟩
  | 78 => ⟨S1x100x100, .f32⟩
  | 79 => ⟨S100x100, .f32⟩
  | 80 => ⟨S65536x100, .f32⟩
  | 81 => ⟨S1x100, .f32⟩
  | 82 => ⟨S100, .f32⟩
  | 83 => ⟨S1x100, .f32⟩
  | 84 => ⟨S65536x100, .f32⟩
  | 85 => ⟨S65536x100, .f32⟩
  | 86 => ⟨S_, .f32⟩
  | 87 => ⟨S65536x100, .f32⟩
  | 88 => ⟨S65536x100, .f32⟩
  | 89 => ⟨S1x100x64, .f32⟩
  | 90 => ⟨S100x64, .f32⟩
  | 91 => ⟨S65536x64, .f32⟩
  | 92 => ⟨S1x64, .f32⟩
  | 93 => ⟨S64, .f32⟩
  | 94 => ⟨S1x64, .f32⟩
  | 95 => ⟨S65536x64, .f32⟩
  | 96 => ⟨S65536x64, .f32⟩
  | 97 => ⟨S65536x8x8, .f32⟩
  | 98 => ⟨S65536x1x8, .f32⟩
  | 99 => ⟨S65536x16, .f32⟩
  | 100 => ⟨S1x16x100, .f32⟩
  | 101 => ⟨S16x100, .f32⟩
  | 102 => ⟨S65536x100, .f32⟩
  | 103 => ⟨S1x100, .f32⟩
  | 104 => ⟨S100, .f32⟩
  | 105 => ⟨S1x100, .f32⟩
  | 106 => ⟨S65536x100, .f32⟩
  | 107 => ⟨S65536x100, .f32⟩
  | 108 => ⟨S_, .f32⟩
  | 109 => ⟨S65536x100, .f32⟩
  | 110 => ⟨S65536x100, .f32⟩
  | 111 => ⟨S1x100x100, .f32⟩
  | 112 => ⟨S100x100, .f32⟩
  | 113 => ⟨S65536x100, .f32⟩
  | 114 => ⟨S1x100, .f32⟩
  | 115 => ⟨S100, .f32⟩
  | 116 => ⟨S1x100, .f32⟩
  | 117 => ⟨S65536x100, .f32⟩
  | 118 => ⟨S65536x100, .f32⟩
  | 119 => ⟨S_, .f32⟩
  | 120 => ⟨S65536x100, .f32⟩
  | 121 => ⟨S65536x100, .f32⟩
  | 122 => ⟨S1x100x64, .f32⟩
  | 123 => ⟨S100x64, .f32⟩
  | 124 => ⟨S65536x64, .f32⟩
  | 125 => ⟨S1x64, .f32⟩
  | 126 => ⟨S64, .f32⟩
  | 127 => ⟨S1x64, .f32⟩
  | _ => ⟨S65536x512, .f32⟩

abbrev hbmTy0_3 (i : Nat) : BufTy := match i % 128 with
  | 0 => ⟨S65536x64, .f32⟩
  | 1 => ⟨S65536x64, .f32⟩
  | 2 => ⟨S65536x8x8, .f32⟩
  | 3 => ⟨S65536x1x8, .f32⟩
  | 4 => ⟨S65536x16, .f32⟩
  | 5 => ⟨S1x16x100, .f32⟩
  | 6 => ⟨S16x100, .f32⟩
  | 7 => ⟨S65536x100, .f32⟩
  | 8 => ⟨S1x100, .f32⟩
  | 9 => ⟨S100, .f32⟩
  | 10 => ⟨S1x100, .f32⟩
  | 11 => ⟨S65536x100, .f32⟩
  | 12 => ⟨S65536x100, .f32⟩
  | 13 => ⟨S_, .f32⟩
  | 14 => ⟨S65536x100, .f32⟩
  | 15 => ⟨S65536x100, .f32⟩
  | 16 => ⟨S1x100x100, .f32⟩
  | 17 => ⟨S100x100, .f32⟩
  | 18 => ⟨S65536x100, .f32⟩
  | 19 => ⟨S1x100, .f32⟩
  | 20 => ⟨S100, .f32⟩
  | 21 => ⟨S1x100, .f32⟩
  | 22 => ⟨S65536x100, .f32⟩
  | 23 => ⟨S65536x100, .f32⟩
  | 24 => ⟨S_, .f32⟩
  | 25 => ⟨S65536x100, .f32⟩
  | 26 => ⟨S65536x100, .f32⟩
  | 27 => ⟨S1x100x64, .f32⟩
  | 28 => ⟨S100x64, .f32⟩
  | 29 => ⟨S65536x64, .f32⟩
  | 30 => ⟨S1x64, .f32⟩
  | 31 => ⟨S64, .f32⟩
  | 32 => ⟨S1x64, .f32⟩
  | 33 => ⟨S65536x64, .f32⟩
  | 34 => ⟨S65536x64, .f32⟩
  | 35 => ⟨S65536x8x8, .f32⟩
  | 36 => ⟨S65536x1x8, .f32⟩
  | 37 => ⟨S65536x16, .f32⟩
  | 38 => ⟨S1x16x100, .f32⟩
  | 39 => ⟨S16x100, .f32⟩
  | 40 => ⟨S65536x100, .f32⟩
  | 41 => ⟨S1x100, .f32⟩
  | 42 => ⟨S100, .f32⟩
  | 43 => ⟨S1x100, .f32⟩
  | 44 => ⟨S65536x100, .f32⟩
  | 45 => ⟨S65536x100, .f32⟩
  | 46 => ⟨S_, .f32⟩
  | 47 => ⟨S65536x100, .f32⟩
  | 48 => ⟨S65536x100, .f32⟩
  | 49 => ⟨S1x100x100, .f32⟩
  | 50 => ⟨S100x100, .f32⟩
  | 51 => ⟨S65536x100, .f32⟩
  | 52 => ⟨S1x100, .f32⟩
  | 53 => ⟨S100, .f32⟩
  | 54 => ⟨S1x100, .f32⟩
  | 55 => ⟨S65536x100, .f32⟩
  | 56 => ⟨S65536x100, .f32⟩
  | 57 => ⟨S_, .f32⟩
  | 58 => ⟨S65536x100, .f32⟩
  | 59 => ⟨S65536x100, .f32⟩
  | 60 => ⟨S1x100x64, .f32⟩
  | 61 => ⟨S100x64, .f32⟩
  | 62 => ⟨S65536x64, .f32⟩
  | 63 => ⟨S1x64, .f32⟩
  | 64 => ⟨S64, .f32⟩
  | 65 => ⟨S1x64, .f32⟩
  | 66 => ⟨S65536x64, .f32⟩
  | 67 => ⟨S65536x64, .f32⟩
  | 68 => ⟨S65536x8x8, .f32⟩
  | 69 => ⟨S65536x1x8, .f32⟩
  | 70 => ⟨S65536x16, .f32⟩
  | 71 => ⟨S1x16x100, .f32⟩
  | 72 => ⟨S16x100, .f32⟩
  | 73 => ⟨S65536x100, .f32⟩
  | 74 => ⟨S1x100, .f32⟩
  | 75 => ⟨S100, .f32⟩
  | 76 => ⟨S1x100, .f32⟩
  | 77 => ⟨S65536x100, .f32⟩
  | 78 => ⟨S65536x100, .f32⟩
  | 79 => ⟨S_, .f32⟩
  | 80 => ⟨S65536x100, .f32⟩
  | 81 => ⟨S65536x100, .f32⟩
  | 82 => ⟨S1x100x100, .f32⟩
  | 83 => ⟨S100x100, .f32⟩
  | 84 => ⟨S65536x100, .f32⟩
  | 85 => ⟨S1x100, .f32⟩
  | 86 => ⟨S100, .f32⟩
  | 87 => ⟨S1x100, .f32⟩
  | 88 => ⟨S65536x100, .f32⟩
  | 89 => ⟨S65536x100, .f32⟩
  | 90 => ⟨S_, .f32⟩
  | 91 => ⟨S65536x100, .f32⟩
  | 92 => ⟨S65536x100, .f32⟩
  | 93 => ⟨S1x100x64, .f32⟩
  | 94 => ⟨S100x64, .f32⟩
  | 95 => ⟨S65536x64, .f32⟩
  | 96 => ⟨S1x64, .f32⟩
  | 97 => ⟨S64, .f32⟩
  | 98 => ⟨S1x64, .f32⟩
  | 99 => ⟨S65536x64, .f32⟩
  | 100 => ⟨S65536x64, .f32⟩
  | 101 => ⟨S65536x8x8, .f32⟩
  | 102 => ⟨S65536x1x8, .f32⟩
  | 103 => ⟨S65536x16, .f32⟩
  | 104 => ⟨S1x16x100, .f32⟩
  | 105 => ⟨S16x100, .f32⟩
  | 106 => ⟨S65536x100, .f32⟩
  | 107 => ⟨S1x100, .f32⟩
  | 108 => ⟨S100, .f32⟩
  | 109 => ⟨S1x100, .f32⟩
  | 110 => ⟨S65536x100, .f32⟩
  | 111 => ⟨S65536x100, .f32⟩
  | 112 => ⟨S_, .f32⟩
  | 113 => ⟨S65536x100, .f32⟩
  | 114 => ⟨S65536x100, .f32⟩
  | 115 => ⟨S1x100x100, .f32⟩
  | 116 => ⟨S100x100, .f32⟩
  | 117 => ⟨S65536x100, .f32⟩
  | 118 => ⟨S1x100, .f32⟩
  | 119 => ⟨S100, .f32⟩
  | 120 => ⟨S1x100, .f32⟩
  | 121 => ⟨S65536x100, .f32⟩
  | 122 => ⟨S65536x100, .f32⟩
  | 123 => ⟨S_, .f32⟩
  | 124 => ⟨S65536x100, .f32⟩
  | 125 => ⟨S65536x100, .f32⟩
  | 126 => ⟨S1x100x64, .f32⟩
  | 127 => ⟨S100x64, .f32⟩
  | _ => ⟨S65536x512, .f32⟩

abbrev hbmTy0_4 (i : Nat) : BufTy := match i % 128 with
  | 0 => ⟨S65536x64, .f32⟩
  | 1 => ⟨S1x64, .f32⟩
  | 2 => ⟨S64, .f32⟩
  | 3 => ⟨S1x64, .f32⟩
  | 4 => ⟨S65536x64, .f32⟩
  | 5 => ⟨S65536x64, .f32⟩
  | 6 => ⟨S65536x8x8, .f32⟩
  | 7 => ⟨S65536x1x8, .f32⟩
  | 8 => ⟨S65536x16, .f32⟩
  | 9 => ⟨S1x16x100, .f32⟩
  | 10 => ⟨S16x100, .f32⟩
  | 11 => ⟨S65536x100, .f32⟩
  | 12 => ⟨S1x100, .f32⟩
  | 13 => ⟨S100, .f32⟩
  | 14 => ⟨S1x100, .f32⟩
  | 15 => ⟨S65536x100, .f32⟩
  | 16 => ⟨S65536x100, .f32⟩
  | 17 => ⟨S_, .f32⟩
  | 18 => ⟨S65536x100, .f32⟩
  | 19 => ⟨S65536x100, .f32⟩
  | 20 => ⟨S1x100x100, .f32⟩
  | 21 => ⟨S100x100, .f32⟩
  | 22 => ⟨S65536x100, .f32⟩
  | 23 => ⟨S1x100, .f32⟩
  | 24 => ⟨S100, .f32⟩
  | 25 => ⟨S1x100, .f32⟩
  | 26 => ⟨S65536x100, .f32⟩
  | 27 => ⟨S65536x100, .f32⟩
  | 28 => ⟨S_, .f32⟩
  | 29 => ⟨S65536x100, .f32⟩
  | 30 => ⟨S65536x100, .f32⟩
  | 31 => ⟨S1x100x64, .f32⟩
  | 32 => ⟨S100x64, .f32⟩
  | 33 => ⟨S65536x64, .f32⟩
  | 34 => ⟨S1x64, .f32⟩
  | 35 => ⟨S64, .f32⟩
  | 36 => ⟨S1x64, .f32⟩
  | 37 => ⟨S65536x64, .f32⟩
  | 38 => ⟨S65536x64, .f32⟩
  | 39 => ⟨S65536x8x8, .f32⟩
  | 40 => ⟨S65536x1x8, .f32⟩
  | 41 => ⟨S65536x16, .f32⟩
  | 42 => ⟨S1x16x100, .f32⟩
  | 43 => ⟨S16x100, .f32⟩
  | 44 => ⟨S65536x100, .f32⟩
  | 45 => ⟨S1x100, .f32⟩
  | 46 => ⟨S100, .f32⟩
  | 47 => ⟨S1x100, .f32⟩
  | 48 => ⟨S65536x100, .f32⟩
  | 49 => ⟨S65536x100, .f32⟩
  | 50 => ⟨S_, .f32⟩
  | 51 => ⟨S65536x100, .f32⟩
  | 52 => ⟨S65536x100, .f32⟩
  | 53 => ⟨S1x100x100, .f32⟩
  | 54 => ⟨S100x100, .f32⟩
  | 55 => ⟨S65536x100, .f32⟩
  | 56 => ⟨S1x100, .f32⟩
  | 57 => ⟨S100, .f32⟩
  | 58 => ⟨S1x100, .f32⟩
  | 59 => ⟨S65536x100, .f32⟩
  | 60 => ⟨S65536x100, .f32⟩
  | 61 => ⟨S_, .f32⟩
  | 62 => ⟨S65536x100, .f32⟩
  | 63 => ⟨S65536x100, .f32⟩
  | 64 => ⟨S1x100x64, .f32⟩
  | 65 => ⟨S100x64, .f32⟩
  | 66 => ⟨S65536x64, .f32⟩
  | 67 => ⟨S1x64, .f32⟩
  | 68 => ⟨S64, .f32⟩
  | 69 => ⟨S1x64, .f32⟩
  | 70 => ⟨S65536x64, .f32⟩
  | 71 => ⟨S65536x64, .f32⟩
  | 72 => ⟨S65536x8x8, .f32⟩
  | 73 => ⟨S65536x1x8, .f32⟩
  | 74 => ⟨S65536x16, .f32⟩
  | 75 => ⟨S1x16x100, .f32⟩
  | 76 => ⟨S16x100, .f32⟩
  | 77 => ⟨S65536x100, .f32⟩
  | 78 => ⟨S1x100, .f32⟩
  | 79 => ⟨S100, .f32⟩
  | 80 => ⟨S1x100, .f32⟩
  | 81 => ⟨S65536x100, .f32⟩
  | 82 => ⟨S65536x100, .f32⟩
  | 83 => ⟨S_, .f32⟩
  | 84 => ⟨S65536x100, .f32⟩
  | 85 => ⟨S65536x100, .f32⟩
  | 86 => ⟨S1x100x100, .f32⟩
  | 87 => ⟨S100x100, .f32⟩
  | 88 => ⟨S65536x100, .f32⟩
  | 89 => ⟨S1x100, .f32⟩
  | 90 => ⟨S100, .f32⟩
  | 91 => ⟨S1x100, .f32⟩
  | 92 => ⟨S65536x100, .f32⟩
  | 93 => ⟨S65536x100, .f32⟩
  | 94 => ⟨S_, .f32⟩
  | 95 => ⟨S65536x100, .f32⟩
  | 96 => ⟨S65536x100, .f32⟩
  | 97 => ⟨S1x100x64, .f32⟩
  | 98 => ⟨S100x64, .f32⟩
  | 99 => ⟨S65536x64, .f32⟩
  | 100 => ⟨S1x64, .f32⟩
  | 101 => ⟨S64, .f32⟩
  | 102 => ⟨S1x64, .f32⟩
  | 103 => ⟨S65536x64, .f32⟩
  | 104 => ⟨S65536x64, .f32⟩
  | 105 => ⟨S65536x8x8, .f32⟩
  | 106 => ⟨S65536x1x8, .f32⟩
  | 107 => ⟨S65536x16, .f32⟩
  | 108 => ⟨S1x16x100, .f32⟩
  | 109 => ⟨S16x100, .f32⟩
  | 110 => ⟨S65536x100, .f32⟩
  | 111 => ⟨S1x100, .f32⟩
  | 112 => ⟨S100, .f32⟩
  | 113 => ⟨S1x100, .f32⟩
  | 114 => ⟨S65536x100, .f32⟩
  | 115 => ⟨S65536x100, .f32⟩
  | 116 => ⟨S_, .f32⟩
  | 117 => ⟨S65536x100, .f32⟩
  | 118 => ⟨S65536x100, .f32⟩
  | 119 => ⟨S1x100x100, .f32⟩
  | 120 => ⟨S100x100, .f32⟩
  | 121 => ⟨S65536x100, .f32⟩
  | 122 => ⟨S1x100, .f32⟩
  | 123 => ⟨S100, .f32⟩
  | 124 => ⟨S1x100, .f32⟩
  | 125 => ⟨S65536x100, .f32⟩
  | 126 => ⟨S65536x100, .f32⟩
  | 127 => ⟨S_, .f32⟩
  | _ => ⟨S65536x512, .f32⟩

abbrev hbmTy0_5 (i : Nat) : BufTy := match i % 128 with
  | 0 => ⟨S65536x100, .f32⟩
  | 1 => ⟨S65536x100, .f32⟩
  | 2 => ⟨S1x100x64, .f32⟩
  | 3 => ⟨S100x64, .f32⟩
  | 4 => ⟨S65536x64, .f32⟩
  | 5 => ⟨S1x64, .f32⟩
  | 6 => ⟨S64, .f32⟩
  | 7 => ⟨S1x64, .f32⟩
  | 8 => ⟨S65536x64, .f32⟩
  | 9 => ⟨S65536x64, .f32⟩
  | 10 => ⟨S65536x8x8, .f32⟩
  | 11 => ⟨S65536x1x8, .f32⟩
  | 12 => ⟨S65536x16, .f32⟩
  | 13 => ⟨S1x16x100, .f32⟩
  | 14 => ⟨S16x100, .f32⟩
  | 15 => ⟨S65536x100, .f32⟩
  | 16 => ⟨S1x100, .f32⟩
  | 17 => ⟨S100, .f32⟩
  | 18 => ⟨S1x100, .f32⟩
  | 19 => ⟨S65536x100, .f32⟩
  | 20 => ⟨S65536x100, .f32⟩
  | 21 => ⟨S_, .f32⟩
  | 22 => ⟨S65536x100, .f32⟩
  | 23 => ⟨S65536x100, .f32⟩
  | 24 => ⟨S1x100x100, .f32⟩
  | 25 => ⟨S100x100, .f32⟩
  | 26 => ⟨S65536x100, .f32⟩
  | 27 => ⟨S1x100, .f32⟩
  | 28 => ⟨S100, .f32⟩
  | 29 => ⟨S1x100, .f32⟩
  | 30 => ⟨S65536x100, .f32⟩
  | 31 => ⟨S65536x100, .f32⟩
  | 32 => ⟨S_, .f32⟩
  | 33 => ⟨S65536x100, .f32⟩
  | 34 => ⟨S65536x100, .f32⟩
  | 35 => ⟨S1x100x64, .f32⟩
  | 36 => ⟨S100x64, .f32⟩
  | 37 => ⟨S65536x64, .f32⟩
  | 38 => ⟨S1x64, .f32⟩
  | 39 => ⟨S64, .f32⟩
  | 40 => ⟨S1x64, .f32⟩
  | 41 => ⟨S65536x64, .f32⟩
  | 42 => ⟨S65536x64, .f32⟩
  | 43 => ⟨S65536x8x8, .f32⟩
  | 44 => ⟨S65536x1x8, .f32⟩
  | 45 => ⟨S65536x16, .f32⟩
  | 46 => ⟨S1x16x100, .f32⟩
  | 47 => ⟨S16x100, .f32⟩
  | 48 => ⟨S65536x100, .f32⟩
  | 49 => ⟨S1x100, .f32⟩
  | 50 => ⟨S100, .f32⟩
  | 51 => ⟨S1x100, .f32⟩
  | 52 => ⟨S65536x100, .f32⟩
  | 53 => ⟨S65536x100, .f32⟩
  | 54 => ⟨S_, .f32⟩
  | 55 => ⟨S65536x100, .f32⟩
  | 56 => ⟨S65536x100, .f32⟩
  | 57 => ⟨S1x100x100, .f32⟩
  | 58 => ⟨S100x100, .f32⟩
  | 59 => ⟨S65536x100, .f32⟩
  | 60 => ⟨S1x100, .f32⟩
  | 61 => ⟨S100, .f32⟩
  | 62 => ⟨S1x100, .f32⟩
  | 63 => ⟨S65536x100, .f32⟩
  | 64 => ⟨S65536x100, .f32⟩
  | 65 => ⟨S_, .f32⟩
  | 66 => ⟨S65536x100, .f32⟩
  | 67 => ⟨S65536x100, .f32⟩
  | 68 => ⟨S1x100x64, .f32⟩
  | 69 => ⟨S100x64, .f32⟩
  | 70 => ⟨S65536x64, .f32⟩
  | 71 => ⟨S1x64, .f32⟩
  | 72 => ⟨S64, .f32⟩
  | 73 => ⟨S1x64, .f32⟩
  | 74 => ⟨S65536x64, .f32⟩
  | 75 => ⟨S65536x64, .f32⟩
  | 76 => ⟨S65536x8x8, .f32⟩
  | 77 => ⟨S65536x1x8, .f32⟩
  | 78 => ⟨S65536x16, .f32⟩
  | 79 => ⟨S1x16x100, .f32⟩
  | 80 => ⟨S16x100, .f32⟩
  | 81 => ⟨S65536x100, .f32⟩
  | 82 => ⟨S1x100, .f32⟩
  | 83 => ⟨S100, .f32⟩
  | 84 => ⟨S1x100, .f32⟩
  | 85 => ⟨S65536x100, .f32⟩
  | 86 => ⟨S65536x100, .f32⟩
  | 87 => ⟨S_, .f32⟩
  | 88 => ⟨S65536x100, .f32⟩
  | 89 => ⟨S65536x100, .f32⟩
  | 90 => ⟨S1x100x100, .f32⟩
  | 91 => ⟨S100x100, .f32⟩
  | 92 => ⟨S65536x100, .f32⟩
  | 93 => ⟨S1x100, .f32⟩
  | 94 => ⟨S100, .f32⟩
  | 95 => ⟨S1x100, .f32⟩
  | 96 => ⟨S65536x100, .f32⟩
  | 97 => ⟨S65536x100, .f32⟩
  | 98 => ⟨S_, .f32⟩
  | 99 => ⟨S65536x100, .f32⟩
  | 100 => ⟨S65536x100, .f32⟩
  | 101 => ⟨S1x100x64, .f32⟩
  | 102 => ⟨S100x64, .f32⟩
  | 103 => ⟨S65536x64, .f32⟩
  | 104 => ⟨S1x64, .f32⟩
  | 105 => ⟨S64, .f32⟩
  | 106 => ⟨S1x64, .f32⟩
  | 107 => ⟨S65536x64, .f32⟩
  | 108 => ⟨S65536x64, .f32⟩
  | 109 => ⟨S65536x8x8, .f32⟩
  | 110 => ⟨S65536x1x8, .f32⟩
  | 111 => ⟨S65536x16, .f32⟩
  | 112 => ⟨S1x16x100, .f32⟩
  | 113 => ⟨S16x100, .f32⟩
  | 114 => ⟨S65536x100, .f32⟩
  | 115 => ⟨S1x100, .f32⟩
  | 116 => ⟨S100, .f32⟩
  | 117 => ⟨S1x100, .f32⟩
  | 118 => ⟨S65536x100, .f32⟩
  | 119 => ⟨S65536x100, .f32⟩
  | 120 => ⟨S_, .f32⟩
  | 121 => ⟨S65536x100, .f32⟩
  | 122 => ⟨S65536x100, .f32⟩
  | 123 => ⟨S1x100x100, .f32⟩
  | 124 => ⟨S100x100, .f32⟩
  | 125 => ⟨S65536x100, .f32⟩
  | 126 => ⟨S1x100, .f32⟩
  | 127 => ⟨S100, .f32⟩
  | _ => ⟨S65536x512, .f32⟩

abbrev hbmTy0_6 (i : Nat) : BufTy := match i % 128 with
  | 0 => ⟨S1x100, .f32⟩
  | 1 => ⟨S65536x100, .f32⟩
  | 2 => ⟨S65536x100, .f32⟩
  | 3 => ⟨S_, .f32⟩
  | 4 => ⟨S65536x100, .f32⟩
  | 5 => ⟨S65536x100, .f32⟩
  | 6 => ⟨S1x100x64, .f32⟩
  | 7 => ⟨S100x64, .f32⟩
  | 8 => ⟨S65536x64, .f32⟩
  | 9 => ⟨S1x64, .f32⟩
  | 10 => ⟨S64, .f32⟩
  | 11 => ⟨S1x64, .f32⟩
  | 12 => ⟨S65536x64, .f32⟩
  | 13 => ⟨S65536x64, .f32⟩
  | 14 => ⟨S65536x8x8, .f32⟩
  | 15 => ⟨S65536x1x8, .f32⟩
  | 16 => ⟨S65536x16, .f32⟩
  | 17 => ⟨S1x16x100, .f32⟩
  | 18 => ⟨S16x100, .f32⟩
  | 19 => ⟨S65536x100, .f32⟩
  | 20 => ⟨S1x100, .f32⟩
  | 21 => ⟨S100, .f32⟩
  | 22 => ⟨S1x100, .f32⟩
  | 23 => ⟨S65536x100, .f32⟩
  | 24 => ⟨S65536x100, .f32⟩
  | 25 => ⟨S_, .f32⟩
  | 26 => ⟨S65536x100, .f32⟩
  | 27 => ⟨S65536x100, .f32⟩
  | 28 => ⟨S1x100x100, .f32⟩
  | 29 => ⟨S100x100, .f32⟩
  | 30 => ⟨S65536x100, .f32⟩
  | 31 => ⟨S1x100, .f32⟩
  | 32 => ⟨S100, .f32⟩
  | 33 => ⟨S1x100, .f32⟩
  | 34 => ⟨S65536x100, .f32⟩
  | 35 => ⟨S65536x100, .f32⟩
  | 36 => ⟨S_, .f32⟩
  | 37 => ⟨S65536x100, .f32⟩
  | 38 => ⟨S65536x100, .f32⟩
  | 39 => ⟨S1x100x64, .f32⟩
  | 40 => ⟨S100x64, .f32⟩
  | 41 => ⟨S65536x64, .f32⟩
  | 42 => ⟨S1x64, .f32⟩
  | 43 => ⟨S64, .f32⟩
  | 44 => ⟨S1x64, .f32⟩
  | 45 => ⟨S65536x64, .f32⟩
  | 46 => ⟨S65536x64, .f32⟩
  | 47 => ⟨S65536x8x8, .f32⟩
  | 48 => ⟨S65536x1x8, .f32⟩
  | 49 => ⟨S65536x16, .f32⟩
  | 50 => ⟨S1x16x100, .f32⟩
  | 51 => ⟨S16x100, .f32⟩
  | 52 => ⟨S65536x100, .f32⟩
  | 53 => ⟨S1x100, .f32⟩
  | 54 => ⟨S100, .f32⟩
  | 55 => ⟨S1x100, .f32⟩
  | 56 => ⟨S65536x100, .f32⟩
  | 57 => ⟨S65536x100, .f32⟩
  | 58 => ⟨S_, .f32⟩
  | 59 => ⟨S65536x100, .f32⟩
  | 60 => ⟨S65536x100, .f32⟩
  | 61 => ⟨S1x100x100, .f32⟩
  | 62 => ⟨S100x100, .f32⟩
  | 63 => ⟨S65536x100, .f32⟩
  | 64 => ⟨S1x100, .f32⟩
  | 65 => ⟨S100, .f32⟩
  | 66 => ⟨S1x100, .f32⟩
  | 67 => ⟨S65536x100, .f32⟩
  | 68 => ⟨S65536x100, .f32⟩
  | 69 => ⟨S_, .f32⟩
  | 70 => ⟨S65536x100, .f32⟩
  | 71 => ⟨S65536x100, .f32⟩
  | 72 => ⟨S1x100x64, .f32⟩
  | 73 => ⟨S100x64, .f32⟩
  | 74 => ⟨S65536x64, .f32⟩
  | 75 => ⟨S1x64, .f32⟩
  | 76 => ⟨S64, .f32⟩
  | 77 => ⟨S1x64, .f32⟩
  | 78 => ⟨S65536x64, .f32⟩
  | 79 => ⟨S65536x64, .f32⟩
  | 80 => ⟨S65536x8x8, .f32⟩
  | 81 => ⟨S65536x1x8, .f32⟩
  | 82 => ⟨S65536x16, .f32⟩
  | 83 => ⟨S1x16x100, .f32⟩
  | 84 => ⟨S16x100, .f32⟩
  | 85 => ⟨S65536x100, .f32⟩
  | 86 => ⟨S1x100, .f32⟩
  | 87 => ⟨S100, .f32⟩
  | 88 => ⟨S1x100, .f32⟩
  | 89 => ⟨S65536x100, .f32⟩
  | 90 => ⟨S65536x100, .f32⟩
  | 91 => ⟨S_, .f32⟩
  | 92 => ⟨S65536x100, .f32⟩
  | 93 => ⟨S65536x100, .f32⟩
  | 94 => ⟨S1x100x100, .f32⟩
  | 95 => ⟨S100x100, .f32⟩
  | 96 => ⟨S65536x100, .f32⟩
  | 97 => ⟨S1x100, .f32⟩
  | 98 => ⟨S100, .f32⟩
  | 99 => ⟨S1x100, .f32⟩
  | 100 => ⟨S65536x100, .f32⟩
  | 101 => ⟨S65536x100, .f32⟩
  | 102 => ⟨S_, .f32⟩
  | 103 => ⟨S65536x100, .f32⟩
  | 104 => ⟨S65536x100, .f32⟩
  | 105 => ⟨S1x100x64, .f32⟩
  | 106 => ⟨S100x64, .f32⟩
  | 107 => ⟨S65536x64, .f32⟩
  | 108 => ⟨S1x64, .f32⟩
  | 109 => ⟨S64, .f32⟩
  | 110 => ⟨S1x64, .f32⟩
  | 111 => ⟨S65536x64, .f32⟩
  | 112 => ⟨S65536x64, .f32⟩
  | 113 => ⟨S65536x8x8, .f32⟩
  | 114 => ⟨S65536x1x8, .f32⟩
  | 115 => ⟨S65536x16, .f32⟩
  | 116 => ⟨S1x16x100, .f32⟩
  | 117 => ⟨S16x100, .f32⟩
  | 118 => ⟨S65536x100, .f32⟩
  | 119 => ⟨S1x100, .f32⟩
  | 120 => ⟨S100, .f32⟩
  | 121 => ⟨S1x100, .f32⟩
  | 122 => ⟨S65536x100, .f32⟩
  | 123 => ⟨S65536x100, .f32⟩
  | 124 => ⟨S_, .f32⟩
  | 125 => ⟨S65536x100, .f32⟩
  | 126 => ⟨S65536x100, .f32⟩
  | 127 => ⟨S1x100x100, .f32⟩
  | _ => ⟨S65536x512, .f32⟩

abbrev hbmTy0_7 (i : Nat) : BufTy := match i % 128 with
  | 0 => ⟨S100x100, .f32⟩
  | 1 => ⟨S65536x100, .f32⟩
  | 2 => ⟨S1x100, .f32⟩
  | 3 => ⟨S100, .f32⟩
  | 4 => ⟨S1x100, .f32⟩
  | 5 => ⟨S65536x100, .f32⟩
  | 6 => ⟨S65536x100, .f32⟩
  | 7 => ⟨S_, .f32⟩
  | 8 => ⟨S65536x100, .f32⟩
  | 9 => ⟨S65536x100, .f32⟩
  | 10 => ⟨S1x100x64, .f32⟩
  | 11 => ⟨S100x64, .f32⟩
  | 12 => ⟨S65536x64, .f32⟩
  | 13 => ⟨S1x64, .f32⟩
  | 14 => ⟨S64, .f32⟩
  | 15 => ⟨S1x64, .f32⟩
  | 16 => ⟨S65536x64, .f32⟩
  | 17 => ⟨S65536x64, .f32⟩
  | 18 => ⟨S65536x8x8, .f32⟩
  | 19 => ⟨S65536x1x8, .f32⟩
  | 20 => ⟨S65536x16, .f32⟩
  | 21 => ⟨S1x16x100, .f32⟩
  | 22 => ⟨S16x100, .f32⟩
  | 23 => ⟨S65536x100, .f32⟩
  | 24 => ⟨S1x100, .f32⟩
  | 25 => ⟨S100, .f32⟩
  | 26 => ⟨S1x100, .f32⟩
  | 27 => ⟨S65536x100, .f32⟩
  | 28 => ⟨S65536x100, .f32⟩
  | 29 => ⟨S_, .f32⟩
  | 30 => ⟨S65536x100, .f32⟩
  | 31 => ⟨S65536x100, .f32⟩
  | 32 => ⟨S1x100x100, .f32⟩
  | 33 => ⟨S100x100, .f32⟩
  | 34 => ⟨S65536x100, .f32⟩
  | 35 => ⟨S1x100, .f32⟩
  | 36 => ⟨S100, .f32⟩
  | 37 => ⟨S1x100, .f32⟩
  | 38 => ⟨S65536x100, .f32⟩
  | 39 => ⟨S65536x100, .f32⟩
  | 40 => ⟨S_, .f32⟩
  | 41 => ⟨S65536x100, .f32⟩
  | 42 => ⟨S65536x100, .f32⟩
  | 43 => ⟨S1x100x64, .f32⟩
  | 44 => ⟨S100x64, .f32⟩
  | 45 => ⟨S65536x64, .f32⟩
  | 46 => ⟨S1x64, .f32⟩
  | 47 => ⟨S64, .f32⟩
  | 48 => ⟨S1x64, .f32⟩
  | 49 => ⟨S65536x64, .f32⟩
  | 50 => ⟨S65536x64, .f32⟩
  | 51 => ⟨S65536x8x8, .f32⟩
  | 52 => ⟨S65536x1x8, .f32⟩
  | 53 => ⟨S65536x16, .f32⟩
  | 54 => ⟨S1x16x100, .f32⟩
  | 55 => ⟨S16x100, .f32⟩
  | 56 => ⟨S65536x100, .f32⟩
  | 57 => ⟨S1x100, .f32⟩
  | 58 => ⟨S100, .f32⟩
  | 59 => ⟨S1x100, .f32⟩
  | 60 => ⟨S65536x100, .f32⟩
  | 61 => ⟨S65536x100, .f32⟩
  | 62 => ⟨S_, .f32⟩
  | 63 => ⟨S65536x100, .f32⟩
  | 64 => ⟨S65536x100, .f32⟩
  | 65 => ⟨S1x100x100, .f32⟩
  | 66 => ⟨S100x100, .f32⟩
  | 67 => ⟨S65536x100, .f32⟩
  | 68 => ⟨S1x100, .f32⟩
  | 69 => ⟨S100, .f32⟩
  | 70 => ⟨S1x100, .f32⟩
  | 71 => ⟨S65536x100, .f32⟩
  | 72 => ⟨S65536x100, .f32⟩
  | 73 => ⟨S_, .f32⟩
  | 74 => ⟨S65536x100, .f32⟩
  | 75 => ⟨S65536x100, .f32⟩
  | 76 => ⟨S1x100x64, .f32⟩
  | 77 => ⟨S100x64, .f32⟩
  | 78 => ⟨S65536x64, .f32⟩
  | 79 => ⟨S1x64, .f32⟩
  | 80 => ⟨S64, .f32⟩
  | 81 => ⟨S1x64, .f32⟩
  | 82 => ⟨S65536x64, .f32⟩
  | 83 => ⟨S65536x64, .f32⟩
  | 84 => ⟨S65536x8x8, .f32⟩
  | 85 => ⟨S65536x1x8, .f32⟩
  | 86 => ⟨S65536x16, .f32⟩
  | 87 => ⟨S1x16x100, .f32⟩
  | 88 => ⟨S16x100, .f32⟩
  | 89 => ⟨S65536x100, .f32⟩
  | 90 => ⟨S1x100, .f32⟩
  | 91 => ⟨S100, .f32⟩
  | 92 => ⟨S1x100, .f32⟩
  | 93 => ⟨S65536x100, .f32⟩
  | 94 => ⟨S65536x100, .f32⟩
  | 95 => ⟨S_, .f32⟩
  | 96 => ⟨S65536x100, .f32⟩
  | 97 => ⟨S65536x100, .f32⟩
  | 98 => ⟨S1x100x100, .f32⟩
  | 99 => ⟨S100x100, .f32⟩
  | 100 => ⟨S65536x100, .f32⟩
  | 101 => ⟨S1x100, .f32⟩
  | 102 => ⟨S100, .f32⟩
  | 103 => ⟨S1x100, .f32⟩
  | 104 => ⟨S65536x100, .f32⟩
  | 105 => ⟨S65536x100, .f32⟩
  | 106 => ⟨S_, .f32⟩
  | 107 => ⟨S65536x100, .f32⟩
  | 108 => ⟨S65536x100, .f32⟩
  | 109 => ⟨S1x100x64, .f32⟩
  | 110 => ⟨S100x64, .f32⟩
  | 111 => ⟨S65536x64, .f32⟩
  | 112 => ⟨S1x64, .f32⟩
  | 113 => ⟨S64, .f32⟩
  | 114 => ⟨S1x64, .f32⟩
  | 115 => ⟨S65536x64, .f32⟩
  | 116 => ⟨S65536x64, .f32⟩
  | 117 => ⟨S65536x8x8, .f32⟩
  | 118 => ⟨S65536x1x8, .f32⟩
  | 119 => ⟨S65536x16, .f32⟩
  | 120 => ⟨S1x16x100, .f32⟩
  | 121 => ⟨S16x100, .f32⟩
  | 122 => ⟨S65536x100, .f32⟩
  | 123 => ⟨S1x100, .f32⟩
  | 124 => ⟨S100, .f32⟩
  | 125 => ⟨S1x100, .f32⟩
  | 126 => ⟨S65536x100, .f32⟩
  | 127 => ⟨S65536x100, .f32⟩
  | _ => ⟨S65536x512, .f32⟩

abbrev hbmTy0_8 (i : Nat) : BufTy := match i % 128 with
  | 0 => ⟨S_, .f32⟩
  | 1 => ⟨S65536x100, .f32⟩
  | 2 => ⟨S65536x100, .f32⟩
  | 3 => ⟨S1x100x100, .f32⟩
  | 4 => ⟨S100x100, .f32⟩
  | 5 => ⟨S65536x100, .f32⟩
  | 6 => ⟨S1x100, .f32⟩
  | 7 => ⟨S100, .f32⟩
  | 8 => ⟨S1x100, .f32⟩
  | 9 => ⟨S65536x100, .f32⟩
  | 10 => ⟨S65536x100, .f32⟩
  | 11 => ⟨S_, .f32⟩
  | 12 => ⟨S65536x100, .f32⟩
  | 13 => ⟨S65536x100, .f32⟩
  | 14 => ⟨S1x100x64, .f32⟩
  | 15 => ⟨S100x64, .f32⟩
  | 16 => ⟨S65536x64, .f32⟩
  | 17 => ⟨S1x64, .f32⟩
  | 18 => ⟨S64, .f32⟩
  | 19 => ⟨S1x64, .f32⟩
  | 20 => ⟨S65536x64, .f32⟩
  | 21 => ⟨S65536x64, .f32⟩
  | 22 => ⟨S65536x8x8, .f32⟩
  | 23 => ⟨S65536x1x8, .f32⟩
  | 24 => ⟨S65536x16, .f32⟩
  | 25 => ⟨S1x16x100, .f32⟩
  | 26 => ⟨S16x100, .f32⟩
  | 27 => ⟨S65536x100, .f32⟩
  | 28 => ⟨S1x100, .f32⟩
  | 29 => ⟨S100, .f32⟩
  | 30 => ⟨S1x100, .f32⟩
  | 31 => ⟨S65536x100, .f32⟩
  | 32 => ⟨S65536x100, .f32⟩
  | 33 => ⟨S_, .f32⟩
  | 34 => ⟨S65536x100, .f32⟩
  | 35 => ⟨S65536x100, .f32⟩
  | 36 => ⟨S1x100x100, .f32⟩
  | 37 => ⟨S100x100, .f32⟩
  | 38 => ⟨S65536x100, .f32⟩
  | 39 => ⟨S1x100, .f32⟩
  | 40 => ⟨S100, .f32⟩
  | 41 => ⟨S1x100, .f32⟩
  | 42 => ⟨S65536x100, .f32⟩
  | 43 => ⟨S65536x100, .f32⟩
  | 44 => ⟨S_, .f32⟩
  | 45 => ⟨S65536x100, .f32⟩
  | 46 => ⟨S65536x100, .f32⟩
  | 47 => ⟨S1x100x64, .f32⟩
  | 48 => ⟨S100x64, .f32⟩
  | 49 => ⟨S100x8, .f32⟩
  | 50 => ⟨S65536x8, .f32⟩
  | 51 => ⟨S1x64, .f32⟩
  | 52 => ⟨S64, .f32⟩
  | 53 => ⟨S8, .f32⟩
  | 54 => ⟨S1x8, .f32⟩
  | 55 => ⟨S65536x8, .f32⟩
  | 56 => ⟨S65536x8, .f32⟩
  | 57 => ⟨S65536x8x1, .f32⟩
  | 58 => ⟨S65536x1x1, .f32⟩
  | 59 => ⟨S65536x1, .f32⟩
  | _ => ⟨S65536x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_cst : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_0 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call2_cst : Ref sig .tc := ⟨.hbm, 67, rfl⟩
abbrev main_call2_v0 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call3_cst : Ref sig .tc := ⟨.hbm, 78, rfl⟩
abbrev main_call3_v0 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_call4_cst : Ref sig .tc := ⟨.hbm, 100, rfl⟩
abbrev main_call4_v0 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_call5_cst : Ref sig .tc := ⟨.hbm, 111, rfl⟩
abbrev main_call5_v0 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_call6_cst : Ref sig .tc := ⟨.hbm, 133, rfl⟩
abbrev main_call6_v0 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_call7_cst : Ref sig .tc := ⟨.hbm, 144, rfl⟩
abbrev main_call7_v0 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_call8_cst : Ref sig .tc := ⟨.hbm, 166, rfl⟩
abbrev main_call8_v0 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_call9_cst : Ref sig .tc := ⟨.hbm, 177, rfl⟩
abbrev main_call9_v0 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_call10_cst : Ref sig .tc := ⟨.hbm, 199, rfl⟩
abbrev main_call10_v0 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_call11_cst : Ref sig .tc := ⟨.hbm, 210, rfl⟩
abbrev main_call11_v0 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_call12_cst : Ref sig .tc := ⟨.hbm, 232, rfl⟩
abbrev main_call12_v0 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_call13_cst : Ref sig .tc := ⟨.hbm, 243, rfl⟩
abbrev main_call13_v0 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_call14_cst : Ref sig .tc := ⟨.hbm, 265, rfl⟩
abbrev main_call14_v0 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_call15_cst : Ref sig .tc := ⟨.hbm, 276, rfl⟩
abbrev main_call15_v0 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_call16_cst : Ref sig .tc := ⟨.hbm, 298, rfl⟩
abbrev main_call16_v0 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_call17_cst : Ref sig .tc := ⟨.hbm, 309, rfl⟩
abbrev main_call17_v0 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_call18_cst : Ref sig .tc := ⟨.hbm, 331, rfl⟩
abbrev main_call18_v0 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_call19_cst : Ref sig .tc := ⟨.hbm, 342, rfl⟩
abbrev main_call19_v0 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_v304 : Ref sig .tc := ⟨.hbm, 355, rfl⟩
abbrev main_v305 : Ref sig .tc := ⟨.hbm, 356, rfl⟩
abbrev main_v306 : Ref sig .tc := ⟨.hbm, 357, rfl⟩
abbrev main_v307 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_call20_cst : Ref sig .tc := ⟨.hbm, 364, rfl⟩
abbrev main_call20_v0 : Ref sig .tc := ⟨.hbm, 365, rfl⟩
abbrev main_v313 : Ref sig .tc := ⟨.hbm, 366, rfl⟩
abbrev main_v314 : Ref sig .tc := ⟨.hbm, 367, rfl⟩
abbrev main_v315 : Ref sig .tc := ⟨.hbm, 368, rfl⟩
abbrev main_v316 : Ref sig .tc := ⟨.hbm, 369, rfl⟩
abbrev main_v317 : Ref sig .tc := ⟨.hbm, 370, rfl⟩
abbrev main_v318 : Ref sig .tc := ⟨.hbm, 371, rfl⟩
abbrev main_v319 : Ref sig .tc := ⟨.hbm, 372, rfl⟩
abbrev main_v320 : Ref sig .tc := ⟨.hbm, 373, rfl⟩
abbrev main_v321 : Ref sig .tc := ⟨.hbm, 374, rfl⟩
abbrev main_call21_cst : Ref sig .tc := ⟨.hbm, 375, rfl⟩
abbrev main_call21_v0 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_call22_cst : Ref sig .tc := ⟨.hbm, 397, rfl⟩
abbrev main_call22_v0 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_call23_cst : Ref sig .tc := ⟨.hbm, 408, rfl⟩
abbrev main_call23_v0 : Ref sig .tc := ⟨.hbm, 409, rfl⟩
abbrev main_v351 : Ref sig .tc := ⟨.hbm, 410, rfl⟩
abbrev main_v352 : Ref sig .tc := ⟨.hbm, 411, rfl⟩
abbrev main_v353 : Ref sig .tc := ⟨.hbm, 412, rfl⟩
abbrev main_v354 : Ref sig .tc := ⟨.hbm, 413, rfl⟩
abbrev main_v355 : Ref sig .tc := ⟨.hbm, 414, rfl⟩
abbrev main_v356 : Ref sig .tc := ⟨.hbm, 415, rfl⟩
abbrev main_v357 : Ref sig .tc := ⟨.hbm, 416, rfl⟩
abbrev main_v358 : Ref sig .tc := ⟨.hbm, 417, rfl⟩
abbrev main_v359 : Ref sig .tc := ⟨.hbm, 418, rfl⟩
abbrev main_v360 : Ref sig .tc := ⟨.hbm, 419, rfl⟩
abbrev main_v361 : Ref sig .tc := ⟨.hbm, 420, rfl⟩
abbrev main_v362 : Ref sig .tc := ⟨.hbm, 421, rfl⟩
abbrev main_v363 : Ref sig .tc := ⟨.hbm, 422, rfl⟩
abbrev main_v364 : Ref sig .tc := ⟨.hbm, 423, rfl⟩
abbrev main_v365 : Ref sig .tc := ⟨.hbm, 424, rfl⟩
abbrev main_v366 : Ref sig .tc := ⟨.hbm, 425, rfl⟩
abbrev main_v367 : Ref sig .tc := ⟨.hbm, 426, rfl⟩
abbrev main_v368 : Ref sig .tc := ⟨.hbm, 427, rfl⟩
abbrev main_v369 : Ref sig .tc := ⟨.hbm, 428, rfl⟩
abbrev main_v370 : Ref sig .tc := ⟨.hbm, 429, rfl⟩
abbrev main_call24_cst : Ref sig .tc := ⟨.hbm, 430, rfl⟩
abbrev main_call24_v0 : Ref sig .tc := ⟨.hbm, 431, rfl⟩
abbrev main_v371 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_call25_cst : Ref sig .tc := ⟨.hbm, 441, rfl⟩
abbrev main_call25_v0 : Ref sig .tc := ⟨.hbm, 442, rfl⟩
abbrev main_v380 : Ref sig .tc := ⟨.hbm, 443, rfl⟩
abbrev main_v381 : Ref sig .tc := ⟨.hbm, 444, rfl⟩
abbrev main_v382 : Ref sig .tc := ⟨.hbm, 445, rfl⟩
abbrev main_v383 : Ref sig .tc := ⟨.hbm, 446, rfl⟩
abbrev main_v384 : Ref sig .tc := ⟨.hbm, 447, rfl⟩
abbrev main_v385 : Ref sig .tc := ⟨.hbm, 448, rfl⟩
abbrev main_v386 : Ref sig .tc := ⟨.hbm, 449, rfl⟩
abbrev main_v387 : Ref sig .tc := ⟨.hbm, 450, rfl⟩
abbrev main_v388 : Ref sig .tc := ⟨.hbm, 451, rfl⟩
abbrev main_v389 : Ref sig .tc := ⟨.hbm, 452, rfl⟩
abbrev main_v390 : Ref sig .tc := ⟨.hbm, 453, rfl⟩
abbrev main_v391 : Ref sig .tc := ⟨.hbm, 454, rfl⟩
abbrev main_v392 : Ref sig .tc := ⟨.hbm, 455, rfl⟩
abbrev main_v393 : Ref sig .tc := ⟨.hbm, 456, rfl⟩
abbrev main_v394 : Ref sig .tc := ⟨.hbm, 457, rfl⟩
abbrev main_v395 : Ref sig .tc := ⟨.hbm, 458, rfl⟩
abbrev main_v396 : Ref sig .tc := ⟨.hbm, 459, rfl⟩
abbrev main_v397 : Ref sig .tc := ⟨.hbm, 460, rfl⟩
abbrev main_v398 : Ref sig .tc := ⟨.hbm, 461, rfl⟩
abbrev main_v399 : Ref sig .tc := ⟨.hbm, 462, rfl⟩
abbrev main_call26_cst : Ref sig .tc := ⟨.hbm, 463, rfl⟩
abbrev main_call26_v0 : Ref sig .tc := ⟨.hbm, 464, rfl⟩
abbrev main_v400 : Ref sig .tc := ⟨.hbm, 465, rfl⟩
abbrev main_v401 : Ref sig .tc := ⟨.hbm, 466, rfl⟩
abbrev main_v402 : Ref sig .tc := ⟨.hbm, 467, rfl⟩
abbrev main_v403 : Ref sig .tc := ⟨.hbm, 468, rfl⟩
abbrev main_v404 : Ref sig .tc := ⟨.hbm, 469, rfl⟩
abbrev main_v405 : Ref sig .tc := ⟨.hbm, 470, rfl⟩
abbrev main_v406 : Ref sig .tc := ⟨.hbm, 471, rfl⟩
abbrev main_v407 : Ref sig .tc := ⟨.hbm, 472, rfl⟩
abbrev main_v408 : Ref sig .tc := ⟨.hbm, 473, rfl⟩
abbrev main_call27_cst : Ref sig .tc := ⟨.hbm, 474, rfl⟩
abbrev main_call27_v0 : Ref sig .tc := ⟨.hbm, 475, rfl⟩
abbrev main_v409 : Ref sig .tc := ⟨.hbm, 476, rfl⟩
abbrev main_v410 : Ref sig .tc := ⟨.hbm, 477, rfl⟩
abbrev main_v411 : Ref sig .tc := ⟨.hbm, 478, rfl⟩
abbrev main_v412 : Ref sig .tc := ⟨.hbm, 479, rfl⟩
abbrev main_v413 : Ref sig .tc := ⟨.hbm, 480, rfl⟩
abbrev main_v414 : Ref sig .tc := ⟨.hbm, 481, rfl⟩
abbrev main_v415 : Ref sig .tc := ⟨.hbm, 482, rfl⟩
abbrev main_v416 : Ref sig .tc := ⟨.hbm, 483, rfl⟩
abbrev main_v417 : Ref sig .tc := ⟨.hbm, 484, rfl⟩
abbrev main_v418 : Ref sig .tc := ⟨.hbm, 485, rfl⟩
abbrev main_v419 : Ref sig .tc := ⟨.hbm, 486, rfl⟩
abbrev main_v420 : Ref sig .tc := ⟨.hbm, 487, rfl⟩
abbrev main_v421 : Ref sig .tc := ⟨.hbm, 488, rfl⟩
abbrev main_v422 : Ref sig .tc := ⟨.hbm, 489, rfl⟩
abbrev main_v423 : Ref sig .tc := ⟨.hbm, 490, rfl⟩
abbrev main_v424 : Ref sig .tc := ⟨.hbm, 491, rfl⟩
abbrev main_v425 : Ref sig .tc := ⟨.hbm, 492, rfl⟩
abbrev main_v426 : Ref sig .tc := ⟨.hbm, 493, rfl⟩
abbrev main_v427 : Ref sig .tc := ⟨.hbm, 494, rfl⟩
abbrev main_v428 : Ref sig .tc := ⟨.hbm, 495, rfl⟩
abbrev main_call28_cst : Ref sig .tc := ⟨.hbm, 496, rfl⟩
abbrev main_call28_v0 : Ref sig .tc := ⟨.hbm, 497, rfl⟩
abbrev main_v429 : Ref sig .tc := ⟨.hbm, 498, rfl⟩
abbrev main_v430 : Ref sig .tc := ⟨.hbm, 499, rfl⟩
abbrev main_v431 : Ref sig .tc := ⟨.hbm, 500, rfl⟩
abbrev main_v432 : Ref sig .tc := ⟨.hbm, 501, rfl⟩
abbrev main_v433 : Ref sig .tc := ⟨.hbm, 502, rfl⟩
abbrev main_v434 : Ref sig .tc := ⟨.hbm, 503, rfl⟩
abbrev main_v435 : Ref sig .tc := ⟨.hbm, 504, rfl⟩
abbrev main_v436 : Ref sig .tc := ⟨.hbm, 505, rfl⟩
abbrev main_v437 : Ref sig .tc := ⟨.hbm, 506, rfl⟩
abbrev main_call29_cst : Ref sig .tc := ⟨.hbm, 507, rfl⟩
abbrev main_call29_v0 : Ref sig .tc := ⟨.hbm, 508, rfl⟩
abbrev main_v438 : Ref sig .tc := ⟨.hbm, 509, rfl⟩
abbrev main_v439 : Ref sig .tc := ⟨.hbm, 510, rfl⟩
abbrev main_v440 : Ref sig .tc := ⟨.hbm, 511, rfl⟩
abbrev main_v441 : Ref sig .tc := ⟨.hbm, 512, rfl⟩
abbrev main_v442 : Ref sig .tc := ⟨.hbm, 513, rfl⟩
abbrev main_v443 : Ref sig .tc := ⟨.hbm, 514, rfl⟩
abbrev main_v444 : Ref sig .tc := ⟨.hbm, 515, rfl⟩
abbrev main_v445 : Ref sig .tc := ⟨.hbm, 516, rfl⟩
abbrev main_v446 : Ref sig .tc := ⟨.hbm, 517, rfl⟩
abbrev main_v447 : Ref sig .tc := ⟨.hbm, 518, rfl⟩
abbrev main_v448 : Ref sig .tc := ⟨.hbm, 519, rfl⟩
abbrev main_v449 : Ref sig .tc := ⟨.hbm, 520, rfl⟩
abbrev main_v450 : Ref sig .tc := ⟨.hbm, 521, rfl⟩
abbrev main_v451 : Ref sig .tc := ⟨.hbm, 522, rfl⟩
abbrev main_v452 : Ref sig .tc := ⟨.hbm, 523, rfl⟩
abbrev main_v453 : Ref sig .tc := ⟨.hbm, 524, rfl⟩
abbrev main_v454 : Ref sig .tc := ⟨.hbm, 525, rfl⟩
abbrev main_v455 : Ref sig .tc := ⟨.hbm, 526, rfl⟩
abbrev main_v456 : Ref sig .tc := ⟨.hbm, 527, rfl⟩
abbrev main_v457 : Ref sig .tc := ⟨.hbm, 528, rfl⟩
abbrev main_call30_cst : Ref sig .tc := ⟨.hbm, 529, rfl⟩
abbrev main_call30_v0 : Ref sig .tc := ⟨.hbm, 530, rfl⟩
abbrev main_v458 : Ref sig .tc := ⟨.hbm, 531, rfl⟩
abbrev main_v459 : Ref sig .tc := ⟨.hbm, 532, rfl⟩
abbrev main_v460 : Ref sig .tc := ⟨.hbm, 533, rfl⟩
abbrev main_v461 : Ref sig .tc := ⟨.hbm, 534, rfl⟩
abbrev main_v462 : Ref sig .tc := ⟨.hbm, 535, rfl⟩
abbrev main_v463 : Ref sig .tc := ⟨.hbm, 536, rfl⟩
abbrev main_v464 : Ref sig .tc := ⟨.hbm, 537, rfl⟩
abbrev main_v465 : Ref sig .tc := ⟨.hbm, 538, rfl⟩
abbrev main_v466 : Ref sig .tc := ⟨.hbm, 539, rfl⟩
abbrev main_call31_cst : Ref sig .tc := ⟨.hbm, 540, rfl⟩
abbrev main_call31_v0 : Ref sig .tc := ⟨.hbm, 541, rfl⟩
abbrev main_v467 : Ref sig .tc := ⟨.hbm, 542, rfl⟩
abbrev main_v468 : Ref sig .tc := ⟨.hbm, 543, rfl⟩
abbrev main_v469 : Ref sig .tc := ⟨.hbm, 544, rfl⟩
abbrev main_v470 : Ref sig .tc := ⟨.hbm, 545, rfl⟩
abbrev main_v471 : Ref sig .tc := ⟨.hbm, 546, rfl⟩
abbrev main_v472 : Ref sig .tc := ⟨.hbm, 547, rfl⟩
abbrev main_v473 : Ref sig .tc := ⟨.hbm, 548, rfl⟩
abbrev main_v474 : Ref sig .tc := ⟨.hbm, 549, rfl⟩
abbrev main_v475 : Ref sig .tc := ⟨.hbm, 550, rfl⟩
abbrev main_v476 : Ref sig .tc := ⟨.hbm, 551, rfl⟩
abbrev main_v477 : Ref sig .tc := ⟨.hbm, 552, rfl⟩
abbrev main_v478 : Ref sig .tc := ⟨.hbm, 553, rfl⟩
abbrev main_v479 : Ref sig .tc := ⟨.hbm, 554, rfl⟩
abbrev main_v480 : Ref sig .tc := ⟨.hbm, 555, rfl⟩
abbrev main_v481 : Ref sig .tc := ⟨.hbm, 556, rfl⟩
abbrev main_v482 : Ref sig .tc := ⟨.hbm, 557, rfl⟩
abbrev main_v483 : Ref sig .tc := ⟨.hbm, 558, rfl⟩
abbrev main_v484 : Ref sig .tc := ⟨.hbm, 559, rfl⟩
abbrev main_v485 : Ref sig .tc := ⟨.hbm, 560, rfl⟩
abbrev main_v486 : Ref sig .tc := ⟨.hbm, 561, rfl⟩
abbrev main_call32_cst : Ref sig .tc := ⟨.hbm, 562, rfl⟩
abbrev main_call32_v0 : Ref sig .tc := ⟨.hbm, 563, rfl⟩
abbrev main_v487 : Ref sig .tc := ⟨.hbm, 564, rfl⟩
abbrev main_v488 : Ref sig .tc := ⟨.hbm, 565, rfl⟩
abbrev main_v489 : Ref sig .tc := ⟨.hbm, 566, rfl⟩
abbrev main_v490 : Ref sig .tc := ⟨.hbm, 567, rfl⟩
abbrev main_v491 : Ref sig .tc := ⟨.hbm, 568, rfl⟩
abbrev main_v492 : Ref sig .tc := ⟨.hbm, 569, rfl⟩
abbrev main_v493 : Ref sig .tc := ⟨.hbm, 570, rfl⟩
abbrev main_v494 : Ref sig .tc := ⟨.hbm, 571, rfl⟩
abbrev main_v495 : Ref sig .tc := ⟨.hbm, 572, rfl⟩
abbrev main_call33_cst : Ref sig .tc := ⟨.hbm, 573, rfl⟩
abbrev main_call33_v0 : Ref sig .tc := ⟨.hbm, 574, rfl⟩
abbrev main_v496 : Ref sig .tc := ⟨.hbm, 575, rfl⟩
abbrev main_v497 : Ref sig .tc := ⟨.hbm, 576, rfl⟩
abbrev main_v498 : Ref sig .tc := ⟨.hbm, 577, rfl⟩
abbrev main_v499 : Ref sig .tc := ⟨.hbm, 578, rfl⟩
abbrev main_v500 : Ref sig .tc := ⟨.hbm, 579, rfl⟩
abbrev main_v501 : Ref sig .tc := ⟨.hbm, 580, rfl⟩
abbrev main_v502 : Ref sig .tc := ⟨.hbm, 581, rfl⟩
abbrev main_v503 : Ref sig .tc := ⟨.hbm, 582, rfl⟩
abbrev main_v504 : Ref sig .tc := ⟨.hbm, 583, rfl⟩
abbrev main_v505 : Ref sig .tc := ⟨.hbm, 584, rfl⟩
abbrev main_v506 : Ref sig .tc := ⟨.hbm, 585, rfl⟩
abbrev main_v507 : Ref sig .tc := ⟨.hbm, 586, rfl⟩
abbrev main_v508 : Ref sig .tc := ⟨.hbm, 587, rfl⟩
abbrev main_v509 : Ref sig .tc := ⟨.hbm, 588, rfl⟩
abbrev main_v510 : Ref sig .tc := ⟨.hbm, 589, rfl⟩
abbrev main_v511 : Ref sig .tc := ⟨.hbm, 590, rfl⟩
abbrev main_v512 : Ref sig .tc := ⟨.hbm, 591, rfl⟩
abbrev main_v513 : Ref sig .tc := ⟨.hbm, 592, rfl⟩
abbrev main_v514 : Ref sig .tc := ⟨.hbm, 593, rfl⟩
abbrev main_v515 : Ref sig .tc := ⟨.hbm, 594, rfl⟩
abbrev main_call34_cst : Ref sig .tc := ⟨.hbm, 595, rfl⟩
abbrev main_call34_v0 : Ref sig .tc := ⟨.hbm, 596, rfl⟩
abbrev main_v516 : Ref sig .tc := ⟨.hbm, 597, rfl⟩
abbrev main_v517 : Ref sig .tc := ⟨.hbm, 598, rfl⟩
abbrev main_v518 : Ref sig .tc := ⟨.hbm, 599, rfl⟩
abbrev main_v519 : Ref sig .tc := ⟨.hbm, 600, rfl⟩
abbrev main_v520 : Ref sig .tc := ⟨.hbm, 601, rfl⟩
abbrev main_v521 : Ref sig .tc := ⟨.hbm, 602, rfl⟩
abbrev main_v522 : Ref sig .tc := ⟨.hbm, 603, rfl⟩
abbrev main_v523 : Ref sig .tc := ⟨.hbm, 604, rfl⟩
abbrev main_v524 : Ref sig .tc := ⟨.hbm, 605, rfl⟩
abbrev main_call35_cst : Ref sig .tc := ⟨.hbm, 606, rfl⟩
abbrev main_call35_v0 : Ref sig .tc := ⟨.hbm, 607, rfl⟩
abbrev main_v525 : Ref sig .tc := ⟨.hbm, 608, rfl⟩
abbrev main_v526 : Ref sig .tc := ⟨.hbm, 609, rfl⟩
abbrev main_v527 : Ref sig .tc := ⟨.hbm, 610, rfl⟩
abbrev main_v528 : Ref sig .tc := ⟨.hbm, 611, rfl⟩
abbrev main_v529 : Ref sig .tc := ⟨.hbm, 612, rfl⟩
abbrev main_v530 : Ref sig .tc := ⟨.hbm, 613, rfl⟩
abbrev main_v531 : Ref sig .tc := ⟨.hbm, 614, rfl⟩
abbrev main_v532 : Ref sig .tc := ⟨.hbm, 615, rfl⟩
abbrev main_v533 : Ref sig .tc := ⟨.hbm, 616, rfl⟩
abbrev main_v534 : Ref sig .tc := ⟨.hbm, 617, rfl⟩
abbrev main_v535 : Ref sig .tc := ⟨.hbm, 618, rfl⟩
abbrev main_v536 : Ref sig .tc := ⟨.hbm, 619, rfl⟩
abbrev main_v537 : Ref sig .tc := ⟨.hbm, 620, rfl⟩
abbrev main_v538 : Ref sig .tc := ⟨.hbm, 621, rfl⟩
abbrev main_v539 : Ref sig .tc := ⟨.hbm, 622, rfl⟩
abbrev main_v540 : Ref sig .tc := ⟨.hbm, 623, rfl⟩
abbrev main_v541 : Ref sig .tc := ⟨.hbm, 624, rfl⟩
abbrev main_v542 : Ref sig .tc := ⟨.hbm, 625, rfl⟩
abbrev main_v543 : Ref sig .tc := ⟨.hbm, 626, rfl⟩
abbrev main_v544 : Ref sig .tc := ⟨.hbm, 627, rfl⟩
abbrev main_call36_cst : Ref sig .tc := ⟨.hbm, 628, rfl⟩
abbrev main_call36_v0 : Ref sig .tc := ⟨.hbm, 629, rfl⟩
abbrev main_v545 : Ref sig .tc := ⟨.hbm, 630, rfl⟩
abbrev main_v546 : Ref sig .tc := ⟨.hbm, 631, rfl⟩
abbrev main_v547 : Ref sig .tc := ⟨.hbm, 632, rfl⟩
abbrev main_v548 : Ref sig .tc := ⟨.hbm, 633, rfl⟩
abbrev main_v549 : Ref sig .tc := ⟨.hbm, 634, rfl⟩
abbrev main_v550 : Ref sig .tc := ⟨.hbm, 635, rfl⟩
abbrev main_v551 : Ref sig .tc := ⟨.hbm, 636, rfl⟩
abbrev main_v552 : Ref sig .tc := ⟨.hbm, 637, rfl⟩
abbrev main_v553 : Ref sig .tc := ⟨.hbm, 638, rfl⟩
abbrev main_call37_cst : Ref sig .tc := ⟨.hbm, 639, rfl⟩
abbrev main_call37_v0 : Ref sig .tc := ⟨.hbm, 640, rfl⟩
abbrev main_v554 : Ref sig .tc := ⟨.hbm, 641, rfl⟩
abbrev main_v555 : Ref sig .tc := ⟨.hbm, 642, rfl⟩
abbrev main_v556 : Ref sig .tc := ⟨.hbm, 643, rfl⟩
abbrev main_v557 : Ref sig .tc := ⟨.hbm, 644, rfl⟩
abbrev main_v558 : Ref sig .tc := ⟨.hbm, 645, rfl⟩
abbrev main_v559 : Ref sig .tc := ⟨.hbm, 646, rfl⟩
abbrev main_v560 : Ref sig .tc := ⟨.hbm, 647, rfl⟩
abbrev main_v561 : Ref sig .tc := ⟨.hbm, 648, rfl⟩
abbrev main_v562 : Ref sig .tc := ⟨.hbm, 649, rfl⟩
abbrev main_v563 : Ref sig .tc := ⟨.hbm, 650, rfl⟩
abbrev main_v564 : Ref sig .tc := ⟨.hbm, 651, rfl⟩
abbrev main_v565 : Ref sig .tc := ⟨.hbm, 652, rfl⟩
abbrev main_v566 : Ref sig .tc := ⟨.hbm, 653, rfl⟩
abbrev main_v567 : Ref sig .tc := ⟨.hbm, 654, rfl⟩
abbrev main_v568 : Ref sig .tc := ⟨.hbm, 655, rfl⟩
abbrev main_v569 : Ref sig .tc := ⟨.hbm, 656, rfl⟩
abbrev main_v570 : Ref sig .tc := ⟨.hbm, 657, rfl⟩
abbrev main_v571 : Ref sig .tc := ⟨.hbm, 658, rfl⟩
abbrev main_v572 : Ref sig .tc := ⟨.hbm, 659, rfl⟩
abbrev main_v573 : Ref sig .tc := ⟨.hbm, 660, rfl⟩
abbrev main_call38_cst : Ref sig .tc := ⟨.hbm, 661, rfl⟩
abbrev main_call38_v0 : Ref sig .tc := ⟨.hbm, 662, rfl⟩
abbrev main_v574 : Ref sig .tc := ⟨.hbm, 663, rfl⟩
abbrev main_v575 : Ref sig .tc := ⟨.hbm, 664, rfl⟩
abbrev main_v576 : Ref sig .tc := ⟨.hbm, 665, rfl⟩
abbrev main_v577 : Ref sig .tc := ⟨.hbm, 666, rfl⟩
abbrev main_v578 : Ref sig .tc := ⟨.hbm, 667, rfl⟩
abbrev main_v579 : Ref sig .tc := ⟨.hbm, 668, rfl⟩
abbrev main_v580 : Ref sig .tc := ⟨.hbm, 669, rfl⟩
abbrev main_v581 : Ref sig .tc := ⟨.hbm, 670, rfl⟩
abbrev main_v582 : Ref sig .tc := ⟨.hbm, 671, rfl⟩
abbrev main_call39_cst : Ref sig .tc := ⟨.hbm, 672, rfl⟩
abbrev main_call39_v0 : Ref sig .tc := ⟨.hbm, 673, rfl⟩
abbrev main_v583 : Ref sig .tc := ⟨.hbm, 674, rfl⟩
abbrev main_v584 : Ref sig .tc := ⟨.hbm, 675, rfl⟩
abbrev main_v585 : Ref sig .tc := ⟨.hbm, 676, rfl⟩
abbrev main_v586 : Ref sig .tc := ⟨.hbm, 677, rfl⟩
abbrev main_v587 : Ref sig .tc := ⟨.hbm, 678, rfl⟩
abbrev main_v588 : Ref sig .tc := ⟨.hbm, 679, rfl⟩
abbrev main_v589 : Ref sig .tc := ⟨.hbm, 680, rfl⟩
abbrev main_v590 : Ref sig .tc := ⟨.hbm, 681, rfl⟩
abbrev main_v591 : Ref sig .tc := ⟨.hbm, 682, rfl⟩
abbrev main_v592 : Ref sig .tc := ⟨.hbm, 683, rfl⟩
abbrev main_v593 : Ref sig .tc := ⟨.hbm, 684, rfl⟩
abbrev main_v594 : Ref sig .tc := ⟨.hbm, 685, rfl⟩
abbrev main_v595 : Ref sig .tc := ⟨.hbm, 686, rfl⟩
abbrev main_v596 : Ref sig .tc := ⟨.hbm, 687, rfl⟩
abbrev main_v597 : Ref sig .tc := ⟨.hbm, 688, rfl⟩
abbrev main_v598 : Ref sig .tc := ⟨.hbm, 689, rfl⟩
abbrev main_v599 : Ref sig .tc := ⟨.hbm, 690, rfl⟩
abbrev main_v600 : Ref sig .tc := ⟨.hbm, 691, rfl⟩
abbrev main_v601 : Ref sig .tc := ⟨.hbm, 692, rfl⟩
abbrev main_v602 : Ref sig .tc := ⟨.hbm, 693, rfl⟩
abbrev main_call40_cst : Ref sig .tc := ⟨.hbm, 694, rfl⟩
abbrev main_call40_v0 : Ref sig .tc := ⟨.hbm, 695, rfl⟩
abbrev main_v603 : Ref sig .tc := ⟨.hbm, 696, rfl⟩
abbrev main_v604 : Ref sig .tc := ⟨.hbm, 697, rfl⟩
abbrev main_v605 : Ref sig .tc := ⟨.hbm, 698, rfl⟩
abbrev main_v606 : Ref sig .tc := ⟨.hbm, 699, rfl⟩
abbrev main_v607 : Ref sig .tc := ⟨.hbm, 700, rfl⟩
abbrev main_v608 : Ref sig .tc := ⟨.hbm, 701, rfl⟩
abbrev main_v609 : Ref sig .tc := ⟨.hbm, 702, rfl⟩
abbrev main_v610 : Ref sig .tc := ⟨.hbm, 703, rfl⟩
abbrev main_v611 : Ref sig .tc := ⟨.hbm, 704, rfl⟩
abbrev main_call41_cst : Ref sig .tc := ⟨.hbm, 705, rfl⟩
abbrev main_call41_v0 : Ref sig .tc := ⟨.hbm, 706, rfl⟩
abbrev main_v612 : Ref sig .tc := ⟨.hbm, 707, rfl⟩
abbrev main_v613 : Ref sig .tc := ⟨.hbm, 708, rfl⟩
abbrev main_v614 : Ref sig .tc := ⟨.hbm, 709, rfl⟩
abbrev main_v615 : Ref sig .tc := ⟨.hbm, 710, rfl⟩
abbrev main_v616 : Ref sig .tc := ⟨.hbm, 711, rfl⟩
abbrev main_v617 : Ref sig .tc := ⟨.hbm, 712, rfl⟩
abbrev main_v618 : Ref sig .tc := ⟨.hbm, 713, rfl⟩
abbrev main_v619 : Ref sig .tc := ⟨.hbm, 714, rfl⟩
abbrev main_v620 : Ref sig .tc := ⟨.hbm, 715, rfl⟩
abbrev main_v621 : Ref sig .tc := ⟨.hbm, 716, rfl⟩
abbrev main_v622 : Ref sig .tc := ⟨.hbm, 717, rfl⟩
abbrev main_v623 : Ref sig .tc := ⟨.hbm, 718, rfl⟩
abbrev main_v624 : Ref sig .tc := ⟨.hbm, 719, rfl⟩
abbrev main_v625 : Ref sig .tc := ⟨.hbm, 720, rfl⟩
abbrev main_v626 : Ref sig .tc := ⟨.hbm, 721, rfl⟩
abbrev main_v627 : Ref sig .tc := ⟨.hbm, 722, rfl⟩
abbrev main_v628 : Ref sig .tc := ⟨.hbm, 723, rfl⟩
abbrev main_v629 : Ref sig .tc := ⟨.hbm, 724, rfl⟩
abbrev main_v630 : Ref sig .tc := ⟨.hbm, 725, rfl⟩
abbrev main_v631 : Ref sig .tc := ⟨.hbm, 726, rfl⟩
abbrev main_call42_cst : Ref sig .tc := ⟨.hbm, 727, rfl⟩
abbrev main_call42_v0 : Ref sig .tc := ⟨.hbm, 728, rfl⟩
abbrev main_v632 : Ref sig .tc := ⟨.hbm, 729, rfl⟩
abbrev main_v633 : Ref sig .tc := ⟨.hbm, 730, rfl⟩
abbrev main_v634 : Ref sig .tc := ⟨.hbm, 731, rfl⟩
abbrev main_v635 : Ref sig .tc := ⟨.hbm, 732, rfl⟩
abbrev main_v636 : Ref sig .tc := ⟨.hbm, 733, rfl⟩
abbrev main_v637 : Ref sig .tc := ⟨.hbm, 734, rfl⟩
abbrev main_v638 : Ref sig .tc := ⟨.hbm, 735, rfl⟩
abbrev main_v639 : Ref sig .tc := ⟨.hbm, 736, rfl⟩
abbrev main_v640 : Ref sig .tc := ⟨.hbm, 737, rfl⟩
abbrev main_call43_cst : Ref sig .tc := ⟨.hbm, 738, rfl⟩
abbrev main_call43_v0 : Ref sig .tc := ⟨.hbm, 739, rfl⟩
abbrev main_v641 : Ref sig .tc := ⟨.hbm, 740, rfl⟩
abbrev main_v642 : Ref sig .tc := ⟨.hbm, 741, rfl⟩
abbrev main_v643 : Ref sig .tc := ⟨.hbm, 742, rfl⟩
abbrev main_v644 : Ref sig .tc := ⟨.hbm, 743, rfl⟩
abbrev main_v645 : Ref sig .tc := ⟨.hbm, 744, rfl⟩
abbrev main_v646 : Ref sig .tc := ⟨.hbm, 745, rfl⟩
abbrev main_v647 : Ref sig .tc := ⟨.hbm, 746, rfl⟩
abbrev main_v648 : Ref sig .tc := ⟨.hbm, 747, rfl⟩
abbrev main_v649 : Ref sig .tc := ⟨.hbm, 748, rfl⟩
abbrev main_v650 : Ref sig .tc := ⟨.hbm, 749, rfl⟩
abbrev main_v651 : Ref sig .tc := ⟨.hbm, 750, rfl⟩
abbrev main_v652 : Ref sig .tc := ⟨.hbm, 751, rfl⟩
abbrev main_v653 : Ref sig .tc := ⟨.hbm, 752, rfl⟩
abbrev main_v654 : Ref sig .tc := ⟨.hbm, 753, rfl⟩
abbrev main_v655 : Ref sig .tc := ⟨.hbm, 754, rfl⟩
abbrev main_v656 : Ref sig .tc := ⟨.hbm, 755, rfl⟩
abbrev main_v657 : Ref sig .tc := ⟨.hbm, 756, rfl⟩
abbrev main_v658 : Ref sig .tc := ⟨.hbm, 757, rfl⟩
abbrev main_v659 : Ref sig .tc := ⟨.hbm, 758, rfl⟩
abbrev main_v660 : Ref sig .tc := ⟨.hbm, 759, rfl⟩
abbrev main_call44_cst : Ref sig .tc := ⟨.hbm, 760, rfl⟩
abbrev main_call44_v0 : Ref sig .tc := ⟨.hbm, 761, rfl⟩
abbrev main_v661 : Ref sig .tc := ⟨.hbm, 762, rfl⟩
abbrev main_v662 : Ref sig .tc := ⟨.hbm, 763, rfl⟩
abbrev main_v663 : Ref sig .tc := ⟨.hbm, 764, rfl⟩
abbrev main_v664 : Ref sig .tc := ⟨.hbm, 765, rfl⟩
abbrev main_v665 : Ref sig .tc := ⟨.hbm, 766, rfl⟩
abbrev main_v666 : Ref sig .tc := ⟨.hbm, 767, rfl⟩
abbrev main_v667 : Ref sig .tc := ⟨.hbm, 768, rfl⟩
abbrev main_v668 : Ref sig .tc := ⟨.hbm, 769, rfl⟩
abbrev main_v669 : Ref sig .tc := ⟨.hbm, 770, rfl⟩
abbrev main_call45_cst : Ref sig .tc := ⟨.hbm, 771, rfl⟩
abbrev main_call45_v0 : Ref sig .tc := ⟨.hbm, 772, rfl⟩
abbrev main_v670 : Ref sig .tc := ⟨.hbm, 773, rfl⟩
abbrev main_v671 : Ref sig .tc := ⟨.hbm, 774, rfl⟩
abbrev main_v672 : Ref sig .tc := ⟨.hbm, 775, rfl⟩
abbrev main_v673 : Ref sig .tc := ⟨.hbm, 776, rfl⟩
abbrev main_v674 : Ref sig .tc := ⟨.hbm, 777, rfl⟩
abbrev main_v675 : Ref sig .tc := ⟨.hbm, 778, rfl⟩
abbrev main_v676 : Ref sig .tc := ⟨.hbm, 779, rfl⟩
abbrev main_v677 : Ref sig .tc := ⟨.hbm, 780, rfl⟩
abbrev main_v678 : Ref sig .tc := ⟨.hbm, 781, rfl⟩
abbrev main_v679 : Ref sig .tc := ⟨.hbm, 782, rfl⟩
abbrev main_v680 : Ref sig .tc := ⟨.hbm, 783, rfl⟩
abbrev main_v681 : Ref sig .tc := ⟨.hbm, 784, rfl⟩
abbrev main_v682 : Ref sig .tc := ⟨.hbm, 785, rfl⟩
abbrev main_v683 : Ref sig .tc := ⟨.hbm, 786, rfl⟩
abbrev main_v684 : Ref sig .tc := ⟨.hbm, 787, rfl⟩
abbrev main_v685 : Ref sig .tc := ⟨.hbm, 788, rfl⟩
abbrev main_v686 : Ref sig .tc := ⟨.hbm, 789, rfl⟩
abbrev main_v687 : Ref sig .tc := ⟨.hbm, 790, rfl⟩
abbrev main_v688 : Ref sig .tc := ⟨.hbm, 791, rfl⟩
abbrev main_v689 : Ref sig .tc := ⟨.hbm, 792, rfl⟩
abbrev main_call46_cst : Ref sig .tc := ⟨.hbm, 793, rfl⟩
abbrev main_call46_v0 : Ref sig .tc := ⟨.hbm, 794, rfl⟩
abbrev main_v690 : Ref sig .tc := ⟨.hbm, 795, rfl⟩
abbrev main_v691 : Ref sig .tc := ⟨.hbm, 796, rfl⟩
abbrev main_v692 : Ref sig .tc := ⟨.hbm, 797, rfl⟩
abbrev main_v693 : Ref sig .tc := ⟨.hbm, 798, rfl⟩
abbrev main_v694 : Ref sig .tc := ⟨.hbm, 799, rfl⟩
abbrev main_v695 : Ref sig .tc := ⟨.hbm, 800, rfl⟩
abbrev main_v696 : Ref sig .tc := ⟨.hbm, 801, rfl⟩
abbrev main_v697 : Ref sig .tc := ⟨.hbm, 802, rfl⟩
abbrev main_v698 : Ref sig .tc := ⟨.hbm, 803, rfl⟩
abbrev main_call47_cst : Ref sig .tc := ⟨.hbm, 804, rfl⟩
abbrev main_call47_v0 : Ref sig .tc := ⟨.hbm, 805, rfl⟩
abbrev main_v699 : Ref sig .tc := ⟨.hbm, 806, rfl⟩
abbrev main_v700 : Ref sig .tc := ⟨.hbm, 807, rfl⟩
abbrev main_v701 : Ref sig .tc := ⟨.hbm, 808, rfl⟩
abbrev main_v702 : Ref sig .tc := ⟨.hbm, 809, rfl⟩
abbrev main_v703 : Ref sig .tc := ⟨.hbm, 810, rfl⟩
abbrev main_v704 : Ref sig .tc := ⟨.hbm, 811, rfl⟩
abbrev main_v705 : Ref sig .tc := ⟨.hbm, 812, rfl⟩
abbrev main_v706 : Ref sig .tc := ⟨.hbm, 813, rfl⟩
abbrev main_v707 : Ref sig .tc := ⟨.hbm, 814, rfl⟩
abbrev main_v708 : Ref sig .tc := ⟨.hbm, 815, rfl⟩
abbrev main_v709 : Ref sig .tc := ⟨.hbm, 816, rfl⟩
abbrev main_v710 : Ref sig .tc := ⟨.hbm, 817, rfl⟩
abbrev main_v711 : Ref sig .tc := ⟨.hbm, 818, rfl⟩
abbrev main_v712 : Ref sig .tc := ⟨.hbm, 819, rfl⟩
abbrev main_v713 : Ref sig .tc := ⟨.hbm, 820, rfl⟩
abbrev main_v714 : Ref sig .tc := ⟨.hbm, 821, rfl⟩
abbrev main_v715 : Ref sig .tc := ⟨.hbm, 822, rfl⟩
abbrev main_v716 : Ref sig .tc := ⟨.hbm, 823, rfl⟩
abbrev main_v717 : Ref sig .tc := ⟨.hbm, 824, rfl⟩
abbrev main_v718 : Ref sig .tc := ⟨.hbm, 825, rfl⟩
abbrev main_call48_cst : Ref sig .tc := ⟨.hbm, 826, rfl⟩
abbrev main_call48_v0 : Ref sig .tc := ⟨.hbm, 827, rfl⟩
abbrev main_v719 : Ref sig .tc := ⟨.hbm, 828, rfl⟩
abbrev main_v720 : Ref sig .tc := ⟨.hbm, 829, rfl⟩
abbrev main_v721 : Ref sig .tc := ⟨.hbm, 830, rfl⟩
abbrev main_v722 : Ref sig .tc := ⟨.hbm, 831, rfl⟩
abbrev main_v723 : Ref sig .tc := ⟨.hbm, 832, rfl⟩
abbrev main_v724 : Ref sig .tc := ⟨.hbm, 833, rfl⟩
abbrev main_v725 : Ref sig .tc := ⟨.hbm, 834, rfl⟩
abbrev main_v726 : Ref sig .tc := ⟨.hbm, 835, rfl⟩
abbrev main_v727 : Ref sig .tc := ⟨.hbm, 836, rfl⟩
abbrev main_call49_cst : Ref sig .tc := ⟨.hbm, 837, rfl⟩
abbrev main_call49_v0 : Ref sig .tc := ⟨.hbm, 838, rfl⟩
abbrev main_v728 : Ref sig .tc := ⟨.hbm, 839, rfl⟩
abbrev main_v729 : Ref sig .tc := ⟨.hbm, 840, rfl⟩
abbrev main_v730 : Ref sig .tc := ⟨.hbm, 841, rfl⟩
abbrev main_v731 : Ref sig .tc := ⟨.hbm, 842, rfl⟩
abbrev main_v732 : Ref sig .tc := ⟨.hbm, 843, rfl⟩
abbrev main_v733 : Ref sig .tc := ⟨.hbm, 844, rfl⟩
abbrev main_v734 : Ref sig .tc := ⟨.hbm, 845, rfl⟩
abbrev main_v735 : Ref sig .tc := ⟨.hbm, 846, rfl⟩
abbrev main_v736 : Ref sig .tc := ⟨.hbm, 847, rfl⟩
abbrev main_v737 : Ref sig .tc := ⟨.hbm, 848, rfl⟩
abbrev main_v738 : Ref sig .tc := ⟨.hbm, 849, rfl⟩
abbrev main_v739 : Ref sig .tc := ⟨.hbm, 850, rfl⟩
abbrev main_v740 : Ref sig .tc := ⟨.hbm, 851, rfl⟩
abbrev main_v741 : Ref sig .tc := ⟨.hbm, 852, rfl⟩
abbrev main_v742 : Ref sig .tc := ⟨.hbm, 853, rfl⟩
abbrev main_v743 : Ref sig .tc := ⟨.hbm, 854, rfl⟩
abbrev main_v744 : Ref sig .tc := ⟨.hbm, 855, rfl⟩
abbrev main_v745 : Ref sig .tc := ⟨.hbm, 856, rfl⟩
abbrev main_v746 : Ref sig .tc := ⟨.hbm, 857, rfl⟩
abbrev main_v747 : Ref sig .tc := ⟨.hbm, 858, rfl⟩
abbrev main_call50_cst : Ref sig .tc := ⟨.hbm, 859, rfl⟩
abbrev main_call50_v0 : Ref sig .tc := ⟨.hbm, 860, rfl⟩
abbrev main_v748 : Ref sig .tc := ⟨.hbm, 861, rfl⟩
abbrev main_v749 : Ref sig .tc := ⟨.hbm, 862, rfl⟩
abbrev main_v750 : Ref sig .tc := ⟨.hbm, 863, rfl⟩
abbrev main_v751 : Ref sig .tc := ⟨.hbm, 864, rfl⟩
abbrev main_v752 : Ref sig .tc := ⟨.hbm, 865, rfl⟩
abbrev main_v753 : Ref sig .tc := ⟨.hbm, 866, rfl⟩
abbrev main_v754 : Ref sig .tc := ⟨.hbm, 867, rfl⟩
abbrev main_v755 : Ref sig .tc := ⟨.hbm, 868, rfl⟩
abbrev main_v756 : Ref sig .tc := ⟨.hbm, 869, rfl⟩
abbrev main_call51_cst : Ref sig .tc := ⟨.hbm, 870, rfl⟩
abbrev main_call51_v0 : Ref sig .tc := ⟨.hbm, 871, rfl⟩
abbrev main_v757 : Ref sig .tc := ⟨.hbm, 872, rfl⟩
abbrev main_v758 : Ref sig .tc := ⟨.hbm, 873, rfl⟩
abbrev main_v759 : Ref sig .tc := ⟨.hbm, 874, rfl⟩
abbrev main_v760 : Ref sig .tc := ⟨.hbm, 875, rfl⟩
abbrev main_v761 : Ref sig .tc := ⟨.hbm, 876, rfl⟩
abbrev main_v762 : Ref sig .tc := ⟨.hbm, 877, rfl⟩
abbrev main_v763 : Ref sig .tc := ⟨.hbm, 878, rfl⟩
abbrev main_v764 : Ref sig .tc := ⟨.hbm, 879, rfl⟩
abbrev main_v765 : Ref sig .tc := ⟨.hbm, 880, rfl⟩
abbrev main_v766 : Ref sig .tc := ⟨.hbm, 881, rfl⟩
abbrev main_v767 : Ref sig .tc := ⟨.hbm, 882, rfl⟩
abbrev main_v768 : Ref sig .tc := ⟨.hbm, 883, rfl⟩
abbrev main_v769 : Ref sig .tc := ⟨.hbm, 884, rfl⟩
abbrev main_v770 : Ref sig .tc := ⟨.hbm, 885, rfl⟩
abbrev main_v771 : Ref sig .tc := ⟨.hbm, 886, rfl⟩
abbrev main_v772 : Ref sig .tc := ⟨.hbm, 887, rfl⟩
abbrev main_v773 : Ref sig .tc := ⟨.hbm, 888, rfl⟩
abbrev main_v774 : Ref sig .tc := ⟨.hbm, 889, rfl⟩
abbrev main_v775 : Ref sig .tc := ⟨.hbm, 890, rfl⟩
abbrev main_v776 : Ref sig .tc := ⟨.hbm, 891, rfl⟩
abbrev main_call52_cst : Ref sig .tc := ⟨.hbm, 892, rfl⟩
abbrev main_call52_v0 : Ref sig .tc := ⟨.hbm, 893, rfl⟩
abbrev main_v777 : Ref sig .tc := ⟨.hbm, 894, rfl⟩
abbrev main_v778 : Ref sig .tc := ⟨.hbm, 895, rfl⟩
abbrev main_v779 : Ref sig .tc := ⟨.hbm, 896, rfl⟩
abbrev main_v780 : Ref sig .tc := ⟨.hbm, 897, rfl⟩
abbrev main_v781 : Ref sig .tc := ⟨.hbm, 898, rfl⟩
abbrev main_v782 : Ref sig .tc := ⟨.hbm, 899, rfl⟩
abbrev main_v783 : Ref sig .tc := ⟨.hbm, 900, rfl⟩
abbrev main_v784 : Ref sig .tc := ⟨.hbm, 901, rfl⟩
abbrev main_v785 : Ref sig .tc := ⟨.hbm, 902, rfl⟩
abbrev main_call53_cst : Ref sig .tc := ⟨.hbm, 903, rfl⟩
abbrev main_call53_v0 : Ref sig .tc := ⟨.hbm, 904, rfl⟩
abbrev main_v786 : Ref sig .tc := ⟨.hbm, 905, rfl⟩
abbrev main_v787 : Ref sig .tc := ⟨.hbm, 906, rfl⟩
abbrev main_v788 : Ref sig .tc := ⟨.hbm, 907, rfl⟩
abbrev main_v789 : Ref sig .tc := ⟨.hbm, 908, rfl⟩
abbrev main_v790 : Ref sig .tc := ⟨.hbm, 909, rfl⟩
abbrev main_v791 : Ref sig .tc := ⟨.hbm, 910, rfl⟩
abbrev main_v792 : Ref sig .tc := ⟨.hbm, 911, rfl⟩
abbrev main_v793 : Ref sig .tc := ⟨.hbm, 912, rfl⟩
abbrev main_v794 : Ref sig .tc := ⟨.hbm, 913, rfl⟩
abbrev main_v795 : Ref sig .tc := ⟨.hbm, 914, rfl⟩
abbrev main_v796 : Ref sig .tc := ⟨.hbm, 915, rfl⟩
abbrev main_v797 : Ref sig .tc := ⟨.hbm, 916, rfl⟩
abbrev main_v798 : Ref sig .tc := ⟨.hbm, 917, rfl⟩
abbrev main_v799 : Ref sig .tc := ⟨.hbm, 918, rfl⟩
abbrev main_v800 : Ref sig .tc := ⟨.hbm, 919, rfl⟩
abbrev main_v801 : Ref sig .tc := ⟨.hbm, 920, rfl⟩
abbrev main_v802 : Ref sig .tc := ⟨.hbm, 921, rfl⟩
abbrev main_v803 : Ref sig .tc := ⟨.hbm, 922, rfl⟩
abbrev main_v804 : Ref sig .tc := ⟨.hbm, 923, rfl⟩
abbrev main_v805 : Ref sig .tc := ⟨.hbm, 924, rfl⟩
abbrev main_call54_cst : Ref sig .tc := ⟨.hbm, 925, rfl⟩
abbrev main_call54_v0 : Ref sig .tc := ⟨.hbm, 926, rfl⟩
abbrev main_v806 : Ref sig .tc := ⟨.hbm, 927, rfl⟩
abbrev main_v807 : Ref sig .tc := ⟨.hbm, 928, rfl⟩
abbrev main_v808 : Ref sig .tc := ⟨.hbm, 929, rfl⟩
abbrev main_v809 : Ref sig .tc := ⟨.hbm, 930, rfl⟩
abbrev main_v810 : Ref sig .tc := ⟨.hbm, 931, rfl⟩
abbrev main_v811 : Ref sig .tc := ⟨.hbm, 932, rfl⟩
abbrev main_v812 : Ref sig .tc := ⟨.hbm, 933, rfl⟩
abbrev main_v813 : Ref sig .tc := ⟨.hbm, 934, rfl⟩
abbrev main_v814 : Ref sig .tc := ⟨.hbm, 935, rfl⟩
abbrev main_call55_cst : Ref sig .tc := ⟨.hbm, 936, rfl⟩
abbrev main_call55_v0 : Ref sig .tc := ⟨.hbm, 937, rfl⟩
abbrev main_v815 : Ref sig .tc := ⟨.hbm, 938, rfl⟩
abbrev main_v816 : Ref sig .tc := ⟨.hbm, 939, rfl⟩
abbrev main_v817 : Ref sig .tc := ⟨.hbm, 940, rfl⟩
abbrev main_v818 : Ref sig .tc := ⟨.hbm, 941, rfl⟩
abbrev main_v819 : Ref sig .tc := ⟨.hbm, 942, rfl⟩
abbrev main_v820 : Ref sig .tc := ⟨.hbm, 943, rfl⟩
abbrev main_v821 : Ref sig .tc := ⟨.hbm, 944, rfl⟩
abbrev main_v822 : Ref sig .tc := ⟨.hbm, 945, rfl⟩
abbrev main_v823 : Ref sig .tc := ⟨.hbm, 946, rfl⟩
abbrev main_v824 : Ref sig .tc := ⟨.hbm, 947, rfl⟩
abbrev main_v825 : Ref sig .tc := ⟨.hbm, 948, rfl⟩
abbrev main_v826 : Ref sig .tc := ⟨.hbm, 949, rfl⟩
abbrev main_v827 : Ref sig .tc := ⟨.hbm, 950, rfl⟩
abbrev main_v828 : Ref sig .tc := ⟨.hbm, 951, rfl⟩
abbrev main_v829 : Ref sig .tc := ⟨.hbm, 952, rfl⟩
abbrev main_v830 : Ref sig .tc := ⟨.hbm, 953, rfl⟩
abbrev main_v831 : Ref sig .tc := ⟨.hbm, 954, rfl⟩
abbrev main_v832 : Ref sig .tc := ⟨.hbm, 955, rfl⟩
abbrev main_v833 : Ref sig .tc := ⟨.hbm, 956, rfl⟩
abbrev main_v834 : Ref sig .tc := ⟨.hbm, 957, rfl⟩
abbrev main_call56_cst : Ref sig .tc := ⟨.hbm, 958, rfl⟩
abbrev main_call56_v0 : Ref sig .tc := ⟨.hbm, 959, rfl⟩
abbrev main_v835 : Ref sig .tc := ⟨.hbm, 960, rfl⟩
abbrev main_v836 : Ref sig .tc := ⟨.hbm, 961, rfl⟩
abbrev main_v837 : Ref sig .tc := ⟨.hbm, 962, rfl⟩
abbrev main_v838 : Ref sig .tc := ⟨.hbm, 963, rfl⟩
abbrev main_v839 : Ref sig .tc := ⟨.hbm, 964, rfl⟩
abbrev main_v840 : Ref sig .tc := ⟨.hbm, 965, rfl⟩
abbrev main_v841 : Ref sig .tc := ⟨.hbm, 966, rfl⟩
abbrev main_v842 : Ref sig .tc := ⟨.hbm, 967, rfl⟩
abbrev main_v843 : Ref sig .tc := ⟨.hbm, 968, rfl⟩
abbrev main_call57_cst : Ref sig .tc := ⟨.hbm, 969, rfl⟩
abbrev main_call57_v0 : Ref sig .tc := ⟨.hbm, 970, rfl⟩
abbrev main_v844 : Ref sig .tc := ⟨.hbm, 971, rfl⟩
abbrev main_v845 : Ref sig .tc := ⟨.hbm, 972, rfl⟩
abbrev main_v846 : Ref sig .tc := ⟨.hbm, 973, rfl⟩
abbrev main_v847 : Ref sig .tc := ⟨.hbm, 974, rfl⟩
abbrev main_v848 : Ref sig .tc := ⟨.hbm, 975, rfl⟩
abbrev main_v849 : Ref sig .tc := ⟨.hbm, 976, rfl⟩
abbrev main_v850 : Ref sig .tc := ⟨.hbm, 977, rfl⟩
abbrev main_v851 : Ref sig .tc := ⟨.hbm, 978, rfl⟩
abbrev main_v852 : Ref sig .tc := ⟨.hbm, 979, rfl⟩
abbrev main_v853 : Ref sig .tc := ⟨.hbm, 980, rfl⟩
abbrev main_v854 : Ref sig .tc := ⟨.hbm, 981, rfl⟩
abbrev main_v855 : Ref sig .tc := ⟨.hbm, 982, rfl⟩
abbrev main_v856 : Ref sig .tc := ⟨.hbm, 983, rfl⟩
abbrev main_v857 : Ref sig .tc := ⟨.hbm, 984, rfl⟩
abbrev main_v858 : Ref sig .tc := ⟨.hbm, 985, rfl⟩
abbrev main_v859 : Ref sig .tc := ⟨.hbm, 986, rfl⟩
abbrev main_v860 : Ref sig .tc := ⟨.hbm, 987, rfl⟩
abbrev main_v861 : Ref sig .tc := ⟨.hbm, 988, rfl⟩
abbrev main_v862 : Ref sig .tc := ⟨.hbm, 989, rfl⟩
abbrev main_v863 : Ref sig .tc := ⟨.hbm, 990, rfl⟩
abbrev main_call58_cst : Ref sig .tc := ⟨.hbm, 991, rfl⟩
abbrev main_call58_v0 : Ref sig .tc := ⟨.hbm, 992, rfl⟩
abbrev main_v864 : Ref sig .tc := ⟨.hbm, 993, rfl⟩
abbrev main_v865 : Ref sig .tc := ⟨.hbm, 994, rfl⟩
abbrev main_v866 : Ref sig .tc := ⟨.hbm, 995, rfl⟩
abbrev main_v867 : Ref sig .tc := ⟨.hbm, 996, rfl⟩
abbrev main_v868 : Ref sig .tc := ⟨.hbm, 997, rfl⟩
abbrev main_v869 : Ref sig .tc := ⟨.hbm, 998, rfl⟩
abbrev main_v870 : Ref sig .tc := ⟨.hbm, 999, rfl⟩
abbrev main_v871 : Ref sig .tc := ⟨.hbm, 1000, rfl⟩
abbrev main_v872 : Ref sig .tc := ⟨.hbm, 1001, rfl⟩
abbrev main_call59_cst : Ref sig .tc := ⟨.hbm, 1002, rfl⟩
abbrev main_call59_v0 : Ref sig .tc := ⟨.hbm, 1003, rfl⟩
abbrev main_v873 : Ref sig .tc := ⟨.hbm, 1004, rfl⟩
abbrev main_v874 : Ref sig .tc := ⟨.hbm, 1005, rfl⟩
abbrev main_v875 : Ref sig .tc := ⟨.hbm, 1006, rfl⟩
abbrev main_v876 : Ref sig .tc := ⟨.hbm, 1007, rfl⟩
abbrev main_v877 : Ref sig .tc := ⟨.hbm, 1008, rfl⟩
abbrev main_v878 : Ref sig .tc := ⟨.hbm, 1009, rfl⟩
abbrev main_v879 : Ref sig .tc := ⟨.hbm, 1010, rfl⟩
abbrev main_v880 : Ref sig .tc := ⟨.hbm, 1011, rfl⟩
abbrev main_v881 : Ref sig .tc := ⟨.hbm, 1012, rfl⟩
abbrev main_v882 : Ref sig .tc := ⟨.hbm, 1013, rfl⟩
abbrev main_v883 : Ref sig .tc := ⟨.hbm, 1014, rfl⟩
abbrev main_v884 : Ref sig .tc := ⟨.hbm, 1015, rfl⟩
abbrev main_v885 : Ref sig .tc := ⟨.hbm, 1016, rfl⟩
abbrev main_v886 : Ref sig .tc := ⟨.hbm, 1017, rfl⟩
abbrev main_v887 : Ref sig .tc := ⟨.hbm, 1018, rfl⟩
abbrev main_v888 : Ref sig .tc := ⟨.hbm, 1019, rfl⟩
abbrev main_v889 : Ref sig .tc := ⟨.hbm, 1020, rfl⟩
abbrev main_v890 : Ref sig .tc := ⟨.hbm, 1021, rfl⟩
abbrev main_v891 : Ref sig .tc := ⟨.hbm, 1022, rfl⟩
abbrev main_v892 : Ref sig .tc := ⟨.hbm, 1023, rfl⟩
abbrev main_call60_cst : Ref sig .tc := ⟨.hbm, 1024, rfl⟩
abbrev main_call60_v0 : Ref sig .tc := ⟨.hbm, 1025, rfl⟩
abbrev main_v893 : Ref sig .tc := ⟨.hbm, 1026, rfl⟩
abbrev main_v894 : Ref sig .tc := ⟨.hbm, 1027, rfl⟩
abbrev main_v895 : Ref sig .tc := ⟨.hbm, 1028, rfl⟩
abbrev main_v896 : Ref sig .tc := ⟨.hbm, 1029, rfl⟩
abbrev main_v897 : Ref sig .tc := ⟨.hbm, 1030, rfl⟩
abbrev main_v898 : Ref sig .tc := ⟨.hbm, 1031, rfl⟩
abbrev main_v899 : Ref sig .tc := ⟨.hbm, 1032, rfl⟩
abbrev main_v900 : Ref sig .tc := ⟨.hbm, 1033, rfl⟩
abbrev main_v901 : Ref sig .tc := ⟨.hbm, 1034, rfl⟩
abbrev main_call61_cst : Ref sig .tc := ⟨.hbm, 1035, rfl⟩
abbrev main_call61_v0 : Ref sig .tc := ⟨.hbm, 1036, rfl⟩
abbrev main_v902 : Ref sig .tc := ⟨.hbm, 1037, rfl⟩
abbrev main_v903 : Ref sig .tc := ⟨.hbm, 1038, rfl⟩
abbrev main_v904 : Ref sig .tc := ⟨.hbm, 1039, rfl⟩
abbrev main_v905 : Ref sig .tc := ⟨.hbm, 1040, rfl⟩
abbrev main_v906 : Ref sig .tc := ⟨.hbm, 1041, rfl⟩
abbrev main_v907 : Ref sig .tc := ⟨.hbm, 1042, rfl⟩
abbrev main_v908 : Ref sig .tc := ⟨.hbm, 1043, rfl⟩
abbrev main_v909 : Ref sig .tc := ⟨.hbm, 1044, rfl⟩
abbrev main_v910 : Ref sig .tc := ⟨.hbm, 1045, rfl⟩
abbrev main_v911 : Ref sig .tc := ⟨.hbm, 1046, rfl⟩
abbrev main_v912 : Ref sig .tc := ⟨.hbm, 1047, rfl⟩
abbrev main_v913 : Ref sig .tc := ⟨.hbm, 1048, rfl⟩
abbrev main_v914 : Ref sig .tc := ⟨.hbm, 1049, rfl⟩
abbrev main_v915 : Ref sig .tc := ⟨.hbm, 1050, rfl⟩
abbrev main_v916 : Ref sig .tc := ⟨.hbm, 1051, rfl⟩
abbrev main_v917 : Ref sig .tc := ⟨.hbm, 1052, rfl⟩
abbrev main_v918 : Ref sig .tc := ⟨.hbm, 1053, rfl⟩
abbrev main_v919 : Ref sig .tc := ⟨.hbm, 1054, rfl⟩
abbrev main_v920 : Ref sig .tc := ⟨.hbm, 1055, rfl⟩
abbrev main_v921 : Ref sig .tc := ⟨.hbm, 1056, rfl⟩
abbrev main_call62_cst : Ref sig .tc := ⟨.hbm, 1057, rfl⟩
abbrev main_call62_v0 : Ref sig .tc := ⟨.hbm, 1058, rfl⟩
abbrev main_v922 : Ref sig .tc := ⟨.hbm, 1059, rfl⟩
abbrev main_v923 : Ref sig .tc := ⟨.hbm, 1060, rfl⟩
abbrev main_v924 : Ref sig .tc := ⟨.hbm, 1061, rfl⟩
abbrev main_v925 : Ref sig .tc := ⟨.hbm, 1062, rfl⟩
abbrev main_v926 : Ref sig .tc := ⟨.hbm, 1063, rfl⟩
abbrev main_v927 : Ref sig .tc := ⟨.hbm, 1064, rfl⟩
abbrev main_v928 : Ref sig .tc := ⟨.hbm, 1065, rfl⟩
abbrev main_v929 : Ref sig .tc := ⟨.hbm, 1066, rfl⟩
abbrev main_v930 : Ref sig .tc := ⟨.hbm, 1067, rfl⟩
abbrev main_call63_cst : Ref sig .tc := ⟨.hbm, 1068, rfl⟩
abbrev main_call63_v0 : Ref sig .tc := ⟨.hbm, 1069, rfl⟩
abbrev main_v931 : Ref sig .tc := ⟨.hbm, 1070, rfl⟩
abbrev main_v932 : Ref sig .tc := ⟨.hbm, 1071, rfl⟩
abbrev main_v933 : Ref sig .tc := ⟨.hbm, 1072, rfl⟩
abbrev main_v934 : Ref sig .tc := ⟨.hbm, 1073, rfl⟩
abbrev main_v935 : Ref sig .tc := ⟨.hbm, 1074, rfl⟩
abbrev main_v936 : Ref sig .tc := ⟨.hbm, 1075, rfl⟩
abbrev main_v937 : Ref sig .tc := ⟨.hbm, 1076, rfl⟩
abbrev main_v938 : Ref sig .tc := ⟨.hbm, 1077, rfl⟩
abbrev main_v939 : Ref sig .tc := ⟨.hbm, 1078, rfl⟩
abbrev main_v940 : Ref sig .tc := ⟨.hbm, 1079, rfl⟩
abbrev main_v941 : Ref sig .tc := ⟨.hbm, 1080, rfl⟩
abbrev main_v942 : Ref sig .tc := ⟨.hbm, 1081, rfl⟩
abbrev main_v943 : Ref sig .tc := ⟨.hbm, 1082, rfl⟩
abbrev main_v944 : Ref sig .tc := ⟨.hbm, 1083, rfl⟩

abbrev nD : Nat := 1
abbrev τ : Topo := Topo.v7x

variable {F : FTy → Type} [FloatOps F]

class Facts₀ : Prop where
  bcast_S_S65536x1x1 : S_.BroadcastsInDim S65536x1x1 (![] : Fin 0 → Fin S65536x1x1.rank)
  slices_S65536x512_S65536x16_0_0 : S65536x512.Slices ![0, 0] S65536x16
  slices_S32x16x100_S1x16x100_0_0_0 : S32x16x100.Slices ![0, 0, 0] S1x16x100
  shapeCasts_S1x16x100_S16x100 : S1x16x100.ShapeCasts S16x100
  slices_S32x100_S1x100_0_0 : S32x100.Slices ![0, 0] S1x100
  shapeCasts_S1x100_S100 : S1x100.ShapeCasts S100
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S_S65536x100 : S_.BroadcastsInDim S65536x100 (![] : Fin 0 → Fin S65536x100.rank)
  slices_S32x100x100_S1x100x100_0_0_0 : S32x100x100.Slices ![0, 0, 0] S1x100x100
  shapeCasts_S1x100x100_S100x100 : S1x100x100.ShapeCasts S100x100
  slices_S32x100x64_S1x100x64_0_0_0 : S32x100x64.Slices ![0, 0, 0] S1x100x64
  shapeCasts_S1x100x64_S100x64 : S1x100x64.ShapeCasts S100x64
  slices_S100x64_S100x8_0_0 : S100x64.Slices ![0, 0] S100x8
  slices_S32x64_S1x64_0_0 : S32x64.Slices ![0, 0] S1x64
  shapeCasts_S1x64_S64 : S1x64.ShapeCasts S64
  slices_S64_S8_0 : S64.Slices ![0] S8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  reducesTo_S65536x8_S65536_d1 : S65536x8.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x8_0_1 : S65536x1.BroadcastsInDim S65536x8 (![0, 1] : Fin 2 → Fin S65536x8.rank)
  shapeCasts_S65536x8_S65536x1x8 : S65536x8.ShapeCasts S65536x1x8
  slices_S65536x512_S65536x16_0_16 : S65536x512.Slices ![0, 16] S65536x16
  slices_S32x16x100_S1x16x100_1_0_0 : S32x16x100.Slices ![1, 0, 0] S1x16x100
  slices_S32x100_S1x100_1_0 : S32x100.Slices ![1, 0] S1x100
  slices_S32x100x100_S1x100x100_1_0_0 : S32x100x100.Slices ![1, 0, 0] S1x100x100
  slices_S32x100x64_S1x100x64_1_0_0 : S32x100x64.Slices ![1, 0, 0] S1x100x64
  slices_S32x64_S1x64_1_0 : S32x64.Slices ![1, 0] S1x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  shapeCasts_S65536x64_S65536x8x8 : S65536x64.ShapeCasts S65536x8x8
  slices_S65536x512_S65536x16_0_32 : S65536x512.Slices ![0, 32] S65536x16
  slices_S32x16x100_S1x16x100_2_0_0 : S32x16x100.Slices ![2, 0, 0] S1x16x100
  slices_S32x100_S1x100_2_0 : S32x100.Slices ![2, 0] S1x100
  slices_S32x100x100_S1x100x100_2_0_0 : S32x100x100.Slices ![2, 0, 0] S1x100x100
  slices_S32x100x64_S1x100x64_2_0_0 : S32x100x64.Slices ![2, 0, 0] S1x100x64
  slices_S32x64_S1x64_2_0 : S32x64.Slices ![2, 0] S1x64
  slices_S65536x512_S65536x16_0_48 : S65536x512.Slices ![0, 48] S65536x16
  slices_S32x16x100_S1x16x100_3_0_0 : S32x16x100.Slices ![3, 0, 0] S1x16x100
  slices_S32x100_S1x100_3_0 : S32x100.Slices ![3, 0] S1x100
  slices_S32x100x100_S1x100x100_3_0_0 : S32x100x100.Slices ![3, 0, 0] S1x100x100
  slices_S32x100x64_S1x100x64_3_0_0 : S32x100x64.Slices ![3, 0, 0] S1x100x64
  slices_S32x64_S1x64_3_0 : S32x64.Slices ![3, 0] S1x64
  slices_S65536x512_S65536x16_0_64 : S65536x512.Slices ![0, 64] S65536x16
  slices_S32x16x100_S1x16x100_4_0_0 : S32x16x100.Slices ![4, 0, 0] S1x16x100
  slices_S32x100_S1x100_4_0 : S32x100.Slices ![4, 0] S1x100
  slices_S32x100x100_S1x100x100_4_0_0 : S32x100x100.Slices ![4, 0, 0] S1x100x100
  slices_S32x100x64_S1x100x64_4_0_0 : S32x100x64.Slices ![4, 0, 0] S1x100x64
  slices_S32x64_S1x64_4_0 : S32x64.Slices ![4, 0] S1x64
  slices_S65536x512_S65536x16_0_80 : S65536x512.Slices ![0, 80] S65536x16
  slices_S32x16x100_S1x16x100_5_0_0 : S32x16x100.Slices ![5, 0, 0] S1x16x100
  slices_S32x100_S1x100_5_0 : S32x100.Slices ![5, 0] S1x100
  slices_S32x100x100_S1x100x100_5_0_0 : S32x100x100.Slices ![5, 0, 0] S1x100x100
  slices_S32x100x64_S1x100x64_5_0_0 : S32x100x64.Slices ![5, 0, 0] S1x100x64
  slices_S32x64_S1x64_5_0 : S32x64.Slices ![5, 0] S1x64
  slices_S65536x512_S65536x16_0_96 : S65536x512.Slices ![0, 96] S65536x16
  slices_S32x16x100_S1x16x100_6_0_0 : S32x16x100.Slices ![6, 0, 0] S1x16x100
  slices_S32x100_S1x100_6_0 : S32x100.Slices ![6, 0] S1x100
  slices_S32x100x100_S1x100x100_6_0_0 : S32x100x100.Slices ![6, 0, 0] S1x100x100
  slices_S32x100x64_S1x100x64_6_0_0 : S32x100x64.Slices ![6, 0, 0] S1x100x64
  slices_S32x64_S1x64_6_0 : S32x64.Slices ![6, 0] S1x64
  slices_S65536x512_S65536x16_0_112 : S65536x512.Slices ![0, 112] S65536x16
  slices_S32x16x100_S1x16x100_7_0_0 : S32x16x100.Slices ![7, 0, 0] S1x16x100
  slices_S32x100_S1x100_7_0 : S32x100.Slices ![7, 0] S1x100
  slices_S32x100x100_S1x100x100_7_0_0 : S32x100x100.Slices ![7, 0, 0] S1x100x100
  slices_S32x100x64_S1x100x64_7_0_0 : S32x100x64.Slices ![7, 0, 0] S1x100x64
  slices_S32x64_S1x64_7_0 : S32x64.Slices ![7, 0] S1x64
  slices_S65536x512_S65536x16_0_128 : S65536x512.Slices ![0, 128] S65536x16
  slices_S32x16x100_S1x16x100_8_0_0 : S32x16x100.Slices ![8, 0, 0] S1x16x100
  slices_S32x100_S1x100_8_0 : S32x100.Slices ![8, 0] S1x100
  slices_S32x100x100_S1x100x100_8_0_0 : S32x100x100.Slices ![8, 0, 0] S1x100x100
  slices_S32x100x64_S1x100x64_8_0_0 : S32x100x64.Slices ![8, 0, 0] S1x100x64
  slices_S32x64_S1x64_8_0 : S32x64.Slices ![8, 0] S1x64
  slices_S65536x512_S65536x16_0_144 : S65536x512.Slices ![0, 144] S65536x16
  slices_S32x16x100_S1x16x100_9_0_0 : S32x16x100.Slices ![9, 0, 0] S1x16x100
  slices_S32x100_S1x100_9_0 : S32x100.Slices ![9, 0] S1x100
  slices_S32x100x100_S1x100x100_9_0_0 : S32x100x100.Slices ![9, 0, 0] S1x100x100
  slices_S32x100x64_S1x100x64_9_0_0 : S32x100x64.Slices ![9, 0, 0] S1x100x64
  slices_S32x64_S1x64_9_0 : S32x64.Slices ![9, 0] S1x64
  slices_S65536x512_S65536x16_0_160 : S65536x512.Slices ![0, 160] S65536x16
  slices_S32x16x100_S1x16x100_10_0_0 : S32x16x100.Slices ![10, 0, 0] S1x16x100
  slices_S32x100_S1x100_10_0 : S32x100.Slices ![10, 0] S1x100
  slices_S32x100x100_S1x100x100_10_0_0 : S32x100x100.Slices ![10, 0, 0] S1x100x100
  slices_S32x100x64_S1x100x64_10_0_0 : S32x100x64.Slices ![10, 0, 0] S1x100x64
  slices_S32x64_S1x64_10_0 : S32x64.Slices ![10, 0] S1x64
  slices_S65536x512_S65536x16_0_176 : S65536x512.Slices ![0, 176] S65536x16
  slices_S32x16x100_S1x16x100_11_0_0 : S32x16x100.Slices ![11, 0, 0] S1x16x100
  slices_S32x100_S1x100_11_0 : S32x100.Slices ![11, 0] S1x100
  slices_S32x100x100_S1x100x100_11_0_0 : S32x100x100.Slices ![11, 0, 0] S1x100x100
  slices_S32x100x64_S1x100x64_11_0_0 : S32x100x64.Slices ![11, 0, 0] S1x100x64
  slices_S32x64_S1x64_11_0 : S32x64.Slices ![11, 0] S1x64
  slices_S65536x512_S65536x16_0_192 : S65536x512.Slices ![0, 192] S65536x16
  slices_S32x16x100_S1x16x100_12_0_0 : S32x16x100.Slices ![12, 0, 0] S1x16x100
  slices_S32x100_S1x100_12_0 : S32x100.Slices ![12, 0] S1x100
  slices_S32x100x100_S1x100x100_12_0_0 : S32x100x100.Slices ![12, 0, 0] S1x100x100
  slices_S32x100x64_S1x100x64_12_0_0 : S32x100x64.Slices ![12, 0, 0] S1x100x64
  slices_S32x64_S1x64_12_0 : S32x64.Slices ![12, 0] S1x64
  slices_S65536x512_S65536x16_0_208 : S65536x512.Slices ![0, 208] S65536x16
  slices_S32x16x100_S1x16x100_13_0_0 : S32x16x100.Slices ![13, 0, 0] S1x16x100
  slices_S32x100_S1x100_13_0 : S32x100.Slices ![13, 0] S1x100
  slices_S32x100x100_S1x100x100_13_0_0 : S32x100x100.Slices ![13, 0, 0] S1x100x100
  slices_S32x100x64_S1x100x64_13_0_0 : S32x100x64.Slices ![13, 0, 0] S1x100x64
  slices_S32x64_S1x64_13_0 : S32x64.Slices ![13, 0] S1x64
  slices_S65536x512_S65536x16_0_224 : S65536x512.Slices ![0, 224] S65536x16
  slices_S32x16x100_S1x16x100_14_0_0 : S32x16x100.Slices ![14, 0, 0] S1x16x100
  slices_S32x100_S1x100_14_0 : S32x100.Slices ![14, 0] S1x100
  slices_S32x100x100_S1x100x100_14_0_0 : S32x100x100.Slices ![14, 0, 0] S1x100x100
  slices_S32x100x64_S1x100x64_14_0_0 : S32x100x64.Slices ![14, 0, 0] S1x100x64
  slices_S32x64_S1x64_14_0 : S32x64.Slices ![14, 0] S1x64
  slices_S65536x512_S65536x16_0_240 : S65536x512.Slices ![0, 240] S65536x16
  slices_S32x16x100_S1x16x100_15_0_0 : S32x16x100.Slices ![15, 0, 0] S1x16x100
  slices_S32x100_S1x100_15_0 : S32x100.Slices ![15, 0] S1x100
  slices_S32x100x100_S1x100x100_15_0_0 : S32x100x100.Slices ![15, 0, 0] S1x100x100
  slices_S32x100x64_S1x100x64_15_0_0 : S32x100x64.Slices ![15, 0, 0] S1x100x64
  slices_S32x64_S1x64_15_0 : S32x64.Slices ![15, 0] S1x64
  slices_S65536x512_S65536x16_0_256 : S65536x512.Slices ![0, 256] S65536x16
  slices_S32x16x100_S1x16x100_16_0_0 : S32x16x100.Slices ![16, 0, 0] S1x16x100
  slices_S32x100_S1x100_16_0 : S32x100.Slices ![16, 0] S1x100
  slices_S32x100x100_S1x100x100_16_0_0 : S32x100x100.Slices ![16, 0, 0] S1x100x100
  slices_S32x100x64_S1x100x64_16_0_0 : S32x100x64.Slices ![16, 0, 0] S1x100x64
  slices_S32x64_S1x64_16_0 : S32x64.Slices ![16, 0] S1x64
  slices_S65536x512_S65536x16_0_272 : S65536x512.Slices ![0, 272] S65536x16
  slices_S32x16x100_S1x16x100_17_0_0 : S32x16x100.Slices ![17, 0, 0] S1x16x100
  slices_S32x100_S1x100_17_0 : S32x100.Slices ![17, 0] S1x100
  slices_S32x100x100_S1x100x100_17_0_0 : S32x100x100.Slices ![17, 0, 0] S1x100x100
  slices_S32x100x64_S1x100x64_17_0_0 : S32x100x64.Slices ![17, 0, 0] S1x100x64
  slices_S32x64_S1x64_17_0 : S32x64.Slices ![17, 0] S1x64
  slices_S65536x512_S65536x16_0_288 : S65536x512.Slices ![0, 288] S65536x16
  slices_S32x16x100_S1x16x100_18_0_0 : S32x16x100.Slices ![18, 0, 0] S1x16x100
  slices_S32x100_S1x100_18_0 : S32x100.Slices ![18, 0] S1x100
  slices_S32x100x100_S1x100x100_18_0_0 : S32x100x100.Slices ![18, 0, 0] S1x100x100
  slices_S32x100x64_S1x100x64_18_0_0 : S32x100x64.Slices ![18, 0, 0] S1x100x64
  slices_S32x64_S1x64_18_0 : S32x64.Slices ![18, 0] S1x64
  slices_S65536x512_S65536x16_0_304 : S65536x512.Slices ![0, 304] S65536x16
  slices_S32x16x100_S1x16x100_19_0_0 : S32x16x100.Slices ![19, 0, 0] S1x16x100
  slices_S32x100_S1x100_19_0 : S32x100.Slices ![19, 0] S1x100
  slices_S32x100x100_S1x100x100_19_0_0 : S32x100x100.Slices ![19, 0, 0] S1x100x100
  slices_S32x100x64_S1x100x64_19_0_0 : S32x100x64.Slices ![19, 0, 0] S1x100x64
  slices_S32x64_S1x64_19_0 : S32x64.Slices ![19, 0] S1x64
  slices_S65536x512_S65536x16_0_320 : S65536x512.Slices ![0, 320] S65536x16
  slices_S32x16x100_S1x16x100_20_0_0 : S32x16x100.Slices ![20, 0, 0] S1x16x100
  slices_S32x100_S1x100_20_0 : S32x100.Slices ![20, 0] S1x100
  slices_S32x100x100_S1x100x100_20_0_0 : S32x100x100.Slices ![20, 0, 0] S1x100x100
  slices_S32x100x64_S1x100x64_20_0_0 : S32x100x64.Slices ![20, 0, 0] S1x100x64
  slices_S32x64_S1x64_20_0 : S32x64.Slices ![20, 0] S1x64
  slices_S65536x512_S65536x16_0_336 : S65536x512.Slices ![0, 336] S65536x16
  slices_S32x16x100_S1x16x100_21_0_0 : S32x16x100.Slices ![21, 0, 0] S1x16x100
  slices_S32x100_S1x100_21_0 : S32x100.Slices ![21, 0] S1x100
  slices_S32x100x100_S1x100x100_21_0_0 : S32x100x100.Slices ![21, 0, 0] S1x100x100
  slices_S32x100x64_S1x100x64_21_0_0 : S32x100x64.Slices ![21, 0, 0] S1x100x64
  slices_S32x64_S1x64_21_0 : S32x64.Slices ![21, 0] S1x64
  slices_S65536x512_S65536x16_0_352 : S65536x512.Slices ![0, 352] S65536x16
  slices_S32x16x100_S1x16x100_22_0_0 : S32x16x100.Slices ![22, 0, 0] S1x16x100
  slices_S32x100_S1x100_22_0 : S32x100.Slices ![22, 0] S1x100
  slices_S32x100x100_S1x100x100_22_0_0 : S32x100x100.Slices ![22, 0, 0] S1x100x100
  slices_S32x100x64_S1x100x64_22_0_0 : S32x100x64.Slices ![22, 0, 0] S1x100x64
  slices_S32x64_S1x64_22_0 : S32x64.Slices ![22, 0] S1x64
  slices_S65536x512_S65536x16_0_368 : S65536x512.Slices ![0, 368] S65536x16
  slices_S32x16x100_S1x16x100_23_0_0 : S32x16x100.Slices ![23, 0, 0] S1x16x100
  slices_S32x100_S1x100_23_0 : S32x100.Slices ![23, 0] S1x100
  slices_S32x100x100_S1x100x100_23_0_0 : S32x100x100.Slices ![23, 0, 0] S1x100x100
  slices_S32x100x64_S1x100x64_23_0_0 : S32x100x64.Slices ![23, 0, 0] S1x100x64
  slices_S32x64_S1x64_23_0 : S32x64.Slices ![23, 0] S1x64
  slices_S65536x512_S65536x16_0_384 : S65536x512.Slices ![0, 384] S65536x16
  slices_S32x16x100_S1x16x100_24_0_0 : S32x16x100.Slices ![24, 0, 0] S1x16x100
  slices_S32x100_S1x100_24_0 : S32x100.Slices ![24, 0] S1x100
  slices_S32x100x100_S1x100x100_24_0_0 : S32x100x100.Slices ![24, 0, 0] S1x100x100
  slices_S32x100x64_S1x100x64_24_0_0 : S32x100x64.Slices ![24, 0, 0] S1x100x64
  slices_S32x64_S1x64_24_0 : S32x64.Slices ![24, 0] S1x64
  slices_S65536x512_S65536x16_0_400 : S65536x512.Slices ![0, 400] S65536x16
  slices_S32x16x100_S1x16x100_25_0_0 : S32x16x100.Slices ![25, 0, 0] S1x16x100
  slices_S32x100_S1x100_25_0 : S32x100.Slices ![25, 0] S1x100
  slices_S32x100x100_S1x100x100_25_0_0 : S32x100x100.Slices ![25, 0, 0] S1x100x100
  slices_S32x100x64_S1x100x64_25_0_0 : S32x100x64.Slices ![25, 0, 0] S1x100x64
  slices_S32x64_S1x64_25_0 : S32x64.Slices ![25, 0] S1x64
  slices_S65536x512_S65536x16_0_416 : S65536x512.Slices ![0, 416] S65536x16
  slices_S32x16x100_S1x16x100_26_0_0 : S32x16x100.Slices ![26, 0, 0] S1x16x100
  slices_S32x100_S1x100_26_0 : S32x100.Slices ![26, 0] S1x100
  slices_S32x100x100_S1x100x100_26_0_0 : S32x100x100.Slices ![26, 0, 0] S1x100x100
  slices_S32x100x64_S1x100x64_26_0_0 : S32x100x64.Slices ![26, 0, 0] S1x100x64
  slices_S32x64_S1x64_26_0 : S32x64.Slices ![26, 0] S1x64
  slices_S65536x512_S65536x16_0_432 : S65536x512.Slices ![0, 432] S65536x16
  slices_S32x16x100_S1x16x100_27_0_0 : S32x16x100.Slices ![27, 0, 0] S1x16x100
  slices_S32x100_S1x100_27_0 : S32x100.Slices ![27, 0] S1x100
  slices_S32x100x100_S1x100x100_27_0_0 : S32x100x100.Slices ![27, 0, 0] S1x100x100
  slices_S32x100x64_S1x100x64_27_0_0 : S32x100x64.Slices ![27, 0, 0] S1x100x64
  slices_S32x64_S1x64_27_0 : S32x64.Slices ![27, 0] S1x64
  slices_S65536x512_S65536x16_0_448 : S65536x512.Slices ![0, 448] S65536x16
  slices_S32x16x100_S1x16x100_28_0_0 : S32x16x100.Slices ![28, 0, 0] S1x16x100
  slices_S32x100_S1x100_28_0 : S32x100.Slices ![28, 0] S1x100
  slices_S32x100x100_S1x100x100_28_0_0 : S32x100x100.Slices ![28, 0, 0] S1x100x100
  slices_S32x100x64_S1x100x64_28_0_0 : S32x100x64.Slices ![28, 0, 0] S1x100x64
  slices_S32x64_S1x64_28_0 : S32x64.Slices ![28, 0] S1x64
  slices_S65536x512_S65536x16_0_464 : S65536x512.Slices ![0, 464] S65536x16
  slices_S32x16x100_S1x16x100_29_0_0 : S32x16x100.Slices ![29, 0, 0] S1x16x100
  slices_S32x100_S1x100_29_0 : S32x100.Slices ![29, 0] S1x100
  slices_S32x100x100_S1x100x100_29_0_0 : S32x100x100.Slices ![29, 0, 0] S1x100x100
  slices_S32x100x64_S1x100x64_29_0_0 : S32x100x64.Slices ![29, 0, 0] S1x100x64
  slices_S32x64_S1x64_29_0 : S32x64.Slices ![29, 0] S1x64
  slices_S65536x512_S65536x16_0_480 : S65536x512.Slices ![0, 480] S65536x16
  slices_S32x16x100_S1x16x100_30_0_0 : S32x16x100.Slices ![30, 0, 0] S1x16x100
  slices_S32x100_S1x100_30_0 : S32x100.Slices ![30, 0] S1x100
  slices_S32x100x100_S1x100x100_30_0_0 : S32x100x100.Slices ![30, 0, 0] S1x100x100
  slices_S32x100x64_S1x100x64_30_0_0 : S32x100x64.Slices ![30, 0, 0] S1x100x64
  slices_S32x64_S1x64_30_0 : S32x64.Slices ![30, 0] S1x64
  slices_S65536x512_S65536x16_0_496 : S65536x512.Slices ![0, 496] S65536x16
  slices_S32x16x100_S1x16x100_31_0_0 : S32x16x100.Slices ![31, 0, 0] S1x16x100
  slices_S32x100_S1x100_31_0 : S32x100.Slices ![31, 0] S1x100
  slices_S32x100x100_S1x100x100_31_0_0 : S32x100x100.Slices ![31, 0, 0] S1x100x100
  slices_S32x100x64_S1x100x64_31_0_0 : S32x100x64.Slices ![31, 0, 0] S1x100x64
  slices_S32x64_S1x64_31_0 : S32x64.Slices ![31, 0] S1x64
  shapeCasts_S65536x8_S65536x8x1 : S65536x8.ShapeCasts S65536x8x1
  shapeCasts_S65536x1x1_S65536x1 : S65536x1x1.ShapeCasts S65536x1
  dot_S65536x16_S16x100_S65536x100_1_0_0_1_n_n_wf : DotDims.WF S65536x16 S16x100 S65536x100 [1] [0] [0] [1] [] []
  dot_S65536x100_S100x100_S65536x100_1_0_0_1_n_n_wf : DotDims.WF S65536x100 S100x100 S65536x100 [1] [0] [0] [1] [] []
  dot_S65536x100_S100x8_S65536x8_1_0_0_1_n_n_wf : DotDims.WF S65536x100 S100x8 S65536x8 [1] [0] [0] [1] [] []
  dot_S65536x1x1_S65536x1x8_S65536x1x8_2_1_1_2_0_0_wf : DotDims.WF S65536x1x1 S65536x1x8 S65536x1x8 [2] [1] [1] [2] [0] [0]
  dot_S65536x100_S100x64_S65536x64_1_0_0_1_n_n_wf : DotDims.WF S65536x100 S100x64 S65536x64 [1] [0] [0] [1] [] []
  dot_S65536x1x8_S65536x8x8_S65536x1x8_2_1_1_2_0_0_wf : DotDims.WF S65536x1x8 S65536x8x8 S65536x1x8 [2] [1] [1] [2] [0] [0]
  dot_S65536x1x8_S65536x8x1_S65536x1x1_2_1_1_2_0_0_wf : DotDims.WF S65536x1x8 S65536x8x1 S65536x1x1 [2] [1] [1] [2] [0] [0]

variable [Facts₀]

def dot_S65536x16_S16x100_S65536x100_1_0_0_1_n_n : DotDims S65536x16 S16x100 S65536x100 where
  lhsContracting := [1]
  rhsContracting := [0]
  lhsNonContracting := [0]
  rhsNonContracting := [1]
  lhsBatch := []
  rhsBatch := []
  wf := dot_S65536x16_S16x100_S65536x100_1_0_0_1_n_n_wf
def dot_S65536x100_S100x100_S65536x100_1_0_0_1_n_n : DotDims S65536x100 S100x100 S65536x100 where
  lhsContracting := [1]
  rhsContracting := [0]
  lhsNonContracting := [0]
  rhsNonContracting := [1]
  lhsBatch := []
  rhsBatch := []
  wf := dot_S65536x100_S100x100_S65536x100_1_0_0_1_n_n_wf
def dot_S65536x100_S100x8_S65536x8_1_0_0_1_n_n : DotDims S65536x100 S100x8 S65536x8 where
  lhsContracting := [1]
  rhsContracting := [0]
  lhsNonContracting := [0]
  rhsNonContracting := [1]
  lhsBatch := []
  rhsBatch := []
  wf := dot_S65536x100_S100x8_S65536x8_1_0_0_1_n_n_wf
def dot_S65536x1x1_S65536x1x8_S65536x1x8_2_1_1_2_0_0 : DotDims S65536x1x1 S65536x1x8 S65536x1x8 where
  lhsContracting := [2]
  rhsContracting := [1]
  lhsNonContracting := [1]
  rhsNonContracting := [2]
  lhsBatch := [0]
  rhsBatch := [0]
  wf := dot_S65536x1x1_S65536x1x8_S65536x1x8_2_1_1_2_0_0_wf
def dot_S65536x100_S100x64_S65536x64_1_0_0_1_n_n : DotDims S65536x100 S100x64 S65536x64 where
  lhsContracting := [1]
  rhsContracting := [0]
  lhsNonContracting := [0]
  rhsNonContracting := [1]
  lhsBatch := []
  rhsBatch := []
  wf := dot_S65536x100_S100x64_S65536x64_1_0_0_1_n_n_wf
def dot_S65536x1x8_S65536x8x8_S65536x1x8_2_1_1_2_0_0 : DotDims S65536x1x8 S65536x8x8 S65536x1x8 where
  lhsContracting := [2]
  rhsContracting := [1]
  lhsNonContracting := [1]
  rhsNonContracting := [2]
  lhsBatch := [0]
  rhsBatch := [0]
  wf := dot_S65536x1x8_S65536x8x8_S65536x1x8_2_1_1_2_0_0_wf
def dot_S65536x1x8_S65536x8x1_S65536x1x1_2_1_1_2_0_0 : DotDims S65536x1x8 S65536x8x1 S65536x1x1 where
  lhsContracting := [2]
  rhsContracting := [1]
  lhsNonContracting := [1]
  rhsNonContracting := [2]
  lhsBatch := [0]
  rhsBatch := [0]
  wf := dot_S65536x1x8_S65536x8x1_S65536x1x1_2_1_1_2_0_0_wf

class Facts : Prop extends Facts₀ where

variable [Facts]
-- ==== Proof.KSteps.lean ====
/-
  The kernel body's arithmetic, piece of the sample by piece, as functions of the loaded blocks.

  The body treats the 32 pieces of a block of 2048 samples one after the other with the same few operations; only
  the blocks it loads differ.  `hid` is the two hidden layers of one piece for all 2048 samples at once (a matrix
  product into a zero accumulator, the bias row broadcast over the samples, the positive part, twice).  `first`,
  `mid` and `last` are the third layer of a piece followed by the product with the running row of 8 numbers per
  sample: `first` (softmax of 8 outputs, running row the constant 1), `mid` (64 outputs read as 8 × 8, the
  product written as a sum over the middle axis of a broadcast product), `last` (8 outputs read as 8 × 1).
-/
import proofs.«110954_j11751030522504_2_alg».proof.Proof.Gen.KernelIdeal.Skeleton

noncomputable section

namespace Cert.KernelIdeal.Steps

open Idealize.ShloMosaic Idealize.SL.Sem Cert.KernelIdeal Cert.KernelIdeal.Gen

variable {F : FTy → Type} [FloatOps F]

/-- The running row before the first piece: 1 for every sample. -/
def ones : FVec F S2048x1 .f32 := broadcast S2048x1 (Scalar.ofBits .f32 0x3F800000#32)

/-- Both hidden layers of one piece, for the 2048 samples of a block. -/
def hid (xs : Vec F S2048x16 .f32) (w1 : Vec F S1x16x100 .f32) (b1 : Vec F S1x100 .f32) (w2 : Vec F S1x100x100 .f32)
    (b2 : Vec F S1x100 .f32) : FVec F S2048x100 .f32 :=
  have a1 : FVec F S2048x100 .f32 := addf
    (matmul dot_S2048x16_S16x100_S2048x100_1_0_0_1_n_n none (truncf .bf16 xs bitsLt_bf16_f32)
      (truncf .bf16 (shapeCast S16x100 w1 shapeCasts_S1x16x100_S16x100) bitsLt_bf16_f32) (constant S2048x100 .f32 0x00000000#32))
    (broadcastTo S2048x100 (shapeCast S1x100 (shapeCast S100 b1 shapeCasts_S1x100_S100) shapeCasts_S100_S1x100) broadcasts_S1x100_S2048x100)
  have h1 : FVec F S2048x100 .f32 := maximumf a1 (broadcast S2048x100 (Scalar.ofBits .f32 0x00000000#32))
  have a2 : FVec F S2048x100 .f32 := addf
    (matmul dot_S2048x100_S100x100_S2048x100_1_0_0_1_n_n none (truncf .bf16 h1 bitsLt_bf16_f32)
      (truncf .bf16 (shapeCast S100x100 w2 shapeCasts_S1x100x100_S100x100) bitsLt_bf16_f32) (constant S2048x100 .f32 0x00000000#32))
    (broadcastTo S2048x100 (shapeCast S1x100 (shapeCast S100 b2 shapeCasts_S1x100_S100) shapeCasts_S100_S1x100) broadcasts_S1x100_S2048x100)
  maximumf a2 (broadcast S2048x100 (Scalar.ofBits .f32 0x00000000#32))

/-- The third layer restricted to its first 8 outputs. -/
def out8 (h : FVec F S2048x100 .f32) (w3 : Vec F S1x100x64 .f32) (b3 : Vec F S1x64 .f32) : FVec F S2048x8 .f32 :=
  addf
    (matmul dot_S2048x100_S100x8_S2048x8_1_0_0_1_n_n none (truncf .bf16 h bitsLt_bf16_f32)
      (truncf .bf16 (extractStridedSlice S100x8 ![0, 0] (shapeCast S100x64 w3 shapeCasts_S1x100x64_S100x64) slices_S100x64_o0_0_S100x8) bitsLt_bf16_f32)
      (constant S2048x8 .f32 0x00000000#32))
    (broadcastTo S2048x8 (shapeCast S1x8 (extractStridedSlice S8 ![0] (shapeCast S64 b3 shapeCasts_S1x64_S64) slices_S64_o0_S8) shapeCasts_S8_S1x8) broadcasts_S1x8_S2048x8)

/-- The third layer with all 64 outputs. -/
def out64 (h : FVec F S2048x100 .f32) (w3 : Vec F S1x100x64 .f32) (b3 : Vec F S1x64 .f32) : FVec F S2048x64 .f32 :=
  addf
    (matmul dot_S2048x100_S100x64_S2048x64_1_0_0_1_n_n none (truncf .bf16 h bitsLt_bf16_f32)
      (truncf .bf16 (shapeCast S100x64 w3 shapeCasts_S1x100x64_S100x64) bitsLt_bf16_f32) (constant S2048x64 .f32 0x00000000#32))
    (broadcastTo S2048x64 (shapeCast S1x64 (shapeCast S64 b3 shapeCasts_S1x64_S64) shapeCasts_S64_S1x64) broadcasts_S1x64_S2048x64)

/-- The softmax over the 8 outputs of every sample. -/
def softmax8 (o : FVec F S2048x8 .f32) : FVec F S2048x8 .f32 :=
  have mx : FVec F S2048 .f32 := maximumf (broadcast S2048 (Scalar.ofBits .f32 0xFF800000#32))
    (multiReduction .maximumf [1] S2048 o 0xFF800000#32 reduces_S2048x8_S2048 (.inl rfl) rfl)
  have e : FVec F S2048x8 .f32 := exp (subf o (broadcastTo S2048x8 (shapeCast S2048x1 mx shapeCasts_S2048_S2048x1) broadcasts_S2048x1_S2048x8))
  divf e (broadcastTo S2048x8 (shapeCast S2048x1 (multiReduction .add [1] S2048 e 0x00000000#32 reduces_S2048x8_S2048 (.inl rfl) rfl) shapeCasts_S2048_S2048x1) broadcasts_S2048x1_S2048x8)

/-- The first piece: the running row (1) times the 1 × 8 matrix of softmax outputs. -/
def first (r0 : FVec F S2048x1 .f32) (h : FVec F S2048x100 .f32) (w3 : Vec F S1x100x64 .f32) (b3 : Vec F S1x64 .f32) : FVec F S2048x8 .f32 :=
  multiReduction .add [1] S2048x8
    (mulf (broadcastTo S2048x1x8 (shapeCast S2048x1x1 r0 shapeCasts_S2048x1_S2048x1x1) broadcasts_S2048x1x1_S2048x1x8)
      (shapeCast S2048x1x8 (softmax8 (out8 h w3 b3)) shapeCasts_S2048x8_S2048x1x8))
    0x00000000#32 reduces_S2048x1x8_S2048x8 (.inl rfl) rfl

/-- A middle piece: the running row of 8 times the 8 × 8 matrix of the 64 outputs. -/
def mid (ret : FVec F S2048x8 .f32) (h : FVec F S2048x100 .f32) (w3 : Vec F S1x100x64 .f32) (b3 : Vec F S1x64 .f32) : FVec F S2048x8 .f32 :=
  multiReduction .add [1] S2048x8
    (mulf (broadcastTo S2048x8x8 (shapeCast S2048x8x1 ret shapeCasts_S2048x8_S2048x8x1) broadcasts_S2048x8x1_S2048x8x8)
      (shapeCast S2048x8x8 (out64 h w3 b3) shapeCasts_S2048x64_S2048x8x8))
    0x00000000#32 reduces_S2048x8x8_S2048x8 (.inl rfl) rfl

/-- The last piece: the running row of 8 times the 8 × 1 matrix of the first 8 outputs. -/
def last (ret : FVec F S2048x8 .f32) (h : FVec F S2048x100 .f32) (w3 : Vec F S1x100x64 .f32) (b3 : Vec F S1x64 .f32) : FVec F S2048x1 .f32 :=
  multiReduction .add [1] S2048x1
    (mulf (shapeCast S2048x8x1 ret shapeCasts_S2048x8_S2048x8x1) (shapeCast S2048x8x1 (out8 h w3 b3) shapeCasts_S2048x8_S2048x8x1))
    0x00000000#32 reduces_S2048x8x1_S2048x1 (.inl rfl) rfl

end Cert.KernelIdeal.Steps

end
-- ==== Proof.KBody.lean ====
/-
  The kernel body as a chain of 32 steps over the blocks it loads.

  `ret n` is the running row of 8 numbers per sample after piece `n` (n = 0 … 30) and `body` the column of results after
  piece 31, each a step (`first`, `mid`, `last`) of the previous one and of the seven blocks piece `n` loads: columns
  16 n … 16 n + 15 of the block of samples, and slice `n` of each parameter array.  The one store of the body writes
  its whole output block, and what it writes is `body` (`out_eq_body`): the printed statements, substituted into one
  another, are this chain literally.
-/
import proofs.«110954_j11751030522504_2_alg».proof.Proof.KSteps
import proofs.«110954_j11751030522504_2_alg».proof.Proof.Gen.KernelIdeal.Frame
import Idealize.ShloMosaic.Lib.Pipeline.Value

noncomputable section

namespace Cert.KernelIdeal.Steps

open Idealize.ShloMosaic Idealize.SL.Sem Cert.KernelIdeal Cert.KernelIdeal.Gen

variable {F : FTy → Type} [FloatOps F]
variable (x0 : Vec F S2048x512 .f32) (x1 : Vec F S32x16x100 .f32) (x2 : Vec F S32x100 .f32) (x3 : Vec F S32x100x100 .f32)
  (x4 : Vec F S32x100 .f32) (x5 : Vec F S32x100x64 .f32) (x6 : Vec F S32x64 .f32)

/-- The running row after piece 0. -/
def ret0 : FVec F S2048x8 .f32 :=
  first ones (hid (View.ld x0 r0_0) (View.ld x1 r0_1) (View.ld x2 r0_2) (View.ld x3 r0_3) (View.ld x4 r0_2)) (View.ld x5 r0_4) (View.ld x6 r0_5)

/-- The running row after piece 1. -/
def ret1 : FVec F S2048x8 .f32 :=
  mid (ret0 x0 x1 x2 x3 x4 x5 x6) (hid (View.ld x0 r0_6) (View.ld x1 r0_7) (View.ld x2 r0_8) (View.ld x3 r0_9) (View.ld x4 r0_8)) (View.ld x5 r0_10) (View.ld x6 r0_11)

/-- The running row after piece 2. -/
def ret2 : FVec F S2048x8 .f32 :=
  mid (ret1 x0 x1 x2 x3 x4 x5 x6) (hid (View.ld x0 r0_12) (View.ld x1 r0_13) (View.ld x2 r0_14) (View.ld x3 r0_15) (View.ld x4 r0_14)) (View.ld x5 r0_16) (View.ld x6 r0_17)

/-- The running row after piece 3. -/
def ret3 : FVec F S2048x8 .f32 :=
  mid (ret2 x0 x1 x2 x3 x4 x5 x6) (hid (View.ld x0 r0_18) (View.ld x1 r0_19) (View.ld x2 r0_20) (View.ld x3 r0_21) (View.ld x4 r0_20)) (View.ld x5 r0_22) (View.ld x6 r0_23)

/-- The running row after piece 4. -/
def ret4 : FVec F S2048x8 .f32 :=
  mid (ret3 x0 x1 x2 x3 x4 x5 x6) (hid (View.ld x0 r0_24) (View.ld x1 r0_25) (View.ld x2 r0_26) (View.ld x3 r0_27) (View.ld x4 r0_26)) (View.ld x5 r0_28) (View.ld x6 r0_29)

/-- The running row after piece 5. -/
def ret5 : FVec F S2048x8 .f32 :=
  mid (ret4 x0 x1 x2 x3 x4 x5 x6) (hid (View.ld x0 r0_30) (View.ld x1 r0_31) (View.ld x2 r0_32) (View.ld x3 r0_33) (View.ld x4 r0_32)) (View.ld x5 r0_34) (View.ld x6 r0_35)

/-- The running row after piece 6. -/
def ret6 : FVec F S2048x8 .f32 :=
  mid (ret5 x0 x1 x2 x3 x4 x5 x6) (hid (View.ld x0 r0_36) (View.ld x1 r0_37) (View.ld x2 r0_38) (View.ld x3 r0_39) (View.ld x4 r0_38)) (View.ld x5 r0_40) (View.ld x6 r0_41)

/-- The running row after piece 7. -/
def ret7 : FVec F S2048x8 .f32 :=
  mid (ret6 x0 x1 x2 x3 x4 x5 x6) (hid (View.ld x0 r0_42) (View.ld x1 r0_43) (View.ld x2 r0_44) (View.ld x3 r0_45) (View.ld x4 r0_44)) (View.ld x5 r0_46) (View.ld x6 r0_47)

/-- The running row after piece 8. -/
def ret8 : FVec F S2048x8 .f32 :=
  mid (ret7 x0 x1 x2 x3 x4 x5 x6) (hid (View.ld x0 r0_48) (View.ld x1 r0_49) (View.ld x2 r0_50) (View.ld x3 r0_51) (View.ld x4 r0_50)) (View.ld x5 r0_52) (View.ld x6 r0_53)

/-- The running row after piece 9. -/
def ret9 : FVec F S2048x8 .f32 :=
  mid (ret8 x0 x1 x2 x3 x4 x5 x6) (hid (View.ld x0 r0_54) (View.ld x1 r0_55) (View.ld x2 r0_56) (View.ld x3 r0_57) (View.ld x4 r0_56)) (View.ld x5 r0_58) (View.ld x6 r0_59)

/-- The running row after piece 10. -/
def ret10 : FVec F S2048x8 .f32 :=
  mid (ret9 x0 x1 x2 x3 x4 x5 x6) (hid (View.ld x0 r0_60) (View.ld x1 r0_61) (View.ld x2 r0_62) (View.ld x3 r0_63) (View.ld x4 r0_62)) (View.ld x5 r0_64) (View.ld x6 r0_65)

/-- The running row after piece 11. -/
def ret11 : FVec F S2048x8 .f32 :=
  mid (ret10 x0 x1 x2 x3 x4 x5 x6) (hid (View.ld x0 r0_66) (View.ld x1 r0_67) (View.ld x2 r0_68) (View.ld x3 r0_69) (View.ld x4 r0_68)) (View.ld x5 r0_70) (View.ld x6 r0_71)

/-- The running row after piece 12. -/
def ret12 : FVec F S2048x8 .f32 :=
  mid (ret11 x0 x1 x2 x3 x4 x5 x6) (hid (View.ld x0 r0_72) (View.ld x1 r0_73) (View.ld x2 r0_74) (View.ld x3 r0_75) (View.ld x4 r0_74)) (View.ld x5 r0_76) (View.ld x6 r0_77)

/-- The running row after piece 13. -/
def ret13 : FVec F S2048x8 .f32 :=
  mid (ret12 x0 x1 x2 x3 x4 x5 x6) (hid (View.ld x0 r0_78) (View.ld x1 r0_79) (View.ld x2 r0_80) (View.ld x3 r0_81) (View.ld x4 r0_80)) (View.ld x5 r0_82) (View.ld x6 r0_83)

/-- The running row after piece 14. -/
def ret14 : FVec F S2048x8 .f32 :=
  mid (ret13 x0 x1 x2 x3 x4 x5 x6) (hid (View.ld x0 r0_84) (View.ld x1 r0_85) (View.ld x2 r0_86) (View.ld x3 r0_87) (View.ld x4 r0_86)) (View.ld x5 r0_88) (View.ld x6 r0_89)

/-- The running row after piece 15. -/
def ret15 : FVec F S2048x8 .f32 :=
  mid (ret14 x0 x1 x2 x3 x4 x5 x6) (hid (View.ld x0 r0_90) (View.ld x1 r0_91) (View.ld x2 r0_92) (View.ld x3 r0_93) (View.ld x4 r0_92)) (View.ld x5 r0_94) (View.ld x6 r0_95)

/-- The running row after piece 16. -/
def ret16 : FVec F S2048x8 .f32 :=
  mid (ret15 x0 x1 x2 x3 x4 x5 x6) (hid (View.ld x0 r0_96) (View.ld x1 r0_97) (View.ld x2 r0_98) (View.ld x3 r0_99) (View.ld x4 r0_98)) (View.ld x5 r0_100) (View.ld x6 r0_101)

/-- The running row after piece 17. -/
def ret17 : FVec F S2048x8 .f32 :=
  mid (ret16 x0 x1 x2 x3 x4 x5 x6) (hid (View.ld x0 r0_102) (View.ld x1 r0_103) (View.ld x2 r0_104) (View.ld x3 r0_105) (View.ld x4 r0_104)) (View.ld x5 r0_106) (View.ld x6 r0_107)

/-- The running row after piece 18. -/
def ret18 : FVec F S2048x8 .f32 :=
  mid (ret17 x0 x1 x2 x3 x4 x5 x6) (hid (View.ld x0 r0_108) (View.ld x1 r0_109) (View.ld x2 r0_110) (View.ld x3 r0_111) (View.ld x4 r0_110)) (View.ld x5 r0_112) (View.ld x6 r0_113)

/-- The running row after piece 19. -/
def ret19 : FVec F S2048x8 .f32 :=
  mid (ret18 x0 x1 x2 x3 x4 x5 x6) (hid (View.ld x0 r0_114) (View.ld x1 r0_115) (View.ld x2 r0_116) (View.ld x3 r0_117) (View.ld x4 r0_116)) (View.ld x5 r0_118) (View.ld x6 r0_119)

/-- The running row after piece 20. -/
def ret20 : FVec F S2048x8 .f32 :=
  mid (ret19 x0 x1 x2 x3 x4 x5 x6) (hid (View.ld x0 r0_120) (View.ld x1 r0_121) (View.ld x2 r0_122) (View.ld x3 r0_123) (View.ld x4 r0_122)) (View.ld x5 r0_124) (View.ld x6 r0_125)

/-- The running row after piece 21. -/
def ret21 : FVec F S2048x8 .f32 :=
  mid (ret20 x0 x1 x2 x3 x4 x5 x6) (hid (View.ld x0 r0_126) (View.ld x1 r0_127) (View.ld x2 r0_128) (View.ld x3 r0_129) (View.ld x4 r0_128)) (View.ld x5 r0_130) (View.ld x6 r0_131)

/-- The running row after piece 22. -/
def ret22 : FVec F S2048x8 .f32 :=
  mid (ret21 x0 x1 x2 x3 x4 x5 x6) (hid (View.ld x0 r0_132) (View.ld x1 r0_133) (View.ld x2 r0_134) (View.ld x3 r0_135) (View.ld x4 r0_134)) (View.ld x5 r0_136) (View.ld x6 r0_137)

/-- The running row after piece 23. -/
def ret23 : FVec F S2048x8 .f32 :=
  mid (ret22 x0 x1 x2 x3 x4 x5 x6) (hid (View.ld x0 r0_138) (View.ld x1 r0_139) (View.ld x2 r0_140) (View.ld x3 r0_141) (View.ld x4 r0_140)) (View.ld x5 r0_142) (View.ld x6 r0_143)

/-- The running row after piece 24. -/
def ret24 : FVec F S2048x8 .f32 :=
  mid (ret23 x0 x1 x2 x3 x4 x5 x6) (hid (View.ld x0 r0_144) (View.ld x1 r0_145) (View.ld x2 r0_146) (View.ld x3 r0_147) (View.ld x4 r0_146)) (View.ld x5 r0_148) (View.ld x6 r0_149)

/-- The running row after piece 25. -/
def ret25 : FVec F S2048x8 .f32 :=
  mid (ret24 x0 x1 x2 x3 x4 x5 x6) (hid (View.ld x0 r0_150) (View.ld x1 r0_151) (View.ld x2 r0_152) (View.ld x3 r0_153) (View.ld x4 r0_152)) (View.ld x5 r0_154) (View.ld x6 r0_155)

/-- The running row after piece 26. -/
def ret26 : FVec F S2048x8 .f32 :=
  mid (ret25 x0 x1 x2 x3 x4 x5 x6) (hid (View.ld x0 r0_156) (View.ld x1 r0_157) (View.ld x2 r0_158) (View.ld x3 r0_159) (View.ld x4 r0_158)) (View.ld x5 r0_160) (View.ld x6 r0_161)

/-- The running row after piece 27. -/
def ret27 : FVec F S2048x8 .f32 :=
  mid (ret26 x0 x1 x2 x3 x4 x5 x6) (hid (View.ld x0 r0_162) (View.ld x1 r0_163) (View.ld x2 r0_164) (View.ld x3 r0_165) (View.ld x4 r0_164)) (View.ld x5 r0_166) (View.ld x6 r0_167)

/-- The running row after piece 28. -/
def ret28 : FVec F S2048x8 .f32 :=
  mid (ret27 x0 x1 x2 x3 x4 x5 x6) (hid (View.ld x0 r0_168) (View.ld x1 r0_169) (View.ld x2 r0_170) (View.ld x3 r0_171) (View.ld x4 r0_170)) (View.ld x5 r0_172) (View.ld x6 r0_173)

/-- The running row after piece 29. -/
def ret29 : FVec F S2048x8 .f32 :=
  mid (ret28 x0 x1 x2 x3 x4 x5 x6) (hid (View.ld x0 r0_174) (View.ld x1 r0_175) (View.ld x2 r0_176) (View.ld x3 r0_177) (View.ld x4 r0_176)) (View.ld x5 r0_178) (View.ld x6 r0_179)

/-- The running row after piece 30. -/
def ret30 : FVec F S2048x8 .f32 :=
  mid (ret29 x0 x1 x2 x3 x4 x5 x6) (hid (View.ld x0 r0_180) (View.ld x1 r0_181) (View.ld x2 r0_182) (View.ld x3 r0_183) (View.ld x4 r0_182)) (View.ld x5 r0_184) (View.ld x6 r0_185)

/-- The column of results, after piece 31. -/
def body : FVec F S2048x1 .f32 :=
  last (ret30 x0 x1 x2 x3 x4 x5 x6) (hid (View.ld x0 r0_186) (View.ld x1 r0_187) (View.ld x2 r0_188) (View.ld x3 r0_189) (View.ld x4 r0_188)) (View.ld x5 r0_190) (View.ld x6 r0_191)

/-- The offsets of the store are zero on both axes. -/
theorem zero_off : (![0, 0] : Fin 2 → Nat) = fun _ => 0 := by
  funext a; match a with | ⟨0, _⟩ => rfl | ⟨1, _⟩ => rfl

set_option maxRecDepth 100000 in
set_option maxHeartbeats 4000000 in
/-- What the body leaves in its output block is the last step of the chain. -/
theorem out_eq_body : out0_7 x0 x1 x2 x3 x4 x5 x6 = body x0 x1 x2 x3 x4 x5 x6 := by
  unfold out0_7
  rw [View.canon_unit_zero zero_off]
  rfl

end Cert.KernelIdeal.Steps

end
-- ==== Proof.KArray.lean ====
/-
  From the blocks to the whole result array.

  The grid has 32 points; point `t` stages rows 2048 t … 2048 t + 2047 of the sample array (all 512 columns), the
  seven parameter arrays whole, and writes back rows 2048 t … 2048 t + 2047 of the one-column result.  So an entry
  (p, q) of the staged sample block is entry (2048 t + p, q) of the array (`iblk_x`), each staged parameter block is
  its array (`iblk_w`), the 32 written blocks tile the result (`cover`), and a function `G` of the whole arrays that
  agrees with the body's column on every block, row by row, is what the result array holds after the run
  (`final`, `run`).
-/
import proofs.«110954_j11751030522504_2_alg».proof.Proof.Gen.KernelIdeal.Value
import proofs.«110954_j11751030522504_2_alg».proof.Proof.KBody
import Idealize.ShloMosaic.Lib.ValueIdx

noncomputable section

namespace Cert.KernelIdeal.Arr

open Cert.KernelIdeal Cert.KernelIdeal.Gen Cert.KernelIdeal.Steps Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The index maps over the grid: the sample block and the result block of point `t` are block `t` along the rows
    and block 0 along the columns; every parameter block is block 0 on every axis. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0 :=
  (by decide +kernel : ∀ t : Fin grid0.N, _)

/-- Row `p` of the sample block at point `t` is row `2048 t + p` of the sample array. -/
theorem iblk_x (c : Dev nD) (t : Fin cfg0.N) (p : Fin 2048) (q : Fin 512) :
    iblk m c 0 t (ix2 p q) = V m c main_arg0 (ix2 (⟨2048 * t.val + p.val, by have := t.isLt; have := p.isLt; have : cfg0.N = 32 := rfl; omega⟩ : Fin 65536) q) := by
  obtain ⟨e0, e1, -⟩ := idx_facts t
  show V m c main_arg0 (((cfg0.win 0).blk t).view.emb (ix2 p q)) = _
  refine congrArg (V m c main_arg0) (funext fun a => Fin.ext ?_)
  match a with
  | ⟨0, _⟩ => show win0_0.index t (0 : Fin 2) * 2048 + 1 * p.val = 2048 * t.val + p.val; omega
  | ⟨1, _⟩ => show win0_0.index t (1 : Fin 2) * 512 + 1 * q.val = q.val; omega

/-- The staged block of parameter array 1 is the array. -/
theorem iblk_w1 (c : Dev nD) (t : Fin cfg0.N) : iblk m c 1 t = V m c main_arg1 := by
  obtain ⟨-, -, -, -, e10, e11, e12, e20, e21, e30, e31, e32, e40, e41, e50, e51, e52, e60, e61⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 3) * 32 + 1 * (y 0).val = (y 0).val; omega
  | ⟨1, _⟩ => show win0_1.index t (1 : Fin 3) * 16 + 1 * (y 1).val = (y 1).val; omega
  | ⟨2, _⟩ => show win0_1.index t (2 : Fin 3) * 100 + 1 * (y 2).val = (y 2).val; omega

/-- The staged block of parameter array 2 is the array. -/
theorem iblk_w2 (c : Dev nD) (t : Fin cfg0.N) : iblk m c 2 t = V m c main_arg2 := by
  obtain ⟨-, -, -, -, e10, e11, e12, e20, e21, e30, e31, e32, e40, e41, e50, e51, e52, e60, e61⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 32 + 1 * (y 0).val = (y 0).val; omega
  | ⟨1, _⟩ => show win0_2.index t (1 : Fin 2) * 100 + 1 * (y 1).val = (y 1).val; omega

/-- The staged block of parameter array 3 is the array. -/
theorem iblk_w3 (c : Dev nD) (t : Fin cfg0.N) : iblk m c 3 t = V m c main_arg3 := by
  obtain ⟨-, -, -, -, e10, e11, e12, e20, e21, e30, e31, e32, e40, e41, e50, e51, e52, e60, e61⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 3) * 32 + 1 * (y 0).val = (y 0).val; omega
  | ⟨1, _⟩ => show win0_3.index t (1 : Fin 3) * 100 + 1 * (y 1).val = (y 1).val; omega
  | ⟨2, _⟩ => show win0_3.index t (2 : Fin 3) * 100 + 1 * (y 2).val = (y 2).val; omega

/-- The staged block of parameter array 4 is the array. -/
theorem iblk_w4 (c : Dev nD) (t : Fin cfg0.N) : iblk m c 4 t = V m c main_arg4 := by
  obtain ⟨-, -, -, -, e10, e11, e12, e20, e21, e30, e31, e32, e40, e41, e50, e51, e52, e60, e61⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 32 + 1 * (y 0).val = (y 0).val; omega
  | ⟨1, _⟩ => show win0_4.index t (1 : Fin 2) * 100 + 1 * (y 1).val = (y 1).val; omega

/-- The staged block of parameter array 5 is the array. -/
theorem iblk_w5 (c : Dev nD) (t : Fin cfg0.N) : iblk m c 5 t = V m c main_arg5 := by
  obtain ⟨-, -, -, -, e10, e11, e12, e20, e21, e30, e31, e32, e40, e41, e50, e51, e52, e60, e61⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 3) * 32 + 1 * (y 0).val = (y 0).val; omega
  | ⟨1, _⟩ => show win0_5.index t (1 : Fin 3) * 100 + 1 * (y 1).val = (y 1).val; omega
  | ⟨2, _⟩ => show win0_5.index t (2 : Fin 3) * 64 + 1 * (y 2).val = (y 2).val; omega

/-- The staged block of parameter array 6 is the array. -/
theorem iblk_w6 (c : Dev nD) (t : Fin cfg0.N) : iblk m c 6 t = V m c main_arg6 := by
  obtain ⟨-, -, -, -, e10, e11, e12, e20, e21, e30, e31, e32, e40, e41, e50, e51, e52, e60, e61⟩ := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 32 + 1 * (y 0).val = (y 0).val; omega
  | ⟨1, _⟩ => show win0_6.index t (1 : Fin 2) * 64 + 1 * (y 1).val = (y 1).val; omega

/-- A function `G` of the whole arrays that agrees, row by row, with the body's column over the blocks staged at every
    point: the hypothesis the next theorems take. -/
def Agrees (c : Dev nD) (G : S65536x1.Idx → Elt Ideal .f32) : Prop :=
  ∀ (t : Fin cfg0.N) (p : Fin 2048) (h : 2048 * t.val + p.val < 65536),
    body (F := Ideal) (iblk m c 0 t) (iblk m c 1 t) (iblk m c 2 t) (iblk m c 3 t) (iblk m c 4 t) (iblk m c 5 t) (iblk m c 6 t) (ix2 p (0 : Fin 1))
      = G (ix2 (⟨2048 * t.val + p.val, h⟩ : Fin 65536) (0 : Fin 1))

/-- What point `t` writes back is block `t` of `G`. -/
theorem flushed_eq (c : Dev nD) (G : S65536x1.Idx → Elt Ideal .f32) (hG : Agrees m c G) (t : Fin cfg0.N) :
    (dats m 0 c).flushed 7 t = ((cfg0.win 7).blk t).view.read (Elt Ideal) G := by
  rw [Cert.KernelIdeal.Value.flushed7, out_eq_body]
  obtain ⟨-, -, e70, e71, -⟩ := idx_facts t
  funext j
  obtain ⟨p, q, rfl⟩ : ∃ (p : Fin 2048) (q : Fin 1), j = ix2 p q := ⟨j 0, j 1, eq_ix2 j⟩
  obtain rfl : q = 0 := Subsingleton.elim _ _
  have hlt : 2048 * t.val + p.val < 65536 := by have := t.isLt; have := p.isLt; have : cfg0.N = 32 := rfl; omega
  show body (F := Ideal) (iblk m c 0 t) (iblk m c 1 t) (iblk m c 2 t) (iblk m c 3 t) (iblk m c 4 t) (iblk m c 5 t) (iblk m c 6 t) (ix2 p (0 : Fin 1))
    = G (((cfg0.win 7).blk t).view.emb (ix2 p (0 : Fin 1)))
  rw [hG t p hlt]
  refine congrArg G (funext fun a => Fin.ext ?_)
  match a with
  | ⟨0, _⟩ => show 2048 * t.val + p.val = win0_7.index t (0 : Fin 2) * 2048 + 1 * p.val; omega
  | ⟨1, _⟩ => show 0 = win0_7.index t (1 : Fin 2) * 1 + 1 * 0; omega

/-- An index of the result array is in point `t`'s block iff each coordinate is in the block's range on its axis. -/
theorem mem_blk (t : Fin cfg0.N) (i : S65536x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v0).slice (win0_7.rect t)).set ↔ _
  rw [View.set_slice_whole, Rect.mem_set_unit]
  exact Iff.rfl

/-- Every index of the result array is in the block of the point `i / 2048`. -/
theorem cover (i : S65536x1.Idx) : ∃ t : Fin cfg0.N, (cfg0.win 7).flush t = true ∧ i ∈ ((cfg0.win 7).blk t).view.set := by
  have hi0 : (i 0).val < 65536 := (i 0).isLt
  have hi1 : (i 1).val < 1 := (i 1).isLt
  have hN : cfg0.N = 32 := rfl
  let t : Fin cfg0.N := ⟨(i 0).val / 2048, by omega⟩
  obtain ⟨-, -, e70, e71, -⟩ := idx_facts t
  have ht : t.val = (i 0).val / 2048 := rfl
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 1 ≤ (i 1).val ∧ (i 1).val < win0_7.index t (1 : Fin 2) * 1 + 1; omega

/-- So the result array ends holding `G`. -/
theorem final (c : Dev nD) (G : S65536x1.Idx → Elt Ideal .f32) (hG : Agrees m c G) : (dats m 0 c).arrAt 7 cfg0.N = G :=
  (dats m 0 c).arrAt_eq_of_cover 7 G (fun t _ => flushed_eq m c G hG t) cover

/-- The kernel's run with the result array named: `G c` on every device, the arguments unchanged. -/
theorem run (G : (c : Dev nD) → S65536x1.Idx → Elt Ideal .f32) (hG : ∀ c, Agrees m c (G c)) :
    θ_run defs (onTc (τ := τ) (main (F := Ideal))) ⟨m, fun _ => 0, ρ⟩ fun r => ∀ c : Dev nD,
      r.2.mem ((c : Thread nD τ).loc main_v0) = G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (G c) (hG c)), (h c).2⟩)
    (Cert.KernelIdeal.Value.run_blocks m ρ)

end Cert.KernelIdeal.Arr

end
-- ==== Proof.RowSpec.lean ====
/-
  One sample of the network, read as plain functions of finite index sets over the extended reals.

  A sample is a row of 512 numbers cut into 32 consecutive pieces of 16.  Piece `n` goes through its own small
  perceptron: an affine map to 100 features, the positive part, a second affine map to 100 features, the
  positive part, and a third affine map to 64 numbers (`affine`, `pos`, `hidden`).  The 64 numbers are read as an
  8 × 8 matrix, row-major; for the first piece only the first 8 of them are used, as a 1 × 8 matrix after a
  softmax (`softmax`), and for the last piece only the first 8, as an 8 × 1 matrix.  The matrices are multiplied
  from the left, starting from the 1 × 1 matrix (1): `start` is the product with the 1 × 8 matrix, `step` a product
  of a row of 8 with an 8 × 8 matrix, `finish` the product with the 8 × 1 matrix — one number per sample.

  Nothing here mentions a program: these are the terms both programs are shown to compute, element by element.
-/
import Idealize.ShloMosaic.PureOps.Ideal

noncomputable section

open scoped BigOperators

namespace Cert.Row

open Idealize.ShloMosaic

/-- Column `c < 8` among the 64 outputs of a piece. -/
def lo8 (c : Fin 8) : Fin 64 := ⟨c.val, by have := c.isLt; omega⟩

/-- `v ↦ v · W + b`: a row `v` of length `n` times an `n × k` matrix, plus a row `b`. -/
def affine {n k : ℕ} (v : Fin n → EReal) (W : Fin n → Fin k → EReal) (b : Fin k → EReal) : Fin k → EReal :=
  fun j => (∑ d : Fin n, v d * W d j) + b j

/-- The positive part, entry by entry: the maximum with the number the all-zero word denotes. -/
def pos {k : ℕ} (v : Fin k → EReal) : Fin k → EReal :=
  fun j => max (v j) (Ideal.ofBits .f32 0x00000000#32)

/-- The 100 hidden features of one piece: two affine maps, each followed by the positive part. -/
def hidden (xr : Fin 16 → EReal) (W1 : Fin 16 → Fin 100 → EReal) (b1 : Fin 100 → EReal)
    (W2 : Fin 100 → Fin 100 → EReal) (b2 : Fin 100 → EReal) : Fin 100 → EReal :=
  pos (affine (pos (affine xr W1 b1)) W2 b2)

/-- The largest of eight entries, taken from −∞ upwards (and once more against −∞, as both programs do). -/
def rowMax (o : Fin 8 → EReal) : EReal :=
  max (Ideal.ofBits .f32 0xFF800000#32) ((Finset.univ : Finset (Fin 8)).fold max (Ideal.ofBits .f32 0xFF800000#32) o)

/-- The softmax of eight entries: exponentials of the entries shifted by their maximum, over their sum. -/
def softmax (o : Fin 8 → EReal) : Fin 8 → EReal :=
  fun c => Ideal.div (Ideal.exp (o c - rowMax o)) (∑ c' : Fin 8, Ideal.exp (o c' - rowMax o))

/-- The 1 × 1 matrix (1) times a 1 × 8 matrix. -/
def start (s : Fin 8 → EReal) : Fin 8 → EReal :=
  fun c => ∑ _k : Fin 1, Ideal.ofBits .f32 0x3F800000#32 * s c

/-- A row of 8 times the 8 × 8 matrix whose entry (j, c) is number `8 j + c` of the 64. -/
def step (ret : Fin 8 → EReal) (o : Fin 64 → EReal) : Fin 8 → EReal :=
  fun c => ∑ j : Fin 8, ret j * o ⟨8 * j.val + c.val, by have := j.isLt; have := c.isLt; omega⟩

/-- A row of 8 times an 8 × 1 matrix. -/
def finish (ret : Fin 8 → EReal) (o : Fin 8 → EReal) : EReal :=
  ∑ j : Fin 8, ret j * o j

end Cert.Row

end
-- ==== Proof.KRead.lean ====
/-
  The kernel body's arithmetic read one number at a time.

  Every operation of the vector-level functions `hid`, `out8`, `out64`, `softmax8`, `first`, `mid`, `last` is read at
  explicit coordinates, at the ideal values (a float is an extended real, a change of format is the identity, a matrix
  product into a zero accumulator is the plain sum of products): a matrix product at (p, j) is a sum over k; a bias row
  repeated over the samples reads the bias of its column; a reshape reads the entry with the same row-major position;
  a repetition along a unit axis reads coordinate 0 on that axis; a reduction over one axis is the sum, or the maximum
  from −∞ upwards, over that axis's coordinates.  Put together, each function at sample `p` is the corresponding
  function of one row of the sample's data: `Cert.Row.hidden`, `start ∘ softmax ∘ affine`, `step`, `finish`.
-/
import proofs.«110954_j11751030522504_2_alg».proof.Proof.KSteps
import proofs.«110954_j11751030522504_2_alg».proof.Proof.RowSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Steps

open Idealize.ShloMosaic Idealize.ShloMosaic.ValueIdx Cert.KernelIdeal Cert.KernelIdeal.Gen

/-! ## Matrix products into a zero accumulator, as sums over the contracted coordinate -/

/-- A 2048 × 16 matrix times a 16 × 100 matrix, added to zero: entry (p, j) is the sum over k of the products. -/
theorem matmul_16_100_apply (a : FVec Ideal S2048x16 .bf16) (b : FVec Ideal S16x100 .bf16) (p : Fin 2048) (j : Fin 100) :
    matmul dot_S2048x16_S16x100_S2048x100_1_0_0_1_n_n none a b (constant (F := Ideal) S2048x100 .f32 0x00000000#32) (ix2 p j)
      = ∑ k : Fin 16, a (ix2 p k) * b (ix2 k j) := by
  simp only [matmul]
  rw [Ideal.matmul_constant_zero_apply, ← Equiv.sum_comp (contrEquiv1 dot_S2048x16_S16x100_S2048x100_1_0_0_1_n_n 16 rfl rfl).symm]
  refine Finset.sum_congr rfl fun k _ => ?_
  have hk := contrEquiv1_symm_val dot_S2048x16_S16x100_S2048x100_1_0_0_1_n_n 16 rfl rfl k
  -- the row coordinate of the left operand's index is the result's row
  have l0 : ∀ q : (dot_S2048x16_S16x100_S2048x100_1_0_0_1_n_n).contr.Idx, ((dot_S2048x16_S16x100_S2048x100_1_0_0_1_n_n).lhsIdx (ix2 p j) q 0).val = p.val := fun q => by
    unfold DotDims.lhsIdx
    rw [dif_neg (show ¬(0 : Fin S2048x16.rank) ∈ (dot_S2048x16_S16x100_S2048x100_1_0_0_1_n_n).lhsBatch by decide),
      dif_pos (show (0 : Fin S2048x16.rank) ∈ (dot_S2048x16_S16x100_S2048x100_1_0_0_1_n_n).lhsNonContracting by decide)]
    rfl
  -- the column coordinate of the right operand's index is the result's column
  have r1 : ∀ q : (dot_S2048x16_S16x100_S2048x100_1_0_0_1_n_n).contr.Idx, ((dot_S2048x16_S16x100_S2048x100_1_0_0_1_n_n).rhsIdx (ix2 p j) q 1).val = j.val := fun q => by
    unfold DotDims.rhsIdx
    rw [dif_neg (show ¬(1 : Fin S16x100.rank) ∈ (dot_S2048x16_S16x100_S2048x100_1_0_0_1_n_n).rhsBatch by decide),
      dif_pos (show (1 : Fin S16x100.rank) ∈ (dot_S2048x16_S16x100_S2048x100_1_0_0_1_n_n).rhsNonContracting by decide)]
    rfl
  have el : (dot_S2048x16_S16x100_S2048x100_1_0_0_1_n_n).lhsIdx (ix2 p j) ((contrEquiv1 dot_S2048x16_S16x100_S2048x100_1_0_0_1_n_n 16 rfl rfl).symm k) = ix2 p k :=
    funext fun ax => Fin.ext (by
      match ax with
      | ⟨0, _⟩ => exact l0 _
      | ⟨1, _⟩ => exact ((dot_S2048x16_S16x100_S2048x100_1_0_0_1_n_n).lhsIdx_val_of_single rfl _ _).trans hk)
  have er : (dot_S2048x16_S16x100_S2048x100_1_0_0_1_n_n).rhsIdx (ix2 p j) ((contrEquiv1 dot_S2048x16_S16x100_S2048x100_1_0_0_1_n_n 16 rfl rfl).symm k) = ix2 k j :=
    funext fun ax => Fin.ext (by
      match ax with
      | ⟨0, _⟩ => exact ((dot_S2048x16_S16x100_S2048x100_1_0_0_1_n_n).rhsIdx_val_of_single rfl _ _).trans hk
      | ⟨1, _⟩ => exact r1 _)
  rw [el, er]

/-- A 2048 × 100 matrix times a 100 × 100 matrix, added to zero: entry (p, j) is the sum over k of the products. -/
theorem matmul_100_100_apply (a : FVec Ideal S2048x100 .bf16) (b : FVec Ideal S100x100 .bf16) (p : Fin 2048) (j : Fin 100) :
    matmul dot_S2048x100_S100x100_S2048x100_1_0_0_1_n_n none a b (constant (F := Ideal) S2048x100 .f32 0x00000000#32) (ix2 p j)
      = ∑ k : Fin 100, a (ix2 p k) * b (ix2 k j) := by
  simp only [matmul]
  rw [Ideal.matmul_constant_zero_apply, ← Equiv.sum_comp (contrEquiv1 dot_S2048x100_S100x100_S2048x100_1_0_0_1_n_n 100 rfl rfl).symm]
  refine Finset.sum_congr rfl fun k _ => ?_
  have hk := contrEquiv1_symm_val dot_S2048x100_S100x100_S2048x100_1_0_0_1_n_n 100 rfl rfl k
  -- the row coordinate of the left operand's index is the result's row
  have l0 : ∀ q : (dot_S2048x100_S100x100_S2048x100_1_0_0_1_n_n).contr.Idx, ((dot_S2048x100_S100x100_S2048x100_1_0_0_1_n_n).lhsIdx (ix2 p j) q 0).val = p.val := fun q => by
    unfold DotDims.lhsIdx
    rw [dif_neg (show ¬(0 : Fin S2048x100.rank) ∈ (dot_S2048x100_S100x100_S2048x100_1_0_0_1_n_n).lhsBatch by decide),
      dif_pos (show (0 : Fin S2048x100.rank) ∈ (dot_S2048x100_S100x100_S2048x100_1_0_0_1_n_n).lhsNonContracting by decide)]
    rfl
  -- the column coordinate of the right operand's index is the result's column
  have r1 : ∀ q : (dot_S2048x100_S100x100_S2048x100_1_0_0_1_n_n).contr.Idx, ((dot_S2048x100_S100x100_S2048x100_1_0_0_1_n_n).rhsIdx (ix2 p j) q 1).val = j.val := fun q => by
    unfold DotDims.rhsIdx
    rw [dif_neg (show ¬(1 : Fin S100x100.rank) ∈ (dot_S2048x100_S100x100_S2048x100_1_0_0_1_n_n).rhsBatch by decide),
      dif_pos (show (1 : Fin S100x100.rank) ∈ (dot_S2048x100_S100x100_S2048x100_1_0_0_1_n_n).rhsNonContracting by decide)]
    rfl
  have el : (dot_S2048x100_S100x100_S2048x100_1_0_0_1_n_n).lhsIdx (ix2 p j) ((contrEquiv1 dot_S2048x100_S100x100_S2048x100_1_0_0_1_n_n 100 rfl rfl).symm k) = ix2 p k :=
    funext fun ax => Fin.ext (by
      match ax with
      | ⟨0, _⟩ => exact l0 _
      | ⟨1, _⟩ => exact ((dot_S2048x100_S100x100_S2048x100_1_0_0_1_n_n).lhsIdx_val_of_single rfl _ _).trans hk)
  have er : (dot_S2048x100_S100x100_S2048x100_1_0_0_1_n_n).rhsIdx (ix2 p j) ((contrEquiv1 dot_S2048x100_S100x100_S2048x100_1_0_0_1_n_n 100 rfl rfl).symm k) = ix2 k j :=
    funext fun ax => Fin.ext (by
      match ax with
      | ⟨0, _⟩ => exact ((dot_S2048x100_S100x100_S2048x100_1_0_0_1_n_n).rhsIdx_val_of_single rfl _ _).trans hk
      | ⟨1, _⟩ => exact r1 _)
  rw [el, er]

/-- A 2048 × 100 matrix times a 100 × 8 matrix, added to zero: entry (p, j) is the sum over k of the products. -/
theorem matmul_100_8_apply (a : FVec Ideal S2048x100 .bf16) (b : FVec Ideal S100x8 .bf16) (p : Fin 2048) (j : Fin 8) :
    matmul dot_S2048x100_S100x8_S2048x8_1_0_0_1_n_n none a b (constant (F := Ideal) S2048x8 .f32 0x00000000#32) (ix2 p j)
      = ∑ k : Fin 100, a (ix2 p k) * b (ix2 k j) := by
  simp only [matmul]
  rw [Ideal.matmul_constant_zero_apply, ← Equiv.sum_comp (contrEquiv1 dot_S2048x100_S100x8_S2048x8_1_0_0_1_n_n 100 rfl rfl).symm]
  refine Finset.sum_congr rfl fun k _ => ?_
  have hk := contrEquiv1_symm_val dot_S2048x100_S100x8_S2048x8_1_0_0_1_n_n 100 rfl rfl k
  -- the row coordinate of the left operand's index is the result's row
  have l0 : ∀ q : (dot_S2048x100_S100x8_S2048x8_1_0_0_1_n_n).contr.Idx, ((dot_S2048x100_S100x8_S2048x8_1_0_0_1_n_n).lhsIdx (ix2 p j) q 0).val = p.val := fun q => by
    unfold DotDims.lhsIdx
    rw [dif_neg (show ¬(0 : Fin S2048x100.rank) ∈ (dot_S2048x100_S100x8_S2048x8_1_0_0_1_n_n).lhsBatch by decide),
      dif_pos (show (0 : Fin S2048x100.rank) ∈ (dot_S2048x100_S100x8_S2048x8_1_0_0_1_n_n).lhsNonContracting by decide)]
    rfl
  -- the column coordinate of the right operand's index is the result's column
  have r1 : ∀ q : (dot_S2048x100_S100x8_S2048x8_1_0_0_1_n_n).contr.Idx, ((dot_S2048x100_S100x8_S2048x8_1_0_0_1_n_n).rhsIdx (ix2 p j) q 1).val = j.val := fun q => by
    unfold DotDims.rhsIdx
    rw [dif_neg (show ¬(1 : Fin S100x8.rank) ∈ (dot_S2048x100_S100x8_S2048x8_1_0_0_1_n_n).rhsBatch by decide),
      dif_pos (show (1 : Fin S100x8.rank) ∈ (dot_S2048x100_S100x8_S2048x8_1_0_0_1_n_n).rhsNonContracting by decide)]
    rfl
  have el : (dot_S2048x100_S100x8_S2048x8_1_0_0_1_n_n).lhsIdx (ix2 p j) ((contrEquiv1 dot_S2048x100_S100x8_S2048x8_1_0_0_1_n_n 100 rfl rfl).symm k) = ix2 p k :=
    funext fun ax => Fin.ext (by
      match ax with
      | ⟨0, _⟩ => exact l0 _
      | ⟨1, _⟩ => exact ((dot_S2048x100_S100x8_S2048x8_1_0_0_1_n_n).lhsIdx_val_of_single rfl _ _).trans hk)
  have er : (dot_S2048x100_S100x8_S2048x8_1_0_0_1_n_n).rhsIdx (ix2 p j) ((contrEquiv1 dot_S2048x100_S100x8_S2048x8_1_0_0_1_n_n 100 rfl rfl).symm k) = ix2 k j :=
    funext fun ax => Fin.ext (by
      match ax with
      | ⟨0, _⟩ => exact ((dot_S2048x100_S100x8_S2048x8_1_0_0_1_n_n).rhsIdx_val_of_single rfl _ _).trans hk
      | ⟨1, _⟩ => exact r1 _)
  rw [el, er]

/-- A 2048 × 100 matrix times a 100 × 64 matrix, added to zero: entry (p, j) is the sum over k of the products. -/
theorem matmul_100_64_apply (a : FVec Ideal S2048x100 .bf16) (b : FVec Ideal S100x64 .bf16) (p : Fin 2048) (j : Fin 64) :
    matmul dot_S2048x100_S100x64_S2048x64_1_0_0_1_n_n none a b (constant (F := Ideal) S2048x64 .f32 0x00000000#32) (ix2 p j)
      = ∑ k : Fin 100, a (ix2 p k) * b (ix2 k j) := by
  simp only [matmul]
  rw [Ideal.matmul_constant_zero_apply, ← Equiv.sum_comp (contrEquiv1 dot_S2048x100_S100x64_S2048x64_1_0_0_1_n_n 100 rfl rfl).symm]
  refine Finset.sum_congr rfl fun k _ => ?_
  have hk := contrEquiv1_symm_val dot_S2048x100_S100x64_S2048x64_1_0_0_1_n_n 100 rfl rfl k
  -- the row coordinate of the left operand's index is the result's row
  have l0 : ∀ q : (dot_S2048x100_S100x64_S2048x64_1_0_0_1_n_n).contr.Idx, ((dot_S2048x100_S100x64_S2048x64_1_0_0_1_n_n).lhsIdx (ix2 p j) q 0).val = p.val := fun q => by
    unfold DotDims.lhsIdx
    rw [dif_neg (show ¬(0 : Fin S2048x100.rank) ∈ (dot_S2048x100_S100x64_S2048x64_1_0_0_1_n_n).lhsBatch by decide),
      dif_pos (show (0 : Fin S2048x100.rank) ∈ (dot_S2048x100_S100x64_S2048x64_1_0_0_1_n_n).lhsNonContracting by decide)]
    rfl
  -- the column coordinate of the right operand's index is the result's column
  have r1 : ∀ q : (dot_S2048x100_S100x64_S2048x64_1_0_0_1_n_n).contr.Idx, ((dot_S2048x100_S100x64_S2048x64_1_0_0_1_n_n).rhsIdx (ix2 p j) q 1).val = j.val := fun q => by
    unfold DotDims.rhsIdx
    rw [dif_neg (show ¬(1 : Fin S100x64.rank) ∈ (dot_S2048x100_S100x64_S2048x64_1_0_0_1_n_n).rhsBatch by decide),
      dif_pos (show (1 : Fin S100x64.rank) ∈ (dot_S2048x100_S100x64_S2048x64_1_0_0_1_n_n).rhsNonContracting by decide)]
    rfl
  have el : (dot_S2048x100_S100x64_S2048x64_1_0_0_1_n_n).lhsIdx (ix2 p j) ((contrEquiv1 dot_S2048x100_S100x64_S2048x64_1_0_0_1_n_n 100 rfl rfl).symm k) = ix2 p k :=
    funext fun ax => Fin.ext (by
      match ax with
      | ⟨0, _⟩ => exact l0 _
      | ⟨1, _⟩ => exact ((dot_S2048x100_S100x64_S2048x64_1_0_0_1_n_n).lhsIdx_val_of_single rfl _ _).trans hk)
  have er : (dot_S2048x100_S100x64_S2048x64_1_0_0_1_n_n).rhsIdx (ix2 p j) ((contrEquiv1 dot_S2048x100_S100x64_S2048x64_1_0_0_1_n_n 100 rfl rfl).symm k) = ix2 k j :=
    funext fun ax => Fin.ext (by
      match ax with
      | ⟨0, _⟩ => exact ((dot_S2048x100_S100x64_S2048x64_1_0_0_1_n_n).rhsIdx_val_of_single rfl _ _).trans hk
      | ⟨1, _⟩ => exact r1 _)
  rw [el, er]

/-! ## Bias rows and weight slices read at explicit coordinates -/

/-- A row of 100 biases repeated over the 2048 samples: entry (p, j) is bias j. -/
theorem bias100_apply (b : FVec Ideal S1x100 .f32) (p : Fin 2048) (j : Fin 100) :
    broadcastTo S2048x100 (shapeCast S1x100 (shapeCast S100 b shapeCasts_S1x100_S100) shapeCasts_S100_S1x100)
      broadcasts_S1x100_S2048x100 (ix2 p j) = b (ix2 (0 : Fin 1) j) := by
  rw [broadcastTo_1b_ab_apply, shapeCast_a_1a_apply, shapeCast_1a_a_apply]

/-- A row of 64 biases repeated over the 2048 samples: entry (p, m) is bias m. -/
theorem bias64_apply (b : FVec Ideal S1x64 .f32) (p : Fin 2048) (m : Fin 64) :
    broadcastTo S2048x64 (shapeCast S1x64 (shapeCast S64 b shapeCasts_S1x64_S64) shapeCasts_S64_S1x64)
      broadcasts_S1x64_S2048x64 (ix2 p m) = b (ix2 (0 : Fin 1) m) := by
  rw [broadcastTo_1b_ab_apply, shapeCast_a_1a_apply, shapeCast_1a_a_apply]

/-- The first 8 of a row of 64 numbers: entry c is number c. -/
theorem first8_apply (v : FVec Ideal S64 .f32) (c : Fin 8) :
    extractStridedSlice S8 ![0] v slices_S64_o0_S8 (ix1 c) = v (ix1 (Cert.Row.lo8 c)) :=
  extractStridedSlice_apply _ _ _ _ _ (fun ax => by
    match ax with
    | ⟨0, _⟩ => exact (Nat.zero_add _).symm)

/-- The first 8 of a row of 64 biases repeated over the 2048 samples: entry (p, c) is bias c. -/
theorem bias8_apply (b : FVec Ideal S1x64 .f32) (p : Fin 2048) (c : Fin 8) :
    broadcastTo S2048x8 (shapeCast S1x8 (extractStridedSlice S8 ![0] (shapeCast S64 b shapeCasts_S1x64_S64) slices_S64_o0_S8)
      shapeCasts_S8_S1x8) broadcasts_S1x8_S2048x8 (ix2 p c) = b (ix2 (0 : Fin 1) (Cert.Row.lo8 c)) := by
  rw [broadcastTo_1b_ab_apply, shapeCast_a_1a_apply, first8_apply, shapeCast_1a_a_apply]

/-- The first 8 columns of the 100 × 64 matrix of a piece's third layer: entry (k, c) is weight (k, c). -/
theorem w3lo_apply (w3 : FVec Ideal S1x100x64 .f32) (k : Fin 100) (c : Fin 8) :
    extractStridedSlice S100x8 ![0, 0] (shapeCast S100x64 w3 shapeCasts_S1x100x64_S100x64) slices_S100x64_o0_0_S100x8 (ix2 k c)
      = w3 (ix3 (0 : Fin 1) k (Cert.Row.lo8 c)) := by
  rw [slice2_axis1_apply 0 _ _ k c (Cert.Row.lo8 c) (Nat.zero_add _).symm, shapeCast_1ab_ab_apply]

/-! ## The reshapes and broadcasts around the product with the running row -/

/-- A 2048 × 8 array read as 2048 × 8 × 1: entry (p, j, u) is entry (p, j). -/
theorem cast_8_8x1_apply (x : FVec Ideal S2048x8 .f32) (p : Fin 2048) (j : Fin 8) (u : Fin 1) :
    shapeCast S2048x8x1 x shapeCasts_S2048x8_S2048x8x1 (ix3 p j u) = x (ix2 p j) :=
  shapeCast_apply x _ _ _ (by
    have hu : u.val = 0 := by omega
    rw [Shape.rowMajor_val_three, Shape.rowMajor_val_two]
    show p.val * 8 + j.val = (p.val * 8 + j.val) * 1 + u.val
    omega)

/-- A 2048 × 8 array read as 2048 × 1 × 8: entry (p, u, c) is entry (p, c). -/
theorem cast_8_1x8_apply (x : FVec Ideal S2048x8 .f32) (p : Fin 2048) (u : Fin 1) (c : Fin 8) :
    shapeCast S2048x1x8 x shapeCasts_S2048x8_S2048x1x8 (ix3 p u c) = x (ix2 p c) :=
  shapeCast_apply x _ _ _ (by
    have hu : u.val = 0 := by omega
    rw [Shape.rowMajor_val_three, Shape.rowMajor_val_two]
    show p.val * 8 + c.val = (p.val * 1 + u.val) * 8 + c.val
    omega)

/-- A 2048 × 1 array read as 2048 × 1 × 1: entry (p, u, v) is entry (p, 0). -/
theorem cast_1_1x1_apply (x : FVec Ideal S2048x1 .f32) (p : Fin 2048) (u v : Fin 1) :
    shapeCast S2048x1x1 x shapeCasts_S2048x1_S2048x1x1 (ix3 p u v) = x (ix2 p (0 : Fin 1)) :=
  shapeCast_apply x _ _ _ (by
    have hu : u.val = 0 := by omega
    have hv : v.val = 0 := by omega
    rw [Shape.rowMajor_val_three, Shape.rowMajor_val_two]
    show p.val * 1 + 0 = (p.val * 1 + u.val) * 1 + v.val
    omega)

/-- A 2048 × 64 array read as 2048 × 8 × 8, row-major: entry (p, j, c) is entry (p, 8 j + c). -/
theorem cast_64_8x8_apply (x : FVec Ideal S2048x64 .f32) (p : Fin 2048) (j c : Fin 8) :
    shapeCast S2048x8x8 x shapeCasts_S2048x64_S2048x8x8 (ix3 p j c)
      = x (ix2 p (⟨8 * j.val + c.val, by have := j.isLt; have := c.isLt; omega⟩ : Fin 64)) :=
  shapeCast_apply x _ _ _ (by
    rw [Shape.rowMajor_val_three, Shape.rowMajor_val_two]
    show p.val * 64 + (8 * j.val + c.val) = (p.val * 8 + j.val) * 8 + c.val
    omega)

/-- A column of 2048 numbers read as 2048 × 1: entry (p, u) is number p. -/
theorem cast_col_apply (x : FVec Ideal S2048 .f32) (p : Fin 2048) (u : Fin 1) :
    shapeCast S2048x1 x shapeCasts_S2048_S2048x1 (ix2 p u) = x (ix1 p) :=
  shapeCast_apply x _ _ _ (by
    have hu : u.val = 0 := by omega
    rw [Shape.rowMajor_val_two, Shape.rowMajor_val_one]
    show p.val = p.val * 1 + u.val
    omega)

/-- A 2048 × 1 array repeated along its last axis to 2048 × 8: entry (p, c) is entry (p, 0). -/
theorem bcast_col_8_apply (x : FVec Ideal S2048x1 .f32) (p : Fin 2048) (c : Fin 8) :
    broadcastTo S2048x8 x broadcasts_S2048x1_S2048x8 (ix2 p c) = x (ix2 p (0 : Fin 1)) := by
  refine broadcastTo_apply x _ (ix2 p c) (ix2 p (0 : Fin 1)) fun ax => ?_
  match ax with
  | ⟨0, _⟩ => rfl
  | ⟨1, _⟩ => rfl

/-- A 2048 × 8 × 1 array repeated along its last axis to 2048 × 8 × 8: entry (p, j, c) is entry (p, j, 0). -/
theorem bcast_8x1_8x8_apply (x : FVec Ideal S2048x8x1 .f32) (p : Fin 2048) (j c : Fin 8) :
    broadcastTo S2048x8x8 x broadcasts_S2048x8x1_S2048x8x8 (ix3 p j c) = x (ix3 p j (0 : Fin 1)) := by
  refine broadcastTo_apply x _ (ix3 p j c) (ix3 p j (0 : Fin 1)) fun ax => ?_
  match ax with
  | ⟨0, _⟩ => rfl
  | ⟨1, _⟩ => rfl
  | ⟨2, _⟩ => rfl

/-- A 2048 × 1 × 1 array repeated along its last axis to 2048 × 1 × 8: entry (p, u, c) is entry (p, 0, 0). -/
theorem bcast_1x1_1x8_apply (x : FVec Ideal S2048x1x1 .f32) (p : Fin 2048) (u : Fin 1) (c : Fin 8) :
    broadcastTo S2048x1x8 x broadcasts_S2048x1x1_S2048x1x8 (ix3 p u c) = x (ix3 p (0 : Fin 1) (0 : Fin 1)) := by
  refine broadcastTo_apply x _ (ix3 p u c) (ix3 p (0 : Fin 1) (0 : Fin 1)) fun ax => ?_
  match ax with
  | ⟨0, _⟩ => rfl
  | ⟨1, _⟩ => rfl
  | ⟨2, _⟩ => rfl

/-! ## The reductions over one axis, as sums and a maximum over that axis's coordinates -/

/-- The sum over the middle axis of a 2048 × 8 × 8 array: entry (p, c) is the sum over j of the entries (p, j, c). -/
theorem sum_mid_8x8_apply (X : FVec Ideal S2048x8x8 .f32) (p : Fin 2048) (c : Fin 8) :
    multiReduction .add [1] S2048x8 X 0x00000000#32 reduces_S2048x8x8_S2048x8 (.inl rfl) rfl (ix2 p c)
      = ∑ j : Fin 8, X (ix3 p j c) := by
  refine (Ideal.multiReduction_add_single X 0x00000000#32 reduces_S2048x8x8_S2048x8 (.inl rfl) rfl (ix2 p c)).trans ?_
  show ∑ j : Fin 8, X (reduces_S2048x8x8_S2048x8.lift (ix2 p c) j) = _
  refine Finset.sum_congr rfl fun j _ => congrArg X (funext fun ax => Fin.ext ?_)
  match ax with
  | ⟨0, _⟩ => rfl
  | ⟨1, _⟩ => rfl
  | ⟨2, _⟩ => rfl

/-- The sum over the middle axis of a 2048 × 1 × 8 array: entry (p, c) is the one-term sum of the entries (p, k, c). -/
theorem sum_mid_1x8_apply (X : FVec Ideal S2048x1x8 .f32) (p : Fin 2048) (c : Fin 8) :
    multiReduction .add [1] S2048x8 X 0x00000000#32 reduces_S2048x1x8_S2048x8 (.inl rfl) rfl (ix2 p c)
      = ∑ k : Fin 1, X (ix3 p k c) := by
  refine (Ideal.multiReduction_add_single X 0x00000000#32 reduces_S2048x1x8_S2048x8 (.inl rfl) rfl (ix2 p c)).trans ?_
  show ∑ k : Fin 1, X (reduces_S2048x1x8_S2048x8.lift (ix2 p c) k) = _
  refine Finset.sum_congr rfl fun k _ => congrArg X (funext fun ax => Fin.ext ?_)
  match ax with
  | ⟨0, _⟩ => rfl
  | ⟨1, _⟩ => rfl
  | ⟨2, _⟩ => rfl

/-- The sum over the middle axis of a 2048 × 8 × 1 array: entry (p, 0) is the sum over j of the entries (p, j, 0). -/
theorem sum_mid_8x1_apply (X : FVec Ideal S2048x8x1 .f32) (p : Fin 2048) :
    multiReduction .add [1] S2048x1 X 0x00000000#32 reduces_S2048x8x1_S2048x1 (.inl rfl) rfl (ix2 p (0 : Fin 1))
      = ∑ j : Fin 8, X (ix3 p j (0 : Fin 1)) := by
  refine (Ideal.multiReduction_add_single X 0x00000000#32 reduces_S2048x8x1_S2048x1 (.inl rfl) rfl (ix2 p (0 : Fin 1))).trans ?_
  show ∑ j : Fin 8, X (reduces_S2048x8x1_S2048x1.lift (ix2 p (0 : Fin 1)) j) = _
  refine Finset.sum_congr rfl fun j _ => congrArg X (funext fun ax => Fin.ext ?_)
  match ax with
  | ⟨0, _⟩ => rfl
  | ⟨1, _⟩ => rfl
  | ⟨2, _⟩ => rfl

/-- The sum of every row of a 2048 × 8 array: entry p is the sum over c of the entries (p, c). -/
theorem sum_row8_apply (X : FVec Ideal S2048x8 .f32) (p : Fin 2048) :
    multiReduction .add [1] S2048 X 0x00000000#32 reduces_S2048x8_S2048 (.inl rfl) rfl (ix1 p)
      = ∑ c : Fin 8, X (ix2 p c) := by
  refine (Ideal.multiReduction_add_single X 0x00000000#32 reduces_S2048x8_S2048 (.inl rfl) rfl (ix1 p)).trans ?_
  show ∑ c : Fin 8, X (reduces_S2048x8_S2048.lift (ix1 p) c) = _
  refine Finset.sum_congr rfl fun c _ => congrArg X (funext fun ax => Fin.ext ?_)
  match ax with
  | ⟨0, _⟩ => rfl
  | ⟨1, _⟩ => rfl

/-- The maximum of every row of a 2048 × 8 array, taken from −∞ upwards: entry p is the largest of the entries (p, c). -/
theorem max_row8_apply (X : FVec Ideal S2048x8 .f32) (p : Fin 2048) :
    multiReduction .maximumf [1] S2048 X 0xFF800000#32 reduces_S2048x8_S2048 (.inl rfl) rfl (ix1 p)
      = (Finset.univ : Finset (Fin 8)).fold max (Ideal.ofBits .f32 0xFF800000#32) (fun c => X (ix2 p c)) := by
  refine (Ideal.multiReduction_maximumf_single X 0xFF800000#32 reduces_S2048x8_S2048 (.inl rfl) rfl (ix1 p)).trans ?_
  show (Finset.univ : Finset (Fin 8)).fold max (Ideal.ofBits .f32 0xFF800000#32) (X ∘ reduces_S2048x8_S2048.lift (ix1 p)) = _
  have e : (X ∘ reduces_S2048x8_S2048.lift (ix1 p)) = fun c : Fin 8 => X (ix2 p c) :=
    funext fun c => congrArg X (funext fun ax => Fin.ext (by
      match ax with
      | ⟨0, _⟩ => rfl
      | ⟨1, _⟩ => rfl))
  exact congrArg (fun f => (Finset.univ : Finset (Fin 8)).fold max (Ideal.ofBits .f32 0xFF800000#32) f) e

/-! ## The layers of one piece, read at a sample and a feature -/

/-- The running row before the first piece is 1 at every sample. -/
theorem ones_apply (p : Fin 2048) : ones (F := Ideal) (ix2 p (0 : Fin 1)) = Ideal.ofBits .f32 0x3F800000#32 := rfl

/-- An exponential read at an index is the exponential of the element. -/
theorem exp_apply {s : Shape} {φ : FTy} (x : FVec Ideal s φ) (i : s.Idx) : exp x i = Ideal.exp (x i) := rfl

/-- The two hidden layers at sample p and feature k: two affine maps, each followed by the positive part. -/
theorem hid_apply (xs : Vec Ideal S2048x16 .f32) (w1 : Vec Ideal S1x16x100 .f32) (b1 : Vec Ideal S1x100 .f32) (w2 : Vec Ideal S1x100x100 .f32) (b2 : Vec Ideal S1x100 .f32) (p : Fin 2048) (k : Fin 100) :
    hid (F := Ideal) xs w1 b1 w2 b2 (ix2 p k) = Cert.Row.hidden (fun d => xs (ix2 p d)) (fun d j => w1 (ix3 (0 : Fin 1) d j)) (fun j => b1 (ix2 (0 : Fin 1) j)) (fun j k' => w2 (ix3 (0 : Fin 1) j k')) (fun k' => b2 (ix2 (0 : Fin 1) k')) k := by
  unfold hid
  simp only [maximumf_apply, addf_apply, broadcast_apply]
  rw [matmul_100_100_apply, bias100_apply]
  simp only [truncf_apply, maximumf_apply, addf_apply, broadcast_apply, matmul_16_100_apply, bias100_apply, shapeCast_1ab_ab_apply]
  rfl

/-- The first 8 outputs of the third layer at sample p: the affine map with the first 8 columns and biases. -/
theorem out8_apply (h : FVec Ideal S2048x100 .f32) (w3 : Vec Ideal S1x100x64 .f32) (b3 : Vec Ideal S1x64 .f32) (p : Fin 2048) (c : Fin 8) :
    out8 (F := Ideal) h w3 b3 (ix2 p c) = Cert.Row.affine (fun k => h (ix2 p k)) (fun k c' => w3 (ix3 (0 : Fin 1) k (Cert.Row.lo8 c'))) (fun c' => b3 (ix2 (0 : Fin 1) (Cert.Row.lo8 c'))) c := by
  unfold out8
  rw [addf_apply, matmul_100_8_apply, bias8_apply]
  simp only [truncf_apply, w3lo_apply]
  rfl

/-- The 64 outputs of the third layer at sample p: the affine map with all 64 columns and biases. -/
theorem out64_apply (h : FVec Ideal S2048x100 .f32) (w3 : Vec Ideal S1x100x64 .f32) (b3 : Vec Ideal S1x64 .f32) (p : Fin 2048) (m : Fin 64) :
    out64 (F := Ideal) h w3 b3 (ix2 p m) = Cert.Row.affine (fun k => h (ix2 p k)) (fun k c' => w3 (ix3 (0 : Fin 1) k c')) (fun c' => b3 (ix2 (0 : Fin 1) c')) m := by
  unfold out64
  rw [addf_apply, matmul_100_64_apply, bias64_apply]
  simp only [truncf_apply, shapeCast_1ab_ab_apply]
  rfl

/-! ## The product with the running row, piece by piece -/

/-- The softmax over the 8 outputs of sample p: exponentials of the outputs shifted by their maximum, over their sum. -/
theorem softmax8_apply (o : FVec Ideal S2048x8 .f32) (p : Fin 2048) (c : Fin 8) :
    softmax8 (F := Ideal) o (ix2 p c) = Cert.Row.softmax (fun c' => o (ix2 p c')) c := by
  unfold softmax8
  simp only [divf_apply, bcast_col_8_apply, cast_col_apply]
  rw [sum_row8_apply]
  simp only [exp_apply, subf_apply, maximumf_apply, broadcast_apply, bcast_col_8_apply, cast_col_apply]
  rw [max_row8_apply]
  rfl

/-- A middle piece at sample p: the running row of 8 times the 8 × 8 matrix whose entry (j, c) is output 8 j + c. -/
theorem mid_apply (ret : FVec Ideal S2048x8 .f32) (h : FVec Ideal S2048x100 .f32) (w3 : Vec Ideal S1x100x64 .f32) (b3 : Vec Ideal S1x64 .f32) (p : Fin 2048) (c : Fin 8) :
    mid (F := Ideal) ret h w3 b3 (ix2 p c) = Cert.Row.step (fun j => ret (ix2 p j)) (Cert.Row.affine (fun k => h (ix2 p k)) (fun k c' => w3 (ix3 (0 : Fin 1) k c')) (fun c' => b3 (ix2 (0 : Fin 1) c'))) c := by
  unfold mid
  rw [sum_mid_8x8_apply]
  simp only [mulf_apply, bcast_8x1_8x8_apply, cast_8_8x1_apply, cast_64_8x8_apply, out64_apply]
  rfl

/-- The last piece at sample p: the running row of 8 times the 8 × 1 matrix of the first 8 outputs. -/
theorem last_apply (ret : FVec Ideal S2048x8 .f32) (h : FVec Ideal S2048x100 .f32) (w3 : Vec Ideal S1x100x64 .f32) (b3 : Vec Ideal S1x64 .f32) (p : Fin 2048) :
    last (F := Ideal) ret h w3 b3 (ix2 p (0 : Fin 1)) = Cert.Row.finish (fun j => ret (ix2 p j)) (Cert.Row.affine (fun k => h (ix2 p k)) (fun k c' => w3 (ix3 (0 : Fin 1) k (Cert.Row.lo8 c'))) (fun c' => b3 (ix2 (0 : Fin 1) (Cert.Row.lo8 c')))) := by
  unfold last
  rw [sum_mid_8x1_apply]
  simp only [mulf_apply, cast_8_8x1_apply, out8_apply]
  rfl

/-- The first piece at sample p: the 1 × 1 matrix (1) times the 1 × 8 matrix of the softmax of the first 8 outputs. -/
theorem first_apply (h : FVec Ideal S2048x100 .f32) (w3 : Vec Ideal S1x100x64 .f32) (b3 : Vec Ideal S1x64 .f32) (p : Fin 2048) (c : Fin 8) :
    first (F := Ideal) ones h w3 b3 (ix2 p c) = Cert.Row.start (Cert.Row.softmax (Cert.Row.affine (fun k => h (ix2 p k)) (fun k c' => w3 (ix3 (0 : Fin 1) k (Cert.Row.lo8 c'))) (fun c' => b3 (ix2 (0 : Fin 1) (Cert.Row.lo8 c'))))) c := by
  unfold first
  rw [sum_mid_1x8_apply]
  simp only [mulf_apply, bcast_1x1_1x8_apply, cast_1_1x1_apply, cast_8_1x8_apply, ones_apply, softmax8_apply, out8_apply]
  rfl

end Cert.KernelIdeal.Steps

end
-- ==== Proof.RSteps.lean ====
/-
  The reference's arithmetic, piece of the sample by piece, as functions of the whole argument arrays.

  The reference treats all 65536 samples at once and the 32 pieces one after the other with the same host
  operations; only the slices it takes differ: columns `xo … xo + 15` of the samples and slice `ci` of each parameter
  array.  `rhid` is the two hidden layers of a piece (a contraction, the bias row broadcast over the samples, the
  positive part against a broadcast zero, twice); `rout8` / `rout64` the third layer with its first 8 or all 64
  outputs; `rsoftmax` the softmax over 8 outputs; `rfirst`, `rmid`, `rlast` the product of the running 1 × 8 row of
  every sample with the piece's 1 × 8, 8 × 8 or 8 × 1 matrix, as a batched contraction.
-/
import proofs.«110954_j11751030522504_2_alg».proof.Proof.Gen.ReferenceIdeal

noncomputable section

namespace Cert.ReferenceIdeal.Steps

open Idealize.ShloMosaic Idealize.SL.Sem Cert.ReferenceIdeal Cert.ReferenceIdeal.Gen

variable {F : FTy → Type} [FloatOps F]

/-- The running 1 × 1 matrix (1) of every sample. -/
def rones : (⟨S65536x1x1, .f32⟩ : BufTy).Contents (Elt F) :=
  broadcastInDim S65536x1x1 ![] bcast_S_S65536x1x1 (constant S_ .f32 0x3F800000#32)

/-- The positive part: the maximum with a broadcast zero. -/
def rrelu (a : (⟨S65536x100, .f32⟩ : BufTy).Contents (Elt F)) : (⟨S65536x100, .f32⟩ : BufTy).Contents (Elt F) :=
  maximumf a (broadcastInDim S65536x100 ![] bcast_S_S65536x100 (constant S_ .f32 0x00000000#32))

/-- Row `ci` of a [32, 100] bias array, broadcast over the samples. -/
def rbias100 (ci : ℕ) (hB : S32x100.Slices ![ci, 0] S1x100) (B : (⟨S32x100, .f32⟩ : BufTy).Contents (Elt F)) : (⟨S65536x100, .f32⟩ : BufTy).Contents (Elt F) :=
  broadcastInDim S65536x100 ![0, 1] bcast_S1x100_S65536x100_0_1
    (broadcastInDim S1x100 ![1] bcast_S100_S1x100_1 (shapeCast S100 (extractStridedSlice S1x100 ![ci, 0] B hB) shapeCasts_S1x100_S100))

/-- Both hidden layers of the piece at columns `xo …` with parameter slice `ci`. -/
def rhid (xo ci : ℕ) (hX : S65536x512.Slices ![0, xo] S65536x16) (hW1 : S32x16x100.Slices ![ci, 0, 0] S1x16x100)
    (hB : S32x100.Slices ![ci, 0] S1x100) (hW2 : S32x100x100.Slices ![ci, 0, 0] S1x100x100)
    (X : (⟨S65536x512, .f32⟩ : BufTy).Contents (Elt F)) (W1 : (⟨S32x16x100, .f32⟩ : BufTy).Contents (Elt F)) (B1 : (⟨S32x100, .f32⟩ : BufTy).Contents (Elt F)) (W2 : (⟨S32x100x100, .f32⟩ : BufTy).Contents (Elt F)) (B2 : (⟨S32x100, .f32⟩ : BufTy).Contents (Elt F)) :
    (⟨S65536x100, .f32⟩ : BufTy).Contents (Elt F) :=
  rrelu (addf
    (Host.dotGeneral dot_S65536x100_S100x100_S65536x100_1_0_0_1_n_n none
      (rrelu (addf
        (Host.dotGeneral dot_S65536x16_S16x100_S65536x100_1_0_0_1_n_n none (extractStridedSlice S65536x16 ![0, xo] X hX)
          (shapeCast S16x100 (extractStridedSlice S1x16x100 ![ci, 0, 0] W1 hW1) shapeCasts_S1x16x100_S16x100))
        (rbias100 ci hB B1)))
      (shapeCast S100x100 (extractStridedSlice S1x100x100 ![ci, 0, 0] W2 hW2) shapeCasts_S1x100x100_S100x100))
    (rbias100 ci hB B2))

/-- The third layer restricted to its first 8 outputs. -/
def rout8 (ci : ℕ) (hW3 : S32x100x64.Slices ![ci, 0, 0] S1x100x64) (hB3 : S32x64.Slices ![ci, 0] S1x64)
    (h : (⟨S65536x100, .f32⟩ : BufTy).Contents (Elt F)) (W3 : (⟨S32x100x64, .f32⟩ : BufTy).Contents (Elt F)) (B3 : (⟨S32x64, .f32⟩ : BufTy).Contents (Elt F)) : (⟨S65536x8, .f32⟩ : BufTy).Contents (Elt F) :=
  addf
    (Host.dotGeneral dot_S65536x100_S100x8_S65536x8_1_0_0_1_n_n none h
      (extractStridedSlice S100x8 ![0, 0] (shapeCast S100x64 (extractStridedSlice S1x100x64 ![ci, 0, 0] W3 hW3) shapeCasts_S1x100x64_S100x64) slices_S100x64_S100x8_0_0))
    (broadcastInDim S65536x8 ![0, 1] bcast_S1x8_S65536x8_0_1
      (broadcastInDim S1x8 ![1] bcast_S8_S1x8_1
        (extractStridedSlice S8 ![0] (shapeCast S64 (extractStridedSlice S1x64 ![ci, 0] B3 hB3) shapeCasts_S1x64_S64) slices_S64_S8_0)))

/-- The third layer with all 64 outputs. -/
def rout64 (ci : ℕ) (hW3 : S32x100x64.Slices ![ci, 0, 0] S1x100x64) (hB3 : S32x64.Slices ![ci, 0] S1x64)
    (h : (⟨S65536x100, .f32⟩ : BufTy).Contents (Elt F)) (W3 : (⟨S32x100x64, .f32⟩ : BufTy).Contents (Elt F)) (B3 : (⟨S32x64, .f32⟩ : BufTy).Contents (Elt F)) : (⟨S65536x64, .f32⟩ : BufTy).Contents (Elt F) :=
  addf
    (Host.dotGeneral dot_S65536x100_S100x64_S65536x64_1_0_0_1_n_n none h
      (shapeCast S100x64 (extractStridedSlice S1x100x64 ![ci, 0, 0] W3 hW3) shapeCasts_S1x100x64_S100x64))
    (broadcastInDim S65536x64 ![0, 1] bcast_S1x64_S65536x64_0_1
      (broadcastInDim S1x64 ![1] bcast_S64_S1x64_1 (shapeCast S64 (extractStridedSlice S1x64 ![ci, 0] B3 hB3) shapeCasts_S1x64_S64)))

/-- The exponentials of the 8 outputs shifted by their maximum. -/
def rexps (o : (⟨S65536x8, .f32⟩ : BufTy).Contents (Elt F)) : (⟨S65536x8, .f32⟩ : BufTy).Contents (Elt F) :=
  Host.exp (subf o (broadcastInDim S65536x8 ![0, 1] bcast_S65536x1_S65536x8_0_1 (broadcastInDim S65536x1 ![0] bcast_S65536_S65536x1_0
    (maximumf (broadcastInDim S65536 ![] bcast_S_S65536 (constant S_ .f32 0xFF800000#32))
      (Host.reduce FloatOps.maximumf o (constant S_ .f32 0xFF800000#32) reducesTo_S65536x8_S65536_d1 h_S_)))))

/-- The softmax over the 8 outputs of every sample. -/
def rsoftmax (o : (⟨S65536x8, .f32⟩ : BufTy).Contents (Elt F)) : (⟨S65536x8, .f32⟩ : BufTy).Contents (Elt F) :=
  Host.divf (rexps o) (broadcastInDim S65536x8 ![0, 1] bcast_S65536x1_S65536x8_0_1 (broadcastInDim S65536x1 ![0] bcast_S65536_S65536x1_0
    (Host.reduceAdd (rexps o) (constant S_ .f32 0x00000000#32) reducesTo_S65536x8_S65536_d1 h_S_)))

/-- The first piece: (1) times the 1 × 8 matrix of softmax outputs. -/
def rfirst (r0 : (⟨S65536x1x1, .f32⟩ : BufTy).Contents (Elt F)) (o8 : (⟨S65536x8, .f32⟩ : BufTy).Contents (Elt F)) : (⟨S65536x1x8, .f32⟩ : BufTy).Contents (Elt F) :=
  Host.dotGeneral dot_S65536x1x1_S65536x1x8_S65536x1x8_2_1_1_2_0_0 none r0 (shapeCast S65536x1x8 (rsoftmax o8) shapeCasts_S65536x8_S65536x1x8)

/-- A middle piece: the running row of 8 times the 8 × 8 matrix of the 64 outputs. -/
def rmid (ret : (⟨S65536x1x8, .f32⟩ : BufTy).Contents (Elt F)) (o64 : (⟨S65536x64, .f32⟩ : BufTy).Contents (Elt F)) : (⟨S65536x1x8, .f32⟩ : BufTy).Contents (Elt F) :=
  Host.dotGeneral dot_S65536x1x8_S65536x8x8_S65536x1x8_2_1_1_2_0_0 none ret (shapeCast S65536x8x8 o64 shapeCasts_S65536x64_S65536x8x8)

/-- The last piece: the running row of 8 times the 8 × 1 matrix of the first 8 outputs, as a [65536, 1] array. -/
def rlast (ret : (⟨S65536x1x8, .f32⟩ : BufTy).Contents (Elt F)) (o8 : (⟨S65536x8, .f32⟩ : BufTy).Contents (Elt F)) : (⟨S65536x1, .f32⟩ : BufTy).Contents (Elt F) :=
  shapeCast S65536x1
    (Host.dotGeneral dot_S65536x1x8_S65536x8x1_S65536x1x1_2_1_1_2_0_0 none ret (shapeCast S65536x8x1 o8 shapeCasts_S65536x8_S65536x8x1))
    shapeCasts_S65536x1x1_S65536x1

end Cert.ReferenceIdeal.Steps

end
-- ==== Proof.RRead.lean ====
/-
  The reference's array-level steps read entry by entry, at the ideal values.

  Each step of the reference acts on all 65536 samples at once.  Read at one sample `r` (and one column), every step
  is the corresponding row-level function of one sample: a contraction is the sum over the contracted coordinate of
  the products of the operands' entries, a slice reads the operand at the index shifted by the offset, a reshape
  reads the entry with the same row-major position, a broadcast reads the operand at the coordinates it keeps, a
  reduction over the 8 columns is the sum (or the maximum, from −∞) over the eight entries of the row.
-/
import proofs.«110954_j11751030522504_2_alg».proof.Proof.RSteps
import proofs.«110954_j11751030522504_2_alg».proof.Proof.RowSpec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Steps

open Idealize.ShloMosaic Idealize.ShloMosaic.ValueIdx Cert.ReferenceIdeal Cert.ReferenceIdeal.Gen
open scoped BigOperators

/-- Batch coordinate of the left operand of the row-by-8×8 contraction. -/
theorem mid_lhs0 (i : S65536x1x8.Idx) (q : dot_S65536x1x8_S65536x8x8_S65536x1x8_2_1_1_2_0_0.contr.Idx) :
    (dot_S65536x1x8_S65536x8x8_S65536x1x8_2_1_1_2_0_0.lhsIdx i q 0).val = (i 0).val := by
  unfold DotDims.lhsIdx
  rw [dif_pos (show (0 : Fin S65536x1x8.rank) ∈ dot_S65536x1x8_S65536x8x8_S65536x1x8_2_1_1_2_0_0.lhsBatch by decide)]
  rfl
/-- Free coordinate of the left operand. -/
theorem mid_lhs1 (i : S65536x1x8.Idx) (q : dot_S65536x1x8_S65536x8x8_S65536x1x8_2_1_1_2_0_0.contr.Idx) :
    (dot_S65536x1x8_S65536x8x8_S65536x1x8_2_1_1_2_0_0.lhsIdx i q 1).val = (i 1).val := by
  unfold DotDims.lhsIdx
  rw [dif_neg (show ¬(1 : Fin S65536x1x8.rank) ∈ dot_S65536x1x8_S65536x8x8_S65536x1x8_2_1_1_2_0_0.lhsBatch by decide), dif_pos (show (1 : Fin S65536x1x8.rank) ∈ dot_S65536x1x8_S65536x8x8_S65536x1x8_2_1_1_2_0_0.lhsNonContracting by decide)]
  rfl
/-- Contracted coordinate of the left operand. -/
theorem mid_lhs2 (i : S65536x1x8.Idx) (q : dot_S65536x1x8_S65536x8x8_S65536x1x8_2_1_1_2_0_0.contr.Idx) :
    (dot_S65536x1x8_S65536x8x8_S65536x1x8_2_1_1_2_0_0.lhsIdx i q 2).val = (q ⟨0, by decide⟩).val :=
  dot_S65536x1x8_S65536x8x8_S65536x1x8_2_1_1_2_0_0.lhsIdx_val_of_single rfl i q
/-- Batch coordinate of the right operand. -/
theorem mid_rhs0 (i : S65536x1x8.Idx) (q : dot_S65536x1x8_S65536x8x8_S65536x1x8_2_1_1_2_0_0.contr.Idx) :
    (dot_S65536x1x8_S65536x8x8_S65536x1x8_2_1_1_2_0_0.rhsIdx i q 0).val = (i 0).val := by
  unfold DotDims.rhsIdx
  rw [dif_pos (show (0 : Fin S65536x8x8.rank) ∈ dot_S65536x1x8_S65536x8x8_S65536x1x8_2_1_1_2_0_0.rhsBatch by decide)]
  rfl
/-- Contracted coordinate of the right operand. -/
theorem mid_rhs1 (i : S65536x1x8.Idx) (q : dot_S65536x1x8_S65536x8x8_S65536x1x8_2_1_1_2_0_0.contr.Idx) :
    (dot_S65536x1x8_S65536x8x8_S65536x1x8_2_1_1_2_0_0.rhsIdx i q 1).val = (q ⟨0, by decide⟩).val :=
  dot_S65536x1x8_S65536x8x8_S65536x1x8_2_1_1_2_0_0.rhsIdx_val_of_single rfl i q
/-- Free coordinate of the right operand. -/
theorem mid_rhs2 (i : S65536x1x8.Idx) (q : dot_S65536x1x8_S65536x8x8_S65536x1x8_2_1_1_2_0_0.contr.Idx) :
    (dot_S65536x1x8_S65536x8x8_S65536x1x8_2_1_1_2_0_0.rhsIdx i q 2).val = (i 2).val := by
  unfold DotDims.rhsIdx
  rw [dif_neg (show ¬(2 : Fin S65536x8x8.rank) ∈ dot_S65536x1x8_S65536x8x8_S65536x1x8_2_1_1_2_0_0.rhsBatch by decide), dif_pos (show (2 : Fin S65536x8x8.rank) ∈ dot_S65536x1x8_S65536x8x8_S65536x1x8_2_1_1_2_0_0.rhsNonContracting by decide)]
  rfl

/-- The batched product of a 1 × 8 row with an 8 × 8 matrix, entry (r, 0, c): the sum over k of row entry k times matrix entry (k, c). -/
theorem dot_mid_apply (A : (⟨S65536x1x8, .f32⟩ : BufTy).Contents (Elt Ideal)) (B : (⟨S65536x8x8, .f32⟩ : BufTy).Contents (Elt Ideal))
    (r : Fin 65536) (c : Fin 8) :
    Host.dotGeneral (F := Ideal) (φ₁ := .f32) (φ₂ := .f32) dot_S65536x1x8_S65536x8x8_S65536x1x8_2_1_1_2_0_0 none A B (ix3 r (0 : Fin 1) c)
      = ∑ k : Fin 8, A (ix3 r (0 : Fin 1) k) * B (ix3 r k c) := by
  simp only [Host.dotGeneral]
  rw [Ideal.dotGeneral_apply, ← Equiv.sum_comp (contrEquiv1 dot_S65536x1x8_S65536x8x8_S65536x1x8_2_1_1_2_0_0 8 rfl rfl).symm]
  refine Finset.sum_congr rfl fun k _ => ?_
  have hk := contrEquiv1_symm_val dot_S65536x1x8_S65536x8x8_S65536x1x8_2_1_1_2_0_0 8 rfl rfl k
  have el : dot_S65536x1x8_S65536x8x8_S65536x1x8_2_1_1_2_0_0.lhsIdx (ix3 r (0 : Fin 1) c) ((contrEquiv1 dot_S65536x1x8_S65536x8x8_S65536x1x8_2_1_1_2_0_0 8 rfl rfl).symm k) = ix3 r (0 : Fin 1) k := funext fun a => Fin.ext (by
    match a with
    | ⟨0, _⟩ => exact mid_lhs0 _ _
    | ⟨1, _⟩ => exact mid_lhs1 _ _
    | ⟨2, _⟩ => exact (mid_lhs2 _ _).trans hk)
  have er : dot_S65536x1x8_S65536x8x8_S65536x1x8_2_1_1_2_0_0.rhsIdx (ix3 r (0 : Fin 1) c) ((contrEquiv1 dot_S65536x1x8_S65536x8x8_S65536x1x8_2_1_1_2_0_0 8 rfl rfl).symm k) = ix3 r k c := funext fun a => Fin.ext (by
    match a with
    | ⟨0, _⟩ => exact mid_rhs0 _ _
    | ⟨1, _⟩ => exact (mid_rhs1 _ _).trans hk
    | ⟨2, _⟩ => exact mid_rhs2 _ _)
  rw [el, er]

/-- The reshape of the 64 outputs to an 8 × 8 matrix: entry (r, j, c) is output 8 j + c. -/
theorem cast64_apply (o64 : (⟨S65536x64, .f32⟩ : BufTy).Contents (Elt Ideal)) (r : Fin 65536) (j c : Fin 8) :
    shapeCast S65536x8x8 o64 shapeCasts_S65536x64_S65536x8x8 (ix3 r j c)
      = o64 (ix2 r (⟨8 * j.val + c.val, by have := j.isLt; have := c.isLt; omega⟩ : Fin 64)) := by
  refine shapeCast_apply o64 _ _ _ ?_
  rw [Shape.rowMajor_val_two, Shape.rowMajor_val_three]
  show r.val * 64 + (8 * j.val + c.val) = (r.val * 8 + j.val) * 8 + c.val
  omega

/-- A middle piece at entry (r, 0, c): the running row of sample r times the 8 × 8 matrix of its 64 outputs. -/
theorem rmid_apply (ret : (⟨S65536x1x8, .f32⟩ : BufTy).Contents (Elt Ideal)) (o64 : (⟨S65536x64, .f32⟩ : BufTy).Contents (Elt Ideal)) (r : Fin 65536) (c : Fin 8) :
    rmid (F := Ideal) ret o64 (ix3 r (0 : Fin 1) c) = Cert.Row.step (fun j => ret (ix3 r (0 : Fin 1) j)) (fun c' => o64 (ix2 r c')) c := by
  unfold rmid Cert.Row.step
  rw [dot_mid_apply]
  refine Finset.sum_congr rfl fun k _ => ?_
  rw [cast64_apply]

/-- A [65536, 100] array times a [100, 64] matrix, entry (r, c): the sum over k of entry (r, k) times entry (k, c). -/
theorem dot_100_64_apply (A : (⟨S65536x100, .f32⟩ : BufTy).Contents (Elt Ideal)) (B : (⟨S100x64, .f32⟩ : BufTy).Contents (Elt Ideal))
    (r : Fin 65536) (c : Fin 64) :
    Host.dotGeneral (F := Ideal) (φ₁ := .f32) (φ₂ := .f32) dot_S65536x100_S100x64_S65536x64_1_0_0_1_n_n none A B (ix2 r c)
      = ∑ k : Fin 100, A (ix2 r k) * B (ix2 k c) := by
  simp only [Host.dotGeneral]
  rw [Ideal.dotGeneral_apply, ← Equiv.sum_comp (contrEquiv1 dot_S65536x100_S100x64_S65536x64_1_0_0_1_n_n 100 rfl rfl).symm]
  refine Finset.sum_congr rfl fun k _ => ?_
  have hk := contrEquiv1_symm_val dot_S65536x100_S100x64_S65536x64_1_0_0_1_n_n 100 rfl rfl k
  have el : dot_S65536x100_S100x64_S65536x64_1_0_0_1_n_n.lhsIdx (ix2 r c) ((contrEquiv1 dot_S65536x100_S100x64_S65536x64_1_0_0_1_n_n 100 rfl rfl).symm k) = ix2 r k := funext fun a => Fin.ext (by
    match a with
    | ⟨0, _⟩ => rfl
    | ⟨1, _⟩ => exact (dot_S65536x100_S100x64_S65536x64_1_0_0_1_n_n.lhsIdx_val_of_single rfl _ _).trans hk)
  have er : dot_S65536x100_S100x64_S65536x64_1_0_0_1_n_n.rhsIdx (ix2 r c) ((contrEquiv1 dot_S65536x100_S100x64_S65536x64_1_0_0_1_n_n 100 rfl rfl).symm k) = ix2 k c := funext fun a => Fin.ext (by
    match a with
    | ⟨0, _⟩ => exact (dot_S65536x100_S100x64_S65536x64_1_0_0_1_n_n.rhsIdx_val_of_single rfl _ _).trans hk
    | ⟨1, _⟩ => rfl)
  rw [el, er]

/-- Slice `ci` of the third layer's weights as a 100 × 64 matrix: entry (k, c) is entry (ci, k, c) of the array. -/
theorem w3_apply (ci : ℕ) (hci : ci < 32) (hW3 : S32x100x64.Slices ![ci, 0, 0] S1x100x64)
    (W3 : (⟨S32x100x64, .f32⟩ : BufTy).Contents (Elt Ideal)) (k : Fin 100) (c : Fin 64) :
    shapeCast S100x64 (extractStridedSlice S1x100x64 ![ci, 0, 0] W3 hW3) shapeCasts_S1x100x64_S100x64 (ix2 k c)
      = W3 (ix3 (⟨ci, hci⟩ : Fin 32) k c) := by
  refine (shapeCast_apply _ _ (ix2 k c) (ix3 (0 : Fin 1) k c) ?_).trans ?_
  · rw [Shape.rowMajor_val_two, Shape.rowMajor_val_three]
    show ((0 : ℕ) * 100 + k.val) * 64 + c.val = k.val * 64 + c.val
    omega
  · refine extractStridedSlice_apply _ W3 hW3 _ _ fun a => ?_
    match a with
    | ⟨0, _⟩ => show ci = ci + 0; omega
    | ⟨1, _⟩ => show k.val = 0 + k.val; omega
    | ⟨2, _⟩ => show c.val = 0 + c.val; omega

/-- Row `ci` of the third layer's bias as a vector of 64, broadcast over the samples: entry (r, c) is entry (ci, c). -/
theorem b3_apply (ci : ℕ) (hci : ci < 32) (hB3 : S32x64.Slices ![ci, 0] S1x64)
    (B3 : (⟨S32x64, .f32⟩ : BufTy).Contents (Elt Ideal)) (r : Fin 65536) (c : Fin 64) :
    broadcastInDim S65536x64 ![0, 1] bcast_S1x64_S65536x64_0_1
      (broadcastInDim S1x64 ![1] bcast_S64_S1x64_1 (shapeCast S64 (extractStridedSlice S1x64 ![ci, 0] B3 hB3) shapeCasts_S1x64_S64)) (ix2 r c)
      = B3 (ix2 (⟨ci, hci⟩ : Fin 32) c) := by
  refine (broadcastInDim_apply _ _ _ (ix2 r c) (ix2 (0 : Fin 1) c) fun a => ?_).trans ?_
  · match a with
    | ⟨0, _⟩ => rfl
    | ⟨1, _⟩ => rfl
  refine (broadcastInDim_apply _ _ _ (ix2 (0 : Fin 1) c) (ix1 c) fun a => ?_).trans ?_
  · match a with
    | ⟨0, _⟩ => rfl
  refine (shapeCast_apply _ _ (ix1 c) (ix2 (0 : Fin 1) c) ?_).trans ?_
  · rw [Shape.rowMajor_val_one, Shape.rowMajor_val_two]
    show (0 : ℕ) * 64 + c.val = c.val
    omega
  · refine extractStridedSlice_apply _ B3 hB3 _ _ fun a => ?_
    match a with
    | ⟨0, _⟩ => show ci = ci + 0; omega
    | ⟨1, _⟩ => show c.val = 0 + c.val; omega

/-- The third layer with all 64 outputs at entry (r, c): the affine map of the hidden features of sample r. -/
theorem rout64_apply (ci : ℕ) (hci : ci < 32) (hW3 : S32x100x64.Slices ![ci, 0, 0] S1x100x64) (hB3 : S32x64.Slices ![ci, 0] S1x64) (h : (⟨S65536x100, .f32⟩ : BufTy).Contents (Elt Ideal)) (W3 : (⟨S32x100x64, .f32⟩ : BufTy).Contents (Elt Ideal)) (B3 : (⟨S32x64, .f32⟩ : BufTy).Contents (Elt Ideal)) (r : Fin 65536) (c : Fin 64) :
    rout64 (F := Ideal) ci hW3 hB3 h W3 B3 (ix2 r c) = Cert.Row.affine (fun k => h (ix2 r k)) (fun k c' => W3 (ix3 (⟨ci, hci⟩ : Fin 32) k c')) (fun c' => B3 (ix2 (⟨ci, hci⟩ : Fin 32) c')) c := by
  unfold rout64 Cert.Row.affine
  rw [addf_apply, dot_100_64_apply, b3_apply ci hci]
  congr 1
  refine Finset.sum_congr rfl fun k _ => ?_
  rw [w3_apply ci hci]

/-- A [65536, 16] array times a [16, 100] matrix, entry (r, c): the sum over k of entry (r, k) times entry (k, c). -/
theorem dot_16_100_apply (A : (⟨S65536x16, .f32⟩ : BufTy).Contents (Elt Ideal)) (B : (⟨S16x100, .f32⟩ : BufTy).Contents (Elt Ideal))
    (r : Fin 65536) (c : Fin 100) :
    Host.dotGeneral (F := Ideal) (φ₁ := .f32) (φ₂ := .f32) dot_S65536x16_S16x100_S65536x100_1_0_0_1_n_n none A B (ix2 r c)
      = ∑ k : Fin 16, A (ix2 r k) * B (ix2 k c) := by
  simp only [Host.dotGeneral]
  rw [Ideal.dotGeneral_apply, ← Equiv.sum_comp (contrEquiv1 dot_S65536x16_S16x100_S65536x100_1_0_0_1_n_n 16 rfl rfl).symm]
  refine Finset.sum_congr rfl fun k _ => ?_
  have hk := contrEquiv1_symm_val dot_S65536x16_S16x100_S65536x100_1_0_0_1_n_n 16 rfl rfl k
  have el : dot_S65536x16_S16x100_S65536x100_1_0_0_1_n_n.lhsIdx (ix2 r c) ((contrEquiv1 dot_S65536x16_S16x100_S65536x100_1_0_0_1_n_n 16 rfl rfl).symm k) = ix2 r k := funext fun a => Fin.ext (by
    match a with
    | ⟨0, _⟩ => rfl
    | ⟨1, _⟩ => exact (dot_S65536x16_S16x100_S65536x100_1_0_0_1_n_n.lhsIdx_val_of_single rfl _ _).trans hk)
  have er : dot_S65536x16_S16x100_S65536x100_1_0_0_1_n_n.rhsIdx (ix2 r c) ((contrEquiv1 dot_S65536x16_S16x100_S65536x100_1_0_0_1_n_n 16 rfl rfl).symm k) = ix2 k c := funext fun a => Fin.ext (by
    match a with
    | ⟨0, _⟩ => exact (dot_S65536x16_S16x100_S65536x100_1_0_0_1_n_n.rhsIdx_val_of_single rfl _ _).trans hk
    | ⟨1, _⟩ => rfl)
  rw [el, er]

/-- A [65536, 100] array times a [100, 100] matrix, entry (r, c): the sum over k of entry (r, k) times entry (k, c). -/
theorem dot_100_100_apply (A : (⟨S65536x100, .f32⟩ : BufTy).Contents (Elt Ideal)) (B : (⟨S100x100, .f32⟩ : BufTy).Contents (Elt Ideal))
    (r : Fin 65536) (c : Fin 100) :
    Host.dotGeneral (F := Ideal) (φ₁ := .f32) (φ₂ := .f32) dot_S65536x100_S100x100_S65536x100_1_0_0_1_n_n none A B (ix2 r c)
      = ∑ k : Fin 100, A (ix2 r k) * B (ix2 k c) := by
  simp only [Host.dotGeneral]
  rw [Ideal.dotGeneral_apply, ← Equiv.sum_comp (contrEquiv1 dot_S65536x100_S100x100_S65536x100_1_0_0_1_n_n 100 rfl rfl).symm]
  refine Finset.sum_congr rfl fun k _ => ?_
  have hk := contrEquiv1_symm_val dot_S65536x100_S100x100_S65536x100_1_0_0_1_n_n 100 rfl rfl k
  have el : dot_S65536x100_S100x100_S65536x100_1_0_0_1_n_n.lhsIdx (ix2 r c) ((contrEquiv1 dot_S65536x100_S100x100_S65536x100_1_0_0_1_n_n 100 rfl rfl).symm k) = ix2 r k := funext fun a => Fin.ext (by
    match a with
    | ⟨0, _⟩ => rfl
    | ⟨1, _⟩ => exact (dot_S65536x100_S100x100_S65536x100_1_0_0_1_n_n.lhsIdx_val_of_single rfl _ _).trans hk)
  have er : dot_S65536x100_S100x100_S65536x100_1_0_0_1_n_n.rhsIdx (ix2 r c) ((contrEquiv1 dot_S65536x100_S100x100_S65536x100_1_0_0_1_n_n 100 rfl rfl).symm k) = ix2 k c := funext fun a => Fin.ext (by
    match a with
    | ⟨0, _⟩ => exact (dot_S65536x100_S100x100_S65536x100_1_0_0_1_n_n.rhsIdx_val_of_single rfl _ _).trans hk
    | ⟨1, _⟩ => rfl)
  rw [el, er]

/-- The positive part at an entry: the maximum of the entry and the number the all-zero word denotes. -/
theorem rrelu_apply (a : (⟨S65536x100, .f32⟩ : BufTy).Contents (Elt Ideal)) (r : Fin 65536) (j : Fin 100) :
    rrelu (F := Ideal) a (ix2 r j) = max (a (ix2 r j)) (Ideal.ofBits .f32 0x00000000#32) := rfl

/-- Row `ci` of a [32, 100] bias array broadcast over the samples: entry (r, j) is entry (ci, j). -/
theorem rbias100_apply (ci : ℕ) (hci : ci < 32) (hB : S32x100.Slices ![ci, 0] S1x100)
    (B : (⟨S32x100, .f32⟩ : BufTy).Contents (Elt Ideal)) (r : Fin 65536) (j : Fin 100) :
    rbias100 (F := Ideal) ci hB B (ix2 r j) = B (ix2 (⟨ci, hci⟩ : Fin 32) j) := by
  unfold rbias100
  refine (broadcastInDim_apply _ _ _ (ix2 r j) (ix2 (0 : Fin 1) j) fun a => ?_).trans ?_
  · match a with
    | ⟨0, _⟩ => rfl
    | ⟨1, _⟩ => rfl
  refine (broadcastInDim_apply _ _ _ (ix2 (0 : Fin 1) j) (ix1 j) fun a => ?_).trans ?_
  · match a with
    | ⟨0, _⟩ => rfl
  refine (shapeCast_apply _ _ (ix1 j) (ix2 (0 : Fin 1) j) ?_).trans ?_
  · rw [Shape.rowMajor_val_one, Shape.rowMajor_val_two]
    show (0 : ℕ) * 100 + j.val = j.val
    omega
  · refine extractStridedSlice_apply _ B hB _ _ fun a => ?_
    match a with
    | ⟨0, _⟩ => show ci = ci + 0; omega
    | ⟨1, _⟩ => show j.val = 0 + j.val; omega

/-- Columns `xo … xo + 15` of the samples: entry (r, d) of the slice is entry (r, xo + d). -/
theorem xslice_apply (xo : ℕ) (hxo : xo + 16 ≤ 512) (hX : S65536x512.Slices ![0, xo] S65536x16)
    (X : (⟨S65536x512, .f32⟩ : BufTy).Contents (Elt Ideal)) (r : Fin 65536) (d : Fin 16) :
    extractStridedSlice S65536x16 ![0, xo] X hX (ix2 r d)
      = X (ix2 r (⟨xo + d.val, by have := d.isLt; omega⟩ : Fin 512)) := by
  refine extractStridedSlice_apply _ X hX _ _ fun a => ?_
  match a with
  | ⟨0, _⟩ => show r.val = 0 + r.val; omega
  | ⟨1, _⟩ => show xo + d.val = xo + d.val; rfl

/-- Slice `ci` of the first layer's weights as a 16 × 100 matrix: entry (d, j) is entry (ci, d, j) of the array. -/
theorem w1_apply (ci : ℕ) (hci : ci < 32) (hW1 : S32x16x100.Slices ![ci, 0, 0] S1x16x100)
    (W1 : (⟨S32x16x100, .f32⟩ : BufTy).Contents (Elt Ideal)) (d : Fin 16) (j : Fin 100) :
    shapeCast S16x100 (extractStridedSlice S1x16x100 ![ci, 0, 0] W1 hW1) shapeCasts_S1x16x100_S16x100 (ix2 d j)
      = W1 (ix3 (⟨ci, hci⟩ : Fin 32) d j) := by
  refine (shapeCast_apply _ _ (ix2 d j) (ix3 (0 : Fin 1) d j) ?_).trans ?_
  · rw [Shape.rowMajor_val_two, Shape.rowMajor_val_three]
    show ((0 : ℕ) * 16 + d.val) * 100 + j.val = d.val * 100 + j.val
    omega
  · refine extractStridedSlice_apply _ W1 hW1 _ _ fun a => ?_
    match a with
    | ⟨0, _⟩ => show ci = ci + 0; omega
    | ⟨1, _⟩ => show d.val = 0 + d.val; omega
    | ⟨2, _⟩ => show j.val = 0 + j.val; omega

/-- Slice `ci` of the second layer's weights as a 100 × 100 matrix: entry (j, k) is entry (ci, j, k) of the array. -/
theorem w2_apply (ci : ℕ) (hci : ci < 32) (hW2 : S32x100x100.Slices ![ci, 0, 0] S1x100x100)
    (W2 : (⟨S32x100x100, .f32⟩ : BufTy).Contents (Elt Ideal)) (j : Fin 100) (k : Fin 100) :
    shapeCast S100x100 (extractStridedSlice S1x100x100 ![ci, 0, 0] W2 hW2) shapeCasts_S1x100x100_S100x100 (ix2 j k)
      = W2 (ix3 (⟨ci, hci⟩ : Fin 32) j k) := by
  refine (shapeCast_apply _ _ (ix2 j k) (ix3 (0 : Fin 1) j k) ?_).trans ?_
  · rw [Shape.rowMajor_val_two, Shape.rowMajor_val_three]
    show ((0 : ℕ) * 100 + j.val) * 100 + k.val = j.val * 100 + k.val
    omega
  · refine extractStridedSlice_apply _ W2 hW2 _ _ fun a => ?_
    match a with
    | ⟨0, _⟩ => show ci = ci + 0; omega
    | ⟨1, _⟩ => show j.val = 0 + j.val; omega
    | ⟨2, _⟩ => show k.val = 0 + k.val; omega

/-- Both hidden layers at entry (r, k): the two affine maps with positive parts applied to columns `xo … xo + 15` of sample r. -/
theorem rhid_apply (xo ci : ℕ) (hxo : xo + 16 ≤ 512) (hci : ci < 32) (hX : S65536x512.Slices ![0, xo] S65536x16) (hW1 : S32x16x100.Slices ![ci, 0, 0] S1x16x100) (hB : S32x100.Slices ![ci, 0] S1x100) (hW2 : S32x100x100.Slices ![ci, 0, 0] S1x100x100)
    (X : (⟨S65536x512, .f32⟩ : BufTy).Contents (Elt Ideal)) (W1 : (⟨S32x16x100, .f32⟩ : BufTy).Contents (Elt Ideal)) (B1 : (⟨S32x100, .f32⟩ : BufTy).Contents (Elt Ideal)) (W2 : (⟨S32x100x100, .f32⟩ : BufTy).Contents (Elt Ideal)) (B2 : (⟨S32x100, .f32⟩ : BufTy).Contents (Elt Ideal)) (r : Fin 65536) (k : Fin 100) :
    rhid (F := Ideal) xo ci hX hW1 hB hW2 X W1 B1 W2 B2 (ix2 r k)
      = Cert.Row.hidden (fun d : Fin 16 => X (ix2 r (⟨xo + d.val, by have := d.isLt; omega⟩ : Fin 512))) (fun d j => W1 (ix3 (⟨ci, hci⟩ : Fin 32) d j)) (fun j => B1 (ix2 (⟨ci, hci⟩ : Fin 32) j)) (fun j k' => W2 (ix3 (⟨ci, hci⟩ : Fin 32) j k')) (fun k' => B2 (ix2 (⟨ci, hci⟩ : Fin 32) k')) k := by
  unfold rhid Cert.Row.hidden Cert.Row.pos Cert.Row.affine
  rw [rrelu_apply, addf_apply, dot_100_100_apply, rbias100_apply ci hci]
  congr 2
  refine Finset.sum_congr rfl fun j _ => ?_
  rw [w2_apply ci hci, rrelu_apply, addf_apply, dot_16_100_apply, rbias100_apply ci hci]
  congr 3
  refine Finset.sum_congr rfl fun d _ => ?_
  rw [xslice_apply xo hxo, w1_apply ci hci]

/-- Batch coordinate of the left operand. -/
theorem last_lhs0 (i : S65536x1x1.Idx) (q : dot_S65536x1x8_S65536x8x1_S65536x1x1_2_1_1_2_0_0.contr.Idx) :
    (dot_S65536x1x8_S65536x8x1_S65536x1x1_2_1_1_2_0_0.lhsIdx i q 0).val = (i 0).val := by
  unfold DotDims.lhsIdx
  rw [dif_pos (show (0 : Fin S65536x1x8.rank) ∈ dot_S65536x1x8_S65536x8x1_S65536x1x1_2_1_1_2_0_0.lhsBatch by decide)]
  rfl
/-- Free coordinate of the left operand. -/
theorem last_lhs1 (i : S65536x1x1.Idx) (q : dot_S65536x1x8_S65536x8x1_S65536x1x1_2_1_1_2_0_0.contr.Idx) :
    (dot_S65536x1x8_S65536x8x1_S65536x1x1_2_1_1_2_0_0.lhsIdx i q 1).val = (i 1).val := by
  unfold DotDims.lhsIdx
  rw [dif_neg (show ¬(1 : Fin S65536x1x8.rank) ∈ dot_S65536x1x8_S65536x8x1_S65536x1x1_2_1_1_2_0_0.lhsBatch by decide), dif_pos (show (1 : Fin S65536x1x8.rank) ∈ dot_S65536x1x8_S65536x8x1_S65536x1x1_2_1_1_2_0_0.lhsNonContracting by decide)]
  rfl
/-- Contracted coordinate of the left operand. -/
theorem last_lhs2 (i : S65536x1x1.Idx) (q : dot_S65536x1x8_S65536x8x1_S65536x1x1_2_1_1_2_0_0.contr.Idx) :
    (dot_S65536x1x8_S65536x8x1_S65536x1x1_2_1_1_2_0_0.lhsIdx i q 2).val = (q ⟨0, by decide⟩).val :=
  dot_S65536x1x8_S65536x8x1_S65536x1x1_2_1_1_2_0_0.lhsIdx_val_of_single rfl i q
/-- Batch coordinate of the right operand. -/
theorem last_rhs0 (i : S65536x1x1.Idx) (q : dot_S65536x1x8_S65536x8x1_S65536x1x1_2_1_1_2_0_0.contr.Idx) :
    (dot_S65536x1x8_S65536x8x1_S65536x1x1_2_1_1_2_0_0.rhsIdx i q 0).val = (i 0).val := by
  unfold DotDims.rhsIdx
  rw [dif_pos (show (0 : Fin S65536x8x1.rank) ∈ dot_S65536x1x8_S65536x8x1_S65536x1x1_2_1_1_2_0_0.rhsBatch by decide)]
  rfl
/-- Contracted coordinate of the right operand. -/
theorem last_rhs1 (i : S65536x1x1.Idx) (q : dot_S65536x1x8_S65536x8x1_S65536x1x1_2_1_1_2_0_0.contr.Idx) :
    (dot_S65536x1x8_S65536x8x1_S65536x1x1_2_1_1_2_0_0.rhsIdx i q 1).val = (q ⟨0, by decide⟩).val :=
  dot_S65536x1x8_S65536x8x1_S65536x1x1_2_1_1_2_0_0.rhsIdx_val_of_single rfl i q
/-- Free coordinate of the right operand. -/
theorem last_rhs2 (i : S65536x1x1.Idx) (q : dot_S65536x1x8_S65536x8x1_S65536x1x1_2_1_1_2_0_0.contr.Idx) :
    (dot_S65536x1x8_S65536x8x1_S65536x1x1_2_1_1_2_0_0.rhsIdx i q 2).val = (i 2).val := by
  unfold DotDims.rhsIdx
  rw [dif_neg (show ¬(2 : Fin S65536x8x1.rank) ∈ dot_S65536x1x8_S65536x8x1_S65536x1x1_2_1_1_2_0_0.rhsBatch by decide), dif_pos (show (2 : Fin S65536x8x1.rank) ∈ dot_S65536x1x8_S65536x8x1_S65536x1x1_2_1_1_2_0_0.rhsNonContracting by decide)]
  rfl

/-- The batched product of a 1 × 8 row with an 8 × 1 column, entry (r, 0, 0): the sum over k of row entry k times column entry k. -/
theorem dot_last_apply (A : (⟨S65536x1x8, .f32⟩ : BufTy).Contents (Elt Ideal)) (B : (⟨S65536x8x1, .f32⟩ : BufTy).Contents (Elt Ideal))
    (r : Fin 65536) :
    Host.dotGeneral (F := Ideal) (φ₁ := .f32) (φ₂ := .f32) dot_S65536x1x8_S65536x8x1_S65536x1x1_2_1_1_2_0_0 none A B (ix3 r (0 : Fin 1) (0 : Fin 1))
      = ∑ k : Fin 8, A (ix3 r (0 : Fin 1) k) * B (ix3 r k (0 : Fin 1)) := by
  simp only [Host.dotGeneral]
  rw [Ideal.dotGeneral_apply, ← Equiv.sum_comp (contrEquiv1 dot_S65536x1x8_S65536x8x1_S65536x1x1_2_1_1_2_0_0 8 rfl rfl).symm]
  refine Finset.sum_congr rfl fun k _ => ?_
  have hk := contrEquiv1_symm_val dot_S65536x1x8_S65536x8x1_S65536x1x1_2_1_1_2_0_0 8 rfl rfl k
  have el : dot_S65536x1x8_S65536x8x1_S65536x1x1_2_1_1_2_0_0.lhsIdx (ix3 r (0 : Fin 1) (0 : Fin 1)) ((contrEquiv1 dot_S65536x1x8_S65536x8x1_S65536x1x1_2_1_1_2_0_0 8 rfl rfl).symm k) = ix3 r (0 : Fin 1) k := funext fun a => Fin.ext (by
    match a with
    | ⟨0, _⟩ => exact last_lhs0 _ _
    | ⟨1, _⟩ => exact last_lhs1 _ _
    | ⟨2, _⟩ => exact (last_lhs2 _ _).trans hk)
  have er : dot_S65536x1x8_S65536x8x1_S65536x1x1_2_1_1_2_0_0.rhsIdx (ix3 r (0 : Fin 1) (0 : Fin 1)) ((contrEquiv1 dot_S65536x1x8_S65536x8x1_S65536x1x1_2_1_1_2_0_0 8 rfl rfl).symm k) = ix3 r k (0 : Fin 1) := funext fun a => Fin.ext (by
    match a with
    | ⟨0, _⟩ => exact last_rhs0 _ _
    | ⟨1, _⟩ => exact (last_rhs1 _ _).trans hk
    | ⟨2, _⟩ => exact last_rhs2 _ _)
  rw [el, er]

/-- The reshape of 8 outputs to an 8 × 1 column: entry (r, j, 0) is output j. -/
theorem cast81_apply (o8 : (⟨S65536x8, .f32⟩ : BufTy).Contents (Elt Ideal)) (r : Fin 65536) (j : Fin 8) :
    shapeCast S65536x8x1 o8 shapeCasts_S65536x8_S65536x8x1 (ix3 r j (0 : Fin 1)) = o8 (ix2 r j) := by
  refine shapeCast_apply o8 _ _ _ ?_
  rw [Shape.rowMajor_val_two, Shape.rowMajor_val_three]
  show r.val * 8 + j.val = (r.val * 8 + j.val) * 1 + 0
  omega

/-- The reshape of a [65536, 1, 1] array to [65536, 1]: entry (r, 0) is entry (r, 0, 0). -/
theorem cast11_apply (y : (⟨S65536x1x1, .f32⟩ : BufTy).Contents (Elt Ideal)) (r : Fin 65536) :
    shapeCast S65536x1 y shapeCasts_S65536x1x1_S65536x1 (ix2 r (0 : Fin 1)) = y (ix3 r (0 : Fin 1) (0 : Fin 1)) := by
  refine shapeCast_apply y _ _ _ ?_
  rw [Shape.rowMajor_val_two, Shape.rowMajor_val_three]
  show (r.val * 1 + 0) * 1 + 0 = r.val * 1 + 0
  omega

/-- The last piece at entry (r, 0): the running row of sample r times the 8 × 1 column of its first 8 outputs. -/
theorem rlast_apply (ret : (⟨S65536x1x8, .f32⟩ : BufTy).Contents (Elt Ideal)) (o8 : (⟨S65536x8, .f32⟩ : BufTy).Contents (Elt Ideal)) (r : Fin 65536) :
    rlast (F := Ideal) ret o8 (ix2 r (0 : Fin 1)) = Cert.Row.finish (fun j => ret (ix3 r (0 : Fin 1) j)) (fun c' => o8 (ix2 r c')) := by
  unfold rlast Cert.Row.finish
  rw [cast11_apply, dot_last_apply]
  refine Finset.sum_congr rfl fun k _ => ?_
  rw [cast81_apply]

/-- A [65536, 100] array times a [100, 8] matrix, entry (r, c): the sum over k of entry (r, k) times entry (k, c). -/
theorem dot_100_8_apply (A : (⟨S65536x100, .f32⟩ : BufTy).Contents (Elt Ideal)) (B : (⟨S100x8, .f32⟩ : BufTy).Contents (Elt Ideal))
    (r : Fin 65536) (c : Fin 8) :
    Host.dotGeneral (F := Ideal) (φ₁ := .f32) (φ₂ := .f32) dot_S65536x100_S100x8_S65536x8_1_0_0_1_n_n none A B (ix2 r c)
      = ∑ k : Fin 100, A (ix2 r k) * B (ix2 k c) := by
  simp only [Host.dotGeneral]
  rw [Ideal.dotGeneral_apply, ← Equiv.sum_comp (contrEquiv1 dot_S65536x100_S100x8_S65536x8_1_0_0_1_n_n 100 rfl rfl).symm]
  refine Finset.sum_congr rfl fun k _ => ?_
  have hk := contrEquiv1_symm_val dot_S65536x100_S100x8_S65536x8_1_0_0_1_n_n 100 rfl rfl k
  have el : dot_S65536x100_S100x8_S65536x8_1_0_0_1_n_n.lhsIdx (ix2 r c) ((contrEquiv1 dot_S65536x100_S100x8_S65536x8_1_0_0_1_n_n 100 rfl rfl).symm k) = ix2 r k := funext fun a => Fin.ext (by
    match a with
    | ⟨0, _⟩ => rfl
    | ⟨1, _⟩ => exact (dot_S65536x100_S100x8_S65536x8_1_0_0_1_n_n.lhsIdx_val_of_single rfl _ _).trans hk)
  have er : dot_S65536x100_S100x8_S65536x8_1_0_0_1_n_n.rhsIdx (ix2 r c) ((contrEquiv1 dot_S65536x100_S100x8_S65536x8_1_0_0_1_n_n 100 rfl rfl).symm k) = ix2 k c := funext fun a => Fin.ext (by
    match a with
    | ⟨0, _⟩ => exact (dot_S65536x100_S100x8_S65536x8_1_0_0_1_n_n.rhsIdx_val_of_single rfl _ _).trans hk
    | ⟨1, _⟩ => rfl)
  rw [el, er]

/-- Row `ci` of the third layer's bias as a vector of 64: entry c is entry (ci, c) of the array. -/
theorem b3vec_apply (ci : ℕ) (hci : ci < 32) (hB3 : S32x64.Slices ![ci, 0] S1x64)
    (B3 : (⟨S32x64, .f32⟩ : BufTy).Contents (Elt Ideal)) (c : Fin 64) :
    shapeCast S64 (extractStridedSlice S1x64 ![ci, 0] B3 hB3) shapeCasts_S1x64_S64 (ix1 c) = B3 (ix2 (⟨ci, hci⟩ : Fin 32) c) := by
  refine (shapeCast_apply _ _ (ix1 c) (ix2 (0 : Fin 1) c) ?_).trans ?_
  · rw [Shape.rowMajor_val_one, Shape.rowMajor_val_two]
    show (0 : ℕ) * 64 + c.val = c.val
    omega
  · refine extractStridedSlice_apply _ B3 hB3 _ _ fun a => ?_
    match a with
    | ⟨0, _⟩ => show ci = ci + 0; omega
    | ⟨1, _⟩ => show c.val = 0 + c.val; omega

/-- The first 8 columns of slice `ci` of the third layer's weights: entry (k, c) is entry (ci, k, c) of the array. -/
theorem w3lo_apply (ci : ℕ) (hci : ci < 32) (hW3 : S32x100x64.Slices ![ci, 0, 0] S1x100x64)
    (W3 : (⟨S32x100x64, .f32⟩ : BufTy).Contents (Elt Ideal)) (k : Fin 100) (c : Fin 8) :
    extractStridedSlice S100x8 ![0, 0] (shapeCast S100x64 (extractStridedSlice S1x100x64 ![ci, 0, 0] W3 hW3) shapeCasts_S1x100x64_S100x64) slices_S100x64_S100x8_0_0 (ix2 k c)
      = W3 (ix3 (⟨ci, hci⟩ : Fin 32) k (Cert.Row.lo8 c)) := by
  refine (extractStridedSlice_apply _ _ _ (ix2 k c) (ix2 k (Cert.Row.lo8 c)) fun a => ?_).trans (w3_apply ci hci hW3 W3 k (Cert.Row.lo8 c))
  match a with
  | ⟨0, _⟩ => show k.val = 0 + k.val; omega
  | ⟨1, _⟩ => show c.val = 0 + c.val; omega

/-- The first 8 entries of row `ci` of the third layer's bias, broadcast over the samples: entry (r, c) is entry (ci, c). -/
theorem b3lo_apply (ci : ℕ) (hci : ci < 32) (hB3 : S32x64.Slices ![ci, 0] S1x64)
    (B3 : (⟨S32x64, .f32⟩ : BufTy).Contents (Elt Ideal)) (r : Fin 65536) (c : Fin 8) :
    broadcastInDim S65536x8 ![0, 1] bcast_S1x8_S65536x8_0_1
      (broadcastInDim S1x8 ![1] bcast_S8_S1x8_1
        (extractStridedSlice S8 ![0] (shapeCast S64 (extractStridedSlice S1x64 ![ci, 0] B3 hB3) shapeCasts_S1x64_S64) slices_S64_S8_0)) (ix2 r c)
      = B3 (ix2 (⟨ci, hci⟩ : Fin 32) (Cert.Row.lo8 c)) := by
  refine (broadcastInDim_apply _ _ _ (ix2 r c) (ix2 (0 : Fin 1) c) fun a => ?_).trans ?_
  · match a with
    | ⟨0, _⟩ => rfl
    | ⟨1, _⟩ => rfl
  refine (broadcastInDim_apply _ _ _ (ix2 (0 : Fin 1) c) (ix1 c) fun a => ?_).trans ?_
  · match a with
    | ⟨0, _⟩ => rfl
  refine (extractStridedSlice_apply _ _ _ (ix1 c) (ix1 (Cert.Row.lo8 c)) fun a => ?_).trans (b3vec_apply ci hci hB3 B3 (Cert.Row.lo8 c))
  match a with
  | ⟨0, _⟩ => show c.val = 0 + c.val; omega

/-- The third layer restricted to its first 8 outputs at entry (r, c): the affine map with the first 8 columns of the weights and bias. -/
theorem rout8_apply (ci : ℕ) (hci : ci < 32) (hW3 : S32x100x64.Slices ![ci, 0, 0] S1x100x64) (hB3 : S32x64.Slices ![ci, 0] S1x64) (h : (⟨S65536x100, .f32⟩ : BufTy).Contents (Elt Ideal)) (W3 : (⟨S32x100x64, .f32⟩ : BufTy).Contents (Elt Ideal)) (B3 : (⟨S32x64, .f32⟩ : BufTy).Contents (Elt Ideal)) (r : Fin 65536) (c : Fin 8) :
    rout8 (F := Ideal) ci hW3 hB3 h W3 B3 (ix2 r c) = Cert.Row.affine (fun k => h (ix2 r k)) (fun k c' => W3 (ix3 (⟨ci, hci⟩ : Fin 32) k (Cert.Row.lo8 c'))) (fun c' => B3 (ix2 (⟨ci, hci⟩ : Fin 32) (Cert.Row.lo8 c'))) c := by
  unfold rout8 Cert.Row.affine
  rw [addf_apply, dot_100_8_apply, b3lo_apply ci hci]
  congr 1
  refine Finset.sum_congr rfl fun k _ => ?_
  rw [w3lo_apply ci hci]

/-- Batch coordinate of the left operand. -/
theorem first_lhs0 (i : S65536x1x8.Idx) (q : dot_S65536x1x1_S65536x1x8_S65536x1x8_2_1_1_2_0_0.contr.Idx) :
    (dot_S65536x1x1_S65536x1x8_S65536x1x8_2_1_1_2_0_0.lhsIdx i q 0).val = (i 0).val := by
  unfold DotDims.lhsIdx
  rw [dif_pos (show (0 : Fin S65536x1x1.rank) ∈ dot_S65536x1x1_S65536x1x8_S65536x1x8_2_1_1_2_0_0.lhsBatch by decide)]
  rfl
/-- Free coordinate of the left operand. -/
theorem first_lhs1 (i : S65536x1x8.Idx) (q : dot_S65536x1x1_S65536x1x8_S65536x1x8_2_1_1_2_0_0.contr.Idx) :
    (dot_S65536x1x1_S65536x1x8_S65536x1x8_2_1_1_2_0_0.lhsIdx i q 1).val = (i 1).val := by
  unfold DotDims.lhsIdx
  rw [dif_neg (show ¬(1 : Fin S65536x1x1.rank) ∈ dot_S65536x1x1_S65536x1x8_S65536x1x8_2_1_1_2_0_0.lhsBatch by decide), dif_pos (show (1 : Fin S65536x1x1.rank) ∈ dot_S65536x1x1_S65536x1x8_S65536x1x8_2_1_1_2_0_0.lhsNonContracting by decide)]
  rfl
/-- Contracted coordinate of the left operand. -/
theorem first_lhs2 (i : S65536x1x8.Idx) (q : dot_S65536x1x1_S65536x1x8_S65536x1x8_2_1_1_2_0_0.contr.Idx) :
    (dot_S65536x1x1_S65536x1x8_S65536x1x8_2_1_1_2_0_0.lhsIdx i q 2).val = (q ⟨0, by decide⟩).val :=
  dot_S65536x1x1_S65536x1x8_S65536x1x8_2_1_1_2_0_0.lhsIdx_val_of_single rfl i q
/-- Batch coordinate of the right operand. -/
theorem first_rhs0 (i : S65536x1x8.Idx) (q : dot_S65536x1x1_S65536x1x8_S65536x1x8_2_1_1_2_0_0.contr.Idx) :
    (dot_S65536x1x1_S65536x1x8_S65536x1x8_2_1_1_2_0_0.rhsIdx i q 0).val = (i 0).val := by
  unfold DotDims.rhsIdx
  rw [dif_pos (show (0 : Fin S65536x1x8.rank) ∈ dot_S65536x1x1_S65536x1x8_S65536x1x8_2_1_1_2_0_0.rhsBatch by decide)]
  rfl
/-- Contracted coordinate of the right operand. -/
theorem first_rhs1 (i : S65536x1x8.Idx) (q : dot_S65536x1x1_S65536x1x8_S65536x1x8_2_1_1_2_0_0.contr.Idx) :
    (dot_S65536x1x1_S65536x1x8_S65536x1x8_2_1_1_2_0_0.rhsIdx i q 1).val = (q ⟨0, by decide⟩).val :=
  dot_S65536x1x1_S65536x1x8_S65536x1x8_2_1_1_2_0_0.rhsIdx_val_of_single rfl i q
/-- Free coordinate of the right operand. -/
theorem first_rhs2 (i : S65536x1x8.Idx) (q : dot_S65536x1x1_S65536x1x8_S65536x1x8_2_1_1_2_0_0.contr.Idx) :
    (dot_S65536x1x1_S65536x1x8_S65536x1x8_2_1_1_2_0_0.rhsIdx i q 2).val = (i 2).val := by
  unfold DotDims.rhsIdx
  rw [dif_neg (show ¬(2 : Fin S65536x1x8.rank) ∈ dot_S65536x1x1_S65536x1x8_S65536x1x8_2_1_1_2_0_0.rhsBatch by decide), dif_pos (show (2 : Fin S65536x1x8.rank) ∈ dot_S65536x1x1_S65536x1x8_S65536x1x8_2_1_1_2_0_0.rhsNonContracting by decide)]
  rfl

/-- The batched product of a 1 × 1 matrix with a 1 × 8 row, entry (r, 0, c): the sum over the one k of entry (r, 0, k) times entry (r, k, c). -/
theorem dot_first_apply (A : (⟨S65536x1x1, .f32⟩ : BufTy).Contents (Elt Ideal)) (B : (⟨S65536x1x8, .f32⟩ : BufTy).Contents (Elt Ideal))
    (r : Fin 65536) (c : Fin 8) :
    Host.dotGeneral (F := Ideal) (φ₁ := .f32) (φ₂ := .f32) dot_S65536x1x1_S65536x1x8_S65536x1x8_2_1_1_2_0_0 none A B (ix3 r (0 : Fin 1) c)
      = ∑ k : Fin 1, A (ix3 r (0 : Fin 1) k) * B (ix3 r k c) := by
  simp only [Host.dotGeneral]
  rw [Ideal.dotGeneral_apply, ← Equiv.sum_comp (contrEquiv1 dot_S65536x1x1_S65536x1x8_S65536x1x8_2_1_1_2_0_0 1 rfl rfl).symm]
  refine Finset.sum_congr rfl fun k _ => ?_
  have hk := contrEquiv1_symm_val dot_S65536x1x1_S65536x1x8_S65536x1x8_2_1_1_2_0_0 1 rfl rfl k
  have el : dot_S65536x1x1_S65536x1x8_S65536x1x8_2_1_1_2_0_0.lhsIdx (ix3 r (0 : Fin 1) c) ((contrEquiv1 dot_S65536x1x1_S65536x1x8_S65536x1x8_2_1_1_2_0_0 1 rfl rfl).symm k) = ix3 r (0 : Fin 1) k := funext fun a => Fin.ext (by
    match a with
    | ⟨0, _⟩ => exact first_lhs0 _ _
    | ⟨1, _⟩ => exact first_lhs1 _ _
    | ⟨2, _⟩ => exact (first_lhs2 _ _).trans hk)
  have er : dot_S65536x1x1_S65536x1x8_S65536x1x8_2_1_1_2_0_0.rhsIdx (ix3 r (0 : Fin 1) c) ((contrEquiv1 dot_S65536x1x1_S65536x1x8_S65536x1x8_2_1_1_2_0_0 1 rfl rfl).symm k) = ix3 r k c := funext fun a => Fin.ext (by
    match a with
    | ⟨0, _⟩ => exact first_rhs0 _ _
    | ⟨1, _⟩ => exact (first_rhs1 _ _).trans hk
    | ⟨2, _⟩ => exact first_rhs2 _ _)
  rw [el, er]

/-- Every entry of the running 1 × 1 matrix is the number the word of 1.0 denotes. -/
theorem rones_apply' (r : Fin 65536) (a b : Fin 1) :
    rones (F := Ideal) (ix3 r a b) = Ideal.ofBits .f32 0x3F800000#32 := rfl

/-- Entry (r, 0, 0) of the running 1 × 1 matrix is the number the word of 1.0 denotes. -/
theorem rones_apply (r : Fin 65536) : rones (F := Ideal) (ix3 r (0 : Fin 1) (0 : Fin 1)) = Ideal.ofBits .f32 0x3F800000#32 := rfl

/-- The maximum over the 8 outputs of sample r, folded from −∞. -/
theorem rmax_apply (o : (⟨S65536x8, .f32⟩ : BufTy).Contents (Elt Ideal)) (r : Fin 65536) :
    Host.reduce (FloatOps.maximumf (F := Ideal) (φ := .f32)) o (constant (F := Ideal) S_ .f32 0xFF800000#32) reducesTo_S65536x8_S65536_d1 h_S_ (ix1 r)
      = (Finset.univ : Finset (Fin 8)).fold max (Ideal.ofBits .f32 0xFF800000#32) (fun c' : Fin 8 => o (ix2 r c')) := by
  have hR : S65536x8.Reduces [1] S65536 := by decide
  rw [Host.reduce_eq_fold_single (FloatOps.maximumf (F := Ideal) (φ := .f32)) o _ reducesTo_S65536x8_S65536_d1 hR h_S_ (ix1 r)]
  show (Finset.univ : Finset (Fin 8)).fold max (Ideal.ofBits .f32 0xFF800000#32) (fun c' : Fin 8 => o (hR.lift (ix1 r) c')) = _
  congr 1
  funext c'
  congr 1
  funext a
  refine Fin.ext ?_
  match a with
  | ⟨0, _⟩ => rfl
  | ⟨1, _⟩ => rfl

/-- The exponential of an output shifted by the row maximum. -/
theorem rexps_apply (o : (⟨S65536x8, .f32⟩ : BufTy).Contents (Elt Ideal)) (r : Fin 65536) (c : Fin 8) :
    rexps (F := Ideal) o (ix2 r c) = Ideal.exp (o (ix2 r c) - Cert.Row.rowMax (fun c' => o (ix2 r c'))) := by
  unfold rexps Cert.Row.rowMax
  show Ideal.exp (o (ix2 r c) - _) = _
  refine congrArg (fun t => Ideal.exp (o (ix2 r c) - t)) ?_
  refine (broadcastInDim_apply _ _ _ (ix2 r c) (ix2 r (0 : Fin 1)) fun a => ?_).trans ?_
  · match a with
    | ⟨0, _⟩ => rfl
    | ⟨1, _⟩ => rfl
  refine (broadcastInDim_apply _ _ _ (ix2 r (0 : Fin 1)) (ix1 r) fun a => ?_).trans ?_
  · match a with
    | ⟨0, _⟩ => rfl
  rw [maximumf_apply, rmax_apply]
  rfl

/-- The host's quotient of two [65536, 8] arrays at an entry is the quotient of the entries. -/
theorem hdiv_apply (x y : (⟨S65536x8, .f32⟩ : BufTy).Contents (Elt Ideal)) (r : Fin 65536) (c : Fin 8) :
    Host.divf (F := Ideal) (φ := .f32) x y (ix2 r c) = Ideal.div (x (ix2 r c)) (y (ix2 r c)) := rfl

/-- The sum over the 8 entries of row r of a [65536, 8] array, from the zero initial value. -/
theorem rsum_apply (x : (⟨S65536x8, .f32⟩ : BufTy).Contents (Elt Ideal)) (r : Fin 65536) :
    Host.reduceAdd (F := Ideal) (φ := .f32) x (constant (F := Ideal) S_ .f32 0x00000000#32) reducesTo_S65536x8_S65536_d1 h_S_ (ix1 r)
      = ∑ c' : Fin 8, x (ix2 r c') := by
  have hR : S65536x8.Reduces [1] S65536 := by decide
  show Ideal.hostReduceAdd reducesTo_S65536x8_S65536_d1 x (Ideal.ofBits .f32 0x00000000#32) (ix1 r) = _
  rw [Ideal.hostReduceAdd_single reducesTo_S65536x8_S65536_d1 hR, Ideal.ofBits_zero_f32, zero_add]
  show ∑ c' : Fin 8, x (hR.lift (ix1 r) c') = _
  refine Finset.sum_congr rfl fun c' _ => ?_
  congr 1
  funext a
  refine Fin.ext ?_
  match a with
  | ⟨0, _⟩ => rfl
  | ⟨1, _⟩ => rfl

/-- The softmax over the 8 outputs of sample r, entry c. -/
theorem rsoftmax_apply (o : (⟨S65536x8, .f32⟩ : BufTy).Contents (Elt Ideal)) (r : Fin 65536) (c : Fin 8) :
    rsoftmax (F := Ideal) o (ix2 r c) = Cert.Row.softmax (fun c' => o (ix2 r c')) c := by
  unfold rsoftmax Cert.Row.softmax
  rw [hdiv_apply, rexps_apply]
  refine congrArg (fun t => Ideal.div (Ideal.exp (o (ix2 r c) - Cert.Row.rowMax (fun c' => o (ix2 r c')))) t) ?_
  refine (broadcastInDim_apply _ _ _ (ix2 r c) (ix2 r (0 : Fin 1)) fun a => ?_).trans ?_
  · match a with
    | ⟨0, _⟩ => rfl
    | ⟨1, _⟩ => rfl
  refine (broadcastInDim_apply _ _ _ (ix2 r (0 : Fin 1)) (ix1 r) fun a => ?_).trans ?_
  · match a with
    | ⟨0, _⟩ => rfl
  rw [rsum_apply]
  refine Finset.sum_congr rfl fun c' _ => ?_
  rw [rexps_apply]

/-- The reshape of a [65536, 8] array to [65536, 1, 8]: entry (r, k, c) is entry (r, c). -/
theorem cast18_apply (y : (⟨S65536x8, .f32⟩ : BufTy).Contents (Elt Ideal)) (r : Fin 65536) (k : Fin 1) (c : Fin 8) :
    shapeCast S65536x1x8 y shapeCasts_S65536x8_S65536x1x8 (ix3 r k c) = y (ix2 r c) := by
  refine shapeCast_apply y _ _ _ ?_
  rw [Shape.rowMajor_val_two, Shape.rowMajor_val_three]
  show r.val * 8 + c.val = (r.val * 1 + k.val) * 8 + c.val
  have := k.isLt
  omega

/-- The first piece at entry (r, 0, c): (1) times the softmax of the first 8 outputs of sample r. -/
theorem rfirst_apply (o8 : (⟨S65536x8, .f32⟩ : BufTy).Contents (Elt Ideal)) (r : Fin 65536) (c : Fin 8) :
    rfirst (F := Ideal) rones o8 (ix3 r (0 : Fin 1) c) = Cert.Row.start (Cert.Row.softmax (fun c' => o8 (ix2 r c'))) c := by
  unfold rfirst Cert.Row.start
  rw [dot_first_apply]
  refine Finset.sum_congr rfl fun k _ => ?_
  rw [rones_apply', cast18_apply, rsoftmax_apply]

end Cert.ReferenceIdeal.Steps

end
-- ==== Proof.RBody.lean ====
/-
  The reference as a chain of 32 steps over the whole argument arrays.

  `rret n` is the running 1 × 8 row of every sample after piece `n` (n = 0 … 30) and `rbody` the [65536, 1] result after
  piece 31, each a step (`rfirst`, `rmid`, `rlast`) of the previous one and of piece `n`'s third-layer outputs, computed
  from columns 16 n … 16 n + 15 of the samples and slice `n` of each parameter array.
-/
import proofs.«110954_j11751030522504_2_alg».proof.Proof.RSteps

noncomputable section

namespace Cert.ReferenceIdeal.Steps

open Idealize.ShloMosaic Idealize.SL.Sem Cert.ReferenceIdeal Cert.ReferenceIdeal.Gen

variable {F : FTy → Type} [FloatOps F]
variable (X : (⟨S65536x512, .f32⟩ : BufTy).Contents (Elt F)) (W1 : (⟨S32x16x100, .f32⟩ : BufTy).Contents (Elt F)) (B1 : (⟨S32x100, .f32⟩ : BufTy).Contents (Elt F)) (W2 : (⟨S32x100x100, .f32⟩ : BufTy).Contents (Elt F))
  (B2 : (⟨S32x100, .f32⟩ : BufTy).Contents (Elt F)) (W3 : (⟨S32x100x64, .f32⟩ : BufTy).Contents (Elt F)) (B3 : (⟨S32x64, .f32⟩ : BufTy).Contents (Elt F))

/-- The running row after piece 0. -/
def rret0 : (⟨S65536x1x8, .f32⟩ : BufTy).Contents (Elt F) :=
  rfirst rones (rout8 0 slices_S32x100x64_S1x100x64_0_0_0 slices_S32x64_S1x64_0_0 (rhid 0 0 slices_S65536x512_S65536x16_0_0 slices_S32x16x100_S1x16x100_0_0_0 slices_S32x100_S1x100_0_0 slices_S32x100x100_S1x100x100_0_0_0 X W1 B1 W2 B2) W3 B3)

/-- The running row after piece 1. -/
def rret1 : (⟨S65536x1x8, .f32⟩ : BufTy).Contents (Elt F) :=
  rmid (rret0 X W1 B1 W2 B2 W3 B3) (rout64 1 slices_S32x100x64_S1x100x64_1_0_0 slices_S32x64_S1x64_1_0 (rhid 16 1 slices_S65536x512_S65536x16_0_16 slices_S32x16x100_S1x16x100_1_0_0 slices_S32x100_S1x100_1_0 slices_S32x100x100_S1x100x100_1_0_0 X W1 B1 W2 B2) W3 B3)

/-- The running row after piece 2. -/
def rret2 : (⟨S65536x1x8, .f32⟩ : BufTy).Contents (Elt F) :=
  rmid (rret1 X W1 B1 W2 B2 W3 B3) (rout64 2 slices_S32x100x64_S1x100x64_2_0_0 slices_S32x64_S1x64_2_0 (rhid 32 2 slices_S65536x512_S65536x16_0_32 slices_S32x16x100_S1x16x100_2_0_0 slices_S32x100_S1x100_2_0 slices_S32x100x100_S1x100x100_2_0_0 X W1 B1 W2 B2) W3 B3)

/-- The running row after piece 3. -/
def rret3 : (⟨S65536x1x8, .f32⟩ : BufTy).Contents (Elt F) :=
  rmid (rret2 X W1 B1 W2 B2 W3 B3) (rout64 3 slices_S32x100x64_S1x100x64_3_0_0 slices_S32x64_S1x64_3_0 (rhid 48 3 slices_S65536x512_S65536x16_0_48 slices_S32x16x100_S1x16x100_3_0_0 slices_S32x100_S1x100_3_0 slices_S32x100x100_S1x100x100_3_0_0 X W1 B1 W2 B2) W3 B3)

/-- The running row after piece 4. -/
def rret4 : (⟨S65536x1x8, .f32⟩ : BufTy).Contents (Elt F) :=
  rmid (rret3 X W1 B1 W2 B2 W3 B3) (rout64 4 slices_S32x100x64_S1x100x64_4_0_0 slices_S32x64_S1x64_4_0 (rhid 64 4 slices_S65536x512_S65536x16_0_64 slices_S32x16x100_S1x16x100_4_0_0 slices_S32x100_S1x100_4_0 slices_S32x100x100_S1x100x100_4_0_0 X W1 B1 W2 B2) W3 B3)

/-- The running row after piece 5. -/
def rret5 : (⟨S65536x1x8, .f32⟩ : BufTy).Contents (Elt F) :=
  rmid (rret4 X W1 B1 W2 B2 W3 B3) (rout64 5 slices_S32x100x64_S1x100x64_5_0_0 slices_S32x64_S1x64_5_0 (rhid 80 5 slices_S65536x512_S65536x16_0_80 slices_S32x16x100_S1x16x100_5_0_0 slices_S32x100_S1x100_5_0 slices_S32x100x100_S1x100x100_5_0_0 X W1 B1 W2 B2) W3 B3)

/-- The running row after piece 6. -/
def rret6 : (⟨S65536x1x8, .f32⟩ : BufTy).Contents (Elt F) :=
  rmid (rret5 X W1 B1 W2 B2 W3 B3) (rout64 6 slices_S32x100x64_S1x100x64_6_0_0 slices_S32x64_S1x64_6_0 (rhid 96 6 slices_S65536x512_S65536x16_0_96 slices_S32x16x100_S1x16x100_6_0_0 slices_S32x100_S1x100_6_0 slices_S32x100x100_S1x100x100_6_0_0 X W1 B1 W2 B2) W3 B3)

/-- The running row after piece 7. -/
def rret7 : (⟨S65536x1x8, .f32⟩ : BufTy).Contents (Elt F) :=
  rmid (rret6 X W1 B1 W2 B2 W3 B3) (rout64 7 slices_S32x100x64_S1x100x64_7_0_0 slices_S32x64_S1x64_7_0 (rhid 112 7 slices_S65536x512_S65536x16_0_112 slices_S32x16x100_S1x16x100_7_0_0 slices_S32x100_S1x100_7_0 slices_S32x100x100_S1x100x100_7_0_0 X W1 B1 W2 B2) W3 B3)

/-- The running row after piece 8. -/
def rret8 : (⟨S65536x1x8, .f32⟩ : BufTy).Contents (Elt F) :=
  rmid (rret7 X W1 B1 W2 B2 W3 B3) (rout64 8 slices_S32x100x64_S1x100x64_8_0_0 slices_S32x64_S1x64_8_0 (rhid 128 8 slices_S65536x512_S65536x16_0_128 slices_S32x16x100_S1x16x100_8_0_0 slices_S32x100_S1x100_8_0 slices_S32x100x100_S1x100x100_8_0_0 X W1 B1 W2 B2) W3 B3)

/-- The running row after piece 9. -/
def rret9 : (⟨S65536x1x8, .f32⟩ : BufTy).Contents (Elt F) :=
  rmid (rret8 X W1 B1 W2 B2 W3 B3) (rout64 9 slices_S32x100x64_S1x100x64_9_0_0 slices_S32x64_S1x64_9_0 (rhid 144 9 slices_S65536x512_S65536x16_0_144 slices_S32x16x100_S1x16x100_9_0_0 slices_S32x100_S1x100_9_0 slices_S32x100x100_S1x100x100_9_0_0 X W1 B1 W2 B2) W3 B3)

/-- The running row after piece 10. -/
def rret10 : (⟨S65536x1x8, .f32⟩ : BufTy).Contents (Elt F) :=
  rmid (rret9 X W1 B1 W2 B2 W3 B3) (rout64 10 slices_S32x100x64_S1x100x64_10_0_0 slices_S32x64_S1x64_10_0 (rhid 160 10 slices_S65536x512_S65536x16_0_160 slices_S32x16x100_S1x16x100_10_0_0 slices_S32x100_S1x100_10_0 slices_S32x100x100_S1x100x100_10_0_0 X W1 B1 W2 B2) W3 B3)

/-- The running row after piece 11. -/
def rret11 : (⟨S65536x1x8, .f32⟩ : BufTy).Contents (Elt F) :=
  rmid (rret10 X W1 B1 W2 B2 W3 B3) (rout64 11 slices_S32x100x64_S1x100x64_11_0_0 slices_S32x64_S1x64_11_0 (rhid 176 11 slices_S65536x512_S65536x16_0_176 slices_S32x16x100_S1x16x100_11_0_0 slices_S32x100_S1x100_11_0 slices_S32x100x100_S1x100x100_11_0_0 X W1 B1 W2 B2) W3 B3)

/-- The running row after piece 12. -/
def rret12 : (⟨S65536x1x8, .f32⟩ : BufTy).Contents (Elt F) :=
  rmid (rret11 X W1 B1 W2 B2 W3 B3) (rout64 12 slices_S32x100x64_S1x100x64_12_0_0 slices_S32x64_S1x64_12_0 (rhid 192 12 slices_S65536x512_S65536x16_0_192 slices_S32x16x100_S1x16x100_12_0_0 slices_S32x100_S1x100_12_0 slices_S32x100x100_S1x100x100_12_0_0 X W1 B1 W2 B2) W3 B3)

/-- The running row after piece 13. -/
def rret13 : (⟨S65536x1x8, .f32⟩ : BufTy).Contents (Elt F) :=
  rmid (rret12 X W1 B1 W2 B2 W3 B3) (rout64 13 slices_S32x100x64_S1x100x64_13_0_0 slices_S32x64_S1x64_13_0 (rhid 208 13 slices_S65536x512_S65536x16_0_208 slices_S32x16x100_S1x16x100_13_0_0 slices_S32x100_S1x100_13_0 slices_S32x100x100_S1x100x100_13_0_0 X W1 B1 W2 B2) W3 B3)

/-- The running row after piece 14. -/
def rret14 : (⟨S65536x1x8, .f32⟩ : BufTy).Contents (Elt F) :=
  rmid (rret13 X W1 B1 W2 B2 W3 B3) (rout64 14 slices_S32x100x64_S1x100x64_14_0_0 slices_S32x64_S1x64_14_0 (rhid 224 14 slices_S65536x512_S65536x16_0_224 slices_S32x16x100_S1x16x100_14_0_0 slices_S32x100_S1x100_14_0 slices_S32x100x100_S1x100x100_14_0_0 X W1 B1 W2 B2) W3 B3)

/-- The running row after piece 15. -/
def rret15 : (⟨S65536x1x8, .f32⟩ : BufTy).Contents (Elt F) :=
  rmid (rret14 X W1 B1 W2 B2 W3 B3) (rout64 15 slices_S32x100x64_S1x100x64_15_0_0 slices_S32x64_S1x64_15_0 (rhid 240 15 slices_S65536x512_S65536x16_0_240 slices_S32x16x100_S1x16x100_15_0_0 slices_S32x100_S1x100_15_0 slices_S32x100x100_S1x100x100_15_0_0 X W1 B1 W2 B2) W3 B3)

/-- The running row after piece 16. -/
def rret16 : (⟨S65536x1x8, .f32⟩ : BufTy).Contents (Elt F) :=
  rmid (rret15 X W1 B1 W2 B2 W3 B3) (rout64 16 slices_S32x100x64_S1x100x64_16_0_0 slices_S32x64_S1x64_16_0 (rhid 256 16 slices_S65536x512_S65536x16_0_256 slices_S32x16x100_S1x16x100_16_0_0 slices_S32x100_S1x100_16_0 slices_S32x100x100_S1x100x100_16_0_0 X W1 B1 W2 B2) W3 B3)

/-- The running row after piece 17. -/
def rret17 : (⟨S65536x1x8, .f32⟩ : BufTy).Contents (Elt F) :=
  rmid (rret16 X W1 B1 W2 B2 W3 B3) (rout64 17 slices_S32x100x64_S1x100x64_17_0_0 slices_S32x64_S1x64_17_0 (rhid 272 17 slices_S65536x512_S65536x16_0_272 slices_S32x16x100_S1x16x100_17_0_0 slices_S32x100_S1x100_17_0 slices_S32x100x100_S1x100x100_17_0_0 X W1 B1 W2 B2) W3 B3)

/-- The running row after piece 18. -/
def rret18 : (⟨S65536x1x8, .f32⟩ : BufTy).Contents (Elt F) :=
  rmid (rret17 X W1 B1 W2 B2 W3 B3) (rout64 18 slices_S32x100x64_S1x100x64_18_0_0 slices_S32x64_S1x64_18_0 (rhid 288 18 slices_S65536x512_S65536x16_0_288 slices_S32x16x100_S1x16x100_18_0_0 slices_S32x100_S1x100_18_0 slices_S32x100x100_S1x100x100_18_0_0 X W1 B1 W2 B2) W3 B3)

/-- The running row after piece 19. -/
def rret19 : (⟨S65536x1x8, .f32⟩ : BufTy).Contents (Elt F) :=
  rmid (rret18 X W1 B1 W2 B2 W3 B3) (rout64 19 slices_S32x100x64_S1x100x64_19_0_0 slices_S32x64_S1x64_19_0 (rhid 304 19 slices_S65536x512_S65536x16_0_304 slices_S32x16x100_S1x16x100_19_0_0 slices_S32x100_S1x100_19_0 slices_S32x100x100_S1x100x100_19_0_0 X W1 B1 W2 B2) W3 B3)

/-- The running row after piece 20. -/
def rret20 : (⟨S65536x1x8, .f32⟩ : BufTy).Contents (Elt F) :=
  rmid (rret19 X W1 B1 W2 B2 W3 B3) (rout64 20 slices_S32x100x64_S1x100x64_20_0_0 slices_S32x64_S1x64_20_0 (rhid 320 20 slices_S65536x512_S65536x16_0_320 slices_S32x16x100_S1x16x100_20_0_0 slices_S32x100_S1x100_20_0 slices_S32x100x100_S1x100x100_20_0_0 X W1 B1 W2 B2) W3 B3)

/-- The running row after piece 21. -/
def rret21 : (⟨S65536x1x8, .f32⟩ : BufTy).Contents (Elt F) :=
  rmid (rret20 X W1 B1 W2 B2 W3 B3) (rout64 21 slices_S32x100x64_S1x100x64_21_0_0 slices_S32x64_S1x64_21_0 (rhid 336 21 slices_S65536x512_S65536x16_0_336 slices_S32x16x100_S1x16x100_21_0_0 slices_S32x100_S1x100_21_0 slices_S32x100x100_S1x100x100_21_0_0 X W1 B1 W2 B2) W3 B3)

/-- The running row after piece 22. -/
def rret22 : (⟨S65536x1x8, .f32⟩ : BufTy).Contents (Elt F) :=
  rmid (rret21 X W1 B1 W2 B2 W3 B3) (rout64 22 slices_S32x100x64_S1x100x64_22_0_0 slices_S32x64_S1x64_22_0 (rhid 352 22 slices_S65536x512_S65536x16_0_352 slices_S32x16x100_S1x16x100_22_0_0 slices_S32x100_S1x100_22_0 slices_S32x100x100_S1x100x100_22_0_0 X W1 B1 W2 B2) W3 B3)

/-- The running row after piece 23. -/
def rret23 : (⟨S65536x1x8, .f32⟩ : BufTy).Contents (Elt F) :=
  rmid (rret22 X W1 B1 W2 B2 W3 B3) (rout64 23 slices_S32x100x64_S1x100x64_23_0_0 slices_S32x64_S1x64_23_0 (rhid 368 23 slices_S65536x512_S65536x16_0_368 slices_S32x16x100_S1x16x100_23_0_0 slices_S32x100_S1x100_23_0 slices_S32x100x100_S1x100x100_23_0_0 X W1 B1 W2 B2) W3 B3)

/-- The running row after piece 24. -/
def rret24 : (⟨S65536x1x8, .f32⟩ : BufTy).Contents (Elt F) :=
  rmid (rret23 X W1 B1 W2 B2 W3 B3) (rout64 24 slices_S32x100x64_S1x100x64_24_0_0 slices_S32x64_S1x64_24_0 (rhid 384 24 slices_S65536x512_S65536x16_0_384 slices_S32x16x100_S1x16x100_24_0_0 slices_S32x100_S1x100_24_0 slices_S32x100x100_S1x100x100_24_0_0 X W1 B1 W2 B2) W3 B3)

/-- The running row after piece 25. -/
def rret25 : (⟨S65536x1x8, .f32⟩ : BufTy).Contents (Elt F) :=
  rmid (rret24 X W1 B1 W2 B2 W3 B3) (rout64 25 slices_S32x100x64_S1x100x64_25_0_0 slices_S32x64_S1x64_25_0 (rhid 400 25 slices_S65536x512_S65536x16_0_400 slices_S32x16x100_S1x16x100_25_0_0 slices_S32x100_S1x100_25_0 slices_S32x100x100_S1x100x100_25_0_0 X W1 B1 W2 B2) W3 B3)

/-- The running row after piece 26. -/
def rret26 : (⟨S65536x1x8, .f32⟩ : BufTy).Contents (Elt F) :=
  rmid (rret25 X W1 B1 W2 B2 W3 B3) (rout64 26 slices_S32x100x64_S1x100x64_26_0_0 slices_S32x64_S1x64_26_0 (rhid 416 26 slices_S65536x512_S65536x16_0_416 slices_S32x16x100_S1x16x100_26_0_0 slices_S32x100_S1x100_26_0 slices_S32x100x100_S1x100x100_26_0_0 X W1 B1 W2 B2) W3 B3)

/-- The running row after piece 27. -/
def rret27 : (⟨S65536x1x8, .f32⟩ : BufTy).Contents (Elt F) :=
  rmid (rret26 X W1 B1 W2 B2 W3 B3) (rout64 27 slices_S32x100x64_S1x100x64_27_0_0 slices_S32x64_S1x64_27_0 (rhid 432 27 slices_S65536x512_S65536x16_0_432 slices_S32x16x100_S1x16x100_27_0_0 slices_S32x100_S1x100_27_0 slices_S32x100x100_S1x100x100_27_0_0 X W1 B1 W2 B2) W3 B3)

/-- The running row after piece 28. -/
def rret28 : (⟨S65536x1x8, .f32⟩ : BufTy).Contents (Elt F) :=
  rmid (rret27 X W1 B1 W2 B2 W3 B3) (rout64 28 slices_S32x100x64_S1x100x64_28_0_0 slices_S32x64_S1x64_28_0 (rhid 448 28 slices_S65536x512_S65536x16_0_448 slices_S32x16x100_S1x16x100_28_0_0 slices_S32x100_S1x100_28_0 slices_S32x100x100_S1x100x100_28_0_0 X W1 B1 W2 B2) W3 B3)

/-- The running row after piece 29. -/
def rret29 : (⟨S65536x1x8, .f32⟩ : BufTy).Contents (Elt F) :=
  rmid (rret28 X W1 B1 W2 B2 W3 B3) (rout64 29 slices_S32x100x64_S1x100x64_29_0_0 slices_S32x64_S1x64_29_0 (rhid 464 29 slices_S65536x512_S65536x16_0_464 slices_S32x16x100_S1x16x100_29_0_0 slices_S32x100_S1x100_29_0 slices_S32x100x100_S1x100x100_29_0_0 X W1 B1 W2 B2) W3 B3)

/-- The running row after piece 30. -/
def rret30 : (⟨S65536x1x8, .f32⟩ : BufTy).Contents (Elt F) :=
  rmid (rret29 X W1 B1 W2 B2 W3 B3) (rout64 30 slices_S32x100x64_S1x100x64_30_0_0 slices_S32x64_S1x64_30_0 (rhid 480 30 slices_S65536x512_S65536x16_0_480 slices_S32x16x100_S1x16x100_30_0_0 slices_S32x100_S1x100_30_0 slices_S32x100x100_S1x100x100_30_0_0 X W1 B1 W2 B2) W3 B3)

/-- The result, after piece 31. -/
def rbody : (⟨S65536x1, .f32⟩ : BufTy).Contents (Elt F) :=
  rlast (rret30 X W1 B1 W2 B2 W3 B3) (rout8 31 slices_S32x100x64_S1x100x64_31_0_0 slices_S32x64_S1x64_31_0 (rhid 496 31 slices_S65536x512_S65536x16_0_496 slices_S32x16x100_S1x16x100_31_0_0 slices_S32x100_S1x100_31_0 slices_S32x100x100_S1x100x100_31_0_0 X W1 B1 W2 B2) W3 B3)

end Cert.ReferenceIdeal.Steps

end
-- ==== Proof.Bridge.lean ====
/-
  The two chains agree, piece by piece.

  Fix a grid point `t` and let `x0` be a block of 2048 samples whose row `p` is row `2048 t + p` of the sample array
  `X` (`hx`).  The kernel's steps load columns `xo … xo + 15` of `x0` and slice `ci` of each parameter array through
  rectangles; the reference's steps slice the same columns of `X` and the same slice of each parameter array.  Read
  at a row, both are the same row function of the same numbers (the two families of read-at-an-index theorems), so
  a step of the kernel's chain at row `p` is the corresponding step of the reference's chain at row `2048 t + p`
  whenever the running rows agree there (`first_step`, `mid_step`, `last_step`); 32 applications give `body_eq`.
-/
import proofs.«110954_j11751030522504_2_alg».proof.Proof.KRead
import proofs.«110954_j11751030522504_2_alg».proof.Proof.RRead
import proofs.«110954_j11751030522504_2_alg».proof.Proof.KBody
import proofs.«110954_j11751030522504_2_alg».proof.Proof.RBody

noncomputable section

namespace Cert.Bridge

open Idealize.ShloMosaic Idealize.ShloMosaic.ValueIdx Cert.KernelIdeal Cert.KernelIdeal.Gen
open Cert.KernelIdeal.Steps Cert.ReferenceIdeal.Steps

/-- Row `p` of block `t` as a row of the whole array. -/
def row (t : ℕ) (ht : t < 32) (p : Fin 2048) : Fin 65536 := ⟨2048 * t + p.val, by have := p.isLt; omega⟩

/-! ## Loads through rectangles, read at an index -/

/-- Column `d` of the 16 columns loaded at offset `xo` is column `xo + d` of the block. -/
theorem ld_x (x0 : Vec Ideal S2048x512 .f32) (xo : ℕ) (hxo : xo + 16 ≤ 512) (i0 : ∀ a, (![0, xo] : Fin 2 → ℕ) a + S2048x16.size a ≤ S2048x512.size a)
    (p : Fin 2048) (d : Fin 16) :
    View.ld x0 (Rect.unit (s := S2048x512) ![0, xo] S2048x16.size i0) (ix2 p d)
      = x0 (ix2 p (⟨xo + d.val, by have := d.isLt; omega⟩ : Fin 512)) := by
  show x0 ((Rect.unit (s := S2048x512) ![0, xo] S2048x16.size i0).emb (ix2 p d)) = _
  refine congrArg x0 (funext fun a => Fin.ext ?_)
  match a with
  | ⟨0, _⟩ => show 0 + 1 * p.val = p.val; omega
  | ⟨1, _⟩ => show xo + 1 * d.val = xo + d.val; omega

/-- Slice `ci` of a rank-3 parameter array, loaded as a [1, A, B] block. -/
theorem ld_3 {A B : ℕ} (W : (⟨3, ![32, A, B]⟩ : Shape).Idx → Elt Ideal .f32) (ci : ℕ) (hci : ci < 32)
    (i : ∀ a, (![ci, 0, 0] : Fin 3 → ℕ) a + (⟨3, ![1, A, B]⟩ : Shape).size a ≤ (⟨3, ![32, A, B]⟩ : Shape).size a)
    (a' : Fin A) (b' : Fin B) :
    View.ld W (Rect.unit (s := (⟨3, ![32, A, B]⟩ : Shape)) ![ci, 0, 0] (⟨3, ![1, A, B]⟩ : Shape).size i) (ix3 (0 : Fin 1) a' b')
      = W (ix3 (⟨ci, hci⟩ : Fin 32) a' b') := by
  show W ((Rect.unit (s := (⟨3, ![32, A, B]⟩ : Shape)) ![ci, 0, 0] (⟨3, ![1, A, B]⟩ : Shape).size i).emb (ix3 (0 : Fin 1) a' b')) = _
  refine congrArg W (funext fun a => Fin.ext ?_)
  match a with
  | ⟨0, _⟩ => show ci + 1 * 0 = ci; omega
  | ⟨1, _⟩ => show 0 + 1 * a'.val = a'.val; omega
  | ⟨2, _⟩ => show 0 + 1 * b'.val = b'.val; omega

/-- Row `ci` of a rank-2 parameter array, loaded as a [1, N] block. -/
theorem ld_2 {N : ℕ} (B : (⟨2, ![32, N]⟩ : Shape).Idx → Elt Ideal .f32) (ci : ℕ) (hci : ci < 32)
    (i : ∀ a, (![ci, 0] : Fin 2 → ℕ) a + (⟨2, ![1, N]⟩ : Shape).size a ≤ (⟨2, ![32, N]⟩ : Shape).size a) (b' : Fin N) :
    View.ld B (Rect.unit (s := (⟨2, ![32, N]⟩ : Shape)) ![ci, 0] (⟨2, ![1, N]⟩ : Shape).size i) (ix2 (0 : Fin 1) b')
      = B (ix2 (⟨ci, hci⟩ : Fin 32) b') := by
  show B ((Rect.unit (s := (⟨2, ![32, N]⟩ : Shape)) ![ci, 0] (⟨2, ![1, N]⟩ : Shape).size i).emb (ix2 (0 : Fin 1) b')) = _
  refine congrArg B (funext fun a => Fin.ext ?_)
  match a with
  | ⟨0, _⟩ => show ci + 1 * 0 = ci; omega
  | ⟨1, _⟩ => show 0 + 1 * b'.val = b'.val; omega

/-! ## One step of the two chains -/

variable (x0 : Vec Ideal S2048x512 .f32) (X : (⟨Cert.ReferenceIdeal.S65536x512, .f32⟩ : BufTy).Contents (Elt Ideal)) (W1 : (⟨Cert.ReferenceIdeal.S32x16x100, .f32⟩ : BufTy).Contents (Elt Ideal)) (B1 : (⟨Cert.ReferenceIdeal.S32x100, .f32⟩ : BufTy).Contents (Elt Ideal))
  (W2 : (⟨Cert.ReferenceIdeal.S32x100x100, .f32⟩ : BufTy).Contents (Elt Ideal)) (B2 : (⟨Cert.ReferenceIdeal.S32x100, .f32⟩ : BufTy).Contents (Elt Ideal)) (W3 : (⟨Cert.ReferenceIdeal.S32x100x64, .f32⟩ : BufTy).Contents (Elt Ideal)) (B3 : (⟨Cert.ReferenceIdeal.S32x64, .f32⟩ : BufTy).Contents (Elt Ideal))
  (t : ℕ) (ht : t < 32)

section Steps

variable (hx : ∀ (p : Fin 2048) (q : Fin 512), x0 (ix2 p q) = X (ix2 (row t ht p) q))
include hx

/-- The hidden features of a piece: the kernel's at row `p` of the block are the reference's at row `2048 t + p`. -/
theorem hid_step (xo ci : ℕ) (hxo : xo + 16 ≤ 512) (hci : ci < 32)
    (i0 : ∀ a, (![0, xo] : Fin 2 → ℕ) a + S2048x16.size a ≤ S2048x512.size a)
    (i1 : ∀ a, (![ci, 0, 0] : Fin 3 → ℕ) a + S1x16x100.size a ≤ S32x16x100.size a)
    (i2 : ∀ a, (![ci, 0] : Fin 2 → ℕ) a + S1x100.size a ≤ S32x100.size a)
    (i3 : ∀ a, (![ci, 0, 0] : Fin 3 → ℕ) a + S1x100x100.size a ≤ S32x100x100.size a)
    (hX : Cert.ReferenceIdeal.S65536x512.Slices ![0, xo] Cert.ReferenceIdeal.S65536x16)
    (hW1 : Cert.ReferenceIdeal.S32x16x100.Slices ![ci, 0, 0] Cert.ReferenceIdeal.S1x16x100)
    (hB : Cert.ReferenceIdeal.S32x100.Slices ![ci, 0] Cert.ReferenceIdeal.S1x100)
    (hW2 : Cert.ReferenceIdeal.S32x100x100.Slices ![ci, 0, 0] Cert.ReferenceIdeal.S1x100x100)
    (p : Fin 2048) (k : Fin 100) :
    (hid (F := Ideal) (View.ld x0 (Rect.unit (s := S2048x512) ![0, xo] S2048x16.size i0)) (View.ld W1 (Rect.unit (s := S32x16x100) ![ci, 0, 0] S1x16x100.size i1)) (View.ld B1 (Rect.unit (s := S32x100) ![ci, 0] S1x100.size i2)) (View.ld W2 (Rect.unit (s := S32x100x100) ![ci, 0, 0] S1x100x100.size i3)) (View.ld B2 (Rect.unit (s := S32x100) ![ci, 0] S1x100.size i2))) (ix2 p k) = (rhid (F := Ideal) xo ci hX hW1 hB hW2 X W1 B1 W2 B2) (ix2 (row t ht p) k) := by
  rw [hid_apply, rhid_apply xo ci hxo hci]
  have e1 : (fun d : Fin 16 => (View.ld x0 (Rect.unit (s := S2048x512) ![0, xo] S2048x16.size i0)) (ix2 p d)) = fun d : Fin 16 => X (ix2 (row t ht p) (⟨xo + d.val, by have := d.isLt; omega⟩ : Fin 512)) :=
    funext fun d => (ld_x x0 xo hxo i0 p d).trans (hx p _)
  have e2 : (fun (d : Fin 16) (j : Fin 100) => (View.ld W1 (Rect.unit (s := S32x16x100) ![ci, 0, 0] S1x16x100.size i1)) (ix3 (0 : Fin 1) d j)) = fun d j => W1 (ix3 (⟨ci, hci⟩ : Fin 32) d j) :=
    funext fun d => funext fun j => ld_3 W1 ci hci i1 d j
  have e3 : (fun j : Fin 100 => (View.ld B1 (Rect.unit (s := S32x100) ![ci, 0] S1x100.size i2)) (ix2 (0 : Fin 1) j)) = fun j => B1 (ix2 (⟨ci, hci⟩ : Fin 32) j) :=
    funext fun j => ld_2 B1 ci hci i2 j
  have e4 : (fun (j : Fin 100) (k' : Fin 100) => (View.ld W2 (Rect.unit (s := S32x100x100) ![ci, 0, 0] S1x100x100.size i3)) (ix3 (0 : Fin 1) j k')) = fun j k' => W2 (ix3 (⟨ci, hci⟩ : Fin 32) j k') :=
    funext fun j => funext fun k' => ld_3 W2 ci hci i3 j k'
  have e5 : (fun k' : Fin 100 => (View.ld B2 (Rect.unit (s := S32x100) ![ci, 0] S1x100.size i2)) (ix2 (0 : Fin 1) k')) = fun k' => B2 (ix2 (⟨ci, hci⟩ : Fin 32) k') :=
    funext fun k' => ld_2 B2 ci hci i2 k'
  rw [e1, e2, e3, e4, e5]

/-- The first piece. -/
theorem first_step (xo ci : ℕ) (hxo : xo + 16 ≤ 512) (hci : ci < 32)
    (i0 : ∀ a, (![0, xo] : Fin 2 → ℕ) a + S2048x16.size a ≤ S2048x512.size a)
    (i1 : ∀ a, (![ci, 0, 0] : Fin 3 → ℕ) a + S1x16x100.size a ≤ S32x16x100.size a)
    (i2 : ∀ a, (![ci, 0] : Fin 2 → ℕ) a + S1x100.size a ≤ S32x100.size a)
    (i3 : ∀ a, (![ci, 0, 0] : Fin 3 → ℕ) a + S1x100x100.size a ≤ S32x100x100.size a)
    (hX : Cert.ReferenceIdeal.S65536x512.Slices ![0, xo] Cert.ReferenceIdeal.S65536x16)
    (hW1 : Cert.ReferenceIdeal.S32x16x100.Slices ![ci, 0, 0] Cert.ReferenceIdeal.S1x16x100)
    (hB : Cert.ReferenceIdeal.S32x100.Slices ![ci, 0] Cert.ReferenceIdeal.S1x100)
    (hW2 : Cert.ReferenceIdeal.S32x100x100.Slices ![ci, 0, 0] Cert.ReferenceIdeal.S1x100x100)
    (i4 : ∀ a, (![ci, 0, 0] : Fin 3 → ℕ) a + S1x100x64.size a ≤ S32x100x64.size a)
    (i5 : ∀ a, (![ci, 0] : Fin 2 → ℕ) a + S1x64.size a ≤ S32x64.size a)
    (hW3 : Cert.ReferenceIdeal.S32x100x64.Slices ![ci, 0, 0] Cert.ReferenceIdeal.S1x100x64)
    (hB3 : Cert.ReferenceIdeal.S32x64.Slices ![ci, 0] Cert.ReferenceIdeal.S1x64)
    (p : Fin 2048) (c : Fin 8) :
    first (F := Ideal) ones (hid (F := Ideal) (View.ld x0 (Rect.unit (s := S2048x512) ![0, xo] S2048x16.size i0)) (View.ld W1 (Rect.unit (s := S32x16x100) ![ci, 0, 0] S1x16x100.size i1)) (View.ld B1 (Rect.unit (s := S32x100) ![ci, 0] S1x100.size i2)) (View.ld W2 (Rect.unit (s := S32x100x100) ![ci, 0, 0] S1x100x100.size i3)) (View.ld B2 (Rect.unit (s := S32x100) ![ci, 0] S1x100.size i2))) (View.ld W3 (Rect.unit (s := S32x100x64) ![ci, 0, 0] S1x100x64.size i4)) (View.ld B3 (Rect.unit (s := S32x64) ![ci, 0] S1x64.size i5)) (ix2 p c)
      = rfirst (F := Ideal) rones (rout8 (F := Ideal) ci hW3 hB3 (rhid (F := Ideal) xo ci hX hW1 hB hW2 X W1 B1 W2 B2) W3 B3) (ix3 (row t ht p) (0 : Fin 1) c) := by
  rw [first_apply, rfirst_apply]
  have eo : (fun c' : Fin 8 => rout8 (F := Ideal) ci hW3 hB3 (rhid (F := Ideal) xo ci hX hW1 hB hW2 X W1 B1 W2 B2) W3 B3 (ix2 (row t ht p) c'))
      = Cert.Row.affine (fun k => (rhid (F := Ideal) xo ci hX hW1 hB hW2 X W1 B1 W2 B2) (ix2 (row t ht p) k)) (fun k c' => W3 (ix3 (⟨ci, hci⟩ : Fin 32) k (Cert.Row.lo8 c'))) (fun c' => B3 (ix2 (⟨ci, hci⟩ : Fin 32) (Cert.Row.lo8 c'))) :=
    funext fun c' => rout8_apply ci hci hW3 hB3 _ W3 B3 (row t ht p) c'
  have eh : (fun k : Fin 100 => (hid (F := Ideal) (View.ld x0 (Rect.unit (s := S2048x512) ![0, xo] S2048x16.size i0)) (View.ld W1 (Rect.unit (s := S32x16x100) ![ci, 0, 0] S1x16x100.size i1)) (View.ld B1 (Rect.unit (s := S32x100) ![ci, 0] S1x100.size i2)) (View.ld W2 (Rect.unit (s := S32x100x100) ![ci, 0, 0] S1x100x100.size i3)) (View.ld B2 (Rect.unit (s := S32x100) ![ci, 0] S1x100.size i2))) (ix2 p k)) = fun k => (rhid (F := Ideal) xo ci hX hW1 hB hW2 X W1 B1 W2 B2) (ix2 (row t ht p) k) :=
    funext fun k => hid_step x0 X W1 B1 W2 B2 t ht hx xo ci hxo hci i0 i1 i2 i3 hX hW1 hB hW2 p k
  have ew : (fun (k : Fin 100) (c' : Fin 8) => (View.ld W3 (Rect.unit (s := S32x100x64) ![ci, 0, 0] S1x100x64.size i4)) (ix3 (0 : Fin 1) k (Cert.Row.lo8 c'))) = fun k c' => W3 (ix3 (⟨ci, hci⟩ : Fin 32) k (Cert.Row.lo8 c')) :=
    funext fun k => funext fun c' => ld_3 W3 ci hci i4 k _
  have eb : (fun c' : Fin 8 => (View.ld B3 (Rect.unit (s := S32x64) ![ci, 0] S1x64.size i5)) (ix2 (0 : Fin 1) (Cert.Row.lo8 c'))) = fun c' => B3 (ix2 (⟨ci, hci⟩ : Fin 32) (Cert.Row.lo8 c')) :=
    funext fun c' => ld_2 B3 ci hci i5 _
  rw [eo, eh, ew, eb]

/-- A middle piece: if the running rows agree at the row, so do the next ones. -/
theorem mid_step (xo ci : ℕ) (hxo : xo + 16 ≤ 512) (hci : ci < 32)
    (i0 : ∀ a, (![0, xo] : Fin 2 → ℕ) a + S2048x16.size a ≤ S2048x512.size a)
    (i1 : ∀ a, (![ci, 0, 0] : Fin 3 → ℕ) a + S1x16x100.size a ≤ S32x16x100.size a)
    (i2 : ∀ a, (![ci, 0] : Fin 2 → ℕ) a + S1x100.size a ≤ S32x100.size a)
    (i3 : ∀ a, (![ci, 0, 0] : Fin 3 → ℕ) a + S1x100x100.size a ≤ S32x100x100.size a)
    (hX : Cert.ReferenceIdeal.S65536x512.Slices ![0, xo] Cert.ReferenceIdeal.S65536x16)
    (hW1 : Cert.ReferenceIdeal.S32x16x100.Slices ![ci, 0, 0] Cert.ReferenceIdeal.S1x16x100)
    (hB : Cert.ReferenceIdeal.S32x100.Slices ![ci, 0] Cert.ReferenceIdeal.S1x100)
    (hW2 : Cert.ReferenceIdeal.S32x100x100.Slices ![ci, 0, 0] Cert.ReferenceIdeal.S1x100x100)
    (i4 : ∀ a, (![ci, 0, 0] : Fin 3 → ℕ) a + S1x100x64.size a ≤ S32x100x64.size a)
    (i5 : ∀ a, (![ci, 0] : Fin 2 → ℕ) a + S1x64.size a ≤ S32x64.size a)
    (hW3 : Cert.ReferenceIdeal.S32x100x64.Slices ![ci, 0, 0] Cert.ReferenceIdeal.S1x100x64)
    (hB3 : Cert.ReferenceIdeal.S32x64.Slices ![ci, 0] Cert.ReferenceIdeal.S1x64)
    (p : Fin 2048) (retK : FVec Ideal S2048x8 .f32) (retR : (⟨Cert.ReferenceIdeal.S65536x1x8, .f32⟩ : BufTy).Contents (Elt Ideal))
    (hret : ∀ j : Fin 8, retK (ix2 p j) = retR (ix3 (row t ht p) (0 : Fin 1) j)) (c : Fin 8) :
    mid (F := Ideal) retK (hid (F := Ideal) (View.ld x0 (Rect.unit (s := S2048x512) ![0, xo] S2048x16.size i0)) (View.ld W1 (Rect.unit (s := S32x16x100) ![ci, 0, 0] S1x16x100.size i1)) (View.ld B1 (Rect.unit (s := S32x100) ![ci, 0] S1x100.size i2)) (View.ld W2 (Rect.unit (s := S32x100x100) ![ci, 0, 0] S1x100x100.size i3)) (View.ld B2 (Rect.unit (s := S32x100) ![ci, 0] S1x100.size i2))) (View.ld W3 (Rect.unit (s := S32x100x64) ![ci, 0, 0] S1x100x64.size i4)) (View.ld B3 (Rect.unit (s := S32x64) ![ci, 0] S1x64.size i5)) (ix2 p c)
      = rmid (F := Ideal) retR (rout64 (F := Ideal) ci hW3 hB3 (rhid (F := Ideal) xo ci hX hW1 hB hW2 X W1 B1 W2 B2) W3 B3) (ix3 (row t ht p) (0 : Fin 1) c) := by
  rw [mid_apply, rmid_apply]
  have eo : (fun c' : Fin 64 => rout64 (F := Ideal) ci hW3 hB3 (rhid (F := Ideal) xo ci hX hW1 hB hW2 X W1 B1 W2 B2) W3 B3 (ix2 (row t ht p) c'))
      = Cert.Row.affine (fun k => (rhid (F := Ideal) xo ci hX hW1 hB hW2 X W1 B1 W2 B2) (ix2 (row t ht p) k)) (fun k c' => W3 (ix3 (⟨ci, hci⟩ : Fin 32) k c')) (fun c' => B3 (ix2 (⟨ci, hci⟩ : Fin 32) c')) :=
    funext fun c' => rout64_apply ci hci hW3 hB3 _ W3 B3 (row t ht p) c'
  have er : (fun j : Fin 8 => retK (ix2 p j)) = fun j => retR (ix3 (row t ht p) (0 : Fin 1) j) := funext hret
  have eh : (fun k : Fin 100 => (hid (F := Ideal) (View.ld x0 (Rect.unit (s := S2048x512) ![0, xo] S2048x16.size i0)) (View.ld W1 (Rect.unit (s := S32x16x100) ![ci, 0, 0] S1x16x100.size i1)) (View.ld B1 (Rect.unit (s := S32x100) ![ci, 0] S1x100.size i2)) (View.ld W2 (Rect.unit (s := S32x100x100) ![ci, 0, 0] S1x100x100.size i3)) (View.ld B2 (Rect.unit (s := S32x100) ![ci, 0] S1x100.size i2))) (ix2 p k)) = fun k => (rhid (F := Ideal) xo ci hX hW1 hB hW2 X W1 B1 W2 B2) (ix2 (row t ht p) k) :=
    funext fun k => hid_step x0 X W1 B1 W2 B2 t ht hx xo ci hxo hci i0 i1 i2 i3 hX hW1 hB hW2 p k
  have ew : (fun (k : Fin 100) (c' : Fin 64) => (View.ld W3 (Rect.unit (s := S32x100x64) ![ci, 0, 0] S1x100x64.size i4)) (ix3 (0 : Fin 1) k c')) = fun k c' => W3 (ix3 (⟨ci, hci⟩ : Fin 32) k c') :=
    funext fun k => funext fun c' => ld_3 W3 ci hci i4 k c'
  have eb : (fun c' : Fin 64 => (View.ld B3 (Rect.unit (s := S32x64) ![ci, 0] S1x64.size i5)) (ix2 (0 : Fin 1) c')) = fun c' => B3 (ix2 (⟨ci, hci⟩ : Fin 32) c') :=
    funext fun c' => ld_2 B3 ci hci i5 c'
  rw [eo, er, eh, ew, eb]

/-- The last piece. -/
theorem last_step (xo ci : ℕ) (hxo : xo + 16 ≤ 512) (hci : ci < 32)
    (i0 : ∀ a, (![0, xo] : Fin 2 → ℕ) a + S2048x16.size a ≤ S2048x512.size a)
    (i1 : ∀ a, (![ci, 0, 0] : Fin 3 → ℕ) a + S1x16x100.size a ≤ S32x16x100.size a)
    (i2 : ∀ a, (![ci, 0] : Fin 2 → ℕ) a + S1x100.size a ≤ S32x100.size a)
    (i3 : ∀ a, (![ci, 0, 0] : Fin 3 → ℕ) a + S1x100x100.size a ≤ S32x100x100.size a)
    (hX : Cert.ReferenceIdeal.S65536x512.Slices ![0, xo] Cert.ReferenceIdeal.S65536x16)
    (hW1 : Cert.ReferenceIdeal.S32x16x100.Slices ![ci, 0, 0] Cert.ReferenceIdeal.S1x16x100)
    (hB : Cert.ReferenceIdeal.S32x100.Slices ![ci, 0] Cert.ReferenceIdeal.S1x100)
    (hW2 : Cert.ReferenceIdeal.S32x100x100.Slices ![ci, 0, 0] Cert.ReferenceIdeal.S1x100x100)
    (i4 : ∀ a, (![ci, 0, 0] : Fin 3 → ℕ) a + S1x100x64.size a ≤ S32x100x64.size a)
    (i5 : ∀ a, (![ci, 0] : Fin 2 → ℕ) a + S1x64.size a ≤ S32x64.size a)
    (hW3 : Cert.ReferenceIdeal.S32x100x64.Slices ![ci, 0, 0] Cert.ReferenceIdeal.S1x100x64)
    (hB3 : Cert.ReferenceIdeal.S32x64.Slices ![ci, 0] Cert.ReferenceIdeal.S1x64)
    (p : Fin 2048) (retK : FVec Ideal S2048x8 .f32) (retR : (⟨Cert.ReferenceIdeal.S65536x1x8, .f32⟩ : BufTy).Contents (Elt Ideal))
    (hret : ∀ j : Fin 8, retK (ix2 p j) = retR (ix3 (row t ht p) (0 : Fin 1) j)) :
    last (F := Ideal) retK (hid (F := Ideal) (View.ld x0 (Rect.unit (s := S2048x512) ![0, xo] S2048x16.size i0)) (View.ld W1 (Rect.unit (s := S32x16x100) ![ci, 0, 0] S1x16x100.size i1)) (View.ld B1 (Rect.unit (s := S32x100) ![ci, 0] S1x100.size i2)) (View.ld W2 (Rect.unit (s := S32x100x100) ![ci, 0, 0] S1x100x100.size i3)) (View.ld B2 (Rect.unit (s := S32x100) ![ci, 0] S1x100.size i2))) (View.ld W3 (Rect.unit (s := S32x100x64) ![ci, 0, 0] S1x100x64.size i4)) (View.ld B3 (Rect.unit (s := S32x64) ![ci, 0] S1x64.size i5)) (ix2 p (0 : Fin 1))
      = rlast (F := Ideal) retR (rout8 (F := Ideal) ci hW3 hB3 (rhid (F := Ideal) xo ci hX hW1 hB hW2 X W1 B1 W2 B2) W3 B3) (ix2 (row t ht p) (0 : Fin 1)) := by
  rw [last_apply, rlast_apply]
  have eo : (fun c' : Fin 8 => rout8 (F := Ideal) ci hW3 hB3 (rhid (F := Ideal) xo ci hX hW1 hB hW2 X W1 B1 W2 B2) W3 B3 (ix2 (row t ht p) c'))
      = Cert.Row.affine (fun k => (rhid (F := Ideal) xo ci hX hW1 hB hW2 X W1 B1 W2 B2) (ix2 (row t ht p) k)) (fun k c' => W3 (ix3 (⟨ci, hci⟩ : Fin 32) k (Cert.Row.lo8 c'))) (fun c' => B3 (ix2 (⟨ci, hci⟩ : Fin 32) (Cert.Row.lo8 c'))) :=
    funext fun c' => rout8_apply ci hci hW3 hB3 _ W3 B3 (row t ht p) c'
  have er : (fun j : Fin 8 => retK (ix2 p j)) = fun j => retR (ix3 (row t ht p) (0 : Fin 1) j) := funext hret
  have eh : (fun k : Fin 100 => (hid (F := Ideal) (View.ld x0 (Rect.unit (s := S2048x512) ![0, xo] S2048x16.size i0)) (View.ld W1 (Rect.unit (s := S32x16x100) ![ci, 0, 0] S1x16x100.size i1)) (View.ld B1 (Rect.unit (s := S32x100) ![ci, 0] S1x100.size i2)) (View.ld W2 (Rect.unit (s := S32x100x100) ![ci, 0, 0] S1x100x100.size i3)) (View.ld B2 (Rect.unit (s := S32x100) ![ci, 0] S1x100.size i2))) (ix2 p k)) = fun k => (rhid (F := Ideal) xo ci hX hW1 hB hW2 X W1 B1 W2 B2) (ix2 (row t ht p) k) :=
    funext fun k => hid_step x0 X W1 B1 W2 B2 t ht hx xo ci hxo hci i0 i1 i2 i3 hX hW1 hB hW2 p k
  have ew : (fun (k : Fin 100) (c' : Fin 8) => (View.ld W3 (Rect.unit (s := S32x100x64) ![ci, 0, 0] S1x100x64.size i4)) (ix3 (0 : Fin 1) k (Cert.Row.lo8 c'))) = fun k c' => W3 (ix3 (⟨ci, hci⟩ : Fin 32) k (Cert.Row.lo8 c')) :=
    funext fun k => funext fun c' => ld_3 W3 ci hci i4 k _
  have eb : (fun c' : Fin 8 => (View.ld B3 (Rect.unit (s := S32x64) ![ci, 0] S1x64.size i5)) (ix2 (0 : Fin 1) (Cert.Row.lo8 c'))) = fun c' => B3 (ix2 (⟨ci, hci⟩ : Fin 32) (Cert.Row.lo8 c')) :=
    funext fun c' => ld_2 B3 ci hci i5 _
  rw [eo, er, eh, ew, eb]

/-! ## The 32 steps -/

theorem ret_eq0 (p : Fin 2048) (j : Fin 8) : ret0 (F := Ideal) x0 W1 B1 W2 B2 W3 B3 (ix2 p j) = rret0 (F := Ideal) X W1 B1 W2 B2 W3 B3 (ix3 (row t ht p) (0 : Fin 1) j) :=
  first_step x0 X W1 B1 W2 B2 W3 B3 t ht hx 0 0 (by omega) (by omega) _ _ _ _ _ _ _ _ _ _ _ _ p j

theorem ret_eq1 (p : Fin 2048) (j : Fin 8) : ret1 (F := Ideal) x0 W1 B1 W2 B2 W3 B3 (ix2 p j) = rret1 (F := Ideal) X W1 B1 W2 B2 W3 B3 (ix3 (row t ht p) (0 : Fin 1) j) :=
  mid_step x0 X W1 B1 W2 B2 W3 B3 t ht hx 16 1 (by omega) (by omega) _ _ _ _ _ _ _ _ _ _ _ _ p _ _ (fun j' => ret_eq0 x0 X W1 B1 W2 B2 W3 B3 t ht hx p j') j

theorem ret_eq2 (p : Fin 2048) (j : Fin 8) : ret2 (F := Ideal) x0 W1 B1 W2 B2 W3 B3 (ix2 p j) = rret2 (F := Ideal) X W1 B1 W2 B2 W3 B3 (ix3 (row t ht p) (0 : Fin 1) j) :=
  mid_step x0 X W1 B1 W2 B2 W3 B3 t ht hx 32 2 (by omega) (by omega) _ _ _ _ _ _ _ _ _ _ _ _ p _ _ (fun j' => ret_eq1 x0 X W1 B1 W2 B2 W3 B3 t ht hx p j') j

theorem ret_eq3 (p : Fin 2048) (j : Fin 8) : ret3 (F := Ideal) x0 W1 B1 W2 B2 W3 B3 (ix2 p j) = rret3 (F := Ideal) X W1 B1 W2 B2 W3 B3 (ix3 (row t ht p) (0 : Fin 1) j) :=
  mid_step x0 X W1 B1 W2 B2 W3 B3 t ht hx 48 3 (by omega) (by omega) _ _ _ _ _ _ _ _ _ _ _ _ p _ _ (fun j' => ret_eq2 x0 X W1 B1 W2 B2 W3 B3 t ht hx p j') j

theorem ret_eq4 (p : Fin 2048) (j : Fin 8) : ret4 (F := Ideal) x0 W1 B1 W2 B2 W3 B3 (ix2 p j) = rret4 (F := Ideal) X W1 B1 W2 B2 W3 B3 (ix3 (row t ht p) (0 : Fin 1) j) :=
  mid_step x0 X W1 B1 W2 B2 W3 B3 t ht hx 64 4 (by omega) (by omega) _ _ _ _ _ _ _ _ _ _ _ _ p _ _ (fun j' => ret_eq3 x0 X W1 B1 W2 B2 W3 B3 t ht hx p j') j

theorem ret_eq5 (p : Fin 2048) (j : Fin 8) : ret5 (F := Ideal) x0 W1 B1 W2 B2 W3 B3 (ix2 p j) = rret5 (F := Ideal) X W1 B1 W2 B2 W3 B3 (ix3 (row t ht p) (0 : Fin 1) j) :=
  mid_step x0 X W1 B1 W2 B2 W3 B3 t ht hx 80 5 (by omega) (by omega) _ _ _ _ _ _ _ _ _ _ _ _ p _ _ (fun j' => ret_eq4 x0 X W1 B1 W2 B2 W3 B3 t ht hx p j') j

theorem ret_eq6 (p : Fin 2048) (j : Fin 8) : ret6 (F := Ideal) x0 W1 B1 W2 B2 W3 B3 (ix2 p j) = rret6 (F := Ideal) X W1 B1 W2 B2 W3 B3 (ix3 (row t ht p) (0 : Fin 1) j) :=
  mid_step x0 X W1 B1 W2 B2 W3 B3 t ht hx 96 6 (by omega) (by omega) _ _ _ _ _ _ _ _ _ _ _ _ p _ _ (fun j' => ret_eq5 x0 X W1 B1 W2 B2 W3 B3 t ht hx p j') j

theorem ret_eq7 (p : Fin 2048) (j : Fin 8) : ret7 (F := Ideal) x0 W1 B1 W2 B2 W3 B3 (ix2 p j) = rret7 (F := Ideal) X W1 B1 W2 B2 W3 B3 (ix3 (row t ht p) (0 : Fin 1) j) :=
  mid_step x0 X W1 B1 W2 B2 W3 B3 t ht hx 112 7 (by omega) (by omega) _ _ _ _ _ _ _ _ _ _ _ _ p _ _ (fun j' => ret_eq6 x0 X W1 B1 W2 B2 W3 B3 t ht hx p j') j

theorem ret_eq8 (p : Fin 2048) (j : Fin 8) : ret8 (F := Ideal) x0 W1 B1 W2 B2 W3 B3 (ix2 p j) = rret8 (F := Ideal) X W1 B1 W2 B2 W3 B3 (ix3 (row t ht p) (0 : Fin 1) j) :=
  mid_step x0 X W1 B1 W2 B2 W3 B3 t ht hx 128 8 (by omega) (by omega) _ _ _ _ _ _ _ _ _ _ _ _ p _ _ (fun j' => ret_eq7 x0 X W1 B1 W2 B2 W3 B3 t ht hx p j') j

theorem ret_eq9 (p : Fin 2048) (j : Fin 8) : ret9 (F := Ideal) x0 W1 B1 W2 B2 W3 B3 (ix2 p j) = rret9 (F := Ideal) X W1 B1 W2 B2 W3 B3 (ix3 (row t ht p) (0 : Fin 1) j) :=
  mid_step x0 X W1 B1 W2 B2 W3 B3 t ht hx 144 9 (by omega) (by omega) _ _ _ _ _ _ _ _ _ _ _ _ p _ _ (fun j' => ret_eq8 x0 X W1 B1 W2 B2 W3 B3 t ht hx p j') j

theorem ret_eq10 (p : Fin 2048) (j : Fin 8) : ret10 (F := Ideal) x0 W1 B1 W2 B2 W3 B3 (ix2 p j) = rret10 (F := Ideal) X W1 B1 W2 B2 W3 B3 (ix3 (row t ht p) (0 : Fin 1) j) :=
  mid_step x0 X W1 B1 W2 B2 W3 B3 t ht hx 160 10 (by omega) (by omega) _ _ _ _ _ _ _ _ _ _ _ _ p _ _ (fun j' => ret_eq9 x0 X W1 B1 W2 B2 W3 B3 t ht hx p j') j

theorem ret_eq11 (p : Fin 2048) (j : Fin 8) : ret11 (F := Ideal) x0 W1 B1 W2 B2 W3 B3 (ix2 p j) = rret11 (F := Ideal) X W1 B1 W2 B2 W3 B3 (ix3 (row t ht p) (0 : Fin 1) j) :=
  mid_step x0 X W1 B1 W2 B2 W3 B3 t ht hx 176 11 (by omega) (by omega) _ _ _ _ _ _ _ _ _ _ _ _ p _ _ (fun j' => ret_eq10 x0 X W1 B1 W2 B2 W3 B3 t ht hx p j') j

theorem ret_eq12 (p : Fin 2048) (j : Fin 8) : ret12 (F := Ideal) x0 W1 B1 W2 B2 W3 B3 (ix2 p j) = rret12 (F := Ideal) X W1 B1 W2 B2 W3 B3 (ix3 (row t ht p) (0 : Fin 1) j) :=
  mid_step x0 X W1 B1 W2 B2 W3 B3 t ht hx 192 12 (by omega) (by omega) _ _ _ _ _ _ _ _ _ _ _ _ p _ _ (fun j' => ret_eq11 x0 X W1 B1 W2 B2 W3 B3 t ht hx p j') j

theorem ret_eq13 (p : Fin 2048) (j : Fin 8) : ret13 (F := Ideal) x0 W1 B1 W2 B2 W3 B3 (ix2 p j) = rret13 (F := Ideal) X W1 B1 W2 B2 W3 B3 (ix3 (row t ht p) (0 : Fin 1) j) :=
  mid_step x0 X W1 B1 W2 B2 W3 B3 t ht hx 208 13 (by omega) (by omega) _ _ _ _ _ _ _ _ _ _ _ _ p _ _ (fun j' => ret_eq12 x0 X W1 B1 W2 B2 W3 B3 t ht hx p j') j

theorem ret_eq14 (p : Fin 2048) (j : Fin 8) : ret14 (F := Ideal) x0 W1 B1 W2 B2 W3 B3 (ix2 p j) = rret14 (F := Ideal) X W1 B1 W2 B2 W3 B3 (ix3 (row t ht p) (0 : Fin 1) j) :=
  mid_step x0 X W1 B1 W2 B2 W3 B3 t ht hx 224 14 (by omega) (by omega) _ _ _ _ _ _ _ _ _ _ _ _ p _ _ (fun j' => ret_eq13 x0 X W1 B1 W2 B2 W3 B3 t ht hx p j') j

theorem ret_eq15 (p : Fin 2048) (j : Fin 8) : ret15 (F := Ideal) x0 W1 B1 W2 B2 W3 B3 (ix2 p j) = rret15 (F := Ideal) X W1 B1 W2 B2 W3 B3 (ix3 (row t ht p) (0 : Fin 1) j) :=
  mid_step x0 X W1 B1 W2 B2 W3 B3 t ht hx 240 15 (by omega) (by omega) _ _ _ _ _ _ _ _ _ _ _ _ p _ _ (fun j' => ret_eq14 x0 X W1 B1 W2 B2 W3 B3 t ht hx p j') j

theorem ret_eq16 (p : Fin 2048) (j : Fin 8) : ret16 (F := Ideal) x0 W1 B1 W2 B2 W3 B3 (ix2 p j) = rret16 (F := Ideal) X W1 B1 W2 B2 W3 B3 (ix3 (row t ht p) (0 : Fin 1) j) :=
  mid_step x0 X W1 B1 W2 B2 W3 B3 t ht hx 256 16 (by omega) (by omega) _ _ _ _ _ _ _ _ _ _ _ _ p _ _ (fun j' => ret_eq15 x0 X W1 B1 W2 B2 W3 B3 t ht hx p j') j

theorem ret_eq17 (p : Fin 2048) (j : Fin 8) : ret17 (F := Ideal) x0 W1 B1 W2 B2 W3 B3 (ix2 p j) = rret17 (F := Ideal) X W1 B1 W2 B2 W3 B3 (ix3 (row t ht p) (0 : Fin 1) j) :=
  mid_step x0 X W1 B1 W2 B2 W3 B3 t ht hx 272 17 (by omega) (by omega) _ _ _ _ _ _ _ _ _ _ _ _ p _ _ (fun j' => ret_eq16 x0 X W1 B1 W2 B2 W3 B3 t ht hx p j') j

theorem ret_eq18 (p : Fin 2048) (j : Fin 8) : ret18 (F := Ideal) x0 W1 B1 W2 B2 W3 B3 (ix2 p j) = rret18 (F := Ideal) X W1 B1 W2 B2 W3 B3 (ix3 (row t ht p) (0 : Fin 1) j) :=
  mid_step x0 X W1 B1 W2 B2 W3 B3 t ht hx 288 18 (by omega) (by omega) _ _ _ _ _ _ _ _ _ _ _ _ p _ _ (fun j' => ret_eq17 x0 X W1 B1 W2 B2 W3 B3 t ht hx p j') j

theorem ret_eq19 (p : Fin 2048) (j : Fin 8) : ret19 (F := Ideal) x0 W1 B1 W2 B2 W3 B3 (ix2 p j) = rret19 (F := Ideal) X W1 B1 W2 B2 W3 B3 (ix3 (row t ht p) (0 : Fin 1) j) :=
  mid_step x0 X W1 B1 W2 B2 W3 B3 t ht hx 304 19 (by omega) (by omega) _ _ _ _ _ _ _ _ _ _ _ _ p _ _ (fun j' => ret_eq18 x0 X W1 B1 W2 B2 W3 B3 t ht hx p j') j

theorem ret_eq20 (p : Fin 2048) (j : Fin 8) : ret20 (F := Ideal) x0 W1 B1 W2 B2 W3 B3 (ix2 p j) = rret20 (F := Ideal) X W1 B1 W2 B2 W3 B3 (ix3 (row t ht p) (0 : Fin 1) j) :=
  mid_step x0 X W1 B1 W2 B2 W3 B3 t ht hx 320 20 (by omega) (by omega) _ _ _ _ _ _ _ _ _ _ _ _ p _ _ (fun j' => ret_eq19 x0 X W1 B1 W2 B2 W3 B3 t ht hx p j') j

theorem ret_eq21 (p : Fin 2048) (j : Fin 8) : ret21 (F := Ideal) x0 W1 B1 W2 B2 W3 B3 (ix2 p j) = rret21 (F := Ideal) X W1 B1 W2 B2 W3 B3 (ix3 (row t ht p) (0 : Fin 1) j) :=
  mid_step x0 X W1 B1 W2 B2 W3 B3 t ht hx 336 21 (by omega) (by omega) _ _ _ _ _ _ _ _ _ _ _ _ p _ _ (fun j' => ret_eq20 x0 X W1 B1 W2 B2 W3 B3 t ht hx p j') j

theorem ret_eq22 (p : Fin 2048) (j : Fin 8) : ret22 (F := Ideal) x0 W1 B1 W2 B2 W3 B3 (ix2 p j) = rret22 (F := Ideal) X W1 B1 W2 B2 W3 B3 (ix3 (row t ht p) (0 : Fin 1) j) :=
  mid_step x0 X W1 B1 W2 B2 W3 B3 t ht hx 352 22 (by omega) (by omega) _ _ _ _ _ _ _ _ _ _ _ _ p _ _ (fun j' => ret_eq21 x0 X W1 B1 W2 B2 W3 B3 t ht hx p j') j

theorem ret_eq23 (p : Fin 2048) (j : Fin 8) : ret23 (F := Ideal) x0 W1 B1 W2 B2 W3 B3 (ix2 p j) = rret23 (F := Ideal) X W1 B1 W2 B2 W3 B3 (ix3 (row t ht p) (0 : Fin 1) j) :=
  mid_step x0 X W1 B1 W2 B2 W3 B3 t ht hx 368 23 (by omega) (by omega) _ _ _ _ _ _ _ _ _ _ _ _ p _ _ (fun j' => ret_eq22 x0 X W1 B1 W2 B2 W3 B3 t ht hx p j') j

theorem ret_eq24 (p : Fin 2048) (j : Fin 8) : ret24 (F := Ideal) x0 W1 B1 W2 B2 W3 B3 (ix2 p j) = rret24 (F := Ideal) X W1 B1 W2 B2 W3 B3 (ix3 (row t ht p) (0 : Fin 1) j) :=
  mid_step x0 X W1 B1 W2 B2 W3 B3 t ht hx 384 24 (by omega) (by omega) _ _ _ _ _ _ _ _ _ _ _ _ p _ _ (fun j' => ret_eq23 x0 X W1 B1 W2 B2 W3 B3 t ht hx p j') j

theorem ret_eq25 (p : Fin 2048) (j : Fin 8) : ret25 (F := Ideal) x0 W1 B1 W2 B2 W3 B3 (ix2 p j) = rret25 (F := Ideal) X W1 B1 W2 B2 W3 B3 (ix3 (row t ht p) (0 : Fin 1) j) :=
  mid_step x0 X W1 B1 W2 B2 W3 B3 t ht hx 400 25 (by omega) (by omega) _ _ _ _ _ _ _ _ _ _ _ _ p _ _ (fun j' => ret_eq24 x0 X W1 B1 W2 B2 W3 B3 t ht hx p j') j

theorem ret_eq26 (p : Fin 2048) (j : Fin 8) : ret26 (F := Ideal) x0 W1 B1 W2 B2 W3 B3 (ix2 p j) = rret26 (F := Ideal) X W1 B1 W2 B2 W3 B3 (ix3 (row t ht p) (0 : Fin 1) j) :=
  mid_step x0 X W1 B1 W2 B2 W3 B3 t ht hx 416 26 (by omega) (by omega) _ _ _ _ _ _ _ _ _ _ _ _ p _ _ (fun j' => ret_eq25 x0 X W1 B1 W2 B2 W3 B3 t ht hx p j') j

theorem ret_eq27 (p : Fin 2048) (j : Fin 8) : ret27 (F := Ideal) x0 W1 B1 W2 B2 W3 B3 (ix2 p j) = rret27 (F := Ideal) X W1 B1 W2 B2 W3 B3 (ix3 (row t ht p) (0 : Fin 1) j) :=
  mid_step x0 X W1 B1 W2 B2 W3 B3 t ht hx 432 27 (by omega) (by omega) _ _ _ _ _ _ _ _ _ _ _ _ p _ _ (fun j' => ret_eq26 x0 X W1 B1 W2 B2 W3 B3 t ht hx p j') j

theorem ret_eq28 (p : Fin 2048) (j : Fin 8) : ret28 (F := Ideal) x0 W1 B1 W2 B2 W3 B3 (ix2 p j) = rret28 (F := Ideal) X W1 B1 W2 B2 W3 B3 (ix3 (row t ht p) (0 : Fin 1) j) :=
  mid_step x0 X W1 B1 W2 B2 W3 B3 t ht hx 448 28 (by omega) (by omega) _ _ _ _ _ _ _ _ _ _ _ _ p _ _ (fun j' => ret_eq27 x0 X W1 B1 W2 B2 W3 B3 t ht hx p j') j

theorem ret_eq29 (p : Fin 2048) (j : Fin 8) : ret29 (F := Ideal) x0 W1 B1 W2 B2 W3 B3 (ix2 p j) = rret29 (F := Ideal) X W1 B1 W2 B2 W3 B3 (ix3 (row t ht p) (0 : Fin 1) j) :=
  mid_step x0 X W1 B1 W2 B2 W3 B3 t ht hx 464 29 (by omega) (by omega) _ _ _ _ _ _ _ _ _ _ _ _ p _ _ (fun j' => ret_eq28 x0 X W1 B1 W2 B2 W3 B3 t ht hx p j') j

theorem ret_eq30 (p : Fin 2048) (j : Fin 8) : ret30 (F := Ideal) x0 W1 B1 W2 B2 W3 B3 (ix2 p j) = rret30 (F := Ideal) X W1 B1 W2 B2 W3 B3 (ix3 (row t ht p) (0 : Fin 1) j) :=
  mid_step x0 X W1 B1 W2 B2 W3 B3 t ht hx 480 30 (by omega) (by omega) _ _ _ _ _ _ _ _ _ _ _ _ p _ _ (fun j' => ret_eq29 x0 X W1 B1 W2 B2 W3 B3 t ht hx p j') j

/-- The kernel's column over the block at row `p` is the reference's result at row `2048 t + p`. -/
theorem body_eq (p : Fin 2048) : body (F := Ideal) x0 W1 B1 W2 B2 W3 B3 (ix2 p (0 : Fin 1)) = rbody (F := Ideal) X W1 B1 W2 B2 W3 B3 (ix2 (row t ht p) (0 : Fin 1)) :=
  last_step x0 X W1 B1 W2 B2 W3 B3 t ht hx 496 31 (by omega) (by omega) _ _ _ _ _ _ _ _ _ _ _ _ p _ _ (fun j' => ret_eq30 x0 X W1 B1 W2 B2 W3 B3 t ht hx p j')

end Steps

end Cert.Bridge

end
-- ==== Proof.RLineOps.lean ====
/-
  The reference program as a straight line of host operations, cut two ways.

  The reference is a single-assignment program of 1077 array operations with no kernel launch.  Its operations are
  listed twice, in program order: piece by piece of the sample (`ops n`, n = 0 … 31: the operations that treat columns
  16 n … 16 n + 15 — the first list also holds the constant 1 the product starts from, the last one the final
  reshape), and window by window of the printed text (`part k`, k = 0 … 15).  Both cuts concatenate to the same list
  (`parts_eq`); each printed window is the sequence of its list (`part_eq`), so the whole program is the sequence of
  the concatenation (`main_eq`).  An outlined positive part stands, operation by operation, where it is called.
-/
import proofs.«110954_j11751030522504_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The operations that treat piece 0 of the sample. -/
abbrev ops0 : List (HloOp τ sig (Elt F)) :=
  [ nullary main_cst (constant S_ .f32 0x3F800000#32),
    unary main_cst main_v0 (broadcastInDim S65536x1x1 ![] bcast_S_S65536x1x1 : (⟨S_, .f32⟩ : BufTy).Contents (Elt F) → (⟨S65536x1x1, .f32⟩ : BufTy).Contents (Elt F)),
    unary main_arg0 main_v1 ((extractStridedSlice S65536x16 ![0, 0] · slices_S65536x512_S65536x16_0_0) : (⟨S65536x512, .f32⟩ : BufTy).Contents (Elt F) → (⟨S65536x16, .f32⟩ : BufTy).Contents (Elt F)),
    unary main_arg1 main_v2 ((extractStridedSlice S1x16x100 ![0, 0, 0] · slices_S32x16x100_S1x16x100_0_0_0) : (⟨S32x16x100, .f32⟩ : BufTy).Contents (Elt F) → (⟨S1x16x100, .f32⟩ : BufTy).Contents (Elt F)),
    reshape main_v2 main_v3 rfl shapeCasts_S1x16x100_S16x100,
    binary main_v1 main_v3 main_v4 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v5 ((extractStridedSlice S1x100 ![0, 0] · slices_S32x100_S1x100_0_0) : (⟨S32x100, .f32⟩ : BufTy).Contents (Elt F) → (⟨S1x100, .f32⟩ : BufTy).Contents (Elt F)),
    reshape main_v5 main_v6 rfl shapeCasts_S1x100_S100,
    unary main_v6 main_v7 (broadcastInDim S1x100 ![1] bcast_S100_S1x100_1 : (⟨S100, .f32⟩ : BufTy).Contents (Elt F) → (⟨S1x100, .f32⟩ : BufTy).Contents (Elt F)),
    unary main_v7 main_v8 (broadcastInDim S65536x100 ![0, 1] bcast_S1x100_S65536x100_0_1 : (⟨S1x100, .f32⟩ : BufTy).Contents (Elt F) → (⟨S65536x100, .f32⟩ : BufTy).Contents (Elt F)),
    binary main_v4 main_v8 main_v9 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x100, .f32⟩) main_call0_v0) (broadcastInDim S65536x100 ![] bcast_S_S65536x100),
    TRef.binary (TRef.of (T := ⟨S65536x100, .f32⟩) main_v9) (TRef.of (T := ⟨S65536x100, .f32⟩) main_call0_v0) (TRef.of (T := ⟨S65536x100, .f32⟩) main_v10) maximumf,
    unary main_arg3 main_v11 ((extractStridedSlice S1x100x100 ![0, 0, 0] · slices_S32x100x100_S1x100x100_0_0_0) : (⟨S32x100x100, .f32⟩ : BufTy).Contents (Elt F) → (⟨S1x100x100, .f32⟩ : BufTy).Contents (Elt F)),
    reshape main_v11 main_v12 rfl shapeCasts_S1x100x100_S100x100,
    binary main_v10 main_v12 main_v13 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v14 ((extractStridedSlice S1x100 ![0, 0] · slices_S32x100_S1x100_0_0) : (⟨S32x100, .f32⟩ : BufTy).Contents (Elt F) → (⟨S1x100, .f32⟩ : BufTy).Contents (Elt F)),
    reshape main_v14 main_v15 rfl shapeCasts_S1x100_S100,
    unary main_v15 main_v16 (broadcastInDim S1x100 ![1] bcast_S100_S1x100_1 : (⟨S100, .f32⟩ : BufTy).Contents (Elt F) → (⟨S1x100, .f32⟩ : BufTy).Contents (Elt F)),
    unary main_v16 main_v17 (broadcastInDim S65536x100 ![0, 1] bcast_S1x100_S65536x100_0_1 : (⟨S1x100, .f32⟩ : BufTy).Contents (Elt F) → (⟨S65536x100, .f32⟩ : BufTy).Contents (Elt F)),
    binary main_v13 main_v17 main_v18 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x100, .f32⟩) main_call1_v0) (broadcastInDim S65536x100 ![] bcast_S_S65536x100),
    TRef.binary (TRef.of (T := ⟨S65536x100, .f32⟩) main_v18) (TRef.of (T := ⟨S65536x100, .f32⟩) main_call1_v0) (TRef.of (T := ⟨S65536x100, .f32⟩) main_v19) maximumf,
    unary main_arg5 main_v20 ((extractStridedSlice S1x100x64 ![0, 0, 0] · slices_S32x100x64_S1x100x64_0_0_0) : (⟨S32x100x64, .f32⟩ : BufTy).Contents (Elt F) → (⟨S1x100x64, .f32⟩ : BufTy).Contents (Elt F)),
    reshape main_v20 main_v21 rfl shapeCasts_S1x100x64_S100x64,
    unary main_v21 main_v22 ((extractStridedSlice S100x8 ![0, 0] · slices_S100x64_S100x8_0_0) : (⟨S100x64, .f32⟩ : BufTy).Contents (Elt F) → (⟨S100x8, .f32⟩ : BufTy).Contents (Elt F)),
    binary main_v19 main_v22 main_v23 ((fun l r => Host.dotGeneral dot_S65536x100_S100x8_S65536x8_1_0_0_1_n_n none l r) : (⟨S65536x100, .f32⟩ : BufTy).Contents (Elt F) → (⟨S100x8, .f32⟩ : BufTy).Contents (Elt F) → (⟨S65536x8, .f32⟩ : BufTy).Contents (Elt F)),
    unary main_arg6 main_v24 ((extractStridedSlice S1x64 ![0, 0] · slices_S32x64_S1x64_0_0) : (⟨S32x64, .f32⟩ : BufTy).Contents (Elt F) → (⟨S1x64, .f32⟩ : BufTy).Contents (Elt F)),
    reshape main_v24 main_v25 rfl shapeCasts_S1x64_S64,
    unary main_v25 main_v26 ((extractStridedSlice S8 ![0] · slices_S64_S8_0) : (⟨S64, .f32⟩ : BufTy).Contents (Elt F) → (⟨S8, .f32⟩ : BufTy).Contents (Elt F)),
    unary main_v26 main_v27 (broadcastInDim S1x8 ![1] bcast_S8_S1x8_1 : (⟨S8, .f32⟩ : BufTy).Contents (Elt F) → (⟨S1x8, .f32⟩ : BufTy).Contents (Elt F)),
    unary main_v27 main_v28 (broadcastInDim S65536x8 ![0, 1] bcast_S1x8_S65536x8_0_1 : (⟨S1x8, .f32⟩ : BufTy).Contents (Elt F) → (⟨S65536x8, .f32⟩ : BufTy).Contents (Elt F)),
    binary main_v23 main_v28 main_v29 (addf : (⟨S65536x8, .f32⟩ : BufTy).Contents (Elt F) → (⟨S65536x8, .f32⟩ : BufTy).Contents (Elt F) → (⟨S65536x8, .f32⟩ : BufTy).Contents (Elt F)),
    nullary main_cst_0 (constant S_ .f32 0xFF800000#32),
    binary main_v29 main_cst_0 main_v30 ((fun x v => Host.reduce FloatOps.maximumf x v reducesTo_S65536x8_S65536_d1 h_S_) : (⟨S65536x8, .f32⟩ : BufTy).Contents (Elt F) → (⟨S_, .f32⟩ : BufTy).Contents (Elt F) → (⟨S65536, .f32⟩ : BufTy).Contents (Elt F)),
    nullary main_cst_1 (constant S_ .f32 0xFF800000#32),
    unary main_cst_1 main_v31 (broadcastInDim S65536 ![] bcast_S_S65536 : (⟨S_, .f32⟩ : BufTy).Contents (Elt F) → (⟨S65536, .f32⟩ : BufTy).Contents (Elt F)),
    binary main_v31 main_v30 main_v32 (maximumf : (⟨S65536, .f32⟩ : BufTy).Contents (Elt F) → (⟨S65536, .f32⟩ : BufTy).Contents (Elt F) → (⟨S65536, .f32⟩ : BufTy).Contents (Elt F)),
    unary main_v32 main_v33 (broadcastInDim S65536x1 ![0] bcast_S65536_S65536x1_0 : (⟨S65536, .f32⟩ : BufTy).Contents (Elt F) → (⟨S65536x1, .f32⟩ : BufTy).Contents (Elt F)),
    unary main_v33 main_v34 (broadcastInDim S65536x8 ![0, 1] bcast_S65536x1_S65536x8_0_1 : (⟨S65536x1, .f32⟩ : BufTy).Contents (Elt F) → (⟨S65536x8, .f32⟩ : BufTy).Contents (Elt F)),
    binary main_v29 main_v34 main_v35 (subf : (⟨S65536x8, .f32⟩ : BufTy).Contents (Elt F) → (⟨S65536x8, .f32⟩ : BufTy).Contents (Elt F) → (⟨S65536x8, .f32⟩ : BufTy).Contents (Elt F)),
    unary main_v35 main_v36 (Host.exp : (⟨S65536x8, .f32⟩ : BufTy).Contents (Elt F) → (⟨S65536x8, .f32⟩ : BufTy).Contents (Elt F)),
    nullary main_cst_2 (constant S_ .f32 0x00000000#32),
    binary main_v36 main_cst_2 main_v37 ((fun x v => Host.reduceAdd x v reducesTo_S65536x8_S65536_d1 h_S_) : (⟨S65536x8, .f32⟩ : BufTy).Contents (Elt F) → (⟨S_, .f32⟩ : BufTy).Contents (Elt F) → (⟨S65536, .f32⟩ : BufTy).Contents (Elt F)),
    unary main_v37 main_v38 (broadcastInDim S65536x1 ![0] bcast_S65536_S65536x1_0 : (⟨S65536, .f32⟩ : BufTy).Contents (Elt F) → (⟨S65536x1, .f32⟩ : BufTy).Contents (Elt F)),
    unary main_v38 main_v39 (broadcastInDim S65536x8 ![0, 1] bcast_S65536x1_S65536x8_0_1 : (⟨S65536x1, .f32⟩ : BufTy).Contents (Elt F) → (⟨S65536x8, .f32⟩ : BufTy).Contents (Elt F)),
    binary main_v36 main_v39 main_v40 (Host.divf : (⟨S65536x8, .f32⟩ : BufTy).Contents (Elt F) → (⟨S65536x8, .f32⟩ : BufTy).Contents (Elt F) → (⟨S65536x8, .f32⟩ : BufTy).Contents (Elt F)),
    reshape main_v40 main_v41 rfl shapeCasts_S65536x8_S65536x1x8,
    binary main_v0 main_v41 main_v42 ((fun l r => Host.dotGeneral dot_S65536x1x1_S65536x1x8_S65536x1x8_2_1_1_2_0_0 none l r) : (⟨S65536x1x1, .f32⟩ : BufTy).Contents (Elt F) → (⟨S65536x1x8, .f32⟩ : BufTy).Contents (Elt F) → (⟨S65536x1x8, .f32⟩ : BufTy).Contents (Elt F)) ]

/-- The operations that treat piece 1 of the sample. -/
abbrev ops1 : List (HloOp τ sig (Elt F)) :=
  [ unary main_arg0 main_v43 ((extractStridedSlice S65536x16 ![0, 16] · slices_S65536x512_S65536x16_0_16) : (⟨S65536x512, .f32⟩ : BufTy).Contents (Elt F) → (⟨S65536x16, .f32⟩ : BufTy).Contents (Elt F)),
    unary main_arg1 main_v44 ((extractStridedSlice S1x16x100 ![1, 0, 0] · slices_S32x16x100_S1x16x100_1_0_0) : (⟨S32x16x100, .f32⟩ : BufTy).Contents (Elt F) → (⟨S1x16x100, .f32⟩ : BufTy).Contents (Elt F)),
    reshape main_v44 main_v45 rfl shapeCasts_S1x16x100_S16x100,
    binary main_v43 main_v45 main_v46 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v47 ((extractStridedSlice S1x100 ![1, 0] · slices_S32x100_S1x100_1_0) : (⟨S32x100, .f32⟩ : BufTy).Contents (Elt F) → (⟨S1x100, .f32⟩ : BufTy).Contents (Elt F)),
    reshape main_v47 main_v48 rfl shapeCasts_S1x100_S100,
    unary main_v48 main_v49 (broadcastInDim S1x100 ![1] bcast_S100_S1x100_1 : (⟨S100, .f32⟩ : BufTy).Contents (Elt F) → (⟨S1x100, .f32⟩ : BufTy).Contents (Elt F)),
    unary main_v49 main_v50 (broadcastInDim S65536x100 ![0, 1] bcast_S1x100_S65536x100_0_1 : (⟨S1x100, .f32⟩ : BufTy).Contents (Elt F) → (⟨S65536x100, .f32⟩ : BufTy).Contents (Elt F)),
    binary main_v46 main_v50 main_v51 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x100, .f32⟩) main_call2_v0) (broadcastInDim S65536x100 ![] bcast_S_S65536x100),
    TRef.binary (TRef.of (T := ⟨S65536x100, .f32⟩) main_v51) (TRef.of (T := ⟨S65536x100, .f32⟩) main_call2_v0) (TRef.of (T := ⟨S65536x100, .f32⟩) main_v52) maximumf,
    unary main_arg3 main_v53 ((extractStridedSlice S1x100x100 ![1, 0, 0] · slices_S32x100x100_S1x100x100_1_0_0) : (⟨S32x100x100, .f32⟩ : BufTy).Contents (Elt F) → (⟨S1x100x100, .f32⟩ : BufTy).Contents (Elt F)),
    reshape main_v53 main_v54 rfl shapeCasts_S1x100x100_S100x100,
    binary main_v52 main_v54 main_v55 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v56 ((extractStridedSlice S1x100 ![1, 0] · slices_S32x100_S1x100_1_0) : (⟨S32x100, .f32⟩ : BufTy).Contents (Elt F) → (⟨S1x100, .f32⟩ : BufTy).Contents (Elt F)),
    reshape main_v56 main_v57 rfl shapeCasts_S1x100_S100,
    unary main_v57 main_v58 (broadcastInDim S1x100 ![1] bcast_S100_S1x100_1 : (⟨S100, .f32⟩ : BufTy).Contents (Elt F) → (⟨S1x100, .f32⟩ : BufTy).Contents (Elt F)),
    unary main_v58 main_v59 (broadcastInDim S65536x100 ![0, 1] bcast_S1x100_S65536x100_0_1 : (⟨S1x100, .f32⟩ : BufTy).Contents (Elt F) → (⟨S65536x100, .f32⟩ : BufTy).Contents (Elt F)),
    binary main_v55 main_v59 main_v60 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x100, .f32⟩) main_call3_v0) (broadcastInDim S65536x100 ![] bcast_S_S65536x100),
    TRef.binary (TRef.of (T := ⟨S65536x100, .f32⟩) main_v60) (TRef.of (T := ⟨S65536x100, .f32⟩) main_call3_v0) (TRef.of (T := ⟨S65536x100, .f32⟩) main_v61) maximumf,
    unary main_arg5 main_v62 ((extractStridedSlice S1x100x64 ![1, 0, 0] · slices_S32x100x64_S1x100x64_1_0_0) : (⟨S32x100x64, .f32⟩ : BufTy).Contents (Elt F) → (⟨S1x100x64, .f32⟩ : BufTy).Contents (Elt F)),
    reshape main_v62 main_v63 rfl shapeCasts_S1x100x64_S100x64,
    binary main_v61 main_v63 main_v64 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v65 ((extractStridedSlice S1x64 ![1, 0] · slices_S32x64_S1x64_1_0) : (⟨S32x64, .f32⟩ : BufTy).Contents (Elt F) → (⟨S1x64, .f32⟩ : BufTy).Contents (Elt F)),
    reshape main_v65 main_v66 rfl shapeCasts_S1x64_S64,
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S65536x64 ![0, 1] bcast_S1x64_S65536x64_0_1 : (⟨S1x64, .f32⟩ : BufTy).Contents (Elt F) → (⟨S65536x64, .f32⟩ : BufTy).Contents (Elt F)),
    binary main_v64 main_v68 main_v69 (addf : (⟨S65536x64, .f32⟩ : BufTy).Contents (Elt F) → (⟨S65536x64, .f32⟩ : BufTy).Contents (Elt F) → (⟨S65536x64, .f32⟩ : BufTy).Contents (Elt F)),
    reshape main_v69 main_v70 rfl shapeCasts_S65536x64_S65536x8x8,
    binary main_v42 main_v70 main_v71 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 2 of the sample. -/
abbrev ops2 : List (HloOp τ sig (Elt F)) :=
  [ unary main_arg0 main_v72 ((extractStridedSlice S65536x16 ![0, 32] · slices_S65536x512_S65536x16_0_32) : (⟨S65536x512, .f32⟩ : BufTy).Contents (Elt F) → (⟨S65536x16, .f32⟩ : BufTy).Contents (Elt F)),
    unary main_arg1 main_v73 ((extractStridedSlice S1x16x100 ![2, 0, 0] · slices_S32x16x100_S1x16x100_2_0_0) : (⟨S32x16x100, .f32⟩ : BufTy).Contents (Elt F) → (⟨S1x16x100, .f32⟩ : BufTy).Contents (Elt F)),
    reshape main_v73 main_v74 rfl shapeCasts_S1x16x100_S16x100,
    binary main_v72 main_v74 main_v75 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v76 ((extractStridedSlice S1x100 ![2, 0] · slices_S32x100_S1x100_2_0) : (⟨S32x100, .f32⟩ : BufTy).Contents (Elt F) → (⟨S1x100, .f32⟩ : BufTy).Contents (Elt F)),
    reshape main_v76 main_v77 rfl shapeCasts_S1x100_S100,
    unary main_v77 main_v78 (broadcastInDim S1x100 ![1] bcast_S100_S1x100_1 : (⟨S100, .f32⟩ : BufTy).Contents (Elt F) → (⟨S1x100, .f32⟩ : BufTy).Contents (Elt F)),
    unary main_v78 main_v79 (broadcastInDim S65536x100 ![0, 1] bcast_S1x100_S65536x100_0_1 : (⟨S1x100, .f32⟩ : BufTy).Contents (Elt F) → (⟨S65536x100, .f32⟩ : BufTy).Contents (Elt F)),
    binary main_v75 main_v79 main_v80 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S65536x100, .f32⟩) main_call4_v0) (broadcastInDim S65536x100 ![] bcast_S_S65536x100),
    TRef.binary (TRef.of (T := ⟨S65536x100, .f32⟩) main_v80) (TRef.of (T := ⟨S65536x100, .f32⟩) main_call4_v0) (TRef.of (T := ⟨S65536x100, .f32⟩) main_v81) maximumf,
    unary main_arg3 main_v82 ((extractStridedSlice S1x100x100 ![2, 0, 0] · slices_S32x100x100_S1x100x100_2_0_0) : (⟨S32x100x100, .f32⟩ : BufTy).Contents (Elt F) → (⟨S1x100x100, .f32⟩ : BufTy).Contents (Elt F)),
    reshape main_v82 main_v83 rfl shapeCasts_S1x100x100_S100x100,
    binary main_v81 main_v83 main_v84 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v85 ((extractStridedSlice S1x100 ![2, 0] · slices_S32x100_S1x100_2_0) : (⟨S32x100, .f32⟩ : BufTy).Contents (Elt F) → (⟨S1x100, .f32⟩ : BufTy).Contents (Elt F)),
    reshape main_v85 main_v86 rfl shapeCasts_S1x100_S100,
    unary main_v86 main_v87 (broadcastInDim S1x100 ![1] bcast_S100_S1x100_1 : (⟨S100, .f32⟩ : BufTy).Contents (Elt F) → (⟨S1x100, .f32⟩ : BufTy).Contents (Elt F)),
    unary main_v87 main_v88 (broadcastInDim S65536x100 ![0, 1] bcast_S1x100_S65536x100_0_1 : (⟨S1x100, .f32⟩ : BufTy).Contents (Elt F) → (⟨S65536x100, .f32⟩ : BufTy).Contents (Elt F)),
    binary main_v84 main_v88 main_v89 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S65536x100, .f32⟩) main_call5_v0) (broadcastInDim S65536x100 ![] bcast_S_S65536x100),
    TRef.binary (TRef.of (T := ⟨S65536x100, .f32⟩) main_v89) (TRef.of (T := ⟨S65536x100, .f32⟩) main_call5_v0) (TRef.of (T := ⟨S65536x100, .f32⟩) main_v90) maximumf,
    unary main_arg5 main_v91 ((extractStridedSlice S1x100x64 ![2, 0, 0] · slices_S32x100x64_S1x100x64_2_0_0) : (⟨S32x100x64, .f32⟩ : BufTy).Contents (Elt F) → (⟨S1x100x64, .f32⟩ : BufTy).Contents (Elt F)),
    reshape main_v91 main_v92 rfl shapeCasts_S1x100x64_S100x64,
    binary main_v90 main_v92 main_v93 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v94 ((extractStridedSlice S1x64 ![2, 0] · slices_S32x64_S1x64_2_0) : (⟨S32x64, .f32⟩ : BufTy).Contents (Elt F) → (⟨S1x64, .f32⟩ : BufTy).Contents (Elt F)),
    reshape main_v94 main_v95 rfl shapeCasts_S1x64_S64,
    unary main_v95 main_v96 (broadcastInDim S1x64 ![1] bcast_S64_S1x64_1 : (⟨S64, .f32⟩ : BufTy).Contents (Elt F) → (⟨S1x64, .f32⟩ : BufTy).Contents (Elt F)),
    unary main_v96 main_v97 (broadcastInDim S65536x64 ![0, 1] bcast_S1x64_S65536x64_0_1 : (⟨S1x64, .f32⟩ : BufTy).Contents (Elt F) → (⟨S65536x64, .f32⟩ : BufTy).Contents (Elt F)),
    binary main_v93 main_v97 main_v98 (addf : (⟨S65536x64, .f32⟩ : BufTy).Contents (Elt F) → (⟨S65536x64, .f32⟩ : BufTy).Contents (Elt F) → (⟨S65536x64, .f32⟩ : BufTy).Contents (Elt F)),
    reshape main_v98 main_v99 rfl shapeCasts_S65536x64_S65536x8x8,
    binary main_v71 main_v99 main_v100 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 3 of the sample. -/
abbrev ops3 : List (HloOp τ sig (Elt F)) :=
  [ unary main_arg0 main_v101 ((extractStridedSlice S65536x16 ![0, 48] · slices_S65536x512_S65536x16_0_48) : (⟨S65536x512, .f32⟩ : BufTy).Contents (Elt F) → (⟨S65536x16, .f32⟩ : BufTy).Contents (Elt F)),
    unary main_arg1 main_v102 ((extractStridedSlice S1x16x100 ![3, 0, 0] · slices_S32x16x100_S1x16x100_3_0_0) : (⟨S32x16x100, .f32⟩ : BufTy).Contents (Elt F) → (⟨S1x16x100, .f32⟩ : BufTy).Contents (Elt F)),
    reshape main_v102 main_v103 rfl shapeCasts_S1x16x100_S16x100,
    binary main_v101 main_v103 main_v104 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v105 ((extractStridedSlice S1x100 ![3, 0] · slices_S32x100_S1x100_3_0) : (⟨S32x100, .f32⟩ : BufTy).Contents (Elt F) → (⟨S1x100, .f32⟩ : BufTy).Contents (Elt F)),
    reshape main_v105 main_v106 rfl shapeCasts_S1x100_S100,
    unary main_v106 main_v107 (broadcastInDim S1x100 ![1] bcast_S100_S1x100_1 : (⟨S100, .f32⟩ : BufTy).Contents (Elt F) → (⟨S1x100, .f32⟩ : BufTy).Contents (Elt F)),
    unary main_v107 main_v108 (broadcastInDim S65536x100 ![0, 1] bcast_S1x100_S65536x100_0_1 : (⟨S1x100, .f32⟩ : BufTy).Contents (Elt F) → (⟨S65536x100, .f32⟩ : BufTy).Contents (Elt F)),
    binary main_v104 main_v108 main_v109 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S65536x100, .f32⟩) main_call6_v0) (broadcastInDim S65536x100 ![] bcast_S_S65536x100),
    TRef.binary (TRef.of (T := ⟨S65536x100, .f32⟩) main_v109) (TRef.of (T := ⟨S65536x100, .f32⟩) main_call6_v0) (TRef.of (T := ⟨S65536x100, .f32⟩) main_v110) maximumf,
    unary main_arg3 main_v111 ((extractStridedSlice S1x100x100 ![3, 0, 0] · slices_S32x100x100_S1x100x100_3_0_0) : (⟨S32x100x100, .f32⟩ : BufTy).Contents (Elt F) → (⟨S1x100x100, .f32⟩ : BufTy).Contents (Elt F)),
    reshape main_v111 main_v112 rfl shapeCasts_S1x100x100_S100x100,
    binary main_v110 main_v112 main_v113 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v114 ((extractStridedSlice S1x100 ![3, 0] · slices_S32x100_S1x100_3_0) : (⟨S32x100, .f32⟩ : BufTy).Contents (Elt F) → (⟨S1x100, .f32⟩ : BufTy).Contents (Elt F)),
    reshape main_v114 main_v115 rfl shapeCasts_S1x100_S100,
    unary main_v115 main_v116 (broadcastInDim S1x100 ![1] bcast_S100_S1x100_1 : (⟨S100, .f32⟩ : BufTy).Contents (Elt F) → (⟨S1x100, .f32⟩ : BufTy).Contents (Elt F)),
    unary main_v116 main_v117 (broadcastInDim S65536x100 ![0, 1] bcast_S1x100_S65536x100_0_1 : (⟨S1x100, .f32⟩ : BufTy).Contents (Elt F) → (⟨S65536x100, .f32⟩ : BufTy).Contents (Elt F)),
    binary main_v113 main_v117 main_v118 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S65536x100, .f32⟩) main_call7_v0) (broadcastInDim S65536x100 ![] bcast_S_S65536x100),
    TRef.binary (TRef.of (T := ⟨S65536x100, .f32⟩) main_v118) (TRef.of (T := ⟨S65536x100, .f32⟩) main_call7_v0) (TRef.of (T := ⟨S65536x100, .f32⟩) main_v119) maximumf,
    unary main_arg5 main_v120 ((extractStridedSlice S1x100x64 ![3, 0, 0] · slices_S32x100x64_S1x100x64_3_0_0) : (⟨S32x100x64, .f32⟩ : BufTy).Contents (Elt F) → (⟨S1x100x64, .f32⟩ : BufTy).Contents (Elt F)),
    reshape main_v120 main_v121 rfl shapeCasts_S1x100x64_S100x64,
    binary main_v119 main_v121 main_v122 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v123 ((extractStridedSlice S1x64 ![3, 0] · slices_S32x64_S1x64_3_0) : (⟨S32x64, .f32⟩ : BufTy).Contents (Elt F) → (⟨S1x64, .f32⟩ : BufTy).Contents (Elt F)),
    reshape main_v123 main_v124 rfl shapeCasts_S1x64_S64,
    unary main_v124 main_v125 (broadcastInDim S1x64 ![1] bcast_S64_S1x64_1 : (⟨S64, .f32⟩ : BufTy).Contents (Elt F) → (⟨S1x64, .f32⟩ : BufTy).Contents (Elt F)),
    unary main_v125 main_v126 (broadcastInDim S65536x64 ![0, 1] bcast_S1x64_S65536x64_0_1 : (⟨S1x64, .f32⟩ : BufTy).Contents (Elt F) → (⟨S65536x64, .f32⟩ : BufTy).Contents (Elt F)),
    binary main_v122 main_v126 main_v127 (addf : (⟨S65536x64, .f32⟩ : BufTy).Contents (Elt F) → (⟨S65536x64, .f32⟩ : BufTy).Contents (Elt F) → (⟨S65536x64, .f32⟩ : BufTy).Contents (Elt F)),
    reshape main_v127 main_v128 rfl shapeCasts_S65536x64_S65536x8x8,
    binary main_v100 main_v128 main_v129 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 4 of the sample. -/
abbrev ops4 : List (HloOp τ sig (Elt F)) :=
  [ unary main_arg0 main_v130 ((extractStridedSlice S65536x16 ![0, 64] · slices_S65536x512_S65536x16_0_64) : (⟨S65536x512, .f32⟩ : BufTy).Contents (Elt F) → (⟨S65536x16, .f32⟩ : BufTy).Contents (Elt F)),
    unary main_arg1 main_v131 ((extractStridedSlice S1x16x100 ![4, 0, 0] · slices_S32x16x100_S1x16x100_4_0_0) : (⟨S32x16x100, .f32⟩ : BufTy).Contents (Elt F) → (⟨S1x16x100, .f32⟩ : BufTy).Contents (Elt F)),
    reshape main_v131 main_v132 rfl shapeCasts_S1x16x100_S16x100,
    binary main_v130 main_v132 main_v133 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v134 ((extractStridedSlice S1x100 ![4, 0] · slices_S32x100_S1x100_4_0) : (⟨S32x100, .f32⟩ : BufTy).Contents (Elt F) → (⟨S1x100, .f32⟩ : BufTy).Contents (Elt F)),
    reshape main_v134 main_v135 rfl shapeCasts_S1x100_S100,
    unary main_v135 main_v136 (broadcastInDim S1x100 ![1] bcast_S100_S1x100_1 : (⟨S100, .f32⟩ : BufTy).Contents (Elt F) → (⟨S1x100, .f32⟩ : BufTy).Contents (Elt F)),
    unary main_v136 main_v137 (broadcastInDim S65536x100 ![0, 1] bcast_S1x100_S65536x100_0_1 : (⟨S1x100, .f32⟩ : BufTy).Contents (Elt F) → (⟨S65536x100, .f32⟩ : BufTy).Contents (Elt F)),
    binary main_v133 main_v137 main_v138 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S65536x100, .f32⟩) main_call8_v0) (broadcastInDim S65536x100 ![] bcast_S_S65536x100),
    TRef.binary (TRef.of (T := ⟨S65536x100, .f32⟩) main_v138) (TRef.of (T := ⟨S65536x100, .f32⟩) main_call8_v0) (TRef.of (T := ⟨S65536x100, .f32⟩) main_v139) maximumf,
    unary main_arg3 main_v140 ((extractStridedSlice S1x100x100 ![4, 0, 0] · slices_S32x100x100_S1x100x100_4_0_0) : (⟨S32x100x100, .f32⟩ : BufTy).Contents (Elt F) → (⟨S1x100x100, .f32⟩ : BufTy).Contents (Elt F)),
    reshape main_v140 main_v141 rfl shapeCasts_S1x100x100_S100x100,
    binary main_v139 main_v141 main_v142 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v143 ((extractStridedSlice S1x100 ![4, 0] · slices_S32x100_S1x100_4_0) : (⟨S32x100, .f32⟩ : BufTy).Contents (Elt F) → (⟨S1x100, .f32⟩ : BufTy).Contents (Elt F)),
    reshape main_v143 main_v144 rfl shapeCasts_S1x100_S100,
    unary main_v144 main_v145 (broadcastInDim S1x100 ![1] bcast_S100_S1x100_1 : (⟨S100, .f32⟩ : BufTy).Contents (Elt F) → (⟨S1x100, .f32⟩ : BufTy).Contents (Elt F)),
    unary main_v145 main_v146 (broadcastInDim S65536x100 ![0, 1] bcast_S1x100_S65536x100_0_1 : (⟨S1x100, .f32⟩ : BufTy).Contents (Elt F) → (⟨S65536x100, .f32⟩ : BufTy).Contents (Elt F)),
    binary main_v142 main_v146 main_v147 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S65536x100, .f32⟩) main_call9_v0) (broadcastInDim S65536x100 ![] bcast_S_S65536x100),
    TRef.binary (TRef.of (T := ⟨S65536x100, .f32⟩) main_v147) (TRef.of (T := ⟨S65536x100, .f32⟩) main_call9_v0) (TRef.of (T := ⟨S65536x100, .f32⟩) main_v148) maximumf,
    unary main_arg5 main_v149 ((extractStridedSlice S1x100x64 ![4, 0, 0] · slices_S32x100x64_S1x100x64_4_0_0) : (⟨S32x100x64, .f32⟩ : BufTy).Contents (Elt F) → (⟨S1x100x64, .f32⟩ : BufTy).Contents (Elt F)),
    reshape main_v149 main_v150 rfl shapeCasts_S1x100x64_S100x64,
    binary main_v148 main_v150 main_v151 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v152 ((extractStridedSlice S1x64 ![4, 0] · slices_S32x64_S1x64_4_0) : (⟨S32x64, .f32⟩ : BufTy).Contents (Elt F) → (⟨S1x64, .f32⟩ : BufTy).Contents (Elt F)),
    reshape main_v152 main_v153 rfl shapeCasts_S1x64_S64,
    unary main_v153 main_v154 (broadcastInDim S1x64 ![1] bcast_S64_S1x64_1 : (⟨S64, .f32⟩ : BufTy).Contents (Elt F) → (⟨S1x64, .f32⟩ : BufTy).Contents (Elt F)),
    unary main_v154 main_v155 (broadcastInDim S65536x64 ![0, 1] bcast_S1x64_S65536x64_0_1 : (⟨S1x64, .f32⟩ : BufTy).Contents (Elt F) → (⟨S65536x64, .f32⟩ : BufTy).Contents (Elt F)),
    binary main_v151 main_v155 main_v156 (addf : (⟨S65536x64, .f32⟩ : BufTy).Contents (Elt F) → (⟨S65536x64, .f32⟩ : BufTy).Contents (Elt F) → (⟨S65536x64, .f32⟩ : BufTy).Contents (Elt F)),
    reshape main_v156 main_v157 rfl shapeCasts_S65536x64_S65536x8x8,
    binary main_v129 main_v157 main_v158 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 5 of the sample. -/
abbrev ops5 : List (HloOp τ sig (Elt F)) :=
  [ unary main_arg0 main_v159 ((extractStridedSlice S65536x16 ![0, 80] · slices_S65536x512_S65536x16_0_80) : (⟨S65536x512, .f32⟩ : BufTy).Contents (Elt F) → (⟨S65536x16, .f32⟩ : BufTy).Contents (Elt F)),
    unary main_arg1 main_v160 ((extractStridedSlice S1x16x100 ![5, 0, 0] · slices_S32x16x100_S1x16x100_5_0_0) : (⟨S32x16x100, .f32⟩ : BufTy).Contents (Elt F) → (⟨S1x16x100, .f32⟩ : BufTy).Contents (Elt F)),
    reshape main_v160 main_v161 rfl shapeCasts_S1x16x100_S16x100,
    binary main_v159 main_v161 main_v162 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v163 ((extractStridedSlice S1x100 ![5, 0] · slices_S32x100_S1x100_5_0) : (⟨S32x100, .f32⟩ : BufTy).Contents (Elt F) → (⟨S1x100, .f32⟩ : BufTy).Contents (Elt F)),
    reshape main_v163 main_v164 rfl shapeCasts_S1x100_S100,
    unary main_v164 main_v165 (broadcastInDim S1x100 ![1] bcast_S100_S1x100_1 : (⟨S100, .f32⟩ : BufTy).Contents (Elt F) → (⟨S1x100, .f32⟩ : BufTy).Contents (Elt F)),
    unary main_v165 main_v166 (broadcastInDim S65536x100 ![0, 1] bcast_S1x100_S65536x100_0_1 : (⟨S1x100, .f32⟩ : BufTy).Contents (Elt F) → (⟨S65536x100, .f32⟩ : BufTy).Contents (Elt F)),
    binary main_v162 main_v166 main_v167 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S65536x100, .f32⟩) main_call10_v0) (broadcastInDim S65536x100 ![] bcast_S_S65536x100),
    TRef.binary (TRef.of (T := ⟨S65536x100, .f32⟩) main_v167) (TRef.of (T := ⟨S65536x100, .f32⟩) main_call10_v0) (TRef.of (T := ⟨S65536x100, .f32⟩) main_v168) maximumf,
    unary main_arg3 main_v169 ((extractStridedSlice S1x100x100 ![5, 0, 0] · slices_S32x100x100_S1x100x100_5_0_0) : (⟨S32x100x100, .f32⟩ : BufTy).Contents (Elt F) → (⟨S1x100x100, .f32⟩ : BufTy).Contents (Elt F)),
    reshape main_v169 main_v170 rfl shapeCasts_S1x100x100_S100x100,
    binary main_v168 main_v170 main_v171 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v172 ((extractStridedSlice S1x100 ![5, 0] · slices_S32x100_S1x100_5_0) : (⟨S32x100, .f32⟩ : BufTy).Contents (Elt F) → (⟨S1x100, .f32⟩ : BufTy).Contents (Elt F)),
    reshape main_v172 main_v173 rfl shapeCasts_S1x100_S100,
    unary main_v173 main_v174 (broadcastInDim S1x100 ![1] bcast_S100_S1x100_1 : (⟨S100, .f32⟩ : BufTy).Contents (Elt F) → (⟨S1x100, .f32⟩ : BufTy).Contents (Elt F)),
    unary main_v174 main_v175 (broadcastInDim S65536x100 ![0, 1] bcast_S1x100_S65536x100_0_1 : (⟨S1x100, .f32⟩ : BufTy).Contents (Elt F) → (⟨S65536x100, .f32⟩ : BufTy).Contents (Elt F)),
    binary main_v171 main_v175 main_v176 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S65536x100, .f32⟩) main_call11_v0) (broadcastInDim S65536x100 ![] bcast_S_S65536x100),
    TRef.binary (TRef.of (T := ⟨S65536x100, .f32⟩) main_v176) (TRef.of (T := ⟨S65536x100, .f32⟩) main_call11_v0) (TRef.of (T := ⟨S65536x100, .f32⟩) main_v177) maximumf,
    unary main_arg5 main_v178 ((extractStridedSlice S1x100x64 ![5, 0, 0] · slices_S32x100x64_S1x100x64_5_0_0) : (⟨S32x100x64, .f32⟩ : BufTy).Contents (Elt F) → (⟨S1x100x64, .f32⟩ : BufTy).Contents (Elt F)),
    reshape main_v178 main_v179 rfl shapeCasts_S1x100x64_S100x64,
    binary main_v177 main_v179 main_v180 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v181 ((extractStridedSlice S1x64 ![5, 0] · slices_S32x64_S1x64_5_0) : (⟨S32x64, .f32⟩ : BufTy).Contents (Elt F) → (⟨S1x64, .f32⟩ : BufTy).Contents (Elt F)),
    reshape main_v181 main_v182 rfl shapeCasts_S1x64_S64,
    unary main_v182 main_v183 (broadcastInDim S1x64 ![1] bcast_S64_S1x64_1 : (⟨S64, .f32⟩ : BufTy).Contents (Elt F) → (⟨S1x64, .f32⟩ : BufTy).Contents (Elt F)),
    unary main_v183 main_v184 (broadcastInDim S65536x64 ![0, 1] bcast_S1x64_S65536x64_0_1 : (⟨S1x64, .f32⟩ : BufTy).Contents (Elt F) → (⟨S65536x64, .f32⟩ : BufTy).Contents (Elt F)),
    binary main_v180 main_v184 main_v185 (addf : (⟨S65536x64, .f32⟩ : BufTy).Contents (Elt F) → (⟨S65536x64, .f32⟩ : BufTy).Contents (Elt F) → (⟨S65536x64, .f32⟩ : BufTy).Contents (Elt F)),
    reshape main_v185 main_v186 rfl shapeCasts_S65536x64_S65536x8x8,
    binary main_v158 main_v186 main_v187 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 6 of the sample. -/
abbrev ops6 : List (HloOp τ sig (Elt F)) :=
  [ unary main_arg0 main_v188 ((extractStridedSlice S65536x16 ![0, 96] · slices_S65536x512_S65536x16_0_96) : (⟨S65536x512, .f32⟩ : BufTy).Contents (Elt F) → (⟨S65536x16, .f32⟩ : BufTy).Contents (Elt F)),
    unary main_arg1 main_v189 ((extractStridedSlice S1x16x100 ![6, 0, 0] · slices_S32x16x100_S1x16x100_6_0_0) : (⟨S32x16x100, .f32⟩ : BufTy).Contents (Elt F) → (⟨S1x16x100, .f32⟩ : BufTy).Contents (Elt F)),
    reshape main_v189 main_v190 rfl shapeCasts_S1x16x100_S16x100,
    binary main_v188 main_v190 main_v191 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v192 ((extractStridedSlice S1x100 ![6, 0] · slices_S32x100_S1x100_6_0) : (⟨S32x100, .f32⟩ : BufTy).Contents (Elt F) → (⟨S1x100, .f32⟩ : BufTy).Contents (Elt F)),
    reshape main_v192 main_v193 rfl shapeCasts_S1x100_S100,
    unary main_v193 main_v194 (broadcastInDim S1x100 ![1] bcast_S100_S1x100_1 : (⟨S100, .f32⟩ : BufTy).Contents (Elt F) → (⟨S1x100, .f32⟩ : BufTy).Contents (Elt F)),
    unary main_v194 main_v195 (broadcastInDim S65536x100 ![0, 1] bcast_S1x100_S65536x100_0_1 : (⟨S1x100, .f32⟩ : BufTy).Contents (Elt F) → (⟨S65536x100, .f32⟩ : BufTy).Contents (Elt F)),
    binary main_v191 main_v195 main_v196 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S65536x100, .f32⟩) main_call12_v0) (broadcastInDim S65536x100 ![] bcast_S_S65536x100),
    TRef.binary (TRef.of (T := ⟨S65536x100, .f32⟩) main_v196) (TRef.of (T := ⟨S65536x100, .f32⟩) main_call12_v0) (TRef.of (T := ⟨S65536x100, .f32⟩) main_v197) maximumf,
    unary main_arg3 main_v198 ((extractStridedSlice S1x100x100 ![6, 0, 0] · slices_S32x100x100_S1x100x100_6_0_0) : (⟨S32x100x100, .f32⟩ : BufTy).Contents (Elt F) → (⟨S1x100x100, .f32⟩ : BufTy).Contents (Elt F)),
    reshape main_v198 main_v199 rfl shapeCasts_S1x100x100_S100x100,
    binary main_v197 main_v199 main_v200 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v201 ((extractStridedSlice S1x100 ![6, 0] · slices_S32x100_S1x100_6_0) : (⟨S32x100, .f32⟩ : BufTy).Contents (Elt F) → (⟨S1x100, .f32⟩ : BufTy).Contents (Elt F)),
    reshape main_v201 main_v202 rfl shapeCasts_S1x100_S100,
    unary main_v202 main_v203 (broadcastInDim S1x100 ![1] bcast_S100_S1x100_1 : (⟨S100, .f32⟩ : BufTy).Contents (Elt F) → (⟨S1x100, .f32⟩ : BufTy).Contents (Elt F)),
    unary main_v203 main_v204 (broadcastInDim S65536x100 ![0, 1] bcast_S1x100_S65536x100_0_1 : (⟨S1x100, .f32⟩ : BufTy).Contents (Elt F) → (⟨S65536x100, .f32⟩ : BufTy).Contents (Elt F)),
    binary main_v200 main_v204 main_v205 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S65536x100, .f32⟩) main_call13_v0) (broadcastInDim S65536x100 ![] bcast_S_S65536x100),
    TRef.binary (TRef.of (T := ⟨S65536x100, .f32⟩) main_v205) (TRef.of (T := ⟨S65536x100, .f32⟩) main_call13_v0) (TRef.of (T := ⟨S65536x100, .f32⟩) main_v206) maximumf,
    unary main_arg5 main_v207 ((extractStridedSlice S1x100x64 ![6, 0, 0] · slices_S32x100x64_S1x100x64_6_0_0) : (⟨S32x100x64, .f32⟩ : BufTy).Contents (Elt F) → (⟨S1x100x64, .f32⟩ : BufTy).Contents (Elt F)),
    reshape main_v207 main_v208 rfl shapeCasts_S1x100x64_S100x64,
    binary main_v206 main_v208 main_v209 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v210 ((extractStridedSlice S1x64 ![6, 0] · slices_S32x64_S1x64_6_0) : (⟨S32x64, .f32⟩ : BufTy).Contents (Elt F) → (⟨S1x64, .f32⟩ : BufTy).Contents (Elt F)),
    reshape main_v210 main_v211 rfl shapeCasts_S1x64_S64,
    unary main_v211 main_v212 (broadcastInDim S1x64 ![1] bcast_S64_S1x64_1 : (⟨S64, .f32⟩ : BufTy).Contents (Elt F) → (⟨S1x64, .f32⟩ : BufTy).Contents (Elt F)),
    unary main_v212 main_v213 (broadcastInDim S65536x64 ![0, 1] bcast_S1x64_S65536x64_0_1 : (⟨S1x64, .f32⟩ : BufTy).Contents (Elt F) → (⟨S65536x64, .f32⟩ : BufTy).Contents (Elt F)),
    binary main_v209 main_v213 main_v214 (addf : (⟨S65536x64, .f32⟩ : BufTy).Contents (Elt F) → (⟨S65536x64, .f32⟩ : BufTy).Contents (Elt F) → (⟨S65536x64, .f32⟩ : BufTy).Contents (Elt F)),
    reshape main_v214 main_v215 rfl shapeCasts_S65536x64_S65536x8x8,
    binary main_v187 main_v215 main_v216 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 7 of the sample. -/
abbrev ops7 : List (HloOp τ sig (Elt F)) :=
  [ unary main_arg0 main_v217 ((extractStridedSlice S65536x16 ![0, 112] · slices_S65536x512_S65536x16_0_112) : (⟨S65536x512, .f32⟩ : BufTy).Contents (Elt F) → (⟨S65536x16, .f32⟩ : BufTy).Contents (Elt F)),
    unary main_arg1 main_v218 ((extractStridedSlice S1x16x100 ![7, 0, 0] · slices_S32x16x100_S1x16x100_7_0_0) : (⟨S32x16x100, .f32⟩ : BufTy).Contents (Elt F) → (⟨S1x16x100, .f32⟩ : BufTy).Contents (Elt F)),
    reshape main_v218 main_v219 rfl shapeCasts_S1x16x100_S16x100,
    binary main_v217 main_v219 main_v220 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v221 ((extractStridedSlice S1x100 ![7, 0] · slices_S32x100_S1x100_7_0) : (⟨S32x100, .f32⟩ : BufTy).Contents (Elt F) → (⟨S1x100, .f32⟩ : BufTy).Contents (Elt F)),
    reshape main_v221 main_v222 rfl shapeCasts_S1x100_S100,
    unary main_v222 main_v223 (broadcastInDim S1x100 ![1] bcast_S100_S1x100_1 : (⟨S100, .f32⟩ : BufTy).Contents (Elt F) → (⟨S1x100, .f32⟩ : BufTy).Contents (Elt F)),
    unary main_v223 main_v224 (broadcastInDim S65536x100 ![0, 1] bcast_S1x100_S65536x100_0_1 : (⟨S1x100, .f32⟩ : BufTy).Contents (Elt F) → (⟨S65536x100, .f32⟩ : BufTy).Contents (Elt F)),
    binary main_v220 main_v224 main_v225 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S65536x100, .f32⟩) main_call14_v0) (broadcastInDim S65536x100 ![] bcast_S_S65536x100),
    TRef.binary (TRef.of (T := ⟨S65536x100, .f32⟩) main_v225) (TRef.of (T := ⟨S65536x100, .f32⟩) main_call14_v0) (TRef.of (T := ⟨S65536x100, .f32⟩) main_v226) maximumf,
    unary main_arg3 main_v227 ((extractStridedSlice S1x100x100 ![7, 0, 0] · slices_S32x100x100_S1x100x100_7_0_0) : (⟨S32x100x100, .f32⟩ : BufTy).Contents (Elt F) → (⟨S1x100x100, .f32⟩ : BufTy).Contents (Elt F)),
    reshape main_v227 main_v228 rfl shapeCasts_S1x100x100_S100x100,
    binary main_v226 main_v228 main_v229 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v230 ((extractStridedSlice S1x100 ![7, 0] · slices_S32x100_S1x100_7_0) : (⟨S32x100, .f32⟩ : BufTy).Contents (Elt F) → (⟨S1x100, .f32⟩ : BufTy).Contents (Elt F)),
    reshape main_v230 main_v231 rfl shapeCasts_S1x100_S100,
    unary main_v231 main_v232 (broadcastInDim S1x100 ![1] bcast_S100_S1x100_1 : (⟨S100, .f32⟩ : BufTy).Contents (Elt F) → (⟨S1x100, .f32⟩ : BufTy).Contents (Elt F)),
    unary main_v232 main_v233 (broadcastInDim S65536x100 ![0, 1] bcast_S1x100_S65536x100_0_1 : (⟨S1x100, .f32⟩ : BufTy).Contents (Elt F) → (⟨S65536x100, .f32⟩ : BufTy).Contents (Elt F)),
    binary main_v229 main_v233 main_v234 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S65536x100, .f32⟩) main_call15_v0) (broadcastInDim S65536x100 ![] bcast_S_S65536x100),
    TRef.binary (TRef.of (T := ⟨S65536x100, .f32⟩) main_v234) (TRef.of (T := ⟨S65536x100, .f32⟩) main_call15_v0) (TRef.of (T := ⟨S65536x100, .f32⟩) main_v235) maximumf,
    unary main_arg5 main_v236 ((extractStridedSlice S1x100x64 ![7, 0, 0] · slices_S32x100x64_S1x100x64_7_0_0) : (⟨S32x100x64, .f32⟩ : BufTy).Contents (Elt F) → (⟨S1x100x64, .f32⟩ : BufTy).Contents (Elt F)),
    reshape main_v236 main_v237 rfl shapeCasts_S1x100x64_S100x64,
    binary main_v235 main_v237 main_v238 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v239 ((extractStridedSlice S1x64 ![7, 0] · slices_S32x64_S1x64_7_0) : (⟨S32x64, .f32⟩ : BufTy).Contents (Elt F) → (⟨S1x64, .f32⟩ : BufTy).Contents (Elt F)),
    reshape main_v239 main_v240 rfl shapeCasts_S1x64_S64,
    unary main_v240 main_v241 (broadcastInDim S1x64 ![1] bcast_S64_S1x64_1 : (⟨S64, .f32⟩ : BufTy).Contents (Elt F) → (⟨S1x64, .f32⟩ : BufTy).Contents (Elt F)),
    unary main_v241 main_v242 (broadcastInDim S65536x64 ![0, 1] bcast_S1x64_S65536x64_0_1 : (⟨S1x64, .f32⟩ : BufTy).Contents (Elt F) → (⟨S65536x64, .f32⟩ : BufTy).Contents (Elt F)),
    binary main_v238 main_v242 main_v243 (addf : (⟨S65536x64, .f32⟩ : BufTy).Contents (Elt F) → (⟨S65536x64, .f32⟩ : BufTy).Contents (Elt F) → (⟨S65536x64, .f32⟩ : BufTy).Contents (Elt F)),
    reshape main_v243 main_v244 rfl shapeCasts_S65536x64_S65536x8x8,
    binary main_v216 main_v244 main_v245 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 8 of the sample. -/
abbrev ops8 : List (HloOp τ sig (Elt F)) :=
  [ unary main_arg0 main_v246 ((extractStridedSlice S65536x16 ![0, 128] · slices_S65536x512_S65536x16_0_128) : (⟨S65536x512, .f32⟩ : BufTy).Contents (Elt F) → (⟨S65536x16, .f32⟩ : BufTy).Contents (Elt F)),
    unary main_arg1 main_v247 ((extractStridedSlice S1x16x100 ![8, 0, 0] · slices_S32x16x100_S1x16x100_8_0_0) : (⟨S32x16x100, .f32⟩ : BufTy).Contents (Elt F) → (⟨S1x16x100, .f32⟩ : BufTy).Contents (Elt F)),
    reshape main_v247 main_v248 rfl shapeCasts_S1x16x100_S16x100,
    binary main_v246 main_v248 main_v249 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v250 ((extractStridedSlice S1x100 ![8, 0] · slices_S32x100_S1x100_8_0) : (⟨S32x100, .f32⟩ : BufTy).Contents (Elt F) → (⟨S1x100, .f32⟩ : BufTy).Contents (Elt F)),
    reshape main_v250 main_v251 rfl shapeCasts_S1x100_S100,
    unary main_v251 main_v252 (broadcastInDim S1x100 ![1] bcast_S100_S1x100_1 : (⟨S100, .f32⟩ : BufTy).Contents (Elt F) → (⟨S1x100, .f32⟩ : BufTy).Contents (Elt F)),
    unary main_v252 main_v253 (broadcastInDim S65536x100 ![0, 1] bcast_S1x100_S65536x100_0_1 : (⟨S1x100, .f32⟩ : BufTy).Contents (Elt F) → (⟨S65536x100, .f32⟩ : BufTy).Contents (Elt F)),
    binary main_v249 main_v253 main_v254 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S65536x100, .f32⟩) main_call16_v0) (broadcastInDim S65536x100 ![] bcast_S_S65536x100),
    TRef.binary (TRef.of (T := ⟨S65536x100, .f32⟩) main_v254) (TRef.of (T := ⟨S65536x100, .f32⟩) main_call16_v0) (TRef.of (T := ⟨S65536x100, .f32⟩) main_v255) maximumf,
    unary main_arg3 main_v256 ((extractStridedSlice S1x100x100 ![8, 0, 0] · slices_S32x100x100_S1x100x100_8_0_0) : (⟨S32x100x100, .f32⟩ : BufTy).Contents (Elt F) → (⟨S1x100x100, .f32⟩ : BufTy).Contents (Elt F)),
    reshape main_v256 main_v257 rfl shapeCasts_S1x100x100_S100x100,
    binary main_v255 main_v257 main_v258 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v259 ((extractStridedSlice S1x100 ![8, 0] · slices_S32x100_S1x100_8_0) : (⟨S32x100, .f32⟩ : BufTy).Contents (Elt F) → (⟨S1x100, .f32⟩ : BufTy).Contents (Elt F)),
    reshape main_v259 main_v260 rfl shapeCasts_S1x100_S100,
    unary main_v260 main_v261 (broadcastInDim S1x100 ![1] bcast_S100_S1x100_1 : (⟨S100, .f32⟩ : BufTy).Contents (Elt F) → (⟨S1x100, .f32⟩ : BufTy).Contents (Elt F)),
    unary main_v261 main_v262 (broadcastInDim S65536x100 ![0, 1] bcast_S1x100_S65536x100_0_1 : (⟨S1x100, .f32⟩ : BufTy).Contents (Elt F) → (⟨S65536x100, .f32⟩ : BufTy).Contents (Elt F)),
    binary main_v258 main_v262 main_v263 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S65536x100, .f32⟩) main_call17_v0) (broadcastInDim S65536x100 ![] bcast_S_S65536x100),
    TRef.binary (TRef.of (T := ⟨S65536x100, .f32⟩) main_v263) (TRef.of (T := ⟨S65536x100, .f32⟩) main_call17_v0) (TRef.of (T := ⟨S65536x100, .f32⟩) main_v264) maximumf,
    unary main_arg5 main_v265 ((extractStridedSlice S1x100x64 ![8, 0, 0] · slices_S32x100x64_S1x100x64_8_0_0) : (⟨S32x100x64, .f32⟩ : BufTy).Contents (Elt F) → (⟨S1x100x64, .f32⟩ : BufTy).Contents (Elt F)),
    reshape main_v265 main_v266 rfl shapeCasts_S1x100x64_S100x64,
    binary main_v264 main_v266 main_v267 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v268 ((extractStridedSlice S1x64 ![8, 0] · slices_S32x64_S1x64_8_0) : (⟨S32x64, .f32⟩ : BufTy).Contents (Elt F) → (⟨S1x64, .f32⟩ : BufTy).Contents (Elt F)),
    reshape main_v268 main_v269 rfl shapeCasts_S1x64_S64,
    unary main_v269 main_v270 (broadcastInDim S1x64 ![1] bcast_S64_S1x64_1 : (⟨S64, .f32⟩ : BufTy).Contents (Elt F) → (⟨S1x64, .f32⟩ : BufTy).Contents (Elt F)),
    unary main_v270 main_v271 (broadcastInDim S65536x64 ![0, 1] bcast_S1x64_S65536x64_0_1 : (⟨S1x64, .f32⟩ : BufTy).Contents (Elt F) → (⟨S65536x64, .f32⟩ : BufTy).Contents (Elt F)),
    binary main_v267 main_v271 main_v272 (addf : (⟨S65536x64, .f32⟩ : BufTy).Contents (Elt F) → (⟨S65536x64, .f32⟩ : BufTy).Contents (Elt F) → (⟨S65536x64, .f32⟩ : BufTy).Contents (Elt F)),
    reshape main_v272 main_v273 rfl shapeCasts_S65536x64_S65536x8x8,
    binary main_v245 main_v273 main_v274 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 9 of the sample. -/
abbrev ops9 : List (HloOp τ sig (Elt F)) :=
  [ unary main_arg0 main_v275 ((extractStridedSlice S65536x16 ![0, 144] · slices_S65536x512_S65536x16_0_144) : (⟨S65536x512, .f32⟩ : BufTy).Contents (Elt F) → (⟨S65536x16, .f32⟩ : BufTy).Contents (Elt F)),
    unary main_arg1 main_v276 ((extractStridedSlice S1x16x100 ![9, 0, 0] · slices_S32x16x100_S1x16x100_9_0_0) : (⟨S32x16x100, .f32⟩ : BufTy).Contents (Elt F) → (⟨S1x16x100, .f32⟩ : BufTy).Contents (Elt F)),
    reshape main_v276 main_v277 rfl shapeCasts_S1x16x100_S16x100,
    binary main_v275 main_v277 main_v278 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v279 ((extractStridedSlice S1x100 ![9, 0] · slices_S32x100_S1x100_9_0) : (⟨S32x100, .f32⟩ : BufTy).Contents (Elt F) → (⟨S1x100, .f32⟩ : BufTy).Contents (Elt F)),
    reshape main_v279 main_v280 rfl shapeCasts_S1x100_S100,
    unary main_v280 main_v281 (broadcastInDim S1x100 ![1] bcast_S100_S1x100_1 : (⟨S100, .f32⟩ : BufTy).Contents (Elt F) → (⟨S1x100, .f32⟩ : BufTy).Contents (Elt F)),
    unary main_v281 main_v282 (broadcastInDim S65536x100 ![0, 1] bcast_S1x100_S65536x100_0_1 : (⟨S1x100, .f32⟩ : BufTy).Contents (Elt F) → (⟨S65536x100, .f32⟩ : BufTy).Contents (Elt F)),
    binary main_v278 main_v282 main_v283 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S65536x100, .f32⟩) main_call18_v0) (broadcastInDim S65536x100 ![] bcast_S_S65536x100),
    TRef.binary (TRef.of (T := ⟨S65536x100, .f32⟩) main_v283) (TRef.of (T := ⟨S65536x100, .f32⟩) main_call18_v0) (TRef.of (T := ⟨S65536x100, .f32⟩) main_v284) maximumf,
    unary main_arg3 main_v285 ((extractStridedSlice S1x100x100 ![9, 0, 0] · slices_S32x100x100_S1x100x100_9_0_0) : (⟨S32x100x100, .f32⟩ : BufTy).Contents (Elt F) → (⟨S1x100x100, .f32⟩ : BufTy).Contents (Elt F)),
    reshape main_v285 main_v286 rfl shapeCasts_S1x100x100_S100x100,
    binary main_v284 main_v286 main_v287 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v288 ((extractStridedSlice S1x100 ![9, 0] · slices_S32x100_S1x100_9_0) : (⟨S32x100, .f32⟩ : BufTy).Contents (Elt F) → (⟨S1x100, .f32⟩ : BufTy).Contents (Elt F)),
    reshape main_v288 main_v289 rfl shapeCasts_S1x100_S100,
    unary main_v289 main_v290 (broadcastInDim S1x100 ![1] bcast_S100_S1x100_1 : (⟨S100, .f32⟩ : BufTy).Contents (Elt F) → (⟨S1x100, .f32⟩ : BufTy).Contents (Elt F)),
    unary main_v290 main_v291 (broadcastInDim S65536x100 ![0, 1] bcast_S1x100_S65536x100_0_1 : (⟨S1x100, .f32⟩ : BufTy).Contents (Elt F) → (⟨S65536x100, .f32⟩ : BufTy).Contents (Elt F)),
    binary main_v287 main_v291 main_v292 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S65536x100, .f32⟩) main_call19_v0) (broadcastInDim S65536x100 ![] bcast_S_S65536x100),
    TRef.binary (TRef.of (T := ⟨S65536x100, .f32⟩) main_v292) (TRef.of (T := ⟨S65536x100, .f32⟩) main_call19_v0) (TRef.of (T := ⟨S65536x100, .f32⟩) main_v293) maximumf,
    unary main_arg5 main_v294 ((extractStridedSlice S1x100x64 ![9, 0, 0] · slices_S32x100x64_S1x100x64_9_0_0) : (⟨S32x100x64, .f32⟩ : BufTy).Contents (Elt F) → (⟨S1x100x64, .f32⟩ : BufTy).Contents (Elt F)),
    reshape main_v294 main_v295 rfl shapeCasts_S1x100x64_S100x64,
    binary main_v293 main_v295 main_v296 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v297 ((extractStridedSlice S1x64 ![9, 0] · slices_S32x64_S1x64_9_0) : (⟨S32x64, .f32⟩ : BufTy).Contents (Elt F) → (⟨S1x64, .f32⟩ : BufTy).Contents (Elt F)),
    reshape main_v297 main_v298 rfl shapeCasts_S1x64_S64,
    unary main_v298 main_v299 (broadcastInDim S1x64 ![1] bcast_S64_S1x64_1 : (⟨S64, .f32⟩ : BufTy).Contents (Elt F) → (⟨S1x64, .f32⟩ : BufTy).Contents (Elt F)),
    unary main_v299 main_v300 (broadcastInDim S65536x64 ![0, 1] bcast_S1x64_S65536x64_0_1 : (⟨S1x64, .f32⟩ : BufTy).Contents (Elt F) → (⟨S65536x64, .f32⟩ : BufTy).Contents (Elt F)),
    binary main_v296 main_v300 main_v301 (addf : (⟨S65536x64, .f32⟩ : BufTy).Contents (Elt F) → (⟨S65536x64, .f32⟩ : BufTy).Contents (Elt F) → (⟨S65536x64, .f32⟩ : BufTy).Contents (Elt F)),
    reshape main_v301 main_v302 rfl shapeCasts_S65536x64_S65536x8x8,
    binary main_v274 main_v302 main_v303 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 10 of the sample. -/
abbrev ops10 : List (HloOp τ sig (Elt F)) :=
  [ unary main_arg0 main_v304 ((extractStridedSlice S65536x16 ![0, 160] · slices_S65536x512_S65536x16_0_160) : (⟨S65536x512, .f32⟩ : BufTy).Contents (Elt F) → (⟨S65536x16, .f32⟩ : BufTy).Contents (Elt F)),
    unary main_arg1 main_v305 ((extractStridedSlice S1x16x100 ![10, 0, 0] · slices_S32x16x100_S1x16x100_10_0_0) : (⟨S32x16x100, .f32⟩ : BufTy).Contents (Elt F) → (⟨S1x16x100, .f32⟩ : BufTy).Contents (Elt F)),
    reshape main_v305 main_v306 rfl shapeCasts_S1x16x100_S16x100,
    binary main_v304 main_v306 main_v307 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v308 ((extractStridedSlice S1x100 ![10, 0] · slices_S32x100_S1x100_10_0) : (⟨S32x100, .f32⟩ : BufTy).Contents (Elt F) → (⟨S1x100, .f32⟩ : BufTy).Contents (Elt F)),
    reshape main_v308 main_v309 rfl shapeCasts_S1x100_S100,
    unary main_v309 main_v310 (broadcastInDim S1x100 ![1] bcast_S100_S1x100_1 : (⟨S100, .f32⟩ : BufTy).Contents (Elt F) → (⟨S1x100, .f32⟩ : BufTy).Contents (Elt F)),
    unary main_v310 main_v311 (broadcastInDim S65536x100 ![0, 1] bcast_S1x100_S65536x100_0_1 : (⟨S1x100, .f32⟩ : BufTy).Contents (Elt F) → (⟨S65536x100, .f32⟩ : BufTy).Contents (Elt F)),
    binary main_v307 main_v311 main_v312 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S65536x100, .f32⟩) main_call20_v0) (broadcastInDim S65536x100 ![] bcast_S_S65536x100),
    TRef.binary (TRef.of (T := ⟨S65536x100, .f32⟩) main_v312) (TRef.of (T := ⟨S65536x100, .f32⟩) main_call20_v0) (TRef.of (T := ⟨S65536x100, .f32⟩) main_v313) maximumf,
    unary main_arg3 main_v314 ((extractStridedSlice S1x100x100 ![10, 0, 0] · slices_S32x100x100_S1x100x100_10_0_0) : (⟨S32x100x100, .f32⟩ : BufTy).Contents (Elt F) → (⟨S1x100x100, .f32⟩ : BufTy).Contents (Elt F)),
    reshape main_v314 main_v315 rfl shapeCasts_S1x100x100_S100x100,
    binary main_v313 main_v315 main_v316 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v317 ((extractStridedSlice S1x100 ![10, 0] · slices_S32x100_S1x100_10_0) : (⟨S32x100, .f32⟩ : BufTy).Contents (Elt F) → (⟨S1x100, .f32⟩ : BufTy).Contents (Elt F)),
    reshape main_v317 main_v318 rfl shapeCasts_S1x100_S100,
    unary main_v318 main_v319 (broadcastInDim S1x100 ![1] bcast_S100_S1x100_1 : (⟨S100, .f32⟩ : BufTy).Contents (Elt F) → (⟨S1x100, .f32⟩ : BufTy).Contents (Elt F)),
    unary main_v319 main_v320 (broadcastInDim S65536x100 ![0, 1] bcast_S1x100_S65536x100_0_1 : (⟨S1x100, .f32⟩ : BufTy).Contents (Elt F) → (⟨S65536x100, .f32⟩ : BufTy).Contents (Elt F)),
    binary main_v316 main_v320 main_v321 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S65536x100, .f32⟩) main_call21_v0) (broadcastInDim S65536x100 ![] bcast_S_S65536x100),
    TRef.binary (TRef.of (T := ⟨S65536x100, .f32⟩) main_v321) (TRef.of (T := ⟨S65536x100, .f32⟩) main_call21_v0) (TRef.of (T := ⟨S65536x100, .f32⟩) main_v322) maximumf,
    unary main_arg5 main_v323 ((extractStridedSlice S1x100x64 ![10, 0, 0] · slices_S32x100x64_S1x100x64_10_0_0) : (⟨S32x100x64, .f32⟩ : BufTy).Contents (Elt F) → (⟨S1x100x64, .f32⟩ : BufTy).Contents (Elt F)),
    reshape main_v323 main_v324 rfl shapeCasts_S1x100x64_S100x64,
    binary main_v322 main_v324 main_v325 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v326 ((extractStridedSlice S1x64 ![10, 0] · slices_S32x64_S1x64_10_0) : (⟨S32x64, .f32⟩ : BufTy).Contents (Elt F) → (⟨S1x64, .f32⟩ : BufTy).Contents (Elt F)),
    reshape main_v326 main_v327 rfl shapeCasts_S1x64_S64,
    unary main_v327 main_v328 (broadcastInDim S1x64 ![1] bcast_S64_S1x64_1 : (⟨S64, .f32⟩ : BufTy).Contents (Elt F) → (⟨S1x64, .f32⟩ : BufTy).Contents (Elt F)),
    unary main_v328 main_v329 (broadcastInDim S65536x64 ![0, 1] bcast_S1x64_S65536x64_0_1 : (⟨S1x64, .f32⟩ : BufTy).Contents (Elt F) → (⟨S65536x64, .f32⟩ : BufTy).Contents (Elt F)),
    binary main_v325 main_v329 main_v330 (addf : (⟨S65536x64, .f32⟩ : BufTy).Contents (Elt F) → (⟨S65536x64, .f32⟩ : BufTy).Contents (Elt F) → (⟨S65536x64, .f32⟩ : BufTy).Contents (Elt F)),
    reshape main_v330 main_v331 rfl shapeCasts_S65536x64_S65536x8x8,
    binary main_v303 main_v331 main_v332 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 11 of the sample. -/
abbrev ops11 : List (HloOp τ sig (Elt F)) :=
  [ unary main_arg0 main_v333 ((extractStridedSlice S65536x16 ![0, 176] · slices_S65536x512_S65536x16_0_176) : (⟨S65536x512, .f32⟩ : BufTy).Contents (Elt F) → (⟨S65536x16, .f32⟩ : BufTy).Contents (Elt F)),
    unary main_arg1 main_v334 ((extractStridedSlice S1x16x100 ![11, 0, 0] · slices_S32x16x100_S1x16x100_11_0_0) : (⟨S32x16x100, .f32⟩ : BufTy).Contents (Elt F) → (⟨S1x16x100, .f32⟩ : BufTy).Contents (Elt F)),
    reshape main_v334 main_v335 rfl shapeCasts_S1x16x100_S16x100,
    binary main_v333 main_v335 main_v336 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v337 ((extractStridedSlice S1x100 ![11, 0] · slices_S32x100_S1x100_11_0) : (⟨S32x100, .f32⟩ : BufTy).Contents (Elt F) → (⟨S1x100, .f32⟩ : BufTy).Contents (Elt F)),
    reshape main_v337 main_v338 rfl shapeCasts_S1x100_S100,
    unary main_v338 main_v339 (broadcastInDim S1x100 ![1] bcast_S100_S1x100_1 : (⟨S100, .f32⟩ : BufTy).Contents (Elt F) → (⟨S1x100, .f32⟩ : BufTy).Contents (Elt F)),
    unary main_v339 main_v340 (broadcastInDim S65536x100 ![0, 1] bcast_S1x100_S65536x100_0_1 : (⟨S1x100, .f32⟩ : BufTy).Contents (Elt F) → (⟨S65536x100, .f32⟩ : BufTy).Contents (Elt F)),
    binary main_v336 main_v340 main_v341 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S65536x100, .f32⟩) main_call22_v0) (broadcastInDim S65536x100 ![] bcast_S_S65536x100),
    TRef.binary (TRef.of (T := ⟨S65536x100, .f32⟩) main_v341) (TRef.of (T := ⟨S65536x100, .f32⟩) main_call22_v0) (TRef.of (T := ⟨S65536x100, .f32⟩) main_v342) maximumf,
    unary main_arg3 main_v343 ((extractStridedSlice S1x100x100 ![11, 0, 0] · slices_S32x100x100_S1x100x100_11_0_0) : (⟨S32x100x100, .f32⟩ : BufTy).Contents (Elt F) → (⟨S1x100x100, .f32⟩ : BufTy).Contents (Elt F)),
    reshape main_v343 main_v344 rfl shapeCasts_S1x100x100_S100x100,
    binary main_v342 main_v344 main_v345 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v346 ((extractStridedSlice S1x100 ![11, 0] · slices_S32x100_S1x100_11_0) : (⟨S32x100, .f32⟩ : BufTy).Contents (Elt F) → (⟨S1x100, .f32⟩ : BufTy).Contents (Elt F)),
    reshape main_v346 main_v347 rfl shapeCasts_S1x100_S100,
    unary main_v347 main_v348 (broadcastInDim S1x100 ![1] bcast_S100_S1x100_1 : (⟨S100, .f32⟩ : BufTy).Contents (Elt F) → (⟨S1x100, .f32⟩ : BufTy).Contents (Elt F)),
    unary main_v348 main_v349 (broadcastInDim S65536x100 ![0, 1] bcast_S1x100_S65536x100_0_1 : (⟨S1x100, .f32⟩ : BufTy).Contents (Elt F) → (⟨S65536x100, .f32⟩ : BufTy).Contents (Elt F)),
    binary main_v345 main_v349 main_v350 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S65536x100, .f32⟩) main_call23_v0) (broadcastInDim S65536x100 ![] bcast_S_S65536x100),
    TRef.binary (TRef.of (T := ⟨S65536x100, .f32⟩) main_v350) (TRef.of (T := ⟨S65536x100, .f32⟩) main_call23_v0) (TRef.of (T := ⟨S65536x100, .f32⟩) main_v351) maximumf,
    unary main_arg5 main_v352 ((extractStridedSlice S1x100x64 ![11, 0, 0] · slices_S32x100x64_S1x100x64_11_0_0) : (⟨S32x100x64, .f32⟩ : BufTy).Contents (Elt F) → (⟨S1x100x64, .f32⟩ : BufTy).Contents (Elt F)),
    reshape main_v352 main_v353 rfl shapeCasts_S1x100x64_S100x64,
    binary main_v351 main_v353 main_v354 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v355 ((extractStridedSlice S1x64 ![11, 0] · slices_S32x64_S1x64_11_0) : (⟨S32x64, .f32⟩ : BufTy).Contents (Elt F) → (⟨S1x64, .f32⟩ : BufTy).Contents (Elt F)),
    reshape main_v355 main_v356 rfl shapeCasts_S1x64_S64,
    unary main_v356 main_v357 (broadcastInDim S1x64 ![1] bcast_S64_S1x64_1 : (⟨S64, .f32⟩ : BufTy).Contents (Elt F) → (⟨S1x64, .f32⟩ : BufTy).Contents (Elt F)),
    unary main_v357 main_v358 (broadcastInDim S65536x64 ![0, 1] bcast_S1x64_S65536x64_0_1 : (⟨S1x64, .f32⟩ : BufTy).Contents (Elt F) → (⟨S65536x64, .f32⟩ : BufTy).Contents (Elt F)),
    binary main_v354 main_v358 main_v359 (addf : (⟨S65536x64, .f32⟩ : BufTy).Contents (Elt F) → (⟨S65536x64, .f32⟩ : BufTy).Contents (Elt F) → (⟨S65536x64, .f32⟩ : BufTy).Contents (Elt F)),
    reshape main_v359 main_v360 rfl shapeCasts_S65536x64_S65536x8x8,
    binary main_v332 main_v360 main_v361 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 12 of the sample. -/
abbrev ops12 : List (HloOp τ sig (Elt F)) :=
  [ unary main_arg0 main_v362 ((extractStridedSlice S65536x16 ![0, 192] · slices_S65536x512_S65536x16_0_192) : (⟨S65536x512, .f32⟩ : BufTy).Contents (Elt F) → (⟨S65536x16, .f32⟩ : BufTy).Contents (Elt F)),
    unary main_arg1 main_v363 ((extractStridedSlice S1x16x100 ![12, 0, 0] · slices_S32x16x100_S1x16x100_12_0_0) : (⟨S32x16x100, .f32⟩ : BufTy).Contents (Elt F) → (⟨S1x16x100, .f32⟩ : BufTy).Contents (Elt F)),
    reshape main_v363 main_v364 rfl shapeCasts_S1x16x100_S16x100,
    binary main_v362 main_v364 main_v365 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v366 ((extractStridedSlice S1x100 ![12, 0] · slices_S32x100_S1x100_12_0) : (⟨S32x100, .f32⟩ : BufTy).Contents (Elt F) → (⟨S1x100, .f32⟩ : BufTy).Contents (Elt F)),
    reshape main_v366 main_v367 rfl shapeCasts_S1x100_S100,
    unary main_v367 main_v368 (broadcastInDim S1x100 ![1] bcast_S100_S1x100_1 : (⟨S100, .f32⟩ : BufTy).Contents (Elt F) → (⟨S1x100, .f32⟩ : BufTy).Contents (Elt F)),
    unary main_v368 main_v369 (broadcastInDim S65536x100 ![0, 1] bcast_S1x100_S65536x100_0_1 : (⟨S1x100, .f32⟩ : BufTy).Contents (Elt F) → (⟨S65536x100, .f32⟩ : BufTy).Contents (Elt F)),
    binary main_v365 main_v369 main_v370 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call24_cst) (constant S_ .f32 0x00000000#32),
    TRef.unary (TRef.of (T := ⟨S_, .f32⟩) main_call24_cst) (TRef.of (T := ⟨S65536x100, .f32⟩) main_call24_v0) (broadcastInDim S65536x100 ![] bcast_S_S65536x100),
    TRef.binary (TRef.of (T := ⟨S65536x100, .f32⟩) main_v370) (TRef.of (T := ⟨S65536x100, .f32⟩) main_call24_v0) (TRef.of (T := ⟨S65536x100, .f32⟩) main_v371) maximumf,
    unary main_arg3 main_v372 ((extractStridedSlice S1x100x100 ![12, 0, 0] · slices_S32x100x100_S1x100x100_12_0_0) : (⟨S32x100x100, .f32⟩ : BufTy).Contents (Elt F) → (⟨S1x100x100, .f32⟩ : BufTy).Contents (Elt F)),
    reshape main_v372 main_v373 rfl shapeCasts_S1x100x100_S100x100,
    binary main_v371 main_v373 main_v374 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v375 ((extractStridedSlice S1x100 ![12, 0] · slices_S32x100_S1x100_12_0) : (⟨S32x100, .f32⟩ : BufTy).Contents (Elt F) → (⟨S1x100, .f32⟩ : BufTy).Contents (Elt F)),
    reshape main_v375 main_v376 rfl shapeCasts_S1x100_S100,
    unary main_v376 main_v377 (broadcastInDim S1x100 ![1] bcast_S100_S1x100_1 : (⟨S100, .f32⟩ : BufTy).Contents (Elt F) → (⟨S1x100, .f32⟩ : BufTy).Contents (Elt F)),
    unary main_v377 main_v378 (broadcastInDim S65536x100 ![0, 1] bcast_S1x100_S65536x100_0_1 : (⟨S1x100, .f32⟩ : BufTy).Contents (Elt F) → (⟨S65536x100, .f32⟩ : BufTy).Contents (Elt F)),
    binary main_v374 main_v378 main_v379 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S65536x100, .f32⟩) main_call25_v0) (broadcastInDim S65536x100 ![] bcast_S_S65536x100),
    TRef.binary (TRef.of (T := ⟨S65536x100, .f32⟩) main_v379) (TRef.of (T := ⟨S65536x100, .f32⟩) main_call25_v0) (TRef.of (T := ⟨S65536x100, .f32⟩) main_v380) maximumf,
    unary main_arg5 main_v381 ((extractStridedSlice S1x100x64 ![12, 0, 0] · slices_S32x100x64_S1x100x64_12_0_0) : (⟨S32x100x64, .f32⟩ : BufTy).Contents (Elt F) → (⟨S1x100x64, .f32⟩ : BufTy).Contents (Elt F)),
    reshape main_v381 main_v382 rfl shapeCasts_S1x100x64_S100x64,
    binary main_v380 main_v382 main_v383 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v384 ((extractStridedSlice S1x64 ![12, 0] · slices_S32x64_S1x64_12_0) : (⟨S32x64, .f32⟩ : BufTy).Contents (Elt F) → (⟨S1x64, .f32⟩ : BufTy).Contents (Elt F)),
    reshape main_v384 main_v385 rfl shapeCasts_S1x64_S64,
    unary main_v385 main_v386 (broadcastInDim S1x64 ![1] bcast_S64_S1x64_1 : (⟨S64, .f32⟩ : BufTy).Contents (Elt F) → (⟨S1x64, .f32⟩ : BufTy).Contents (Elt F)),
    unary main_v386 main_v387 (broadcastInDim S65536x64 ![0, 1] bcast_S1x64_S65536x64_0_1 : (⟨S1x64, .f32⟩ : BufTy).Contents (Elt F) → (⟨S65536x64, .f32⟩ : BufTy).Contents (Elt F)),
    binary main_v383 main_v387 main_v388 (addf : (⟨S65536x64, .f32⟩ : BufTy).Contents (Elt F) → (⟨S65536x64, .f32⟩ : BufTy).Contents (Elt F) → (⟨S65536x64, .f32⟩ : BufTy).Contents (Elt F)),
    reshape main_v388 main_v389 rfl shapeCasts_S65536x64_S65536x8x8,
    binary main_v361 main_v389 main_v390 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 13 of the sample. -/
abbrev ops13 : List (HloOp τ sig (Elt F)) :=
  [ unary main_arg0 main_v391 ((extractStridedSlice S65536x16 ![0, 208] · slices_S65536x512_S65536x16_0_208) : (⟨S65536x512, .f32⟩ : BufTy).Contents (Elt F) → (⟨S65536x16, .f32⟩ : BufTy).Contents (Elt F)),
    unary main_arg1 main_v392 ((extractStridedSlice S1x16x100 ![13, 0, 0] · slices_S32x16x100_S1x16x100_13_0_0) : (⟨S32x16x100, .f32⟩ : BufTy).Contents (Elt F) → (⟨S1x16x100, .f32⟩ : BufTy).Contents (Elt F)),
    reshape main_v392 main_v393 rfl shapeCasts_S1x16x100_S16x100,
    binary main_v391 main_v393 main_v394 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v395 ((extractStridedSlice S1x100 ![13, 0] · slices_S32x100_S1x100_13_0) : (⟨S32x100, .f32⟩ : BufTy).Contents (Elt F) → (⟨S1x100, .f32⟩ : BufTy).Contents (Elt F)),
    reshape main_v395 main_v396 rfl shapeCasts_S1x100_S100,
    unary main_v396 main_v397 (broadcastInDim S1x100 ![1] bcast_S100_S1x100_1 : (⟨S100, .f32⟩ : BufTy).Contents (Elt F) → (⟨S1x100, .f32⟩ : BufTy).Contents (Elt F)),
    unary main_v397 main_v398 (broadcastInDim S65536x100 ![0, 1] bcast_S1x100_S65536x100_0_1 : (⟨S1x100, .f32⟩ : BufTy).Contents (Elt F) → (⟨S65536x100, .f32⟩ : BufTy).Contents (Elt F)),
    binary main_v394 main_v398 main_v399 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call26_cst) (constant S_ .f32 0x00000000#32),
    TRef.unary (TRef.of (T := ⟨S_, .f32⟩) main_call26_cst) (TRef.of (T := ⟨S65536x100, .f32⟩) main_call26_v0) (broadcastInDim S65536x100 ![] bcast_S_S65536x100),
    TRef.binary (TRef.of (T := ⟨S65536x100, .f32⟩) main_v399) (TRef.of (T := ⟨S65536x100, .f32⟩) main_call26_v0) (TRef.of (T := ⟨S65536x100, .f32⟩) main_v400) maximumf,
    unary main_arg3 main_v401 ((extractStridedSlice S1x100x100 ![13, 0, 0] · slices_S32x100x100_S1x100x100_13_0_0) : (⟨S32x100x100, .f32⟩ : BufTy).Contents (Elt F) → (⟨S1x100x100, .f32⟩ : BufTy).Contents (Elt F)),
    reshape main_v401 main_v402 rfl shapeCasts_S1x100x100_S100x100,
    binary main_v400 main_v402 main_v403 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v404 ((extractStridedSlice S1x100 ![13, 0] · slices_S32x100_S1x100_13_0) : (⟨S32x100, .f32⟩ : BufTy).Contents (Elt F) → (⟨S1x100, .f32⟩ : BufTy).Contents (Elt F)),
    reshape main_v404 main_v405 rfl shapeCasts_S1x100_S100,
    unary main_v405 main_v406 (broadcastInDim S1x100 ![1] bcast_S100_S1x100_1 : (⟨S100, .f32⟩ : BufTy).Contents (Elt F) → (⟨S1x100, .f32⟩ : BufTy).Contents (Elt F)),
    unary main_v406 main_v407 (broadcastInDim S65536x100 ![0, 1] bcast_S1x100_S65536x100_0_1 : (⟨S1x100, .f32⟩ : BufTy).Contents (Elt F) → (⟨S65536x100, .f32⟩ : BufTy).Contents (Elt F)),
    binary main_v403 main_v407 main_v408 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call27_cst) (constant S_ .f32 0x00000000#32),
    TRef.unary (TRef.of (T := ⟨S_, .f32⟩) main_call27_cst) (TRef.of (T := ⟨S65536x100, .f32⟩) main_call27_v0) (broadcastInDim S65536x100 ![] bcast_S_S65536x100),
    TRef.binary (TRef.of (T := ⟨S65536x100, .f32⟩) main_v408) (TRef.of (T := ⟨S65536x100, .f32⟩) main_call27_v0) (TRef.of (T := ⟨S65536x100, .f32⟩) main_v409) maximumf,
    unary main_arg5 main_v410 ((extractStridedSlice S1x100x64 ![13, 0, 0] · slices_S32x100x64_S1x100x64_13_0_0) : (⟨S32x100x64, .f32⟩ : BufTy).Contents (Elt F) → (⟨S1x100x64, .f32⟩ : BufTy).Contents (Elt F)),
    reshape main_v410 main_v411 rfl shapeCasts_S1x100x64_S100x64,
    binary main_v409 main_v411 main_v412 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v413 ((extractStridedSlice S1x64 ![13, 0] · slices_S32x64_S1x64_13_0) : (⟨S32x64, .f32⟩ : BufTy).Contents (Elt F) → (⟨S1x64, .f32⟩ : BufTy).Contents (Elt F)),
    reshape main_v413 main_v414 rfl shapeCasts_S1x64_S64,
    unary main_v414 main_v415 (broadcastInDim S1x64 ![1] bcast_S64_S1x64_1 : (⟨S64, .f32⟩ : BufTy).Contents (Elt F) → (⟨S1x64, .f32⟩ : BufTy).Contents (Elt F)),
    unary main_v415 main_v416 (broadcastInDim S65536x64 ![0, 1] bcast_S1x64_S65536x64_0_1 : (⟨S1x64, .f32⟩ : BufTy).Contents (Elt F) → (⟨S65536x64, .f32⟩ : BufTy).Contents (Elt F)),
    binary main_v412 main_v416 main_v417 (addf : (⟨S65536x64, .f32⟩ : BufTy).Contents (Elt F) → (⟨S65536x64, .f32⟩ : BufTy).Contents (Elt F) → (⟨S65536x64, .f32⟩ : BufTy).Contents (Elt F)),
    reshape main_v417 main_v418 rfl shapeCasts_S65536x64_S65536x8x8,
    binary main_v390 main_v418 main_v419 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 14 of the sample. -/
abbrev ops14 : List (HloOp τ sig (Elt F)) :=
  [ unary main_arg0 main_v420 ((extractStridedSlice S65536x16 ![0, 224] · slices_S65536x512_S65536x16_0_224) : (⟨S65536x512, .f32⟩ : BufTy).Contents (Elt F) → (⟨S65536x16, .f32⟩ : BufTy).Contents (Elt F)),
    unary main_arg1 main_v421 ((extractStridedSlice S1x16x100 ![14, 0, 0] · slices_S32x16x100_S1x16x100_14_0_0) : (⟨S32x16x100, .f32⟩ : BufTy).Contents (Elt F) → (⟨S1x16x100, .f32⟩ : BufTy).Contents (Elt F)),
    reshape main_v421 main_v422 rfl shapeCasts_S1x16x100_S16x100,
    binary main_v420 main_v422 main_v423 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v424 ((extractStridedSlice S1x100 ![14, 0] · slices_S32x100_S1x100_14_0) : (⟨S32x100, .f32⟩ : BufTy).Contents (Elt F) → (⟨S1x100, .f32⟩ : BufTy).Contents (Elt F)),
    reshape main_v424 main_v425 rfl shapeCasts_S1x100_S100,
    unary main_v425 main_v426 (broadcastInDim S1x100 ![1] bcast_S100_S1x100_1 : (⟨S100, .f32⟩ : BufTy).Contents (Elt F) → (⟨S1x100, .f32⟩ : BufTy).Contents (Elt F)),
    unary main_v426 main_v427 (broadcastInDim S65536x100 ![0, 1] bcast_S1x100_S65536x100_0_1 : (⟨S1x100, .f32⟩ : BufTy).Contents (Elt F) → (⟨S65536x100, .f32⟩ : BufTy).Contents (Elt F)),
    binary main_v423 main_v427 main_v428 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S65536x100, .f32⟩) main_call28_v0) (broadcastInDim S65536x100 ![] bcast_S_S65536x100),
    TRef.binary (TRef.of (T := ⟨S65536x100, .f32⟩) main_v428) (TRef.of (T := ⟨S65536x100, .f32⟩) main_call28_v0) (TRef.of (T := ⟨S65536x100, .f32⟩) main_v429) maximumf,
    unary main_arg3 main_v430 ((extractStridedSlice S1x100x100 ![14, 0, 0] · slices_S32x100x100_S1x100x100_14_0_0) : (⟨S32x100x100, .f32⟩ : BufTy).Contents (Elt F) → (⟨S1x100x100, .f32⟩ : BufTy).Contents (Elt F)),
    reshape main_v430 main_v431 rfl shapeCasts_S1x100x100_S100x100,
    binary main_v429 main_v431 main_v432 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v433 ((extractStridedSlice S1x100 ![14, 0] · slices_S32x100_S1x100_14_0) : (⟨S32x100, .f32⟩ : BufTy).Contents (Elt F) → (⟨S1x100, .f32⟩ : BufTy).Contents (Elt F)),
    reshape main_v433 main_v434 rfl shapeCasts_S1x100_S100,
    unary main_v434 main_v435 (broadcastInDim S1x100 ![1] bcast_S100_S1x100_1 : (⟨S100, .f32⟩ : BufTy).Contents (Elt F) → (⟨S1x100, .f32⟩ : BufTy).Contents (Elt F)),
    unary main_v435 main_v436 (broadcastInDim S65536x100 ![0, 1] bcast_S1x100_S65536x100_0_1 : (⟨S1x100, .f32⟩ : BufTy).Contents (Elt F) → (⟨S65536x100, .f32⟩ : BufTy).Contents (Elt F)),
    binary main_v432 main_v436 main_v437 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S65536x100, .f32⟩) main_call29_v0) (broadcastInDim S65536x100 ![] bcast_S_S65536x100),
    TRef.binary (TRef.of (T := ⟨S65536x100, .f32⟩) main_v437) (TRef.of (T := ⟨S65536x100, .f32⟩) main_call29_v0) (TRef.of (T := ⟨S65536x100, .f32⟩) main_v438) maximumf,
    unary main_arg5 main_v439 ((extractStridedSlice S1x100x64 ![14, 0, 0] · slices_S32x100x64_S1x100x64_14_0_0) : (⟨S32x100x64, .f32⟩ : BufTy).Contents (Elt F) → (⟨S1x100x64, .f32⟩ : BufTy).Contents (Elt F)),
    reshape main_v439 main_v440 rfl shapeCasts_S1x100x64_S100x64,
    binary main_v438 main_v440 main_v441 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v442 ((extractStridedSlice S1x64 ![14, 0] · slices_S32x64_S1x64_14_0) : (⟨S32x64, .f32⟩ : BufTy).Contents (Elt F) → (⟨S1x64, .f32⟩ : BufTy).Contents (Elt F)),
    reshape main_v442 main_v443 rfl shapeCasts_S1x64_S64,
    unary main_v443 main_v444 (broadcastInDim S1x64 ![1] bcast_S64_S1x64_1 : (⟨S64, .f32⟩ : BufTy).Contents (Elt F) → (⟨S1x64, .f32⟩ : BufTy).Contents (Elt F)),
    unary main_v444 main_v445 (broadcastInDim S65536x64 ![0, 1] bcast_S1x64_S65536x64_0_1 : (⟨S1x64, .f32⟩ : BufTy).Contents (Elt F) → (⟨S65536x64, .f32⟩ : BufTy).Contents (Elt F)),
    binary main_v441 main_v445 main_v446 (addf : (⟨S65536x64, .f32⟩ : BufTy).Contents (Elt F) → (⟨S65536x64, .f32⟩ : BufTy).Contents (Elt F) → (⟨S65536x64, .f32⟩ : BufTy).Contents (Elt F)),
    reshape main_v446 main_v447 rfl shapeCasts_S65536x64_S65536x8x8,
    binary main_v419 main_v447 main_v448 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 15 of the sample. -/
abbrev ops15 : List (HloOp τ sig (Elt F)) :=
  [ unary main_arg0 main_v449 ((extractStridedSlice S65536x16 ![0, 240] · slices_S65536x512_S65536x16_0_240) : (⟨S65536x512, .f32⟩ : BufTy).Contents (Elt F) → (⟨S65536x16, .f32⟩ : BufTy).Contents (Elt F)),
    unary main_arg1 main_v450 ((extractStridedSlice S1x16x100 ![15, 0, 0] · slices_S32x16x100_S1x16x100_15_0_0) : (⟨S32x16x100, .f32⟩ : BufTy).Contents (Elt F) → (⟨S1x16x100, .f32⟩ : BufTy).Contents (Elt F)),
    reshape main_v450 main_v451 rfl shapeCasts_S1x16x100_S16x100,
    binary main_v449 main_v451 main_v452 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v453 ((extractStridedSlice S1x100 ![15, 0] · slices_S32x100_S1x100_15_0) : (⟨S32x100, .f32⟩ : BufTy).Contents (Elt F) → (⟨S1x100, .f32⟩ : BufTy).Contents (Elt F)),
    reshape main_v453 main_v454 rfl shapeCasts_S1x100_S100,
    unary main_v454 main_v455 (broadcastInDim S1x100 ![1] bcast_S100_S1x100_1 : (⟨S100, .f32⟩ : BufTy).Contents (Elt F) → (⟨S1x100, .f32⟩ : BufTy).Contents (Elt F)),
    unary main_v455 main_v456 (broadcastInDim S65536x100 ![0, 1] bcast_S1x100_S65536x100_0_1 : (⟨S1x100, .f32⟩ : BufTy).Contents (Elt F) → (⟨S65536x100, .f32⟩ : BufTy).Contents (Elt F)),
    binary main_v452 main_v456 main_v457 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call30_cst) (constant S_ .f32 0x00000000#32),
    TRef.unary (TRef.of (T := ⟨S_, .f32⟩) main_call30_cst) (TRef.of (T := ⟨S65536x100, .f32⟩) main_call30_v0) (broadcastInDim S65536x100 ![] bcast_S_S65536x100),
    TRef.binary (TRef.of (T := ⟨S65536x100, .f32⟩) main_v457) (TRef.of (T := ⟨S65536x100, .f32⟩) main_call30_v0) (TRef.of (T := ⟨S65536x100, .f32⟩) main_v458) maximumf,
    unary main_arg3 main_v459 ((extractStridedSlice S1x100x100 ![15, 0, 0] · slices_S32x100x100_S1x100x100_15_0_0) : (⟨S32x100x100, .f32⟩ : BufTy).Contents (Elt F) → (⟨S1x100x100, .f32⟩ : BufTy).Contents (Elt F)),
    reshape main_v459 main_v460 rfl shapeCasts_S1x100x100_S100x100,
    binary main_v458 main_v460 main_v461 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v462 ((extractStridedSlice S1x100 ![15, 0] · slices_S32x100_S1x100_15_0) : (⟨S32x100, .f32⟩ : BufTy).Contents (Elt F) → (⟨S1x100, .f32⟩ : BufTy).Contents (Elt F)),
    reshape main_v462 main_v463 rfl shapeCasts_S1x100_S100,
    unary main_v463 main_v464 (broadcastInDim S1x100 ![1] bcast_S100_S1x100_1 : (⟨S100, .f32⟩ : BufTy).Contents (Elt F) → (⟨S1x100, .f32⟩ : BufTy).Contents (Elt F)),
    unary main_v464 main_v465 (broadcastInDim S65536x100 ![0, 1] bcast_S1x100_S65536x100_0_1 : (⟨S1x100, .f32⟩ : BufTy).Contents (Elt F) → (⟨S65536x100, .f32⟩ : BufTy).Contents (Elt F)),
    binary main_v461 main_v465 main_v466 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call31_cst) (constant S_ .f32 0x00000000#32),
    TRef.unary (TRef.of (T := ⟨S_, .f32⟩) main_call31_cst) (TRef.of (T := ⟨S65536x100, .f32⟩) main_call31_v0) (broadcastInDim S65536x100 ![] bcast_S_S65536x100),
    TRef.binary (TRef.of (T := ⟨S65536x100, .f32⟩) main_v466) (TRef.of (T := ⟨S65536x100, .f32⟩) main_call31_v0) (TRef.of (T := ⟨S65536x100, .f32⟩) main_v467) maximumf,
    unary main_arg5 main_v468 ((extractStridedSlice S1x100x64 ![15, 0, 0] · slices_S32x100x64_S1x100x64_15_0_0) : (⟨S32x100x64, .f32⟩ : BufTy).Contents (Elt F) → (⟨S1x100x64, .f32⟩ : BufTy).Contents (Elt F)),
    reshape main_v468 main_v469 rfl shapeCasts_S1x100x64_S100x64,
    binary main_v467 main_v469 main_v470 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v471 ((extractStridedSlice S1x64 ![15, 0] · slices_S32x64_S1x64_15_0) : (⟨S32x64, .f32⟩ : BufTy).Contents (Elt F) → (⟨S1x64, .f32⟩ : BufTy).Contents (Elt F)),
    reshape main_v471 main_v472 rfl shapeCasts_S1x64_S64,
    unary main_v472 main_v473 (broadcastInDim S1x64 ![1] bcast_S64_S1x64_1 : (⟨S64, .f32⟩ : BufTy).Contents (Elt F) → (⟨S1x64, .f32⟩ : BufTy).Contents (Elt F)),
    unary main_v473 main_v474 (broadcastInDim S65536x64 ![0, 1] bcast_S1x64_S65536x64_0_1 : (⟨S1x64, .f32⟩ : BufTy).Contents (Elt F) → (⟨S65536x64, .f32⟩ : BufTy).Contents (Elt F)),
    binary main_v470 main_v474 main_v475 (addf : (⟨S65536x64, .f32⟩ : BufTy).Contents (Elt F) → (⟨S65536x64, .f32⟩ : BufTy).Contents (Elt F) → (⟨S65536x64, .f32⟩ : BufTy).Contents (Elt F)),
    reshape main_v475 main_v476 rfl shapeCasts_S65536x64_S65536x8x8,
    binary main_v448 main_v476 main_v477 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 16 of the sample. -/
abbrev ops16 : List (HloOp τ sig (Elt F)) :=
  [ unary main_arg0 main_v478 ((extractStridedSlice S65536x16 ![0, 256] · slices_S65536x512_S65536x16_0_256) : (⟨S65536x512, .f32⟩ : BufTy).Contents (Elt F) → (⟨S65536x16, .f32⟩ : BufTy).Contents (Elt F)),
    unary main_arg1 main_v479 ((extractStridedSlice S1x16x100 ![16, 0, 0] · slices_S32x16x100_S1x16x100_16_0_0) : (⟨S32x16x100, .f32⟩ : BufTy).Contents (Elt F) → (⟨S1x16x100, .f32⟩ : BufTy).Contents (Elt F)),
    reshape main_v479 main_v480 rfl shapeCasts_S1x16x100_S16x100,
    binary main_v478 main_v480 main_v481 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v482 ((extractStridedSlice S1x100 ![16, 0] · slices_S32x100_S1x100_16_0) : (⟨S32x100, .f32⟩ : BufTy).Contents (Elt F) → (⟨S1x100, .f32⟩ : BufTy).Contents (Elt F)),
    reshape main_v482 main_v483 rfl shapeCasts_S1x100_S100,
    unary main_v483 main_v484 (broadcastInDim S1x100 ![1] bcast_S100_S1x100_1 : (⟨S100, .f32⟩ : BufTy).Contents (Elt F) → (⟨S1x100, .f32⟩ : BufTy).Contents (Elt F)),
    unary main_v484 main_v485 (broadcastInDim S65536x100 ![0, 1] bcast_S1x100_S65536x100_0_1 : (⟨S1x100, .f32⟩ : BufTy).Contents (Elt F) → (⟨S65536x100, .f32⟩ : BufTy).Contents (Elt F)),
    binary main_v481 main_v485 main_v486 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call32_cst) (constant S_ .f32 0x00000000#32),
    TRef.unary (TRef.of (T := ⟨S_, .f32⟩) main_call32_cst) (TRef.of (T := ⟨S65536x100, .f32⟩) main_call32_v0) (broadcastInDim S65536x100 ![] bcast_S_S65536x100),
    TRef.binary (TRef.of (T := ⟨S65536x100, .f32⟩) main_v486) (TRef.of (T := ⟨S65536x100, .f32⟩) main_call32_v0) (TRef.of (T := ⟨S65536x100, .f32⟩) main_v487) maximumf,
    unary main_arg3 main_v488 ((extractStridedSlice S1x100x100 ![16, 0, 0] · slices_S32x100x100_S1x100x100_16_0_0) : (⟨S32x100x100, .f32⟩ : BufTy).Contents (Elt F) → (⟨S1x100x100, .f32⟩ : BufTy).Contents (Elt F)),
    reshape main_v488 main_v489 rfl shapeCasts_S1x100x100_S100x100,
    binary main_v487 main_v489 main_v490 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v491 ((extractStridedSlice S1x100 ![16, 0] · slices_S32x100_S1x100_16_0) : (⟨S32x100, .f32⟩ : BufTy).Contents (Elt F) → (⟨S1x100, .f32⟩ : BufTy).Contents (Elt F)),
    reshape main_v491 main_v492 rfl shapeCasts_S1x100_S100,
    unary main_v492 main_v493 (broadcastInDim S1x100 ![1] bcast_S100_S1x100_1 : (⟨S100, .f32⟩ : BufTy).Contents (Elt F) → (⟨S1x100, .f32⟩ : BufTy).Contents (Elt F)),
    unary main_v493 main_v494 (broadcastInDim S65536x100 ![0, 1] bcast_S1x100_S65536x100_0_1 : (⟨S1x100, .f32⟩ : BufTy).Contents (Elt F) → (⟨S65536x100, .f32⟩ : BufTy).Contents (Elt F)),
    binary main_v490 main_v494 main_v495 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call33_cst) (constant S_ .f32 0x00000000#32),
    TRef.unary (TRef.of (T := ⟨S_, .f32⟩) main_call33_cst) (TRef.of (T := ⟨S65536x100, .f32⟩) main_call33_v0) (broadcastInDim S65536x100 ![] bcast_S_S65536x100),
    TRef.binary (TRef.of (T := ⟨S65536x100, .f32⟩) main_v495) (TRef.of (T := ⟨S65536x100, .f32⟩) main_call33_v0) (TRef.of (T := ⟨S65536x100, .f32⟩) main_v496) maximumf,
    unary main_arg5 main_v497 ((extractStridedSlice S1x100x64 ![16, 0, 0] · slices_S32x100x64_S1x100x64_16_0_0) : (⟨S32x100x64, .f32⟩ : BufTy).Contents (Elt F) → (⟨S1x100x64, .f32⟩ : BufTy).Contents (Elt F)),
    reshape main_v497 main_v498 rfl shapeCasts_S1x100x64_S100x64,
    binary main_v496 main_v498 main_v499 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v500 ((extractStridedSlice S1x64 ![16, 0] · slices_S32x64_S1x64_16_0) : (⟨S32x64, .f32⟩ : BufTy).Contents (Elt F) → (⟨S1x64, .f32⟩ : BufTy).Contents (Elt F)),
    reshape main_v500 main_v501 rfl shapeCasts_S1x64_S64,
    unary main_v501 main_v502 (broadcastInDim S1x64 ![1] bcast_S64_S1x64_1 : (⟨S64, .f32⟩ : BufTy).Contents (Elt F) → (⟨S1x64, .f32⟩ : BufTy).Contents (Elt F)),
    unary main_v502 main_v503 (broadcastInDim S65536x64 ![0, 1] bcast_S1x64_S65536x64_0_1 : (⟨S1x64, .f32⟩ : BufTy).Contents (Elt F) → (⟨S65536x64, .f32⟩ : BufTy).Contents (Elt F)),
    binary main_v499 main_v503 main_v504 (addf : (⟨S65536x64, .f32⟩ : BufTy).Contents (Elt F) → (⟨S65536x64, .f32⟩ : BufTy).Contents (Elt F) → (⟨S65536x64, .f32⟩ : BufTy).Contents (Elt F)),
    reshape main_v504 main_v505 rfl shapeCasts_S65536x64_S65536x8x8,
    binary main_v477 main_v505 main_v506 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 17 of the sample. -/
abbrev ops17 : List (HloOp τ sig (Elt F)) :=
  [ unary main_arg0 main_v507 ((extractStridedSlice S65536x16 ![0, 272] · slices_S65536x512_S65536x16_0_272) : (⟨S65536x512, .f32⟩ : BufTy).Contents (Elt F) → (⟨S65536x16, .f32⟩ : BufTy).Contents (Elt F)),
    unary main_arg1 main_v508 ((extractStridedSlice S1x16x100 ![17, 0, 0] · slices_S32x16x100_S1x16x100_17_0_0) : (⟨S32x16x100, .f32⟩ : BufTy).Contents (Elt F) → (⟨S1x16x100, .f32⟩ : BufTy).Contents (Elt F)),
    reshape main_v508 main_v509 rfl shapeCasts_S1x16x100_S16x100,
    binary main_v507 main_v509 main_v510 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v511 ((extractStridedSlice S1x100 ![17, 0] · slices_S32x100_S1x100_17_0) : (⟨S32x100, .f32⟩ : BufTy).Contents (Elt F) → (⟨S1x100, .f32⟩ : BufTy).Contents (Elt F)),
    reshape main_v511 main_v512 rfl shapeCasts_S1x100_S100,
    unary main_v512 main_v513 (broadcastInDim S1x100 ![1] bcast_S100_S1x100_1 : (⟨S100, .f32⟩ : BufTy).Contents (Elt F) → (⟨S1x100, .f32⟩ : BufTy).Contents (Elt F)),
    unary main_v513 main_v514 (broadcastInDim S65536x100 ![0, 1] bcast_S1x100_S65536x100_0_1 : (⟨S1x100, .f32⟩ : BufTy).Contents (Elt F) → (⟨S65536x100, .f32⟩ : BufTy).Contents (Elt F)),
    binary main_v510 main_v514 main_v515 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call34_cst) (constant S_ .f32 0x00000000#32),
    TRef.unary (TRef.of (T := ⟨S_, .f32⟩) main_call34_cst) (TRef.of (T := ⟨S65536x100, .f32⟩) main_call34_v0) (broadcastInDim S65536x100 ![] bcast_S_S65536x100),
    TRef.binary (TRef.of (T := ⟨S65536x100, .f32⟩) main_v515) (TRef.of (T := ⟨S65536x100, .f32⟩) main_call34_v0) (TRef.of (T := ⟨S65536x100, .f32⟩) main_v516) maximumf,
    unary main_arg3 main_v517 ((extractStridedSlice S1x100x100 ![17, 0, 0] · slices_S32x100x100_S1x100x100_17_0_0) : (⟨S32x100x100, .f32⟩ : BufTy).Contents (Elt F) → (⟨S1x100x100, .f32⟩ : BufTy).Contents (Elt F)),
    reshape main_v517 main_v518 rfl shapeCasts_S1x100x100_S100x100,
    binary main_v516 main_v518 main_v519 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v520 ((extractStridedSlice S1x100 ![17, 0] · slices_S32x100_S1x100_17_0) : (⟨S32x100, .f32⟩ : BufTy).Contents (Elt F) → (⟨S1x100, .f32⟩ : BufTy).Contents (Elt F)),
    reshape main_v520 main_v521 rfl shapeCasts_S1x100_S100,
    unary main_v521 main_v522 (broadcastInDim S1x100 ![1] bcast_S100_S1x100_1 : (⟨S100, .f32⟩ : BufTy).Contents (Elt F) → (⟨S1x100, .f32⟩ : BufTy).Contents (Elt F)),
    unary main_v522 main_v523 (broadcastInDim S65536x100 ![0, 1] bcast_S1x100_S65536x100_0_1 : (⟨S1x100, .f32⟩ : BufTy).Contents (Elt F) → (⟨S65536x100, .f32⟩ : BufTy).Contents (Elt F)),
    binary main_v519 main_v523 main_v524 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call35_cst) (constant S_ .f32 0x00000000#32),
    TRef.unary (TRef.of (T := ⟨S_, .f32⟩) main_call35_cst) (TRef.of (T := ⟨S65536x100, .f32⟩) main_call35_v0) (broadcastInDim S65536x100 ![] bcast_S_S65536x100),
    TRef.binary (TRef.of (T := ⟨S65536x100, .f32⟩) main_v524) (TRef.of (T := ⟨S65536x100, .f32⟩) main_call35_v0) (TRef.of (T := ⟨S65536x100, .f32⟩) main_v525) maximumf,
    unary main_arg5 main_v526 ((extractStridedSlice S1x100x64 ![17, 0, 0] · slices_S32x100x64_S1x100x64_17_0_0) : (⟨S32x100x64, .f32⟩ : BufTy).Contents (Elt F) → (⟨S1x100x64, .f32⟩ : BufTy).Contents (Elt F)),
    reshape main_v526 main_v527 rfl shapeCasts_S1x100x64_S100x64,
    binary main_v525 main_v527 main_v528 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v529 ((extractStridedSlice S1x64 ![17, 0] · slices_S32x64_S1x64_17_0) : (⟨S32x64, .f32⟩ : BufTy).Contents (Elt F) → (⟨S1x64, .f32⟩ : BufTy).Contents (Elt F)),
    reshape main_v529 main_v530 rfl shapeCasts_S1x64_S64,
    unary main_v530 main_v531 (broadcastInDim S1x64 ![1] bcast_S64_S1x64_1 : (⟨S64, .f32⟩ : BufTy).Contents (Elt F) → (⟨S1x64, .f32⟩ : BufTy).Contents (Elt F)),
    unary main_v531 main_v532 (broadcastInDim S65536x64 ![0, 1] bcast_S1x64_S65536x64_0_1 : (⟨S1x64, .f32⟩ : BufTy).Contents (Elt F) → (⟨S65536x64, .f32⟩ : BufTy).Contents (Elt F)),
    binary main_v528 main_v532 main_v533 (addf : (⟨S65536x64, .f32⟩ : BufTy).Contents (Elt F) → (⟨S65536x64, .f32⟩ : BufTy).Contents (Elt F) → (⟨S65536x64, .f32⟩ : BufTy).Contents (Elt F)),
    reshape main_v533 main_v534 rfl shapeCasts_S65536x64_S65536x8x8,
    binary main_v506 main_v534 main_v535 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 18 of the sample. -/
abbrev ops18 : List (HloOp τ sig (Elt F)) :=
  [ unary main_arg0 main_v536 ((extractStridedSlice S65536x16 ![0, 288] · slices_S65536x512_S65536x16_0_288) : (⟨S65536x512, .f32⟩ : BufTy).Contents (Elt F) → (⟨S65536x16, .f32⟩ : BufTy).Contents (Elt F)),
    unary main_arg1 main_v537 ((extractStridedSlice S1x16x100 ![18, 0, 0] · slices_S32x16x100_S1x16x100_18_0_0) : (⟨S32x16x100, .f32⟩ : BufTy).Contents (Elt F) → (⟨S1x16x100, .f32⟩ : BufTy).Contents (Elt F)),
    reshape main_v537 main_v538 rfl shapeCasts_S1x16x100_S16x100,
    binary main_v536 main_v538 main_v539 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v540 ((extractStridedSlice S1x100 ![18, 0] · slices_S32x100_S1x100_18_0) : (⟨S32x100, .f32⟩ : BufTy).Contents (Elt F) → (⟨S1x100, .f32⟩ : BufTy).Contents (Elt F)),
    reshape main_v540 main_v541 rfl shapeCasts_S1x100_S100,
    unary main_v541 main_v542 (broadcastInDim S1x100 ![1] bcast_S100_S1x100_1 : (⟨S100, .f32⟩ : BufTy).Contents (Elt F) → (⟨S1x100, .f32⟩ : BufTy).Contents (Elt F)),
    unary main_v542 main_v543 (broadcastInDim S65536x100 ![0, 1] bcast_S1x100_S65536x100_0_1 : (⟨S1x100, .f32⟩ : BufTy).Contents (Elt F) → (⟨S65536x100, .f32⟩ : BufTy).Contents (Elt F)),
    binary main_v539 main_v543 main_v544 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call36_cst) (constant S_ .f32 0x00000000#32),
    TRef.unary (TRef.of (T := ⟨S_, .f32⟩) main_call36_cst) (TRef.of (T := ⟨S65536x100, .f32⟩) main_call36_v0) (broadcastInDim S65536x100 ![] bcast_S_S65536x100),
    TRef.binary (TRef.of (T := ⟨S65536x100, .f32⟩) main_v544) (TRef.of (T := ⟨S65536x100, .f32⟩) main_call36_v0) (TRef.of (T := ⟨S65536x100, .f32⟩) main_v545) maximumf,
    unary main_arg3 main_v546 ((extractStridedSlice S1x100x100 ![18, 0, 0] · slices_S32x100x100_S1x100x100_18_0_0) : (⟨S32x100x100, .f32⟩ : BufTy).Contents (Elt F) → (⟨S1x100x100, .f32⟩ : BufTy).Contents (Elt F)),
    reshape main_v546 main_v547 rfl shapeCasts_S1x100x100_S100x100,
    binary main_v545 main_v547 main_v548 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v549 ((extractStridedSlice S1x100 ![18, 0] · slices_S32x100_S1x100_18_0) : (⟨S32x100, .f32⟩ : BufTy).Contents (Elt F) → (⟨S1x100, .f32⟩ : BufTy).Contents (Elt F)),
    reshape main_v549 main_v550 rfl shapeCasts_S1x100_S100,
    unary main_v550 main_v551 (broadcastInDim S1x100 ![1] bcast_S100_S1x100_1 : (⟨S100, .f32⟩ : BufTy).Contents (Elt F) → (⟨S1x100, .f32⟩ : BufTy).Contents (Elt F)),
    unary main_v551 main_v552 (broadcastInDim S65536x100 ![0, 1] bcast_S1x100_S65536x100_0_1 : (⟨S1x100, .f32⟩ : BufTy).Contents (Elt F) → (⟨S65536x100, .f32⟩ : BufTy).Contents (Elt F)),
    binary main_v548 main_v552 main_v553 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call37_cst) (constant S_ .f32 0x00000000#32),
    TRef.unary (TRef.of (T := ⟨S_, .f32⟩) main_call37_cst) (TRef.of (T := ⟨S65536x100, .f32⟩) main_call37_v0) (broadcastInDim S65536x100 ![] bcast_S_S65536x100),
    TRef.binary (TRef.of (T := ⟨S65536x100, .f32⟩) main_v553) (TRef.of (T := ⟨S65536x100, .f32⟩) main_call37_v0) (TRef.of (T := ⟨S65536x100, .f32⟩) main_v554) maximumf,
    unary main_arg5 main_v555 ((extractStridedSlice S1x100x64 ![18, 0, 0] · slices_S32x100x64_S1x100x64_18_0_0) : (⟨S32x100x64, .f32⟩ : BufTy).Contents (Elt F) → (⟨S1x100x64, .f32⟩ : BufTy).Contents (Elt F)),
    reshape main_v555 main_v556 rfl shapeCasts_S1x100x64_S100x64,
    binary main_v554 main_v556 main_v557 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v558 ((extractStridedSlice S1x64 ![18, 0] · slices_S32x64_S1x64_18_0) : (⟨S32x64, .f32⟩ : BufTy).Contents (Elt F) → (⟨S1x64, .f32⟩ : BufTy).Contents (Elt F)),
    reshape main_v558 main_v559 rfl shapeCasts_S1x64_S64,
    unary main_v559 main_v560 (broadcastInDim S1x64 ![1] bcast_S64_S1x64_1 : (⟨S64, .f32⟩ : BufTy).Contents (Elt F) → (⟨S1x64, .f32⟩ : BufTy).Contents (Elt F)),
    unary main_v560 main_v561 (broadcastInDim S65536x64 ![0, 1] bcast_S1x64_S65536x64_0_1 : (⟨S1x64, .f32⟩ : BufTy).Contents (Elt F) → (⟨S65536x64, .f32⟩ : BufTy).Contents (Elt F)),
    binary main_v557 main_v561 main_v562 (addf : (⟨S65536x64, .f32⟩ : BufTy).Contents (Elt F) → (⟨S65536x64, .f32⟩ : BufTy).Contents (Elt F) → (⟨S65536x64, .f32⟩ : BufTy).Contents (Elt F)),
    reshape main_v562 main_v563 rfl shapeCasts_S65536x64_S65536x8x8,
    binary main_v535 main_v563 main_v564 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 19 of the sample. -/
abbrev ops19 : List (HloOp τ sig (Elt F)) :=
  [ unary main_arg0 main_v565 ((extractStridedSlice S65536x16 ![0, 304] · slices_S65536x512_S65536x16_0_304) : (⟨S65536x512, .f32⟩ : BufTy).Contents (Elt F) → (⟨S65536x16, .f32⟩ : BufTy).Contents (Elt F)),
    unary main_arg1 main_v566 ((extractStridedSlice S1x16x100 ![19, 0, 0] · slices_S32x16x100_S1x16x100_19_0_0) : (⟨S32x16x100, .f32⟩ : BufTy).Contents (Elt F) → (⟨S1x16x100, .f32⟩ : BufTy).Contents (Elt F)),
    reshape main_v566 main_v567 rfl shapeCasts_S1x16x100_S16x100,
    binary main_v565 main_v567 main_v568 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v569 ((extractStridedSlice S1x100 ![19, 0] · slices_S32x100_S1x100_19_0) : (⟨S32x100, .f32⟩ : BufTy).Contents (Elt F) → (⟨S1x100, .f32⟩ : BufTy).Contents (Elt F)),
    reshape main_v569 main_v570 rfl shapeCasts_S1x100_S100,
    unary main_v570 main_v571 (broadcastInDim S1x100 ![1] bcast_S100_S1x100_1 : (⟨S100, .f32⟩ : BufTy).Contents (Elt F) → (⟨S1x100, .f32⟩ : BufTy).Contents (Elt F)),
    unary main_v571 main_v572 (broadcastInDim S65536x100 ![0, 1] bcast_S1x100_S65536x100_0_1 : (⟨S1x100, .f32⟩ : BufTy).Contents (Elt F) → (⟨S65536x100, .f32⟩ : BufTy).Contents (Elt F)),
    binary main_v568 main_v572 main_v573 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call38_cst) (constant S_ .f32 0x00000000#32),
    TRef.unary (TRef.of (T := ⟨S_, .f32⟩) main_call38_cst) (TRef.of (T := ⟨S65536x100, .f32⟩) main_call38_v0) (broadcastInDim S65536x100 ![] bcast_S_S65536x100),
    TRef.binary (TRef.of (T := ⟨S65536x100, .f32⟩) main_v573) (TRef.of (T := ⟨S65536x100, .f32⟩) main_call38_v0) (TRef.of (T := ⟨S65536x100, .f32⟩) main_v574) maximumf,
    unary main_arg3 main_v575 ((extractStridedSlice S1x100x100 ![19, 0, 0] · slices_S32x100x100_S1x100x100_19_0_0) : (⟨S32x100x100, .f32⟩ : BufTy).Contents (Elt F) → (⟨S1x100x100, .f32⟩ : BufTy).Contents (Elt F)),
    reshape main_v575 main_v576 rfl shapeCasts_S1x100x100_S100x100,
    binary main_v574 main_v576 main_v577 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v578 ((extractStridedSlice S1x100 ![19, 0] · slices_S32x100_S1x100_19_0) : (⟨S32x100, .f32⟩ : BufTy).Contents (Elt F) → (⟨S1x100, .f32⟩ : BufTy).Contents (Elt F)),
    reshape main_v578 main_v579 rfl shapeCasts_S1x100_S100,
    unary main_v579 main_v580 (broadcastInDim S1x100 ![1] bcast_S100_S1x100_1 : (⟨S100, .f32⟩ : BufTy).Contents (Elt F) → (⟨S1x100, .f32⟩ : BufTy).Contents (Elt F)),
    unary main_v580 main_v581 (broadcastInDim S65536x100 ![0, 1] bcast_S1x100_S65536x100_0_1 : (⟨S1x100, .f32⟩ : BufTy).Contents (Elt F) → (⟨S65536x100, .f32⟩ : BufTy).Contents (Elt F)),
    binary main_v577 main_v581 main_v582 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call39_cst) (constant S_ .f32 0x00000000#32),
    TRef.unary (TRef.of (T := ⟨S_, .f32⟩) main_call39_cst) (TRef.of (T := ⟨S65536x100, .f32⟩) main_call39_v0) (broadcastInDim S65536x100 ![] bcast_S_S65536x100),
    TRef.binary (TRef.of (T := ⟨S65536x100, .f32⟩) main_v582) (TRef.of (T := ⟨S65536x100, .f32⟩) main_call39_v0) (TRef.of (T := ⟨S65536x100, .f32⟩) main_v583) maximumf,
    unary main_arg5 main_v584 ((extractStridedSlice S1x100x64 ![19, 0, 0] · slices_S32x100x64_S1x100x64_19_0_0) : (⟨S32x100x64, .f32⟩ : BufTy).Contents (Elt F) → (⟨S1x100x64, .f32⟩ : BufTy).Contents (Elt F)),
    reshape main_v584 main_v585 rfl shapeCasts_S1x100x64_S100x64,
    binary main_v583 main_v585 main_v586 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v587 ((extractStridedSlice S1x64 ![19, 0] · slices_S32x64_S1x64_19_0) : (⟨S32x64, .f32⟩ : BufTy).Contents (Elt F) → (⟨S1x64, .f32⟩ : BufTy).Contents (Elt F)),
    reshape main_v587 main_v588 rfl shapeCasts_S1x64_S64,
    unary main_v588 main_v589 (broadcastInDim S1x64 ![1] bcast_S64_S1x64_1 : (⟨S64, .f32⟩ : BufTy).Contents (Elt F) → (⟨S1x64, .f32⟩ : BufTy).Contents (Elt F)),
    unary main_v589 main_v590 (broadcastInDim S65536x64 ![0, 1] bcast_S1x64_S65536x64_0_1 : (⟨S1x64, .f32⟩ : BufTy).Contents (Elt F) → (⟨S65536x64, .f32⟩ : BufTy).Contents (Elt F)),
    binary main_v586 main_v590 main_v591 (addf : (⟨S65536x64, .f32⟩ : BufTy).Contents (Elt F) → (⟨S65536x64, .f32⟩ : BufTy).Contents (Elt F) → (⟨S65536x64, .f32⟩ : BufTy).Contents (Elt F)),
    reshape main_v591 main_v592 rfl shapeCasts_S65536x64_S65536x8x8,
    binary main_v564 main_v592 main_v593 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 20 of the sample. -/
abbrev ops20 : List (HloOp τ sig (Elt F)) :=
  [ unary main_arg0 main_v594 ((extractStridedSlice S65536x16 ![0, 320] · slices_S65536x512_S65536x16_0_320) : (⟨S65536x512, .f32⟩ : BufTy).Contents (Elt F) → (⟨S65536x16, .f32⟩ : BufTy).Contents (Elt F)),
    unary main_arg1 main_v595 ((extractStridedSlice S1x16x100 ![20, 0, 0] · slices_S32x16x100_S1x16x100_20_0_0) : (⟨S32x16x100, .f32⟩ : BufTy).Contents (Elt F) → (⟨S1x16x100, .f32⟩ : BufTy).Contents (Elt F)),
    reshape main_v595 main_v596 rfl shapeCasts_S1x16x100_S16x100,
    binary main_v594 main_v596 main_v597 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v598 ((extractStridedSlice S1x100 ![20, 0] · slices_S32x100_S1x100_20_0) : (⟨S32x100, .f32⟩ : BufTy).Contents (Elt F) → (⟨S1x100, .f32⟩ : BufTy).Contents (Elt F)),
    reshape main_v598 main_v599 rfl shapeCasts_S1x100_S100,
    unary main_v599 main_v600 (broadcastInDim S1x100 ![1] bcast_S100_S1x100_1 : (⟨S100, .f32⟩ : BufTy).Contents (Elt F) → (⟨S1x100, .f32⟩ : BufTy).Contents (Elt F)),
    unary main_v600 main_v601 (broadcastInDim S65536x100 ![0, 1] bcast_S1x100_S65536x100_0_1 : (⟨S1x100, .f32⟩ : BufTy).Contents (Elt F) → (⟨S65536x100, .f32⟩ : BufTy).Contents (Elt F)),
    binary main_v597 main_v601 main_v602 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call40_cst) (constant S_ .f32 0x00000000#32),
    TRef.unary (TRef.of (T := ⟨S_, .f32⟩) main_call40_cst) (TRef.of (T := ⟨S65536x100, .f32⟩) main_call40_v0) (broadcastInDim S65536x100 ![] bcast_S_S65536x100),
    TRef.binary (TRef.of (T := ⟨S65536x100, .f32⟩) main_v602) (TRef.of (T := ⟨S65536x100, .f32⟩) main_call40_v0) (TRef.of (T := ⟨S65536x100, .f32⟩) main_v603) maximumf,
    unary main_arg3 main_v604 ((extractStridedSlice S1x100x100 ![20, 0, 0] · slices_S32x100x100_S1x100x100_20_0_0) : (⟨S32x100x100, .f32⟩ : BufTy).Contents (Elt F) → (⟨S1x100x100, .f32⟩ : BufTy).Contents (Elt F)),
    reshape main_v604 main_v605 rfl shapeCasts_S1x100x100_S100x100,
    binary main_v603 main_v605 main_v606 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v607 ((extractStridedSlice S1x100 ![20, 0] · slices_S32x100_S1x100_20_0) : (⟨S32x100, .f32⟩ : BufTy).Contents (Elt F) → (⟨S1x100, .f32⟩ : BufTy).Contents (Elt F)),
    reshape main_v607 main_v608 rfl shapeCasts_S1x100_S100,
    unary main_v608 main_v609 (broadcastInDim S1x100 ![1] bcast_S100_S1x100_1 : (⟨S100, .f32⟩ : BufTy).Contents (Elt F) → (⟨S1x100, .f32⟩ : BufTy).Contents (Elt F)),
    unary main_v609 main_v610 (broadcastInDim S65536x100 ![0, 1] bcast_S1x100_S65536x100_0_1 : (⟨S1x100, .f32⟩ : BufTy).Contents (Elt F) → (⟨S65536x100, .f32⟩ : BufTy).Contents (Elt F)),
    binary main_v606 main_v610 main_v611 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call41_cst) (constant S_ .f32 0x00000000#32),
    TRef.unary (TRef.of (T := ⟨S_, .f32⟩) main_call41_cst) (TRef.of (T := ⟨S65536x100, .f32⟩) main_call41_v0) (broadcastInDim S65536x100 ![] bcast_S_S65536x100),
    TRef.binary (TRef.of (T := ⟨S65536x100, .f32⟩) main_v611) (TRef.of (T := ⟨S65536x100, .f32⟩) main_call41_v0) (TRef.of (T := ⟨S65536x100, .f32⟩) main_v612) maximumf,
    unary main_arg5 main_v613 ((extractStridedSlice S1x100x64 ![20, 0, 0] · slices_S32x100x64_S1x100x64_20_0_0) : (⟨S32x100x64, .f32⟩ : BufTy).Contents (Elt F) → (⟨S1x100x64, .f32⟩ : BufTy).Contents (Elt F)),
    reshape main_v613 main_v614 rfl shapeCasts_S1x100x64_S100x64,
    binary main_v612 main_v614 main_v615 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v616 ((extractStridedSlice S1x64 ![20, 0] · slices_S32x64_S1x64_20_0) : (⟨S32x64, .f32⟩ : BufTy).Contents (Elt F) → (⟨S1x64, .f32⟩ : BufTy).Contents (Elt F)),
    reshape main_v616 main_v617 rfl shapeCasts_S1x64_S64,
    unary main_v617 main_v618 (broadcastInDim S1x64 ![1] bcast_S64_S1x64_1 : (⟨S64, .f32⟩ : BufTy).Contents (Elt F) → (⟨S1x64, .f32⟩ : BufTy).Contents (Elt F)),
    unary main_v618 main_v619 (broadcastInDim S65536x64 ![0, 1] bcast_S1x64_S65536x64_0_1 : (⟨S1x64, .f32⟩ : BufTy).Contents (Elt F) → (⟨S65536x64, .f32⟩ : BufTy).Contents (Elt F)),
    binary main_v615 main_v619 main_v620 (addf : (⟨S65536x64, .f32⟩ : BufTy).Contents (Elt F) → (⟨S65536x64, .f32⟩ : BufTy).Contents (Elt F) → (⟨S65536x64, .f32⟩ : BufTy).Contents (Elt F)),
    reshape main_v620 main_v621 rfl shapeCasts_S65536x64_S65536x8x8,
    binary main_v593 main_v621 main_v622 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 21 of the sample. -/
abbrev ops21 : List (HloOp τ sig (Elt F)) :=
  [ unary main_arg0 main_v623 ((extractStridedSlice S65536x16 ![0, 336] · slices_S65536x512_S65536x16_0_336) : (⟨S65536x512, .f32⟩ : BufTy).Contents (Elt F) → (⟨S65536x16, .f32⟩ : BufTy).Contents (Elt F)),
    unary main_arg1 main_v624 ((extractStridedSlice S1x16x100 ![21, 0, 0] · slices_S32x16x100_S1x16x100_21_0_0) : (⟨S32x16x100, .f32⟩ : BufTy).Contents (Elt F) → (⟨S1x16x100, .f32⟩ : BufTy).Contents (Elt F)),
    reshape main_v624 main_v625 rfl shapeCasts_S1x16x100_S16x100,
    binary main_v623 main_v625 main_v626 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v627 ((extractStridedSlice S1x100 ![21, 0] · slices_S32x100_S1x100_21_0) : (⟨S32x100, .f32⟩ : BufTy).Contents (Elt F) → (⟨S1x100, .f32⟩ : BufTy).Contents (Elt F)),
    reshape main_v627 main_v628 rfl shapeCasts_S1x100_S100,
    unary main_v628 main_v629 (broadcastInDim S1x100 ![1] bcast_S100_S1x100_1 : (⟨S100, .f32⟩ : BufTy).Contents (Elt F) → (⟨S1x100, .f32⟩ : BufTy).Contents (Elt F)),
    unary main_v629 main_v630 (broadcastInDim S65536x100 ![0, 1] bcast_S1x100_S65536x100_0_1 : (⟨S1x100, .f32⟩ : BufTy).Contents (Elt F) → (⟨S65536x100, .f32⟩ : BufTy).Contents (Elt F)),
    binary main_v626 main_v630 main_v631 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call42_cst) (constant S_ .f32 0x00000000#32),
    TRef.unary (TRef.of (T := ⟨S_, .f32⟩) main_call42_cst) (TRef.of (T := ⟨S65536x100, .f32⟩) main_call42_v0) (broadcastInDim S65536x100 ![] bcast_S_S65536x100),
    TRef.binary (TRef.of (T := ⟨S65536x100, .f32⟩) main_v631) (TRef.of (T := ⟨S65536x100, .f32⟩) main_call42_v0) (TRef.of (T := ⟨S65536x100, .f32⟩) main_v632) maximumf,
    unary main_arg3 main_v633 ((extractStridedSlice S1x100x100 ![21, 0, 0] · slices_S32x100x100_S1x100x100_21_0_0) : (⟨S32x100x100, .f32⟩ : BufTy).Contents (Elt F) → (⟨S1x100x100, .f32⟩ : BufTy).Contents (Elt F)),
    reshape main_v633 main_v634 rfl shapeCasts_S1x100x100_S100x100,
    binary main_v632 main_v634 main_v635 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v636 ((extractStridedSlice S1x100 ![21, 0] · slices_S32x100_S1x100_21_0) : (⟨S32x100, .f32⟩ : BufTy).Contents (Elt F) → (⟨S1x100, .f32⟩ : BufTy).Contents (Elt F)),
    reshape main_v636 main_v637 rfl shapeCasts_S1x100_S100,
    unary main_v637 main_v638 (broadcastInDim S1x100 ![1] bcast_S100_S1x100_1 : (⟨S100, .f32⟩ : BufTy).Contents (Elt F) → (⟨S1x100, .f32⟩ : BufTy).Contents (Elt F)),
    unary main_v638 main_v639 (broadcastInDim S65536x100 ![0, 1] bcast_S1x100_S65536x100_0_1 : (⟨S1x100, .f32⟩ : BufTy).Contents (Elt F) → (⟨S65536x100, .f32⟩ : BufTy).Contents (Elt F)),
    binary main_v635 main_v639 main_v640 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call43_cst) (constant S_ .f32 0x00000000#32),
    TRef.unary (TRef.of (T := ⟨S_, .f32⟩) main_call43_cst) (TRef.of (T := ⟨S65536x100, .f32⟩) main_call43_v0) (broadcastInDim S65536x100 ![] bcast_S_S65536x100),
    TRef.binary (TRef.of (T := ⟨S65536x100, .f32⟩) main_v640) (TRef.of (T := ⟨S65536x100, .f32⟩) main_call43_v0) (TRef.of (T := ⟨S65536x100, .f32⟩) main_v641) maximumf,
    unary main_arg5 main_v642 ((extractStridedSlice S1x100x64 ![21, 0, 0] · slices_S32x100x64_S1x100x64_21_0_0) : (⟨S32x100x64, .f32⟩ : BufTy).Contents (Elt F) → (⟨S1x100x64, .f32⟩ : BufTy).Contents (Elt F)),
    reshape main_v642 main_v643 rfl shapeCasts_S1x100x64_S100x64,
    binary main_v641 main_v643 main_v644 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v645 ((extractStridedSlice S1x64 ![21, 0] · slices_S32x64_S1x64_21_0) : (⟨S32x64, .f32⟩ : BufTy).Contents (Elt F) → (⟨S1x64, .f32⟩ : BufTy).Contents (Elt F)),
    reshape main_v645 main_v646 rfl shapeCasts_S1x64_S64,
    unary main_v646 main_v647 (broadcastInDim S1x64 ![1] bcast_S64_S1x64_1 : (⟨S64, .f32⟩ : BufTy).Contents (Elt F) → (⟨S1x64, .f32⟩ : BufTy).Contents (Elt F)),
    unary main_v647 main_v648 (broadcastInDim S65536x64 ![0, 1] bcast_S1x64_S65536x64_0_1 : (⟨S1x64, .f32⟩ : BufTy).Contents (Elt F) → (⟨S65536x64, .f32⟩ : BufTy).Contents (Elt F)),
    binary main_v644 main_v648 main_v649 (addf : (⟨S65536x64, .f32⟩ : BufTy).Contents (Elt F) → (⟨S65536x64, .f32⟩ : BufTy).Contents (Elt F) → (⟨S65536x64, .f32⟩ : BufTy).Contents (Elt F)),
    reshape main_v649 main_v650 rfl shapeCasts_S65536x64_S65536x8x8,
    binary main_v622 main_v650 main_v651 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 22 of the sample. -/
abbrev ops22 : List (HloOp τ sig (Elt F)) :=
  [ unary main_arg0 main_v652 ((extractStridedSlice S65536x16 ![0, 352] · slices_S65536x512_S65536x16_0_352) : (⟨S65536x512, .f32⟩ : BufTy).Contents (Elt F) → (⟨S65536x16, .f32⟩ : BufTy).Contents (Elt F)),
    unary main_arg1 main_v653 ((extractStridedSlice S1x16x100 ![22, 0, 0] · slices_S32x16x100_S1x16x100_22_0_0) : (⟨S32x16x100, .f32⟩ : BufTy).Contents (Elt F) → (⟨S1x16x100, .f32⟩ : BufTy).Contents (Elt F)),
    reshape main_v653 main_v654 rfl shapeCasts_S1x16x100_S16x100,
    binary main_v652 main_v654 main_v655 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v656 ((extractStridedSlice S1x100 ![22, 0] · slices_S32x100_S1x100_22_0) : (⟨S32x100, .f32⟩ : BufTy).Contents (Elt F) → (⟨S1x100, .f32⟩ : BufTy).Contents (Elt F)),
    reshape main_v656 main_v657 rfl shapeCasts_S1x100_S100,
    unary main_v657 main_v658 (broadcastInDim S1x100 ![1] bcast_S100_S1x100_1 : (⟨S100, .f32⟩ : BufTy).Contents (Elt F) → (⟨S1x100, .f32⟩ : BufTy).Contents (Elt F)),
    unary main_v658 main_v659 (broadcastInDim S65536x100 ![0, 1] bcast_S1x100_S65536x100_0_1 : (⟨S1x100, .f32⟩ : BufTy).Contents (Elt F) → (⟨S65536x100, .f32⟩ : BufTy).Contents (Elt F)),
    binary main_v655 main_v659 main_v660 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call44_cst) (constant S_ .f32 0x00000000#32),
    TRef.unary (TRef.of (T := ⟨S_, .f32⟩) main_call44_cst) (TRef.of (T := ⟨S65536x100, .f32⟩) main_call44_v0) (broadcastInDim S65536x100 ![] bcast_S_S65536x100),
    TRef.binary (TRef.of (T := ⟨S65536x100, .f32⟩) main_v660) (TRef.of (T := ⟨S65536x100, .f32⟩) main_call44_v0) (TRef.of (T := ⟨S65536x100, .f32⟩) main_v661) maximumf,
    unary main_arg3 main_v662 ((extractStridedSlice S1x100x100 ![22, 0, 0] · slices_S32x100x100_S1x100x100_22_0_0) : (⟨S32x100x100, .f32⟩ : BufTy).Contents (Elt F) → (⟨S1x100x100, .f32⟩ : BufTy).Contents (Elt F)),
    reshape main_v662 main_v663 rfl shapeCasts_S1x100x100_S100x100,
    binary main_v661 main_v663 main_v664 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v665 ((extractStridedSlice S1x100 ![22, 0] · slices_S32x100_S1x100_22_0) : (⟨S32x100, .f32⟩ : BufTy).Contents (Elt F) → (⟨S1x100, .f32⟩ : BufTy).Contents (Elt F)),
    reshape main_v665 main_v666 rfl shapeCasts_S1x100_S100,
    unary main_v666 main_v667 (broadcastInDim S1x100 ![1] bcast_S100_S1x100_1 : (⟨S100, .f32⟩ : BufTy).Contents (Elt F) → (⟨S1x100, .f32⟩ : BufTy).Contents (Elt F)),
    unary main_v667 main_v668 (broadcastInDim S65536x100 ![0, 1] bcast_S1x100_S65536x100_0_1 : (⟨S1x100, .f32⟩ : BufTy).Contents (Elt F) → (⟨S65536x100, .f32⟩ : BufTy).Contents (Elt F)),
    binary main_v664 main_v668 main_v669 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call45_cst) (constant S_ .f32 0x00000000#32),
    TRef.unary (TRef.of (T := ⟨S_, .f32⟩) main_call45_cst) (TRef.of (T := ⟨S65536x100, .f32⟩) main_call45_v0) (broadcastInDim S65536x100 ![] bcast_S_S65536x100),
    TRef.binary (TRef.of (T := ⟨S65536x100, .f32⟩) main_v669) (TRef.of (T := ⟨S65536x100, .f32⟩) main_call45_v0) (TRef.of (T := ⟨S65536x100, .f32⟩) main_v670) maximumf,
    unary main_arg5 main_v671 ((extractStridedSlice S1x100x64 ![22, 0, 0] · slices_S32x100x64_S1x100x64_22_0_0) : (⟨S32x100x64, .f32⟩ : BufTy).Contents (Elt F) → (⟨S1x100x64, .f32⟩ : BufTy).Contents (Elt F)),
    reshape main_v671 main_v672 rfl shapeCasts_S1x100x64_S100x64,
    binary main_v670 main_v672 main_v673 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v674 ((extractStridedSlice S1x64 ![22, 0] · slices_S32x64_S1x64_22_0) : (⟨S32x64, .f32⟩ : BufTy).Contents (Elt F) → (⟨S1x64, .f32⟩ : BufTy).Contents (Elt F)),
    reshape main_v674 main_v675 rfl shapeCasts_S1x64_S64,
    unary main_v675 main_v676 (broadcastInDim S1x64 ![1] bcast_S64_S1x64_1 : (⟨S64, .f32⟩ : BufTy).Contents (Elt F) → (⟨S1x64, .f32⟩ : BufTy).Contents (Elt F)),
    unary main_v676 main_v677 (broadcastInDim S65536x64 ![0, 1] bcast_S1x64_S65536x64_0_1 : (⟨S1x64, .f32⟩ : BufTy).Contents (Elt F) → (⟨S65536x64, .f32⟩ : BufTy).Contents (Elt F)),
    binary main_v673 main_v677 main_v678 (addf : (⟨S65536x64, .f32⟩ : BufTy).Contents (Elt F) → (⟨S65536x64, .f32⟩ : BufTy).Contents (Elt F) → (⟨S65536x64, .f32⟩ : BufTy).Contents (Elt F)),
    reshape main_v678 main_v679 rfl shapeCasts_S65536x64_S65536x8x8,
    binary main_v651 main_v679 main_v680 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 23 of the sample. -/
abbrev ops23 : List (HloOp τ sig (Elt F)) :=
  [ unary main_arg0 main_v681 ((extractStridedSlice S65536x16 ![0, 368] · slices_S65536x512_S65536x16_0_368) : (⟨S65536x512, .f32⟩ : BufTy).Contents (Elt F) → (⟨S65536x16, .f32⟩ : BufTy).Contents (Elt F)),
    unary main_arg1 main_v682 ((extractStridedSlice S1x16x100 ![23, 0, 0] · slices_S32x16x100_S1x16x100_23_0_0) : (⟨S32x16x100, .f32⟩ : BufTy).Contents (Elt F) → (⟨S1x16x100, .f32⟩ : BufTy).Contents (Elt F)),
    reshape main_v682 main_v683 rfl shapeCasts_S1x16x100_S16x100,
    binary main_v681 main_v683 main_v684 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v685 ((extractStridedSlice S1x100 ![23, 0] · slices_S32x100_S1x100_23_0) : (⟨S32x100, .f32⟩ : BufTy).Contents (Elt F) → (⟨S1x100, .f32⟩ : BufTy).Contents (Elt F)),
    reshape main_v685 main_v686 rfl shapeCasts_S1x100_S100,
    unary main_v686 main_v687 (broadcastInDim S1x100 ![1] bcast_S100_S1x100_1 : (⟨S100, .f32⟩ : BufTy).Contents (Elt F) → (⟨S1x100, .f32⟩ : BufTy).Contents (Elt F)),
    unary main_v687 main_v688 (broadcastInDim S65536x100 ![0, 1] bcast_S1x100_S65536x100_0_1 : (⟨S1x100, .f32⟩ : BufTy).Contents (Elt F) → (⟨S65536x100, .f32⟩ : BufTy).Contents (Elt F)),
    binary main_v684 main_v688 main_v689 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call46_cst) (constant S_ .f32 0x00000000#32),
    TRef.unary (TRef.of (T := ⟨S_, .f32⟩) main_call46_cst) (TRef.of (T := ⟨S65536x100, .f32⟩) main_call46_v0) (broadcastInDim S65536x100 ![] bcast_S_S65536x100),
    TRef.binary (TRef.of (T := ⟨S65536x100, .f32⟩) main_v689) (TRef.of (T := ⟨S65536x100, .f32⟩) main_call46_v0) (TRef.of (T := ⟨S65536x100, .f32⟩) main_v690) maximumf,
    unary main_arg3 main_v691 ((extractStridedSlice S1x100x100 ![23, 0, 0] · slices_S32x100x100_S1x100x100_23_0_0) : (⟨S32x100x100, .f32⟩ : BufTy).Contents (Elt F) → (⟨S1x100x100, .f32⟩ : BufTy).Contents (Elt F)),
    reshape main_v691 main_v692 rfl shapeCasts_S1x100x100_S100x100,
    binary main_v690 main_v692 main_v693 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v694 ((extractStridedSlice S1x100 ![23, 0] · slices_S32x100_S1x100_23_0) : (⟨S32x100, .f32⟩ : BufTy).Contents (Elt F) → (⟨S1x100, .f32⟩ : BufTy).Contents (Elt F)),
    reshape main_v694 main_v695 rfl shapeCasts_S1x100_S100,
    unary main_v695 main_v696 (broadcastInDim S1x100 ![1] bcast_S100_S1x100_1 : (⟨S100, .f32⟩ : BufTy).Contents (Elt F) → (⟨S1x100, .f32⟩ : BufTy).Contents (Elt F)),
    unary main_v696 main_v697 (broadcastInDim S65536x100 ![0, 1] bcast_S1x100_S65536x100_0_1 : (⟨S1x100, .f32⟩ : BufTy).Contents (Elt F) → (⟨S65536x100, .f32⟩ : BufTy).Contents (Elt F)),
    binary main_v693 main_v697 main_v698 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call47_cst) (constant S_ .f32 0x00000000#32),
    TRef.unary (TRef.of (T := ⟨S_, .f32⟩) main_call47_cst) (TRef.of (T := ⟨S65536x100, .f32⟩) main_call47_v0) (broadcastInDim S65536x100 ![] bcast_S_S65536x100),
    TRef.binary (TRef.of (T := ⟨S65536x100, .f32⟩) main_v698) (TRef.of (T := ⟨S65536x100, .f32⟩) main_call47_v0) (TRef.of (T := ⟨S65536x100, .f32⟩) main_v699) maximumf,
    unary main_arg5 main_v700 ((extractStridedSlice S1x100x64 ![23, 0, 0] · slices_S32x100x64_S1x100x64_23_0_0) : (⟨S32x100x64, .f32⟩ : BufTy).Contents (Elt F) → (⟨S1x100x64, .f32⟩ : BufTy).Contents (Elt F)),
    reshape main_v700 main_v701 rfl shapeCasts_S1x100x64_S100x64,
    binary main_v699 main_v701 main_v702 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v703 ((extractStridedSlice S1x64 ![23, 0] · slices_S32x64_S1x64_23_0) : (⟨S32x64, .f32⟩ : BufTy).Contents (Elt F) → (⟨S1x64, .f32⟩ : BufTy).Contents (Elt F)),
    reshape main_v703 main_v704 rfl shapeCasts_S1x64_S64,
    unary main_v704 main_v705 (broadcastInDim S1x64 ![1] bcast_S64_S1x64_1 : (⟨S64, .f32⟩ : BufTy).Contents (Elt F) → (⟨S1x64, .f32⟩ : BufTy).Contents (Elt F)),
    unary main_v705 main_v706 (broadcastInDim S65536x64 ![0, 1] bcast_S1x64_S65536x64_0_1 : (⟨S1x64, .f32⟩ : BufTy).Contents (Elt F) → (⟨S65536x64, .f32⟩ : BufTy).Contents (Elt F)),
    binary main_v702 main_v706 main_v707 (addf : (⟨S65536x64, .f32⟩ : BufTy).Contents (Elt F) → (⟨S65536x64, .f32⟩ : BufTy).Contents (Elt F) → (⟨S65536x64, .f32⟩ : BufTy).Contents (Elt F)),
    reshape main_v707 main_v708 rfl shapeCasts_S65536x64_S65536x8x8,
    binary main_v680 main_v708 main_v709 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 24 of the sample. -/
abbrev ops24 : List (HloOp τ sig (Elt F)) :=
  [ unary main_arg0 main_v710 ((extractStridedSlice S65536x16 ![0, 384] · slices_S65536x512_S65536x16_0_384) : (⟨S65536x512, .f32⟩ : BufTy).Contents (Elt F) → (⟨S65536x16, .f32⟩ : BufTy).Contents (Elt F)),
    unary main_arg1 main_v711 ((extractStridedSlice S1x16x100 ![24, 0, 0] · slices_S32x16x100_S1x16x100_24_0_0) : (⟨S32x16x100, .f32⟩ : BufTy).Contents (Elt F) → (⟨S1x16x100, .f32⟩ : BufTy).Contents (Elt F)),
    reshape main_v711 main_v712 rfl shapeCasts_S1x16x100_S16x100,
    binary main_v710 main_v712 main_v713 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v714 ((extractStridedSlice S1x100 ![24, 0] · slices_S32x100_S1x100_24_0) : (⟨S32x100, .f32⟩ : BufTy).Contents (Elt F) → (⟨S1x100, .f32⟩ : BufTy).Contents (Elt F)),
    reshape main_v714 main_v715 rfl shapeCasts_S1x100_S100,
    unary main_v715 main_v716 (broadcastInDim S1x100 ![1] bcast_S100_S1x100_1 : (⟨S100, .f32⟩ : BufTy).Contents (Elt F) → (⟨S1x100, .f32⟩ : BufTy).Contents (Elt F)),
    unary main_v716 main_v717 (broadcastInDim S65536x100 ![0, 1] bcast_S1x100_S65536x100_0_1 : (⟨S1x100, .f32⟩ : BufTy).Contents (Elt F) → (⟨S65536x100, .f32⟩ : BufTy).Contents (Elt F)),
    binary main_v713 main_v717 main_v718 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call48_cst) (constant S_ .f32 0x00000000#32),
    TRef.unary (TRef.of (T := ⟨S_, .f32⟩) main_call48_cst) (TRef.of (T := ⟨S65536x100, .f32⟩) main_call48_v0) (broadcastInDim S65536x100 ![] bcast_S_S65536x100),
    TRef.binary (TRef.of (T := ⟨S65536x100, .f32⟩) main_v718) (TRef.of (T := ⟨S65536x100, .f32⟩) main_call48_v0) (TRef.of (T := ⟨S65536x100, .f32⟩) main_v719) maximumf,
    unary main_arg3 main_v720 ((extractStridedSlice S1x100x100 ![24, 0, 0] · slices_S32x100x100_S1x100x100_24_0_0) : (⟨S32x100x100, .f32⟩ : BufTy).Contents (Elt F) → (⟨S1x100x100, .f32⟩ : BufTy).Contents (Elt F)),
    reshape main_v720 main_v721 rfl shapeCasts_S1x100x100_S100x100,
    binary main_v719 main_v721 main_v722 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v723 ((extractStridedSlice S1x100 ![24, 0] · slices_S32x100_S1x100_24_0) : (⟨S32x100, .f32⟩ : BufTy).Contents (Elt F) → (⟨S1x100, .f32⟩ : BufTy).Contents (Elt F)),
    reshape main_v723 main_v724 rfl shapeCasts_S1x100_S100,
    unary main_v724 main_v725 (broadcastInDim S1x100 ![1] bcast_S100_S1x100_1 : (⟨S100, .f32⟩ : BufTy).Contents (Elt F) → (⟨S1x100, .f32⟩ : BufTy).Contents (Elt F)),
    unary main_v725 main_v726 (broadcastInDim S65536x100 ![0, 1] bcast_S1x100_S65536x100_0_1 : (⟨S1x100, .f32⟩ : BufTy).Contents (Elt F) → (⟨S65536x100, .f32⟩ : BufTy).Contents (Elt F)),
    binary main_v722 main_v726 main_v727 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call49_cst) (constant S_ .f32 0x00000000#32),
    TRef.unary (TRef.of (T := ⟨S_, .f32⟩) main_call49_cst) (TRef.of (T := ⟨S65536x100, .f32⟩) main_call49_v0) (broadcastInDim S65536x100 ![] bcast_S_S65536x100),
    TRef.binary (TRef.of (T := ⟨S65536x100, .f32⟩) main_v727) (TRef.of (T := ⟨S65536x100, .f32⟩) main_call49_v0) (TRef.of (T := ⟨S65536x100, .f32⟩) main_v728) maximumf,
    unary main_arg5 main_v729 ((extractStridedSlice S1x100x64 ![24, 0, 0] · slices_S32x100x64_S1x100x64_24_0_0) : (⟨S32x100x64, .f32⟩ : BufTy).Contents (Elt F) → (⟨S1x100x64, .f32⟩ : BufTy).Contents (Elt F)),
    reshape main_v729 main_v730 rfl shapeCasts_S1x100x64_S100x64,
    binary main_v728 main_v730 main_v731 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v732 ((extractStridedSlice S1x64 ![24, 0] · slices_S32x64_S1x64_24_0) : (⟨S32x64, .f32⟩ : BufTy).Contents (Elt F) → (⟨S1x64, .f32⟩ : BufTy).Contents (Elt F)),
    reshape main_v732 main_v733 rfl shapeCasts_S1x64_S64,
    unary main_v733 main_v734 (broadcastInDim S1x64 ![1] bcast_S64_S1x64_1 : (⟨S64, .f32⟩ : BufTy).Contents (Elt F) → (⟨S1x64, .f32⟩ : BufTy).Contents (Elt F)),
    unary main_v734 main_v735 (broadcastInDim S65536x64 ![0, 1] bcast_S1x64_S65536x64_0_1 : (⟨S1x64, .f32⟩ : BufTy).Contents (Elt F) → (⟨S65536x64, .f32⟩ : BufTy).Contents (Elt F)),
    binary main_v731 main_v735 main_v736 (addf : (⟨S65536x64, .f32⟩ : BufTy).Contents (Elt F) → (⟨S65536x64, .f32⟩ : BufTy).Contents (Elt F) → (⟨S65536x64, .f32⟩ : BufTy).Contents (Elt F)),
    reshape main_v736 main_v737 rfl shapeCasts_S65536x64_S65536x8x8,
    binary main_v709 main_v737 main_v738 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 25 of the sample. -/
abbrev ops25 : List (HloOp τ sig (Elt F)) :=
  [ unary main_arg0 main_v739 ((extractStridedSlice S65536x16 ![0, 400] · slices_S65536x512_S65536x16_0_400) : (⟨S65536x512, .f32⟩ : BufTy).Contents (Elt F) → (⟨S65536x16, .f32⟩ : BufTy).Contents (Elt F)),
    unary main_arg1 main_v740 ((extractStridedSlice S1x16x100 ![25, 0, 0] · slices_S32x16x100_S1x16x100_25_0_0) : (⟨S32x16x100, .f32⟩ : BufTy).Contents (Elt F) → (⟨S1x16x100, .f32⟩ : BufTy).Contents (Elt F)),
    reshape main_v740 main_v741 rfl shapeCasts_S1x16x100_S16x100,
    binary main_v739 main_v741 main_v742 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v743 ((extractStridedSlice S1x100 ![25, 0] · slices_S32x100_S1x100_25_0) : (⟨S32x100, .f32⟩ : BufTy).Contents (Elt F) → (⟨S1x100, .f32⟩ : BufTy).Contents (Elt F)),
    reshape main_v743 main_v744 rfl shapeCasts_S1x100_S100,
    unary main_v744 main_v745 (broadcastInDim S1x100 ![1] bcast_S100_S1x100_1 : (⟨S100, .f32⟩ : BufTy).Contents (Elt F) → (⟨S1x100, .f32⟩ : BufTy).Contents (Elt F)),
    unary main_v745 main_v746 (broadcastInDim S65536x100 ![0, 1] bcast_S1x100_S65536x100_0_1 : (⟨S1x100, .f32⟩ : BufTy).Contents (Elt F) → (⟨S65536x100, .f32⟩ : BufTy).Contents (Elt F)),
    binary main_v742 main_v746 main_v747 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call50_cst) (constant S_ .f32 0x00000000#32),
    TRef.unary (TRef.of (T := ⟨S_, .f32⟩) main_call50_cst) (TRef.of (T := ⟨S65536x100, .f32⟩) main_call50_v0) (broadcastInDim S65536x100 ![] bcast_S_S65536x100),
    TRef.binary (TRef.of (T := ⟨S65536x100, .f32⟩) main_v747) (TRef.of (T := ⟨S65536x100, .f32⟩) main_call50_v0) (TRef.of (T := ⟨S65536x100, .f32⟩) main_v748) maximumf,
    unary main_arg3 main_v749 ((extractStridedSlice S1x100x100 ![25, 0, 0] · slices_S32x100x100_S1x100x100_25_0_0) : (⟨S32x100x100, .f32⟩ : BufTy).Contents (Elt F) → (⟨S1x100x100, .f32⟩ : BufTy).Contents (Elt F)),
    reshape main_v749 main_v750 rfl shapeCasts_S1x100x100_S100x100,
    binary main_v748 main_v750 main_v751 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v752 ((extractStridedSlice S1x100 ![25, 0] · slices_S32x100_S1x100_25_0) : (⟨S32x100, .f32⟩ : BufTy).Contents (Elt F) → (⟨S1x100, .f32⟩ : BufTy).Contents (Elt F)),
    reshape main_v752 main_v753 rfl shapeCasts_S1x100_S100,
    unary main_v753 main_v754 (broadcastInDim S1x100 ![1] bcast_S100_S1x100_1 : (⟨S100, .f32⟩ : BufTy).Contents (Elt F) → (⟨S1x100, .f32⟩ : BufTy).Contents (Elt F)),
    unary main_v754 main_v755 (broadcastInDim S65536x100 ![0, 1] bcast_S1x100_S65536x100_0_1 : (⟨S1x100, .f32⟩ : BufTy).Contents (Elt F) → (⟨S65536x100, .f32⟩ : BufTy).Contents (Elt F)),
    binary main_v751 main_v755 main_v756 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call51_cst) (constant S_ .f32 0x00000000#32),
    TRef.unary (TRef.of (T := ⟨S_, .f32⟩) main_call51_cst) (TRef.of (T := ⟨S65536x100, .f32⟩) main_call51_v0) (broadcastInDim S65536x100 ![] bcast_S_S65536x100),
    TRef.binary (TRef.of (T := ⟨S65536x100, .f32⟩) main_v756) (TRef.of (T := ⟨S65536x100, .f32⟩) main_call51_v0) (TRef.of (T := ⟨S65536x100, .f32⟩) main_v757) maximumf,
    unary main_arg5 main_v758 ((extractStridedSlice S1x100x64 ![25, 0, 0] · slices_S32x100x64_S1x100x64_25_0_0) : (⟨S32x100x64, .f32⟩ : BufTy).Contents (Elt F) → (⟨S1x100x64, .f32⟩ : BufTy).Contents (Elt F)),
    reshape main_v758 main_v759 rfl shapeCasts_S1x100x64_S100x64,
    binary main_v757 main_v759 main_v760 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v761 ((extractStridedSlice S1x64 ![25, 0] · slices_S32x64_S1x64_25_0) : (⟨S32x64, .f32⟩ : BufTy).Contents (Elt F) → (⟨S1x64, .f32⟩ : BufTy).Contents (Elt F)),
    reshape main_v761 main_v762 rfl shapeCasts_S1x64_S64,
    unary main_v762 main_v763 (broadcastInDim S1x64 ![1] bcast_S64_S1x64_1 : (⟨S64, .f32⟩ : BufTy).Contents (Elt F) → (⟨S1x64, .f32⟩ : BufTy).Contents (Elt F)),
    unary main_v763 main_v764 (broadcastInDim S65536x64 ![0, 1] bcast_S1x64_S65536x64_0_1 : (⟨S1x64, .f32⟩ : BufTy).Contents (Elt F) → (⟨S65536x64, .f32⟩ : BufTy).Contents (Elt F)),
    binary main_v760 main_v764 main_v765 (addf : (⟨S65536x64, .f32⟩ : BufTy).Contents (Elt F) → (⟨S65536x64, .f32⟩ : BufTy).Contents (Elt F) → (⟨S65536x64, .f32⟩ : BufTy).Contents (Elt F)),
    reshape main_v765 main_v766 rfl shapeCasts_S65536x64_S65536x8x8,
    binary main_v738 main_v766 main_v767 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 26 of the sample. -/
abbrev ops26 : List (HloOp τ sig (Elt F)) :=
  [ unary main_arg0 main_v768 ((extractStridedSlice S65536x16 ![0, 416] · slices_S65536x512_S65536x16_0_416) : (⟨S65536x512, .f32⟩ : BufTy).Contents (Elt F) → (⟨S65536x16, .f32⟩ : BufTy).Contents (Elt F)),
    unary main_arg1 main_v769 ((extractStridedSlice S1x16x100 ![26, 0, 0] · slices_S32x16x100_S1x16x100_26_0_0) : (⟨S32x16x100, .f32⟩ : BufTy).Contents (Elt F) → (⟨S1x16x100, .f32⟩ : BufTy).Contents (Elt F)),
    reshape main_v769 main_v770 rfl shapeCasts_S1x16x100_S16x100,
    binary main_v768 main_v770 main_v771 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v772 ((extractStridedSlice S1x100 ![26, 0] · slices_S32x100_S1x100_26_0) : (⟨S32x100, .f32⟩ : BufTy).Contents (Elt F) → (⟨S1x100, .f32⟩ : BufTy).Contents (Elt F)),
    reshape main_v772 main_v773 rfl shapeCasts_S1x100_S100,
    unary main_v773 main_v774 (broadcastInDim S1x100 ![1] bcast_S100_S1x100_1 : (⟨S100, .f32⟩ : BufTy).Contents (Elt F) → (⟨S1x100, .f32⟩ : BufTy).Contents (Elt F)),
    unary main_v774 main_v775 (broadcastInDim S65536x100 ![0, 1] bcast_S1x100_S65536x100_0_1 : (⟨S1x100, .f32⟩ : BufTy).Contents (Elt F) → (⟨S65536x100, .f32⟩ : BufTy).Contents (Elt F)),
    binary main_v771 main_v775 main_v776 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call52_cst) (constant S_ .f32 0x00000000#32),
    TRef.unary (TRef.of (T := ⟨S_, .f32⟩) main_call52_cst) (TRef.of (T := ⟨S65536x100, .f32⟩) main_call52_v0) (broadcastInDim S65536x100 ![] bcast_S_S65536x100),
    TRef.binary (TRef.of (T := ⟨S65536x100, .f32⟩) main_v776) (TRef.of (T := ⟨S65536x100, .f32⟩) main_call52_v0) (TRef.of (T := ⟨S65536x100, .f32⟩) main_v777) maximumf,
    unary main_arg3 main_v778 ((extractStridedSlice S1x100x100 ![26, 0, 0] · slices_S32x100x100_S1x100x100_26_0_0) : (⟨S32x100x100, .f32⟩ : BufTy).Contents (Elt F) → (⟨S1x100x100, .f32⟩ : BufTy).Contents (Elt F)),
    reshape main_v778 main_v779 rfl shapeCasts_S1x100x100_S100x100,
    binary main_v777 main_v779 main_v780 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v781 ((extractStridedSlice S1x100 ![26, 0] · slices_S32x100_S1x100_26_0) : (⟨S32x100, .f32⟩ : BufTy).Contents (Elt F) → (⟨S1x100, .f32⟩ : BufTy).Contents (Elt F)),
    reshape main_v781 main_v782 rfl shapeCasts_S1x100_S100,
    unary main_v782 main_v783 (broadcastInDim S1x100 ![1] bcast_S100_S1x100_1 : (⟨S100, .f32⟩ : BufTy).Contents (Elt F) → (⟨S1x100, .f32⟩ : BufTy).Contents (Elt F)),
    unary main_v783 main_v784 (broadcastInDim S65536x100 ![0, 1] bcast_S1x100_S65536x100_0_1 : (⟨S1x100, .f32⟩ : BufTy).Contents (Elt F) → (⟨S65536x100, .f32⟩ : BufTy).Contents (Elt F)),
    binary main_v780 main_v784 main_v785 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call53_cst) (constant S_ .f32 0x00000000#32),
    TRef.unary (TRef.of (T := ⟨S_, .f32⟩) main_call53_cst) (TRef.of (T := ⟨S65536x100, .f32⟩) main_call53_v0) (broadcastInDim S65536x100 ![] bcast_S_S65536x100),
    TRef.binary (TRef.of (T := ⟨S65536x100, .f32⟩) main_v785) (TRef.of (T := ⟨S65536x100, .f32⟩) main_call53_v0) (TRef.of (T := ⟨S65536x100, .f32⟩) main_v786) maximumf,
    unary main_arg5 main_v787 ((extractStridedSlice S1x100x64 ![26, 0, 0] · slices_S32x100x64_S1x100x64_26_0_0) : (⟨S32x100x64, .f32⟩ : BufTy).Contents (Elt F) → (⟨S1x100x64, .f32⟩ : BufTy).Contents (Elt F)),
    reshape main_v787 main_v788 rfl shapeCasts_S1x100x64_S100x64,
    binary main_v786 main_v788 main_v789 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v790 ((extractStridedSlice S1x64 ![26, 0] · slices_S32x64_S1x64_26_0) : (⟨S32x64, .f32⟩ : BufTy).Contents (Elt F) → (⟨S1x64, .f32⟩ : BufTy).Contents (Elt F)),
    reshape main_v790 main_v791 rfl shapeCasts_S1x64_S64,
    unary main_v791 main_v792 (broadcastInDim S1x64 ![1] bcast_S64_S1x64_1 : (⟨S64, .f32⟩ : BufTy).Contents (Elt F) → (⟨S1x64, .f32⟩ : BufTy).Contents (Elt F)),
    unary main_v792 main_v793 (broadcastInDim S65536x64 ![0, 1] bcast_S1x64_S65536x64_0_1 : (⟨S1x64, .f32⟩ : BufTy).Contents (Elt F) → (⟨S65536x64, .f32⟩ : BufTy).Contents (Elt F)),
    binary main_v789 main_v793 main_v794 (addf : (⟨S65536x64, .f32⟩ : BufTy).Contents (Elt F) → (⟨S65536x64, .f32⟩ : BufTy).Contents (Elt F) → (⟨S65536x64, .f32⟩ : BufTy).Contents (Elt F)),
    reshape main_v794 main_v795 rfl shapeCasts_S65536x64_S65536x8x8,
    binary main_v767 main_v795 main_v796 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 27 of the sample. -/
abbrev ops27 : List (HloOp τ sig (Elt F)) :=
  [ unary main_arg0 main_v797 ((extractStridedSlice S65536x16 ![0, 432] · slices_S65536x512_S65536x16_0_432) : (⟨S65536x512, .f32⟩ : BufTy).Contents (Elt F) → (⟨S65536x16, .f32⟩ : BufTy).Contents (Elt F)),
    unary main_arg1 main_v798 ((extractStridedSlice S1x16x100 ![27, 0, 0] · slices_S32x16x100_S1x16x100_27_0_0) : (⟨S32x16x100, .f32⟩ : BufTy).Contents (Elt F) → (⟨S1x16x100, .f32⟩ : BufTy).Contents (Elt F)),
    reshape main_v798 main_v799 rfl shapeCasts_S1x16x100_S16x100,
    binary main_v797 main_v799 main_v800 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v801 ((extractStridedSlice S1x100 ![27, 0] · slices_S32x100_S1x100_27_0) : (⟨S32x100, .f32⟩ : BufTy).Contents (Elt F) → (⟨S1x100, .f32⟩ : BufTy).Contents (Elt F)),
    reshape main_v801 main_v802 rfl shapeCasts_S1x100_S100,
    unary main_v802 main_v803 (broadcastInDim S1x100 ![1] bcast_S100_S1x100_1 : (⟨S100, .f32⟩ : BufTy).Contents (Elt F) → (⟨S1x100, .f32⟩ : BufTy).Contents (Elt F)),
    unary main_v803 main_v804 (broadcastInDim S65536x100 ![0, 1] bcast_S1x100_S65536x100_0_1 : (⟨S1x100, .f32⟩ : BufTy).Contents (Elt F) → (⟨S65536x100, .f32⟩ : BufTy).Contents (Elt F)),
    binary main_v800 main_v804 main_v805 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call54_cst) (constant S_ .f32 0x00000000#32),
    TRef.unary (TRef.of (T := ⟨S_, .f32⟩) main_call54_cst) (TRef.of (T := ⟨S65536x100, .f32⟩) main_call54_v0) (broadcastInDim S65536x100 ![] bcast_S_S65536x100),
    TRef.binary (TRef.of (T := ⟨S65536x100, .f32⟩) main_v805) (TRef.of (T := ⟨S65536x100, .f32⟩) main_call54_v0) (TRef.of (T := ⟨S65536x100, .f32⟩) main_v806) maximumf,
    unary main_arg3 main_v807 ((extractStridedSlice S1x100x100 ![27, 0, 0] · slices_S32x100x100_S1x100x100_27_0_0) : (⟨S32x100x100, .f32⟩ : BufTy).Contents (Elt F) → (⟨S1x100x100, .f32⟩ : BufTy).Contents (Elt F)),
    reshape main_v807 main_v808 rfl shapeCasts_S1x100x100_S100x100,
    binary main_v806 main_v808 main_v809 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v810 ((extractStridedSlice S1x100 ![27, 0] · slices_S32x100_S1x100_27_0) : (⟨S32x100, .f32⟩ : BufTy).Contents (Elt F) → (⟨S1x100, .f32⟩ : BufTy).Contents (Elt F)),
    reshape main_v810 main_v811 rfl shapeCasts_S1x100_S100,
    unary main_v811 main_v812 (broadcastInDim S1x100 ![1] bcast_S100_S1x100_1 : (⟨S100, .f32⟩ : BufTy).Contents (Elt F) → (⟨S1x100, .f32⟩ : BufTy).Contents (Elt F)),
    unary main_v812 main_v813 (broadcastInDim S65536x100 ![0, 1] bcast_S1x100_S65536x100_0_1 : (⟨S1x100, .f32⟩ : BufTy).Contents (Elt F) → (⟨S65536x100, .f32⟩ : BufTy).Contents (Elt F)),
    binary main_v809 main_v813 main_v814 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call55_cst) (constant S_ .f32 0x00000000#32),
    TRef.unary (TRef.of (T := ⟨S_, .f32⟩) main_call55_cst) (TRef.of (T := ⟨S65536x100, .f32⟩) main_call55_v0) (broadcastInDim S65536x100 ![] bcast_S_S65536x100),
    TRef.binary (TRef.of (T := ⟨S65536x100, .f32⟩) main_v814) (TRef.of (T := ⟨S65536x100, .f32⟩) main_call55_v0) (TRef.of (T := ⟨S65536x100, .f32⟩) main_v815) maximumf,
    unary main_arg5 main_v816 ((extractStridedSlice S1x100x64 ![27, 0, 0] · slices_S32x100x64_S1x100x64_27_0_0) : (⟨S32x100x64, .f32⟩ : BufTy).Contents (Elt F) → (⟨S1x100x64, .f32⟩ : BufTy).Contents (Elt F)),
    reshape main_v816 main_v817 rfl shapeCasts_S1x100x64_S100x64,
    binary main_v815 main_v817 main_v818 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v819 ((extractStridedSlice S1x64 ![27, 0] · slices_S32x64_S1x64_27_0) : (⟨S32x64, .f32⟩ : BufTy).Contents (Elt F) → (⟨S1x64, .f32⟩ : BufTy).Contents (Elt F)),
    reshape main_v819 main_v820 rfl shapeCasts_S1x64_S64,
    unary main_v820 main_v821 (broadcastInDim S1x64 ![1] bcast_S64_S1x64_1 : (⟨S64, .f32⟩ : BufTy).Contents (Elt F) → (⟨S1x64, .f32⟩ : BufTy).Contents (Elt F)),
    unary main_v821 main_v822 (broadcastInDim S65536x64 ![0, 1] bcast_S1x64_S65536x64_0_1 : (⟨S1x64, .f32⟩ : BufTy).Contents (Elt F) → (⟨S65536x64, .f32⟩ : BufTy).Contents (Elt F)),
    binary main_v818 main_v822 main_v823 (addf : (⟨S65536x64, .f32⟩ : BufTy).Contents (Elt F) → (⟨S65536x64, .f32⟩ : BufTy).Contents (Elt F) → (⟨S65536x64, .f32⟩ : BufTy).Contents (Elt F)),
    reshape main_v823 main_v824 rfl shapeCasts_S65536x64_S65536x8x8,
    binary main_v796 main_v824 main_v825 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 28 of the sample. -/
abbrev ops28 : List (HloOp τ sig (Elt F)) :=
  [ unary main_arg0 main_v826 ((extractStridedSlice S65536x16 ![0, 448] · slices_S65536x512_S65536x16_0_448) : (⟨S65536x512, .f32⟩ : BufTy).Contents (Elt F) → (⟨S65536x16, .f32⟩ : BufTy).Contents (Elt F)),
    unary main_arg1 main_v827 ((extractStridedSlice S1x16x100 ![28, 0, 0] · slices_S32x16x100_S1x16x100_28_0_0) : (⟨S32x16x100, .f32⟩ : BufTy).Contents (Elt F) → (⟨S1x16x100, .f32⟩ : BufTy).Contents (Elt F)),
    reshape main_v827 main_v828 rfl shapeCasts_S1x16x100_S16x100,
    binary main_v826 main_v828 main_v829 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v830 ((extractStridedSlice S1x100 ![28, 0] · slices_S32x100_S1x100_28_0) : (⟨S32x100, .f32⟩ : BufTy).Contents (Elt F) → (⟨S1x100, .f32⟩ : BufTy).Contents (Elt F)),
    reshape main_v830 main_v831 rfl shapeCasts_S1x100_S100,
    unary main_v831 main_v832 (broadcastInDim S1x100 ![1] bcast_S100_S1x100_1 : (⟨S100, .f32⟩ : BufTy).Contents (Elt F) → (⟨S1x100, .f32⟩ : BufTy).Contents (Elt F)),
    unary main_v832 main_v833 (broadcastInDim S65536x100 ![0, 1] bcast_S1x100_S65536x100_0_1 : (⟨S1x100, .f32⟩ : BufTy).Contents (Elt F) → (⟨S65536x100, .f32⟩ : BufTy).Contents (Elt F)),
    binary main_v829 main_v833 main_v834 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call56_cst) (constant S_ .f32 0x00000000#32),
    TRef.unary (TRef.of (T := ⟨S_, .f32⟩) main_call56_cst) (TRef.of (T := ⟨S65536x100, .f32⟩) main_call56_v0) (broadcastInDim S65536x100 ![] bcast_S_S65536x100),
    TRef.binary (TRef.of (T := ⟨S65536x100, .f32⟩) main_v834) (TRef.of (T := ⟨S65536x100, .f32⟩) main_call56_v0) (TRef.of (T := ⟨S65536x100, .f32⟩) main_v835) maximumf,
    unary main_arg3 main_v836 ((extractStridedSlice S1x100x100 ![28, 0, 0] · slices_S32x100x100_S1x100x100_28_0_0) : (⟨S32x100x100, .f32⟩ : BufTy).Contents (Elt F) → (⟨S1x100x100, .f32⟩ : BufTy).Contents (Elt F)),
    reshape main_v836 main_v837 rfl shapeCasts_S1x100x100_S100x100,
    binary main_v835 main_v837 main_v838 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v839 ((extractStridedSlice S1x100 ![28, 0] · slices_S32x100_S1x100_28_0) : (⟨S32x100, .f32⟩ : BufTy).Contents (Elt F) → (⟨S1x100, .f32⟩ : BufTy).Contents (Elt F)),
    reshape main_v839 main_v840 rfl shapeCasts_S1x100_S100,
    unary main_v840 main_v841 (broadcastInDim S1x100 ![1] bcast_S100_S1x100_1 : (⟨S100, .f32⟩ : BufTy).Contents (Elt F) → (⟨S1x100, .f32⟩ : BufTy).Contents (Elt F)),
    unary main_v841 main_v842 (broadcastInDim S65536x100 ![0, 1] bcast_S1x100_S65536x100_0_1 : (⟨S1x100, .f32⟩ : BufTy).Contents (Elt F) → (⟨S65536x100, .f32⟩ : BufTy).Contents (Elt F)),
    binary main_v838 main_v842 main_v843 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call57_cst) (constant S_ .f32 0x00000000#32),
    TRef.unary (TRef.of (T := ⟨S_, .f32⟩) main_call57_cst) (TRef.of (T := ⟨S65536x100, .f32⟩) main_call57_v0) (broadcastInDim S65536x100 ![] bcast_S_S65536x100),
    TRef.binary (TRef.of (T := ⟨S65536x100, .f32⟩) main_v843) (TRef.of (T := ⟨S65536x100, .f32⟩) main_call57_v0) (TRef.of (T := ⟨S65536x100, .f32⟩) main_v844) maximumf,
    unary main_arg5 main_v845 ((extractStridedSlice S1x100x64 ![28, 0, 0] · slices_S32x100x64_S1x100x64_28_0_0) : (⟨S32x100x64, .f32⟩ : BufTy).Contents (Elt F) → (⟨S1x100x64, .f32⟩ : BufTy).Contents (Elt F)),
    reshape main_v845 main_v846 rfl shapeCasts_S1x100x64_S100x64,
    binary main_v844 main_v846 main_v847 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v848 ((extractStridedSlice S1x64 ![28, 0] · slices_S32x64_S1x64_28_0) : (⟨S32x64, .f32⟩ : BufTy).Contents (Elt F) → (⟨S1x64, .f32⟩ : BufTy).Contents (Elt F)),
    reshape main_v848 main_v849 rfl shapeCasts_S1x64_S64,
    unary main_v849 main_v850 (broadcastInDim S1x64 ![1] bcast_S64_S1x64_1 : (⟨S64, .f32⟩ : BufTy).Contents (Elt F) → (⟨S1x64, .f32⟩ : BufTy).Contents (Elt F)),
    unary main_v850 main_v851 (broadcastInDim S65536x64 ![0, 1] bcast_S1x64_S65536x64_0_1 : (⟨S1x64, .f32⟩ : BufTy).Contents (Elt F) → (⟨S65536x64, .f32⟩ : BufTy).Contents (Elt F)),
    binary main_v847 main_v851 main_v852 (addf : (⟨S65536x64, .f32⟩ : BufTy).Contents (Elt F) → (⟨S65536x64, .f32⟩ : BufTy).Contents (Elt F) → (⟨S65536x64, .f32⟩ : BufTy).Contents (Elt F)),
    reshape main_v852 main_v853 rfl shapeCasts_S65536x64_S65536x8x8,
    binary main_v825 main_v853 main_v854 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 29 of the sample. -/
abbrev ops29 : List (HloOp τ sig (Elt F)) :=
  [ unary main_arg0 main_v855 ((extractStridedSlice S65536x16 ![0, 464] · slices_S65536x512_S65536x16_0_464) : (⟨S65536x512, .f32⟩ : BufTy).Contents (Elt F) → (⟨S65536x16, .f32⟩ : BufTy).Contents (Elt F)),
    unary main_arg1 main_v856 ((extractStridedSlice S1x16x100 ![29, 0, 0] · slices_S32x16x100_S1x16x100_29_0_0) : (⟨S32x16x100, .f32⟩ : BufTy).Contents (Elt F) → (⟨S1x16x100, .f32⟩ : BufTy).Contents (Elt F)),
    reshape main_v856 main_v857 rfl shapeCasts_S1x16x100_S16x100,
    binary main_v855 main_v857 main_v858 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v859 ((extractStridedSlice S1x100 ![29, 0] · slices_S32x100_S1x100_29_0) : (⟨S32x100, .f32⟩ : BufTy).Contents (Elt F) → (⟨S1x100, .f32⟩ : BufTy).Contents (Elt F)),
    reshape main_v859 main_v860 rfl shapeCasts_S1x100_S100,
    unary main_v860 main_v861 (broadcastInDim S1x100 ![1] bcast_S100_S1x100_1 : (⟨S100, .f32⟩ : BufTy).Contents (Elt F) → (⟨S1x100, .f32⟩ : BufTy).Contents (Elt F)),
    unary main_v861 main_v862 (broadcastInDim S65536x100 ![0, 1] bcast_S1x100_S65536x100_0_1 : (⟨S1x100, .f32⟩ : BufTy).Contents (Elt F) → (⟨S65536x100, .f32⟩ : BufTy).Contents (Elt F)),
    binary main_v858 main_v862 main_v863 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call58_cst) (constant S_ .f32 0x00000000#32),
    TRef.unary (TRef.of (T := ⟨S_, .f32⟩) main_call58_cst) (TRef.of (T := ⟨S65536x100, .f32⟩) main_call58_v0) (broadcastInDim S65536x100 ![] bcast_S_S65536x100),
    TRef.binary (TRef.of (T := ⟨S65536x100, .f32⟩) main_v863) (TRef.of (T := ⟨S65536x100, .f32⟩) main_call58_v0) (TRef.of (T := ⟨S65536x100, .f32⟩) main_v864) maximumf,
    unary main_arg3 main_v865 ((extractStridedSlice S1x100x100 ![29, 0, 0] · slices_S32x100x100_S1x100x100_29_0_0) : (⟨S32x100x100, .f32⟩ : BufTy).Contents (Elt F) → (⟨S1x100x100, .f32⟩ : BufTy).Contents (Elt F)),
    reshape main_v865 main_v866 rfl shapeCasts_S1x100x100_S100x100,
    binary main_v864 main_v866 main_v867 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v868 ((extractStridedSlice S1x100 ![29, 0] · slices_S32x100_S1x100_29_0) : (⟨S32x100, .f32⟩ : BufTy).Contents (Elt F) → (⟨S1x100, .f32⟩ : BufTy).Contents (Elt F)),
    reshape main_v868 main_v869 rfl shapeCasts_S1x100_S100,
    unary main_v869 main_v870 (broadcastInDim S1x100 ![1] bcast_S100_S1x100_1 : (⟨S100, .f32⟩ : BufTy).Contents (Elt F) → (⟨S1x100, .f32⟩ : BufTy).Contents (Elt F)),
    unary main_v870 main_v871 (broadcastInDim S65536x100 ![0, 1] bcast_S1x100_S65536x100_0_1 : (⟨S1x100, .f32⟩ : BufTy).Contents (Elt F) → (⟨S65536x100, .f32⟩ : BufTy).Contents (Elt F)),
    binary main_v867 main_v871 main_v872 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call59_cst) (constant S_ .f32 0x00000000#32),
    TRef.unary (TRef.of (T := ⟨S_, .f32⟩) main_call59_cst) (TRef.of (T := ⟨S65536x100, .f32⟩) main_call59_v0) (broadcastInDim S65536x100 ![] bcast_S_S65536x100),
    TRef.binary (TRef.of (T := ⟨S65536x100, .f32⟩) main_v872) (TRef.of (T := ⟨S65536x100, .f32⟩) main_call59_v0) (TRef.of (T := ⟨S65536x100, .f32⟩) main_v873) maximumf,
    unary main_arg5 main_v874 ((extractStridedSlice S1x100x64 ![29, 0, 0] · slices_S32x100x64_S1x100x64_29_0_0) : (⟨S32x100x64, .f32⟩ : BufTy).Contents (Elt F) → (⟨S1x100x64, .f32⟩ : BufTy).Contents (Elt F)),
    reshape main_v874 main_v875 rfl shapeCasts_S1x100x64_S100x64,
    binary main_v873 main_v875 main_v876 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v877 ((extractStridedSlice S1x64 ![29, 0] · slices_S32x64_S1x64_29_0) : (⟨S32x64, .f32⟩ : BufTy).Contents (Elt F) → (⟨S1x64, .f32⟩ : BufTy).Contents (Elt F)),
    reshape main_v877 main_v878 rfl shapeCasts_S1x64_S64,
    unary main_v878 main_v879 (broadcastInDim S1x64 ![1] bcast_S64_S1x64_1 : (⟨S64, .f32⟩ : BufTy).Contents (Elt F) → (⟨S1x64, .f32⟩ : BufTy).Contents (Elt F)),
    unary main_v879 main_v880 (broadcastInDim S65536x64 ![0, 1] bcast_S1x64_S65536x64_0_1 : (⟨S1x64, .f32⟩ : BufTy).Contents (Elt F) → (⟨S65536x64, .f32⟩ : BufTy).Contents (Elt F)),
    binary main_v876 main_v880 main_v881 (addf : (⟨S65536x64, .f32⟩ : BufTy).Contents (Elt F) → (⟨S65536x64, .f32⟩ : BufTy).Contents (Elt F) → (⟨S65536x64, .f32⟩ : BufTy).Contents (Elt F)),
    reshape main_v881 main_v882 rfl shapeCasts_S65536x64_S65536x8x8,
    binary main_v854 main_v882 main_v883 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 30 of the sample. -/
abbrev ops30 : List (HloOp τ sig (Elt F)) :=
  [ unary main_arg0 main_v884 ((extractStridedSlice S65536x16 ![0, 480] · slices_S65536x512_S65536x16_0_480) : (⟨S65536x512, .f32⟩ : BufTy).Contents (Elt F) → (⟨S65536x16, .f32⟩ : BufTy).Contents (Elt F)),
    unary main_arg1 main_v885 ((extractStridedSlice S1x16x100 ![30, 0, 0] · slices_S32x16x100_S1x16x100_30_0_0) : (⟨S32x16x100, .f32⟩ : BufTy).Contents (Elt F) → (⟨S1x16x100, .f32⟩ : BufTy).Contents (Elt F)),
    reshape main_v885 main_v886 rfl shapeCasts_S1x16x100_S16x100,
    binary main_v884 main_v886 main_v887 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v888 ((extractStridedSlice S1x100 ![30, 0] · slices_S32x100_S1x100_30_0) : (⟨S32x100, .f32⟩ : BufTy).Contents (Elt F) → (⟨S1x100, .f32⟩ : BufTy).Contents (Elt F)),
    reshape main_v888 main_v889 rfl shapeCasts_S1x100_S100,
    unary main_v889 main_v890 (broadcastInDim S1x100 ![1] bcast_S100_S1x100_1 : (⟨S100, .f32⟩ : BufTy).Contents (Elt F) → (⟨S1x100, .f32⟩ : BufTy).Contents (Elt F)),
    unary main_v890 main_v891 (broadcastInDim S65536x100 ![0, 1] bcast_S1x100_S65536x100_0_1 : (⟨S1x100, .f32⟩ : BufTy).Contents (Elt F) → (⟨S65536x100, .f32⟩ : BufTy).Contents (Elt F)),
    binary main_v887 main_v891 main_v892 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call60_cst) (constant S_ .f32 0x00000000#32),
    TRef.unary (TRef.of (T := ⟨S_, .f32⟩) main_call60_cst) (TRef.of (T := ⟨S65536x100, .f32⟩) main_call60_v0) (broadcastInDim S65536x100 ![] bcast_S_S65536x100),
    TRef.binary (TRef.of (T := ⟨S65536x100, .f32⟩) main_v892) (TRef.of (T := ⟨S65536x100, .f32⟩) main_call60_v0) (TRef.of (T := ⟨S65536x100, .f32⟩) main_v893) maximumf,
    unary main_arg3 main_v894 ((extractStridedSlice S1x100x100 ![30, 0, 0] · slices_S32x100x100_S1x100x100_30_0_0) : (⟨S32x100x100, .f32⟩ : BufTy).Contents (Elt F) → (⟨S1x100x100, .f32⟩ : BufTy).Contents (Elt F)),
    reshape main_v894 main_v895 rfl shapeCasts_S1x100x100_S100x100,
    binary main_v893 main_v895 main_v896 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v897 ((extractStridedSlice S1x100 ![30, 0] · slices_S32x100_S1x100_30_0) : (⟨S32x100, .f32⟩ : BufTy).Contents (Elt F) → (⟨S1x100, .f32⟩ : BufTy).Contents (Elt F)),
    reshape main_v897 main_v898 rfl shapeCasts_S1x100_S100,
    unary main_v898 main_v899 (broadcastInDim S1x100 ![1] bcast_S100_S1x100_1 : (⟨S100, .f32⟩ : BufTy).Contents (Elt F) → (⟨S1x100, .f32⟩ : BufTy).Contents (Elt F)),
    unary main_v899 main_v900 (broadcastInDim S65536x100 ![0, 1] bcast_S1x100_S65536x100_0_1 : (⟨S1x100, .f32⟩ : BufTy).Contents (Elt F) → (⟨S65536x100, .f32⟩ : BufTy).Contents (Elt F)),
    binary main_v896 main_v900 main_v901 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call61_cst) (constant S_ .f32 0x00000000#32),
    TRef.unary (TRef.of (T := ⟨S_, .f32⟩) main_call61_cst) (TRef.of (T := ⟨S65536x100, .f32⟩) main_call61_v0) (broadcastInDim S65536x100 ![] bcast_S_S65536x100),
    TRef.binary (TRef.of (T := ⟨S65536x100, .f32⟩) main_v901) (TRef.of (T := ⟨S65536x100, .f32⟩) main_call61_v0) (TRef.of (T := ⟨S65536x100, .f32⟩) main_v902) maximumf,
    unary main_arg5 main_v903 ((extractStridedSlice S1x100x64 ![30, 0, 0] · slices_S32x100x64_S1x100x64_30_0_0) : (⟨S32x100x64, .f32⟩ : BufTy).Contents (Elt F) → (⟨S1x100x64, .f32⟩ : BufTy).Contents (Elt F)),
    reshape main_v903 main_v904 rfl shapeCasts_S1x100x64_S100x64,
    binary main_v902 main_v904 main_v905 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v906 ((extractStridedSlice S1x64 ![30, 0] · slices_S32x64_S1x64_30_0) : (⟨S32x64, .f32⟩ : BufTy).Contents (Elt F) → (⟨S1x64, .f32⟩ : BufTy).Contents (Elt F)),
    reshape main_v906 main_v907 rfl shapeCasts_S1x64_S64,
    unary main_v907 main_v908 (broadcastInDim S1x64 ![1] bcast_S64_S1x64_1 : (⟨S64, .f32⟩ : BufTy).Contents (Elt F) → (⟨S1x64, .f32⟩ : BufTy).Contents (Elt F)),
    unary main_v908 main_v909 (broadcastInDim S65536x64 ![0, 1] bcast_S1x64_S65536x64_0_1 : (⟨S1x64, .f32⟩ : BufTy).Contents (Elt F) → (⟨S65536x64, .f32⟩ : BufTy).Contents (Elt F)),
    binary main_v905 main_v909 main_v910 (addf : (⟨S65536x64, .f32⟩ : BufTy).Contents (Elt F) → (⟨S65536x64, .f32⟩ : BufTy).Contents (Elt F) → (⟨S65536x64, .f32⟩ : BufTy).Contents (Elt F)),
    reshape main_v910 main_v911 rfl shapeCasts_S65536x64_S65536x8x8,
    binary main_v883 main_v911 main_v912 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations that treat piece 31 of the sample. -/
abbrev ops31 : List (HloOp τ sig (Elt F)) :=
  [ unary main_arg0 main_v913 ((extractStridedSlice S65536x16 ![0, 496] · slices_S65536x512_S65536x16_0_496) : (⟨S65536x512, .f32⟩ : BufTy).Contents (Elt F) → (⟨S65536x16, .f32⟩ : BufTy).Contents (Elt F)),
    unary main_arg1 main_v914 ((extractStridedSlice S1x16x100 ![31, 0, 0] · slices_S32x16x100_S1x16x100_31_0_0) : (⟨S32x16x100, .f32⟩ : BufTy).Contents (Elt F) → (⟨S1x16x100, .f32⟩ : BufTy).Contents (Elt F)),
    reshape main_v914 main_v915 rfl shapeCasts_S1x16x100_S16x100,
    binary main_v913 main_v915 main_v916 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v917 ((extractStridedSlice S1x100 ![31, 0] · slices_S32x100_S1x100_31_0) : (⟨S32x100, .f32⟩ : BufTy).Contents (Elt F) → (⟨S1x100, .f32⟩ : BufTy).Contents (Elt F)),
    reshape main_v917 main_v918 rfl shapeCasts_S1x100_S100,
    unary main_v918 main_v919 (broadcastInDim S1x100 ![1] bcast_S100_S1x100_1 : (⟨S100, .f32⟩ : BufTy).Contents (Elt F) → (⟨S1x100, .f32⟩ : BufTy).Contents (Elt F)),
    unary main_v919 main_v920 (broadcastInDim S65536x100 ![0, 1] bcast_S1x100_S65536x100_0_1 : (⟨S1x100, .f32⟩ : BufTy).Contents (Elt F) → (⟨S65536x100, .f32⟩ : BufTy).Contents (Elt F)),
    binary main_v916 main_v920 main_v921 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call62_cst) (constant S_ .f32 0x00000000#32),
    TRef.unary (TRef.of (T := ⟨S_, .f32⟩) main_call62_cst) (TRef.of (T := ⟨S65536x100, .f32⟩) main_call62_v0) (broadcastInDim S65536x100 ![] bcast_S_S65536x100),
    TRef.binary (TRef.of (T := ⟨S65536x100, .f32⟩) main_v921) (TRef.of (T := ⟨S65536x100, .f32⟩) main_call62_v0) (TRef.of (T := ⟨S65536x100, .f32⟩) main_v922) maximumf,
    unary main_arg3 main_v923 ((extractStridedSlice S1x100x100 ![31, 0, 0] · slices_S32x100x100_S1x100x100_31_0_0) : (⟨S32x100x100, .f32⟩ : BufTy).Contents (Elt F) → (⟨S1x100x100, .f32⟩ : BufTy).Contents (Elt F)),
    reshape main_v923 main_v924 rfl shapeCasts_S1x100x100_S100x100,
    binary main_v922 main_v924 main_v925 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v926 ((extractStridedSlice S1x100 ![31, 0] · slices_S32x100_S1x100_31_0) : (⟨S32x100, .f32⟩ : BufTy).Contents (Elt F) → (⟨S1x100, .f32⟩ : BufTy).Contents (Elt F)),
    reshape main_v926 main_v927 rfl shapeCasts_S1x100_S100,
    unary main_v927 main_v928 (broadcastInDim S1x100 ![1] bcast_S100_S1x100_1 : (⟨S100, .f32⟩ : BufTy).Contents (Elt F) → (⟨S1x100, .f32⟩ : BufTy).Contents (Elt F)),
    unary main_v928 main_v929 (broadcastInDim S65536x100 ![0, 1] bcast_S1x100_S65536x100_0_1 : (⟨S1x100, .f32⟩ : BufTy).Contents (Elt F) → (⟨S65536x100, .f32⟩ : BufTy).Contents (Elt F)),
    binary main_v925 main_v929 main_v930 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call63_cst) (constant S_ .f32 0x00000000#32),
    TRef.unary (TRef.of (T := ⟨S_, .f32⟩) main_call63_cst) (TRef.of (T := ⟨S65536x100, .f32⟩) main_call63_v0) (broadcastInDim S65536x100 ![] bcast_S_S65536x100),
    TRef.binary (TRef.of (T := ⟨S65536x100, .f32⟩) main_v930) (TRef.of (T := ⟨S65536x100, .f32⟩) main_call63_v0) (TRef.of (T := ⟨S65536x100, .f32⟩) main_v931) maximumf,
    unary main_arg5 main_v932 ((extractStridedSlice S1x100x64 ![31, 0, 0] · slices_S32x100x64_S1x100x64_31_0_0) : (⟨S32x100x64, .f32⟩ : BufTy).Contents (Elt F) → (⟨S1x100x64, .f32⟩ : BufTy).Contents (Elt F)),
    reshape main_v932 main_v933 rfl shapeCasts_S1x100x64_S100x64,
    unary main_v933 main_v934 ((extractStridedSlice S100x8 ![0, 0] · slices_S100x64_S100x8_0_0) : (⟨S100x64, .f32⟩ : BufTy).Contents (Elt F) → (⟨S100x8, .f32⟩ : BufTy).Contents (Elt F)),
    binary main_v931 main_v934 main_v935 ((fun l r => Host.dotGeneral dot_S65536x100_S100x8_S65536x8_1_0_0_1_n_n none l r) : (⟨S65536x100, .f32⟩ : BufTy).Contents (Elt F) → (⟨S100x8, .f32⟩ : BufTy).Contents (Elt F) → (⟨S65536x8, .f32⟩ : BufTy).Contents (Elt F)),
    unary main_arg6 main_v936 ((extractStridedSlice S1x64 ![31, 0] · slices_S32x64_S1x64_31_0) : (⟨S32x64, .f32⟩ : BufTy).Contents (Elt F) → (⟨S1x64, .f32⟩ : BufTy).Contents (Elt F)),
    reshape main_v936 main_v937 rfl shapeCasts_S1x64_S64,
    unary main_v937 main_v938 ((extractStridedSlice S8 ![0] · slices_S64_S8_0) : (⟨S64, .f32⟩ : BufTy).Contents (Elt F) → (⟨S8, .f32⟩ : BufTy).Contents (Elt F)),
    unary main_v938 main_v939 (broadcastInDim S1x8 ![1] bcast_S8_S1x8_1 : (⟨S8, .f32⟩ : BufTy).Contents (Elt F) → (⟨S1x8, .f32⟩ : BufTy).Contents (Elt F)),
    unary main_v939 main_v940 (broadcastInDim S65536x8 ![0, 1] bcast_S1x8_S65536x8_0_1 : (⟨S1x8, .f32⟩ : BufTy).Contents (Elt F) → (⟨S65536x8, .f32⟩ : BufTy).Contents (Elt F)),
    binary main_v935 main_v940 main_v941 (addf : (⟨S65536x8, .f32⟩ : BufTy).Contents (Elt F) → (⟨S65536x8, .f32⟩ : BufTy).Contents (Elt F) → (⟨S65536x8, .f32⟩ : BufTy).Contents (Elt F)),
    reshape main_v941 main_v942 rfl shapeCasts_S65536x8_S65536x8x1,
    binary main_v912 main_v942 main_v943 ((fun l r => Host.dotGeneral dot_S65536x1x8_S65536x8x1_S65536x1x1_2_1_1_2_0_0 none l r) : (⟨S65536x1x8, .f32⟩ : BufTy).Contents (Elt F) → (⟨S65536x8x1, .f32⟩ : BufTy).Contents (Elt F) → (⟨S65536x1x1, .f32⟩ : BufTy).Contents (Elt F)),
    reshape main_v943 main_v944 rfl shapeCasts_S65536x1x1_S65536x1 ]

/-- The operations of window 0 of the printed program. -/
abbrev part0 : List (HloOp τ sig (Elt F)) :=
  [ nullary main_cst (constant S_ .f32 0x3F800000#32),
    unary main_cst main_v0 (broadcastInDim S65536x1x1 ![] bcast_S_S65536x1x1 : (⟨S_, .f32⟩ : BufTy).Contents (Elt F) → (⟨S65536x1x1, .f32⟩ : BufTy).Contents (Elt F)),
    unary main_arg0 main_v1 ((extractStridedSlice S65536x16 ![0, 0] · slices_S65536x512_S65536x16_0_0) : (⟨S65536x512, .f32⟩ : BufTy).Contents (Elt F) → (⟨S65536x16, .f32⟩ : BufTy).Contents (Elt F)),
    unary main_arg1 main_v2 ((extractStridedSlice S1x16x100 ![0, 0, 0] · slices_S32x16x100_S1x16x100_0_0_0) : (⟨S32x16x100, .f32⟩ : BufTy).Contents (Elt F) → (⟨S1x16x100, .f32⟩ : BufTy).Contents (Elt F)),
    reshape main_v2 main_v3 rfl shapeCasts_S1x16x100_S16x100,
    binary main_v1 main_v3 main_v4 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v5 ((extractStridedSlice S1x100 ![0, 0] · slices_S32x100_S1x100_0_0) : (⟨S32x100, .f32⟩ : BufTy).Contents (Elt F) → (⟨S1x100, .f32⟩ : BufTy).Contents (Elt F)),
    reshape main_v5 main_v6 rfl shapeCasts_S1x100_S100,
    unary main_v6 main_v7 (broadcastInDim S1x100 ![1] bcast_S100_S1x100_1 : (⟨S100, .f32⟩ : BufTy).Contents (Elt F) → (⟨S1x100, .f32⟩ : BufTy).Contents (Elt F)),
    unary main_v7 main_v8 (broadcastInDim S65536x100 ![0, 1] bcast_S1x100_S65536x100_0_1 : (⟨S1x100, .f32⟩ : BufTy).Contents (Elt F) → (⟨S65536x100, .f32⟩ : BufTy).Contents (Elt F)),
    binary main_v4 main_v8 main_v9 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x100, .f32⟩) main_call0_v0) (broadcastInDim S65536x100 ![] bcast_S_S65536x100),
    TRef.binary (TRef.of (T := ⟨S65536x100, .f32⟩) main_v9) (TRef.of (T := ⟨S65536x100, .f32⟩) main_call0_v0) (TRef.of (T := ⟨S65536x100, .f32⟩) main_v10) maximumf,
    unary main_arg3 main_v11 ((extractStridedSlice S1x100x100 ![0, 0, 0] · slices_S32x100x100_S1x100x100_0_0_0) : (⟨S32x100x100, .f32⟩ : BufTy).Contents (Elt F) → (⟨S1x100x100, .f32⟩ : BufTy).Contents (Elt F)),
    reshape main_v11 main_v12 rfl shapeCasts_S1x100x100_S100x100,
    binary main_v10 main_v12 main_v13 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v14 ((extractStridedSlice S1x100 ![0, 0] · slices_S32x100_S1x100_0_0) : (⟨S32x100, .f32⟩ : BufTy).Contents (Elt F) → (⟨S1x100, .f32⟩ : BufTy).Contents (Elt F)),
    reshape main_v14 main_v15 rfl shapeCasts_S1x100_S100,
    unary main_v15 main_v16 (broadcastInDim S1x100 ![1] bcast_S100_S1x100_1 : (⟨S100, .f32⟩ : BufTy).Contents (Elt F) → (⟨S1x100, .f32⟩ : BufTy).Contents (Elt F)),
    unary main_v16 main_v17 (broadcastInDim S65536x100 ![0, 1] bcast_S1x100_S65536x100_0_1 : (⟨S1x100, .f32⟩ : BufTy).Contents (Elt F) → (⟨S65536x100, .f32⟩ : BufTy).Contents (Elt F)),
    binary main_v13 main_v17 main_v18 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x100, .f32⟩) main_call1_v0) (broadcastInDim S65536x100 ![] bcast_S_S65536x100),
    TRef.binary (TRef.of (T := ⟨S65536x100, .f32⟩) main_v18) (TRef.of (T := ⟨S65536x100, .f32⟩) main_call1_v0) (TRef.of (T := ⟨S65536x100, .f32⟩) main_v19) maximumf,
    unary main_arg5 main_v20 ((extractStridedSlice S1x100x64 ![0, 0, 0] · slices_S32x100x64_S1x100x64_0_0_0) : (⟨S32x100x64, .f32⟩ : BufTy).Contents (Elt F) → (⟨S1x100x64, .f32⟩ : BufTy).Contents (Elt F)),
    reshape main_v20 main_v21 rfl shapeCasts_S1x100x64_S100x64,
    unary main_v21 main_v22 ((extractStridedSlice S100x8 ![0, 0] · slices_S100x64_S100x8_0_0) : (⟨S100x64, .f32⟩ : BufTy).Contents (Elt F) → (⟨S100x8, .f32⟩ : BufTy).Contents (Elt F)),
    binary main_v19 main_v22 main_v23 ((fun l r => Host.dotGeneral dot_S65536x100_S100x8_S65536x8_1_0_0_1_n_n none l r) : (⟨S65536x100, .f32⟩ : BufTy).Contents (Elt F) → (⟨S100x8, .f32⟩ : BufTy).Contents (Elt F) → (⟨S65536x8, .f32⟩ : BufTy).Contents (Elt F)),
    unary main_arg6 main_v24 ((extractStridedSlice S1x64 ![0, 0] · slices_S32x64_S1x64_0_0) : (⟨S32x64, .f32⟩ : BufTy).Contents (Elt F) → (⟨S1x64, .f32⟩ : BufTy).Contents (Elt F)),
    reshape main_v24 main_v25 rfl shapeCasts_S1x64_S64,
    unary main_v25 main_v26 ((extractStridedSlice S8 ![0] · slices_S64_S8_0) : (⟨S64, .f32⟩ : BufTy).Contents (Elt F) → (⟨S8, .f32⟩ : BufTy).Contents (Elt F)),
    unary main_v26 main_v27 (broadcastInDim S1x8 ![1] bcast_S8_S1x8_1 : (⟨S8, .f32⟩ : BufTy).Contents (Elt F) → (⟨S1x8, .f32⟩ : BufTy).Contents (Elt F)),
    unary main_v27 main_v28 (broadcastInDim S65536x8 ![0, 1] bcast_S1x8_S65536x8_0_1 : (⟨S1x8, .f32⟩ : BufTy).Contents (Elt F) → (⟨S65536x8, .f32⟩ : BufTy).Contents (Elt F)),
    binary main_v23 main_v28 main_v29 (addf : (⟨S65536x8, .f32⟩ : BufTy).Contents (Elt F) → (⟨S65536x8, .f32⟩ : BufTy).Contents (Elt F) → (⟨S65536x8, .f32⟩ : BufTy).Contents (Elt F)),
    nullary main_cst_0 (constant S_ .f32 0xFF800000#32),
    binary main_v29 main_cst_0 main_v30 ((fun x v => Host.reduce FloatOps.maximumf x v reducesTo_S65536x8_S65536_d1 h_S_) : (⟨S65536x8, .f32⟩ : BufTy).Contents (Elt F) → (⟨S_, .f32⟩ : BufTy).Contents (Elt F) → (⟨S65536, .f32⟩ : BufTy).Contents (Elt F)),
    nullary main_cst_1 (constant S_ .f32 0xFF800000#32),
    unary main_cst_1 main_v31 (broadcastInDim S65536 ![] bcast_S_S65536 : (⟨S_, .f32⟩ : BufTy).Contents (Elt F) → (⟨S65536, .f32⟩ : BufTy).Contents (Elt F)),
    binary main_v31 main_v30 main_v32 (maximumf : (⟨S65536, .f32⟩ : BufTy).Contents (Elt F) → (⟨S65536, .f32⟩ : BufTy).Contents (Elt F) → (⟨S65536, .f32⟩ : BufTy).Contents (Elt F)),
    unary main_v32 main_v33 (broadcastInDim S65536x1 ![0] bcast_S65536_S65536x1_0 : (⟨S65536, .f32⟩ : BufTy).Contents (Elt F) → (⟨S65536x1, .f32⟩ : BufTy).Contents (Elt F)),
    unary main_v33 main_v34 (broadcastInDim S65536x8 ![0, 1] bcast_S65536x1_S65536x8_0_1 : (⟨S65536x1, .f32⟩ : BufTy).Contents (Elt F) → (⟨S65536x8, .f32⟩ : BufTy).Contents (Elt F)),
    binary main_v29 main_v34 main_v35 (subf : (⟨S65536x8, .f32⟩ : BufTy).Contents (Elt F) → (⟨S65536x8, .f32⟩ : BufTy).Contents (Elt F) → (⟨S65536x8, .f32⟩ : BufTy).Contents (Elt F)),
    unary main_v35 main_v36 (Host.exp : (⟨S65536x8, .f32⟩ : BufTy).Contents (Elt F) → (⟨S65536x8, .f32⟩ : BufTy).Contents (Elt F)),
    nullary main_cst_2 (constant S_ .f32 0x00000000#32),
    binary main_v36 main_cst_2 main_v37 ((fun x v => Host.reduceAdd x v reducesTo_S65536x8_S65536_d1 h_S_) : (⟨S65536x8, .f32⟩ : BufTy).Contents (Elt F) → (⟨S_, .f32⟩ : BufTy).Contents (Elt F) → (⟨S65536, .f32⟩ : BufTy).Contents (Elt F)),
    unary main_v37 main_v38 (broadcastInDim S65536x1 ![0] bcast_S65536_S65536x1_0 : (⟨S65536, .f32⟩ : BufTy).Contents (Elt F) → (⟨S65536x1, .f32⟩ : BufTy).Contents (Elt F)),
    unary main_v38 main_v39 (broadcastInDim S65536x8 ![0, 1] bcast_S65536x1_S65536x8_0_1 : (⟨S65536x1, .f32⟩ : BufTy).Contents (Elt F) → (⟨S65536x8, .f32⟩ : BufTy).Contents (Elt F)),
    binary main_v36 main_v39 main_v40 (Host.divf : (⟨S65536x8, .f32⟩ : BufTy).Contents (Elt F) → (⟨S65536x8, .f32⟩ : BufTy).Contents (Elt F) → (⟨S65536x8, .f32⟩ : BufTy).Contents (Elt F)),
    reshape main_v40 main_v41 rfl shapeCasts_S65536x8_S65536x1x8,
    binary main_v0 main_v41 main_v42 ((fun l r => Host.dotGeneral dot_S65536x1x1_S65536x1x8_S65536x1x8_2_1_1_2_0_0 none l r) : (⟨S65536x1x1, .f32⟩ : BufTy).Contents (Elt F) → (⟨S65536x1x8, .f32⟩ : BufTy).Contents (Elt F) → (⟨S65536x1x8, .f32⟩ : BufTy).Contents (Elt F)),
    unary main_arg0 main_v43 ((extractStridedSlice S65536x16 ![0, 16] · slices_S65536x512_S65536x16_0_16) : (⟨S65536x512, .f32⟩ : BufTy).Contents (Elt F) → (⟨S65536x16, .f32⟩ : BufTy).Contents (Elt F)),
    unary main_arg1 main_v44 ((extractStridedSlice S1x16x100 ![1, 0, 0] · slices_S32x16x100_S1x16x100_1_0_0) : (⟨S32x16x100, .f32⟩ : BufTy).Contents (Elt F) → (⟨S1x16x100, .f32⟩ : BufTy).Contents (Elt F)),
    reshape main_v44 main_v45 rfl shapeCasts_S1x16x100_S16x100,
    binary main_v43 main_v45 main_v46 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v47 ((extractStridedSlice S1x100 ![1, 0] · slices_S32x100_S1x100_1_0) : (⟨S32x100, .f32⟩ : BufTy).Contents (Elt F) → (⟨S1x100, .f32⟩ : BufTy).Contents (Elt F)),
    reshape main_v47 main_v48 rfl shapeCasts_S1x100_S100,
    unary main_v48 main_v49 (broadcastInDim S1x100 ![1] bcast_S100_S1x100_1 : (⟨S100, .f32⟩ : BufTy).Contents (Elt F) → (⟨S1x100, .f32⟩ : BufTy).Contents (Elt F)),
    unary main_v49 main_v50 (broadcastInDim S65536x100 ![0, 1] bcast_S1x100_S65536x100_0_1 : (⟨S1x100, .f32⟩ : BufTy).Contents (Elt F) → (⟨S65536x100, .f32⟩ : BufTy).Contents (Elt F)),
    binary main_v46 main_v50 main_v51 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x100, .f32⟩) main_call2_v0) (broadcastInDim S65536x100 ![] bcast_S_S65536x100),
    TRef.binary (TRef.of (T := ⟨S65536x100, .f32⟩) main_v51) (TRef.of (T := ⟨S65536x100, .f32⟩) main_call2_v0) (TRef.of (T := ⟨S65536x100, .f32⟩) main_v52) maximumf,
    unary main_arg3 main_v53 ((extractStridedSlice S1x100x100 ![1, 0, 0] · slices_S32x100x100_S1x100x100_1_0_0) : (⟨S32x100x100, .f32⟩ : BufTy).Contents (Elt F) → (⟨S1x100x100, .f32⟩ : BufTy).Contents (Elt F)),
    reshape main_v53 main_v54 rfl shapeCasts_S1x100x100_S100x100,
    binary main_v52 main_v54 main_v55 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)) ]

/-- The operations of window 1 of the printed program. -/
abbrev part1 : List (HloOp τ sig (Elt F)) :=
  [ unary main_arg4 main_v56 ((extractStridedSlice S1x100 ![1, 0] · slices_S32x100_S1x100_1_0) : (⟨S32x100, .f32⟩ : BufTy).Contents (Elt F) → (⟨S1x100, .f32⟩ : BufTy).Contents (Elt F)),
    reshape main_v56 main_v57 rfl shapeCasts_S1x100_S100,
    unary main_v57 main_v58 (broadcastInDim S1x100 ![1] bcast_S100_S1x100_1 : (⟨S100, .f32⟩ : BufTy).Contents (Elt F) → (⟨S1x100, .f32⟩ : BufTy).Contents (Elt F)),
    unary main_v58 main_v59 (broadcastInDim S65536x100 ![0, 1] bcast_S1x100_S65536x100_0_1 : (⟨S1x100, .f32⟩ : BufTy).Contents (Elt F) → (⟨S65536x100, .f32⟩ : BufTy).Contents (Elt F)),
    binary main_v55 main_v59 main_v60 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x100, .f32⟩) main_call3_v0) (broadcastInDim S65536x100 ![] bcast_S_S65536x100),
    TRef.binary (TRef.of (T := ⟨S65536x100, .f32⟩) main_v60) (TRef.of (T := ⟨S65536x100, .f32⟩) main_call3_v0) (TRef.of (T := ⟨S65536x100, .f32⟩) main_v61) maximumf,
    unary main_arg5 main_v62 ((extractStridedSlice S1x100x64 ![1, 0, 0] · slices_S32x100x64_S1x100x64_1_0_0) : (⟨S32x100x64, .f32⟩ : BufTy).Contents (Elt F) → (⟨S1x100x64, .f32⟩ : BufTy).Contents (Elt F)),
    reshape main_v62 main_v63 rfl shapeCasts_S1x100x64_S100x64,
    binary main_v61 main_v63 main_v64 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v65 ((extractStridedSlice S1x64 ![1, 0] · slices_S32x64_S1x64_1_0) : (⟨S32x64, .f32⟩ : BufTy).Contents (Elt F) → (⟨S1x64, .f32⟩ : BufTy).Contents (Elt F)),
    reshape main_v65 main_v66 rfl shapeCasts_S1x64_S64,
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S65536x64 ![0, 1] bcast_S1x64_S65536x64_0_1 : (⟨S1x64, .f32⟩ : BufTy).Contents (Elt F) → (⟨S65536x64, .f32⟩ : BufTy).Contents (Elt F)),
    binary main_v64 main_v68 main_v69 (addf : (⟨S65536x64, .f32⟩ : BufTy).Contents (Elt F) → (⟨S65536x64, .f32⟩ : BufTy).Contents (Elt F) → (⟨S65536x64, .f32⟩ : BufTy).Contents (Elt F)),
    reshape main_v69 main_v70 rfl shapeCasts_S65536x64_S65536x8x8,
    binary main_v42 main_v70 main_v71 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v72 ((extractStridedSlice S65536x16 ![0, 32] · slices_S65536x512_S65536x16_0_32) : (⟨S65536x512, .f32⟩ : BufTy).Contents (Elt F) → (⟨S65536x16, .f32⟩ : BufTy).Contents (Elt F)),
    unary main_arg1 main_v73 ((extractStridedSlice S1x16x100 ![2, 0, 0] · slices_S32x16x100_S1x16x100_2_0_0) : (⟨S32x16x100, .f32⟩ : BufTy).Contents (Elt F) → (⟨S1x16x100, .f32⟩ : BufTy).Contents (Elt F)),
    reshape main_v73 main_v74 rfl shapeCasts_S1x16x100_S16x100,
    binary main_v72 main_v74 main_v75 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v76 ((extractStridedSlice S1x100 ![2, 0] · slices_S32x100_S1x100_2_0) : (⟨S32x100, .f32⟩ : BufTy).Contents (Elt F) → (⟨S1x100, .f32⟩ : BufTy).Contents (Elt F)),
    reshape main_v76 main_v77 rfl shapeCasts_S1x100_S100,
    unary main_v77 main_v78 (broadcastInDim S1x100 ![1] bcast_S100_S1x100_1 : (⟨S100, .f32⟩ : BufTy).Contents (Elt F) → (⟨S1x100, .f32⟩ : BufTy).Contents (Elt F)),
    unary main_v78 main_v79 (broadcastInDim S65536x100 ![0, 1] bcast_S1x100_S65536x100_0_1 : (⟨S1x100, .f32⟩ : BufTy).Contents (Elt F) → (⟨S65536x100, .f32⟩ : BufTy).Contents (Elt F)),
    binary main_v75 main_v79 main_v80 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S65536x100, .f32⟩) main_call4_v0) (broadcastInDim S65536x100 ![] bcast_S_S65536x100),
    TRef.binary (TRef.of (T := ⟨S65536x100, .f32⟩) main_v80) (TRef.of (T := ⟨S65536x100, .f32⟩) main_call4_v0) (TRef.of (T := ⟨S65536x100, .f32⟩) main_v81) maximumf,
    unary main_arg3 main_v82 ((extractStridedSlice S1x100x100 ![2, 0, 0] · slices_S32x100x100_S1x100x100_2_0_0) : (⟨S32x100x100, .f32⟩ : BufTy).Contents (Elt F) → (⟨S1x100x100, .f32⟩ : BufTy).Contents (Elt F)),
    reshape main_v82 main_v83 rfl shapeCasts_S1x100x100_S100x100,
    binary main_v81 main_v83 main_v84 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v85 ((extractStridedSlice S1x100 ![2, 0] · slices_S32x100_S1x100_2_0) : (⟨S32x100, .f32⟩ : BufTy).Contents (Elt F) → (⟨S1x100, .f32⟩ : BufTy).Contents (Elt F)),
    reshape main_v85 main_v86 rfl shapeCasts_S1x100_S100,
    unary main_v86 main_v87 (broadcastInDim S1x100 ![1] bcast_S100_S1x100_1 : (⟨S100, .f32⟩ : BufTy).Contents (Elt F) → (⟨S1x100, .f32⟩ : BufTy).Contents (Elt F)),
    unary main_v87 main_v88 (broadcastInDim S65536x100 ![0, 1] bcast_S1x100_S65536x100_0_1 : (⟨S1x100, .f32⟩ : BufTy).Contents (Elt F) → (⟨S65536x100, .f32⟩ : BufTy).Contents (Elt F)),
    binary main_v84 main_v88 main_v89 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S65536x100, .f32⟩) main_call5_v0) (broadcastInDim S65536x100 ![] bcast_S_S65536x100),
    TRef.binary (TRef.of (T := ⟨S65536x100, .f32⟩) main_v89) (TRef.of (T := ⟨S65536x100, .f32⟩) main_call5_v0) (TRef.of (T := ⟨S65536x100, .f32⟩) main_v90) maximumf,
    unary main_arg5 main_v91 ((extractStridedSlice S1x100x64 ![2, 0, 0] · slices_S32x100x64_S1x100x64_2_0_0) : (⟨S32x100x64, .f32⟩ : BufTy).Contents (Elt F) → (⟨S1x100x64, .f32⟩ : BufTy).Contents (Elt F)),
    reshape main_v91 main_v92 rfl shapeCasts_S1x100x64_S100x64,
    binary main_v90 main_v92 main_v93 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v94 ((extractStridedSlice S1x64 ![2, 0] · slices_S32x64_S1x64_2_0) : (⟨S32x64, .f32⟩ : BufTy).Contents (Elt F) → (⟨S1x64, .f32⟩ : BufTy).Contents (Elt F)),
    reshape main_v94 main_v95 rfl shapeCasts_S1x64_S64,
    unary main_v95 main_v96 (broadcastInDim S1x64 ![1] bcast_S64_S1x64_1 : (⟨S64, .f32⟩ : BufTy).Contents (Elt F) → (⟨S1x64, .f32⟩ : BufTy).Contents (Elt F)),
    unary main_v96 main_v97 (broadcastInDim S65536x64 ![0, 1] bcast_S1x64_S65536x64_0_1 : (⟨S1x64, .f32⟩ : BufTy).Contents (Elt F) → (⟨S65536x64, .f32⟩ : BufTy).Contents (Elt F)),
    binary main_v93 main_v97 main_v98 (addf : (⟨S65536x64, .f32⟩ : BufTy).Contents (Elt F) → (⟨S65536x64, .f32⟩ : BufTy).Contents (Elt F) → (⟨S65536x64, .f32⟩ : BufTy).Contents (Elt F)),
    reshape main_v98 main_v99 rfl shapeCasts_S65536x64_S65536x8x8,
    binary main_v71 main_v99 main_v100 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v101 ((extractStridedSlice S65536x16 ![0, 48] · slices_S65536x512_S65536x16_0_48) : (⟨S65536x512, .f32⟩ : BufTy).Contents (Elt F) → (⟨S65536x16, .f32⟩ : BufTy).Contents (Elt F)),
    unary main_arg1 main_v102 ((extractStridedSlice S1x16x100 ![3, 0, 0] · slices_S32x16x100_S1x16x100_3_0_0) : (⟨S32x16x100, .f32⟩ : BufTy).Contents (Elt F) → (⟨S1x16x100, .f32⟩ : BufTy).Contents (Elt F)),
    reshape main_v102 main_v103 rfl shapeCasts_S1x16x100_S16x100,
    binary main_v101 main_v103 main_v104 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v105 ((extractStridedSlice S1x100 ![3, 0] · slices_S32x100_S1x100_3_0) : (⟨S32x100, .f32⟩ : BufTy).Contents (Elt F) → (⟨S1x100, .f32⟩ : BufTy).Contents (Elt F)),
    reshape main_v105 main_v106 rfl shapeCasts_S1x100_S100,
    unary main_v106 main_v107 (broadcastInDim S1x100 ![1] bcast_S100_S1x100_1 : (⟨S100, .f32⟩ : BufTy).Contents (Elt F) → (⟨S1x100, .f32⟩ : BufTy).Contents (Elt F)),
    unary main_v107 main_v108 (broadcastInDim S65536x100 ![0, 1] bcast_S1x100_S65536x100_0_1 : (⟨S1x100, .f32⟩ : BufTy).Contents (Elt F) → (⟨S65536x100, .f32⟩ : BufTy).Contents (Elt F)),
    binary main_v104 main_v108 main_v109 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S65536x100, .f32⟩) main_call6_v0) (broadcastInDim S65536x100 ![] bcast_S_S65536x100),
    TRef.binary (TRef.of (T := ⟨S65536x100, .f32⟩) main_v109) (TRef.of (T := ⟨S65536x100, .f32⟩) main_call6_v0) (TRef.of (T := ⟨S65536x100, .f32⟩) main_v110) maximumf,
    unary main_arg3 main_v111 ((extractStridedSlice S1x100x100 ![3, 0, 0] · slices_S32x100x100_S1x100x100_3_0_0) : (⟨S32x100x100, .f32⟩ : BufTy).Contents (Elt F) → (⟨S1x100x100, .f32⟩ : BufTy).Contents (Elt F)),
    reshape main_v111 main_v112 rfl shapeCasts_S1x100x100_S100x100,
    binary main_v110 main_v112 main_v113 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v114 ((extractStridedSlice S1x100 ![3, 0] · slices_S32x100_S1x100_3_0) : (⟨S32x100, .f32⟩ : BufTy).Contents (Elt F) → (⟨S1x100, .f32⟩ : BufTy).Contents (Elt F)),
    reshape main_v114 main_v115 rfl shapeCasts_S1x100_S100 ]

/-- The operations of window 2 of the printed program. -/
abbrev part2 : List (HloOp τ sig (Elt F)) :=
  [ unary main_v115 main_v116 (broadcastInDim S1x100 ![1] bcast_S100_S1x100_1 : (⟨S100, .f32⟩ : BufTy).Contents (Elt F) → (⟨S1x100, .f32⟩ : BufTy).Contents (Elt F)),
    unary main_v116 main_v117 (broadcastInDim S65536x100 ![0, 1] bcast_S1x100_S65536x100_0_1 : (⟨S1x100, .f32⟩ : BufTy).Contents (Elt F) → (⟨S65536x100, .f32⟩ : BufTy).Contents (Elt F)),
    binary main_v113 main_v117 main_v118 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S65536x100, .f32⟩) main_call7_v0) (broadcastInDim S65536x100 ![] bcast_S_S65536x100),
    TRef.binary (TRef.of (T := ⟨S65536x100, .f32⟩) main_v118) (TRef.of (T := ⟨S65536x100, .f32⟩) main_call7_v0) (TRef.of (T := ⟨S65536x100, .f32⟩) main_v119) maximumf,
    unary main_arg5 main_v120 ((extractStridedSlice S1x100x64 ![3, 0, 0] · slices_S32x100x64_S1x100x64_3_0_0) : (⟨S32x100x64, .f32⟩ : BufTy).Contents (Elt F) → (⟨S1x100x64, .f32⟩ : BufTy).Contents (Elt F)),
    reshape main_v120 main_v121 rfl shapeCasts_S1x100x64_S100x64,
    binary main_v119 main_v121 main_v122 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v123 ((extractStridedSlice S1x64 ![3, 0] · slices_S32x64_S1x64_3_0) : (⟨S32x64, .f32⟩ : BufTy).Contents (Elt F) → (⟨S1x64, .f32⟩ : BufTy).Contents (Elt F)),
    reshape main_v123 main_v124 rfl shapeCasts_S1x64_S64,
    unary main_v124 main_v125 (broadcastInDim S1x64 ![1] bcast_S64_S1x64_1 : (⟨S64, .f32⟩ : BufTy).Contents (Elt F) → (⟨S1x64, .f32⟩ : BufTy).Contents (Elt F)),
    unary main_v125 main_v126 (broadcastInDim S65536x64 ![0, 1] bcast_S1x64_S65536x64_0_1 : (⟨S1x64, .f32⟩ : BufTy).Contents (Elt F) → (⟨S65536x64, .f32⟩ : BufTy).Contents (Elt F)),
    binary main_v122 main_v126 main_v127 (addf : (⟨S65536x64, .f32⟩ : BufTy).Contents (Elt F) → (⟨S65536x64, .f32⟩ : BufTy).Contents (Elt F) → (⟨S65536x64, .f32⟩ : BufTy).Contents (Elt F)),
    reshape main_v127 main_v128 rfl shapeCasts_S65536x64_S65536x8x8,
    binary main_v100 main_v128 main_v129 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v130 ((extractStridedSlice S65536x16 ![0, 64] · slices_S65536x512_S65536x16_0_64) : (⟨S65536x512, .f32⟩ : BufTy).Contents (Elt F) → (⟨S65536x16, .f32⟩ : BufTy).Contents (Elt F)),
    unary main_arg1 main_v131 ((extractStridedSlice S1x16x100 ![4, 0, 0] · slices_S32x16x100_S1x16x100_4_0_0) : (⟨S32x16x100, .f32⟩ : BufTy).Contents (Elt F) → (⟨S1x16x100, .f32⟩ : BufTy).Contents (Elt F)),
    reshape main_v131 main_v132 rfl shapeCasts_S1x16x100_S16x100,
    binary main_v130 main_v132 main_v133 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v134 ((extractStridedSlice S1x100 ![4, 0] · slices_S32x100_S1x100_4_0) : (⟨S32x100, .f32⟩ : BufTy).Contents (Elt F) → (⟨S1x100, .f32⟩ : BufTy).Contents (Elt F)),
    reshape main_v134 main_v135 rfl shapeCasts_S1x100_S100,
    unary main_v135 main_v136 (broadcastInDim S1x100 ![1] bcast_S100_S1x100_1 : (⟨S100, .f32⟩ : BufTy).Contents (Elt F) → (⟨S1x100, .f32⟩ : BufTy).Contents (Elt F)),
    unary main_v136 main_v137 (broadcastInDim S65536x100 ![0, 1] bcast_S1x100_S65536x100_0_1 : (⟨S1x100, .f32⟩ : BufTy).Contents (Elt F) → (⟨S65536x100, .f32⟩ : BufTy).Contents (Elt F)),
    binary main_v133 main_v137 main_v138 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S65536x100, .f32⟩) main_call8_v0) (broadcastInDim S65536x100 ![] bcast_S_S65536x100),
    TRef.binary (TRef.of (T := ⟨S65536x100, .f32⟩) main_v138) (TRef.of (T := ⟨S65536x100, .f32⟩) main_call8_v0) (TRef.of (T := ⟨S65536x100, .f32⟩) main_v139) maximumf,
    unary main_arg3 main_v140 ((extractStridedSlice S1x100x100 ![4, 0, 0] · slices_S32x100x100_S1x100x100_4_0_0) : (⟨S32x100x100, .f32⟩ : BufTy).Contents (Elt F) → (⟨S1x100x100, .f32⟩ : BufTy).Contents (Elt F)),
    reshape main_v140 main_v141 rfl shapeCasts_S1x100x100_S100x100,
    binary main_v139 main_v141 main_v142 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v143 ((extractStridedSlice S1x100 ![4, 0] · slices_S32x100_S1x100_4_0) : (⟨S32x100, .f32⟩ : BufTy).Contents (Elt F) → (⟨S1x100, .f32⟩ : BufTy).Contents (Elt F)),
    reshape main_v143 main_v144 rfl shapeCasts_S1x100_S100,
    unary main_v144 main_v145 (broadcastInDim S1x100 ![1] bcast_S100_S1x100_1 : (⟨S100, .f32⟩ : BufTy).Contents (Elt F) → (⟨S1x100, .f32⟩ : BufTy).Contents (Elt F)),
    unary main_v145 main_v146 (broadcastInDim S65536x100 ![0, 1] bcast_S1x100_S65536x100_0_1 : (⟨S1x100, .f32⟩ : BufTy).Contents (Elt F) → (⟨S65536x100, .f32⟩ : BufTy).Contents (Elt F)),
    binary main_v142 main_v146 main_v147 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S65536x100, .f32⟩) main_call9_v0) (broadcastInDim S65536x100 ![] bcast_S_S65536x100),
    TRef.binary (TRef.of (T := ⟨S65536x100, .f32⟩) main_v147) (TRef.of (T := ⟨S65536x100, .f32⟩) main_call9_v0) (TRef.of (T := ⟨S65536x100, .f32⟩) main_v148) maximumf,
    unary main_arg5 main_v149 ((extractStridedSlice S1x100x64 ![4, 0, 0] · slices_S32x100x64_S1x100x64_4_0_0) : (⟨S32x100x64, .f32⟩ : BufTy).Contents (Elt F) → (⟨S1x100x64, .f32⟩ : BufTy).Contents (Elt F)),
    reshape main_v149 main_v150 rfl shapeCasts_S1x100x64_S100x64,
    binary main_v148 main_v150 main_v151 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v152 ((extractStridedSlice S1x64 ![4, 0] · slices_S32x64_S1x64_4_0) : (⟨S32x64, .f32⟩ : BufTy).Contents (Elt F) → (⟨S1x64, .f32⟩ : BufTy).Contents (Elt F)),
    reshape main_v152 main_v153 rfl shapeCasts_S1x64_S64,
    unary main_v153 main_v154 (broadcastInDim S1x64 ![1] bcast_S64_S1x64_1 : (⟨S64, .f32⟩ : BufTy).Contents (Elt F) → (⟨S1x64, .f32⟩ : BufTy).Contents (Elt F)),
    unary main_v154 main_v155 (broadcastInDim S65536x64 ![0, 1] bcast_S1x64_S65536x64_0_1 : (⟨S1x64, .f32⟩ : BufTy).Contents (Elt F) → (⟨S65536x64, .f32⟩ : BufTy).Contents (Elt F)),
    binary main_v151 main_v155 main_v156 (addf : (⟨S65536x64, .f32⟩ : BufTy).Contents (Elt F) → (⟨S65536x64, .f32⟩ : BufTy).Contents (Elt F) → (⟨S65536x64, .f32⟩ : BufTy).Contents (Elt F)),
    reshape main_v156 main_v157 rfl shapeCasts_S65536x64_S65536x8x8,
    binary main_v129 main_v157 main_v158 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v159 ((extractStridedSlice S65536x16 ![0, 80] · slices_S65536x512_S65536x16_0_80) : (⟨S65536x512, .f32⟩ : BufTy).Contents (Elt F) → (⟨S65536x16, .f32⟩ : BufTy).Contents (Elt F)),
    unary main_arg1 main_v160 ((extractStridedSlice S1x16x100 ![5, 0, 0] · slices_S32x16x100_S1x16x100_5_0_0) : (⟨S32x16x100, .f32⟩ : BufTy).Contents (Elt F) → (⟨S1x16x100, .f32⟩ : BufTy).Contents (Elt F)),
    reshape main_v160 main_v161 rfl shapeCasts_S1x16x100_S16x100,
    binary main_v159 main_v161 main_v162 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v163 ((extractStridedSlice S1x100 ![5, 0] · slices_S32x100_S1x100_5_0) : (⟨S32x100, .f32⟩ : BufTy).Contents (Elt F) → (⟨S1x100, .f32⟩ : BufTy).Contents (Elt F)),
    reshape main_v163 main_v164 rfl shapeCasts_S1x100_S100,
    unary main_v164 main_v165 (broadcastInDim S1x100 ![1] bcast_S100_S1x100_1 : (⟨S100, .f32⟩ : BufTy).Contents (Elt F) → (⟨S1x100, .f32⟩ : BufTy).Contents (Elt F)),
    unary main_v165 main_v166 (broadcastInDim S65536x100 ![0, 1] bcast_S1x100_S65536x100_0_1 : (⟨S1x100, .f32⟩ : BufTy).Contents (Elt F) → (⟨S65536x100, .f32⟩ : BufTy).Contents (Elt F)),
    binary main_v162 main_v166 main_v167 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S65536x100, .f32⟩) main_call10_v0) (broadcastInDim S65536x100 ![] bcast_S_S65536x100),
    TRef.binary (TRef.of (T := ⟨S65536x100, .f32⟩) main_v167) (TRef.of (T := ⟨S65536x100, .f32⟩) main_call10_v0) (TRef.of (T := ⟨S65536x100, .f32⟩) main_v168) maximumf,
    unary main_arg3 main_v169 ((extractStridedSlice S1x100x100 ![5, 0, 0] · slices_S32x100x100_S1x100x100_5_0_0) : (⟨S32x100x100, .f32⟩ : BufTy).Contents (Elt F) → (⟨S1x100x100, .f32⟩ : BufTy).Contents (Elt F)),
    reshape main_v169 main_v170 rfl shapeCasts_S1x100x100_S100x100,
    binary main_v168 main_v170 main_v171 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v172 ((extractStridedSlice S1x100 ![5, 0] · slices_S32x100_S1x100_5_0) : (⟨S32x100, .f32⟩ : BufTy).Contents (Elt F) → (⟨S1x100, .f32⟩ : BufTy).Contents (Elt F)),
    reshape main_v172 main_v173 rfl shapeCasts_S1x100_S100,
    unary main_v173 main_v174 (broadcastInDim S1x100 ![1] bcast_S100_S1x100_1 : (⟨S100, .f32⟩ : BufTy).Contents (Elt F) → (⟨S1x100, .f32⟩ : BufTy).Contents (Elt F)),
    unary main_v174 main_v175 (broadcastInDim S65536x100 ![0, 1] bcast_S1x100_S65536x100_0_1 : (⟨S1x100, .f32⟩ : BufTy).Contents (Elt F) → (⟨S65536x100, .f32⟩ : BufTy).Contents (Elt F)) ]

/-- The operations of window 3 of the printed program. -/
abbrev part3 : List (HloOp τ sig (Elt F)) :=
  [ binary main_v171 main_v175 main_v176 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S65536x100, .f32⟩) main_call11_v0) (broadcastInDim S65536x100 ![] bcast_S_S65536x100),
    TRef.binary (TRef.of (T := ⟨S65536x100, .f32⟩) main_v176) (TRef.of (T := ⟨S65536x100, .f32⟩) main_call11_v0) (TRef.of (T := ⟨S65536x100, .f32⟩) main_v177) maximumf,
    unary main_arg5 main_v178 ((extractStridedSlice S1x100x64 ![5, 0, 0] · slices_S32x100x64_S1x100x64_5_0_0) : (⟨S32x100x64, .f32⟩ : BufTy).Contents (Elt F) → (⟨S1x100x64, .f32⟩ : BufTy).Contents (Elt F)),
    reshape main_v178 main_v179 rfl shapeCasts_S1x100x64_S100x64,
    binary main_v177 main_v179 main_v180 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v181 ((extractStridedSlice S1x64 ![5, 0] · slices_S32x64_S1x64_5_0) : (⟨S32x64, .f32⟩ : BufTy).Contents (Elt F) → (⟨S1x64, .f32⟩ : BufTy).Contents (Elt F)),
    reshape main_v181 main_v182 rfl shapeCasts_S1x64_S64,
    unary main_v182 main_v183 (broadcastInDim S1x64 ![1] bcast_S64_S1x64_1 : (⟨S64, .f32⟩ : BufTy).Contents (Elt F) → (⟨S1x64, .f32⟩ : BufTy).Contents (Elt F)),
    unary main_v183 main_v184 (broadcastInDim S65536x64 ![0, 1] bcast_S1x64_S65536x64_0_1 : (⟨S1x64, .f32⟩ : BufTy).Contents (Elt F) → (⟨S65536x64, .f32⟩ : BufTy).Contents (Elt F)),
    binary main_v180 main_v184 main_v185 (addf : (⟨S65536x64, .f32⟩ : BufTy).Contents (Elt F) → (⟨S65536x64, .f32⟩ : BufTy).Contents (Elt F) → (⟨S65536x64, .f32⟩ : BufTy).Contents (Elt F)),
    reshape main_v185 main_v186 rfl shapeCasts_S65536x64_S65536x8x8,
    binary main_v158 main_v186 main_v187 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v188 ((extractStridedSlice S65536x16 ![0, 96] · slices_S65536x512_S65536x16_0_96) : (⟨S65536x512, .f32⟩ : BufTy).Contents (Elt F) → (⟨S65536x16, .f32⟩ : BufTy).Contents (Elt F)),
    unary main_arg1 main_v189 ((extractStridedSlice S1x16x100 ![6, 0, 0] · slices_S32x16x100_S1x16x100_6_0_0) : (⟨S32x16x100, .f32⟩ : BufTy).Contents (Elt F) → (⟨S1x16x100, .f32⟩ : BufTy).Contents (Elt F)),
    reshape main_v189 main_v190 rfl shapeCasts_S1x16x100_S16x100,
    binary main_v188 main_v190 main_v191 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v192 ((extractStridedSlice S1x100 ![6, 0] · slices_S32x100_S1x100_6_0) : (⟨S32x100, .f32⟩ : BufTy).Contents (Elt F) → (⟨S1x100, .f32⟩ : BufTy).Contents (Elt F)),
    reshape main_v192 main_v193 rfl shapeCasts_S1x100_S100,
    unary main_v193 main_v194 (broadcastInDim S1x100 ![1] bcast_S100_S1x100_1 : (⟨S100, .f32⟩ : BufTy).Contents (Elt F) → (⟨S1x100, .f32⟩ : BufTy).Contents (Elt F)),
    unary main_v194 main_v195 (broadcastInDim S65536x100 ![0, 1] bcast_S1x100_S65536x100_0_1 : (⟨S1x100, .f32⟩ : BufTy).Contents (Elt F) → (⟨S65536x100, .f32⟩ : BufTy).Contents (Elt F)),
    binary main_v191 main_v195 main_v196 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S65536x100, .f32⟩) main_call12_v0) (broadcastInDim S65536x100 ![] bcast_S_S65536x100),
    TRef.binary (TRef.of (T := ⟨S65536x100, .f32⟩) main_v196) (TRef.of (T := ⟨S65536x100, .f32⟩) main_call12_v0) (TRef.of (T := ⟨S65536x100, .f32⟩) main_v197) maximumf,
    unary main_arg3 main_v198 ((extractStridedSlice S1x100x100 ![6, 0, 0] · slices_S32x100x100_S1x100x100_6_0_0) : (⟨S32x100x100, .f32⟩ : BufTy).Contents (Elt F) → (⟨S1x100x100, .f32⟩ : BufTy).Contents (Elt F)),
    reshape main_v198 main_v199 rfl shapeCasts_S1x100x100_S100x100,
    binary main_v197 main_v199 main_v200 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v201 ((extractStridedSlice S1x100 ![6, 0] · slices_S32x100_S1x100_6_0) : (⟨S32x100, .f32⟩ : BufTy).Contents (Elt F) → (⟨S1x100, .f32⟩ : BufTy).Contents (Elt F)),
    reshape main_v201 main_v202 rfl shapeCasts_S1x100_S100,
    unary main_v202 main_v203 (broadcastInDim S1x100 ![1] bcast_S100_S1x100_1 : (⟨S100, .f32⟩ : BufTy).Contents (Elt F) → (⟨S1x100, .f32⟩ : BufTy).Contents (Elt F)),
    unary main_v203 main_v204 (broadcastInDim S65536x100 ![0, 1] bcast_S1x100_S65536x100_0_1 : (⟨S1x100, .f32⟩ : BufTy).Contents (Elt F) → (⟨S65536x100, .f32⟩ : BufTy).Contents (Elt F)),
    binary main_v200 main_v204 main_v205 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S65536x100, .f32⟩) main_call13_v0) (broadcastInDim S65536x100 ![] bcast_S_S65536x100),
    TRef.binary (TRef.of (T := ⟨S65536x100, .f32⟩) main_v205) (TRef.of (T := ⟨S65536x100, .f32⟩) main_call13_v0) (TRef.of (T := ⟨S65536x100, .f32⟩) main_v206) maximumf,
    unary main_arg5 main_v207 ((extractStridedSlice S1x100x64 ![6, 0, 0] · slices_S32x100x64_S1x100x64_6_0_0) : (⟨S32x100x64, .f32⟩ : BufTy).Contents (Elt F) → (⟨S1x100x64, .f32⟩ : BufTy).Contents (Elt F)),
    reshape main_v207 main_v208 rfl shapeCasts_S1x100x64_S100x64,
    binary main_v206 main_v208 main_v209 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v210 ((extractStridedSlice S1x64 ![6, 0] · slices_S32x64_S1x64_6_0) : (⟨S32x64, .f32⟩ : BufTy).Contents (Elt F) → (⟨S1x64, .f32⟩ : BufTy).Contents (Elt F)),
    reshape main_v210 main_v211 rfl shapeCasts_S1x64_S64,
    unary main_v211 main_v212 (broadcastInDim S1x64 ![1] bcast_S64_S1x64_1 : (⟨S64, .f32⟩ : BufTy).Contents (Elt F) → (⟨S1x64, .f32⟩ : BufTy).Contents (Elt F)),
    unary main_v212 main_v213 (broadcastInDim S65536x64 ![0, 1] bcast_S1x64_S65536x64_0_1 : (⟨S1x64, .f32⟩ : BufTy).Contents (Elt F) → (⟨S65536x64, .f32⟩ : BufTy).Contents (Elt F)),
    binary main_v209 main_v213 main_v214 (addf : (⟨S65536x64, .f32⟩ : BufTy).Contents (Elt F) → (⟨S65536x64, .f32⟩ : BufTy).Contents (Elt F) → (⟨S65536x64, .f32⟩ : BufTy).Contents (Elt F)),
    reshape main_v214 main_v215 rfl shapeCasts_S65536x64_S65536x8x8,
    binary main_v187 main_v215 main_v216 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v217 ((extractStridedSlice S65536x16 ![0, 112] · slices_S65536x512_S65536x16_0_112) : (⟨S65536x512, .f32⟩ : BufTy).Contents (Elt F) → (⟨S65536x16, .f32⟩ : BufTy).Contents (Elt F)),
    unary main_arg1 main_v218 ((extractStridedSlice S1x16x100 ![7, 0, 0] · slices_S32x16x100_S1x16x100_7_0_0) : (⟨S32x16x100, .f32⟩ : BufTy).Contents (Elt F) → (⟨S1x16x100, .f32⟩ : BufTy).Contents (Elt F)),
    reshape main_v218 main_v219 rfl shapeCasts_S1x16x100_S16x100,
    binary main_v217 main_v219 main_v220 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v221 ((extractStridedSlice S1x100 ![7, 0] · slices_S32x100_S1x100_7_0) : (⟨S32x100, .f32⟩ : BufTy).Contents (Elt F) → (⟨S1x100, .f32⟩ : BufTy).Contents (Elt F)),
    reshape main_v221 main_v222 rfl shapeCasts_S1x100_S100,
    unary main_v222 main_v223 (broadcastInDim S1x100 ![1] bcast_S100_S1x100_1 : (⟨S100, .f32⟩ : BufTy).Contents (Elt F) → (⟨S1x100, .f32⟩ : BufTy).Contents (Elt F)),
    unary main_v223 main_v224 (broadcastInDim S65536x100 ![0, 1] bcast_S1x100_S65536x100_0_1 : (⟨S1x100, .f32⟩ : BufTy).Contents (Elt F) → (⟨S65536x100, .f32⟩ : BufTy).Contents (Elt F)),
    binary main_v220 main_v224 main_v225 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S65536x100, .f32⟩) main_call14_v0) (broadcastInDim S65536x100 ![] bcast_S_S65536x100),
    TRef.binary (TRef.of (T := ⟨S65536x100, .f32⟩) main_v225) (TRef.of (T := ⟨S65536x100, .f32⟩) main_call14_v0) (TRef.of (T := ⟨S65536x100, .f32⟩) main_v226) maximumf,
    unary main_arg3 main_v227 ((extractStridedSlice S1x100x100 ![7, 0, 0] · slices_S32x100x100_S1x100x100_7_0_0) : (⟨S32x100x100, .f32⟩ : BufTy).Contents (Elt F) → (⟨S1x100x100, .f32⟩ : BufTy).Contents (Elt F)),
    reshape main_v227 main_v228 rfl shapeCasts_S1x100x100_S100x100,
    binary main_v226 main_v228 main_v229 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v230 ((extractStridedSlice S1x100 ![7, 0] · slices_S32x100_S1x100_7_0) : (⟨S32x100, .f32⟩ : BufTy).Contents (Elt F) → (⟨S1x100, .f32⟩ : BufTy).Contents (Elt F)),
    reshape main_v230 main_v231 rfl shapeCasts_S1x100_S100,
    unary main_v231 main_v232 (broadcastInDim S1x100 ![1] bcast_S100_S1x100_1 : (⟨S100, .f32⟩ : BufTy).Contents (Elt F) → (⟨S1x100, .f32⟩ : BufTy).Contents (Elt F)),
    unary main_v232 main_v233 (broadcastInDim S65536x100 ![0, 1] bcast_S1x100_S65536x100_0_1 : (⟨S1x100, .f32⟩ : BufTy).Contents (Elt F) → (⟨S65536x100, .f32⟩ : BufTy).Contents (Elt F)),
    binary main_v229 main_v233 main_v234 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S65536x100, .f32⟩) main_call15_v0) (broadcastInDim S65536x100 ![] bcast_S_S65536x100),
    TRef.binary (TRef.of (T := ⟨S65536x100, .f32⟩) main_v234) (TRef.of (T := ⟨S65536x100, .f32⟩) main_call15_v0) (TRef.of (T := ⟨S65536x100, .f32⟩) main_v235) maximumf ]

/-- The operations of window 4 of the printed program. -/
abbrev part4 : List (HloOp τ sig (Elt F)) :=
  [ unary main_arg5 main_v236 ((extractStridedSlice S1x100x64 ![7, 0, 0] · slices_S32x100x64_S1x100x64_7_0_0) : (⟨S32x100x64, .f32⟩ : BufTy).Contents (Elt F) → (⟨S1x100x64, .f32⟩ : BufTy).Contents (Elt F)),
    reshape main_v236 main_v237 rfl shapeCasts_S1x100x64_S100x64,
    binary main_v235 main_v237 main_v238 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v239 ((extractStridedSlice S1x64 ![7, 0] · slices_S32x64_S1x64_7_0) : (⟨S32x64, .f32⟩ : BufTy).Contents (Elt F) → (⟨S1x64, .f32⟩ : BufTy).Contents (Elt F)),
    reshape main_v239 main_v240 rfl shapeCasts_S1x64_S64,
    unary main_v240 main_v241 (broadcastInDim S1x64 ![1] bcast_S64_S1x64_1 : (⟨S64, .f32⟩ : BufTy).Contents (Elt F) → (⟨S1x64, .f32⟩ : BufTy).Contents (Elt F)),
    unary main_v241 main_v242 (broadcastInDim S65536x64 ![0, 1] bcast_S1x64_S65536x64_0_1 : (⟨S1x64, .f32⟩ : BufTy).Contents (Elt F) → (⟨S65536x64, .f32⟩ : BufTy).Contents (Elt F)),
    binary main_v238 main_v242 main_v243 (addf : (⟨S65536x64, .f32⟩ : BufTy).Contents (Elt F) → (⟨S65536x64, .f32⟩ : BufTy).Contents (Elt F) → (⟨S65536x64, .f32⟩ : BufTy).Contents (Elt F)),
    reshape main_v243 main_v244 rfl shapeCasts_S65536x64_S65536x8x8,
    binary main_v216 main_v244 main_v245 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v246 ((extractStridedSlice S65536x16 ![0, 128] · slices_S65536x512_S65536x16_0_128) : (⟨S65536x512, .f32⟩ : BufTy).Contents (Elt F) → (⟨S65536x16, .f32⟩ : BufTy).Contents (Elt F)),
    unary main_arg1 main_v247 ((extractStridedSlice S1x16x100 ![8, 0, 0] · slices_S32x16x100_S1x16x100_8_0_0) : (⟨S32x16x100, .f32⟩ : BufTy).Contents (Elt F) → (⟨S1x16x100, .f32⟩ : BufTy).Contents (Elt F)),
    reshape main_v247 main_v248 rfl shapeCasts_S1x16x100_S16x100,
    binary main_v246 main_v248 main_v249 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v250 ((extractStridedSlice S1x100 ![8, 0] · slices_S32x100_S1x100_8_0) : (⟨S32x100, .f32⟩ : BufTy).Contents (Elt F) → (⟨S1x100, .f32⟩ : BufTy).Contents (Elt F)),
    reshape main_v250 main_v251 rfl shapeCasts_S1x100_S100,
    unary main_v251 main_v252 (broadcastInDim S1x100 ![1] bcast_S100_S1x100_1 : (⟨S100, .f32⟩ : BufTy).Contents (Elt F) → (⟨S1x100, .f32⟩ : BufTy).Contents (Elt F)),
    unary main_v252 main_v253 (broadcastInDim S65536x100 ![0, 1] bcast_S1x100_S65536x100_0_1 : (⟨S1x100, .f32⟩ : BufTy).Contents (Elt F) → (⟨S65536x100, .f32⟩ : BufTy).Contents (Elt F)),
    binary main_v249 main_v253 main_v254 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S65536x100, .f32⟩) main_call16_v0) (broadcastInDim S65536x100 ![] bcast_S_S65536x100),
    TRef.binary (TRef.of (T := ⟨S65536x100, .f32⟩) main_v254) (TRef.of (T := ⟨S65536x100, .f32⟩) main_call16_v0) (TRef.of (T := ⟨S65536x100, .f32⟩) main_v255) maximumf,
    unary main_arg3 main_v256 ((extractStridedSlice S1x100x100 ![8, 0, 0] · slices_S32x100x100_S1x100x100_8_0_0) : (⟨S32x100x100, .f32⟩ : BufTy).Contents (Elt F) → (⟨S1x100x100, .f32⟩ : BufTy).Contents (Elt F)),
    reshape main_v256 main_v257 rfl shapeCasts_S1x100x100_S100x100,
    binary main_v255 main_v257 main_v258 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v259 ((extractStridedSlice S1x100 ![8, 0] · slices_S32x100_S1x100_8_0) : (⟨S32x100, .f32⟩ : BufTy).Contents (Elt F) → (⟨S1x100, .f32⟩ : BufTy).Contents (Elt F)),
    reshape main_v259 main_v260 rfl shapeCasts_S1x100_S100,
    unary main_v260 main_v261 (broadcastInDim S1x100 ![1] bcast_S100_S1x100_1 : (⟨S100, .f32⟩ : BufTy).Contents (Elt F) → (⟨S1x100, .f32⟩ : BufTy).Contents (Elt F)),
    unary main_v261 main_v262 (broadcastInDim S65536x100 ![0, 1] bcast_S1x100_S65536x100_0_1 : (⟨S1x100, .f32⟩ : BufTy).Contents (Elt F) → (⟨S65536x100, .f32⟩ : BufTy).Contents (Elt F)),
    binary main_v258 main_v262 main_v263 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S65536x100, .f32⟩) main_call17_v0) (broadcastInDim S65536x100 ![] bcast_S_S65536x100),
    TRef.binary (TRef.of (T := ⟨S65536x100, .f32⟩) main_v263) (TRef.of (T := ⟨S65536x100, .f32⟩) main_call17_v0) (TRef.of (T := ⟨S65536x100, .f32⟩) main_v264) maximumf,
    unary main_arg5 main_v265 ((extractStridedSlice S1x100x64 ![8, 0, 0] · slices_S32x100x64_S1x100x64_8_0_0) : (⟨S32x100x64, .f32⟩ : BufTy).Contents (Elt F) → (⟨S1x100x64, .f32⟩ : BufTy).Contents (Elt F)),
    reshape main_v265 main_v266 rfl shapeCasts_S1x100x64_S100x64,
    binary main_v264 main_v266 main_v267 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v268 ((extractStridedSlice S1x64 ![8, 0] · slices_S32x64_S1x64_8_0) : (⟨S32x64, .f32⟩ : BufTy).Contents (Elt F) → (⟨S1x64, .f32⟩ : BufTy).Contents (Elt F)),
    reshape main_v268 main_v269 rfl shapeCasts_S1x64_S64,
    unary main_v269 main_v270 (broadcastInDim S1x64 ![1] bcast_S64_S1x64_1 : (⟨S64, .f32⟩ : BufTy).Contents (Elt F) → (⟨S1x64, .f32⟩ : BufTy).Contents (Elt F)),
    unary main_v270 main_v271 (broadcastInDim S65536x64 ![0, 1] bcast_S1x64_S65536x64_0_1 : (⟨S1x64, .f32⟩ : BufTy).Contents (Elt F) → (⟨S65536x64, .f32⟩ : BufTy).Contents (Elt F)),
    binary main_v267 main_v271 main_v272 (addf : (⟨S65536x64, .f32⟩ : BufTy).Contents (Elt F) → (⟨S65536x64, .f32⟩ : BufTy).Contents (Elt F) → (⟨S65536x64, .f32⟩ : BufTy).Contents (Elt F)),
    reshape main_v272 main_v273 rfl shapeCasts_S65536x64_S65536x8x8,
    binary main_v245 main_v273 main_v274 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v275 ((extractStridedSlice S65536x16 ![0, 144] · slices_S65536x512_S65536x16_0_144) : (⟨S65536x512, .f32⟩ : BufTy).Contents (Elt F) → (⟨S65536x16, .f32⟩ : BufTy).Contents (Elt F)),
    unary main_arg1 main_v276 ((extractStridedSlice S1x16x100 ![9, 0, 0] · slices_S32x16x100_S1x16x100_9_0_0) : (⟨S32x16x100, .f32⟩ : BufTy).Contents (Elt F) → (⟨S1x16x100, .f32⟩ : BufTy).Contents (Elt F)),
    reshape main_v276 main_v277 rfl shapeCasts_S1x16x100_S16x100,
    binary main_v275 main_v277 main_v278 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v279 ((extractStridedSlice S1x100 ![9, 0] · slices_S32x100_S1x100_9_0) : (⟨S32x100, .f32⟩ : BufTy).Contents (Elt F) → (⟨S1x100, .f32⟩ : BufTy).Contents (Elt F)),
    reshape main_v279 main_v280 rfl shapeCasts_S1x100_S100,
    unary main_v280 main_v281 (broadcastInDim S1x100 ![1] bcast_S100_S1x100_1 : (⟨S100, .f32⟩ : BufTy).Contents (Elt F) → (⟨S1x100, .f32⟩ : BufTy).Contents (Elt F)),
    unary main_v281 main_v282 (broadcastInDim S65536x100 ![0, 1] bcast_S1x100_S65536x100_0_1 : (⟨S1x100, .f32⟩ : BufTy).Contents (Elt F) → (⟨S65536x100, .f32⟩ : BufTy).Contents (Elt F)),
    binary main_v278 main_v282 main_v283 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S65536x100, .f32⟩) main_call18_v0) (broadcastInDim S65536x100 ![] bcast_S_S65536x100),
    TRef.binary (TRef.of (T := ⟨S65536x100, .f32⟩) main_v283) (TRef.of (T := ⟨S65536x100, .f32⟩) main_call18_v0) (TRef.of (T := ⟨S65536x100, .f32⟩) main_v284) maximumf,
    unary main_arg3 main_v285 ((extractStridedSlice S1x100x100 ![9, 0, 0] · slices_S32x100x100_S1x100x100_9_0_0) : (⟨S32x100x100, .f32⟩ : BufTy).Contents (Elt F) → (⟨S1x100x100, .f32⟩ : BufTy).Contents (Elt F)),
    reshape main_v285 main_v286 rfl shapeCasts_S1x100x100_S100x100,
    binary main_v284 main_v286 main_v287 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v288 ((extractStridedSlice S1x100 ![9, 0] · slices_S32x100_S1x100_9_0) : (⟨S32x100, .f32⟩ : BufTy).Contents (Elt F) → (⟨S1x100, .f32⟩ : BufTy).Contents (Elt F)),
    reshape main_v288 main_v289 rfl shapeCasts_S1x100_S100,
    unary main_v289 main_v290 (broadcastInDim S1x100 ![1] bcast_S100_S1x100_1 : (⟨S100, .f32⟩ : BufTy).Contents (Elt F) → (⟨S1x100, .f32⟩ : BufTy).Contents (Elt F)),
    unary main_v290 main_v291 (broadcastInDim S65536x100 ![0, 1] bcast_S1x100_S65536x100_0_1 : (⟨S1x100, .f32⟩ : BufTy).Contents (Elt F) → (⟨S65536x100, .f32⟩ : BufTy).Contents (Elt F)),
    binary main_v287 main_v291 main_v292 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S65536x100, .f32⟩) main_call19_v0) (broadcastInDim S65536x100 ![] bcast_S_S65536x100),
    TRef.binary (TRef.of (T := ⟨S65536x100, .f32⟩) main_v292) (TRef.of (T := ⟨S65536x100, .f32⟩) main_call19_v0) (TRef.of (T := ⟨S65536x100, .f32⟩) main_v293) maximumf,
    unary main_arg5 main_v294 ((extractStridedSlice S1x100x64 ![9, 0, 0] · slices_S32x100x64_S1x100x64_9_0_0) : (⟨S32x100x64, .f32⟩ : BufTy).Contents (Elt F) → (⟨S1x100x64, .f32⟩ : BufTy).Contents (Elt F)),
    reshape main_v294 main_v295 rfl shapeCasts_S1x100x64_S100x64 ]

/-- The operations of window 5 of the printed program. -/
abbrev part5 : List (HloOp τ sig (Elt F)) :=
  [ binary main_v293 main_v295 main_v296 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v297 ((extractStridedSlice S1x64 ![9, 0] · slices_S32x64_S1x64_9_0) : (⟨S32x64, .f32⟩ : BufTy).Contents (Elt F) → (⟨S1x64, .f32⟩ : BufTy).Contents (Elt F)),
    reshape main_v297 main_v298 rfl shapeCasts_S1x64_S64,
    unary main_v298 main_v299 (broadcastInDim S1x64 ![1] bcast_S64_S1x64_1 : (⟨S64, .f32⟩ : BufTy).Contents (Elt F) → (⟨S1x64, .f32⟩ : BufTy).Contents (Elt F)),
    unary main_v299 main_v300 (broadcastInDim S65536x64 ![0, 1] bcast_S1x64_S65536x64_0_1 : (⟨S1x64, .f32⟩ : BufTy).Contents (Elt F) → (⟨S65536x64, .f32⟩ : BufTy).Contents (Elt F)),
    binary main_v296 main_v300 main_v301 (addf : (⟨S65536x64, .f32⟩ : BufTy).Contents (Elt F) → (⟨S65536x64, .f32⟩ : BufTy).Contents (Elt F) → (⟨S65536x64, .f32⟩ : BufTy).Contents (Elt F)),
    reshape main_v301 main_v302 rfl shapeCasts_S65536x64_S65536x8x8,
    binary main_v274 main_v302 main_v303 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v304 ((extractStridedSlice S65536x16 ![0, 160] · slices_S65536x512_S65536x16_0_160) : (⟨S65536x512, .f32⟩ : BufTy).Contents (Elt F) → (⟨S65536x16, .f32⟩ : BufTy).Contents (Elt F)),
    unary main_arg1 main_v305 ((extractStridedSlice S1x16x100 ![10, 0, 0] · slices_S32x16x100_S1x16x100_10_0_0) : (⟨S32x16x100, .f32⟩ : BufTy).Contents (Elt F) → (⟨S1x16x100, .f32⟩ : BufTy).Contents (Elt F)),
    reshape main_v305 main_v306 rfl shapeCasts_S1x16x100_S16x100,
    binary main_v304 main_v306 main_v307 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v308 ((extractStridedSlice S1x100 ![10, 0] · slices_S32x100_S1x100_10_0) : (⟨S32x100, .f32⟩ : BufTy).Contents (Elt F) → (⟨S1x100, .f32⟩ : BufTy).Contents (Elt F)),
    reshape main_v308 main_v309 rfl shapeCasts_S1x100_S100,
    unary main_v309 main_v310 (broadcastInDim S1x100 ![1] bcast_S100_S1x100_1 : (⟨S100, .f32⟩ : BufTy).Contents (Elt F) → (⟨S1x100, .f32⟩ : BufTy).Contents (Elt F)),
    unary main_v310 main_v311 (broadcastInDim S65536x100 ![0, 1] bcast_S1x100_S65536x100_0_1 : (⟨S1x100, .f32⟩ : BufTy).Contents (Elt F) → (⟨S65536x100, .f32⟩ : BufTy).Contents (Elt F)),
    binary main_v307 main_v311 main_v312 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S65536x100, .f32⟩) main_call20_v0) (broadcastInDim S65536x100 ![] bcast_S_S65536x100),
    TRef.binary (TRef.of (T := ⟨S65536x100, .f32⟩) main_v312) (TRef.of (T := ⟨S65536x100, .f32⟩) main_call20_v0) (TRef.of (T := ⟨S65536x100, .f32⟩) main_v313) maximumf,
    unary main_arg3 main_v314 ((extractStridedSlice S1x100x100 ![10, 0, 0] · slices_S32x100x100_S1x100x100_10_0_0) : (⟨S32x100x100, .f32⟩ : BufTy).Contents (Elt F) → (⟨S1x100x100, .f32⟩ : BufTy).Contents (Elt F)),
    reshape main_v314 main_v315 rfl shapeCasts_S1x100x100_S100x100,
    binary main_v313 main_v315 main_v316 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v317 ((extractStridedSlice S1x100 ![10, 0] · slices_S32x100_S1x100_10_0) : (⟨S32x100, .f32⟩ : BufTy).Contents (Elt F) → (⟨S1x100, .f32⟩ : BufTy).Contents (Elt F)),
    reshape main_v317 main_v318 rfl shapeCasts_S1x100_S100,
    unary main_v318 main_v319 (broadcastInDim S1x100 ![1] bcast_S100_S1x100_1 : (⟨S100, .f32⟩ : BufTy).Contents (Elt F) → (⟨S1x100, .f32⟩ : BufTy).Contents (Elt F)),
    unary main_v319 main_v320 (broadcastInDim S65536x100 ![0, 1] bcast_S1x100_S65536x100_0_1 : (⟨S1x100, .f32⟩ : BufTy).Contents (Elt F) → (⟨S65536x100, .f32⟩ : BufTy).Contents (Elt F)),
    binary main_v316 main_v320 main_v321 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S65536x100, .f32⟩) main_call21_v0) (broadcastInDim S65536x100 ![] bcast_S_S65536x100),
    TRef.binary (TRef.of (T := ⟨S65536x100, .f32⟩) main_v321) (TRef.of (T := ⟨S65536x100, .f32⟩) main_call21_v0) (TRef.of (T := ⟨S65536x100, .f32⟩) main_v322) maximumf,
    unary main_arg5 main_v323 ((extractStridedSlice S1x100x64 ![10, 0, 0] · slices_S32x100x64_S1x100x64_10_0_0) : (⟨S32x100x64, .f32⟩ : BufTy).Contents (Elt F) → (⟨S1x100x64, .f32⟩ : BufTy).Contents (Elt F)),
    reshape main_v323 main_v324 rfl shapeCasts_S1x100x64_S100x64,
    binary main_v322 main_v324 main_v325 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v326 ((extractStridedSlice S1x64 ![10, 0] · slices_S32x64_S1x64_10_0) : (⟨S32x64, .f32⟩ : BufTy).Contents (Elt F) → (⟨S1x64, .f32⟩ : BufTy).Contents (Elt F)),
    reshape main_v326 main_v327 rfl shapeCasts_S1x64_S64,
    unary main_v327 main_v328 (broadcastInDim S1x64 ![1] bcast_S64_S1x64_1 : (⟨S64, .f32⟩ : BufTy).Contents (Elt F) → (⟨S1x64, .f32⟩ : BufTy).Contents (Elt F)),
    unary main_v328 main_v329 (broadcastInDim S65536x64 ![0, 1] bcast_S1x64_S65536x64_0_1 : (⟨S1x64, .f32⟩ : BufTy).Contents (Elt F) → (⟨S65536x64, .f32⟩ : BufTy).Contents (Elt F)),
    binary main_v325 main_v329 main_v330 (addf : (⟨S65536x64, .f32⟩ : BufTy).Contents (Elt F) → (⟨S65536x64, .f32⟩ : BufTy).Contents (Elt F) → (⟨S65536x64, .f32⟩ : BufTy).Contents (Elt F)),
    reshape main_v330 main_v331 rfl shapeCasts_S65536x64_S65536x8x8,
    binary main_v303 main_v331 main_v332 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v333 ((extractStridedSlice S65536x16 ![0, 176] · slices_S65536x512_S65536x16_0_176) : (⟨S65536x512, .f32⟩ : BufTy).Contents (Elt F) → (⟨S65536x16, .f32⟩ : BufTy).Contents (Elt F)),
    unary main_arg1 main_v334 ((extractStridedSlice S1x16x100 ![11, 0, 0] · slices_S32x16x100_S1x16x100_11_0_0) : (⟨S32x16x100, .f32⟩ : BufTy).Contents (Elt F) → (⟨S1x16x100, .f32⟩ : BufTy).Contents (Elt F)),
    reshape main_v334 main_v335 rfl shapeCasts_S1x16x100_S16x100,
    binary main_v333 main_v335 main_v336 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v337 ((extractStridedSlice S1x100 ![11, 0] · slices_S32x100_S1x100_11_0) : (⟨S32x100, .f32⟩ : BufTy).Contents (Elt F) → (⟨S1x100, .f32⟩ : BufTy).Contents (Elt F)),
    reshape main_v337 main_v338 rfl shapeCasts_S1x100_S100,
    unary main_v338 main_v339 (broadcastInDim S1x100 ![1] bcast_S100_S1x100_1 : (⟨S100, .f32⟩ : BufTy).Contents (Elt F) → (⟨S1x100, .f32⟩ : BufTy).Contents (Elt F)),
    unary main_v339 main_v340 (broadcastInDim S65536x100 ![0, 1] bcast_S1x100_S65536x100_0_1 : (⟨S1x100, .f32⟩ : BufTy).Contents (Elt F) → (⟨S65536x100, .f32⟩ : BufTy).Contents (Elt F)),
    binary main_v336 main_v340 main_v341 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S65536x100, .f32⟩) main_call22_v0) (broadcastInDim S65536x100 ![] bcast_S_S65536x100),
    TRef.binary (TRef.of (T := ⟨S65536x100, .f32⟩) main_v341) (TRef.of (T := ⟨S65536x100, .f32⟩) main_call22_v0) (TRef.of (T := ⟨S65536x100, .f32⟩) main_v342) maximumf,
    unary main_arg3 main_v343 ((extractStridedSlice S1x100x100 ![11, 0, 0] · slices_S32x100x100_S1x100x100_11_0_0) : (⟨S32x100x100, .f32⟩ : BufTy).Contents (Elt F) → (⟨S1x100x100, .f32⟩ : BufTy).Contents (Elt F)),
    reshape main_v343 main_v344 rfl shapeCasts_S1x100x100_S100x100,
    binary main_v342 main_v344 main_v345 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v346 ((extractStridedSlice S1x100 ![11, 0] · slices_S32x100_S1x100_11_0) : (⟨S32x100, .f32⟩ : BufTy).Contents (Elt F) → (⟨S1x100, .f32⟩ : BufTy).Contents (Elt F)),
    reshape main_v346 main_v347 rfl shapeCasts_S1x100_S100,
    unary main_v347 main_v348 (broadcastInDim S1x100 ![1] bcast_S100_S1x100_1 : (⟨S100, .f32⟩ : BufTy).Contents (Elt F) → (⟨S1x100, .f32⟩ : BufTy).Contents (Elt F)),
    unary main_v348 main_v349 (broadcastInDim S65536x100 ![0, 1] bcast_S1x100_S65536x100_0_1 : (⟨S1x100, .f32⟩ : BufTy).Contents (Elt F) → (⟨S65536x100, .f32⟩ : BufTy).Contents (Elt F)),
    binary main_v345 main_v349 main_v350 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S65536x100, .f32⟩) main_call23_v0) (broadcastInDim S65536x100 ![] bcast_S_S65536x100),
    TRef.binary (TRef.of (T := ⟨S65536x100, .f32⟩) main_v350) (TRef.of (T := ⟨S65536x100, .f32⟩) main_call23_v0) (TRef.of (T := ⟨S65536x100, .f32⟩) main_v351) maximumf,
    unary main_arg5 main_v352 ((extractStridedSlice S1x100x64 ![11, 0, 0] · slices_S32x100x64_S1x100x64_11_0_0) : (⟨S32x100x64, .f32⟩ : BufTy).Contents (Elt F) → (⟨S1x100x64, .f32⟩ : BufTy).Contents (Elt F)),
    reshape main_v352 main_v353 rfl shapeCasts_S1x100x64_S100x64,
    binary main_v351 main_v353 main_v354 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v355 ((extractStridedSlice S1x64 ![11, 0] · slices_S32x64_S1x64_11_0) : (⟨S32x64, .f32⟩ : BufTy).Contents (Elt F) → (⟨S1x64, .f32⟩ : BufTy).Contents (Elt F)) ]

/-- The operations of window 6 of the printed program. -/
abbrev part6 : List (HloOp τ sig (Elt F)) :=
  [ reshape main_v355 main_v356 rfl shapeCasts_S1x64_S64,
    unary main_v356 main_v357 (broadcastInDim S1x64 ![1] bcast_S64_S1x64_1 : (⟨S64, .f32⟩ : BufTy).Contents (Elt F) → (⟨S1x64, .f32⟩ : BufTy).Contents (Elt F)),
    unary main_v357 main_v358 (broadcastInDim S65536x64 ![0, 1] bcast_S1x64_S65536x64_0_1 : (⟨S1x64, .f32⟩ : BufTy).Contents (Elt F) → (⟨S65536x64, .f32⟩ : BufTy).Contents (Elt F)),
    binary main_v354 main_v358 main_v359 (addf : (⟨S65536x64, .f32⟩ : BufTy).Contents (Elt F) → (⟨S65536x64, .f32⟩ : BufTy).Contents (Elt F) → (⟨S65536x64, .f32⟩ : BufTy).Contents (Elt F)),
    reshape main_v359 main_v360 rfl shapeCasts_S65536x64_S65536x8x8,
    binary main_v332 main_v360 main_v361 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v362 ((extractStridedSlice S65536x16 ![0, 192] · slices_S65536x512_S65536x16_0_192) : (⟨S65536x512, .f32⟩ : BufTy).Contents (Elt F) → (⟨S65536x16, .f32⟩ : BufTy).Contents (Elt F)),
    unary main_arg1 main_v363 ((extractStridedSlice S1x16x100 ![12, 0, 0] · slices_S32x16x100_S1x16x100_12_0_0) : (⟨S32x16x100, .f32⟩ : BufTy).Contents (Elt F) → (⟨S1x16x100, .f32⟩ : BufTy).Contents (Elt F)),
    reshape main_v363 main_v364 rfl shapeCasts_S1x16x100_S16x100,
    binary main_v362 main_v364 main_v365 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v366 ((extractStridedSlice S1x100 ![12, 0] · slices_S32x100_S1x100_12_0) : (⟨S32x100, .f32⟩ : BufTy).Contents (Elt F) → (⟨S1x100, .f32⟩ : BufTy).Contents (Elt F)),
    reshape main_v366 main_v367 rfl shapeCasts_S1x100_S100,
    unary main_v367 main_v368 (broadcastInDim S1x100 ![1] bcast_S100_S1x100_1 : (⟨S100, .f32⟩ : BufTy).Contents (Elt F) → (⟨S1x100, .f32⟩ : BufTy).Contents (Elt F)),
    unary main_v368 main_v369 (broadcastInDim S65536x100 ![0, 1] bcast_S1x100_S65536x100_0_1 : (⟨S1x100, .f32⟩ : BufTy).Contents (Elt F) → (⟨S65536x100, .f32⟩ : BufTy).Contents (Elt F)),
    binary main_v365 main_v369 main_v370 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call24_cst) (constant S_ .f32 0x00000000#32),
    TRef.unary (TRef.of (T := ⟨S_, .f32⟩) main_call24_cst) (TRef.of (T := ⟨S65536x100, .f32⟩) main_call24_v0) (broadcastInDim S65536x100 ![] bcast_S_S65536x100),
    TRef.binary (TRef.of (T := ⟨S65536x100, .f32⟩) main_v370) (TRef.of (T := ⟨S65536x100, .f32⟩) main_call24_v0) (TRef.of (T := ⟨S65536x100, .f32⟩) main_v371) maximumf,
    unary main_arg3 main_v372 ((extractStridedSlice S1x100x100 ![12, 0, 0] · slices_S32x100x100_S1x100x100_12_0_0) : (⟨S32x100x100, .f32⟩ : BufTy).Contents (Elt F) → (⟨S1x100x100, .f32⟩ : BufTy).Contents (Elt F)),
    reshape main_v372 main_v373 rfl shapeCasts_S1x100x100_S100x100,
    binary main_v371 main_v373 main_v374 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v375 ((extractStridedSlice S1x100 ![12, 0] · slices_S32x100_S1x100_12_0) : (⟨S32x100, .f32⟩ : BufTy).Contents (Elt F) → (⟨S1x100, .f32⟩ : BufTy).Contents (Elt F)),
    reshape main_v375 main_v376 rfl shapeCasts_S1x100_S100,
    unary main_v376 main_v377 (broadcastInDim S1x100 ![1] bcast_S100_S1x100_1 : (⟨S100, .f32⟩ : BufTy).Contents (Elt F) → (⟨S1x100, .f32⟩ : BufTy).Contents (Elt F)),
    unary main_v377 main_v378 (broadcastInDim S65536x100 ![0, 1] bcast_S1x100_S65536x100_0_1 : (⟨S1x100, .f32⟩ : BufTy).Contents (Elt F) → (⟨S65536x100, .f32⟩ : BufTy).Contents (Elt F)),
    binary main_v374 main_v378 main_v379 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S65536x100, .f32⟩) main_call25_v0) (broadcastInDim S65536x100 ![] bcast_S_S65536x100),
    TRef.binary (TRef.of (T := ⟨S65536x100, .f32⟩) main_v379) (TRef.of (T := ⟨S65536x100, .f32⟩) main_call25_v0) (TRef.of (T := ⟨S65536x100, .f32⟩) main_v380) maximumf,
    unary main_arg5 main_v381 ((extractStridedSlice S1x100x64 ![12, 0, 0] · slices_S32x100x64_S1x100x64_12_0_0) : (⟨S32x100x64, .f32⟩ : BufTy).Contents (Elt F) → (⟨S1x100x64, .f32⟩ : BufTy).Contents (Elt F)),
    reshape main_v381 main_v382 rfl shapeCasts_S1x100x64_S100x64,
    binary main_v380 main_v382 main_v383 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v384 ((extractStridedSlice S1x64 ![12, 0] · slices_S32x64_S1x64_12_0) : (⟨S32x64, .f32⟩ : BufTy).Contents (Elt F) → (⟨S1x64, .f32⟩ : BufTy).Contents (Elt F)),
    reshape main_v384 main_v385 rfl shapeCasts_S1x64_S64,
    unary main_v385 main_v386 (broadcastInDim S1x64 ![1] bcast_S64_S1x64_1 : (⟨S64, .f32⟩ : BufTy).Contents (Elt F) → (⟨S1x64, .f32⟩ : BufTy).Contents (Elt F)),
    unary main_v386 main_v387 (broadcastInDim S65536x64 ![0, 1] bcast_S1x64_S65536x64_0_1 : (⟨S1x64, .f32⟩ : BufTy).Contents (Elt F) → (⟨S65536x64, .f32⟩ : BufTy).Contents (Elt F)),
    binary main_v383 main_v387 main_v388 (addf : (⟨S65536x64, .f32⟩ : BufTy).Contents (Elt F) → (⟨S65536x64, .f32⟩ : BufTy).Contents (Elt F) → (⟨S65536x64, .f32⟩ : BufTy).Contents (Elt F)),
    reshape main_v388 main_v389 rfl shapeCasts_S65536x64_S65536x8x8,
    binary main_v361 main_v389 main_v390 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v391 ((extractStridedSlice S65536x16 ![0, 208] · slices_S65536x512_S65536x16_0_208) : (⟨S65536x512, .f32⟩ : BufTy).Contents (Elt F) → (⟨S65536x16, .f32⟩ : BufTy).Contents (Elt F)),
    unary main_arg1 main_v392 ((extractStridedSlice S1x16x100 ![13, 0, 0] · slices_S32x16x100_S1x16x100_13_0_0) : (⟨S32x16x100, .f32⟩ : BufTy).Contents (Elt F) → (⟨S1x16x100, .f32⟩ : BufTy).Contents (Elt F)),
    reshape main_v392 main_v393 rfl shapeCasts_S1x16x100_S16x100,
    binary main_v391 main_v393 main_v394 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v395 ((extractStridedSlice S1x100 ![13, 0] · slices_S32x100_S1x100_13_0) : (⟨S32x100, .f32⟩ : BufTy).Contents (Elt F) → (⟨S1x100, .f32⟩ : BufTy).Contents (Elt F)),
    reshape main_v395 main_v396 rfl shapeCasts_S1x100_S100,
    unary main_v396 main_v397 (broadcastInDim S1x100 ![1] bcast_S100_S1x100_1 : (⟨S100, .f32⟩ : BufTy).Contents (Elt F) → (⟨S1x100, .f32⟩ : BufTy).Contents (Elt F)),
    unary main_v397 main_v398 (broadcastInDim S65536x100 ![0, 1] bcast_S1x100_S65536x100_0_1 : (⟨S1x100, .f32⟩ : BufTy).Contents (Elt F) → (⟨S65536x100, .f32⟩ : BufTy).Contents (Elt F)),
    binary main_v394 main_v398 main_v399 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call26_cst) (constant S_ .f32 0x00000000#32),
    TRef.unary (TRef.of (T := ⟨S_, .f32⟩) main_call26_cst) (TRef.of (T := ⟨S65536x100, .f32⟩) main_call26_v0) (broadcastInDim S65536x100 ![] bcast_S_S65536x100),
    TRef.binary (TRef.of (T := ⟨S65536x100, .f32⟩) main_v399) (TRef.of (T := ⟨S65536x100, .f32⟩) main_call26_v0) (TRef.of (T := ⟨S65536x100, .f32⟩) main_v400) maximumf,
    unary main_arg3 main_v401 ((extractStridedSlice S1x100x100 ![13, 0, 0] · slices_S32x100x100_S1x100x100_13_0_0) : (⟨S32x100x100, .f32⟩ : BufTy).Contents (Elt F) → (⟨S1x100x100, .f32⟩ : BufTy).Contents (Elt F)),
    reshape main_v401 main_v402 rfl shapeCasts_S1x100x100_S100x100,
    binary main_v400 main_v402 main_v403 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v404 ((extractStridedSlice S1x100 ![13, 0] · slices_S32x100_S1x100_13_0) : (⟨S32x100, .f32⟩ : BufTy).Contents (Elt F) → (⟨S1x100, .f32⟩ : BufTy).Contents (Elt F)),
    reshape main_v404 main_v405 rfl shapeCasts_S1x100_S100,
    unary main_v405 main_v406 (broadcastInDim S1x100 ![1] bcast_S100_S1x100_1 : (⟨S100, .f32⟩ : BufTy).Contents (Elt F) → (⟨S1x100, .f32⟩ : BufTy).Contents (Elt F)),
    unary main_v406 main_v407 (broadcastInDim S65536x100 ![0, 1] bcast_S1x100_S65536x100_0_1 : (⟨S1x100, .f32⟩ : BufTy).Contents (Elt F) → (⟨S65536x100, .f32⟩ : BufTy).Contents (Elt F)),
    binary main_v403 main_v407 main_v408 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call27_cst) (constant S_ .f32 0x00000000#32),
    TRef.unary (TRef.of (T := ⟨S_, .f32⟩) main_call27_cst) (TRef.of (T := ⟨S65536x100, .f32⟩) main_call27_v0) (broadcastInDim S65536x100 ![] bcast_S_S65536x100),
    TRef.binary (TRef.of (T := ⟨S65536x100, .f32⟩) main_v408) (TRef.of (T := ⟨S65536x100, .f32⟩) main_call27_v0) (TRef.of (T := ⟨S65536x100, .f32⟩) main_v409) maximumf,
    unary main_arg5 main_v410 ((extractStridedSlice S1x100x64 ![13, 0, 0] · slices_S32x100x64_S1x100x64_13_0_0) : (⟨S32x100x64, .f32⟩ : BufTy).Contents (Elt F) → (⟨S1x100x64, .f32⟩ : BufTy).Contents (Elt F)),
    reshape main_v410 main_v411 rfl shapeCasts_S1x100x64_S100x64,
    binary main_v409 main_v411 main_v412 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v413 ((extractStridedSlice S1x64 ![13, 0] · slices_S32x64_S1x64_13_0) : (⟨S32x64, .f32⟩ : BufTy).Contents (Elt F) → (⟨S1x64, .f32⟩ : BufTy).Contents (Elt F)),
    reshape main_v413 main_v414 rfl shapeCasts_S1x64_S64,
    unary main_v414 main_v415 (broadcastInDim S1x64 ![1] bcast_S64_S1x64_1 : (⟨S64, .f32⟩ : BufTy).Contents (Elt F) → (⟨S1x64, .f32⟩ : BufTy).Contents (Elt F)) ]

/-- The operations of window 7 of the printed program. -/
abbrev part7 : List (HloOp τ sig (Elt F)) :=
  [ unary main_v415 main_v416 (broadcastInDim S65536x64 ![0, 1] bcast_S1x64_S65536x64_0_1 : (⟨S1x64, .f32⟩ : BufTy).Contents (Elt F) → (⟨S65536x64, .f32⟩ : BufTy).Contents (Elt F)),
    binary main_v412 main_v416 main_v417 (addf : (⟨S65536x64, .f32⟩ : BufTy).Contents (Elt F) → (⟨S65536x64, .f32⟩ : BufTy).Contents (Elt F) → (⟨S65536x64, .f32⟩ : BufTy).Contents (Elt F)),
    reshape main_v417 main_v418 rfl shapeCasts_S65536x64_S65536x8x8,
    binary main_v390 main_v418 main_v419 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v420 ((extractStridedSlice S65536x16 ![0, 224] · slices_S65536x512_S65536x16_0_224) : (⟨S65536x512, .f32⟩ : BufTy).Contents (Elt F) → (⟨S65536x16, .f32⟩ : BufTy).Contents (Elt F)),
    unary main_arg1 main_v421 ((extractStridedSlice S1x16x100 ![14, 0, 0] · slices_S32x16x100_S1x16x100_14_0_0) : (⟨S32x16x100, .f32⟩ : BufTy).Contents (Elt F) → (⟨S1x16x100, .f32⟩ : BufTy).Contents (Elt F)),
    reshape main_v421 main_v422 rfl shapeCasts_S1x16x100_S16x100,
    binary main_v420 main_v422 main_v423 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v424 ((extractStridedSlice S1x100 ![14, 0] · slices_S32x100_S1x100_14_0) : (⟨S32x100, .f32⟩ : BufTy).Contents (Elt F) → (⟨S1x100, .f32⟩ : BufTy).Contents (Elt F)),
    reshape main_v424 main_v425 rfl shapeCasts_S1x100_S100,
    unary main_v425 main_v426 (broadcastInDim S1x100 ![1] bcast_S100_S1x100_1 : (⟨S100, .f32⟩ : BufTy).Contents (Elt F) → (⟨S1x100, .f32⟩ : BufTy).Contents (Elt F)),
    unary main_v426 main_v427 (broadcastInDim S65536x100 ![0, 1] bcast_S1x100_S65536x100_0_1 : (⟨S1x100, .f32⟩ : BufTy).Contents (Elt F) → (⟨S65536x100, .f32⟩ : BufTy).Contents (Elt F)),
    binary main_v423 main_v427 main_v428 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S65536x100, .f32⟩) main_call28_v0) (broadcastInDim S65536x100 ![] bcast_S_S65536x100),
    TRef.binary (TRef.of (T := ⟨S65536x100, .f32⟩) main_v428) (TRef.of (T := ⟨S65536x100, .f32⟩) main_call28_v0) (TRef.of (T := ⟨S65536x100, .f32⟩) main_v429) maximumf,
    unary main_arg3 main_v430 ((extractStridedSlice S1x100x100 ![14, 0, 0] · slices_S32x100x100_S1x100x100_14_0_0) : (⟨S32x100x100, .f32⟩ : BufTy).Contents (Elt F) → (⟨S1x100x100, .f32⟩ : BufTy).Contents (Elt F)),
    reshape main_v430 main_v431 rfl shapeCasts_S1x100x100_S100x100,
    binary main_v429 main_v431 main_v432 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v433 ((extractStridedSlice S1x100 ![14, 0] · slices_S32x100_S1x100_14_0) : (⟨S32x100, .f32⟩ : BufTy).Contents (Elt F) → (⟨S1x100, .f32⟩ : BufTy).Contents (Elt F)),
    reshape main_v433 main_v434 rfl shapeCasts_S1x100_S100,
    unary main_v434 main_v435 (broadcastInDim S1x100 ![1] bcast_S100_S1x100_1 : (⟨S100, .f32⟩ : BufTy).Contents (Elt F) → (⟨S1x100, .f32⟩ : BufTy).Contents (Elt F)),
    unary main_v435 main_v436 (broadcastInDim S65536x100 ![0, 1] bcast_S1x100_S65536x100_0_1 : (⟨S1x100, .f32⟩ : BufTy).Contents (Elt F) → (⟨S65536x100, .f32⟩ : BufTy).Contents (Elt F)),
    binary main_v432 main_v436 main_v437 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S65536x100, .f32⟩) main_call29_v0) (broadcastInDim S65536x100 ![] bcast_S_S65536x100),
    TRef.binary (TRef.of (T := ⟨S65536x100, .f32⟩) main_v437) (TRef.of (T := ⟨S65536x100, .f32⟩) main_call29_v0) (TRef.of (T := ⟨S65536x100, .f32⟩) main_v438) maximumf,
    unary main_arg5 main_v439 ((extractStridedSlice S1x100x64 ![14, 0, 0] · slices_S32x100x64_S1x100x64_14_0_0) : (⟨S32x100x64, .f32⟩ : BufTy).Contents (Elt F) → (⟨S1x100x64, .f32⟩ : BufTy).Contents (Elt F)),
    reshape main_v439 main_v440 rfl shapeCasts_S1x100x64_S100x64,
    binary main_v438 main_v440 main_v441 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v442 ((extractStridedSlice S1x64 ![14, 0] · slices_S32x64_S1x64_14_0) : (⟨S32x64, .f32⟩ : BufTy).Contents (Elt F) → (⟨S1x64, .f32⟩ : BufTy).Contents (Elt F)),
    reshape main_v442 main_v443 rfl shapeCasts_S1x64_S64,
    unary main_v443 main_v444 (broadcastInDim S1x64 ![1] bcast_S64_S1x64_1 : (⟨S64, .f32⟩ : BufTy).Contents (Elt F) → (⟨S1x64, .f32⟩ : BufTy).Contents (Elt F)),
    unary main_v444 main_v445 (broadcastInDim S65536x64 ![0, 1] bcast_S1x64_S65536x64_0_1 : (⟨S1x64, .f32⟩ : BufTy).Contents (Elt F) → (⟨S65536x64, .f32⟩ : BufTy).Contents (Elt F)),
    binary main_v441 main_v445 main_v446 (addf : (⟨S65536x64, .f32⟩ : BufTy).Contents (Elt F) → (⟨S65536x64, .f32⟩ : BufTy).Contents (Elt F) → (⟨S65536x64, .f32⟩ : BufTy).Contents (Elt F)),
    reshape main_v446 main_v447 rfl shapeCasts_S65536x64_S65536x8x8,
    binary main_v419 main_v447 main_v448 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v449 ((extractStridedSlice S65536x16 ![0, 240] · slices_S65536x512_S65536x16_0_240) : (⟨S65536x512, .f32⟩ : BufTy).Contents (Elt F) → (⟨S65536x16, .f32⟩ : BufTy).Contents (Elt F)),
    unary main_arg1 main_v450 ((extractStridedSlice S1x16x100 ![15, 0, 0] · slices_S32x16x100_S1x16x100_15_0_0) : (⟨S32x16x100, .f32⟩ : BufTy).Contents (Elt F) → (⟨S1x16x100, .f32⟩ : BufTy).Contents (Elt F)),
    reshape main_v450 main_v451 rfl shapeCasts_S1x16x100_S16x100,
    binary main_v449 main_v451 main_v452 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v453 ((extractStridedSlice S1x100 ![15, 0] · slices_S32x100_S1x100_15_0) : (⟨S32x100, .f32⟩ : BufTy).Contents (Elt F) → (⟨S1x100, .f32⟩ : BufTy).Contents (Elt F)),
    reshape main_v453 main_v454 rfl shapeCasts_S1x100_S100,
    unary main_v454 main_v455 (broadcastInDim S1x100 ![1] bcast_S100_S1x100_1 : (⟨S100, .f32⟩ : BufTy).Contents (Elt F) → (⟨S1x100, .f32⟩ : BufTy).Contents (Elt F)),
    unary main_v455 main_v456 (broadcastInDim S65536x100 ![0, 1] bcast_S1x100_S65536x100_0_1 : (⟨S1x100, .f32⟩ : BufTy).Contents (Elt F) → (⟨S65536x100, .f32⟩ : BufTy).Contents (Elt F)),
    binary main_v452 main_v456 main_v457 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call30_cst) (constant S_ .f32 0x00000000#32),
    TRef.unary (TRef.of (T := ⟨S_, .f32⟩) main_call30_cst) (TRef.of (T := ⟨S65536x100, .f32⟩) main_call30_v0) (broadcastInDim S65536x100 ![] bcast_S_S65536x100),
    TRef.binary (TRef.of (T := ⟨S65536x100, .f32⟩) main_v457) (TRef.of (T := ⟨S65536x100, .f32⟩) main_call30_v0) (TRef.of (T := ⟨S65536x100, .f32⟩) main_v458) maximumf,
    unary main_arg3 main_v459 ((extractStridedSlice S1x100x100 ![15, 0, 0] · slices_S32x100x100_S1x100x100_15_0_0) : (⟨S32x100x100, .f32⟩ : BufTy).Contents (Elt F) → (⟨S1x100x100, .f32⟩ : BufTy).Contents (Elt F)),
    reshape main_v459 main_v460 rfl shapeCasts_S1x100x100_S100x100,
    binary main_v458 main_v460 main_v461 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v462 ((extractStridedSlice S1x100 ![15, 0] · slices_S32x100_S1x100_15_0) : (⟨S32x100, .f32⟩ : BufTy).Contents (Elt F) → (⟨S1x100, .f32⟩ : BufTy).Contents (Elt F)),
    reshape main_v462 main_v463 rfl shapeCasts_S1x100_S100,
    unary main_v463 main_v464 (broadcastInDim S1x100 ![1] bcast_S100_S1x100_1 : (⟨S100, .f32⟩ : BufTy).Contents (Elt F) → (⟨S1x100, .f32⟩ : BufTy).Contents (Elt F)),
    unary main_v464 main_v465 (broadcastInDim S65536x100 ![0, 1] bcast_S1x100_S65536x100_0_1 : (⟨S1x100, .f32⟩ : BufTy).Contents (Elt F) → (⟨S65536x100, .f32⟩ : BufTy).Contents (Elt F)),
    binary main_v461 main_v465 main_v466 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call31_cst) (constant S_ .f32 0x00000000#32),
    TRef.unary (TRef.of (T := ⟨S_, .f32⟩) main_call31_cst) (TRef.of (T := ⟨S65536x100, .f32⟩) main_call31_v0) (broadcastInDim S65536x100 ![] bcast_S_S65536x100),
    TRef.binary (TRef.of (T := ⟨S65536x100, .f32⟩) main_v466) (TRef.of (T := ⟨S65536x100, .f32⟩) main_call31_v0) (TRef.of (T := ⟨S65536x100, .f32⟩) main_v467) maximumf,
    unary main_arg5 main_v468 ((extractStridedSlice S1x100x64 ![15, 0, 0] · slices_S32x100x64_S1x100x64_15_0_0) : (⟨S32x100x64, .f32⟩ : BufTy).Contents (Elt F) → (⟨S1x100x64, .f32⟩ : BufTy).Contents (Elt F)),
    reshape main_v468 main_v469 rfl shapeCasts_S1x100x64_S100x64,
    binary main_v467 main_v469 main_v470 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v471 ((extractStridedSlice S1x64 ![15, 0] · slices_S32x64_S1x64_15_0) : (⟨S32x64, .f32⟩ : BufTy).Contents (Elt F) → (⟨S1x64, .f32⟩ : BufTy).Contents (Elt F)),
    reshape main_v471 main_v472 rfl shapeCasts_S1x64_S64,
    unary main_v472 main_v473 (broadcastInDim S1x64 ![1] bcast_S64_S1x64_1 : (⟨S64, .f32⟩ : BufTy).Contents (Elt F) → (⟨S1x64, .f32⟩ : BufTy).Contents (Elt F)),
    unary main_v473 main_v474 (broadcastInDim S65536x64 ![0, 1] bcast_S1x64_S65536x64_0_1 : (⟨S1x64, .f32⟩ : BufTy).Contents (Elt F) → (⟨S65536x64, .f32⟩ : BufTy).Contents (Elt F)),
    binary main_v470 main_v474 main_v475 (addf : (⟨S65536x64, .f32⟩ : BufTy).Contents (Elt F) → (⟨S65536x64, .f32⟩ : BufTy).Contents (Elt F) → (⟨S65536x64, .f32⟩ : BufTy).Contents (Elt F)) ]

/-- The operations of window 8 of the printed program. -/
abbrev part8 : List (HloOp τ sig (Elt F)) :=
  [ reshape main_v475 main_v476 rfl shapeCasts_S65536x64_S65536x8x8,
    binary main_v448 main_v476 main_v477 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v478 ((extractStridedSlice S65536x16 ![0, 256] · slices_S65536x512_S65536x16_0_256) : (⟨S65536x512, .f32⟩ : BufTy).Contents (Elt F) → (⟨S65536x16, .f32⟩ : BufTy).Contents (Elt F)),
    unary main_arg1 main_v479 ((extractStridedSlice S1x16x100 ![16, 0, 0] · slices_S32x16x100_S1x16x100_16_0_0) : (⟨S32x16x100, .f32⟩ : BufTy).Contents (Elt F) → (⟨S1x16x100, .f32⟩ : BufTy).Contents (Elt F)),
    reshape main_v479 main_v480 rfl shapeCasts_S1x16x100_S16x100,
    binary main_v478 main_v480 main_v481 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v482 ((extractStridedSlice S1x100 ![16, 0] · slices_S32x100_S1x100_16_0) : (⟨S32x100, .f32⟩ : BufTy).Contents (Elt F) → (⟨S1x100, .f32⟩ : BufTy).Contents (Elt F)),
    reshape main_v482 main_v483 rfl shapeCasts_S1x100_S100,
    unary main_v483 main_v484 (broadcastInDim S1x100 ![1] bcast_S100_S1x100_1 : (⟨S100, .f32⟩ : BufTy).Contents (Elt F) → (⟨S1x100, .f32⟩ : BufTy).Contents (Elt F)),
    unary main_v484 main_v485 (broadcastInDim S65536x100 ![0, 1] bcast_S1x100_S65536x100_0_1 : (⟨S1x100, .f32⟩ : BufTy).Contents (Elt F) → (⟨S65536x100, .f32⟩ : BufTy).Contents (Elt F)),
    binary main_v481 main_v485 main_v486 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call32_cst) (constant S_ .f32 0x00000000#32),
    TRef.unary (TRef.of (T := ⟨S_, .f32⟩) main_call32_cst) (TRef.of (T := ⟨S65536x100, .f32⟩) main_call32_v0) (broadcastInDim S65536x100 ![] bcast_S_S65536x100),
    TRef.binary (TRef.of (T := ⟨S65536x100, .f32⟩) main_v486) (TRef.of (T := ⟨S65536x100, .f32⟩) main_call32_v0) (TRef.of (T := ⟨S65536x100, .f32⟩) main_v487) maximumf,
    unary main_arg3 main_v488 ((extractStridedSlice S1x100x100 ![16, 0, 0] · slices_S32x100x100_S1x100x100_16_0_0) : (⟨S32x100x100, .f32⟩ : BufTy).Contents (Elt F) → (⟨S1x100x100, .f32⟩ : BufTy).Contents (Elt F)),
    reshape main_v488 main_v489 rfl shapeCasts_S1x100x100_S100x100,
    binary main_v487 main_v489 main_v490 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v491 ((extractStridedSlice S1x100 ![16, 0] · slices_S32x100_S1x100_16_0) : (⟨S32x100, .f32⟩ : BufTy).Contents (Elt F) → (⟨S1x100, .f32⟩ : BufTy).Contents (Elt F)),
    reshape main_v491 main_v492 rfl shapeCasts_S1x100_S100,
    unary main_v492 main_v493 (broadcastInDim S1x100 ![1] bcast_S100_S1x100_1 : (⟨S100, .f32⟩ : BufTy).Contents (Elt F) → (⟨S1x100, .f32⟩ : BufTy).Contents (Elt F)),
    unary main_v493 main_v494 (broadcastInDim S65536x100 ![0, 1] bcast_S1x100_S65536x100_0_1 : (⟨S1x100, .f32⟩ : BufTy).Contents (Elt F) → (⟨S65536x100, .f32⟩ : BufTy).Contents (Elt F)),
    binary main_v490 main_v494 main_v495 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call33_cst) (constant S_ .f32 0x00000000#32),
    TRef.unary (TRef.of (T := ⟨S_, .f32⟩) main_call33_cst) (TRef.of (T := ⟨S65536x100, .f32⟩) main_call33_v0) (broadcastInDim S65536x100 ![] bcast_S_S65536x100),
    TRef.binary (TRef.of (T := ⟨S65536x100, .f32⟩) main_v495) (TRef.of (T := ⟨S65536x100, .f32⟩) main_call33_v0) (TRef.of (T := ⟨S65536x100, .f32⟩) main_v496) maximumf,
    unary main_arg5 main_v497 ((extractStridedSlice S1x100x64 ![16, 0, 0] · slices_S32x100x64_S1x100x64_16_0_0) : (⟨S32x100x64, .f32⟩ : BufTy).Contents (Elt F) → (⟨S1x100x64, .f32⟩ : BufTy).Contents (Elt F)),
    reshape main_v497 main_v498 rfl shapeCasts_S1x100x64_S100x64,
    binary main_v496 main_v498 main_v499 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v500 ((extractStridedSlice S1x64 ![16, 0] · slices_S32x64_S1x64_16_0) : (⟨S32x64, .f32⟩ : BufTy).Contents (Elt F) → (⟨S1x64, .f32⟩ : BufTy).Contents (Elt F)),
    reshape main_v500 main_v501 rfl shapeCasts_S1x64_S64,
    unary main_v501 main_v502 (broadcastInDim S1x64 ![1] bcast_S64_S1x64_1 : (⟨S64, .f32⟩ : BufTy).Contents (Elt F) → (⟨S1x64, .f32⟩ : BufTy).Contents (Elt F)),
    unary main_v502 main_v503 (broadcastInDim S65536x64 ![0, 1] bcast_S1x64_S65536x64_0_1 : (⟨S1x64, .f32⟩ : BufTy).Contents (Elt F) → (⟨S65536x64, .f32⟩ : BufTy).Contents (Elt F)),
    binary main_v499 main_v503 main_v504 (addf : (⟨S65536x64, .f32⟩ : BufTy).Contents (Elt F) → (⟨S65536x64, .f32⟩ : BufTy).Contents (Elt F) → (⟨S65536x64, .f32⟩ : BufTy).Contents (Elt F)),
    reshape main_v504 main_v505 rfl shapeCasts_S65536x64_S65536x8x8,
    binary main_v477 main_v505 main_v506 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v507 ((extractStridedSlice S65536x16 ![0, 272] · slices_S65536x512_S65536x16_0_272) : (⟨S65536x512, .f32⟩ : BufTy).Contents (Elt F) → (⟨S65536x16, .f32⟩ : BufTy).Contents (Elt F)),
    unary main_arg1 main_v508 ((extractStridedSlice S1x16x100 ![17, 0, 0] · slices_S32x16x100_S1x16x100_17_0_0) : (⟨S32x16x100, .f32⟩ : BufTy).Contents (Elt F) → (⟨S1x16x100, .f32⟩ : BufTy).Contents (Elt F)),
    reshape main_v508 main_v509 rfl shapeCasts_S1x16x100_S16x100,
    binary main_v507 main_v509 main_v510 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v511 ((extractStridedSlice S1x100 ![17, 0] · slices_S32x100_S1x100_17_0) : (⟨S32x100, .f32⟩ : BufTy).Contents (Elt F) → (⟨S1x100, .f32⟩ : BufTy).Contents (Elt F)),
    reshape main_v511 main_v512 rfl shapeCasts_S1x100_S100,
    unary main_v512 main_v513 (broadcastInDim S1x100 ![1] bcast_S100_S1x100_1 : (⟨S100, .f32⟩ : BufTy).Contents (Elt F) → (⟨S1x100, .f32⟩ : BufTy).Contents (Elt F)),
    unary main_v513 main_v514 (broadcastInDim S65536x100 ![0, 1] bcast_S1x100_S65536x100_0_1 : (⟨S1x100, .f32⟩ : BufTy).Contents (Elt F) → (⟨S65536x100, .f32⟩ : BufTy).Contents (Elt F)),
    binary main_v510 main_v514 main_v515 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call34_cst) (constant S_ .f32 0x00000000#32),
    TRef.unary (TRef.of (T := ⟨S_, .f32⟩) main_call34_cst) (TRef.of (T := ⟨S65536x100, .f32⟩) main_call34_v0) (broadcastInDim S65536x100 ![] bcast_S_S65536x100),
    TRef.binary (TRef.of (T := ⟨S65536x100, .f32⟩) main_v515) (TRef.of (T := ⟨S65536x100, .f32⟩) main_call34_v0) (TRef.of (T := ⟨S65536x100, .f32⟩) main_v516) maximumf,
    unary main_arg3 main_v517 ((extractStridedSlice S1x100x100 ![17, 0, 0] · slices_S32x100x100_S1x100x100_17_0_0) : (⟨S32x100x100, .f32⟩ : BufTy).Contents (Elt F) → (⟨S1x100x100, .f32⟩ : BufTy).Contents (Elt F)),
    reshape main_v517 main_v518 rfl shapeCasts_S1x100x100_S100x100,
    binary main_v516 main_v518 main_v519 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v520 ((extractStridedSlice S1x100 ![17, 0] · slices_S32x100_S1x100_17_0) : (⟨S32x100, .f32⟩ : BufTy).Contents (Elt F) → (⟨S1x100, .f32⟩ : BufTy).Contents (Elt F)),
    reshape main_v520 main_v521 rfl shapeCasts_S1x100_S100,
    unary main_v521 main_v522 (broadcastInDim S1x100 ![1] bcast_S100_S1x100_1 : (⟨S100, .f32⟩ : BufTy).Contents (Elt F) → (⟨S1x100, .f32⟩ : BufTy).Contents (Elt F)),
    unary main_v522 main_v523 (broadcastInDim S65536x100 ![0, 1] bcast_S1x100_S65536x100_0_1 : (⟨S1x100, .f32⟩ : BufTy).Contents (Elt F) → (⟨S65536x100, .f32⟩ : BufTy).Contents (Elt F)),
    binary main_v519 main_v523 main_v524 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call35_cst) (constant S_ .f32 0x00000000#32),
    TRef.unary (TRef.of (T := ⟨S_, .f32⟩) main_call35_cst) (TRef.of (T := ⟨S65536x100, .f32⟩) main_call35_v0) (broadcastInDim S65536x100 ![] bcast_S_S65536x100),
    TRef.binary (TRef.of (T := ⟨S65536x100, .f32⟩) main_v524) (TRef.of (T := ⟨S65536x100, .f32⟩) main_call35_v0) (TRef.of (T := ⟨S65536x100, .f32⟩) main_v525) maximumf,
    unary main_arg5 main_v526 ((extractStridedSlice S1x100x64 ![17, 0, 0] · slices_S32x100x64_S1x100x64_17_0_0) : (⟨S32x100x64, .f32⟩ : BufTy).Contents (Elt F) → (⟨S1x100x64, .f32⟩ : BufTy).Contents (Elt F)),
    reshape main_v526 main_v527 rfl shapeCasts_S1x100x64_S100x64,
    binary main_v525 main_v527 main_v528 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v529 ((extractStridedSlice S1x64 ![17, 0] · slices_S32x64_S1x64_17_0) : (⟨S32x64, .f32⟩ : BufTy).Contents (Elt F) → (⟨S1x64, .f32⟩ : BufTy).Contents (Elt F)),
    reshape main_v529 main_v530 rfl shapeCasts_S1x64_S64,
    unary main_v530 main_v531 (broadcastInDim S1x64 ![1] bcast_S64_S1x64_1 : (⟨S64, .f32⟩ : BufTy).Contents (Elt F) → (⟨S1x64, .f32⟩ : BufTy).Contents (Elt F)),
    unary main_v531 main_v532 (broadcastInDim S65536x64 ![0, 1] bcast_S1x64_S65536x64_0_1 : (⟨S1x64, .f32⟩ : BufTy).Contents (Elt F) → (⟨S65536x64, .f32⟩ : BufTy).Contents (Elt F)),
    binary main_v528 main_v532 main_v533 (addf : (⟨S65536x64, .f32⟩ : BufTy).Contents (Elt F) → (⟨S65536x64, .f32⟩ : BufTy).Contents (Elt F) → (⟨S65536x64, .f32⟩ : BufTy).Contents (Elt F)),
    reshape main_v533 main_v534 rfl shapeCasts_S65536x64_S65536x8x8,
    binary main_v506 main_v534 main_v535 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)) ]

/-- The operations of window 9 of the printed program. -/
abbrev part9 : List (HloOp τ sig (Elt F)) :=
  [ unary main_arg0 main_v536 ((extractStridedSlice S65536x16 ![0, 288] · slices_S65536x512_S65536x16_0_288) : (⟨S65536x512, .f32⟩ : BufTy).Contents (Elt F) → (⟨S65536x16, .f32⟩ : BufTy).Contents (Elt F)),
    unary main_arg1 main_v537 ((extractStridedSlice S1x16x100 ![18, 0, 0] · slices_S32x16x100_S1x16x100_18_0_0) : (⟨S32x16x100, .f32⟩ : BufTy).Contents (Elt F) → (⟨S1x16x100, .f32⟩ : BufTy).Contents (Elt F)),
    reshape main_v537 main_v538 rfl shapeCasts_S1x16x100_S16x100,
    binary main_v536 main_v538 main_v539 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v540 ((extractStridedSlice S1x100 ![18, 0] · slices_S32x100_S1x100_18_0) : (⟨S32x100, .f32⟩ : BufTy).Contents (Elt F) → (⟨S1x100, .f32⟩ : BufTy).Contents (Elt F)),
    reshape main_v540 main_v541 rfl shapeCasts_S1x100_S100,
    unary main_v541 main_v542 (broadcastInDim S1x100 ![1] bcast_S100_S1x100_1 : (⟨S100, .f32⟩ : BufTy).Contents (Elt F) → (⟨S1x100, .f32⟩ : BufTy).Contents (Elt F)),
    unary main_v542 main_v543 (broadcastInDim S65536x100 ![0, 1] bcast_S1x100_S65536x100_0_1 : (⟨S1x100, .f32⟩ : BufTy).Contents (Elt F) → (⟨S65536x100, .f32⟩ : BufTy).Contents (Elt F)),
    binary main_v539 main_v543 main_v544 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call36_cst) (constant S_ .f32 0x00000000#32),
    TRef.unary (TRef.of (T := ⟨S_, .f32⟩) main_call36_cst) (TRef.of (T := ⟨S65536x100, .f32⟩) main_call36_v0) (broadcastInDim S65536x100 ![] bcast_S_S65536x100),
    TRef.binary (TRef.of (T := ⟨S65536x100, .f32⟩) main_v544) (TRef.of (T := ⟨S65536x100, .f32⟩) main_call36_v0) (TRef.of (T := ⟨S65536x100, .f32⟩) main_v545) maximumf,
    unary main_arg3 main_v546 ((extractStridedSlice S1x100x100 ![18, 0, 0] · slices_S32x100x100_S1x100x100_18_0_0) : (⟨S32x100x100, .f32⟩ : BufTy).Contents (Elt F) → (⟨S1x100x100, .f32⟩ : BufTy).Contents (Elt F)),
    reshape main_v546 main_v547 rfl shapeCasts_S1x100x100_S100x100,
    binary main_v545 main_v547 main_v548 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v549 ((extractStridedSlice S1x100 ![18, 0] · slices_S32x100_S1x100_18_0) : (⟨S32x100, .f32⟩ : BufTy).Contents (Elt F) → (⟨S1x100, .f32⟩ : BufTy).Contents (Elt F)),
    reshape main_v549 main_v550 rfl shapeCasts_S1x100_S100,
    unary main_v550 main_v551 (broadcastInDim S1x100 ![1] bcast_S100_S1x100_1 : (⟨S100, .f32⟩ : BufTy).Contents (Elt F) → (⟨S1x100, .f32⟩ : BufTy).Contents (Elt F)),
    unary main_v551 main_v552 (broadcastInDim S65536x100 ![0, 1] bcast_S1x100_S65536x100_0_1 : (⟨S1x100, .f32⟩ : BufTy).Contents (Elt F) → (⟨S65536x100, .f32⟩ : BufTy).Contents (Elt F)),
    binary main_v548 main_v552 main_v553 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call37_cst) (constant S_ .f32 0x00000000#32),
    TRef.unary (TRef.of (T := ⟨S_, .f32⟩) main_call37_cst) (TRef.of (T := ⟨S65536x100, .f32⟩) main_call37_v0) (broadcastInDim S65536x100 ![] bcast_S_S65536x100),
    TRef.binary (TRef.of (T := ⟨S65536x100, .f32⟩) main_v553) (TRef.of (T := ⟨S65536x100, .f32⟩) main_call37_v0) (TRef.of (T := ⟨S65536x100, .f32⟩) main_v554) maximumf,
    unary main_arg5 main_v555 ((extractStridedSlice S1x100x64 ![18, 0, 0] · slices_S32x100x64_S1x100x64_18_0_0) : (⟨S32x100x64, .f32⟩ : BufTy).Contents (Elt F) → (⟨S1x100x64, .f32⟩ : BufTy).Contents (Elt F)),
    reshape main_v555 main_v556 rfl shapeCasts_S1x100x64_S100x64,
    binary main_v554 main_v556 main_v557 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v558 ((extractStridedSlice S1x64 ![18, 0] · slices_S32x64_S1x64_18_0) : (⟨S32x64, .f32⟩ : BufTy).Contents (Elt F) → (⟨S1x64, .f32⟩ : BufTy).Contents (Elt F)),
    reshape main_v558 main_v559 rfl shapeCasts_S1x64_S64,
    unary main_v559 main_v560 (broadcastInDim S1x64 ![1] bcast_S64_S1x64_1 : (⟨S64, .f32⟩ : BufTy).Contents (Elt F) → (⟨S1x64, .f32⟩ : BufTy).Contents (Elt F)),
    unary main_v560 main_v561 (broadcastInDim S65536x64 ![0, 1] bcast_S1x64_S65536x64_0_1 : (⟨S1x64, .f32⟩ : BufTy).Contents (Elt F) → (⟨S65536x64, .f32⟩ : BufTy).Contents (Elt F)),
    binary main_v557 main_v561 main_v562 (addf : (⟨S65536x64, .f32⟩ : BufTy).Contents (Elt F) → (⟨S65536x64, .f32⟩ : BufTy).Contents (Elt F) → (⟨S65536x64, .f32⟩ : BufTy).Contents (Elt F)),
    reshape main_v562 main_v563 rfl shapeCasts_S65536x64_S65536x8x8,
    binary main_v535 main_v563 main_v564 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v565 ((extractStridedSlice S65536x16 ![0, 304] · slices_S65536x512_S65536x16_0_304) : (⟨S65536x512, .f32⟩ : BufTy).Contents (Elt F) → (⟨S65536x16, .f32⟩ : BufTy).Contents (Elt F)),
    unary main_arg1 main_v566 ((extractStridedSlice S1x16x100 ![19, 0, 0] · slices_S32x16x100_S1x16x100_19_0_0) : (⟨S32x16x100, .f32⟩ : BufTy).Contents (Elt F) → (⟨S1x16x100, .f32⟩ : BufTy).Contents (Elt F)),
    reshape main_v566 main_v567 rfl shapeCasts_S1x16x100_S16x100,
    binary main_v565 main_v567 main_v568 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v569 ((extractStridedSlice S1x100 ![19, 0] · slices_S32x100_S1x100_19_0) : (⟨S32x100, .f32⟩ : BufTy).Contents (Elt F) → (⟨S1x100, .f32⟩ : BufTy).Contents (Elt F)),
    reshape main_v569 main_v570 rfl shapeCasts_S1x100_S100,
    unary main_v570 main_v571 (broadcastInDim S1x100 ![1] bcast_S100_S1x100_1 : (⟨S100, .f32⟩ : BufTy).Contents (Elt F) → (⟨S1x100, .f32⟩ : BufTy).Contents (Elt F)),
    unary main_v571 main_v572 (broadcastInDim S65536x100 ![0, 1] bcast_S1x100_S65536x100_0_1 : (⟨S1x100, .f32⟩ : BufTy).Contents (Elt F) → (⟨S65536x100, .f32⟩ : BufTy).Contents (Elt F)),
    binary main_v568 main_v572 main_v573 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call38_cst) (constant S_ .f32 0x00000000#32),
    TRef.unary (TRef.of (T := ⟨S_, .f32⟩) main_call38_cst) (TRef.of (T := ⟨S65536x100, .f32⟩) main_call38_v0) (broadcastInDim S65536x100 ![] bcast_S_S65536x100),
    TRef.binary (TRef.of (T := ⟨S65536x100, .f32⟩) main_v573) (TRef.of (T := ⟨S65536x100, .f32⟩) main_call38_v0) (TRef.of (T := ⟨S65536x100, .f32⟩) main_v574) maximumf,
    unary main_arg3 main_v575 ((extractStridedSlice S1x100x100 ![19, 0, 0] · slices_S32x100x100_S1x100x100_19_0_0) : (⟨S32x100x100, .f32⟩ : BufTy).Contents (Elt F) → (⟨S1x100x100, .f32⟩ : BufTy).Contents (Elt F)),
    reshape main_v575 main_v576 rfl shapeCasts_S1x100x100_S100x100,
    binary main_v574 main_v576 main_v577 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v578 ((extractStridedSlice S1x100 ![19, 0] · slices_S32x100_S1x100_19_0) : (⟨S32x100, .f32⟩ : BufTy).Contents (Elt F) → (⟨S1x100, .f32⟩ : BufTy).Contents (Elt F)),
    reshape main_v578 main_v579 rfl shapeCasts_S1x100_S100,
    unary main_v579 main_v580 (broadcastInDim S1x100 ![1] bcast_S100_S1x100_1 : (⟨S100, .f32⟩ : BufTy).Contents (Elt F) → (⟨S1x100, .f32⟩ : BufTy).Contents (Elt F)),
    unary main_v580 main_v581 (broadcastInDim S65536x100 ![0, 1] bcast_S1x100_S65536x100_0_1 : (⟨S1x100, .f32⟩ : BufTy).Contents (Elt F) → (⟨S65536x100, .f32⟩ : BufTy).Contents (Elt F)),
    binary main_v577 main_v581 main_v582 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call39_cst) (constant S_ .f32 0x00000000#32),
    TRef.unary (TRef.of (T := ⟨S_, .f32⟩) main_call39_cst) (TRef.of (T := ⟨S65536x100, .f32⟩) main_call39_v0) (broadcastInDim S65536x100 ![] bcast_S_S65536x100),
    TRef.binary (TRef.of (T := ⟨S65536x100, .f32⟩) main_v582) (TRef.of (T := ⟨S65536x100, .f32⟩) main_call39_v0) (TRef.of (T := ⟨S65536x100, .f32⟩) main_v583) maximumf,
    unary main_arg5 main_v584 ((extractStridedSlice S1x100x64 ![19, 0, 0] · slices_S32x100x64_S1x100x64_19_0_0) : (⟨S32x100x64, .f32⟩ : BufTy).Contents (Elt F) → (⟨S1x100x64, .f32⟩ : BufTy).Contents (Elt F)),
    reshape main_v584 main_v585 rfl shapeCasts_S1x100x64_S100x64,
    binary main_v583 main_v585 main_v586 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v587 ((extractStridedSlice S1x64 ![19, 0] · slices_S32x64_S1x64_19_0) : (⟨S32x64, .f32⟩ : BufTy).Contents (Elt F) → (⟨S1x64, .f32⟩ : BufTy).Contents (Elt F)),
    reshape main_v587 main_v588 rfl shapeCasts_S1x64_S64,
    unary main_v588 main_v589 (broadcastInDim S1x64 ![1] bcast_S64_S1x64_1 : (⟨S64, .f32⟩ : BufTy).Contents (Elt F) → (⟨S1x64, .f32⟩ : BufTy).Contents (Elt F)),
    unary main_v589 main_v590 (broadcastInDim S65536x64 ![0, 1] bcast_S1x64_S65536x64_0_1 : (⟨S1x64, .f32⟩ : BufTy).Contents (Elt F) → (⟨S65536x64, .f32⟩ : BufTy).Contents (Elt F)),
    binary main_v586 main_v590 main_v591 (addf : (⟨S65536x64, .f32⟩ : BufTy).Contents (Elt F) → (⟨S65536x64, .f32⟩ : BufTy).Contents (Elt F) → (⟨S65536x64, .f32⟩ : BufTy).Contents (Elt F)),
    reshape main_v591 main_v592 rfl shapeCasts_S65536x64_S65536x8x8,
    binary main_v564 main_v592 main_v593 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v594 ((extractStridedSlice S65536x16 ![0, 320] · slices_S65536x512_S65536x16_0_320) : (⟨S65536x512, .f32⟩ : BufTy).Contents (Elt F) → (⟨S65536x16, .f32⟩ : BufTy).Contents (Elt F)),
    unary main_arg1 main_v595 ((extractStridedSlice S1x16x100 ![20, 0, 0] · slices_S32x16x100_S1x16x100_20_0_0) : (⟨S32x16x100, .f32⟩ : BufTy).Contents (Elt F) → (⟨S1x16x100, .f32⟩ : BufTy).Contents (Elt F)) ]

/-- The operations of window 10 of the printed program. -/
abbrev part10 : List (HloOp τ sig (Elt F)) :=
  [ reshape main_v595 main_v596 rfl shapeCasts_S1x16x100_S16x100,
    binary main_v594 main_v596 main_v597 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v598 ((extractStridedSlice S1x100 ![20, 0] · slices_S32x100_S1x100_20_0) : (⟨S32x100, .f32⟩ : BufTy).Contents (Elt F) → (⟨S1x100, .f32⟩ : BufTy).Contents (Elt F)),
    reshape main_v598 main_v599 rfl shapeCasts_S1x100_S100,
    unary main_v599 main_v600 (broadcastInDim S1x100 ![1] bcast_S100_S1x100_1 : (⟨S100, .f32⟩ : BufTy).Contents (Elt F) → (⟨S1x100, .f32⟩ : BufTy).Contents (Elt F)),
    unary main_v600 main_v601 (broadcastInDim S65536x100 ![0, 1] bcast_S1x100_S65536x100_0_1 : (⟨S1x100, .f32⟩ : BufTy).Contents (Elt F) → (⟨S65536x100, .f32⟩ : BufTy).Contents (Elt F)),
    binary main_v597 main_v601 main_v602 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call40_cst) (constant S_ .f32 0x00000000#32),
    TRef.unary (TRef.of (T := ⟨S_, .f32⟩) main_call40_cst) (TRef.of (T := ⟨S65536x100, .f32⟩) main_call40_v0) (broadcastInDim S65536x100 ![] bcast_S_S65536x100),
    TRef.binary (TRef.of (T := ⟨S65536x100, .f32⟩) main_v602) (TRef.of (T := ⟨S65536x100, .f32⟩) main_call40_v0) (TRef.of (T := ⟨S65536x100, .f32⟩) main_v603) maximumf,
    unary main_arg3 main_v604 ((extractStridedSlice S1x100x100 ![20, 0, 0] · slices_S32x100x100_S1x100x100_20_0_0) : (⟨S32x100x100, .f32⟩ : BufTy).Contents (Elt F) → (⟨S1x100x100, .f32⟩ : BufTy).Contents (Elt F)),
    reshape main_v604 main_v605 rfl shapeCasts_S1x100x100_S100x100,
    binary main_v603 main_v605 main_v606 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v607 ((extractStridedSlice S1x100 ![20, 0] · slices_S32x100_S1x100_20_0) : (⟨S32x100, .f32⟩ : BufTy).Contents (Elt F) → (⟨S1x100, .f32⟩ : BufTy).Contents (Elt F)),
    reshape main_v607 main_v608 rfl shapeCasts_S1x100_S100,
    unary main_v608 main_v609 (broadcastInDim S1x100 ![1] bcast_S100_S1x100_1 : (⟨S100, .f32⟩ : BufTy).Contents (Elt F) → (⟨S1x100, .f32⟩ : BufTy).Contents (Elt F)),
    unary main_v609 main_v610 (broadcastInDim S65536x100 ![0, 1] bcast_S1x100_S65536x100_0_1 : (⟨S1x100, .f32⟩ : BufTy).Contents (Elt F) → (⟨S65536x100, .f32⟩ : BufTy).Contents (Elt F)),
    binary main_v606 main_v610 main_v611 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call41_cst) (constant S_ .f32 0x00000000#32),
    TRef.unary (TRef.of (T := ⟨S_, .f32⟩) main_call41_cst) (TRef.of (T := ⟨S65536x100, .f32⟩) main_call41_v0) (broadcastInDim S65536x100 ![] bcast_S_S65536x100),
    TRef.binary (TRef.of (T := ⟨S65536x100, .f32⟩) main_v611) (TRef.of (T := ⟨S65536x100, .f32⟩) main_call41_v0) (TRef.of (T := ⟨S65536x100, .f32⟩) main_v612) maximumf,
    unary main_arg5 main_v613 ((extractStridedSlice S1x100x64 ![20, 0, 0] · slices_S32x100x64_S1x100x64_20_0_0) : (⟨S32x100x64, .f32⟩ : BufTy).Contents (Elt F) → (⟨S1x100x64, .f32⟩ : BufTy).Contents (Elt F)),
    reshape main_v613 main_v614 rfl shapeCasts_S1x100x64_S100x64,
    binary main_v612 main_v614 main_v615 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v616 ((extractStridedSlice S1x64 ![20, 0] · slices_S32x64_S1x64_20_0) : (⟨S32x64, .f32⟩ : BufTy).Contents (Elt F) → (⟨S1x64, .f32⟩ : BufTy).Contents (Elt F)),
    reshape main_v616 main_v617 rfl shapeCasts_S1x64_S64,
    unary main_v617 main_v618 (broadcastInDim S1x64 ![1] bcast_S64_S1x64_1 : (⟨S64, .f32⟩ : BufTy).Contents (Elt F) → (⟨S1x64, .f32⟩ : BufTy).Contents (Elt F)),
    unary main_v618 main_v619 (broadcastInDim S65536x64 ![0, 1] bcast_S1x64_S65536x64_0_1 : (⟨S1x64, .f32⟩ : BufTy).Contents (Elt F) → (⟨S65536x64, .f32⟩ : BufTy).Contents (Elt F)),
    binary main_v615 main_v619 main_v620 (addf : (⟨S65536x64, .f32⟩ : BufTy).Contents (Elt F) → (⟨S65536x64, .f32⟩ : BufTy).Contents (Elt F) → (⟨S65536x64, .f32⟩ : BufTy).Contents (Elt F)),
    reshape main_v620 main_v621 rfl shapeCasts_S65536x64_S65536x8x8,
    binary main_v593 main_v621 main_v622 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v623 ((extractStridedSlice S65536x16 ![0, 336] · slices_S65536x512_S65536x16_0_336) : (⟨S65536x512, .f32⟩ : BufTy).Contents (Elt F) → (⟨S65536x16, .f32⟩ : BufTy).Contents (Elt F)),
    unary main_arg1 main_v624 ((extractStridedSlice S1x16x100 ![21, 0, 0] · slices_S32x16x100_S1x16x100_21_0_0) : (⟨S32x16x100, .f32⟩ : BufTy).Contents (Elt F) → (⟨S1x16x100, .f32⟩ : BufTy).Contents (Elt F)),
    reshape main_v624 main_v625 rfl shapeCasts_S1x16x100_S16x100,
    binary main_v623 main_v625 main_v626 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v627 ((extractStridedSlice S1x100 ![21, 0] · slices_S32x100_S1x100_21_0) : (⟨S32x100, .f32⟩ : BufTy).Contents (Elt F) → (⟨S1x100, .f32⟩ : BufTy).Contents (Elt F)),
    reshape main_v627 main_v628 rfl shapeCasts_S1x100_S100,
    unary main_v628 main_v629 (broadcastInDim S1x100 ![1] bcast_S100_S1x100_1 : (⟨S100, .f32⟩ : BufTy).Contents (Elt F) → (⟨S1x100, .f32⟩ : BufTy).Contents (Elt F)),
    unary main_v629 main_v630 (broadcastInDim S65536x100 ![0, 1] bcast_S1x100_S65536x100_0_1 : (⟨S1x100, .f32⟩ : BufTy).Contents (Elt F) → (⟨S65536x100, .f32⟩ : BufTy).Contents (Elt F)),
    binary main_v626 main_v630 main_v631 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call42_cst) (constant S_ .f32 0x00000000#32),
    TRef.unary (TRef.of (T := ⟨S_, .f32⟩) main_call42_cst) (TRef.of (T := ⟨S65536x100, .f32⟩) main_call42_v0) (broadcastInDim S65536x100 ![] bcast_S_S65536x100),
    TRef.binary (TRef.of (T := ⟨S65536x100, .f32⟩) main_v631) (TRef.of (T := ⟨S65536x100, .f32⟩) main_call42_v0) (TRef.of (T := ⟨S65536x100, .f32⟩) main_v632) maximumf,
    unary main_arg3 main_v633 ((extractStridedSlice S1x100x100 ![21, 0, 0] · slices_S32x100x100_S1x100x100_21_0_0) : (⟨S32x100x100, .f32⟩ : BufTy).Contents (Elt F) → (⟨S1x100x100, .f32⟩ : BufTy).Contents (Elt F)),
    reshape main_v633 main_v634 rfl shapeCasts_S1x100x100_S100x100,
    binary main_v632 main_v634 main_v635 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v636 ((extractStridedSlice S1x100 ![21, 0] · slices_S32x100_S1x100_21_0) : (⟨S32x100, .f32⟩ : BufTy).Contents (Elt F) → (⟨S1x100, .f32⟩ : BufTy).Contents (Elt F)),
    reshape main_v636 main_v637 rfl shapeCasts_S1x100_S100,
    unary main_v637 main_v638 (broadcastInDim S1x100 ![1] bcast_S100_S1x100_1 : (⟨S100, .f32⟩ : BufTy).Contents (Elt F) → (⟨S1x100, .f32⟩ : BufTy).Contents (Elt F)),
    unary main_v638 main_v639 (broadcastInDim S65536x100 ![0, 1] bcast_S1x100_S65536x100_0_1 : (⟨S1x100, .f32⟩ : BufTy).Contents (Elt F) → (⟨S65536x100, .f32⟩ : BufTy).Contents (Elt F)),
    binary main_v635 main_v639 main_v640 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call43_cst) (constant S_ .f32 0x00000000#32),
    TRef.unary (TRef.of (T := ⟨S_, .f32⟩) main_call43_cst) (TRef.of (T := ⟨S65536x100, .f32⟩) main_call43_v0) (broadcastInDim S65536x100 ![] bcast_S_S65536x100),
    TRef.binary (TRef.of (T := ⟨S65536x100, .f32⟩) main_v640) (TRef.of (T := ⟨S65536x100, .f32⟩) main_call43_v0) (TRef.of (T := ⟨S65536x100, .f32⟩) main_v641) maximumf,
    unary main_arg5 main_v642 ((extractStridedSlice S1x100x64 ![21, 0, 0] · slices_S32x100x64_S1x100x64_21_0_0) : (⟨S32x100x64, .f32⟩ : BufTy).Contents (Elt F) → (⟨S1x100x64, .f32⟩ : BufTy).Contents (Elt F)),
    reshape main_v642 main_v643 rfl shapeCasts_S1x100x64_S100x64,
    binary main_v641 main_v643 main_v644 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v645 ((extractStridedSlice S1x64 ![21, 0] · slices_S32x64_S1x64_21_0) : (⟨S32x64, .f32⟩ : BufTy).Contents (Elt F) → (⟨S1x64, .f32⟩ : BufTy).Contents (Elt F)),
    reshape main_v645 main_v646 rfl shapeCasts_S1x64_S64,
    unary main_v646 main_v647 (broadcastInDim S1x64 ![1] bcast_S64_S1x64_1 : (⟨S64, .f32⟩ : BufTy).Contents (Elt F) → (⟨S1x64, .f32⟩ : BufTy).Contents (Elt F)),
    unary main_v647 main_v648 (broadcastInDim S65536x64 ![0, 1] bcast_S1x64_S65536x64_0_1 : (⟨S1x64, .f32⟩ : BufTy).Contents (Elt F) → (⟨S65536x64, .f32⟩ : BufTy).Contents (Elt F)),
    binary main_v644 main_v648 main_v649 (addf : (⟨S65536x64, .f32⟩ : BufTy).Contents (Elt F) → (⟨S65536x64, .f32⟩ : BufTy).Contents (Elt F) → (⟨S65536x64, .f32⟩ : BufTy).Contents (Elt F)),
    reshape main_v649 main_v650 rfl shapeCasts_S65536x64_S65536x8x8,
    binary main_v622 main_v650 main_v651 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v652 ((extractStridedSlice S65536x16 ![0, 352] · slices_S65536x512_S65536x16_0_352) : (⟨S65536x512, .f32⟩ : BufTy).Contents (Elt F) → (⟨S65536x16, .f32⟩ : BufTy).Contents (Elt F)),
    unary main_arg1 main_v653 ((extractStridedSlice S1x16x100 ![22, 0, 0] · slices_S32x16x100_S1x16x100_22_0_0) : (⟨S32x16x100, .f32⟩ : BufTy).Contents (Elt F) → (⟨S1x16x100, .f32⟩ : BufTy).Contents (Elt F)),
    reshape main_v653 main_v654 rfl shapeCasts_S1x16x100_S16x100,
    binary main_v652 main_v654 main_v655 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)) ]

/-- The operations of window 11 of the printed program. -/
abbrev part11 : List (HloOp τ sig (Elt F)) :=
  [ unary main_arg2 main_v656 ((extractStridedSlice S1x100 ![22, 0] · slices_S32x100_S1x100_22_0) : (⟨S32x100, .f32⟩ : BufTy).Contents (Elt F) → (⟨S1x100, .f32⟩ : BufTy).Contents (Elt F)),
    reshape main_v656 main_v657 rfl shapeCasts_S1x100_S100,
    unary main_v657 main_v658 (broadcastInDim S1x100 ![1] bcast_S100_S1x100_1 : (⟨S100, .f32⟩ : BufTy).Contents (Elt F) → (⟨S1x100, .f32⟩ : BufTy).Contents (Elt F)),
    unary main_v658 main_v659 (broadcastInDim S65536x100 ![0, 1] bcast_S1x100_S65536x100_0_1 : (⟨S1x100, .f32⟩ : BufTy).Contents (Elt F) → (⟨S65536x100, .f32⟩ : BufTy).Contents (Elt F)),
    binary main_v655 main_v659 main_v660 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call44_cst) (constant S_ .f32 0x00000000#32),
    TRef.unary (TRef.of (T := ⟨S_, .f32⟩) main_call44_cst) (TRef.of (T := ⟨S65536x100, .f32⟩) main_call44_v0) (broadcastInDim S65536x100 ![] bcast_S_S65536x100),
    TRef.binary (TRef.of (T := ⟨S65536x100, .f32⟩) main_v660) (TRef.of (T := ⟨S65536x100, .f32⟩) main_call44_v0) (TRef.of (T := ⟨S65536x100, .f32⟩) main_v661) maximumf,
    unary main_arg3 main_v662 ((extractStridedSlice S1x100x100 ![22, 0, 0] · slices_S32x100x100_S1x100x100_22_0_0) : (⟨S32x100x100, .f32⟩ : BufTy).Contents (Elt F) → (⟨S1x100x100, .f32⟩ : BufTy).Contents (Elt F)),
    reshape main_v662 main_v663 rfl shapeCasts_S1x100x100_S100x100,
    binary main_v661 main_v663 main_v664 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v665 ((extractStridedSlice S1x100 ![22, 0] · slices_S32x100_S1x100_22_0) : (⟨S32x100, .f32⟩ : BufTy).Contents (Elt F) → (⟨S1x100, .f32⟩ : BufTy).Contents (Elt F)),
    reshape main_v665 main_v666 rfl shapeCasts_S1x100_S100,
    unary main_v666 main_v667 (broadcastInDim S1x100 ![1] bcast_S100_S1x100_1 : (⟨S100, .f32⟩ : BufTy).Contents (Elt F) → (⟨S1x100, .f32⟩ : BufTy).Contents (Elt F)),
    unary main_v667 main_v668 (broadcastInDim S65536x100 ![0, 1] bcast_S1x100_S65536x100_0_1 : (⟨S1x100, .f32⟩ : BufTy).Contents (Elt F) → (⟨S65536x100, .f32⟩ : BufTy).Contents (Elt F)),
    binary main_v664 main_v668 main_v669 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call45_cst) (constant S_ .f32 0x00000000#32),
    TRef.unary (TRef.of (T := ⟨S_, .f32⟩) main_call45_cst) (TRef.of (T := ⟨S65536x100, .f32⟩) main_call45_v0) (broadcastInDim S65536x100 ![] bcast_S_S65536x100),
    TRef.binary (TRef.of (T := ⟨S65536x100, .f32⟩) main_v669) (TRef.of (T := ⟨S65536x100, .f32⟩) main_call45_v0) (TRef.of (T := ⟨S65536x100, .f32⟩) main_v670) maximumf,
    unary main_arg5 main_v671 ((extractStridedSlice S1x100x64 ![22, 0, 0] · slices_S32x100x64_S1x100x64_22_0_0) : (⟨S32x100x64, .f32⟩ : BufTy).Contents (Elt F) → (⟨S1x100x64, .f32⟩ : BufTy).Contents (Elt F)),
    reshape main_v671 main_v672 rfl shapeCasts_S1x100x64_S100x64,
    binary main_v670 main_v672 main_v673 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v674 ((extractStridedSlice S1x64 ![22, 0] · slices_S32x64_S1x64_22_0) : (⟨S32x64, .f32⟩ : BufTy).Contents (Elt F) → (⟨S1x64, .f32⟩ : BufTy).Contents (Elt F)),
    reshape main_v674 main_v675 rfl shapeCasts_S1x64_S64,
    unary main_v675 main_v676 (broadcastInDim S1x64 ![1] bcast_S64_S1x64_1 : (⟨S64, .f32⟩ : BufTy).Contents (Elt F) → (⟨S1x64, .f32⟩ : BufTy).Contents (Elt F)),
    unary main_v676 main_v677 (broadcastInDim S65536x64 ![0, 1] bcast_S1x64_S65536x64_0_1 : (⟨S1x64, .f32⟩ : BufTy).Contents (Elt F) → (⟨S65536x64, .f32⟩ : BufTy).Contents (Elt F)),
    binary main_v673 main_v677 main_v678 (addf : (⟨S65536x64, .f32⟩ : BufTy).Contents (Elt F) → (⟨S65536x64, .f32⟩ : BufTy).Contents (Elt F) → (⟨S65536x64, .f32⟩ : BufTy).Contents (Elt F)),
    reshape main_v678 main_v679 rfl shapeCasts_S65536x64_S65536x8x8,
    binary main_v651 main_v679 main_v680 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v681 ((extractStridedSlice S65536x16 ![0, 368] · slices_S65536x512_S65536x16_0_368) : (⟨S65536x512, .f32⟩ : BufTy).Contents (Elt F) → (⟨S65536x16, .f32⟩ : BufTy).Contents (Elt F)),
    unary main_arg1 main_v682 ((extractStridedSlice S1x16x100 ![23, 0, 0] · slices_S32x16x100_S1x16x100_23_0_0) : (⟨S32x16x100, .f32⟩ : BufTy).Contents (Elt F) → (⟨S1x16x100, .f32⟩ : BufTy).Contents (Elt F)),
    reshape main_v682 main_v683 rfl shapeCasts_S1x16x100_S16x100,
    binary main_v681 main_v683 main_v684 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v685 ((extractStridedSlice S1x100 ![23, 0] · slices_S32x100_S1x100_23_0) : (⟨S32x100, .f32⟩ : BufTy).Contents (Elt F) → (⟨S1x100, .f32⟩ : BufTy).Contents (Elt F)),
    reshape main_v685 main_v686 rfl shapeCasts_S1x100_S100,
    unary main_v686 main_v687 (broadcastInDim S1x100 ![1] bcast_S100_S1x100_1 : (⟨S100, .f32⟩ : BufTy).Contents (Elt F) → (⟨S1x100, .f32⟩ : BufTy).Contents (Elt F)),
    unary main_v687 main_v688 (broadcastInDim S65536x100 ![0, 1] bcast_S1x100_S65536x100_0_1 : (⟨S1x100, .f32⟩ : BufTy).Contents (Elt F) → (⟨S65536x100, .f32⟩ : BufTy).Contents (Elt F)),
    binary main_v684 main_v688 main_v689 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call46_cst) (constant S_ .f32 0x00000000#32),
    TRef.unary (TRef.of (T := ⟨S_, .f32⟩) main_call46_cst) (TRef.of (T := ⟨S65536x100, .f32⟩) main_call46_v0) (broadcastInDim S65536x100 ![] bcast_S_S65536x100),
    TRef.binary (TRef.of (T := ⟨S65536x100, .f32⟩) main_v689) (TRef.of (T := ⟨S65536x100, .f32⟩) main_call46_v0) (TRef.of (T := ⟨S65536x100, .f32⟩) main_v690) maximumf,
    unary main_arg3 main_v691 ((extractStridedSlice S1x100x100 ![23, 0, 0] · slices_S32x100x100_S1x100x100_23_0_0) : (⟨S32x100x100, .f32⟩ : BufTy).Contents (Elt F) → (⟨S1x100x100, .f32⟩ : BufTy).Contents (Elt F)),
    reshape main_v691 main_v692 rfl shapeCasts_S1x100x100_S100x100,
    binary main_v690 main_v692 main_v693 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v694 ((extractStridedSlice S1x100 ![23, 0] · slices_S32x100_S1x100_23_0) : (⟨S32x100, .f32⟩ : BufTy).Contents (Elt F) → (⟨S1x100, .f32⟩ : BufTy).Contents (Elt F)),
    reshape main_v694 main_v695 rfl shapeCasts_S1x100_S100,
    unary main_v695 main_v696 (broadcastInDim S1x100 ![1] bcast_S100_S1x100_1 : (⟨S100, .f32⟩ : BufTy).Contents (Elt F) → (⟨S1x100, .f32⟩ : BufTy).Contents (Elt F)),
    unary main_v696 main_v697 (broadcastInDim S65536x100 ![0, 1] bcast_S1x100_S65536x100_0_1 : (⟨S1x100, .f32⟩ : BufTy).Contents (Elt F) → (⟨S65536x100, .f32⟩ : BufTy).Contents (Elt F)),
    binary main_v693 main_v697 main_v698 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call47_cst) (constant S_ .f32 0x00000000#32),
    TRef.unary (TRef.of (T := ⟨S_, .f32⟩) main_call47_cst) (TRef.of (T := ⟨S65536x100, .f32⟩) main_call47_v0) (broadcastInDim S65536x100 ![] bcast_S_S65536x100),
    TRef.binary (TRef.of (T := ⟨S65536x100, .f32⟩) main_v698) (TRef.of (T := ⟨S65536x100, .f32⟩) main_call47_v0) (TRef.of (T := ⟨S65536x100, .f32⟩) main_v699) maximumf,
    unary main_arg5 main_v700 ((extractStridedSlice S1x100x64 ![23, 0, 0] · slices_S32x100x64_S1x100x64_23_0_0) : (⟨S32x100x64, .f32⟩ : BufTy).Contents (Elt F) → (⟨S1x100x64, .f32⟩ : BufTy).Contents (Elt F)),
    reshape main_v700 main_v701 rfl shapeCasts_S1x100x64_S100x64,
    binary main_v699 main_v701 main_v702 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v703 ((extractStridedSlice S1x64 ![23, 0] · slices_S32x64_S1x64_23_0) : (⟨S32x64, .f32⟩ : BufTy).Contents (Elt F) → (⟨S1x64, .f32⟩ : BufTy).Contents (Elt F)),
    reshape main_v703 main_v704 rfl shapeCasts_S1x64_S64,
    unary main_v704 main_v705 (broadcastInDim S1x64 ![1] bcast_S64_S1x64_1 : (⟨S64, .f32⟩ : BufTy).Contents (Elt F) → (⟨S1x64, .f32⟩ : BufTy).Contents (Elt F)),
    unary main_v705 main_v706 (broadcastInDim S65536x64 ![0, 1] bcast_S1x64_S65536x64_0_1 : (⟨S1x64, .f32⟩ : BufTy).Contents (Elt F) → (⟨S65536x64, .f32⟩ : BufTy).Contents (Elt F)),
    binary main_v702 main_v706 main_v707 (addf : (⟨S65536x64, .f32⟩ : BufTy).Contents (Elt F) → (⟨S65536x64, .f32⟩ : BufTy).Contents (Elt F) → (⟨S65536x64, .f32⟩ : BufTy).Contents (Elt F)),
    reshape main_v707 main_v708 rfl shapeCasts_S65536x64_S65536x8x8,
    binary main_v680 main_v708 main_v709 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v710 ((extractStridedSlice S65536x16 ![0, 384] · slices_S65536x512_S65536x16_0_384) : (⟨S65536x512, .f32⟩ : BufTy).Contents (Elt F) → (⟨S65536x16, .f32⟩ : BufTy).Contents (Elt F)),
    unary main_arg1 main_v711 ((extractStridedSlice S1x16x100 ![24, 0, 0] · slices_S32x16x100_S1x16x100_24_0_0) : (⟨S32x16x100, .f32⟩ : BufTy).Contents (Elt F) → (⟨S1x16x100, .f32⟩ : BufTy).Contents (Elt F)),
    reshape main_v711 main_v712 rfl shapeCasts_S1x16x100_S16x100,
    binary main_v710 main_v712 main_v713 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v714 ((extractStridedSlice S1x100 ![24, 0] · slices_S32x100_S1x100_24_0) : (⟨S32x100, .f32⟩ : BufTy).Contents (Elt F) → (⟨S1x100, .f32⟩ : BufTy).Contents (Elt F)),
    reshape main_v714 main_v715 rfl shapeCasts_S1x100_S100 ]

/-- The operations of window 12 of the printed program. -/
abbrev part12 : List (HloOp τ sig (Elt F)) :=
  [ unary main_v715 main_v716 (broadcastInDim S1x100 ![1] bcast_S100_S1x100_1 : (⟨S100, .f32⟩ : BufTy).Contents (Elt F) → (⟨S1x100, .f32⟩ : BufTy).Contents (Elt F)),
    unary main_v716 main_v717 (broadcastInDim S65536x100 ![0, 1] bcast_S1x100_S65536x100_0_1 : (⟨S1x100, .f32⟩ : BufTy).Contents (Elt F) → (⟨S65536x100, .f32⟩ : BufTy).Contents (Elt F)),
    binary main_v713 main_v717 main_v718 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call48_cst) (constant S_ .f32 0x00000000#32),
    TRef.unary (TRef.of (T := ⟨S_, .f32⟩) main_call48_cst) (TRef.of (T := ⟨S65536x100, .f32⟩) main_call48_v0) (broadcastInDim S65536x100 ![] bcast_S_S65536x100),
    TRef.binary (TRef.of (T := ⟨S65536x100, .f32⟩) main_v718) (TRef.of (T := ⟨S65536x100, .f32⟩) main_call48_v0) (TRef.of (T := ⟨S65536x100, .f32⟩) main_v719) maximumf,
    unary main_arg3 main_v720 ((extractStridedSlice S1x100x100 ![24, 0, 0] · slices_S32x100x100_S1x100x100_24_0_0) : (⟨S32x100x100, .f32⟩ : BufTy).Contents (Elt F) → (⟨S1x100x100, .f32⟩ : BufTy).Contents (Elt F)),
    reshape main_v720 main_v721 rfl shapeCasts_S1x100x100_S100x100,
    binary main_v719 main_v721 main_v722 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v723 ((extractStridedSlice S1x100 ![24, 0] · slices_S32x100_S1x100_24_0) : (⟨S32x100, .f32⟩ : BufTy).Contents (Elt F) → (⟨S1x100, .f32⟩ : BufTy).Contents (Elt F)),
    reshape main_v723 main_v724 rfl shapeCasts_S1x100_S100,
    unary main_v724 main_v725 (broadcastInDim S1x100 ![1] bcast_S100_S1x100_1 : (⟨S100, .f32⟩ : BufTy).Contents (Elt F) → (⟨S1x100, .f32⟩ : BufTy).Contents (Elt F)),
    unary main_v725 main_v726 (broadcastInDim S65536x100 ![0, 1] bcast_S1x100_S65536x100_0_1 : (⟨S1x100, .f32⟩ : BufTy).Contents (Elt F) → (⟨S65536x100, .f32⟩ : BufTy).Contents (Elt F)),
    binary main_v722 main_v726 main_v727 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call49_cst) (constant S_ .f32 0x00000000#32),
    TRef.unary (TRef.of (T := ⟨S_, .f32⟩) main_call49_cst) (TRef.of (T := ⟨S65536x100, .f32⟩) main_call49_v0) (broadcastInDim S65536x100 ![] bcast_S_S65536x100),
    TRef.binary (TRef.of (T := ⟨S65536x100, .f32⟩) main_v727) (TRef.of (T := ⟨S65536x100, .f32⟩) main_call49_v0) (TRef.of (T := ⟨S65536x100, .f32⟩) main_v728) maximumf,
    unary main_arg5 main_v729 ((extractStridedSlice S1x100x64 ![24, 0, 0] · slices_S32x100x64_S1x100x64_24_0_0) : (⟨S32x100x64, .f32⟩ : BufTy).Contents (Elt F) → (⟨S1x100x64, .f32⟩ : BufTy).Contents (Elt F)),
    reshape main_v729 main_v730 rfl shapeCasts_S1x100x64_S100x64,
    binary main_v728 main_v730 main_v731 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v732 ((extractStridedSlice S1x64 ![24, 0] · slices_S32x64_S1x64_24_0) : (⟨S32x64, .f32⟩ : BufTy).Contents (Elt F) → (⟨S1x64, .f32⟩ : BufTy).Contents (Elt F)),
    reshape main_v732 main_v733 rfl shapeCasts_S1x64_S64,
    unary main_v733 main_v734 (broadcastInDim S1x64 ![1] bcast_S64_S1x64_1 : (⟨S64, .f32⟩ : BufTy).Contents (Elt F) → (⟨S1x64, .f32⟩ : BufTy).Contents (Elt F)),
    unary main_v734 main_v735 (broadcastInDim S65536x64 ![0, 1] bcast_S1x64_S65536x64_0_1 : (⟨S1x64, .f32⟩ : BufTy).Contents (Elt F) → (⟨S65536x64, .f32⟩ : BufTy).Contents (Elt F)),
    binary main_v731 main_v735 main_v736 (addf : (⟨S65536x64, .f32⟩ : BufTy).Contents (Elt F) → (⟨S65536x64, .f32⟩ : BufTy).Contents (Elt F) → (⟨S65536x64, .f32⟩ : BufTy).Contents (Elt F)),
    reshape main_v736 main_v737 rfl shapeCasts_S65536x64_S65536x8x8,
    binary main_v709 main_v737 main_v738 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v739 ((extractStridedSlice S65536x16 ![0, 400] · slices_S65536x512_S65536x16_0_400) : (⟨S65536x512, .f32⟩ : BufTy).Contents (Elt F) → (⟨S65536x16, .f32⟩ : BufTy).Contents (Elt F)),
    unary main_arg1 main_v740 ((extractStridedSlice S1x16x100 ![25, 0, 0] · slices_S32x16x100_S1x16x100_25_0_0) : (⟨S32x16x100, .f32⟩ : BufTy).Contents (Elt F) → (⟨S1x16x100, .f32⟩ : BufTy).Contents (Elt F)),
    reshape main_v740 main_v741 rfl shapeCasts_S1x16x100_S16x100,
    binary main_v739 main_v741 main_v742 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v743 ((extractStridedSlice S1x100 ![25, 0] · slices_S32x100_S1x100_25_0) : (⟨S32x100, .f32⟩ : BufTy).Contents (Elt F) → (⟨S1x100, .f32⟩ : BufTy).Contents (Elt F)),
    reshape main_v743 main_v744 rfl shapeCasts_S1x100_S100,
    unary main_v744 main_v745 (broadcastInDim S1x100 ![1] bcast_S100_S1x100_1 : (⟨S100, .f32⟩ : BufTy).Contents (Elt F) → (⟨S1x100, .f32⟩ : BufTy).Contents (Elt F)),
    unary main_v745 main_v746 (broadcastInDim S65536x100 ![0, 1] bcast_S1x100_S65536x100_0_1 : (⟨S1x100, .f32⟩ : BufTy).Contents (Elt F) → (⟨S65536x100, .f32⟩ : BufTy).Contents (Elt F)),
    binary main_v742 main_v746 main_v747 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call50_cst) (constant S_ .f32 0x00000000#32),
    TRef.unary (TRef.of (T := ⟨S_, .f32⟩) main_call50_cst) (TRef.of (T := ⟨S65536x100, .f32⟩) main_call50_v0) (broadcastInDim S65536x100 ![] bcast_S_S65536x100),
    TRef.binary (TRef.of (T := ⟨S65536x100, .f32⟩) main_v747) (TRef.of (T := ⟨S65536x100, .f32⟩) main_call50_v0) (TRef.of (T := ⟨S65536x100, .f32⟩) main_v748) maximumf,
    unary main_arg3 main_v749 ((extractStridedSlice S1x100x100 ![25, 0, 0] · slices_S32x100x100_S1x100x100_25_0_0) : (⟨S32x100x100, .f32⟩ : BufTy).Contents (Elt F) → (⟨S1x100x100, .f32⟩ : BufTy).Contents (Elt F)),
    reshape main_v749 main_v750 rfl shapeCasts_S1x100x100_S100x100,
    binary main_v748 main_v750 main_v751 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v752 ((extractStridedSlice S1x100 ![25, 0] · slices_S32x100_S1x100_25_0) : (⟨S32x100, .f32⟩ : BufTy).Contents (Elt F) → (⟨S1x100, .f32⟩ : BufTy).Contents (Elt F)),
    reshape main_v752 main_v753 rfl shapeCasts_S1x100_S100,
    unary main_v753 main_v754 (broadcastInDim S1x100 ![1] bcast_S100_S1x100_1 : (⟨S100, .f32⟩ : BufTy).Contents (Elt F) → (⟨S1x100, .f32⟩ : BufTy).Contents (Elt F)),
    unary main_v754 main_v755 (broadcastInDim S65536x100 ![0, 1] bcast_S1x100_S65536x100_0_1 : (⟨S1x100, .f32⟩ : BufTy).Contents (Elt F) → (⟨S65536x100, .f32⟩ : BufTy).Contents (Elt F)),
    binary main_v751 main_v755 main_v756 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call51_cst) (constant S_ .f32 0x00000000#32),
    TRef.unary (TRef.of (T := ⟨S_, .f32⟩) main_call51_cst) (TRef.of (T := ⟨S65536x100, .f32⟩) main_call51_v0) (broadcastInDim S65536x100 ![] bcast_S_S65536x100),
    TRef.binary (TRef.of (T := ⟨S65536x100, .f32⟩) main_v756) (TRef.of (T := ⟨S65536x100, .f32⟩) main_call51_v0) (TRef.of (T := ⟨S65536x100, .f32⟩) main_v757) maximumf,
    unary main_arg5 main_v758 ((extractStridedSlice S1x100x64 ![25, 0, 0] · slices_S32x100x64_S1x100x64_25_0_0) : (⟨S32x100x64, .f32⟩ : BufTy).Contents (Elt F) → (⟨S1x100x64, .f32⟩ : BufTy).Contents (Elt F)),
    reshape main_v758 main_v759 rfl shapeCasts_S1x100x64_S100x64,
    binary main_v757 main_v759 main_v760 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v761 ((extractStridedSlice S1x64 ![25, 0] · slices_S32x64_S1x64_25_0) : (⟨S32x64, .f32⟩ : BufTy).Contents (Elt F) → (⟨S1x64, .f32⟩ : BufTy).Contents (Elt F)),
    reshape main_v761 main_v762 rfl shapeCasts_S1x64_S64,
    unary main_v762 main_v763 (broadcastInDim S1x64 ![1] bcast_S64_S1x64_1 : (⟨S64, .f32⟩ : BufTy).Contents (Elt F) → (⟨S1x64, .f32⟩ : BufTy).Contents (Elt F)),
    unary main_v763 main_v764 (broadcastInDim S65536x64 ![0, 1] bcast_S1x64_S65536x64_0_1 : (⟨S1x64, .f32⟩ : BufTy).Contents (Elt F) → (⟨S65536x64, .f32⟩ : BufTy).Contents (Elt F)),
    binary main_v760 main_v764 main_v765 (addf : (⟨S65536x64, .f32⟩ : BufTy).Contents (Elt F) → (⟨S65536x64, .f32⟩ : BufTy).Contents (Elt F) → (⟨S65536x64, .f32⟩ : BufTy).Contents (Elt F)),
    reshape main_v765 main_v766 rfl shapeCasts_S65536x64_S65536x8x8,
    binary main_v738 main_v766 main_v767 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v768 ((extractStridedSlice S65536x16 ![0, 416] · slices_S65536x512_S65536x16_0_416) : (⟨S65536x512, .f32⟩ : BufTy).Contents (Elt F) → (⟨S65536x16, .f32⟩ : BufTy).Contents (Elt F)),
    unary main_arg1 main_v769 ((extractStridedSlice S1x16x100 ![26, 0, 0] · slices_S32x16x100_S1x16x100_26_0_0) : (⟨S32x16x100, .f32⟩ : BufTy).Contents (Elt F) → (⟨S1x16x100, .f32⟩ : BufTy).Contents (Elt F)),
    reshape main_v769 main_v770 rfl shapeCasts_S1x16x100_S16x100,
    binary main_v768 main_v770 main_v771 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v772 ((extractStridedSlice S1x100 ![26, 0] · slices_S32x100_S1x100_26_0) : (⟨S32x100, .f32⟩ : BufTy).Contents (Elt F) → (⟨S1x100, .f32⟩ : BufTy).Contents (Elt F)),
    reshape main_v772 main_v773 rfl shapeCasts_S1x100_S100,
    unary main_v773 main_v774 (broadcastInDim S1x100 ![1] bcast_S100_S1x100_1 : (⟨S100, .f32⟩ : BufTy).Contents (Elt F) → (⟨S1x100, .f32⟩ : BufTy).Contents (Elt F)),
    unary main_v774 main_v775 (broadcastInDim S65536x100 ![0, 1] bcast_S1x100_S65536x100_0_1 : (⟨S1x100, .f32⟩ : BufTy).Contents (Elt F) → (⟨S65536x100, .f32⟩ : BufTy).Contents (Elt F)) ]

/-- The operations of window 13 of the printed program. -/
abbrev part13 : List (HloOp τ sig (Elt F)) :=
  [ binary main_v771 main_v775 main_v776 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call52_cst) (constant S_ .f32 0x00000000#32),
    TRef.unary (TRef.of (T := ⟨S_, .f32⟩) main_call52_cst) (TRef.of (T := ⟨S65536x100, .f32⟩) main_call52_v0) (broadcastInDim S65536x100 ![] bcast_S_S65536x100),
    TRef.binary (TRef.of (T := ⟨S65536x100, .f32⟩) main_v776) (TRef.of (T := ⟨S65536x100, .f32⟩) main_call52_v0) (TRef.of (T := ⟨S65536x100, .f32⟩) main_v777) maximumf,
    unary main_arg3 main_v778 ((extractStridedSlice S1x100x100 ![26, 0, 0] · slices_S32x100x100_S1x100x100_26_0_0) : (⟨S32x100x100, .f32⟩ : BufTy).Contents (Elt F) → (⟨S1x100x100, .f32⟩ : BufTy).Contents (Elt F)),
    reshape main_v778 main_v779 rfl shapeCasts_S1x100x100_S100x100,
    binary main_v777 main_v779 main_v780 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v781 ((extractStridedSlice S1x100 ![26, 0] · slices_S32x100_S1x100_26_0) : (⟨S32x100, .f32⟩ : BufTy).Contents (Elt F) → (⟨S1x100, .f32⟩ : BufTy).Contents (Elt F)),
    reshape main_v781 main_v782 rfl shapeCasts_S1x100_S100,
    unary main_v782 main_v783 (broadcastInDim S1x100 ![1] bcast_S100_S1x100_1 : (⟨S100, .f32⟩ : BufTy).Contents (Elt F) → (⟨S1x100, .f32⟩ : BufTy).Contents (Elt F)),
    unary main_v783 main_v784 (broadcastInDim S65536x100 ![0, 1] bcast_S1x100_S65536x100_0_1 : (⟨S1x100, .f32⟩ : BufTy).Contents (Elt F) → (⟨S65536x100, .f32⟩ : BufTy).Contents (Elt F)),
    binary main_v780 main_v784 main_v785 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call53_cst) (constant S_ .f32 0x00000000#32),
    TRef.unary (TRef.of (T := ⟨S_, .f32⟩) main_call53_cst) (TRef.of (T := ⟨S65536x100, .f32⟩) main_call53_v0) (broadcastInDim S65536x100 ![] bcast_S_S65536x100),
    TRef.binary (TRef.of (T := ⟨S65536x100, .f32⟩) main_v785) (TRef.of (T := ⟨S65536x100, .f32⟩) main_call53_v0) (TRef.of (T := ⟨S65536x100, .f32⟩) main_v786) maximumf,
    unary main_arg5 main_v787 ((extractStridedSlice S1x100x64 ![26, 0, 0] · slices_S32x100x64_S1x100x64_26_0_0) : (⟨S32x100x64, .f32⟩ : BufTy).Contents (Elt F) → (⟨S1x100x64, .f32⟩ : BufTy).Contents (Elt F)),
    reshape main_v787 main_v788 rfl shapeCasts_S1x100x64_S100x64,
    binary main_v786 main_v788 main_v789 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v790 ((extractStridedSlice S1x64 ![26, 0] · slices_S32x64_S1x64_26_0) : (⟨S32x64, .f32⟩ : BufTy).Contents (Elt F) → (⟨S1x64, .f32⟩ : BufTy).Contents (Elt F)),
    reshape main_v790 main_v791 rfl shapeCasts_S1x64_S64,
    unary main_v791 main_v792 (broadcastInDim S1x64 ![1] bcast_S64_S1x64_1 : (⟨S64, .f32⟩ : BufTy).Contents (Elt F) → (⟨S1x64, .f32⟩ : BufTy).Contents (Elt F)),
    unary main_v792 main_v793 (broadcastInDim S65536x64 ![0, 1] bcast_S1x64_S65536x64_0_1 : (⟨S1x64, .f32⟩ : BufTy).Contents (Elt F) → (⟨S65536x64, .f32⟩ : BufTy).Contents (Elt F)),
    binary main_v789 main_v793 main_v794 (addf : (⟨S65536x64, .f32⟩ : BufTy).Contents (Elt F) → (⟨S65536x64, .f32⟩ : BufTy).Contents (Elt F) → (⟨S65536x64, .f32⟩ : BufTy).Contents (Elt F)),
    reshape main_v794 main_v795 rfl shapeCasts_S65536x64_S65536x8x8,
    binary main_v767 main_v795 main_v796 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v797 ((extractStridedSlice S65536x16 ![0, 432] · slices_S65536x512_S65536x16_0_432) : (⟨S65536x512, .f32⟩ : BufTy).Contents (Elt F) → (⟨S65536x16, .f32⟩ : BufTy).Contents (Elt F)),
    unary main_arg1 main_v798 ((extractStridedSlice S1x16x100 ![27, 0, 0] · slices_S32x16x100_S1x16x100_27_0_0) : (⟨S32x16x100, .f32⟩ : BufTy).Contents (Elt F) → (⟨S1x16x100, .f32⟩ : BufTy).Contents (Elt F)),
    reshape main_v798 main_v799 rfl shapeCasts_S1x16x100_S16x100,
    binary main_v797 main_v799 main_v800 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v801 ((extractStridedSlice S1x100 ![27, 0] · slices_S32x100_S1x100_27_0) : (⟨S32x100, .f32⟩ : BufTy).Contents (Elt F) → (⟨S1x100, .f32⟩ : BufTy).Contents (Elt F)),
    reshape main_v801 main_v802 rfl shapeCasts_S1x100_S100,
    unary main_v802 main_v803 (broadcastInDim S1x100 ![1] bcast_S100_S1x100_1 : (⟨S100, .f32⟩ : BufTy).Contents (Elt F) → (⟨S1x100, .f32⟩ : BufTy).Contents (Elt F)),
    unary main_v803 main_v804 (broadcastInDim S65536x100 ![0, 1] bcast_S1x100_S65536x100_0_1 : (⟨S1x100, .f32⟩ : BufTy).Contents (Elt F) → (⟨S65536x100, .f32⟩ : BufTy).Contents (Elt F)),
    binary main_v800 main_v804 main_v805 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call54_cst) (constant S_ .f32 0x00000000#32),
    TRef.unary (TRef.of (T := ⟨S_, .f32⟩) main_call54_cst) (TRef.of (T := ⟨S65536x100, .f32⟩) main_call54_v0) (broadcastInDim S65536x100 ![] bcast_S_S65536x100),
    TRef.binary (TRef.of (T := ⟨S65536x100, .f32⟩) main_v805) (TRef.of (T := ⟨S65536x100, .f32⟩) main_call54_v0) (TRef.of (T := ⟨S65536x100, .f32⟩) main_v806) maximumf,
    unary main_arg3 main_v807 ((extractStridedSlice S1x100x100 ![27, 0, 0] · slices_S32x100x100_S1x100x100_27_0_0) : (⟨S32x100x100, .f32⟩ : BufTy).Contents (Elt F) → (⟨S1x100x100, .f32⟩ : BufTy).Contents (Elt F)),
    reshape main_v807 main_v808 rfl shapeCasts_S1x100x100_S100x100,
    binary main_v806 main_v808 main_v809 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v810 ((extractStridedSlice S1x100 ![27, 0] · slices_S32x100_S1x100_27_0) : (⟨S32x100, .f32⟩ : BufTy).Contents (Elt F) → (⟨S1x100, .f32⟩ : BufTy).Contents (Elt F)),
    reshape main_v810 main_v811 rfl shapeCasts_S1x100_S100,
    unary main_v811 main_v812 (broadcastInDim S1x100 ![1] bcast_S100_S1x100_1 : (⟨S100, .f32⟩ : BufTy).Contents (Elt F) → (⟨S1x100, .f32⟩ : BufTy).Contents (Elt F)),
    unary main_v812 main_v813 (broadcastInDim S65536x100 ![0, 1] bcast_S1x100_S65536x100_0_1 : (⟨S1x100, .f32⟩ : BufTy).Contents (Elt F) → (⟨S65536x100, .f32⟩ : BufTy).Contents (Elt F)),
    binary main_v809 main_v813 main_v814 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call55_cst) (constant S_ .f32 0x00000000#32),
    TRef.unary (TRef.of (T := ⟨S_, .f32⟩) main_call55_cst) (TRef.of (T := ⟨S65536x100, .f32⟩) main_call55_v0) (broadcastInDim S65536x100 ![] bcast_S_S65536x100),
    TRef.binary (TRef.of (T := ⟨S65536x100, .f32⟩) main_v814) (TRef.of (T := ⟨S65536x100, .f32⟩) main_call55_v0) (TRef.of (T := ⟨S65536x100, .f32⟩) main_v815) maximumf,
    unary main_arg5 main_v816 ((extractStridedSlice S1x100x64 ![27, 0, 0] · slices_S32x100x64_S1x100x64_27_0_0) : (⟨S32x100x64, .f32⟩ : BufTy).Contents (Elt F) → (⟨S1x100x64, .f32⟩ : BufTy).Contents (Elt F)),
    reshape main_v816 main_v817 rfl shapeCasts_S1x100x64_S100x64,
    binary main_v815 main_v817 main_v818 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v819 ((extractStridedSlice S1x64 ![27, 0] · slices_S32x64_S1x64_27_0) : (⟨S32x64, .f32⟩ : BufTy).Contents (Elt F) → (⟨S1x64, .f32⟩ : BufTy).Contents (Elt F)),
    reshape main_v819 main_v820 rfl shapeCasts_S1x64_S64,
    unary main_v820 main_v821 (broadcastInDim S1x64 ![1] bcast_S64_S1x64_1 : (⟨S64, .f32⟩ : BufTy).Contents (Elt F) → (⟨S1x64, .f32⟩ : BufTy).Contents (Elt F)),
    unary main_v821 main_v822 (broadcastInDim S65536x64 ![0, 1] bcast_S1x64_S65536x64_0_1 : (⟨S1x64, .f32⟩ : BufTy).Contents (Elt F) → (⟨S65536x64, .f32⟩ : BufTy).Contents (Elt F)),
    binary main_v818 main_v822 main_v823 (addf : (⟨S65536x64, .f32⟩ : BufTy).Contents (Elt F) → (⟨S65536x64, .f32⟩ : BufTy).Contents (Elt F) → (⟨S65536x64, .f32⟩ : BufTy).Contents (Elt F)),
    reshape main_v823 main_v824 rfl shapeCasts_S65536x64_S65536x8x8,
    binary main_v796 main_v824 main_v825 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v826 ((extractStridedSlice S65536x16 ![0, 448] · slices_S65536x512_S65536x16_0_448) : (⟨S65536x512, .f32⟩ : BufTy).Contents (Elt F) → (⟨S65536x16, .f32⟩ : BufTy).Contents (Elt F)),
    unary main_arg1 main_v827 ((extractStridedSlice S1x16x100 ![28, 0, 0] · slices_S32x16x100_S1x16x100_28_0_0) : (⟨S32x16x100, .f32⟩ : BufTy).Contents (Elt F) → (⟨S1x16x100, .f32⟩ : BufTy).Contents (Elt F)),
    reshape main_v827 main_v828 rfl shapeCasts_S1x16x100_S16x100,
    binary main_v826 main_v828 main_v829 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v830 ((extractStridedSlice S1x100 ![28, 0] · slices_S32x100_S1x100_28_0) : (⟨S32x100, .f32⟩ : BufTy).Contents (Elt F) → (⟨S1x100, .f32⟩ : BufTy).Contents (Elt F)),
    reshape main_v830 main_v831 rfl shapeCasts_S1x100_S100,
    unary main_v831 main_v832 (broadcastInDim S1x100 ![1] bcast_S100_S1x100_1 : (⟨S100, .f32⟩ : BufTy).Contents (Elt F) → (⟨S1x100, .f32⟩ : BufTy).Contents (Elt F)),
    unary main_v832 main_v833 (broadcastInDim S65536x100 ![0, 1] bcast_S1x100_S65536x100_0_1 : (⟨S1x100, .f32⟩ : BufTy).Contents (Elt F) → (⟨S65536x100, .f32⟩ : BufTy).Contents (Elt F)),
    binary main_v829 main_v833 main_v834 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call56_cst) (constant S_ .f32 0x00000000#32),
    TRef.unary (TRef.of (T := ⟨S_, .f32⟩) main_call56_cst) (TRef.of (T := ⟨S65536x100, .f32⟩) main_call56_v0) (broadcastInDim S65536x100 ![] bcast_S_S65536x100),
    TRef.binary (TRef.of (T := ⟨S65536x100, .f32⟩) main_v834) (TRef.of (T := ⟨S65536x100, .f32⟩) main_call56_v0) (TRef.of (T := ⟨S65536x100, .f32⟩) main_v835) maximumf ]

/-- The operations of window 14 of the printed program. -/
abbrev part14 : List (HloOp τ sig (Elt F)) :=
  [ unary main_arg3 main_v836 ((extractStridedSlice S1x100x100 ![28, 0, 0] · slices_S32x100x100_S1x100x100_28_0_0) : (⟨S32x100x100, .f32⟩ : BufTy).Contents (Elt F) → (⟨S1x100x100, .f32⟩ : BufTy).Contents (Elt F)),
    reshape main_v836 main_v837 rfl shapeCasts_S1x100x100_S100x100,
    binary main_v835 main_v837 main_v838 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v839 ((extractStridedSlice S1x100 ![28, 0] · slices_S32x100_S1x100_28_0) : (⟨S32x100, .f32⟩ : BufTy).Contents (Elt F) → (⟨S1x100, .f32⟩ : BufTy).Contents (Elt F)),
    reshape main_v839 main_v840 rfl shapeCasts_S1x100_S100,
    unary main_v840 main_v841 (broadcastInDim S1x100 ![1] bcast_S100_S1x100_1 : (⟨S100, .f32⟩ : BufTy).Contents (Elt F) → (⟨S1x100, .f32⟩ : BufTy).Contents (Elt F)),
    unary main_v841 main_v842 (broadcastInDim S65536x100 ![0, 1] bcast_S1x100_S65536x100_0_1 : (⟨S1x100, .f32⟩ : BufTy).Contents (Elt F) → (⟨S65536x100, .f32⟩ : BufTy).Contents (Elt F)),
    binary main_v838 main_v842 main_v843 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call57_cst) (constant S_ .f32 0x00000000#32),
    TRef.unary (TRef.of (T := ⟨S_, .f32⟩) main_call57_cst) (TRef.of (T := ⟨S65536x100, .f32⟩) main_call57_v0) (broadcastInDim S65536x100 ![] bcast_S_S65536x100),
    TRef.binary (TRef.of (T := ⟨S65536x100, .f32⟩) main_v843) (TRef.of (T := ⟨S65536x100, .f32⟩) main_call57_v0) (TRef.of (T := ⟨S65536x100, .f32⟩) main_v844) maximumf,
    unary main_arg5 main_v845 ((extractStridedSlice S1x100x64 ![28, 0, 0] · slices_S32x100x64_S1x100x64_28_0_0) : (⟨S32x100x64, .f32⟩ : BufTy).Contents (Elt F) → (⟨S1x100x64, .f32⟩ : BufTy).Contents (Elt F)),
    reshape main_v845 main_v846 rfl shapeCasts_S1x100x64_S100x64,
    binary main_v844 main_v846 main_v847 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v848 ((extractStridedSlice S1x64 ![28, 0] · slices_S32x64_S1x64_28_0) : (⟨S32x64, .f32⟩ : BufTy).Contents (Elt F) → (⟨S1x64, .f32⟩ : BufTy).Contents (Elt F)),
    reshape main_v848 main_v849 rfl shapeCasts_S1x64_S64,
    unary main_v849 main_v850 (broadcastInDim S1x64 ![1] bcast_S64_S1x64_1 : (⟨S64, .f32⟩ : BufTy).Contents (Elt F) → (⟨S1x64, .f32⟩ : BufTy).Contents (Elt F)),
    unary main_v850 main_v851 (broadcastInDim S65536x64 ![0, 1] bcast_S1x64_S65536x64_0_1 : (⟨S1x64, .f32⟩ : BufTy).Contents (Elt F) → (⟨S65536x64, .f32⟩ : BufTy).Contents (Elt F)),
    binary main_v847 main_v851 main_v852 (addf : (⟨S65536x64, .f32⟩ : BufTy).Contents (Elt F) → (⟨S65536x64, .f32⟩ : BufTy).Contents (Elt F) → (⟨S65536x64, .f32⟩ : BufTy).Contents (Elt F)),
    reshape main_v852 main_v853 rfl shapeCasts_S65536x64_S65536x8x8,
    binary main_v825 main_v853 main_v854 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v855 ((extractStridedSlice S65536x16 ![0, 464] · slices_S65536x512_S65536x16_0_464) : (⟨S65536x512, .f32⟩ : BufTy).Contents (Elt F) → (⟨S65536x16, .f32⟩ : BufTy).Contents (Elt F)),
    unary main_arg1 main_v856 ((extractStridedSlice S1x16x100 ![29, 0, 0] · slices_S32x16x100_S1x16x100_29_0_0) : (⟨S32x16x100, .f32⟩ : BufTy).Contents (Elt F) → (⟨S1x16x100, .f32⟩ : BufTy).Contents (Elt F)),
    reshape main_v856 main_v857 rfl shapeCasts_S1x16x100_S16x100,
    binary main_v855 main_v857 main_v858 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v859 ((extractStridedSlice S1x100 ![29, 0] · slices_S32x100_S1x100_29_0) : (⟨S32x100, .f32⟩ : BufTy).Contents (Elt F) → (⟨S1x100, .f32⟩ : BufTy).Contents (Elt F)),
    reshape main_v859 main_v860 rfl shapeCasts_S1x100_S100,
    unary main_v860 main_v861 (broadcastInDim S1x100 ![1] bcast_S100_S1x100_1 : (⟨S100, .f32⟩ : BufTy).Contents (Elt F) → (⟨S1x100, .f32⟩ : BufTy).Contents (Elt F)),
    unary main_v861 main_v862 (broadcastInDim S65536x100 ![0, 1] bcast_S1x100_S65536x100_0_1 : (⟨S1x100, .f32⟩ : BufTy).Contents (Elt F) → (⟨S65536x100, .f32⟩ : BufTy).Contents (Elt F)),
    binary main_v858 main_v862 main_v863 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call58_cst) (constant S_ .f32 0x00000000#32),
    TRef.unary (TRef.of (T := ⟨S_, .f32⟩) main_call58_cst) (TRef.of (T := ⟨S65536x100, .f32⟩) main_call58_v0) (broadcastInDim S65536x100 ![] bcast_S_S65536x100),
    TRef.binary (TRef.of (T := ⟨S65536x100, .f32⟩) main_v863) (TRef.of (T := ⟨S65536x100, .f32⟩) main_call58_v0) (TRef.of (T := ⟨S65536x100, .f32⟩) main_v864) maximumf,
    unary main_arg3 main_v865 ((extractStridedSlice S1x100x100 ![29, 0, 0] · slices_S32x100x100_S1x100x100_29_0_0) : (⟨S32x100x100, .f32⟩ : BufTy).Contents (Elt F) → (⟨S1x100x100, .f32⟩ : BufTy).Contents (Elt F)),
    reshape main_v865 main_v866 rfl shapeCasts_S1x100x100_S100x100,
    binary main_v864 main_v866 main_v867 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v868 ((extractStridedSlice S1x100 ![29, 0] · slices_S32x100_S1x100_29_0) : (⟨S32x100, .f32⟩ : BufTy).Contents (Elt F) → (⟨S1x100, .f32⟩ : BufTy).Contents (Elt F)),
    reshape main_v868 main_v869 rfl shapeCasts_S1x100_S100,
    unary main_v869 main_v870 (broadcastInDim S1x100 ![1] bcast_S100_S1x100_1 : (⟨S100, .f32⟩ : BufTy).Contents (Elt F) → (⟨S1x100, .f32⟩ : BufTy).Contents (Elt F)),
    unary main_v870 main_v871 (broadcastInDim S65536x100 ![0, 1] bcast_S1x100_S65536x100_0_1 : (⟨S1x100, .f32⟩ : BufTy).Contents (Elt F) → (⟨S65536x100, .f32⟩ : BufTy).Contents (Elt F)),
    binary main_v867 main_v871 main_v872 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call59_cst) (constant S_ .f32 0x00000000#32),
    TRef.unary (TRef.of (T := ⟨S_, .f32⟩) main_call59_cst) (TRef.of (T := ⟨S65536x100, .f32⟩) main_call59_v0) (broadcastInDim S65536x100 ![] bcast_S_S65536x100),
    TRef.binary (TRef.of (T := ⟨S65536x100, .f32⟩) main_v872) (TRef.of (T := ⟨S65536x100, .f32⟩) main_call59_v0) (TRef.of (T := ⟨S65536x100, .f32⟩) main_v873) maximumf,
    unary main_arg5 main_v874 ((extractStridedSlice S1x100x64 ![29, 0, 0] · slices_S32x100x64_S1x100x64_29_0_0) : (⟨S32x100x64, .f32⟩ : BufTy).Contents (Elt F) → (⟨S1x100x64, .f32⟩ : BufTy).Contents (Elt F)),
    reshape main_v874 main_v875 rfl shapeCasts_S1x100x64_S100x64,
    binary main_v873 main_v875 main_v876 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v877 ((extractStridedSlice S1x64 ![29, 0] · slices_S32x64_S1x64_29_0) : (⟨S32x64, .f32⟩ : BufTy).Contents (Elt F) → (⟨S1x64, .f32⟩ : BufTy).Contents (Elt F)),
    reshape main_v877 main_v878 rfl shapeCasts_S1x64_S64,
    unary main_v878 main_v879 (broadcastInDim S1x64 ![1] bcast_S64_S1x64_1 : (⟨S64, .f32⟩ : BufTy).Contents (Elt F) → (⟨S1x64, .f32⟩ : BufTy).Contents (Elt F)),
    unary main_v879 main_v880 (broadcastInDim S65536x64 ![0, 1] bcast_S1x64_S65536x64_0_1 : (⟨S1x64, .f32⟩ : BufTy).Contents (Elt F) → (⟨S65536x64, .f32⟩ : BufTy).Contents (Elt F)),
    binary main_v876 main_v880 main_v881 (addf : (⟨S65536x64, .f32⟩ : BufTy).Contents (Elt F) → (⟨S65536x64, .f32⟩ : BufTy).Contents (Elt F) → (⟨S65536x64, .f32⟩ : BufTy).Contents (Elt F)),
    reshape main_v881 main_v882 rfl shapeCasts_S65536x64_S65536x8x8,
    binary main_v854 main_v882 main_v883 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v884 ((extractStridedSlice S65536x16 ![0, 480] · slices_S65536x512_S65536x16_0_480) : (⟨S65536x512, .f32⟩ : BufTy).Contents (Elt F) → (⟨S65536x16, .f32⟩ : BufTy).Contents (Elt F)),
    unary main_arg1 main_v885 ((extractStridedSlice S1x16x100 ![30, 0, 0] · slices_S32x16x100_S1x16x100_30_0_0) : (⟨S32x16x100, .f32⟩ : BufTy).Contents (Elt F) → (⟨S1x16x100, .f32⟩ : BufTy).Contents (Elt F)),
    reshape main_v885 main_v886 rfl shapeCasts_S1x16x100_S16x100,
    binary main_v884 main_v886 main_v887 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v888 ((extractStridedSlice S1x100 ![30, 0] · slices_S32x100_S1x100_30_0) : (⟨S32x100, .f32⟩ : BufTy).Contents (Elt F) → (⟨S1x100, .f32⟩ : BufTy).Contents (Elt F)),
    reshape main_v888 main_v889 rfl shapeCasts_S1x100_S100,
    unary main_v889 main_v890 (broadcastInDim S1x100 ![1] bcast_S100_S1x100_1 : (⟨S100, .f32⟩ : BufTy).Contents (Elt F) → (⟨S1x100, .f32⟩ : BufTy).Contents (Elt F)),
    unary main_v890 main_v891 (broadcastInDim S65536x100 ![0, 1] bcast_S1x100_S65536x100_0_1 : (⟨S1x100, .f32⟩ : BufTy).Contents (Elt F) → (⟨S65536x100, .f32⟩ : BufTy).Contents (Elt F)),
    binary main_v887 main_v891 main_v892 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call60_cst) (constant S_ .f32 0x00000000#32),
    TRef.unary (TRef.of (T := ⟨S_, .f32⟩) main_call60_cst) (TRef.of (T := ⟨S65536x100, .f32⟩) main_call60_v0) (broadcastInDim S65536x100 ![] bcast_S_S65536x100),
    TRef.binary (TRef.of (T := ⟨S65536x100, .f32⟩) main_v892) (TRef.of (T := ⟨S65536x100, .f32⟩) main_call60_v0) (TRef.of (T := ⟨S65536x100, .f32⟩) main_v893) maximumf,
    unary main_arg3 main_v894 ((extractStridedSlice S1x100x100 ![30, 0, 0] · slices_S32x100x100_S1x100x100_30_0_0) : (⟨S32x100x100, .f32⟩ : BufTy).Contents (Elt F) → (⟨S1x100x100, .f32⟩ : BufTy).Contents (Elt F)),
    reshape main_v894 main_v895 rfl shapeCasts_S1x100x100_S100x100 ]

/-- The operations of window 15 of the printed program. -/
abbrev part15 : List (HloOp τ sig (Elt F)) :=
  [ binary main_v893 main_v895 main_v896 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v897 ((extractStridedSlice S1x100 ![30, 0] · slices_S32x100_S1x100_30_0) : (⟨S32x100, .f32⟩ : BufTy).Contents (Elt F) → (⟨S1x100, .f32⟩ : BufTy).Contents (Elt F)),
    reshape main_v897 main_v898 rfl shapeCasts_S1x100_S100,
    unary main_v898 main_v899 (broadcastInDim S1x100 ![1] bcast_S100_S1x100_1 : (⟨S100, .f32⟩ : BufTy).Contents (Elt F) → (⟨S1x100, .f32⟩ : BufTy).Contents (Elt F)),
    unary main_v899 main_v900 (broadcastInDim S65536x100 ![0, 1] bcast_S1x100_S65536x100_0_1 : (⟨S1x100, .f32⟩ : BufTy).Contents (Elt F) → (⟨S65536x100, .f32⟩ : BufTy).Contents (Elt F)),
    binary main_v896 main_v900 main_v901 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call61_cst) (constant S_ .f32 0x00000000#32),
    TRef.unary (TRef.of (T := ⟨S_, .f32⟩) main_call61_cst) (TRef.of (T := ⟨S65536x100, .f32⟩) main_call61_v0) (broadcastInDim S65536x100 ![] bcast_S_S65536x100),
    TRef.binary (TRef.of (T := ⟨S65536x100, .f32⟩) main_v901) (TRef.of (T := ⟨S65536x100, .f32⟩) main_call61_v0) (TRef.of (T := ⟨S65536x100, .f32⟩) main_v902) maximumf,
    unary main_arg5 main_v903 ((extractStridedSlice S1x100x64 ![30, 0, 0] · slices_S32x100x64_S1x100x64_30_0_0) : (⟨S32x100x64, .f32⟩ : BufTy).Contents (Elt F) → (⟨S1x100x64, .f32⟩ : BufTy).Contents (Elt F)),
    reshape main_v903 main_v904 rfl shapeCasts_S1x100x64_S100x64,
    binary main_v902 main_v904 main_v905 ((fun l r => Host.dotGeneral dot_S65536x100_S100x64_S65536x64_1_0_0_1_n_n none l r) : (⟨S65536x100, .f32⟩ : BufTy).Contents (Elt F) → (⟨S100x64, .f32⟩ : BufTy).Contents (Elt F) → (⟨S65536x64, .f32⟩ : BufTy).Contents (Elt F)),
    unary main_arg6 main_v906 ((extractStridedSlice S1x64 ![30, 0] · slices_S32x64_S1x64_30_0) : (⟨S32x64, .f32⟩ : BufTy).Contents (Elt F) → (⟨S1x64, .f32⟩ : BufTy).Contents (Elt F)),
    reshape main_v906 main_v907 rfl shapeCasts_S1x64_S64,
    unary main_v907 main_v908 (broadcastInDim S1x64 ![1] bcast_S64_S1x64_1 : (⟨S64, .f32⟩ : BufTy).Contents (Elt F) → (⟨S1x64, .f32⟩ : BufTy).Contents (Elt F)),
    unary main_v908 main_v909 (broadcastInDim S65536x64 ![0, 1] bcast_S1x64_S65536x64_0_1 : (⟨S1x64, .f32⟩ : BufTy).Contents (Elt F) → (⟨S65536x64, .f32⟩ : BufTy).Contents (Elt F)),
    binary main_v905 main_v909 main_v910 (addf : (⟨S65536x64, .f32⟩ : BufTy).Contents (Elt F) → (⟨S65536x64, .f32⟩ : BufTy).Contents (Elt F) → (⟨S65536x64, .f32⟩ : BufTy).Contents (Elt F)),
    reshape main_v910 main_v911 rfl shapeCasts_S65536x64_S65536x8x8,
    binary main_v883 main_v911 main_v912 ((fun l r => Host.dotGeneral dot_S65536x1x8_S65536x8x8_S65536x1x8_2_1_1_2_0_0 none l r) : (⟨S65536x1x8, .f32⟩ : BufTy).Contents (Elt F) → (⟨S65536x8x8, .f32⟩ : BufTy).Contents (Elt F) → (⟨S65536x1x8, .f32⟩ : BufTy).Contents (Elt F)),
    unary main_arg0 main_v913 ((extractStridedSlice S65536x16 ![0, 496] · slices_S65536x512_S65536x16_0_496) : (⟨S65536x512, .f32⟩ : BufTy).Contents (Elt F) → (⟨S65536x16, .f32⟩ : BufTy).Contents (Elt F)),
    unary main_arg1 main_v914 ((extractStridedSlice S1x16x100 ![31, 0, 0] · slices_S32x16x100_S1x16x100_31_0_0) : (⟨S32x16x100, .f32⟩ : BufTy).Contents (Elt F) → (⟨S1x16x100, .f32⟩ : BufTy).Contents (Elt F)),
    reshape main_v914 main_v915 rfl shapeCasts_S1x16x100_S16x100,
    binary main_v913 main_v915 main_v916 ((fun l r => Host.dotGeneral dot_S65536x16_S16x100_S65536x100_1_0_0_1_n_n none l r) : (⟨S65536x16, .f32⟩ : BufTy).Contents (Elt F) → (⟨S16x100, .f32⟩ : BufTy).Contents (Elt F) → (⟨S65536x100, .f32⟩ : BufTy).Contents (Elt F)),
    unary main_arg2 main_v917 ((extractStridedSlice S1x100 ![31, 0] · slices_S32x100_S1x100_31_0) : (⟨S32x100, .f32⟩ : BufTy).Contents (Elt F) → (⟨S1x100, .f32⟩ : BufTy).Contents (Elt F)),
    reshape main_v917 main_v918 rfl shapeCasts_S1x100_S100,
    unary main_v918 main_v919 (broadcastInDim S1x100 ![1] bcast_S100_S1x100_1 : (⟨S100, .f32⟩ : BufTy).Contents (Elt F) → (⟨S1x100, .f32⟩ : BufTy).Contents (Elt F)),
    unary main_v919 main_v920 (broadcastInDim S65536x100 ![0, 1] bcast_S1x100_S65536x100_0_1 : (⟨S1x100, .f32⟩ : BufTy).Contents (Elt F) → (⟨S65536x100, .f32⟩ : BufTy).Contents (Elt F)),
    binary main_v916 main_v920 main_v921 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call62_cst) (constant S_ .f32 0x00000000#32),
    TRef.unary (TRef.of (T := ⟨S_, .f32⟩) main_call62_cst) (TRef.of (T := ⟨S65536x100, .f32⟩) main_call62_v0) (broadcastInDim S65536x100 ![] bcast_S_S65536x100),
    TRef.binary (TRef.of (T := ⟨S65536x100, .f32⟩) main_v921) (TRef.of (T := ⟨S65536x100, .f32⟩) main_call62_v0) (TRef.of (T := ⟨S65536x100, .f32⟩) main_v922) maximumf,
    unary main_arg3 main_v923 ((extractStridedSlice S1x100x100 ![31, 0, 0] · slices_S32x100x100_S1x100x100_31_0_0) : (⟨S32x100x100, .f32⟩ : BufTy).Contents (Elt F) → (⟨S1x100x100, .f32⟩ : BufTy).Contents (Elt F)),
    reshape main_v923 main_v924 rfl shapeCasts_S1x100x100_S100x100,
    binary main_v922 main_v924 main_v925 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg4 main_v926 ((extractStridedSlice S1x100 ![31, 0] · slices_S32x100_S1x100_31_0) : (⟨S32x100, .f32⟩ : BufTy).Contents (Elt F) → (⟨S1x100, .f32⟩ : BufTy).Contents (Elt F)),
    reshape main_v926 main_v927 rfl shapeCasts_S1x100_S100,
    unary main_v927 main_v928 (broadcastInDim S1x100 ![1] bcast_S100_S1x100_1 : (⟨S100, .f32⟩ : BufTy).Contents (Elt F) → (⟨S1x100, .f32⟩ : BufTy).Contents (Elt F)),
    unary main_v928 main_v929 (broadcastInDim S65536x100 ![0, 1] bcast_S1x100_S65536x100_0_1 : (⟨S1x100, .f32⟩ : BufTy).Contents (Elt F) → (⟨S65536x100, .f32⟩ : BufTy).Contents (Elt F)),
    binary main_v925 main_v929 main_v930 (addf : (⟨S65536x100, .f32⟩ : BufTy).Contents (Elt F) → (⟨S65536x100, .f32⟩ : BufTy).Contents (Elt F) → (⟨S65536x100, .f32⟩ : BufTy).Contents (Elt F)),
    TRef.nullary (TRef.of (T := ⟨S_, .f32⟩) main_call63_cst) (constant S_ .f32 0x00000000#32),
    TRef.unary (TRef.of (T := ⟨S_, .f32⟩) main_call63_cst) (TRef.of (T := ⟨S65536x100, .f32⟩) main_call63_v0) (broadcastInDim S65536x100 ![] bcast_S_S65536x100),
    TRef.binary (TRef.of (T := ⟨S65536x100, .f32⟩) main_v930) (TRef.of (T := ⟨S65536x100, .f32⟩) main_call63_v0) (TRef.of (T := ⟨S65536x100, .f32⟩) main_v931) maximumf,
    unary main_arg5 main_v932 ((extractStridedSlice S1x100x64 ![31, 0, 0] · slices_S32x100x64_S1x100x64_31_0_0) : (⟨S32x100x64, .f32⟩ : BufTy).Contents (Elt F) → (⟨S1x100x64, .f32⟩ : BufTy).Contents (Elt F)),
    reshape main_v932 main_v933 rfl shapeCasts_S1x100x64_S100x64,
    unary main_v933 main_v934 ((extractStridedSlice S100x8 ![0, 0] · slices_S100x64_S100x8_0_0) : (⟨S100x64, .f32⟩ : BufTy).Contents (Elt F) → (⟨S100x8, .f32⟩ : BufTy).Contents (Elt F)),
    binary main_v931 main_v934 main_v935 ((fun l r => Host.dotGeneral dot_S65536x100_S100x8_S65536x8_1_0_0_1_n_n none l r) : (⟨S65536x100, .f32⟩ : BufTy).Contents (Elt F) → (⟨S100x8, .f32⟩ : BufTy).Contents (Elt F) → (⟨S65536x8, .f32⟩ : BufTy).Contents (Elt F)),
    unary main_arg6 main_v936 ((extractStridedSlice S1x64 ![31, 0] · slices_S32x64_S1x64_31_0) : (⟨S32x64, .f32⟩ : BufTy).Contents (Elt F) → (⟨S1x64, .f32⟩ : BufTy).Contents (Elt F)),
    reshape main_v936 main_v937 rfl shapeCasts_S1x64_S64,
    unary main_v937 main_v938 ((extractStridedSlice S8 ![0] · slices_S64_S8_0) : (⟨S64, .f32⟩ : BufTy).Contents (Elt F) → (⟨S8, .f32⟩ : BufTy).Contents (Elt F)),
    unary main_v938 main_v939 (broadcastInDim S1x8 ![1] bcast_S8_S1x8_1 : (⟨S8, .f32⟩ : BufTy).Contents (Elt F) → (⟨S1x8, .f32⟩ : BufTy).Contents (Elt F)),
    unary main_v939 main_v940 (broadcastInDim S65536x8 ![0, 1] bcast_S1x8_S65536x8_0_1 : (⟨S1x8, .f32⟩ : BufTy).Contents (Elt F) → (⟨S65536x8, .f32⟩ : BufTy).Contents (Elt F)),
    binary main_v935 main_v940 main_v941 (addf : (⟨S65536x8, .f32⟩ : BufTy).Contents (Elt F) → (⟨S65536x8, .f32⟩ : BufTy).Contents (Elt F) → (⟨S65536x8, .f32⟩ : BufTy).Contents (Elt F)),
    reshape main_v941 main_v942 rfl shapeCasts_S65536x8_S65536x8x1,
    binary main_v912 main_v942 main_v943 ((fun l r => Host.dotGeneral dot_S65536x1x8_S65536x8x1_S65536x1x1_2_1_1_2_0_0 none l r) : (⟨S65536x1x8, .f32⟩ : BufTy).Contents (Elt F) → (⟨S65536x8x1, .f32⟩ : BufTy).Contents (Elt F) → (⟨S65536x1x1, .f32⟩ : BufTy).Contents (Elt F)),
    reshape main_v943 main_v944 rfl shapeCasts_S65536x1x1_S65536x1 ]

/-- The whole program, piece by piece. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ (ops26 ++ (ops27 ++ (ops28 ++ (ops29 ++ (ops30 ++ (ops31)))))))))))))))))))))))))))))))

/-- The whole program, window by window. -/
abbrev parts : List (HloOp τ sig (Elt F)) :=
  part0 ++ (part1 ++ (part2 ++ (part3 ++ (part4 ++ (part5 ++ (part6 ++ (part7 ++ (part8 ++ (part9 ++ (part10 ++ (part11 ++ (part12 ++ (part13 ++ (part14 ++ (part15)))))))))))))))

set_option maxRecDepth 100000 in
set_option maxHeartbeats 4000000 in
/-- The two cuts are one list. -/
theorem parts_eq : (parts : List (HloOp τ sig (Elt F))) = ops := rfl

set_option maxRecDepth 8192 in
set_option maxHeartbeats 4000000 in
theorem part_eq0 (d : Dev nD) : main_part0 (F := F) d = seq part0 := rfl

set_option maxRecDepth 8192 in
set_option maxHeartbeats 4000000 in
theorem part_eq1 (d : Dev nD) : main_part1 (F := F) d = seq part1 := rfl

set_option maxRecDepth 8192 in
set_option maxHeartbeats 4000000 in
theorem part_eq2 (d : Dev nD) : main_part2 (F := F) d = seq part2 := rfl

set_option maxRecDepth 8192 in
set_option maxHeartbeats 4000000 in
theorem part_eq3 (d : Dev nD) : main_part3 (F := F) d = seq part3 := rfl

set_option maxRecDepth 8192 in
set_option maxHeartbeats 4000000 in
theorem part_eq4 (d : Dev nD) : main_part4 (F := F) d = seq part4 := rfl

set_option maxRecDepth 8192 in
set_option maxHeartbeats 4000000 in
theorem part_eq5 (d : Dev nD) : main_part5 (F := F) d = seq part5 := rfl

set_option maxRecDepth 8192 in
set_option maxHeartbeats 4000000 in
theorem part_eq6 (d : Dev nD) : main_part6 (F := F) d = seq part6 := rfl

set_option maxRecDepth 8192 in
set_option maxHeartbeats 4000000 in
theorem part_eq7 (d : Dev nD) : main_part7 (F := F) d = seq part7 := rfl

set_option maxRecDepth 8192 in
set_option maxHeartbeats 4000000 in
theorem part_eq8 (d : Dev nD) : main_part8 (F := F) d = seq part8 := rfl

set_option maxRecDepth 8192 in
set_option maxHeartbeats 4000000 in
theorem part_eq9 (d : Dev nD) : main_part9 (F := F) d = seq part9 := rfl

set_option maxRecDepth 8192 in
set_option maxHeartbeats 4000000 in
theorem part_eq10 (d : Dev nD) : main_part10 (F := F) d = seq part10 := rfl

set_option maxRecDepth 8192 in
set_option maxHeartbeats 4000000 in
theorem part_eq11 (d : Dev nD) : main_part11 (F := F) d = seq part11 := rfl

set_option maxRecDepth 8192 in
set_option maxHeartbeats 4000000 in
theorem part_eq12 (d : Dev nD) : main_part12 (F := F) d = seq part12 := rfl

set_option maxRecDepth 8192 in
set_option maxHeartbeats 4000000 in
theorem part_eq13 (d : Dev nD) : main_part13 (F := F) d = seq part13 := rfl

set_option maxRecDepth 8192 in
set_option maxHeartbeats 4000000 in
theorem part_eq14 (d : Dev nD) : main_part14 (F := F) d = seq part14 := rfl

set_option maxRecDepth 8192 in
set_option maxHeartbeats 4000000 in
theorem part_eq15 (d : Dev nD) : main_part15 (F := F) d = seq part15 := rfl

/-- The program is the sequence of its operations. -/
theorem main_eq (d : Dev nD) : main (F := F) d = seq ops := by
  rw [← parts_eq]
  unfold main
  simp only [parts, seq_append, ← part_eq0 d, ← part_eq1 d, ← part_eq2 d, ← part_eq3 d, ← part_eq4 d, ← part_eq5 d, ← part_eq6 d, ← part_eq7 d, ← part_eq8 d, ← part_eq9 d, ← part_eq10 d, ← part_eq11 d, ← part_eq12 d, ← part_eq13 d, ← part_eq14 d, ← part_eq15 d]

end Cert.ReferenceIdeal.Line

end
-- ==== Proof.RLineRun.lean ====
/-
  The reference's run, in terms of the fold of its operations.

  Every operation of the line names TensorCore buffers only (`sub`) and determines its result (`fresh`), piece by
  piece and hence for the whole list; no buffer or semaphore of the program is scoped.  So every weakly fair
  execution of the program terminates, and each buffer ends holding the fold of the operations over the contents
  at launch (`run_after`).
-/
import proofs.«110954_j11751030522504_2_alg».proof.Proof.RLineOps

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem sub0 : (ops0 : List (HloOp τ sig (Elt F))).Forall fun op => op.bufs ⊆ tcRefs τ sig :=
  ⟨nullary_bufs_sub .., unary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., binary_bufs_sub ..⟩
set_option maxRecDepth 8192 in
theorem fresh0 : ∀ op ∈ (ops0 : List (HloOp τ sig (Elt F))), op.fresh = ∅ := by
  intro _ h; (repeat (cases h with | head => rfl | tail _ h => ?_)); exact nomatch h

set_option maxRecDepth 8192 in
theorem sub1 : (ops1 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh1 : ∀ op ∈ (ops1 : List (HloOp τ sig (Elt F))), op.fresh = ∅ := by
  intro _ h; (repeat (cases h with | head => rfl | tail _ h => ?_)); exact nomatch h

set_option maxRecDepth 8192 in
theorem sub2 : (ops2 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh2 : ∀ op ∈ (ops2 : List (HloOp τ sig (Elt F))), op.fresh = ∅ := by
  intro _ h; (repeat (cases h with | head => rfl | tail _ h => ?_)); exact nomatch h

set_option maxRecDepth 8192 in
theorem sub3 : (ops3 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh3 : ∀ op ∈ (ops3 : List (HloOp τ sig (Elt F))), op.fresh = ∅ := by
  intro _ h; (repeat (cases h with | head => rfl | tail _ h => ?_)); exact nomatch h

set_option maxRecDepth 8192 in
theorem sub4 : (ops4 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh4 : ∀ op ∈ (ops4 : List (HloOp τ sig (Elt F))), op.fresh = ∅ := by
  intro _ h; (repeat (cases h with | head => rfl | tail _ h => ?_)); exact nomatch h

set_option maxRecDepth 8192 in
theorem sub5 : (ops5 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh5 : ∀ op ∈ (ops5 : List (HloOp τ sig (Elt F))), op.fresh = ∅ := by
  intro _ h; (repeat (cases h with | head => rfl | tail _ h => ?_)); exact nomatch h

set_option maxRecDepth 8192 in
theorem sub6 : (ops6 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh6 : ∀ op ∈ (ops6 : List (HloOp τ sig (Elt F))), op.fresh = ∅ := by
  intro _ h; (repeat (cases h with | head => rfl | tail _ h => ?_)); exact nomatch h

set_option maxRecDepth 8192 in
theorem sub7 : (ops7 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh7 : ∀ op ∈ (ops7 : List (HloOp τ sig (Elt F))), op.fresh = ∅ := by
  intro _ h; (repeat (cases h with | head => rfl | tail _ h => ?_)); exact nomatch h

set_option maxRecDepth 8192 in
theorem sub8 : (ops8 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh8 : ∀ op ∈ (ops8 : List (HloOp τ sig (Elt F))), op.fresh = ∅ := by
  intro _ h; (repeat (cases h with | head => rfl | tail _ h => ?_)); exact nomatch h

set_option maxRecDepth 8192 in
theorem sub9 : (ops9 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh9 : ∀ op ∈ (ops9 : List (HloOp τ sig (Elt F))), op.fresh = ∅ := by
  intro _ h; (repeat (cases h with | head => rfl | tail _ h => ?_)); exact nomatch h

set_option maxRecDepth 8192 in
theorem sub10 : (ops10 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh10 : ∀ op ∈ (ops10 : List (HloOp τ sig (Elt F))), op.fresh = ∅ := by
  intro _ h; (repeat (cases h with | head => rfl | tail _ h => ?_)); exact nomatch h

set_option maxRecDepth 8192 in
theorem sub11 : (ops11 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh11 : ∀ op ∈ (ops11 : List (HloOp τ sig (Elt F))), op.fresh = ∅ := by
  intro _ h; (repeat (cases h with | head => rfl | tail _ h => ?_)); exact nomatch h

set_option maxRecDepth 8192 in
theorem sub12 : (ops12 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh12 : ∀ op ∈ (ops12 : List (HloOp τ sig (Elt F))), op.fresh = ∅ := by
  intro _ h; (repeat (cases h with | head => rfl | tail _ h => ?_)); exact nomatch h

set_option maxRecDepth 8192 in
theorem sub13 : (ops13 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh13 : ∀ op ∈ (ops13 : List (HloOp τ sig (Elt F))), op.fresh = ∅ := by
  intro _ h; (repeat (cases h with | head => rfl | tail _ h => ?_)); exact nomatch h

set_option maxRecDepth 8192 in
theorem sub14 : (ops14 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh14 : ∀ op ∈ (ops14 : List (HloOp τ sig (Elt F))), op.fresh = ∅ := by
  intro _ h; (repeat (cases h with | head => rfl | tail _ h => ?_)); exact nomatch h

set_option maxRecDepth 8192 in
theorem sub15 : (ops15 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh15 : ∀ op ∈ (ops15 : List (HloOp τ sig (Elt F))), op.fresh = ∅ := by
  intro _ h; (repeat (cases h with | head => rfl | tail _ h => ?_)); exact nomatch h

set_option maxRecDepth 8192 in
theorem sub16 : (ops16 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh16 : ∀ op ∈ (ops16 : List (HloOp τ sig (Elt F))), op.fresh = ∅ := by
  intro _ h; (repeat (cases h with | head => rfl | tail _ h => ?_)); exact nomatch h

set_option maxRecDepth 8192 in
theorem sub17 : (ops17 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh17 : ∀ op ∈ (ops17 : List (HloOp τ sig (Elt F))), op.fresh = ∅ := by
  intro _ h; (repeat (cases h with | head => rfl | tail _ h => ?_)); exact nomatch h

set_option maxRecDepth 8192 in
theorem sub18 : (ops18 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh18 : ∀ op ∈ (ops18 : List (HloOp τ sig (Elt F))), op.fresh = ∅ := by
  intro _ h; (repeat (cases h with | head => rfl | tail _ h => ?_)); exact nomatch h

set_option maxRecDepth 8192 in
theorem sub19 : (ops19 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh19 : ∀ op ∈ (ops19 : List (HloOp τ sig (Elt F))), op.fresh = ∅ := by
  intro _ h; (repeat (cases h with | head => rfl | tail _ h => ?_)); exact nomatch h

set_option maxRecDepth 8192 in
theorem sub20 : (ops20 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh20 : ∀ op ∈ (ops20 : List (HloOp τ sig (Elt F))), op.fresh = ∅ := by
  intro _ h; (repeat (cases h with | head => rfl | tail _ h => ?_)); exact nomatch h

set_option maxRecDepth 8192 in
theorem sub21 : (ops21 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh21 : ∀ op ∈ (ops21 : List (HloOp τ sig (Elt F))), op.fresh = ∅ := by
  intro _ h; (repeat (cases h with | head => rfl | tail _ h => ?_)); exact nomatch h

set_option maxRecDepth 8192 in
theorem sub22 : (ops22 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh22 : ∀ op ∈ (ops22 : List (HloOp τ sig (Elt F))), op.fresh = ∅ := by
  intro _ h; (repeat (cases h with | head => rfl | tail _ h => ?_)); exact nomatch h

set_option maxRecDepth 8192 in
theorem sub23 : (ops23 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh23 : ∀ op ∈ (ops23 : List (HloOp τ sig (Elt F))), op.fresh = ∅ := by
  intro _ h; (repeat (cases h with | head => rfl | tail _ h => ?_)); exact nomatch h

set_option maxRecDepth 8192 in
theorem sub24 : (ops24 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh24 : ∀ op ∈ (ops24 : List (HloOp τ sig (Elt F))), op.fresh = ∅ := by
  intro _ h; (repeat (cases h with | head => rfl | tail _ h => ?_)); exact nomatch h

set_option maxRecDepth 8192 in
theorem sub25 : (ops25 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh25 : ∀ op ∈ (ops25 : List (HloOp τ sig (Elt F))), op.fresh = ∅ := by
  intro _ h; (repeat (cases h with | head => rfl | tail _ h => ?_)); exact nomatch h

set_option maxRecDepth 8192 in
theorem sub26 : (ops26 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh26 : ∀ op ∈ (ops26 : List (HloOp τ sig (Elt F))), op.fresh = ∅ := by
  intro _ h; (repeat (cases h with | head => rfl | tail _ h => ?_)); exact nomatch h

set_option maxRecDepth 8192 in
theorem sub27 : (ops27 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh27 : ∀ op ∈ (ops27 : List (HloOp τ sig (Elt F))), op.fresh = ∅ := by
  intro _ h; (repeat (cases h with | head => rfl | tail _ h => ?_)); exact nomatch h

set_option maxRecDepth 8192 in
theorem sub28 : (ops28 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh28 : ∀ op ∈ (ops28 : List (HloOp τ sig (Elt F))), op.fresh = ∅ := by
  intro _ h; (repeat (cases h with | head => rfl | tail _ h => ?_)); exact nomatch h

set_option maxRecDepth 8192 in
theorem sub29 : (ops29 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh29 : ∀ op ∈ (ops29 : List (HloOp τ sig (Elt F))), op.fresh = ∅ := by
  intro _ h; (repeat (cases h with | head => rfl | tail _ h => ?_)); exact nomatch h

set_option maxRecDepth 8192 in
theorem sub30 : (ops30 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., binary_bufs_sub ..⟩
set_option maxRecDepth 8192 in
theorem fresh30 : ∀ op ∈ (ops30 : List (HloOp τ sig (Elt F))), op.fresh = ∅ := by
  intro _ h; (repeat (cases h with | head => rfl | tail _ h => ?_)); exact nomatch h

set_option maxRecDepth 8192 in
theorem sub31 : (ops31 : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., unary_bufs_sub .., binary_bufs_sub .., reshape_bufs_sub .., binary_bufs_sub .., reshape_bufs_sub ..⟩
set_option maxRecDepth 8192 in
theorem fresh31 : ∀ op ∈ (ops31 : List (HloOp τ sig (Elt F))), op.fresh = ∅ := by
  intro _ h; (repeat (cases h with | head => rfl | tail _ h => ?_)); exact nomatch h

/-- Every operation of the line names TensorCore buffers only. -/
theorem ops_sub : (ops : List (HloOp τ sig (Elt F))).Forall fun op => op.bufs ⊆ tcRefs τ sig :=
  List.forall_append.mpr ⟨sub0, List.forall_append.mpr ⟨sub1, List.forall_append.mpr ⟨sub2, List.forall_append.mpr ⟨sub3, List.forall_append.mpr ⟨sub4, List.forall_append.mpr ⟨sub5, List.forall_append.mpr ⟨sub6, List.forall_append.mpr ⟨sub7, List.forall_append.mpr ⟨sub8, List.forall_append.mpr ⟨sub9, List.forall_append.mpr ⟨sub10, List.forall_append.mpr ⟨sub11, List.forall_append.mpr ⟨sub12, List.forall_append.mpr ⟨sub13, List.forall_append.mpr ⟨sub14, List.forall_append.mpr ⟨sub15, List.forall_append.mpr ⟨sub16, List.forall_append.mpr ⟨sub17, List.forall_append.mpr ⟨sub18, List.forall_append.mpr ⟨sub19, List.forall_append.mpr ⟨sub20, List.forall_append.mpr ⟨sub21, List.forall_append.mpr ⟨sub22, List.forall_append.mpr ⟨sub23, List.forall_append.mpr ⟨sub24, List.forall_append.mpr ⟨sub25, List.forall_append.mpr ⟨sub26, List.forall_append.mpr ⟨sub27, List.forall_append.mpr ⟨sub28, List.forall_append.mpr ⟨sub29, List.forall_append.mpr ⟨sub30, sub31⟩⟩⟩⟩⟩⟩⟩⟩⟩⟩⟩⟩⟩⟩⟩⟩⟩⟩⟩⟩⟩⟩⟩⟩⟩⟩⟩⟩⟩⟩⟩

/-- Every operation of the line determines its result. -/
theorem ops_fresh : ∀ op ∈ (ops : List (HloOp τ sig (Elt F))), op.fresh = ∅ := fun op h =>
  (List.mem_append.mp h).elim (fun h => fresh0 op h) (fun h => (List.mem_append.mp h).elim (fun h => fresh1 op h) (fun h => (List.mem_append.mp h).elim (fun h => fresh2 op h) (fun h => (List.mem_append.mp h).elim (fun h => fresh3 op h) (fun h => (List.mem_append.mp h).elim (fun h => fresh4 op h) (fun h => (List.mem_append.mp h).elim (fun h => fresh5 op h) (fun h => (List.mem_append.mp h).elim (fun h => fresh6 op h) (fun h => (List.mem_append.mp h).elim (fun h => fresh7 op h) (fun h => (List.mem_append.mp h).elim (fun h => fresh8 op h) (fun h => (List.mem_append.mp h).elim (fun h => fresh9 op h) (fun h => (List.mem_append.mp h).elim (fun h => fresh10 op h) (fun h => (List.mem_append.mp h).elim (fun h => fresh11 op h) (fun h => (List.mem_append.mp h).elim (fun h => fresh12 op h) (fun h => (List.mem_append.mp h).elim (fun h => fresh13 op h) (fun h => (List.mem_append.mp h).elim (fun h => fresh14 op h) (fun h => (List.mem_append.mp h).elim (fun h => fresh15 op h) (fun h => (List.mem_append.mp h).elim (fun h => fresh16 op h) (fun h => (List.mem_append.mp h).elim (fun h => fresh17 op h) (fun h => (List.mem_append.mp h).elim (fun h => fresh18 op h) (fun h => (List.mem_append.mp h).elim (fun h => fresh19 op h) (fun h => (List.mem_append.mp h).elim (fun h => fresh20 op h) (fun h => (List.mem_append.mp h).elim (fun h => fresh21 op h) (fun h => (List.mem_append.mp h).elim (fun h => fresh22 op h) (fun h => (List.mem_append.mp h).elim (fun h => fresh23 op h) (fun h => (List.mem_append.mp h).elim (fun h => fresh24 op h) (fun h => (List.mem_append.mp h).elim (fun h => fresh25 op h) (fun h => (List.mem_append.mp h).elim (fun h => fresh26 op h) (fun h => (List.mem_append.mp h).elim (fun h => fresh27 op h) (fun h => (List.mem_append.mp h).elim (fun h => fresh28 op h) (fun h => (List.mem_append.mp h).elim (fun h => fresh29 op h) (fun h => (List.mem_append.mp h).elim (fun h => fresh30 op h) (fun h => fresh31 op h)))))))))))))))))))))))))))))))

/-- Every weakly fair execution of the reference terminates with each buffer at the fold of the operations over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Line

end
-- ==== Proof.RLineVal0.lean ====
/-
  What each piece's operations compute (pieces 0 … 7).

  Folding the operations of one piece over arbitrary starting contents `V`, the piece's last buffer ends holding one
  step of the chain — `rfirst`, `rmid` or `rlast` — of `V` at the previous piece's last buffer and at the seven argument
  buffers: every intermediate buffer of the piece is written once, before it is read.
-/
import proofs.«110954_j11751030522504_2_alg».proof.Proof.RLineOps
import proofs.«110954_j11751030522504_2_alg».proof.Proof.RSteps

noncomputable section

namespace Cert.ReferenceIdeal.Line

open Cert.ReferenceIdeal Cert.ReferenceIdeal.Gen Cert.ReferenceIdeal.Steps Idealize.ShloMosaic Idealize.ShloMosaic.TcCoe Idealize.SL.Sem Idealize.ShloMosaic.StableHlo

variable {F : FTy → Type} [FloatOps F]

set_option maxRecDepth 8192 in
set_option maxHeartbeats 8000000 in
/-- What the operations of piece 0 leave in their last buffer, from any contents `V`. -/
theorem chunk0 (V : Valuation τ sig (Elt F)) :
    after ops0 V (Proc.devRef .tc main_v42)
      = rfirst (F := F) rones (rout8 0 slices_S32x100x64_S1x100x64_0_0_0 slices_S32x64_S1x64_0_0 (rhid 0 0 slices_S65536x512_S65536x16_0_0 slices_S32x16x100_S1x16x100_0_0_0 slices_S32x100_S1x100_0_0 slices_S32x100x100_S1x100x100_0_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 1 leave in their last buffer, from any contents `V`. -/
theorem chunk1 (V : Valuation τ sig (Elt F)) :
    after ops1 V (Proc.devRef .tc main_v71)
      = rmid (F := F) (V (Proc.devRef .tc main_v42)) (rout64 1 slices_S32x100x64_S1x100x64_1_0_0 slices_S32x64_S1x64_1_0 (rhid 16 1 slices_S65536x512_S65536x16_0_16 slices_S32x16x100_S1x16x100_1_0_0 slices_S32x100_S1x100_1_0 slices_S32x100x100_S1x100x100_1_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 2 leave in their last buffer, from any contents `V`. -/
theorem chunk2 (V : Valuation τ sig (Elt F)) :
    after ops2 V (Proc.devRef .tc main_v100)
      = rmid (F := F) (V (Proc.devRef .tc main_v71)) (rout64 2 slices_S32x100x64_S1x100x64_2_0_0 slices_S32x64_S1x64_2_0 (rhid 32 2 slices_S65536x512_S65536x16_0_32 slices_S32x16x100_S1x16x100_2_0_0 slices_S32x100_S1x100_2_0 slices_S32x100x100_S1x100x100_2_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 3 leave in their last buffer, from any contents `V`. -/
theorem chunk3 (V : Valuation τ sig (Elt F)) :
    after ops3 V (Proc.devRef .tc main_v129)
      = rmid (F := F) (V (Proc.devRef .tc main_v100)) (rout64 3 slices_S32x100x64_S1x100x64_3_0_0 slices_S32x64_S1x64_3_0 (rhid 48 3 slices_S65536x512_S65536x16_0_48 slices_S32x16x100_S1x16x100_3_0_0 slices_S32x100_S1x100_3_0 slices_S32x100x100_S1x100x100_3_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 4 leave in their last buffer, from any contents `V`. -/
theorem chunk4 (V : Valuation τ sig (Elt F)) :
    after ops4 V (Proc.devRef .tc main_v158)
      = rmid (F := F) (V (Proc.devRef .tc main_v129)) (rout64 4 slices_S32x100x64_S1x100x64_4_0_0 slices_S32x64_S1x64_4_0 (rhid 64 4 slices_S65536x512_S65536x16_0_64 slices_S32x16x100_S1x16x100_4_0_0 slices_S32x100_S1x100_4_0 slices_S32x100x100_S1x100x100_4_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 5 leave in their last buffer, from any contents `V`. -/
theorem chunk5 (V : Valuation τ sig (Elt F)) :
    after ops5 V (Proc.devRef .tc main_v187)
      = rmid (F := F) (V (Proc.devRef .tc main_v158)) (rout64 5 slices_S32x100x64_S1x100x64_5_0_0 slices_S32x64_S1x64_5_0 (rhid 80 5 slices_S65536x512_S65536x16_0_80 slices_S32x16x100_S1x16x100_5_0_0 slices_S32x100_S1x100_5_0 slices_S32x100x100_S1x100x100_5_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 6 leave in their last buffer, from any contents `V`. -/
theorem chunk6 (V : Valuation τ sig (Elt F)) :
    after ops6 V (Proc.devRef .tc main_v216)
      = rmid (F := F) (V (Proc.devRef .tc main_v187)) (rout64 6 slices_S32x100x64_S1x100x64_6_0_0 slices_S32x64_S1x64_6_0 (rhid 96 6 slices_S65536x512_S65536x16_0_96 slices_S32x16x100_S1x16x100_6_0_0 slices_S32x100_S1x100_6_0 slices_S32x100x100_S1x100x100_6_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 7 leave in their last buffer, from any contents `V`. -/
theorem chunk7 (V : Valuation τ sig (Elt F)) :
    after ops7 V (Proc.devRef .tc main_v245)
      = rmid (F := F) (V (Proc.devRef .tc main_v216)) (rout64 7 slices_S32x100x64_S1x100x64_7_0_0 slices_S32x64_S1x64_7_0 (rhid 112 7 slices_S65536x512_S65536x16_0_112 slices_S32x16x100_S1x16x100_7_0_0 slices_S32x100_S1x100_7_0 slices_S32x100x100_S1x100x100_7_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

end Cert.ReferenceIdeal.Line

end
-- ==== Proof.RLineVal1.lean ====
/-
  What each piece's operations compute (pieces 8 … 15).

  Folding the operations of one piece over arbitrary starting contents `V`, the piece's last buffer ends holding one
  step of the chain — `rfirst`, `rmid` or `rlast` — of `V` at the previous piece's last buffer and at the seven argument
  buffers: every intermediate buffer of the piece is written once, before it is read.
-/
import proofs.«110954_j11751030522504_2_alg».proof.Proof.RLineOps
import proofs.«110954_j11751030522504_2_alg».proof.Proof.RSteps

noncomputable section

namespace Cert.ReferenceIdeal.Line

open Cert.ReferenceIdeal Cert.ReferenceIdeal.Gen Cert.ReferenceIdeal.Steps Idealize.ShloMosaic Idealize.ShloMosaic.TcCoe Idealize.SL.Sem Idealize.ShloMosaic.StableHlo

variable {F : FTy → Type} [FloatOps F]

set_option maxRecDepth 8192 in
set_option maxHeartbeats 8000000 in
/-- What the operations of piece 8 leave in their last buffer, from any contents `V`. -/
theorem chunk8 (V : Valuation τ sig (Elt F)) :
    after ops8 V (Proc.devRef .tc main_v274)
      = rmid (F := F) (V (Proc.devRef .tc main_v245)) (rout64 8 slices_S32x100x64_S1x100x64_8_0_0 slices_S32x64_S1x64_8_0 (rhid 128 8 slices_S65536x512_S65536x16_0_128 slices_S32x16x100_S1x16x100_8_0_0 slices_S32x100_S1x100_8_0 slices_S32x100x100_S1x100x100_8_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 9 leave in their last buffer, from any contents `V`. -/
theorem chunk9 (V : Valuation τ sig (Elt F)) :
    after ops9 V (Proc.devRef .tc main_v303)
      = rmid (F := F) (V (Proc.devRef .tc main_v274)) (rout64 9 slices_S32x100x64_S1x100x64_9_0_0 slices_S32x64_S1x64_9_0 (rhid 144 9 slices_S65536x512_S65536x16_0_144 slices_S32x16x100_S1x16x100_9_0_0 slices_S32x100_S1x100_9_0 slices_S32x100x100_S1x100x100_9_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 10 leave in their last buffer, from any contents `V`. -/
theorem chunk10 (V : Valuation τ sig (Elt F)) :
    after ops10 V (Proc.devRef .tc main_v332)
      = rmid (F := F) (V (Proc.devRef .tc main_v303)) (rout64 10 slices_S32x100x64_S1x100x64_10_0_0 slices_S32x64_S1x64_10_0 (rhid 160 10 slices_S65536x512_S65536x16_0_160 slices_S32x16x100_S1x16x100_10_0_0 slices_S32x100_S1x100_10_0 slices_S32x100x100_S1x100x100_10_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 11 leave in their last buffer, from any contents `V`. -/
theorem chunk11 (V : Valuation τ sig (Elt F)) :
    after ops11 V (Proc.devRef .tc main_v361)
      = rmid (F := F) (V (Proc.devRef .tc main_v332)) (rout64 11 slices_S32x100x64_S1x100x64_11_0_0 slices_S32x64_S1x64_11_0 (rhid 176 11 slices_S65536x512_S65536x16_0_176 slices_S32x16x100_S1x16x100_11_0_0 slices_S32x100_S1x100_11_0 slices_S32x100x100_S1x100x100_11_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 12 leave in their last buffer, from any contents `V`. -/
theorem chunk12 (V : Valuation τ sig (Elt F)) :
    after ops12 V (Proc.devRef .tc main_v390)
      = rmid (F := F) (V (Proc.devRef .tc main_v361)) (rout64 12 slices_S32x100x64_S1x100x64_12_0_0 slices_S32x64_S1x64_12_0 (rhid 192 12 slices_S65536x512_S65536x16_0_192 slices_S32x16x100_S1x16x100_12_0_0 slices_S32x100_S1x100_12_0 slices_S32x100x100_S1x100x100_12_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 13 leave in their last buffer, from any contents `V`. -/
theorem chunk13 (V : Valuation τ sig (Elt F)) :
    after ops13 V (Proc.devRef .tc main_v419)
      = rmid (F := F) (V (Proc.devRef .tc main_v390)) (rout64 13 slices_S32x100x64_S1x100x64_13_0_0 slices_S32x64_S1x64_13_0 (rhid 208 13 slices_S65536x512_S65536x16_0_208 slices_S32x16x100_S1x16x100_13_0_0 slices_S32x100_S1x100_13_0 slices_S32x100x100_S1x100x100_13_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 14 leave in their last buffer, from any contents `V`. -/
theorem chunk14 (V : Valuation τ sig (Elt F)) :
    after ops14 V (Proc.devRef .tc main_v448)
      = rmid (F := F) (V (Proc.devRef .tc main_v419)) (rout64 14 slices_S32x100x64_S1x100x64_14_0_0 slices_S32x64_S1x64_14_0 (rhid 224 14 slices_S65536x512_S65536x16_0_224 slices_S32x16x100_S1x16x100_14_0_0 slices_S32x100_S1x100_14_0 slices_S32x100x100_S1x100x100_14_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 15 leave in their last buffer, from any contents `V`. -/
theorem chunk15 (V : Valuation τ sig (Elt F)) :
    after ops15 V (Proc.devRef .tc main_v477)
      = rmid (F := F) (V (Proc.devRef .tc main_v448)) (rout64 15 slices_S32x100x64_S1x100x64_15_0_0 slices_S32x64_S1x64_15_0 (rhid 240 15 slices_S65536x512_S65536x16_0_240 slices_S32x16x100_S1x16x100_15_0_0 slices_S32x100_S1x100_15_0 slices_S32x100x100_S1x100x100_15_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

end Cert.ReferenceIdeal.Line

end
-- ==== Proof.RLineVal2.lean ====
/-
  What each piece's operations compute (pieces 16 … 23).

  Folding the operations of one piece over arbitrary starting contents `V`, the piece's last buffer ends holding one
  step of the chain — `rfirst`, `rmid` or `rlast` — of `V` at the previous piece's last buffer and at the seven argument
  buffers: every intermediate buffer of the piece is written once, before it is read.
-/
import proofs.«110954_j11751030522504_2_alg».proof.Proof.RLineOps
import proofs.«110954_j11751030522504_2_alg».proof.Proof.RSteps

noncomputable section

namespace Cert.ReferenceIdeal.Line

open Cert.ReferenceIdeal Cert.ReferenceIdeal.Gen Cert.ReferenceIdeal.Steps Idealize.ShloMosaic Idealize.ShloMosaic.TcCoe Idealize.SL.Sem Idealize.ShloMosaic.StableHlo

variable {F : FTy → Type} [FloatOps F]

set_option maxRecDepth 8192 in
set_option maxHeartbeats 8000000 in
/-- What the operations of piece 16 leave in their last buffer, from any contents `V`. -/
theorem chunk16 (V : Valuation τ sig (Elt F)) :
    after ops16 V (Proc.devRef .tc main_v506)
      = rmid (F := F) (V (Proc.devRef .tc main_v477)) (rout64 16 slices_S32x100x64_S1x100x64_16_0_0 slices_S32x64_S1x64_16_0 (rhid 256 16 slices_S65536x512_S65536x16_0_256 slices_S32x16x100_S1x16x100_16_0_0 slices_S32x100_S1x100_16_0 slices_S32x100x100_S1x100x100_16_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 17 leave in their last buffer, from any contents `V`. -/
theorem chunk17 (V : Valuation τ sig (Elt F)) :
    after ops17 V (Proc.devRef .tc main_v535)
      = rmid (F := F) (V (Proc.devRef .tc main_v506)) (rout64 17 slices_S32x100x64_S1x100x64_17_0_0 slices_S32x64_S1x64_17_0 (rhid 272 17 slices_S65536x512_S65536x16_0_272 slices_S32x16x100_S1x16x100_17_0_0 slices_S32x100_S1x100_17_0 slices_S32x100x100_S1x100x100_17_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 18 leave in their last buffer, from any contents `V`. -/
theorem chunk18 (V : Valuation τ sig (Elt F)) :
    after ops18 V (Proc.devRef .tc main_v564)
      = rmid (F := F) (V (Proc.devRef .tc main_v535)) (rout64 18 slices_S32x100x64_S1x100x64_18_0_0 slices_S32x64_S1x64_18_0 (rhid 288 18 slices_S65536x512_S65536x16_0_288 slices_S32x16x100_S1x16x100_18_0_0 slices_S32x100_S1x100_18_0 slices_S32x100x100_S1x100x100_18_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 19 leave in their last buffer, from any contents `V`. -/
theorem chunk19 (V : Valuation τ sig (Elt F)) :
    after ops19 V (Proc.devRef .tc main_v593)
      = rmid (F := F) (V (Proc.devRef .tc main_v564)) (rout64 19 slices_S32x100x64_S1x100x64_19_0_0 slices_S32x64_S1x64_19_0 (rhid 304 19 slices_S65536x512_S65536x16_0_304 slices_S32x16x100_S1x16x100_19_0_0 slices_S32x100_S1x100_19_0 slices_S32x100x100_S1x100x100_19_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 20 leave in their last buffer, from any contents `V`. -/
theorem chunk20 (V : Valuation τ sig (Elt F)) :
    after ops20 V (Proc.devRef .tc main_v622)
      = rmid (F := F) (V (Proc.devRef .tc main_v593)) (rout64 20 slices_S32x100x64_S1x100x64_20_0_0 slices_S32x64_S1x64_20_0 (rhid 320 20 slices_S65536x512_S65536x16_0_320 slices_S32x16x100_S1x16x100_20_0_0 slices_S32x100_S1x100_20_0 slices_S32x100x100_S1x100x100_20_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 21 leave in their last buffer, from any contents `V`. -/
theorem chunk21 (V : Valuation τ sig (Elt F)) :
    after ops21 V (Proc.devRef .tc main_v651)
      = rmid (F := F) (V (Proc.devRef .tc main_v622)) (rout64 21 slices_S32x100x64_S1x100x64_21_0_0 slices_S32x64_S1x64_21_0 (rhid 336 21 slices_S65536x512_S65536x16_0_336 slices_S32x16x100_S1x16x100_21_0_0 slices_S32x100_S1x100_21_0 slices_S32x100x100_S1x100x100_21_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 22 leave in their last buffer, from any contents `V`. -/
theorem chunk22 (V : Valuation τ sig (Elt F)) :
    after ops22 V (Proc.devRef .tc main_v680)
      = rmid (F := F) (V (Proc.devRef .tc main_v651)) (rout64 22 slices_S32x100x64_S1x100x64_22_0_0 slices_S32x64_S1x64_22_0 (rhid 352 22 slices_S65536x512_S65536x16_0_352 slices_S32x16x100_S1x16x100_22_0_0 slices_S32x100_S1x100_22_0 slices_S32x100x100_S1x100x100_22_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 23 leave in their last buffer, from any contents `V`. -/
theorem chunk23 (V : Valuation τ sig (Elt F)) :
    after ops23 V (Proc.devRef .tc main_v709)
      = rmid (F := F) (V (Proc.devRef .tc main_v680)) (rout64 23 slices_S32x100x64_S1x100x64_23_0_0 slices_S32x64_S1x64_23_0 (rhid 368 23 slices_S65536x512_S65536x16_0_368 slices_S32x16x100_S1x16x100_23_0_0 slices_S32x100_S1x100_23_0 slices_S32x100x100_S1x100x100_23_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

end Cert.ReferenceIdeal.Line

end
-- ==== Proof.RLineVal3.lean ====
/-
  What each piece's operations compute (pieces 24 … 31).

  Folding the operations of one piece over arbitrary starting contents `V`, the piece's last buffer ends holding one
  step of the chain — `rfirst`, `rmid` or `rlast` — of `V` at the previous piece's last buffer and at the seven argument
  buffers: every intermediate buffer of the piece is written once, before it is read.
-/
import proofs.«110954_j11751030522504_2_alg».proof.Proof.RLineOps
import proofs.«110954_j11751030522504_2_alg».proof.Proof.RSteps

noncomputable section

namespace Cert.ReferenceIdeal.Line

open Cert.ReferenceIdeal Cert.ReferenceIdeal.Gen Cert.ReferenceIdeal.Steps Idealize.ShloMosaic Idealize.ShloMosaic.TcCoe Idealize.SL.Sem Idealize.ShloMosaic.StableHlo

variable {F : FTy → Type} [FloatOps F]

set_option maxRecDepth 8192 in
set_option maxHeartbeats 8000000 in
/-- What the operations of piece 24 leave in their last buffer, from any contents `V`. -/
theorem chunk24 (V : Valuation τ sig (Elt F)) :
    after ops24 V (Proc.devRef .tc main_v738)
      = rmid (F := F) (V (Proc.devRef .tc main_v709)) (rout64 24 slices_S32x100x64_S1x100x64_24_0_0 slices_S32x64_S1x64_24_0 (rhid 384 24 slices_S65536x512_S65536x16_0_384 slices_S32x16x100_S1x16x100_24_0_0 slices_S32x100_S1x100_24_0 slices_S32x100x100_S1x100x100_24_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 25 leave in their last buffer, from any contents `V`. -/
theorem chunk25 (V : Valuation τ sig (Elt F)) :
    after ops25 V (Proc.devRef .tc main_v767)
      = rmid (F := F) (V (Proc.devRef .tc main_v738)) (rout64 25 slices_S32x100x64_S1x100x64_25_0_0 slices_S32x64_S1x64_25_0 (rhid 400 25 slices_S65536x512_S65536x16_0_400 slices_S32x16x100_S1x16x100_25_0_0 slices_S32x100_S1x100_25_0 slices_S32x100x100_S1x100x100_25_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 26 leave in their last buffer, from any contents `V`. -/
theorem chunk26 (V : Valuation τ sig (Elt F)) :
    after ops26 V (Proc.devRef .tc main_v796)
      = rmid (F := F) (V (Proc.devRef .tc main_v767)) (rout64 26 slices_S32x100x64_S1x100x64_26_0_0 slices_S32x64_S1x64_26_0 (rhid 416 26 slices_S65536x512_S65536x16_0_416 slices_S32x16x100_S1x16x100_26_0_0 slices_S32x100_S1x100_26_0 slices_S32x100x100_S1x100x100_26_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 27 leave in their last buffer, from any contents `V`. -/
theorem chunk27 (V : Valuation τ sig (Elt F)) :
    after ops27 V (Proc.devRef .tc main_v825)
      = rmid (F := F) (V (Proc.devRef .tc main_v796)) (rout64 27 slices_S32x100x64_S1x100x64_27_0_0 slices_S32x64_S1x64_27_0 (rhid 432 27 slices_S65536x512_S65536x16_0_432 slices_S32x16x100_S1x16x100_27_0_0 slices_S32x100_S1x100_27_0 slices_S32x100x100_S1x100x100_27_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 28 leave in their last buffer, from any contents `V`. -/
theorem chunk28 (V : Valuation τ sig (Elt F)) :
    after ops28 V (Proc.devRef .tc main_v854)
      = rmid (F := F) (V (Proc.devRef .tc main_v825)) (rout64 28 slices_S32x100x64_S1x100x64_28_0_0 slices_S32x64_S1x64_28_0 (rhid 448 28 slices_S65536x512_S65536x16_0_448 slices_S32x16x100_S1x16x100_28_0_0 slices_S32x100_S1x100_28_0 slices_S32x100x100_S1x100x100_28_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 29 leave in their last buffer, from any contents `V`. -/
theorem chunk29 (V : Valuation τ sig (Elt F)) :
    after ops29 V (Proc.devRef .tc main_v883)
      = rmid (F := F) (V (Proc.devRef .tc main_v854)) (rout64 29 slices_S32x100x64_S1x100x64_29_0_0 slices_S32x64_S1x64_29_0 (rhid 464 29 slices_S65536x512_S65536x16_0_464 slices_S32x16x100_S1x16x100_29_0_0 slices_S32x100_S1x100_29_0 slices_S32x100x100_S1x100x100_29_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 30 leave in their last buffer, from any contents `V`. -/
theorem chunk30 (V : Valuation τ sig (Elt F)) :
    after ops30 V (Proc.devRef .tc main_v912)
      = rmid (F := F) (V (Proc.devRef .tc main_v883)) (rout64 30 slices_S32x100x64_S1x100x64_30_0_0 slices_S32x64_S1x64_30_0 (rhid 480 30 slices_S65536x512_S65536x16_0_480 slices_S32x16x100_S1x16x100_30_0_0 slices_S32x100_S1x100_30_0 slices_S32x100x100_S1x100x100_30_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

set_option maxRecDepth 8192 in
set_option maxHeartbeats 8000000 in
/-- What the operations of piece 31 leave in their last buffer, from any contents `V`. -/
theorem chunk31 (V : Valuation τ sig (Elt F)) :
    after ops31 V (Proc.devRef .tc main_v944)
      = rlast (F := F) (V (Proc.devRef .tc main_v912)) (rout8 31 slices_S32x100x64_S1x100x64_31_0_0 slices_S32x64_S1x64_31_0 (rhid 496 31 slices_S65536x512_S65536x16_0_496 slices_S32x16x100_S1x16x100_31_0_0 slices_S32x100_S1x100_31_0 slices_S32x100x100_S1x100x100_31_0_0 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6))) := by
  after_results_simp
  rfl

end Cert.ReferenceIdeal.Line

end
-- ==== Proof.LibSsa.lean ====
import Idealize.ShloMosaic.Lib.StableHlo.Run

/-!
# Reading a straight line of host operations one operation at a time

A line of host operations in which every operation writes one buffer, no buffer is written twice and no
operation reads a buffer written at or after its own place, leaves contents that satisfy every operation's own
equation: the result buffer of operation `k` holds the operation's function of what the line leaves in its
operand buffers. `Writes ops W` records which buffer each operation writes (operation `k` at most the `k`-th
reference of `W`); the lemmas `read_nullary` … `read_reshape` read one operation, given its place `k`, that its
result is not written later (`∉ W.drop (k + 1)`) and that its operands are not written at or after `k`
(`∉ W.drop k`) — both decided on the list of references.
-/

namespace Cert.Ssa

open Idealize.ShloMosaic Idealize.ShloMosaic.TcCoe Idealize.ShloMosaic.StableHlo

variable {τ : Topo} {sig : RefSig} {Val : EltTy → Type}

/-- The fold over two lines one after the other is the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation `k` of the line writes at most the `k`-th reference of the list, and the two have one length. -/
def Writes : List (HloOp τ sig Val) → List (Ref sig .tc) → Prop
  | [], [] => True
  | op :: ops, w :: W => op.writes ⊆ {Proc.devRef .tc w} ∧ Writes ops W
  | [], _ :: _ => False
  | _ :: _, [] => False

theorem Writes.append {l₁ l₂ : List (HloOp τ sig Val)} {W₁ W₂ : List (Ref sig .tc)}
    (h₁ : Writes l₁ W₁) (h₂ : Writes l₂ W₂) : Writes (l₁ ++ l₂) (W₁ ++ W₂) := by
  induction l₁ generalizing W₁ with
  | nil =>
    cases W₁ with
    | nil => exact h₂
    | cons w W => exact False.elim h₁
  | cons op l ih =>
    cases W₁ with
    | nil => exact False.elim h₁
    | cons w W => exact ⟨h₁.1, ih h₁.2⟩

theorem Writes.drop {ops : List (HloOp τ sig Val)} {W : List (Ref sig .tc)} (h : Writes ops W) (n : Nat) :
    Writes (ops.drop n) (W.drop n) := by
  induction n generalizing ops W with
  | zero => exact h
  | succ n ih =>
    cases ops with
    | nil =>
      cases W with
      | nil => exact h
      | cons w W => exact False.elim h
    | cons op l =>
      cases W with
      | nil => exact False.elim h
      | cons w W => exact ih h.2

/-- A buffer outside the list keeps its contents through the line. -/
theorem Writes.keep {ops : List (HloOp τ sig Val)} {W : List (Ref sig .tc)} (h : Writes ops W)
    {r : Ref sig .tc} (hr : r ∉ W) (V : Valuation τ sig Val) :
    after ops V (Proc.devRef .tc r) = V (Proc.devRef .tc r) := by
  induction ops generalizing W V with
  | nil => rfl
  | cons op l ih =>
    cases W with
    | nil => exact False.elim h
    | cons w W =>
      have hw : Proc.devRef (τ := τ) .tc r ∉ op.writes := fun hm =>
        hr (List.mem_cons.mpr (Or.inl (Proc.devRef_injective _ (Finset.mem_singleton.mp (h.1 hm)))))
      rw [after_cons, ih h.2 (fun hm => hr (List.mem_cons_of_mem _ hm)), op.result_of_not_mem V hw]

/-- The line's contents at a buffer not written after place `k`: operation `k`'s result over the contents
    the operations before it leave. -/
theorem read_at {ops : List (HloOp τ sig Val)} {W : List (Ref sig .tc)} (h : Writes ops W) (k : Nat)
    {op : HloOp τ sig Val} (hop : ops[k]? = some op) (V : Valuation τ sig Val) {r : Ref sig .tc}
    (hr : r ∉ W.drop (k + 1)) :
    after ops V (Proc.devRef .tc r) = op.result (after (ops.take k) V) (Proc.devRef .tc r) := by
  obtain ⟨hk, rfl⟩ := List.getElem?_eq_some_iff.mp hop
  have hsplit : ops.take k ++ ops[k] :: ops.drop (k + 1) = ops := by
    rw [List.getElem_cons_drop]; exact List.take_append_drop k ops
  refine (congrArg (fun l => after l V (Proc.devRef .tc r)) hsplit.symm).trans ?_
  show after (ops.take k ++ ops[k] :: ops.drop (k + 1)) V (Proc.devRef .tc r) = _
  rw [after_append, after_cons, (h.drop (k + 1)).keep hr]

/-- The line's contents at a buffer not written at or after place `k`: what the operations before `k` leave. -/
theorem read_before {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  refine (congrArg (fun l => after l V (Proc.devRef .tc r)) (List.take_append_drop k ops).symm).trans ?_
  show after (ops.take k ++ ops.drop k) V (Proc.devRef .tc r) = _
  rw [after_append, (h.drop k).keep hr]

section Builders

variable {ops : List (HloOp τ sig Val)} {W : List (Ref sig .tc)} (h : Writes ops W) (k : Nat)
include h

theorem read_nullary (y : Ref sig .tc) (v : y.ty.Contents Val) (hy)
    (hop : ops[k]? = some (nullary (τ := τ) y v hy)) (V : Valuation τ sig Val) (hy' : y ∉ W.drop (k + 1)) :
    after ops V (Proc.devRef .tc y) = v := by
  rw [read_at h k hop V hy', nullary_result]

theorem read_unary (x y : Ref sig .tc) (f : x.ty.Contents Val → y.ty.Contents Val) (hx hy)
    (hop : ops[k]? = some (unary (τ := τ) x y f hx hy)) (V : Valuation τ sig Val)
    (hy' : y ∉ W.drop (k + 1)) (hx' : x ∉ W.drop k) :
    after ops V (Proc.devRef .tc y) = f (after ops V (Proc.devRef .tc x)) := by
  rw [read_at h k hop V hy', unary_result, read_before h k V hx']

theorem read_binary (a b y : Ref sig .tc) (f : a.ty.Contents Val → b.ty.Contents Val → y.ty.Contents Val) (ha hb hy)
    (hop : ops[k]? = some (binary (τ := τ) a b y f ha hb hy)) (V : Valuation τ sig Val)
    (hy' : y ∉ W.drop (k + 1)) (ha' : a ∉ W.drop k) (hb' : b ∉ W.drop k) :
    after ops V (Proc.devRef .tc y) = f (after ops V (Proc.devRef .tc a)) (after ops V (Proc.devRef .tc b)) := by
  rw [read_at h k hop V hy', binary_result, read_before h k V ha', read_before h k V hb']

theorem read_ternary (c a b y : Ref sig .tc)
    (f : c.ty.Contents Val → a.ty.Contents Val → b.ty.Contents Val → y.ty.Contents Val) (hc ha hb hy)
    (hop : ops[k]? = some (ternary (τ := τ) c a b y f hc ha hb hy)) (V : Valuation τ sig Val)
    (hy' : y ∉ W.drop (k + 1)) (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [read_at h k hop V hy', ternary_result, read_before h k V hc', read_before h k V ha', read_before h k V hb']

theorem read_reshape (x y : Ref sig .tc) (he : x.ty.elt = y.ty.elt) (hn : x.ty.shape.ShapeCasts y.ty.shape) (hx hy)
    (hop : ops[k]? = some (reshape (τ := τ) (Val := Val) x y he hn hx hy)) (V : Valuation τ sig Val)
    (hy' : y ∉ W.drop (k + 1)) (hx' : x ∉ W.drop k) :
    after ops V (Proc.devRef .tc y) = fun i => he ▸ shapeCast y.ty.shape (after ops V (Proc.devRef .tc x)) hn i := by
  rw [read_at h k hop V hy', reshape_result, read_before h k V hx']

end Builders

end Cert.Ssa
-- ==== Proof.RLineStage.lean ====
/-
  The reference's result as the chain of 32 steps.

  Each piece writes its own buffers and no others (`writes n`), so a buffer outside them — an argument array, or an
  earlier piece's result — keeps its contents through the piece.  Let `V₀` be the contents at launch.  If contents
  `V` agree with `V₀` on the seven argument buffers and hold step `n − 1` of the chain (of `V₀`'s arguments) in the last
  buffer of piece `n − 1`, then the pieces from `n` on (`suf n`) leave the chain's last step, `rbody` of `V₀`'s arguments, in the
  result buffer (`tail n`): piece `n` computes step `n` from what it finds and touches no argument.  From the launch
  contents themselves this gives `result`; the arguments are untouched by the whole line (`kept`).
-/
import proofs.«110954_j11751030522504_2_alg».proof.Proof.RLineOps
import proofs.«110954_j11751030522504_2_alg».proof.Proof.RLineVal0
import proofs.«110954_j11751030522504_2_alg».proof.Proof.RLineVal1
import proofs.«110954_j11751030522504_2_alg».proof.Proof.RLineVal2
import proofs.«110954_j11751030522504_2_alg».proof.Proof.RLineVal3
import proofs.«110954_j11751030522504_2_alg».proof.Proof.RBody
import proofs.«110954_j11751030522504_2_alg».proof.Proof.LibSsa

noncomputable section

namespace Cert.ReferenceIdeal.Line

open Cert.ReferenceIdeal Cert.ReferenceIdeal.Gen Cert.ReferenceIdeal.Steps Idealize.ShloMosaic Idealize.ShloMosaic.TcCoe Idealize.SL.Sem Idealize.ShloMosaic.StableHlo

variable {F : FTy → Type} [FloatOps F]

/-- The buffers piece 0 writes, in order. -/
abbrev W0 : List (Ref sig .tc) := [main_cst, main_v0, main_v1, main_v2, main_v3, main_v4, main_v5, main_v6, main_v7, main_v8, main_v9, main_call0_cst, main_call0_v0, main_v10, main_v11, main_v12, main_v13, main_v14, main_v15, main_v16, main_v17, main_v18, main_call1_cst, main_call1_v0, main_v19, main_v20, main_v21, main_v22, main_v23, main_v24, main_v25, main_v26, main_v27, main_v28, main_v29, main_cst_0, main_v30, main_cst_1, main_v31, main_v32, main_v33, main_v34, main_v35, main_v36, main_cst_2, main_v37, main_v38, main_v39, main_v40, main_v41, main_v42]
theorem writes0 : Cert.Ssa.Writes (ops0 (F := F)) W0 := by
  repeat' (first | exact trivial | (rw [Cert.Ssa.Writes]; refine ⟨subset_rfl, ?_⟩))

/-- The buffers piece 1 writes, in order. -/
abbrev W1 : List (Ref sig .tc) := [main_v43, main_v44, main_v45, main_v46, main_v47, main_v48, main_v49, main_v50, main_v51, main_call2_cst, main_call2_v0, main_v52, main_v53, main_v54, main_v55, main_v56, main_v57, main_v58, main_v59, main_v60, main_call3_cst, main_call3_v0, main_v61, main_v62, main_v63, main_v64, main_v65, main_v66, main_v67, main_v68, main_v69, main_v70, main_v71]
theorem writes1 : Cert.Ssa.Writes (ops1 (F := F)) W1 := by
  repeat' (first | exact trivial | (rw [Cert.Ssa.Writes]; refine ⟨subset_rfl, ?_⟩))

/-- The buffers piece 2 writes, in order. -/
abbrev W2 : List (Ref sig .tc) := [main_v72, main_v73, main_v74, main_v75, main_v76, main_v77, main_v78, main_v79, main_v80, main_call4_cst, main_call4_v0, main_v81, main_v82, main_v83, main_v84, main_v85, main_v86, main_v87, main_v88, main_v89, main_call5_cst, main_call5_v0, main_v90, main_v91, main_v92, main_v93, main_v94, main_v95, main_v96, main_v97, main_v98, main_v99, main_v100]
theorem writes2 : Cert.Ssa.Writes (ops2 (F := F)) W2 := by
  repeat' (first | exact trivial | (rw [Cert.Ssa.Writes]; refine ⟨subset_rfl, ?_⟩))

/-- The buffers piece 3 writes, in order. -/
abbrev W3 : List (Ref sig .tc) := [main_v101, main_v102, main_v103, main_v104, main_v105, main_v106, main_v107, main_v108, main_v109, main_call6_cst, main_call6_v0, main_v110, main_v111, main_v112, main_v113, main_v114, main_v115, main_v116, main_v117, main_v118, main_call7_cst, main_call7_v0, main_v119, main_v120, main_v121, main_v122, main_v123, main_v124, main_v125, main_v126, main_v127, main_v128, main_v129]
theorem writes3 : Cert.Ssa.Writes (ops3 (F := F)) W3 := by
  repeat' (first | exact trivial | (rw [Cert.Ssa.Writes]; refine ⟨subset_rfl, ?_⟩))

/-- The buffers piece 4 writes, in order. -/
abbrev W4 : List (Ref sig .tc) := [main_v130, main_v131, main_v132, main_v133, main_v134, main_v135, main_v136, main_v137, main_v138, main_call8_cst, main_call8_v0, main_v139, main_v140, main_v141, main_v142, main_v143, main_v144, main_v145, main_v146, main_v147, main_call9_cst, main_call9_v0, main_v148, main_v149, main_v150, main_v151, main_v152, main_v153, main_v154, main_v155, main_v156, main_v157, main_v158]
theorem writes4 : Cert.Ssa.Writes (ops4 (F := F)) W4 := by
  repeat' (first | exact trivial | (rw [Cert.Ssa.Writes]; refine ⟨subset_rfl, ?_⟩))

/-- The buffers piece 5 writes, in order. -/
abbrev W5 : List (Ref sig .tc) := [main_v159, main_v160, main_v161, main_v162, main_v163, main_v164, main_v165, main_v166, main_v167, main_call10_cst, main_call10_v0, main_v168, main_v169, main_v170, main_v171, main_v172, main_v173, main_v174, main_v175, main_v176, main_call11_cst, main_call11_v0, main_v177, main_v178, main_v179, main_v180, main_v181, main_v182, main_v183, main_v184, main_v185, main_v186, main_v187]
theorem writes5 : Cert.Ssa.Writes (ops5 (F := F)) W5 := by
  repeat' (first | exact trivial | (rw [Cert.Ssa.Writes]; refine ⟨subset_rfl, ?_⟩))

/-- The buffers piece 6 writes, in order. -/
abbrev W6 : List (Ref sig .tc) := [main_v188, main_v189, main_v190, main_v191, main_v192, main_v193, main_v194, main_v195, main_v196, main_call12_cst, main_call12_v0, main_v197, main_v198, main_v199, main_v200, main_v201, main_v202, main_v203, main_v204, main_v205, main_call13_cst, main_call13_v0, main_v206, main_v207, main_v208, main_v209, main_v210, main_v211, main_v212, main_v213, main_v214, main_v215, main_v216]
theorem writes6 : Cert.Ssa.Writes (ops6 (F := F)) W6 := by
  repeat' (first | exact trivial | (rw [Cert.Ssa.Writes]; refine ⟨subset_rfl, ?_⟩))

/-- The buffers piece 7 writes, in order. -/
abbrev W7 : List (Ref sig .tc) := [main_v217, main_v218, main_v219, main_v220, main_v221, main_v222, main_v223, main_v224, main_v225, main_call14_cst, main_call14_v0, main_v226, main_v227, main_v228, main_v229, main_v230, main_v231, main_v232, main_v233, main_v234, main_call15_cst, main_call15_v0, main_v235, main_v236, main_v237, main_v238, main_v239, main_v240, main_v241, main_v242, main_v243, main_v244, main_v245]
theorem writes7 : Cert.Ssa.Writes (ops7 (F := F)) W7 := by
  repeat' (first | exact trivial | (rw [Cert.Ssa.Writes]; refine ⟨subset_rfl, ?_⟩))

/-- The buffers piece 8 writes, in order. -/
abbrev W8 : List (Ref sig .tc) := [main_v246, main_v247, main_v248, main_v249, main_v250, main_v251, main_v252, main_v253, main_v254, main_call16_cst, main_call16_v0, main_v255, main_v256, main_v257, main_v258, main_v259, main_v260, main_v261, main_v262, main_v263, main_call17_cst, main_call17_v0, main_v264, main_v265, main_v266, main_v267, main_v268, main_v269, main_v270, main_v271, main_v272, main_v273, main_v274]
theorem writes8 : Cert.Ssa.Writes (ops8 (F := F)) W8 := by
  repeat' (first | exact trivial | (rw [Cert.Ssa.Writes]; refine ⟨subset_rfl, ?_⟩))

/-- The buffers piece 9 writes, in order. -/
abbrev W9 : List (Ref sig .tc) := [main_v275, main_v276, main_v277, main_v278, main_v279, main_v280, main_v281, main_v282, main_v283, main_call18_cst, main_call18_v0, main_v284, main_v285, main_v286, main_v287, main_v288, main_v289, main_v290, main_v291, main_v292, main_call19_cst, main_call19_v0, main_v293, main_v294, main_v295, main_v296, main_v297, main_v298, main_v299, main_v300, main_v301, main_v302, main_v303]
theorem writes9 : Cert.Ssa.Writes (ops9 (F := F)) W9 := by
  repeat' (first | exact trivial | (rw [Cert.Ssa.Writes]; refine ⟨subset_rfl, ?_⟩))

/-- The buffers piece 10 writes, in order. -/
abbrev W10 : List (Ref sig .tc) := [main_v304, main_v305, main_v306, main_v307, main_v308, main_v309, main_v310, main_v311, main_v312, main_call20_cst, main_call20_v0, main_v313, main_v314, main_v315, main_v316, main_v317, main_v318, main_v319, main_v320, main_v321, main_call21_cst, main_call21_v0, main_v322, main_v323, main_v324, main_v325, main_v326, main_v327, main_v328, main_v329, main_v330, main_v331, main_v332]
theorem writes10 : Cert.Ssa.Writes (ops10 (F := F)) W10 := by
  repeat' (first | exact trivial | (rw [Cert.Ssa.Writes]; refine ⟨subset_rfl, ?_⟩))

/-- The buffers piece 11 writes, in order. -/
abbrev W11 : List (Ref sig .tc) := [main_v333, main_v334, main_v335, main_v336, main_v337, main_v338, main_v339, main_v340, main_v341, main_call22_cst, main_call22_v0, main_v342, main_v343, main_v344, main_v345, main_v346, main_v347, main_v348, main_v349, main_v350, main_call23_cst, main_call23_v0, main_v351, main_v352, main_v353, main_v354, main_v355, main_v356, main_v357, main_v358, main_v359, main_v360, main_v361]
theorem writes11 : Cert.Ssa.Writes (ops11 (F := F)) W11 := by
  repeat' (first | exact trivial | (rw [Cert.Ssa.Writes]; refine ⟨subset_rfl, ?_⟩))

/-- The buffers piece 12 writes, in order. -/
abbrev W12 : List (Ref sig .tc) := [main_v362, main_v363, main_v364, main_v365, main_v366, main_v367, main_v368, main_v369, main_v370, main_call24_cst, main_call24_v0, main_v371, main_v372, main_v373, main_v374, main_v375, main_v376, main_v377, main_v378, main_v379, main_call25_cst, main_call25_v0, main_v380, main_v381, main_v382, main_v383, main_v384, main_v385, main_v386, main_v387, main_v388, main_v389, main_v390]
theorem writes12 : Cert.Ssa.Writes (ops12 (F := F)) W12 := by
  repeat' (first | exact trivial | (rw [Cert.Ssa.Writes]; refine ⟨subset_rfl, ?_⟩))

/-- The buffers piece 13 writes, in order. -/
abbrev W13 : List (Ref sig .tc) := [main_v391, main_v392, main_v393, main_v394, main_v395, main_v396, main_v397, main_v398, main_v399, main_call26_cst, main_call26_v0, main_v400, main_v401, main_v402, main_v403, main_v404, main_v405, main_v406, main_v407, main_v408, main_call27_cst, main_call27_v0, main_v409, main_v410, main_v411, main_v412, main_v413, main_v414, main_v415, main_v416, main_v417, main_v418, main_v419]
theorem writes13 : Cert.Ssa.Writes (ops13 (F := F)) W13 := by
  repeat' (first | exact trivial | (rw [Cert.Ssa.Writes]; refine ⟨subset_rfl, ?_⟩))

/-- The buffers piece 14 writes, in order. -/
abbrev W14 : List (Ref sig .tc) := [main_v420, main_v421, main_v422, main_v423, main_v424, main_v425, main_v426, main_v427, main_v428, main_call28_cst, main_call28_v0, main_v429, main_v430, main_v431, main_v432, main_v433, main_v434, main_v435, main_v436, main_v437, main_call29_cst, main_call29_v0, main_v438, main_v439, main_v440, main_v441, main_v442, main_v443, main_v444, main_v445, main_v446, main_v447, main_v448]
theorem writes14 : Cert.Ssa.Writes (ops14 (F := F)) W14 := by
  repeat' (first | exact trivial | (rw [Cert.Ssa.Writes]; refine ⟨subset_rfl, ?_⟩))

/-- The buffers piece 15 writes, in order. -/
abbrev W15 : List (Ref sig .tc) := [main_v449, main_v450, main_v451, main_v452, main_v453, main_v454, main_v455, main_v456, main_v457, main_call30_cst, main_call30_v0, main_v458, main_v459, main_v460, main_v461, main_v462, main_v463, main_v464, main_v465, main_v466, main_call31_cst, main_call31_v0, main_v467, main_v468, main_v469, main_v470, main_v471, main_v472, main_v473, main_v474, main_v475, main_v476, main_v477]
theorem writes15 : Cert.Ssa.Writes (ops15 (F := F)) W15 := by
  repeat' (first | exact trivial | (rw [Cert.Ssa.Writes]; refine ⟨subset_rfl, ?_⟩))

/-- The buffers piece 16 writes, in order. -/
abbrev W16 : List (Ref sig .tc) := [main_v478, main_v479, main_v480, main_v481, main_v482, main_v483, main_v484, main_v485, main_v486, main_call32_cst, main_call32_v0, main_v487, main_v488, main_v489, main_v490, main_v491, main_v492, main_v493, main_v494, main_v495, main_call33_cst, main_call33_v0, main_v496, main_v497, main_v498, main_v499, main_v500, main_v501, main_v502, main_v503, main_v504, main_v505, main_v506]
theorem writes16 : Cert.Ssa.Writes (ops16 (F := F)) W16 := by
  repeat' (first | exact trivial | (rw [Cert.Ssa.Writes]; refine ⟨subset_rfl, ?_⟩))

/-- The buffers piece 17 writes, in order. -/
abbrev W17 : List (Ref sig .tc) := [main_v507, main_v508, main_v509, main_v510, main_v511, main_v512, main_v513, main_v514, main_v515, main_call34_cst, main_call34_v0, main_v516, main_v517, main_v518, main_v519, main_v520, main_v521, main_v522, main_v523, main_v524, main_call35_cst, main_call35_v0, main_v525, main_v526, main_v527, main_v528, main_v529, main_v530, main_v531, main_v532, main_v533, main_v534, main_v535]
theorem writes17 : Cert.Ssa.Writes (ops17 (F := F)) W17 := by
  repeat' (first | exact trivial | (rw [Cert.Ssa.Writes]; refine ⟨subset_rfl, ?_⟩))

/-- The buffers piece 18 writes, in order. -/
abbrev W18 : List (Ref sig .tc) := [main_v536, main_v537, main_v538, main_v539, main_v540, main_v541, main_v542, main_v543, main_v544, main_call36_cst, main_call36_v0, main_v545, main_v546, main_v547, main_v548, main_v549, main_v550, main_v551, main_v552, main_v553, main_call37_cst, main_call37_v0, main_v554, main_v555, main_v556, main_v557, main_v558, main_v559, main_v560, main_v561, main_v562, main_v563, main_v564]
theorem writes18 : Cert.Ssa.Writes (ops18 (F := F)) W18 := by
  repeat' (first | exact trivial | (rw [Cert.Ssa.Writes]; refine ⟨subset_rfl, ?_⟩))

/-- The buffers piece 19 writes, in order. -/
abbrev W19 : List (Ref sig .tc) := [main_v565, main_v566, main_v567, main_v568, main_v569, main_v570, main_v571, main_v572, main_v573, main_call38_cst, main_call38_v0, main_v574, main_v575, main_v576, main_v577, main_v578, main_v579, main_v580, main_v581, main_v582, main_call39_cst, main_call39_v0, main_v583, main_v584, main_v585, main_v586, main_v587, main_v588, main_v589, main_v590, main_v591, main_v592, main_v593]
theorem writes19 : Cert.Ssa.Writes (ops19 (F := F)) W19 := by
  repeat' (first | exact trivial | (rw [Cert.Ssa.Writes]; refine ⟨subset_rfl, ?_⟩))

/-- The buffers piece 20 writes, in order. -/
abbrev W20 : List (Ref sig .tc) := [main_v594, main_v595, main_v596, main_v597, main_v598, main_v599, main_v600, main_v601, main_v602, main_call40_cst, main_call40_v0, main_v603, main_v604, main_v605, main_v606, main_v607, main_v608, main_v609, main_v610, main_v611, main_call41_cst, main_call41_v0, main_v612, main_v613, main_v614, main_v615, main_v616, main_v617, main_v618, main_v619, main_v620, main_v621, main_v622]
theorem writes20 : Cert.Ssa.Writes (ops20 (F := F)) W20 := by
  repeat' (first | exact trivial | (rw [Cert.Ssa.Writes]; refine ⟨subset_rfl, ?_⟩))

/-- The buffers piece 21 writes, in order. -/
abbrev W21 : List (Ref sig .tc) := [main_v623, main_v624, main_v625, main_v626, main_v627, main_v628, main_v629, main_v630, main_v631, main_call42_cst, main_call42_v0, main_v632, main_v633, main_v634, main_v635, main_v636, main_v637, main_v638, main_v639, main_v640, main_call43_cst, main_call43_v0, main_v641, main_v642, main_v643, main_v644, main_v645, main_v646, main_v647, main_v648, main_v649, main_v650, main_v651]
theorem writes21 : Cert.Ssa.Writes (ops21 (F := F)) W21 := by
  repeat' (first | exact trivial | (rw [Cert.Ssa.Writes]; refine ⟨subset_rfl, ?_⟩))

/-- The buffers piece 22 writes, in order. -/
abbrev W22 : List (Ref sig .tc) := [main_v652, main_v653, main_v654, main_v655, main_v656, main_v657, main_v658, main_v659, main_v660, main_call44_cst, main_call44_v0, main_v661, main_v662, main_v663, main_v664, main_v665, main_v666, main_v667, main_v668, main_v669, main_call45_cst, main_call45_v0, main_v670, main_v671, main_v672, main_v673, main_v674, main_v675, main_v676, main_v677, main_v678, main_v679, main_v680]
theorem writes22 : Cert.Ssa.Writes (ops22 (F := F)) W22 := by
  repeat' (first | exact trivial | (rw [Cert.Ssa.Writes]; refine ⟨subset_rfl, ?_⟩))

/-- The buffers piece 23 writes, in order. -/
abbrev W23 : List (Ref sig .tc) := [main_v681, main_v682, main_v683, main_v684, main_v685, main_v686, main_v687, main_v688, main_v689, main_call46_cst, main_call46_v0, main_v690, main_v691, main_v692, main_v693, main_v694, main_v695, main_v696, main_v697, main_v698, main_call47_cst, main_call47_v0, main_v699, main_v700, main_v701, main_v702, main_v703, main_v704, main_v705, main_v706, main_v707, main_v708, main_v709]
theorem writes23 : Cert.Ssa.Writes (ops23 (F := F)) W23 := by
  repeat' (first | exact trivial | (rw [Cert.Ssa.Writes]; refine ⟨subset_rfl, ?_⟩))

/-- The buffers piece 24 writes, in order. -/
abbrev W24 : List (Ref sig .tc) := [main_v710, main_v711, main_v712, main_v713, main_v714, main_v715, main_v716, main_v717, main_v718, main_call48_cst, main_call48_v0, main_v719, main_v720, main_v721, main_v722, main_v723, main_v724, main_v725, main_v726, main_v727, main_call49_cst, main_call49_v0, main_v728, main_v729, main_v730, main_v731, main_v732, main_v733, main_v734, main_v735, main_v736, main_v737, main_v738]
theorem writes24 : Cert.Ssa.Writes (ops24 (F := F)) W24 := by
  repeat' (first | exact trivial | (rw [Cert.Ssa.Writes]; refine ⟨subset_rfl, ?_⟩))

/-- The buffers piece 25 writes, in order. -/
abbrev W25 : List (Ref sig .tc) := [main_v739, main_v740, main_v741, main_v742, main_v743, main_v744, main_v745, main_v746, main_v747, main_call50_cst, main_call50_v0, main_v748, main_v749, main_v750, main_v751, main_v752, main_v753, main_v754, main_v755, main_v756, main_call51_cst, main_call51_v0, main_v757, main_v758, main_v759, main_v760, main_v761, main_v762, main_v763, main_v764, main_v765, main_v766, main_v767]
theorem writes25 : Cert.Ssa.Writes (ops25 (F := F)) W25 := by
  repeat' (first | exact trivial | (rw [Cert.Ssa.Writes]; refine ⟨subset_rfl, ?_⟩))

/-- The buffers piece 26 writes, in order. -/
abbrev W26 : List (Ref sig .tc) := [main_v768, main_v769, main_v770, main_v771, main_v772, main_v773, main_v774, main_v775, main_v776, main_call52_cst, main_call52_v0, main_v777, main_v778, main_v779, main_v780, main_v781, main_v782, main_v783, main_v784, main_v785, main_call53_cst, main_call53_v0, main_v786, main_v787, main_v788, main_v789, main_v790, main_v791, main_v792, main_v793, main_v794, main_v795, main_v796]
theorem writes26 : Cert.Ssa.Writes (ops26 (F := F)) W26 := by
  repeat' (first | exact trivial | (rw [Cert.Ssa.Writes]; refine ⟨subset_rfl, ?_⟩))

/-- The buffers piece 27 writes, in order. -/
abbrev W27 : List (Ref sig .tc) := [main_v797, main_v798, main_v799, main_v800, main_v801, main_v802, main_v803, main_v804, main_v805, main_call54_cst, main_call54_v0, main_v806, main_v807, main_v808, main_v809, main_v810, main_v811, main_v812, main_v813, main_v814, main_call55_cst, main_call55_v0, main_v815, main_v816, main_v817, main_v818, main_v819, main_v820, main_v821, main_v822, main_v823, main_v824, main_v825]
theorem writes27 : Cert.Ssa.Writes (ops27 (F := F)) W27 := by
  repeat' (first | exact trivial | (rw [Cert.Ssa.Writes]; refine ⟨subset_rfl, ?_⟩))

/-- The buffers piece 28 writes, in order. -/
abbrev W28 : List (Ref sig .tc) := [main_v826, main_v827, main_v828, main_v829, main_v830, main_v831, main_v832, main_v833, main_v834, main_call56_cst, main_call56_v0, main_v835, main_v836, main_v837, main_v838, main_v839, main_v840, main_v841, main_v842, main_v843, main_call57_cst, main_call57_v0, main_v844, main_v845, main_v846, main_v847, main_v848, main_v849, main_v850, main_v851, main_v852, main_v853, main_v854]
theorem writes28 : Cert.Ssa.Writes (ops28 (F := F)) W28 := by
  repeat' (first | exact trivial | (rw [Cert.Ssa.Writes]; refine ⟨subset_rfl, ?_⟩))

/-- The buffers piece 29 writes, in order. -/
abbrev W29 : List (Ref sig .tc) := [main_v855, main_v856, main_v857, main_v858, main_v859, main_v860, main_v861, main_v862, main_v863, main_call58_cst, main_call58_v0, main_v864, main_v865, main_v866, main_v867, main_v868, main_v869, main_v870, main_v871, main_v872, main_call59_cst, main_call59_v0, main_v873, main_v874, main_v875, main_v876, main_v877, main_v878, main_v879, main_v880, main_v881, main_v882, main_v883]
theorem writes29 : Cert.Ssa.Writes (ops29 (F := F)) W29 := by
  repeat' (first | exact trivial | (rw [Cert.Ssa.Writes]; refine ⟨subset_rfl, ?_⟩))

/-- The buffers piece 30 writes, in order. -/
abbrev W30 : List (Ref sig .tc) := [main_v884, main_v885, main_v886, main_v887, main_v888, main_v889, main_v890, main_v891, main_v892, main_call60_cst, main_call60_v0, main_v893, main_v894, main_v895, main_v896, main_v897, main_v898, main_v899, main_v900, main_v901, main_call61_cst, main_call61_v0, main_v902, main_v903, main_v904, main_v905, main_v906, main_v907, main_v908, main_v909, main_v910, main_v911, main_v912]
theorem writes30 : Cert.Ssa.Writes (ops30 (F := F)) W30 := by
  repeat' (first | exact trivial | (rw [Cert.Ssa.Writes]; refine ⟨subset_rfl, ?_⟩))

/-- The buffers piece 31 writes, in order. -/
abbrev W31 : List (Ref sig .tc) := [main_v913, main_v914, main_v915, main_v916, main_v917, main_v918, main_v919, main_v920, main_v921, main_call62_cst, main_call62_v0, main_v922, main_v923, main_v924, main_v925, main_v926, main_v927, main_v928, main_v929, main_v930, main_call63_cst, main_call63_v0, main_v931, main_v932, main_v933, main_v934, main_v935, main_v936, main_v937, main_v938, main_v939, main_v940, main_v941, main_v942, main_v943, main_v944]
theorem writes31 : Cert.Ssa.Writes (ops31 (F := F)) W31 := by
  repeat' (first | exact trivial | (rw [Cert.Ssa.Writes]; refine ⟨subset_rfl, ?_⟩))

/-- The pieces from 31 on. -/
abbrev suf31 : List (HloOp τ sig (Elt F)) := ops31
abbrev suf30 : List (HloOp τ sig (Elt F)) := ops30 ++ suf31
abbrev suf29 : List (HloOp τ sig (Elt F)) := ops29 ++ suf30
abbrev suf28 : List (HloOp τ sig (Elt F)) := ops28 ++ suf29
abbrev suf27 : List (HloOp τ sig (Elt F)) := ops27 ++ suf28
abbrev suf26 : List (HloOp τ sig (Elt F)) := ops26 ++ suf27
abbrev suf25 : List (HloOp τ sig (Elt F)) := ops25 ++ suf26
abbrev suf24 : List (HloOp τ sig (Elt F)) := ops24 ++ suf25
abbrev suf23 : List (HloOp τ sig (Elt F)) := ops23 ++ suf24
abbrev suf22 : List (HloOp τ sig (Elt F)) := ops22 ++ suf23
abbrev suf21 : List (HloOp τ sig (Elt F)) := ops21 ++ suf22
abbrev suf20 : List (HloOp τ sig (Elt F)) := ops20 ++ suf21
abbrev suf19 : List (HloOp τ sig (Elt F)) := ops19 ++ suf20
abbrev suf18 : List (HloOp τ sig (Elt F)) := ops18 ++ suf19
abbrev suf17 : List (HloOp τ sig (Elt F)) := ops17 ++ suf18
abbrev suf16 : List (HloOp τ sig (Elt F)) := ops16 ++ suf17
abbrev suf15 : List (HloOp τ sig (Elt F)) := ops15 ++ suf16
abbrev suf14 : List (HloOp τ sig (Elt F)) := ops14 ++ suf15
abbrev suf13 : List (HloOp τ sig (Elt F)) := ops13 ++ suf14
abbrev suf12 : List (HloOp τ sig (Elt F)) := ops12 ++ suf13
abbrev suf11 : List (HloOp τ sig (Elt F)) := ops11 ++ suf12
abbrev suf10 : List (HloOp τ sig (Elt F)) := ops10 ++ suf11
abbrev suf9 : List (HloOp τ sig (Elt F)) := ops9 ++ suf10
abbrev suf8 : List (HloOp τ sig (Elt F)) := ops8 ++ suf9
abbrev suf7 : List (HloOp τ sig (Elt F)) := ops7 ++ suf8
abbrev suf6 : List (HloOp τ sig (Elt F)) := ops6 ++ suf7
abbrev suf5 : List (HloOp τ sig (Elt F)) := ops5 ++ suf6
abbrev suf4 : List (HloOp τ sig (Elt F)) := ops4 ++ suf5
abbrev suf3 : List (HloOp τ sig (Elt F)) := ops3 ++ suf4
abbrev suf2 : List (HloOp τ sig (Elt F)) := ops2 ++ suf3
abbrev suf1 : List (HloOp τ sig (Elt F)) := ops1 ++ suf2

set_option maxRecDepth 8192 in
theorem tail31 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v912) = rret30 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf31 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after ops31 V _ = _
  rw [chunk31 V, hr, h0, h1, h2, h3, h4, h5, h6]; rfl

set_option maxRecDepth 8192 in
theorem tail30 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v883) = rret29 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf30 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops30 ++ suf31) V _ = _
  rw [Cert.Ssa.after_append]
  refine tail31 V₀ (after ops30 V) ?_ ?_ ?_ ?_ ?_ ?_ ?_ ?_
  · rw [(writes30 (F := F)).keep (r := main_arg0) (by decide) V]; exact h0
  · rw [(writes30 (F := F)).keep (r := main_arg1) (by decide) V]; exact h1
  · rw [(writes30 (F := F)).keep (r := main_arg2) (by decide) V]; exact h2
  · rw [(writes30 (F := F)).keep (r := main_arg3) (by decide) V]; exact h3
  · rw [(writes30 (F := F)).keep (r := main_arg4) (by decide) V]; exact h4
  · rw [(writes30 (F := F)).keep (r := main_arg5) (by decide) V]; exact h5
  · rw [(writes30 (F := F)).keep (r := main_arg6) (by decide) V]; exact h6
  · rw [chunk30 V, hr, h0, h1, h2, h3, h4, h5, h6]; rfl

set_option maxRecDepth 8192 in
theorem tail29 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v854) = rret28 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf29 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops29 ++ suf30) V _ = _
  rw [Cert.Ssa.after_append]
  refine tail30 V₀ (after ops29 V) ?_ ?_ ?_ ?_ ?_ ?_ ?_ ?_
  · rw [(writes29 (F := F)).keep (r := main_arg0) (by decide) V]; exact h0
  · rw [(writes29 (F := F)).keep (r := main_arg1) (by decide) V]; exact h1
  · rw [(writes29 (F := F)).keep (r := main_arg2) (by decide) V]; exact h2
  · rw [(writes29 (F := F)).keep (r := main_arg3) (by decide) V]; exact h3
  · rw [(writes29 (F := F)).keep (r := main_arg4) (by decide) V]; exact h4
  · rw [(writes29 (F := F)).keep (r := main_arg5) (by decide) V]; exact h5
  · rw [(writes29 (F := F)).keep (r := main_arg6) (by decide) V]; exact h6
  · rw [chunk29 V, hr, h0, h1, h2, h3, h4, h5, h6]; rfl

set_option maxRecDepth 8192 in
theorem tail28 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v825) = rret27 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf28 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops28 ++ suf29) V _ = _
  rw [Cert.Ssa.after_append]
  refine tail29 V₀ (after ops28 V) ?_ ?_ ?_ ?_ ?_ ?_ ?_ ?_
  · rw [(writes28 (F := F)).keep (r := main_arg0) (by decide) V]; exact h0
  · rw [(writes28 (F := F)).keep (r := main_arg1) (by decide) V]; exact h1
  · rw [(writes28 (F := F)).keep (r := main_arg2) (by decide) V]; exact h2
  · rw [(writes28 (F := F)).keep (r := main_arg3) (by decide) V]; exact h3
  · rw [(writes28 (F := F)).keep (r := main_arg4) (by decide) V]; exact h4
  · rw [(writes28 (F := F)).keep (r := main_arg5) (by decide) V]; exact h5
  · rw [(writes28 (F := F)).keep (r := main_arg6) (by decide) V]; exact h6
  · rw [chunk28 V, hr, h0, h1, h2, h3, h4, h5, h6]; rfl

set_option maxRecDepth 8192 in
theorem tail27 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v796) = rret26 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf27 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops27 ++ suf28) V _ = _
  rw [Cert.Ssa.after_append]
  refine tail28 V₀ (after ops27 V) ?_ ?_ ?_ ?_ ?_ ?_ ?_ ?_
  · rw [(writes27 (F := F)).keep (r := main_arg0) (by decide) V]; exact h0
  · rw [(writes27 (F := F)).keep (r := main_arg1) (by decide) V]; exact h1
  · rw [(writes27 (F := F)).keep (r := main_arg2) (by decide) V]; exact h2
  · rw [(writes27 (F := F)).keep (r := main_arg3) (by decide) V]; exact h3
  · rw [(writes27 (F := F)).keep (r := main_arg4) (by decide) V]; exact h4
  · rw [(writes27 (F := F)).keep (r := main_arg5) (by decide) V]; exact h5
  · rw [(writes27 (F := F)).keep (r := main_arg6) (by decide) V]; exact h6
  · rw [chunk27 V, hr, h0, h1, h2, h3, h4, h5, h6]; rfl

set_option maxRecDepth 8192 in
theorem tail26 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v767) = rret25 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf26 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops26 ++ suf27) V _ = _
  rw [Cert.Ssa.after_append]
  refine tail27 V₀ (after ops26 V) ?_ ?_ ?_ ?_ ?_ ?_ ?_ ?_
  · rw [(writes26 (F := F)).keep (r := main_arg0) (by decide) V]; exact h0
  · rw [(writes26 (F := F)).keep (r := main_arg1) (by decide) V]; exact h1
  · rw [(writes26 (F := F)).keep (r := main_arg2) (by decide) V]; exact h2
  · rw [(writes26 (F := F)).keep (r := main_arg3) (by decide) V]; exact h3
  · rw [(writes26 (F := F)).keep (r := main_arg4) (by decide) V]; exact h4
  · rw [(writes26 (F := F)).keep (r := main_arg5) (by decide) V]; exact h5
  · rw [(writes26 (F := F)).keep (r := main_arg6) (by decide) V]; exact h6
  · rw [chunk26 V, hr, h0, h1, h2, h3, h4, h5, h6]; rfl

set_option maxRecDepth 8192 in
theorem tail25 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v738) = rret24 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf25 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops25 ++ suf26) V _ = _
  rw [Cert.Ssa.after_append]
  refine tail26 V₀ (after ops25 V) ?_ ?_ ?_ ?_ ?_ ?_ ?_ ?_
  · rw [(writes25 (F := F)).keep (r := main_arg0) (by decide) V]; exact h0
  · rw [(writes25 (F := F)).keep (r := main_arg1) (by decide) V]; exact h1
  · rw [(writes25 (F := F)).keep (r := main_arg2) (by decide) V]; exact h2
  · rw [(writes25 (F := F)).keep (r := main_arg3) (by decide) V]; exact h3
  · rw [(writes25 (F := F)).keep (r := main_arg4) (by decide) V]; exact h4
  · rw [(writes25 (F := F)).keep (r := main_arg5) (by decide) V]; exact h5
  · rw [(writes25 (F := F)).keep (r := main_arg6) (by decide) V]; exact h6
  · rw [chunk25 V, hr, h0, h1, h2, h3, h4, h5, h6]; rfl

set_option maxRecDepth 8192 in
theorem tail24 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v709) = rret23 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf24 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops24 ++ suf25) V _ = _
  rw [Cert.Ssa.after_append]
  refine tail25 V₀ (after ops24 V) ?_ ?_ ?_ ?_ ?_ ?_ ?_ ?_
  · rw [(writes24 (F := F)).keep (r := main_arg0) (by decide) V]; exact h0
  · rw [(writes24 (F := F)).keep (r := main_arg1) (by decide) V]; exact h1
  · rw [(writes24 (F := F)).keep (r := main_arg2) (by decide) V]; exact h2
  · rw [(writes24 (F := F)).keep (r := main_arg3) (by decide) V]; exact h3
  · rw [(writes24 (F := F)).keep (r := main_arg4) (by decide) V]; exact h4
  · rw [(writes24 (F := F)).keep (r := main_arg5) (by decide) V]; exact h5
  · rw [(writes24 (F := F)).keep (r := main_arg6) (by decide) V]; exact h6
  · rw [chunk24 V, hr, h0, h1, h2, h3, h4, h5, h6]; rfl

set_option maxRecDepth 8192 in
theorem tail23 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v680) = rret22 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf23 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops23 ++ suf24) V _ = _
  rw [Cert.Ssa.after_append]
  refine tail24 V₀ (after ops23 V) ?_ ?_ ?_ ?_ ?_ ?_ ?_ ?_
  · rw [(writes23 (F := F)).keep (r := main_arg0) (by decide) V]; exact h0
  · rw [(writes23 (F := F)).keep (r := main_arg1) (by decide) V]; exact h1
  · rw [(writes23 (F := F)).keep (r := main_arg2) (by decide) V]; exact h2
  · rw [(writes23 (F := F)).keep (r := main_arg3) (by decide) V]; exact h3
  · rw [(writes23 (F := F)).keep (r := main_arg4) (by decide) V]; exact h4
  · rw [(writes23 (F := F)).keep (r := main_arg5) (by decide) V]; exact h5
  · rw [(writes23 (F := F)).keep (r := main_arg6) (by decide) V]; exact h6
  · rw [chunk23 V, hr, h0, h1, h2, h3, h4, h5, h6]; rfl

set_option maxRecDepth 8192 in
theorem tail22 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v651) = rret21 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf22 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops22 ++ suf23) V _ = _
  rw [Cert.Ssa.after_append]
  refine tail23 V₀ (after ops22 V) ?_ ?_ ?_ ?_ ?_ ?_ ?_ ?_
  · rw [(writes22 (F := F)).keep (r := main_arg0) (by decide) V]; exact h0
  · rw [(writes22 (F := F)).keep (r := main_arg1) (by decide) V]; exact h1
  · rw [(writes22 (F := F)).keep (r := main_arg2) (by decide) V]; exact h2
  · rw [(writes22 (F := F)).keep (r := main_arg3) (by decide) V]; exact h3
  · rw [(writes22 (F := F)).keep (r := main_arg4) (by decide) V]; exact h4
  · rw [(writes22 (F := F)).keep (r := main_arg5) (by decide) V]; exact h5
  · rw [(writes22 (F := F)).keep (r := main_arg6) (by decide) V]; exact h6
  · rw [chunk22 V, hr, h0, h1, h2, h3, h4, h5, h6]; rfl

set_option maxRecDepth 8192 in
theorem tail21 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v622) = rret20 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf21 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops21 ++ suf22) V _ = _
  rw [Cert.Ssa.after_append]
  refine tail22 V₀ (after ops21 V) ?_ ?_ ?_ ?_ ?_ ?_ ?_ ?_
  · rw [(writes21 (F := F)).keep (r := main_arg0) (by decide) V]; exact h0
  · rw [(writes21 (F := F)).keep (r := main_arg1) (by decide) V]; exact h1
  · rw [(writes21 (F := F)).keep (r := main_arg2) (by decide) V]; exact h2
  · rw [(writes21 (F := F)).keep (r := main_arg3) (by decide) V]; exact h3
  · rw [(writes21 (F := F)).keep (r := main_arg4) (by decide) V]; exact h4
  · rw [(writes21 (F := F)).keep (r := main_arg5) (by decide) V]; exact h5
  · rw [(writes21 (F := F)).keep (r := main_arg6) (by decide) V]; exact h6
  · rw [chunk21 V, hr, h0, h1, h2, h3, h4, h5, h6]; rfl

set_option maxRecDepth 8192 in
theorem tail20 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v593) = rret19 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf20 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops20 ++ suf21) V _ = _
  rw [Cert.Ssa.after_append]
  refine tail21 V₀ (after ops20 V) ?_ ?_ ?_ ?_ ?_ ?_ ?_ ?_
  · rw [(writes20 (F := F)).keep (r := main_arg0) (by decide) V]; exact h0
  · rw [(writes20 (F := F)).keep (r := main_arg1) (by decide) V]; exact h1
  · rw [(writes20 (F := F)).keep (r := main_arg2) (by decide) V]; exact h2
  · rw [(writes20 (F := F)).keep (r := main_arg3) (by decide) V]; exact h3
  · rw [(writes20 (F := F)).keep (r := main_arg4) (by decide) V]; exact h4
  · rw [(writes20 (F := F)).keep (r := main_arg5) (by decide) V]; exact h5
  · rw [(writes20 (F := F)).keep (r := main_arg6) (by decide) V]; exact h6
  · rw [chunk20 V, hr, h0, h1, h2, h3, h4, h5, h6]; rfl

set_option maxRecDepth 8192 in
theorem tail19 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v564) = rret18 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf19 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops19 ++ suf20) V _ = _
  rw [Cert.Ssa.after_append]
  refine tail20 V₀ (after ops19 V) ?_ ?_ ?_ ?_ ?_ ?_ ?_ ?_
  · rw [(writes19 (F := F)).keep (r := main_arg0) (by decide) V]; exact h0
  · rw [(writes19 (F := F)).keep (r := main_arg1) (by decide) V]; exact h1
  · rw [(writes19 (F := F)).keep (r := main_arg2) (by decide) V]; exact h2
  · rw [(writes19 (F := F)).keep (r := main_arg3) (by decide) V]; exact h3
  · rw [(writes19 (F := F)).keep (r := main_arg4) (by decide) V]; exact h4
  · rw [(writes19 (F := F)).keep (r := main_arg5) (by decide) V]; exact h5
  · rw [(writes19 (F := F)).keep (r := main_arg6) (by decide) V]; exact h6
  · rw [chunk19 V, hr, h0, h1, h2, h3, h4, h5, h6]; rfl

set_option maxRecDepth 8192 in
theorem tail18 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v535) = rret17 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf18 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops18 ++ suf19) V _ = _
  rw [Cert.Ssa.after_append]
  refine tail19 V₀ (after ops18 V) ?_ ?_ ?_ ?_ ?_ ?_ ?_ ?_
  · rw [(writes18 (F := F)).keep (r := main_arg0) (by decide) V]; exact h0
  · rw [(writes18 (F := F)).keep (r := main_arg1) (by decide) V]; exact h1
  · rw [(writes18 (F := F)).keep (r := main_arg2) (by decide) V]; exact h2
  · rw [(writes18 (F := F)).keep (r := main_arg3) (by decide) V]; exact h3
  · rw [(writes18 (F := F)).keep (r := main_arg4) (by decide) V]; exact h4
  · rw [(writes18 (F := F)).keep (r := main_arg5) (by decide) V]; exact h5
  · rw [(writes18 (F := F)).keep (r := main_arg6) (by decide) V]; exact h6
  · rw [chunk18 V, hr, h0, h1, h2, h3, h4, h5, h6]; rfl

set_option maxRecDepth 8192 in
theorem tail17 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v506) = rret16 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf17 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops17 ++ suf18) V _ = _
  rw [Cert.Ssa.after_append]
  refine tail18 V₀ (after ops17 V) ?_ ?_ ?_ ?_ ?_ ?_ ?_ ?_
  · rw [(writes17 (F := F)).keep (r := main_arg0) (by decide) V]; exact h0
  · rw [(writes17 (F := F)).keep (r := main_arg1) (by decide) V]; exact h1
  · rw [(writes17 (F := F)).keep (r := main_arg2) (by decide) V]; exact h2
  · rw [(writes17 (F := F)).keep (r := main_arg3) (by decide) V]; exact h3
  · rw [(writes17 (F := F)).keep (r := main_arg4) (by decide) V]; exact h4
  · rw [(writes17 (F := F)).keep (r := main_arg5) (by decide) V]; exact h5
  · rw [(writes17 (F := F)).keep (r := main_arg6) (by decide) V]; exact h6
  · rw [chunk17 V, hr, h0, h1, h2, h3, h4, h5, h6]; rfl

set_option maxRecDepth 8192 in
theorem tail16 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v477) = rret15 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf16 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops16 ++ suf17) V _ = _
  rw [Cert.Ssa.after_append]
  refine tail17 V₀ (after ops16 V) ?_ ?_ ?_ ?_ ?_ ?_ ?_ ?_
  · rw [(writes16 (F := F)).keep (r := main_arg0) (by decide) V]; exact h0
  · rw [(writes16 (F := F)).keep (r := main_arg1) (by decide) V]; exact h1
  · rw [(writes16 (F := F)).keep (r := main_arg2) (by decide) V]; exact h2
  · rw [(writes16 (F := F)).keep (r := main_arg3) (by decide) V]; exact h3
  · rw [(writes16 (F := F)).keep (r := main_arg4) (by decide) V]; exact h4
  · rw [(writes16 (F := F)).keep (r := main_arg5) (by decide) V]; exact h5
  · rw [(writes16 (F := F)).keep (r := main_arg6) (by decide) V]; exact h6
  · rw [chunk16 V, hr, h0, h1, h2, h3, h4, h5, h6]; rfl

set_option maxRecDepth 8192 in
theorem tail15 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v448) = rret14 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf15 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops15 ++ suf16) V _ = _
  rw [Cert.Ssa.after_append]
  refine tail16 V₀ (after ops15 V) ?_ ?_ ?_ ?_ ?_ ?_ ?_ ?_
  · rw [(writes15 (F := F)).keep (r := main_arg0) (by decide) V]; exact h0
  · rw [(writes15 (F := F)).keep (r := main_arg1) (by decide) V]; exact h1
  · rw [(writes15 (F := F)).keep (r := main_arg2) (by decide) V]; exact h2
  · rw [(writes15 (F := F)).keep (r := main_arg3) (by decide) V]; exact h3
  · rw [(writes15 (F := F)).keep (r := main_arg4) (by decide) V]; exact h4
  · rw [(writes15 (F := F)).keep (r := main_arg5) (by decide) V]; exact h5
  · rw [(writes15 (F := F)).keep (r := main_arg6) (by decide) V]; exact h6
  · rw [chunk15 V, hr, h0, h1, h2, h3, h4, h5, h6]; rfl

set_option maxRecDepth 8192 in
theorem tail14 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v419) = rret13 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf14 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops14 ++ suf15) V _ = _
  rw [Cert.Ssa.after_append]
  refine tail15 V₀ (after ops14 V) ?_ ?_ ?_ ?_ ?_ ?_ ?_ ?_
  · rw [(writes14 (F := F)).keep (r := main_arg0) (by decide) V]; exact h0
  · rw [(writes14 (F := F)).keep (r := main_arg1) (by decide) V]; exact h1
  · rw [(writes14 (F := F)).keep (r := main_arg2) (by decide) V]; exact h2
  · rw [(writes14 (F := F)).keep (r := main_arg3) (by decide) V]; exact h3
  · rw [(writes14 (F := F)).keep (r := main_arg4) (by decide) V]; exact h4
  · rw [(writes14 (F := F)).keep (r := main_arg5) (by decide) V]; exact h5
  · rw [(writes14 (F := F)).keep (r := main_arg6) (by decide) V]; exact h6
  · rw [chunk14 V, hr, h0, h1, h2, h3, h4, h5, h6]; rfl

set_option maxRecDepth 8192 in
theorem tail13 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v390) = rret12 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf13 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops13 ++ suf14) V _ = _
  rw [Cert.Ssa.after_append]
  refine tail14 V₀ (after ops13 V) ?_ ?_ ?_ ?_ ?_ ?_ ?_ ?_
  · rw [(writes13 (F := F)).keep (r := main_arg0) (by decide) V]; exact h0
  · rw [(writes13 (F := F)).keep (r := main_arg1) (by decide) V]; exact h1
  · rw [(writes13 (F := F)).keep (r := main_arg2) (by decide) V]; exact h2
  · rw [(writes13 (F := F)).keep (r := main_arg3) (by decide) V]; exact h3
  · rw [(writes13 (F := F)).keep (r := main_arg4) (by decide) V]; exact h4
  · rw [(writes13 (F := F)).keep (r := main_arg5) (by decide) V]; exact h5
  · rw [(writes13 (F := F)).keep (r := main_arg6) (by decide) V]; exact h6
  · rw [chunk13 V, hr, h0, h1, h2, h3, h4, h5, h6]; rfl

set_option maxRecDepth 8192 in
theorem tail12 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v361) = rret11 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf12 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops12 ++ suf13) V _ = _
  rw [Cert.Ssa.after_append]
  refine tail13 V₀ (after ops12 V) ?_ ?_ ?_ ?_ ?_ ?_ ?_ ?_
  · rw [(writes12 (F := F)).keep (r := main_arg0) (by decide) V]; exact h0
  · rw [(writes12 (F := F)).keep (r := main_arg1) (by decide) V]; exact h1
  · rw [(writes12 (F := F)).keep (r := main_arg2) (by decide) V]; exact h2
  · rw [(writes12 (F := F)).keep (r := main_arg3) (by decide) V]; exact h3
  · rw [(writes12 (F := F)).keep (r := main_arg4) (by decide) V]; exact h4
  · rw [(writes12 (F := F)).keep (r := main_arg5) (by decide) V]; exact h5
  · rw [(writes12 (F := F)).keep (r := main_arg6) (by decide) V]; exact h6
  · rw [chunk12 V, hr, h0, h1, h2, h3, h4, h5, h6]; rfl

set_option maxRecDepth 8192 in
theorem tail11 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v332) = rret10 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf11 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops11 ++ suf12) V _ = _
  rw [Cert.Ssa.after_append]
  refine tail12 V₀ (after ops11 V) ?_ ?_ ?_ ?_ ?_ ?_ ?_ ?_
  · rw [(writes11 (F := F)).keep (r := main_arg0) (by decide) V]; exact h0
  · rw [(writes11 (F := F)).keep (r := main_arg1) (by decide) V]; exact h1
  · rw [(writes11 (F := F)).keep (r := main_arg2) (by decide) V]; exact h2
  · rw [(writes11 (F := F)).keep (r := main_arg3) (by decide) V]; exact h3
  · rw [(writes11 (F := F)).keep (r := main_arg4) (by decide) V]; exact h4
  · rw [(writes11 (F := F)).keep (r := main_arg5) (by decide) V]; exact h5
  · rw [(writes11 (F := F)).keep (r := main_arg6) (by decide) V]; exact h6
  · rw [chunk11 V, hr, h0, h1, h2, h3, h4, h5, h6]; rfl

set_option maxRecDepth 8192 in
theorem tail10 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v303) = rret9 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf10 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops10 ++ suf11) V _ = _
  rw [Cert.Ssa.after_append]
  refine tail11 V₀ (after ops10 V) ?_ ?_ ?_ ?_ ?_ ?_ ?_ ?_
  · rw [(writes10 (F := F)).keep (r := main_arg0) (by decide) V]; exact h0
  · rw [(writes10 (F := F)).keep (r := main_arg1) (by decide) V]; exact h1
  · rw [(writes10 (F := F)).keep (r := main_arg2) (by decide) V]; exact h2
  · rw [(writes10 (F := F)).keep (r := main_arg3) (by decide) V]; exact h3
  · rw [(writes10 (F := F)).keep (r := main_arg4) (by decide) V]; exact h4
  · rw [(writes10 (F := F)).keep (r := main_arg5) (by decide) V]; exact h5
  · rw [(writes10 (F := F)).keep (r := main_arg6) (by decide) V]; exact h6
  · rw [chunk10 V, hr, h0, h1, h2, h3, h4, h5, h6]; rfl

set_option maxRecDepth 8192 in
theorem tail9 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v274) = rret8 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf9 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops9 ++ suf10) V _ = _
  rw [Cert.Ssa.after_append]
  refine tail10 V₀ (after ops9 V) ?_ ?_ ?_ ?_ ?_ ?_ ?_ ?_
  · rw [(writes9 (F := F)).keep (r := main_arg0) (by decide) V]; exact h0
  · rw [(writes9 (F := F)).keep (r := main_arg1) (by decide) V]; exact h1
  · rw [(writes9 (F := F)).keep (r := main_arg2) (by decide) V]; exact h2
  · rw [(writes9 (F := F)).keep (r := main_arg3) (by decide) V]; exact h3
  · rw [(writes9 (F := F)).keep (r := main_arg4) (by decide) V]; exact h4
  · rw [(writes9 (F := F)).keep (r := main_arg5) (by decide) V]; exact h5
  · rw [(writes9 (F := F)).keep (r := main_arg6) (by decide) V]; exact h6
  · rw [chunk9 V, hr, h0, h1, h2, h3, h4, h5, h6]; rfl

set_option maxRecDepth 8192 in
theorem tail8 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v245) = rret7 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf8 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops8 ++ suf9) V _ = _
  rw [Cert.Ssa.after_append]
  refine tail9 V₀ (after ops8 V) ?_ ?_ ?_ ?_ ?_ ?_ ?_ ?_
  · rw [(writes8 (F := F)).keep (r := main_arg0) (by decide) V]; exact h0
  · rw [(writes8 (F := F)).keep (r := main_arg1) (by decide) V]; exact h1
  · rw [(writes8 (F := F)).keep (r := main_arg2) (by decide) V]; exact h2
  · rw [(writes8 (F := F)).keep (r := main_arg3) (by decide) V]; exact h3
  · rw [(writes8 (F := F)).keep (r := main_arg4) (by decide) V]; exact h4
  · rw [(writes8 (F := F)).keep (r := main_arg5) (by decide) V]; exact h5
  · rw [(writes8 (F := F)).keep (r := main_arg6) (by decide) V]; exact h6
  · rw [chunk8 V, hr, h0, h1, h2, h3, h4, h5, h6]; rfl

set_option maxRecDepth 8192 in
theorem tail7 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v216) = rret6 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf7 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops7 ++ suf8) V _ = _
  rw [Cert.Ssa.after_append]
  refine tail8 V₀ (after ops7 V) ?_ ?_ ?_ ?_ ?_ ?_ ?_ ?_
  · rw [(writes7 (F := F)).keep (r := main_arg0) (by decide) V]; exact h0
  · rw [(writes7 (F := F)).keep (r := main_arg1) (by decide) V]; exact h1
  · rw [(writes7 (F := F)).keep (r := main_arg2) (by decide) V]; exact h2
  · rw [(writes7 (F := F)).keep (r := main_arg3) (by decide) V]; exact h3
  · rw [(writes7 (F := F)).keep (r := main_arg4) (by decide) V]; exact h4
  · rw [(writes7 (F := F)).keep (r := main_arg5) (by decide) V]; exact h5
  · rw [(writes7 (F := F)).keep (r := main_arg6) (by decide) V]; exact h6
  · rw [chunk7 V, hr, h0, h1, h2, h3, h4, h5, h6]; rfl

set_option maxRecDepth 8192 in
theorem tail6 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v187) = rret5 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf6 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops6 ++ suf7) V _ = _
  rw [Cert.Ssa.after_append]
  refine tail7 V₀ (after ops6 V) ?_ ?_ ?_ ?_ ?_ ?_ ?_ ?_
  · rw [(writes6 (F := F)).keep (r := main_arg0) (by decide) V]; exact h0
  · rw [(writes6 (F := F)).keep (r := main_arg1) (by decide) V]; exact h1
  · rw [(writes6 (F := F)).keep (r := main_arg2) (by decide) V]; exact h2
  · rw [(writes6 (F := F)).keep (r := main_arg3) (by decide) V]; exact h3
  · rw [(writes6 (F := F)).keep (r := main_arg4) (by decide) V]; exact h4
  · rw [(writes6 (F := F)).keep (r := main_arg5) (by decide) V]; exact h5
  · rw [(writes6 (F := F)).keep (r := main_arg6) (by decide) V]; exact h6
  · rw [chunk6 V, hr, h0, h1, h2, h3, h4, h5, h6]; rfl

set_option maxRecDepth 8192 in
theorem tail5 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v158) = rret4 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf5 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops5 ++ suf6) V _ = _
  rw [Cert.Ssa.after_append]
  refine tail6 V₀ (after ops5 V) ?_ ?_ ?_ ?_ ?_ ?_ ?_ ?_
  · rw [(writes5 (F := F)).keep (r := main_arg0) (by decide) V]; exact h0
  · rw [(writes5 (F := F)).keep (r := main_arg1) (by decide) V]; exact h1
  · rw [(writes5 (F := F)).keep (r := main_arg2) (by decide) V]; exact h2
  · rw [(writes5 (F := F)).keep (r := main_arg3) (by decide) V]; exact h3
  · rw [(writes5 (F := F)).keep (r := main_arg4) (by decide) V]; exact h4
  · rw [(writes5 (F := F)).keep (r := main_arg5) (by decide) V]; exact h5
  · rw [(writes5 (F := F)).keep (r := main_arg6) (by decide) V]; exact h6
  · rw [chunk5 V, hr, h0, h1, h2, h3, h4, h5, h6]; rfl

set_option maxRecDepth 8192 in
theorem tail4 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v129) = rret3 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf4 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops4 ++ suf5) V _ = _
  rw [Cert.Ssa.after_append]
  refine tail5 V₀ (after ops4 V) ?_ ?_ ?_ ?_ ?_ ?_ ?_ ?_
  · rw [(writes4 (F := F)).keep (r := main_arg0) (by decide) V]; exact h0
  · rw [(writes4 (F := F)).keep (r := main_arg1) (by decide) V]; exact h1
  · rw [(writes4 (F := F)).keep (r := main_arg2) (by decide) V]; exact h2
  · rw [(writes4 (F := F)).keep (r := main_arg3) (by decide) V]; exact h3
  · rw [(writes4 (F := F)).keep (r := main_arg4) (by decide) V]; exact h4
  · rw [(writes4 (F := F)).keep (r := main_arg5) (by decide) V]; exact h5
  · rw [(writes4 (F := F)).keep (r := main_arg6) (by decide) V]; exact h6
  · rw [chunk4 V, hr, h0, h1, h2, h3, h4, h5, h6]; rfl

set_option maxRecDepth 8192 in
theorem tail3 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v100) = rret2 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf3 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops3 ++ suf4) V _ = _
  rw [Cert.Ssa.after_append]
  refine tail4 V₀ (after ops3 V) ?_ ?_ ?_ ?_ ?_ ?_ ?_ ?_
  · rw [(writes3 (F := F)).keep (r := main_arg0) (by decide) V]; exact h0
  · rw [(writes3 (F := F)).keep (r := main_arg1) (by decide) V]; exact h1
  · rw [(writes3 (F := F)).keep (r := main_arg2) (by decide) V]; exact h2
  · rw [(writes3 (F := F)).keep (r := main_arg3) (by decide) V]; exact h3
  · rw [(writes3 (F := F)).keep (r := main_arg4) (by decide) V]; exact h4
  · rw [(writes3 (F := F)).keep (r := main_arg5) (by decide) V]; exact h5
  · rw [(writes3 (F := F)).keep (r := main_arg6) (by decide) V]; exact h6
  · rw [chunk3 V, hr, h0, h1, h2, h3, h4, h5, h6]; rfl

set_option maxRecDepth 8192 in
theorem tail2 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v71) = rret1 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf2 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops2 ++ suf3) V _ = _
  rw [Cert.Ssa.after_append]
  refine tail3 V₀ (after ops2 V) ?_ ?_ ?_ ?_ ?_ ?_ ?_ ?_
  · rw [(writes2 (F := F)).keep (r := main_arg0) (by decide) V]; exact h0
  · rw [(writes2 (F := F)).keep (r := main_arg1) (by decide) V]; exact h1
  · rw [(writes2 (F := F)).keep (r := main_arg2) (by decide) V]; exact h2
  · rw [(writes2 (F := F)).keep (r := main_arg3) (by decide) V]; exact h3
  · rw [(writes2 (F := F)).keep (r := main_arg4) (by decide) V]; exact h4
  · rw [(writes2 (F := F)).keep (r := main_arg5) (by decide) V]; exact h5
  · rw [(writes2 (F := F)).keep (r := main_arg6) (by decide) V]; exact h6
  · rw [chunk2 V, hr, h0, h1, h2, h3, h4, h5, h6]; rfl

set_option maxRecDepth 8192 in
theorem tail1 (V₀ V : Valuation τ sig (Elt F))
    (h0 : V (Proc.devRef .tc main_arg0) = V₀ (Proc.devRef .tc main_arg0))
    (h1 : V (Proc.devRef .tc main_arg1) = V₀ (Proc.devRef .tc main_arg1))
    (h2 : V (Proc.devRef .tc main_arg2) = V₀ (Proc.devRef .tc main_arg2))
    (h3 : V (Proc.devRef .tc main_arg3) = V₀ (Proc.devRef .tc main_arg3))
    (h4 : V (Proc.devRef .tc main_arg4) = V₀ (Proc.devRef .tc main_arg4))
    (h5 : V (Proc.devRef .tc main_arg5) = V₀ (Proc.devRef .tc main_arg5))
    (h6 : V (Proc.devRef .tc main_arg6) = V₀ (Proc.devRef .tc main_arg6))
    (hr : V (Proc.devRef .tc main_v42) = rret0 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6))) :
    after suf1 V (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops1 ++ suf2) V _ = _
  rw [Cert.Ssa.after_append]
  refine tail2 V₀ (after ops1 V) ?_ ?_ ?_ ?_ ?_ ?_ ?_ ?_
  · rw [(writes1 (F := F)).keep (r := main_arg0) (by decide) V]; exact h0
  · rw [(writes1 (F := F)).keep (r := main_arg1) (by decide) V]; exact h1
  · rw [(writes1 (F := F)).keep (r := main_arg2) (by decide) V]; exact h2
  · rw [(writes1 (F := F)).keep (r := main_arg3) (by decide) V]; exact h3
  · rw [(writes1 (F := F)).keep (r := main_arg4) (by decide) V]; exact h4
  · rw [(writes1 (F := F)).keep (r := main_arg5) (by decide) V]; exact h5
  · rw [(writes1 (F := F)).keep (r := main_arg6) (by decide) V]; exact h6
  · rw [chunk1 V, hr, h0, h1, h2, h3, h4, h5, h6]; rfl

set_option maxRecDepth 8192 in
/-- After the whole line the result buffer holds the chain's last step of the argument arrays as launched. -/
theorem result (V₀ : Valuation τ sig (Elt F)) : after ops V₀ (Proc.devRef .tc main_v944) = rbody (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) := by
  show after (ops0 ++ suf1) V₀ _ = _
  rw [Cert.Ssa.after_append]
  refine tail1 V₀ (after ops0 V₀) ?_ ?_ ?_ ?_ ?_ ?_ ?_ ?_
  · exact (writes0 (F := F)).keep (r := main_arg0) (by decide) V₀
  · exact (writes0 (F := F)).keep (r := main_arg1) (by decide) V₀
  · exact (writes0 (F := F)).keep (r := main_arg2) (by decide) V₀
  · exact (writes0 (F := F)).keep (r := main_arg3) (by decide) V₀
  · exact (writes0 (F := F)).keep (r := main_arg4) (by decide) V₀
  · exact (writes0 (F := F)).keep (r := main_arg5) (by decide) V₀
  · exact (writes0 (F := F)).keep (r := main_arg6) (by decide) V₀
  · exact chunk0 V₀

attribute [local irreducible] Cert.Ssa.Writes

/-- Every buffer the line writes, in order. -/
abbrev Wall : List (Ref sig .tc) := W0 ++ (W1 ++ (W2 ++ (W3 ++ (W4 ++ (W5 ++ (W6 ++ (W7 ++ (W8 ++ (W9 ++ (W10 ++ (W11 ++ (W12 ++ (W13 ++ (W14 ++ (W15 ++ (W16 ++ (W17 ++ (W18 ++ (W19 ++ (W20 ++ (W21 ++ (W22 ++ (W23 ++ (W24 ++ (W25 ++ (W26 ++ (W27 ++ (W28 ++ (W29 ++ (W30 ++ (W31)))))))))))))))))))))))))))))))

theorem writesAll : Cert.Ssa.Writes (ops (F := F)) Wall :=
  (writes0 (F := F)).append ((writes1 (F := F)).append ((writes2 (F := F)).append ((writes3 (F := F)).append ((writes4 (F := F)).append ((writes5 (F := F)).append ((writes6 (F := F)).append ((writes7 (F := F)).append ((writes8 (F := F)).append ((writes9 (F := F)).append ((writes10 (F := F)).append ((writes11 (F := F)).append ((writes12 (F := F)).append ((writes13 (F := F)).append ((writes14 (F := F)).append ((writes15 (F := F)).append ((writes16 (F := F)).append ((writes17 (F := F)).append ((writes18 (F := F)).append ((writes19 (F := F)).append ((writes20 (F := F)).append ((writes21 (F := F)).append ((writes22 (F := F)).append ((writes23 (F := F)).append ((writes24 (F := F)).append ((writes25 (F := F)).append ((writes26 (F := F)).append ((writes27 (F := F)).append ((writes28 (F := F)).append ((writes29 (F := F)).append ((writes30 (F := F)).append ((writes31 (F := F)))))))))))))))))))))))))))))))))

theorem kept0 (V₀ : Valuation τ sig (Elt F)) : after ops V₀ (Proc.devRef .tc main_arg0) = V₀ (Proc.devRef .tc main_arg0) :=
  (writesAll (F := F)).keep (r := main_arg0) (by decide +kernel) V₀

theorem kept1 (V₀ : Valuation τ sig (Elt F)) : after ops V₀ (Proc.devRef .tc main_arg1) = V₀ (Proc.devRef .tc main_arg1) :=
  (writesAll (F := F)).keep (r := main_arg1) (by decide +kernel) V₀

theorem kept2 (V₀ : Valuation τ sig (Elt F)) : after ops V₀ (Proc.devRef .tc main_arg2) = V₀ (Proc.devRef .tc main_arg2) :=
  (writesAll (F := F)).keep (r := main_arg2) (by decide +kernel) V₀

theorem kept3 (V₀ : Valuation τ sig (Elt F)) : after ops V₀ (Proc.devRef .tc main_arg3) = V₀ (Proc.devRef .tc main_arg3) :=
  (writesAll (F := F)).keep (r := main_arg3) (by decide +kernel) V₀

theorem kept4 (V₀ : Valuation τ sig (Elt F)) : after ops V₀ (Proc.devRef .tc main_arg4) = V₀ (Proc.devRef .tc main_arg4) :=
  (writesAll (F := F)).keep (r := main_arg4) (by decide +kernel) V₀

theorem kept5 (V₀ : Valuation τ sig (Elt F)) : after ops V₀ (Proc.devRef .tc main_arg5) = V₀ (Proc.devRef .tc main_arg5) :=
  (writesAll (F := F)).keep (r := main_arg5) (by decide +kernel) V₀

theorem kept6 (V₀ : Valuation τ sig (Elt F)) : after ops V₀ (Proc.devRef .tc main_arg6) = V₀ (Proc.devRef .tc main_arg6) :=
  (writesAll (F := F)).keep (r := main_arg6) (by decide +kernel) V₀

end Cert.ReferenceIdeal.Line

end
-- ==== Proof.RefRun.lean ====
/-
  The reference's run, read: what its result buffer holds.

  Every weakly fair execution of the reference terminates with its one result, a [65536, 1] array, holding the last
  step of the chain of 32 steps (`rbody`) applied to the seven argument arrays as launched, and with the argument
  arrays unchanged: the fold of the program's operations, read piece by piece.
-/
import proofs.«110954_j11751030522504_2_alg».proof.Proof.RLineRun
import proofs.«110954_j11751030522504_2_alg».proof.Proof.RLineStage

noncomputable section

namespace Cert.ReferenceIdeal.HostRun

open Cert.ReferenceIdeal Cert.ReferenceIdeal.Gen Cert.ReferenceIdeal.Steps Idealize.ShloMosaic Idealize.ShloMosaic.TcCoe Idealize.SL.Sem Idealize.ShloMosaic.StableHlo

variable {F : FTy → Type} [FloatOps F]

/-- The run of the reference with its result named. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v944)
        = rbody (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v944).trans (Cert.ReferenceIdeal.Line.result _),
      (h c main_arg0).trans (Cert.ReferenceIdeal.Line.kept0 _),
      (h c main_arg1).trans (Cert.ReferenceIdeal.Line.kept1 _),
      (h c main_arg2).trans (Cert.ReferenceIdeal.Line.kept2 _),
      (h c main_arg3).trans (Cert.ReferenceIdeal.Line.kept3 _),
      (h c main_arg4).trans (Cert.ReferenceIdeal.Line.kept4 _),
      (h c main_arg5).trans (Cert.ReferenceIdeal.Line.kept5 _),
      (h c main_arg6).trans (Cert.ReferenceIdeal.Line.kept6 _)⟩)
    (Cert.ReferenceIdeal.Line.run_after m ρ)

end Cert.ReferenceIdeal.HostRun

end
-- ==== Proof.lean ====
/-
  A blocked kernel for a tensor-train network against its whole-array reference: equal results over the extended reals.

  A sample is a row of 512 numbers cut into 32 pieces of 16.  Each piece goes through its own three-layer
  perceptron (16 → 100 → 100 → 64, positive parts after the first two layers); the 64 outputs are an 8 × 8 matrix —
  for the first piece the first 8 outputs, after a softmax, a 1 × 8 matrix, for the last piece the first 8 outputs an
  8 × 1 matrix — and the 32 matrices are multiplied from the left, starting from (1): one number per sample.

  The kernel treats 2048 samples per grid point, the reference all 65536 at once; the kernel's matrix products go
  through a narrower float format and a zero accumulator, which at the ideal instance are the identity and zero;
  the kernel writes the product with the running row as a sum over the middle axis of a broadcast product, the
  reference as a batched contraction — one finite sum of the same products.  So both programs compute, row by row,
  the same chain of 32 steps (Proof/RowSpec.lean) of the same entries of the argument arrays:
    * the kernel's body is that chain over its loaded blocks (Proof/KSteps, KBody, KRead), and its result array is
      tiled by the 32 blocks written back (Proof/KArray);
    * the reference is a straight line of 1077 operations, read piece by piece (Proof/RLineOps, RLineVal0–3,
      RLineStage, RLineRun, RefRun), whose result is the chain over the whole arrays (Proof/RSteps, RBody, RRead);
    * the two chains agree at every row (Proof/Bridge).
  No law of the extended reals beyond reading both sides as the same sums is used, so the precondition that the inputs
  are finite is never opened.  The kernel's idealization rewrote no operation, so `preserves` is trivial; the frames
  are the generated ones, and the reference's frame is its run with the result dropped.
-/
import proofs.«110954_j11751030522504_2_alg».proof.Defs
import proofs.«110954_j11751030522504_2_alg».proof.Proof.Gen.Kernel.Frame
import proofs.«110954_j11751030522504_2_alg».proof.Proof.Gen.KernelIdeal.Frame
import proofs.«110954_j11751030522504_2_alg».proof.Proof.Gen.KernelIdeal.Value
import proofs.«110954_j11751030522504_2_alg».proof.Proof.Gen.Pre_finite_inputs
import proofs.«110954_j11751030522504_2_alg».proof.Proof.KArray
import proofs.«110954_j11751030522504_2_alg».proof.Proof.Bridge
import proofs.«110954_j11751030522504_2_alg».proof.Proof.RefRun
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HostRun.run (F := Ideal) m ρ)

/-- The ideal pass rewrote nothing. -/
theorem preserves : Cert.preserves_Kernel_KernelIdeal := trivial

/-- The reference's chain over the kernel's argument arrays agrees with the kernel's body on every staged block. -/
theorem agrees (m : (ℓ : Loc Cert.KernelIdeal.nD Cert.KernelIdeal.τ Cert.KernelIdeal.sig) → Buf (Elt Ideal) ℓ) (c : Dev Cert.KernelIdeal.nD) :
    Cert.KernelIdeal.Arr.Agrees m c
      (Cert.ReferenceIdeal.Steps.rbody (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) := by
  intro t p h
  rw [Cert.KernelIdeal.Arr.iblk_w1, Cert.KernelIdeal.Arr.iblk_w2, Cert.KernelIdeal.Arr.iblk_w3, Cert.KernelIdeal.Arr.iblk_w4,
    Cert.KernelIdeal.Arr.iblk_w5, Cert.KernelIdeal.Arr.iblk_w6]
  exact Cert.Bridge.body_eq (Cert.KernelIdeal.Gen.iblk m c 0 t) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    t.val t.isLt (fun p q => Cert.KernelIdeal.Arr.iblk_x m c t p q) p

/-- Both idealized programs end with the reference's chain of the arguments in their result arrays. -/
theorem algebraic : Cert.algebraic_KernelIdeal_ReferenceIdeal := by
  intro m ρ m' ρ' _ hagree
  refine ⟨fun c => Cert.ReferenceIdeal.Steps.rbody (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Arr.run m ρ _ (fun c => agrees m c), ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
